-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v514) = v0 c
          ∧ r.2.mem ((c.tc : Thread Cert.ReferenceIdeal.nD Cert.ReferenceIdeal.τ).loc Cert.ReferenceIdeal.main_v516) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S87381x128 : Shape := ⟨2, ![87381, 128]⟩
abbrev S384x128 : Shape := ⟨2, ![384, 128]⟩
abbrev S384 : Shape := ⟨1, ![384]⟩
abbrev S384x512 : Shape := ⟨2, ![384, 512]⟩
abbrev S128x128 : Shape := ⟨2, ![128, 128]⟩
abbrev S128 : Shape := ⟨1, ![128]⟩
abbrev S512x512 : Shape := ⟨2, ![512, 512]⟩
abbrev S512 : Shape := ⟨1, ![512]⟩
abbrev S1x512 : Shape := ⟨2, ![1, 512]⟩
abbrev S_ : Shape := ⟨0, ![]⟩

class Facts : Prop where
  bcast_S_S87381x128 : S_.BroadcastsInDim S87381x128 (![] : Fin 0 → Fin S87381x128.rank)
  reducesTo_S87381x128_S_d0_1 : S87381x128.ReducesTo [0, 1] S_
  h_S_ : 0 < S_.numel
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S384x512 : S_.BroadcastsInDim S384x512 (![] : Fin 0 → Fin S384x512.rank)
  reducesTo_S384x512_S_d0_1 : S384x512.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1x512 : S_.BroadcastsInDim S1x512 (![] : Fin 0 → Fin S1x512.rank)
  reducesTo_S1x512_S_d0_1 : S1x512.ReducesTo [0, 1] S_

variable [Facts]

def fn_part3 {F : FTy → Type} [FloatOps F] (main_v48 : IVec S_ 1) (main_v49 : FVec F S1x512 .f32) (main_v50 : FVec F S1x512 .f32) : IVec S_ 1 :=
  let main_v51 : IVec S1x512 1 := cmpf .olt main_v49 main_v50
  let main_c_19 : IVec S_ 1 := constantI S_ 1 1#1
  let main_v52 : IVec S_ 1 := (fun x v => Host.reduce IntOp.andi x v reducesTo_S1x512_S_d0_1 h_S_) main_v51 main_c_19
  let main_v53 : IVec S_ 1 := andi main_v48 main_v52
  main_v53

def fn_part2 {F : FTy → Type} [FloatOps F] (main_arg7 : FVec F S512x512 .f32) (main_arg8 : FVec F S512 .f32) (main_arg9 : FVec F S1x512 .f32) (main_arg10 : FVec F S1x512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S1x512 .f32 := Host.absf main_arg9
  let main_cst_16 : FVec F S_ .f32 := constant S_ .f32 0x7F800000#32
  let main_v45 : FVec F S1x512 .f32 := broadcastInDim S1x512 ![] bcast_S_S1x512 main_cst_16
  let main_v46 : IVec S1x512 1 := cmpf .olt main_v44 main_v45
  let main_c_17 : IVec S_ 1 := constantI S_ 1 1#1
  let main_v47 : IVec S_ 1 := (fun x v => Host.reduce IntOp.andi x v reducesTo_S1x512_S_d0_1 h_S_) main_v46 main_c_17
  let main_v48 : IVec S_ 1 := andi main_v43 main_v47
  let main_v49 : FVec F S1x512 .f32 := Host.absf main_arg10
  let main_cst_18 : FVec F S_ .f32 := constant S_ .f32 0x7F800000#32
  let main_v50 : FVec F S1x512 .f32 := broadcastInDim S1x512 ![] bcast_S_S1x512 main_cst_18
  fn_part3 (F := F) main_v48 main_v49 main_v50

def fn_part1 {F : FTy → Type} [FloatOps F] (main_arg4 : FVec F S384 .f32) (main_arg5 : FVec F S128x128 .f32) (main_arg6 : FVec F S128 .f32) (main_arg7 : FVec F S512x512 .f32) (main_arg8 : FVec F S512 .f32) (main_arg9 : FVec F S1x512 .f32) (main_arg10 : FVec F S1x512 .f32) (main_v13 : IVec S_ 1) (main_v16 : IVec S384x512 1) : IVec S_ 1 :=
  let main_c_5 : IVec S_ 1 := constantI S_ 1 1#1
  let main_v17 : IVec S_ 1 := (fun x v => Host.reduce IntOp.andi x v reducesTo_S384x512_S_d0_1 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S87381x128 .f32) (main_arg1 : FVec F S384x128 .f32) (main_arg2 : FVec F S384 .f32) (main_arg3 : FVec F S384x512 .f32) (main_arg4 : FVec F S384 .f32) (main_arg5 : FVec F S128x128 .f32) (main_arg6 : FVec F S128 .f32) (main_arg7 : FVec F S512x512 .f32) (main_arg8 : FVec F S512 .f32) (main_arg9 : FVec F S1x512 .f32) (main_arg10 : FVec F S1x512 .f32) : IVec S_ 1 :=
  let main_v0 : FVec F S87381x128 .f32 := Host.absf main_arg0
  let main_cst : FVec F S_ .f32 := constant S_ .f32 0x7F800000#32
  let main_v1 : FVec F S87381x128 .f32 := broadcastInDim S87381x128 ![] bcast_S_S87381x128 main_cst
  let main_v2 : IVec S87381x128 1 := cmpf .olt main_v0 main_v1
  let main_c : IVec S_ 1 := constantI S_ 1 1#1
  let main_v3 : IVec S_ 1 := (fun x v => Host.reduce IntOp.andi x v reducesTo_S87381x128_S_d0_1 h_S_) main_v2 main_c
  let main_v4 : FVec F S384x128 .f32 := Host.absf main_arg1
  let main_cst_0 : FVec F S_ .f32 := constant S_ .f32 0x7F800000#32
  let main_v5 : FVec F S384x128 .f32 := broadcastInDim S384x128 ![] bcast_S_S384x128 main_cst_0
  let main_v6 : IVec S384x128 1 := cmpf .olt main_v4 main_v5
  let main_c_1 : IVec S_ 1 := constantI S_ 1 1#1
  let main_v7 : IVec S_ 1 := (fun x v => Host.reduce IntOp.andi x v reducesTo_S384x128_S_d0_1 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S384x512 .f32 := Host.absf main_arg3
  let main_cst_4 : FVec F S_ .f32 := constant S_ .f32 0x7F800000#32
  let main_v15 : FVec F S384x512 .f32 := broadcastInDim S384x512 ![] bcast_S_S384x512 main_cst_4
  let main_v16 : IVec S384x512 1 := cmpf .olt main_v14 main_v15
  fn_part1 (F := F) main_arg4 main_arg5 main_arg6 main_arg7 main_arg8 main_arg9 main_arg10 main_v13 main_v16
-- ==== Kernel.lean ====
abbrev S87381x128 : Shape := ⟨2, ![87381, 128]⟩
abbrev S384x128 : Shape := ⟨2, ![384, 128]⟩
abbrev S384 : Shape := ⟨1, ![384]⟩
abbrev S384x512 : Shape := ⟨2, ![384, 512]⟩
abbrev S128x128 : Shape := ⟨2, ![128, 128]⟩
abbrev S128 : Shape := ⟨1, ![128]⟩
abbrev S512x512 : Shape := ⟨2, ![512, 512]⟩
abbrev S512 : Shape := ⟨1, ![512]⟩
abbrev S1x512 : Shape := ⟨2, ![1, 512]⟩
abbrev S128x384 : Shape := ⟨2, ![128, 384]⟩
abbrev S512x384 : Shape := ⟨2, ![512, 384]⟩
abbrev S1x384 : Shape := ⟨2, ![1, 384]⟩
abbrev S1x128 : Shape := ⟨2, ![1, 128]⟩
abbrev S65536x128 : Shape := ⟨2, ![65536, 128]⟩
abbrev S1024x128 : Shape := ⟨2, ![1024, 128]⟩
abbrev S1024x512 : Shape := ⟨2, ![1024, 512]⟩
abbrev S1024x384 : Shape := ⟨2, ![1024, 384]⟩
abbrev S16384x512 : Shape := ⟨2, ![16384, 512]⟩
abbrev S16384x128 : Shape := ⟨2, ![16384, 128]⟩
abbrev S4096x512 : Shape := ⟨2, ![4096, 512]⟩
abbrev S4096x128 : Shape := ⟨2, ![4096, 128]⟩
abbrev S256x512 : Shape := ⟨2, ![256, 512]⟩
abbrev S256x128 : Shape := ⟨2, ![256, 128]⟩
abbrev S256x384 : Shape := ⟨2, ![256, 384]⟩
abbrev S64x512 : Shape := ⟨2, ![64, 512]⟩
abbrev S64x128 : Shape := ⟨2, ![64, 128]⟩
abbrev S64x384 : Shape := ⟨2, ![64, 384]⟩
abbrev S16x512 : Shape := ⟨2, ![16, 512]⟩
abbrev S16x128 : Shape := ⟨2, ![16, 128]⟩
abbrev S16x384 : Shape := ⟨2, ![16, 384]⟩
abbrev S4x512 : Shape := ⟨2, ![4, 512]⟩
abbrev S4x128 : Shape := ⟨2, ![4, 128]⟩
abbrev S4x384 : Shape := ⟨2, ![4, 384]⟩
abbrev S1x87381x128 : Shape := ⟨3, ![1, 87381, 128]⟩

abbrev nBuf : Space → Nat
  | .hbm => 66
  | .vmem => 130
  | .smem => 0
  | _ => 0

abbrev vmemTy0_0 (i : Nat) : BufTy := match i % 128 with
  | 0 => ⟨S1024x128, .f32⟩
  | 1 => ⟨S1024x128, .f32⟩
  | 2 => ⟨S1x512, .f32⟩
  | 3 => ⟨S1x512, .f32⟩
  | 4 => ⟨S128x384, .f32⟩
  | 5 => ⟨S1x384, .f32⟩
  | 6 => ⟨S512x384, .f32⟩
  | 7 => ⟨S1x384, .f32⟩
  | 8 => ⟨S128x128, .f32⟩
  | 9 => ⟨S1x128, .f32⟩
  | 10 => ⟨S512x512, .f32⟩
  | 11 => ⟨S1x512, .f32⟩
  | 12 => ⟨S1024x128, .f32⟩
  | 13 => ⟨S1024x128, .f32⟩
  | 14 => ⟨S1024x128, .f32⟩
  | 15 => ⟨S1024x128, .f32⟩
  | 16 => ⟨S1024x128, .f32⟩
  | 17 => ⟨S1024x128, .f32⟩
  | 18 => ⟨S1024x512, .f32⟩
  | 19 => ⟨S1024x512, .f32⟩
  | 20 => ⟨S1024x512, .f32⟩
  | 21 => ⟨S1024x512, .f32⟩
  | 22 => ⟨S128x384, .f32⟩
  | 23 => ⟨S1x384, .f32⟩
  | 24 => ⟨S512x384, .f32⟩
  | 25 => ⟨S1x384, .f32⟩
  | 26 => ⟨S128x128, .f32⟩
  | 27 => ⟨S1x128, .f32⟩
  | 28 => ⟨S512x512, .f32⟩
  | 29 => ⟨S1x512, .f32⟩
  | 30 => ⟨S1024x128, .f32⟩
  | 31 => ⟨S1024x128, .f32⟩
  | 32 => ⟨S1024x128, .f32⟩
  | 33 => ⟨S1024x128, .f32⟩
  | 34 => ⟨S1024x128, .f32⟩
  | 35 => ⟨S1024x128, .f32⟩
  | 36 => ⟨S1024x512, .f32⟩
  | 37 => ⟨S1024x512, .f32⟩
  | 38 => ⟨S1024x512, .f32⟩
  | 39 => ⟨S1024x512, .f32⟩
  | 40 => ⟨S128x384, .f32⟩
  | 41 => ⟨S1x384, .f32⟩
  | 42 => ⟨S512x384, .f32⟩
  | 43 => ⟨S1x384, .f32⟩
  | 44 => ⟨S128x128, .f32⟩
  | 45 => ⟨S1x128, .f32⟩
  | 46 => ⟨S512x512, .f32⟩
  | 47 => ⟨S1x512, .f32⟩
  | 48 => ⟨S1024x128, .f32⟩
  | 49 => ⟨S1024x128, .f32⟩
  | 50 => ⟨S1024x128, .f32⟩
  | 51 => ⟨S1024x128, .f32⟩
  | 52 => ⟨S1024x128, .f32⟩
  | 53 => ⟨S1024x512, .f32⟩
  | 54 => ⟨S1024x512, .f32⟩
  | 55 => ⟨S128x384, .f32⟩
  | 56 => ⟨S1x384, .f32⟩
  | 57 => ⟨S512x384, .f32⟩
  | 58 => ⟨S1x384, .f32⟩
  | 59 => ⟨S128x128, .f32⟩
  | 60 => ⟨S1x128, .f32⟩
  | 61 => ⟨S512x512, .f32⟩
  | 62 => ⟨S1x512, .f32⟩
  | 63 => ⟨S1024x128, .f32⟩
  | 64 => ⟨S1024x128, .f32⟩
  | 65 => ⟨S256x128, .f32⟩
  | 66 => ⟨S256x512, .f32⟩
  | 67 => ⟨S256x512, .f32⟩
  | 68 => ⟨S128x384, .f32⟩
  | 69 => ⟨S1x384, .f32⟩
  | 70 => ⟨S512x384, .f32⟩
  | 71 => ⟨S1x384, .f32⟩
  | 72 => ⟨S128x128, .f32⟩
  | 73 => ⟨S1x128, .f32⟩
  | 74 => ⟨S512x512, .f32⟩
  | 75 => ⟨S1x512, .f32⟩
  | 76 => ⟨S256x128, .f32⟩
  | 77 => ⟨S256x128, .f32⟩
  | 78 => ⟨S64x128, .f32⟩
  | 79 => ⟨S64x512, .f32⟩
  | 80 => ⟨S64x512, .f32⟩
  | 81 => ⟨S128x384, .f32⟩
  | 82 => ⟨S1x384, .f32⟩
  | 83 => ⟨S512x384, .f32⟩
  | 84 => ⟨S1x384, .f32⟩
  | 85 => ⟨S128x128, .f32⟩
  | 86 => ⟨S1x128, .f32⟩
  | 87 => ⟨S512x512, .f32⟩
  | 88 => ⟨S1x512, .f32⟩
  | 89 => ⟨S64x128, .f32⟩
  | 90 => ⟨S64x128, .f32⟩
  | 91 => ⟨S16x128, .f32⟩
  | 92 => ⟨S16x512, .f32⟩
  | 93 => ⟨S16x512, .f32⟩
  | 94 => ⟨S128x384, .f32⟩
  | 95 => ⟨S1x384, .f32⟩
  | 96 => ⟨S512x384, .f32⟩
  | 97 => ⟨S1x384, .f32⟩
  | 98 => ⟨S128x128, .f32⟩
  | 99 => ⟨S1x128, .f32⟩
  | 100 => ⟨S512x512, .f32⟩
  | 101 => ⟨S1x512, .f32⟩
  | 102 => ⟨S16x128, .f32⟩
  | 103 => ⟨S16x128, .f32⟩
  | 104 => ⟨S4x128, .f32⟩
  | 105 => ⟨S4x512, .f32⟩
  | 106 => ⟨S4x512, .f32⟩
  | 107 => ⟨S128x384, .f32⟩
  | 108 => ⟨S1x384, .f32⟩
  | 109 => ⟨S512x384, .f32⟩
  | 110 => ⟨S1x384, .f32⟩
  | 111 => ⟨S128x128, .f32⟩
  | 112 => ⟨S1x128, .f32⟩
  | 113 => ⟨S512x512, .f32⟩
  | 114 => ⟨S1x512, .f32⟩
  | 115 => ⟨S4x128, .f32⟩
  | 116 => ⟨S4x128, .f32⟩
  | 117 => ⟨S1x128, .f32⟩
  | 118 => ⟨S1x512, .f32⟩
  | 119 => ⟨S1x512, .f32⟩
  | 120 => ⟨S128x384, .f32⟩
  | 121 => ⟨S1x384, .f32⟩
  | 122 => ⟨S512x384, .f32⟩
  | 123 => ⟨S1x384, .f32⟩
  | 124 => ⟨S128x128, .f32⟩
  | 125 => ⟨S1x128, .f32⟩
  | 126 => ⟨S512x512, .f32⟩
  | 127 => ⟨S1x512, .f32⟩
  | _ => ⟨S87381x128, .f32⟩

abbrev vmemTy0_1 (i : Nat) : BufTy := match i % 128 with
  | 0 => ⟨S1x128, .f32⟩
  | 1 => ⟨S1x128, .f32⟩
  | _ => ⟨S87381x128, .f32⟩

abbrev vmemTy (i : Nat) : BufTy := match i / 128 with
  | 0 => vmemTy0_0 i
  | 1 => vmemTy0_1 i
  | _ => ⟨S87381x128, .f32⟩

abbrev bufTy : (tb : Table) → Fin (tcTables nBuf tb) → BufTy
  | .hbm, ⟨0, _⟩ => ⟨S87381x128, .f32⟩
  | .hbm, ⟨1, _⟩ => ⟨S384x128, .f32⟩
  | .hbm, ⟨2, _⟩ => ⟨S384, .f32⟩
  | .hbm, ⟨3, _⟩ => ⟨S384x512, .f32⟩
  | .hbm, ⟨4, _⟩ => ⟨S384, .f32⟩
  | .hbm, ⟨5, _⟩ => ⟨S128x128, .f32⟩
  | .hbm, ⟨6, _⟩ => ⟨S128, .f32⟩
  | .hbm, ⟨7, _⟩ => ⟨S512x512, .f32⟩
  | .hbm, ⟨8, _⟩ => ⟨S512, .f32⟩
  | .hbm, ⟨9, _⟩ => ⟨S1x512, .f32⟩
  | .hbm, ⟨10, _⟩ => ⟨S1x512, .f32⟩
  | .hbm, ⟨11, _⟩ => ⟨S128x384, .f32⟩
  | .hbm, ⟨12, _⟩ => ⟨S512x384, .f32⟩
  | .hbm, ⟨13, _⟩ => ⟨S128x128, .f32⟩
  | .hbm, ⟨14, _⟩ => ⟨S512x512, .f32⟩
  | .hbm, ⟨15, _⟩ => ⟨S1x384, .f32⟩
  | .hbm, ⟨16, _⟩ => ⟨S1x384, .f32⟩
  | .hbm, ⟨17, _⟩ => ⟨S1x128, .f32⟩
  | .hbm, ⟨18, _⟩ => ⟨S1x512, .f32⟩
  | .hbm, ⟨19, _⟩ => ⟨S65536x128, .f32⟩
  | .hbm, ⟨20, _⟩ => ⟨S65536x128, .f32⟩
  | .hbm, ⟨21, _⟩ => ⟨S65536x128, .f32⟩
  | .hbm, ⟨22, _⟩ => ⟨S16384x512, .f32⟩
  | .hbm, ⟨23, _⟩ => ⟨S16384x512, .f32⟩
  | .hbm, ⟨24, _⟩ => ⟨S16384x128, .f32⟩
  | .hbm, ⟨25, _⟩ => ⟨S16384x128, .f32⟩
  | .hbm, ⟨26, _⟩ => ⟨S16384x128, .f32⟩
  | .hbm, ⟨27, _⟩ => ⟨S4096x512, .f32⟩
  | .hbm, ⟨28, _⟩ => ⟨S4096x512, .f32⟩
  | .hbm, ⟨29, _⟩ => ⟨S4096x128, .f32⟩
  | .hbm, ⟨30, _⟩ => ⟨S4096x128, .f32⟩
  | .hbm, ⟨31, _⟩ => ⟨S4096x128, .f32⟩
  | .hbm, ⟨32, _⟩ => ⟨S1024x512, .f32⟩
  | .hbm, ⟨33, _⟩ => ⟨S1024x512, .f32⟩
  | .hbm, ⟨34, _⟩ => ⟨S1024x128, .f32⟩
  | .hbm, ⟨35, _⟩ => ⟨S1024x128, .f32⟩
  | .hbm, ⟨36, _⟩ => ⟨S1024x128, .f32⟩
  | .hbm, ⟨37, _⟩ => ⟨S256x512, .f32⟩
  | .hbm, ⟨38, _⟩ => ⟨S256x512, .f32⟩
  | .hbm, ⟨39, _⟩ => ⟨S256x128, .f32⟩
  | .hbm, ⟨40, _⟩ => ⟨S256x128, .f32⟩
  | .hbm, ⟨41, _⟩ => ⟨S256x128, .f32⟩
  | .hbm, ⟨42, _⟩ => ⟨S64x512, .f32⟩
  | .hbm, ⟨43, _⟩ => ⟨S64x512, .f32⟩
  | .hbm, ⟨44, _⟩ => ⟨S64x128, .f32⟩
  | .hbm, ⟨45, _⟩ => ⟨S64x128, .f32⟩
  | .hbm, ⟨46, _⟩ => ⟨S64x128, .f32⟩
  | .hbm, ⟨47, _⟩ => ⟨S16x512, .f32⟩
  | .hbm, ⟨48, _⟩ => ⟨S16x512, .f32⟩
  | .hbm, ⟨49, _⟩ => ⟨S16x128, .f32⟩
  | .hbm, ⟨50, _⟩ => ⟨S16x128, .f32⟩
  | .hbm, ⟨51, _⟩ => ⟨S16x128, .f32⟩
  | .hbm, ⟨52, _⟩ => ⟨S4x512, .f32⟩
  | .hbm, ⟨53, _⟩ => ⟨S4x512, .f32⟩
  | .hbm, ⟨54, _⟩ => ⟨S4x128, .f32⟩
  | .hbm, ⟨55, _⟩ => ⟨S4x128, .f32⟩
  | .hbm, ⟨56, _⟩ => ⟨S4x128, .f32⟩
  | .hbm, ⟨57, _⟩ => ⟨S1x512, .f32⟩
  | .hbm, ⟨58, _⟩ => ⟨S1x512, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S87381x128, .f32⟩
  | .hbm, ⟨63, _⟩ => ⟨S1x87381x128, .f32⟩
  | .hbm, ⟨64, _⟩ => ⟨S87381x128, .f32⟩
  | .hbm, ⟨65, _⟩ => ⟨S1x87381x128, .f32⟩
  | .local _ .vmem, ⟨i, _⟩ => vmemTy i
  | _, _ => ⟨S87381x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 130 → Bool
  | ⟨i, _⟩ => dmaSemScopedAt i

abbrev sig : RefSig :=
  ofTc nBuf bufTy 0 130 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13_0 : Ref sig .tc := ⟨.hbm, 25, rfl⟩
abbrev main_v13_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25_0 : Ref sig .tc := ⟨.hbm, 40, rfl⟩
abbrev main_v25_1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29_0 : Ref sig .tc := ⟨.hbm, 45, rfl⟩
abbrev main_v29_1 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33_0 : Ref sig .tc := ⟨.hbm, 50, rfl⟩
abbrev main_v33_1 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37_0 : Ref sig .tc := ⟨.hbm, 55, rfl⟩
abbrev main_v37_1 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41_0 : Ref sig .tc := ⟨.hbm, 60, rfl⟩
abbrev main_v41_1 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg11_1 : Ref sig .tc := ⟨.vmem, 31, rfl⟩
abbrev cc1_stg12_0 : Ref sig .tc := ⟨.vmem, 32, rfl⟩
abbrev cc1_stg12_1 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg2_1 : Ref sig .tc := ⟨.vmem, 39, rfl⟩
abbrev cc2_stg3_0 : Ref sig .tc := ⟨.vmem, 40, rfl⟩
abbrev cc2_stg4_0 : Ref sig .tc := ⟨.vmem, 41, rfl⟩
abbrev cc2_stg5_0 : Ref sig .tc := ⟨.vmem, 42, rfl⟩
abbrev cc2_stg6_0 : Ref sig .tc := ⟨.vmem, 43, rfl⟩
abbrev cc2_stg7_0 : Ref sig .tc := ⟨.vmem, 44, rfl⟩
abbrev cc2_stg8_0 : Ref sig .tc := ⟨.vmem, 45, rfl⟩
abbrev cc2_stg9_0 : Ref sig .tc := ⟨.vmem, 46, rfl⟩
abbrev cc2_stg10_0 : Ref sig .tc := ⟨.vmem, 47, rfl⟩
abbrev cc2_stg11_0 : Ref sig .tc := ⟨.vmem, 48, rfl⟩
abbrev cc2_stg11_1 : Ref sig .tc := ⟨.vmem, 49, rfl⟩
abbrev cc2_stg12_0 : Ref sig .tc := ⟨.vmem, 50, rfl⟩
abbrev cc2_stg12_1 : Ref sig .tc := ⟨.vmem, 51, rfl⟩
abbrev cc3_stg0_0 : Ref sig .tc := ⟨.vmem, 52, rfl⟩
abbrev cc3_stg1_0 : Ref sig .tc := ⟨.vmem, 53, rfl⟩
abbrev cc3_stg2_0 : Ref sig .tc := ⟨.vmem, 54, rfl⟩
abbrev cc3_stg3_0 : Ref sig .tc := ⟨.vmem, 55, rfl⟩
abbrev cc3_stg4_0 : Ref sig .tc := ⟨.vmem, 56, rfl⟩
abbrev cc3_stg5_0 : Ref sig .tc := ⟨.vmem, 57, rfl⟩
abbrev cc3_stg6_0 : Ref sig .tc := ⟨.vmem, 58, rfl⟩
abbrev cc3_stg7_0 : Ref sig .tc := ⟨.vmem, 59, rfl⟩
abbrev cc3_stg8_0 : Ref sig .tc := ⟨.vmem, 60, rfl⟩
abbrev cc3_stg9_0 : Ref sig .tc := ⟨.vmem, 61, rfl⟩
abbrev cc3_stg10_0 : Ref sig .tc := ⟨.vmem, 62, rfl⟩
abbrev cc3_stg11_0 : Ref sig .tc := ⟨.vmem, 63, rfl⟩
abbrev cc3_stg12_0 : Ref sig .tc := ⟨.vmem, 64, rfl⟩
abbrev cc4_stg0_0 : Ref sig .tc := ⟨.vmem, 65, rfl⟩
abbrev cc4_stg1_0 : Ref sig .tc := ⟨.vmem, 66, rfl⟩
abbrev cc4_stg2_0 : Ref sig .tc := ⟨.vmem, 67, rfl⟩
abbrev cc4_stg3_0 : Ref sig .tc := ⟨.vmem, 68, rfl⟩
abbrev cc4_stg4_0 : Ref sig .tc := ⟨.vmem, 69, rfl⟩
abbrev cc4_stg5_0 : Ref sig .tc := ⟨.vmem, 70, rfl⟩
abbrev cc4_stg6_0 : Ref sig .tc := ⟨.vmem, 71, rfl⟩
abbrev cc4_stg7_0 : Ref sig .tc := ⟨.vmem, 72, rfl⟩
abbrev cc4_stg8_0 : Ref sig .tc := ⟨.vmem, 73, rfl⟩
abbrev cc4_stg9_0 : Ref sig .tc := ⟨.vmem, 74, rfl⟩
abbrev cc4_stg10_0 : Ref sig .tc := ⟨.vmem, 75, rfl⟩
abbrev cc4_stg11_0 : Ref sig .tc := ⟨.vmem, 76, rfl⟩
abbrev cc4_stg12_0 : Ref sig .tc := ⟨.vmem, 77, rfl⟩
abbrev cc5_stg0_0 : Ref sig .tc := ⟨.vmem, 78, rfl⟩
abbrev cc5_stg1_0 : Ref sig .tc := ⟨.vmem, 79, rfl⟩
abbrev cc5_stg2_0 : Ref sig .tc := ⟨.vmem, 80, rfl⟩
abbrev cc5_stg3_0 : Ref sig .tc := ⟨.vmem, 81, rfl⟩
abbrev cc5_stg4_0 : Ref sig .tc := ⟨.vmem, 82, rfl⟩
abbrev cc5_stg5_0 : Ref sig .tc := ⟨.vmem, 83, rfl⟩
abbrev cc5_stg6_0 : Ref sig .tc := ⟨.vmem, 84, rfl⟩
abbrev cc5_stg7_0 : Ref sig .tc := ⟨.vmem, 85, rfl⟩
abbrev cc5_stg8_0 : Ref sig .tc := ⟨.vmem, 86, rfl⟩
abbrev cc5_stg9_0 : Ref sig .tc := ⟨.vmem, 87, rfl⟩
abbrev cc5_stg10_0 : Ref sig .tc := ⟨.vmem, 88, rfl⟩
abbrev cc5_stg11_0 : Ref sig .tc := ⟨.vmem, 89, rfl⟩
abbrev cc5_stg12_0 : Ref sig .tc := ⟨.vmem, 90, rfl⟩
abbrev cc6_stg0_0 : Ref sig .tc := ⟨.vmem, 91, rfl⟩
abbrev cc6_stg1_0 : Ref sig .tc := ⟨.vmem, 92, rfl⟩
abbrev cc6_stg2_0 : Ref sig .tc := ⟨.vmem, 93, rfl⟩
abbrev cc6_stg3_0 : Ref sig .tc := ⟨.vmem, 94, rfl⟩
abbrev cc6_stg4_0 : Ref sig .tc := ⟨.vmem, 95, rfl⟩
abbrev cc6_stg5_0 : Ref sig .tc := ⟨.vmem, 96, rfl⟩
abbrev cc6_stg6_0 : Ref sig .tc := ⟨.vmem, 97, rfl⟩
abbrev cc6_stg7_0 : Ref sig .tc := ⟨.vmem, 98, rfl⟩
abbrev cc6_stg8_0 : Ref sig .tc := ⟨.vmem, 99, rfl⟩
abbrev cc6_stg9_0 : Ref sig .tc := ⟨.vmem, 100, rfl⟩
abbrev cc6_stg10_0 : Ref sig .tc := ⟨.vmem, 101, rfl⟩
abbrev cc6_stg11_0 : Ref sig .tc := ⟨.vmem, 102, rfl⟩
abbrev cc6_stg12_0 : Ref sig .tc := ⟨.vmem, 103, rfl⟩
abbrev cc7_stg0_0 : Ref sig .tc := ⟨.vmem, 104, rfl⟩
abbrev cc7_stg1_0 : Ref sig .tc := ⟨.vmem, 105, rfl⟩
abbrev cc7_stg2_0 : Ref sig .tc := ⟨.vmem, 106, rfl⟩
abbrev cc7_stg3_0 : Ref sig .tc := ⟨.vmem, 107, rfl⟩
abbrev cc7_stg4_0 : Ref sig .tc := ⟨.vmem, 108, rfl⟩
abbrev cc7_stg5_0 : Ref sig .tc := ⟨.vmem, 109, rfl⟩
abbrev cc7_stg6_0 : Ref sig .tc := ⟨.vmem, 110, rfl⟩
abbrev cc7_stg7_0 : Ref sig .tc := ⟨.vmem, 111, rfl⟩
abbrev cc7_stg8_0 : Ref sig .tc := ⟨.vmem, 112, rfl⟩
abbrev cc7_stg9_0 : Ref sig .tc := ⟨.vmem, 113, rfl⟩
abbrev cc7_stg10_0 : Ref sig .tc := ⟨.vmem, 114, rfl⟩
abbrev cc7_stg11_0 : Ref sig .tc := ⟨.vmem, 115, rfl⟩
abbrev cc7_stg12_0 : Ref sig .tc := ⟨.vmem, 116, rfl⟩
abbrev cc8_stg0_0 : Ref sig .tc := ⟨.vmem, 117, rfl⟩
abbrev cc8_stg1_0 : Ref sig .tc := ⟨.vmem, 118, rfl⟩
abbrev cc8_stg2_0 : Ref sig .tc := ⟨.vmem, 119, rfl⟩
abbrev cc8_stg3_0 : Ref sig .tc := ⟨.vmem, 120, rfl⟩
abbrev cc8_stg4_0 : Ref sig .tc := ⟨.vmem, 121, rfl⟩
abbrev cc8_stg5_0 : Ref sig .tc := ⟨.vmem, 122, rfl⟩
abbrev cc8_stg6_0 : Ref sig .tc := ⟨.vmem, 123, rfl⟩
abbrev cc8_stg7_0 : Ref sig .tc := ⟨.vmem, 124, rfl⟩
abbrev cc8_stg8_0 : Ref sig .tc := ⟨.vmem, 125, rfl⟩
abbrev cc8_stg9_0 : Ref sig .tc := ⟨.vmem, 126, rfl⟩
abbrev cc8_stg10_0 : Ref sig .tc := ⟨.vmem, 127, rfl⟩
abbrev cc8_stg11_0 : Ref sig .tc := ⟨.vmem, 128, rfl⟩
abbrev cc8_stg12_0 : Ref sig .tc := ⟨.vmem, 129, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem11_0 : DmaSem sig := 30
abbrev cc1_sem11_1 : DmaSem sig := 31
abbrev cc1_sem12_0 : DmaSem sig := 32
abbrev cc1_sem12_1 : DmaSem sig := 33
abbrev cc2_sem0_0 : DmaSem sig := 34
abbrev cc2_sem0_1 : DmaSem sig := 35
abbrev cc2_sem1_0 : DmaSem sig := 36
abbrev cc2_sem1_1 : DmaSem sig := 37
abbrev cc2_sem2_0 : DmaSem sig := 38
abbrev cc2_sem2_1 : DmaSem sig := 39
abbrev cc2_sem3_0 : DmaSem sig := 40
abbrev cc2_sem4_0 : DmaSem sig := 41
abbrev cc2_sem5_0 : DmaSem sig := 42
abbrev cc2_sem6_0 : DmaSem sig := 43
abbrev cc2_sem7_0 : DmaSem sig := 44
abbrev cc2_sem8_0 : DmaSem sig := 45
abbrev cc2_sem9_0 : DmaSem sig := 46
abbrev cc2_sem10_0 : DmaSem sig := 47
abbrev cc2_sem11_0 : DmaSem sig := 48
abbrev cc2_sem11_1 : DmaSem sig := 49
abbrev cc2_sem12_0 : DmaSem sig := 50
abbrev cc2_sem12_1 : DmaSem sig := 51
abbrev cc3_sem0_0 : DmaSem sig := 52
abbrev cc3_sem1_0 : DmaSem sig := 53
abbrev cc3_sem2_0 : DmaSem sig := 54
abbrev cc3_sem3_0 : DmaSem sig := 55
abbrev cc3_sem4_0 : DmaSem sig := 56
abbrev cc3_sem5_0 : DmaSem sig := 57
abbrev cc3_sem6_0 : DmaSem sig := 58
abbrev cc3_sem7_0 : DmaSem sig := 59
abbrev cc3_sem8_0 : DmaSem sig := 60
abbrev cc3_sem9_0 : DmaSem sig := 61
abbrev cc3_sem10_0 : DmaSem sig := 62
abbrev cc3_sem11_0 : DmaSem sig := 63
abbrev cc3_sem12_0 : DmaSem sig := 64
abbrev cc4_sem0_0 : DmaSem sig := 65
abbrev cc4_sem1_0 : DmaSem sig := 66
abbrev cc4_sem2_0 : DmaSem sig := 67
abbrev cc4_sem3_0 : DmaSem sig := 68
abbrev cc4_sem4_0 : DmaSem sig := 69
abbrev cc4_sem5_0 : DmaSem sig := 70
abbrev cc4_sem6_0 : DmaSem sig := 71
abbrev cc4_sem7_0 : DmaSem sig := 72
abbrev cc4_sem8_0 : DmaSem sig := 73
abbrev cc4_sem9_0 : DmaSem sig := 74
abbrev cc4_sem10_0 : DmaSem sig := 75
abbrev cc4_sem11_0 : DmaSem sig := 76
abbrev cc4_sem12_0 : DmaSem sig := 77
abbrev cc5_sem0_0 : DmaSem sig := 78
abbrev cc5_sem1_0 : DmaSem sig := 79
abbrev cc5_sem2_0 : DmaSem sig := 80
abbrev cc5_sem3_0 : DmaSem sig := 81
abbrev cc5_sem4_0 : DmaSem sig := 82
abbrev cc5_sem5_0 : DmaSem sig := 83
abbrev cc5_sem6_0 : DmaSem sig := 84
abbrev cc5_sem7_0 : DmaSem sig := 85
abbrev cc5_sem8_0 : DmaSem sig := 86
abbrev cc5_sem9_0 : DmaSem sig := 87
abbrev cc5_sem10_0 : DmaSem sig := 88
abbrev cc5_sem11_0 : DmaSem sig := 89
abbrev cc5_sem12_0 : DmaSem sig := 90
abbrev cc6_sem0_0 : DmaSem sig := 91
abbrev cc6_sem1_0 : DmaSem sig := 92
abbrev cc6_sem2_0 : DmaSem sig := 93
abbrev cc6_sem3_0 : DmaSem sig := 94
abbrev cc6_sem4_0 : DmaSem sig := 95
abbrev cc6_sem5_0 : DmaSem sig := 96
abbrev cc6_sem6_0 : DmaSem sig := 97
abbrev cc6_sem7_0 : DmaSem sig := 98
abbrev cc6_sem8_0 : DmaSem sig := 99
abbrev cc6_sem9_0 : DmaSem sig := 100
abbrev cc6_sem10_0 : DmaSem sig := 101
abbrev cc6_sem11_0 : DmaSem sig := 102
abbrev cc6_sem12_0 : DmaSem sig := 103
abbrev cc7_sem0_0 : DmaSem sig := 104
abbrev cc7_sem1_0 : DmaSem sig := 105
abbrev cc7_sem2_0 : DmaSem sig := 106
abbrev cc7_sem3_0 : DmaSem sig := 107
abbrev cc7_sem4_0 : DmaSem sig := 108
abbrev cc7_sem5_0 : DmaSem sig := 109
abbrev cc7_sem6_0 : DmaSem sig := 110
abbrev cc7_sem7_0 : DmaSem sig := 111
abbrev cc7_sem8_0 : DmaSem sig := 112
abbrev cc7_sem9_0 : DmaSem sig := 113
abbrev cc7_sem10_0 : DmaSem sig := 114
abbrev cc7_sem11_0 : DmaSem sig := 115
abbrev cc7_sem12_0 : DmaSem sig := 116
abbrev cc8_sem0_0 : DmaSem sig := 117
abbrev cc8_sem1_0 : DmaSem sig := 118
abbrev cc8_sem2_0 : DmaSem sig := 119
abbrev cc8_sem3_0 : DmaSem sig := 120
abbrev cc8_sem4_0 : DmaSem sig := 121
abbrev cc8_sem5_0 : DmaSem sig := 122
abbrev cc8_sem6_0 : DmaSem sig := 123
abbrev cc8_sem7_0 : DmaSem sig := 124
abbrev cc8_sem8_0 : DmaSem sig := 125
abbrev cc8_sem9_0 : DmaSem sig := 126
abbrev cc8_sem10_0 : DmaSem sig := 127
abbrev cc8_sem11_0 : DmaSem sig := 128
abbrev cc8_sem12_0 : DmaSem sig := 129

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x384 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S1024x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1024x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x384 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S512x512 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x512 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S1024x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S1024x128 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S1024x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S1024x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S1024x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S128x384 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x384 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x384 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x384 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S512x512 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x512 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1024x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![true]

abbrev stage3_12 : Fin 1 → Memref sig .tc .vmem S1024x128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_12 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S256x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S256x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev stage4_2 : Fin 1 → Memref sig .tc .vmem S256x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S128x384 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x384 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x384 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x384 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S512x512 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x512 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S256x128 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![true]

abbrev stage4_12 : Fin 1 → Memref sig .tc .vmem S256x128 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_12 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S64x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S64x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S64x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev stage5_3 : Fin 1 → Memref sig .tc .vmem S128x384 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x384 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S512x384 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x384 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S128x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S512x512 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1x512 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S64x128 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![true]

abbrev stage5_12 : Fin 1 → Memref sig .tc .vmem S64x128 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_12 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S16x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S16x512 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S16x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev stage6_3 : Fin 1 → Memref sig .tc .vmem S128x384 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x384 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S512x384 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x384 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S128x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S512x512 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1x512 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 1 → Memref sig .tc .vmem S16x128 .f32 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![true]

abbrev stage6_12 : Fin 1 → Memref sig .tc .vmem S16x128 .f32 := fun | 0 => Memref.whole cc6_stg12_0 | ⟨_ + 1, h⟩ => absurd h (Nat.not_lt.2 (Nat.le_add_left _ _))
abbrev sem6_12 : Fin 1 → DmaSem sig := fun | 0 => cc6_sem12_0 | ⟨_ + 1, h⟩ => absurd h (Nat.not_lt.2 (Nat.le_add_left _ _))
abbrev reads6_12 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_11 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_12 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S4x128 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S4x512 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true]

abbrev stage7_2 : Fin 1 → Memref sig .tc .vmem S4x512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true]

abbrev stage7_3 : Fin 1 → Memref sig .tc .vmem S128x384 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x384 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S512x384 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x384 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S128x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x128 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S512x512 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 1 → Memref sig .tc .vmem S1x512 .f32 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![false]

abbrev stage7_11 : Fin 1 → Memref sig .tc .vmem S4x128 .f32 := fun | 0 => Memref.whole cc7_stg11_0 | ⟨_ + 1, h⟩ => absurd h (Nat.not_lt.2 (Nat.le_add_left _ _))
abbrev sem7_11 : Fin 1 → DmaSem sig := fun | 0 => cc7_sem11_0 | ⟨_ + 1, h⟩ => absurd h (Nat.not_lt.2 (Nat.le_add_left _ _))
abbrev reads7_11 : Fin grid7.rank → Bool := ![true]

abbrev stage7_12 : Fin 1 → Memref sig .tc .vmem S4x128 .f32 := fun | 0 => Memref.whole cc7_stg12_0 | ⟨_ + 1, h⟩ => absurd h (Nat.not_lt.2 (Nat.le_add_left _ _))
abbrev sem7_12 : Fin 1 → DmaSem sig := fun | 0 => cc7_sem12_0 | ⟨_ + 1, h⟩ => absurd h (Nat.not_lt.2 (Nat.le_add_left _ _))
abbrev reads7_12 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_10 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_11 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_12 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S1x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S1x512 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![true]

abbrev stage8_2 : Fin 1 → Memref sig .tc .vmem S1x512 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![true]

abbrev stage8_3 : Fin 1 → Memref sig .tc .vmem S128x384 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x384 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S512x384 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x384 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S128x128 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x128 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S512x512 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev stage8_10 : Fin 1 → Memref sig .tc .vmem S1x512 .f32 := fun | 0 => Memref.whole cc8_stg10_0 | ⟨_ + 1, h⟩ => absurd h (Nat.not_lt.2 (Nat.le_add_left _ _))
abbrev sem8_10 : Fin 1 → DmaSem sig := fun | 0 => cc8_sem10_0 | ⟨_ + 1, h⟩ => absurd h (Nat.not_lt.2 (Nat.le_add_left _ _))
abbrev reads8_10 : Fin grid8.rank → Bool := ![false]

abbrev stage8_11 : Fin 1 → Memref sig .tc .vmem S1x128 .f32 := fun | 0 => Memref.whole cc8_stg11_0 | ⟨_ + 1, h⟩ => absurd h (Nat.not_lt.2 (Nat.le_add_left _ _))
abbrev sem8_11 : Fin 1 → DmaSem sig := fun | 0 => cc8_sem11_0 | ⟨_ + 1, h⟩ => absurd h (Nat.not_lt.2 (Nat.le_add_left _ _))
abbrev reads8_11 : Fin grid8.rank → Bool := ![true]

abbrev stage8_12 : Fin 1 → Memref sig .tc .vmem S1x128 .f32 := fun | 0 => Memref.whole cc8_stg12_0 | ⟨_ + 1, h⟩ => absurd h (Nat.not_lt.2 (Nat.le_add_left _ _))
abbrev sem8_12 : Fin 1 → DmaSem sig := fun | 0 => cc8_sem12_0 | ⟨_ + 1, h⟩ => absurd h (Nat.not_lt.2 (Nat.le_add_left _ _))
abbrev reads8_12 : Fin grid8.rank → Bool := ![true]

class Facts₀ : Prop where
  transposes_S384x128_S128x384_1_0 : S384x128.Transposes [1, 0] S128x384
  transposes_S384x512_S512x384_1_0 : S384x512.Transposes [1, 0] S512x384
  transposes_S128x128_S128x128_1_0 : S128x128.Transposes [1, 0] S128x128
  transposes_S512x512_S512x512_1_0 : S512x512.Transposes [1, 0] S512x512
  shapeCasts_S384_S1x384 : S384.ShapeCasts S1x384
  shapeCasts_S128_S1x128 : S128.ShapeCasts S1x128
  shapeCasts_S512_S1x512 : S512.ShapeCasts S1x512
  slices_S87381x128_S65536x128_0_0 : S87381x128.Slices ![0, 0] S65536x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S512x384_S512x384_0_0 : ∀ a, (![0, 0] : Fin 2 → Nat) a + S512x384.size a ≤ S512x384.size a
  h_S512x384 : 0 < S512x384.numel
  shapeCasts_S512x384_S512x384 : S512x384.ShapeCasts S512x384
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x384_S1x384_0_0 : ∀ a, (![0, 0] : Fin 2 → Nat) a + S1x384.size a ≤ S1x384.size a
  h_S1x384 : 0 < S1x384.numel
  shapeCasts_S1x384_S1x384 : S1x384.ShapeCasts S1x384
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x384_S1024x384 : S1x384.Broadcasts S1024x384
  slices_S1024x384_o0_0_S1024x128 : S1024x384.Slices ![0, 0] S1024x128
  slices_S1024x384_o0_128_S1024x128 : S1024x384.Slices ![0, 128] S1024x128
  slices_S1024x384_o0_256_S1024x128 : S1024x384.Slices ![0, 256] S1024x128
  broadcasts_S1x128_S1024x128 : S1x128.Broadcasts S1024x128
  slices_S1024x512_o0_0_S1024x128 : S1024x512.Slices ![0, 0] S1024x128
  slices_S1024x512_o0_128_S1024x128 : S1024x512.Slices ![0, 128] S1024x128
  slices_S1024x512_o0_256_S1024x128 : S1024x512.Slices ![0, 256] S1024x128
  slices_S1024x512_o0_384_S1024x128 : S1024x512.Slices ![0, 384] S1024x128
  shapeCasts_S65536x128_S16384x512 : S65536x128.ShapeCasts S16384x512
  slices_S87381x128_S16384x128_65536_0 : S87381x128.Slices ![65536, 0] S16384x128
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S16384x128_S4096x512 : S16384x128.ShapeCasts S4096x512
  slices_S87381x128_S4096x128_81920_0 : S87381x128.Slices ![81920, 0] S4096x128
  shapeCasts_S4096x128_S1024x512 : S4096x128.ShapeCasts S1024x512
  slices_S87381x128_S1024x128_86016_0 : S87381x128.Slices ![86016, 0] S1024x128
  shapeCasts_S1024x128_S256x512 : S1024x128.ShapeCasts S256x512
  slices_S87381x128_S256x128_87040_0 : S87381x128.Slices ![87040, 0] S256x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S256x512_S256x512_0_0 : ∀ a, (![0, 0] : Fin 2 → Nat) a + S256x512.size a ≤ S256x512.size a
  h_S256x512 : 0 < S256x512.numel
  shapeCasts_S256x512_S256x512 : S256x512.ShapeCasts S256x512
  broadcasts_S1x384_S256x384 : S1x384.Broadcasts S256x384
  slices_S256x384_o0_0_S256x128 : S256x384.Slices ![0, 0] S256x128
  slices_S256x384_o0_128_S256x128 : S256x384.Slices ![0, 128] S256x128
  slices_S256x384_o0_256_S256x128 : S256x384.Slices ![0, 256] S256x128
  broadcasts_S1x512_S256x512 : S1x512.Broadcasts S256x512
  broadcasts_S1x128_S256x128 : S1x128.Broadcasts S256x128
  slices_S256x512_o0_0_S256x128 : S256x512.Slices ![0, 0] S256x128
  slices_S256x512_o0_128_S256x128 : S256x512.Slices ![0, 128] S256x128
  slices_S256x512_o0_256_S256x128 : S256x512.Slices ![0, 256] S256x128
  slices_S256x512_o0_384_S256x128 : S256x512.Slices ![0, 384] S256x128
  shapeCasts_S256x128_S64x512 : S256x128.ShapeCasts S64x512
  slices_S87381x128_S64x128_87296_0 : S87381x128.Slices ![87296, 0] S64x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x512_S64x512_0_0 : ∀ a, (![0, 0] : Fin 2 → Nat) a + S64x512.size a ≤ S64x512.size a
  h_S64x512 : 0 < S64x512.numel
  shapeCasts_S64x512_S64x512 : S64x512.ShapeCasts S64x512
  broadcasts_S1x384_S64x384 : S1x384.Broadcasts S64x384
  slices_S64x384_o0_0_S64x128 : S64x384.Slices ![0, 0] S64x128
  slices_S64x384_o0_128_S64x128 : S64x384.Slices ![0, 128] S64x128
  slices_S64x384_o0_256_S64x128 : S64x384.Slices ![0, 256] S64x128
  broadcasts_S1x512_S64x512 : S1x512.Broadcasts S64x512
  broadcasts_S1x128_S64x128 : S1x128.Broadcasts S64x128
  slices_S64x512_o0_0_S64x128 : S64x512.Slices ![0, 0] S64x128
  slices_S64x512_o0_128_S64x128 : S64x512.Slices ![0, 128] S64x128
  slices_S64x512_o0_256_S64x128 : S64x512.Slices ![0, 256] S64x128
  slices_S64x512_o0_384_S64x128 : S64x512.Slices ![0, 384] S64x128
  shapeCasts_S64x128_S16x512 : S64x128.ShapeCasts S16x512
  slices_S87381x128_S16x128_87360_0 : S87381x128.Slices ![87360, 0] S16x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S16x512_S16x512_0_0 : ∀ a, (![0, 0] : Fin 2 → Nat) a + S16x512.size a ≤ S16x512.size a
  h_S16x512 : 0 < S16x512.numel
  shapeCasts_S16x512_S16x512 : S16x512.ShapeCasts S16x512
  broadcasts_S1x384_S16x384 : S1x384.Broadcasts S16x384
  slices_S16x384_o0_0_S16x128 : S16x384.Slices ![0, 0] S16x128
  slices_S16x384_o0_128_S16x128 : S16x384.Slices ![0, 128] S16x128
  slices_S16x384_o0_256_S16x128 : S16x384.Slices ![0, 256] S16x128
  broadcasts_S1x512_S16x512 : S1x512.Broadcasts S16x512
  broadcasts_S1x128_S16x128 : S1x128.Broadcasts S16x128
  slices_S16x512_o0_0_S16x128 : S16x512.Slices ![0, 0] S16x128
  slices_S16x512_o0_128_S16x128 : S16x512.Slices ![0, 128] S16x128
  slices_S16x512_o0_256_S16x128 : S16x512.Slices ![0, 256] S16x128
  slices_S16x512_o0_384_S16x128 : S16x512.Slices ![0, 384] S16x128
  shapeCasts_S16x128_S4x512 : S16x128.ShapeCasts S4x512
  slices_S87381x128_S4x128_87376_0 : S87381x128.Slices ![87376, 0] S4x128
  inb_S4x128_S4x128_0_0 : ∀ a, (![0, 0] : Fin 2 → Nat) a + S4x128.size a ≤ S4x128.size a
  h_S4x128 : 0 < S4x128.numel
  shapeCasts_S4x128_S4x128 : S4x128.ShapeCasts S4x128
  inb_S4x512_S4x512_0_0 : ∀ a, (![0, 0] : Fin 2 → Nat) a + S4x512.size a ≤ S4x512.size a
  h_S4x512 : 0 < S4x512.numel
  shapeCasts_S4x512_S4x512 : S4x512.ShapeCasts S4x512
  broadcasts_S1x384_S4x384 : S1x384.Broadcasts S4x384
  slices_S4x384_o0_0_S4x128 : S4x384.Slices ![0, 0] S4x128
  slices_S4x384_o0_128_S4x128 : S4x384.Slices ![0, 128] S4x128
  slices_S4x384_o0_256_S4x128 : S4x384.Slices ![0, 256] S4x128
  broadcasts_S1x512_S4x512 : S1x512.Broadcasts S4x512
  broadcasts_S1x128_S4x128 : S1x128.Broadcasts S4x128
  slices_S4x512_o0_0_S4x128 : S4x512.Slices ![0, 0] S4x128
  slices_S4x512_o0_128_S4x128 : S4x512.Slices ![0, 128] S4x128
  slices_S4x512_o0_256_S4x128 : S4x512.Slices ![0, 256] S4x128
  slices_S4x512_o0_384_S4x128 : S4x512.Slices ![0, 384] S4x128
  shapeCasts_S4x128_S1x512 : S4x128.ShapeCasts S1x512
  slices_S87381x128_S1x128_87380_0 : S87381x128.Slices ![87380, 0] S1x128
  slices_S1x384_o0_0_S1x128 : S1x384.Slices ![0, 0] S1x128
  slices_S1x384_o0_128_S1x128 : S1x384.Slices ![0, 128] S1x128
  slices_S1x384_o0_256_S1x128 : S1x384.Slices ![0, 256] S1x128
  slices_S1x512_o0_0_S1x128 : S1x512.Slices ![0, 0] S1x128
  slices_S1x512_o0_128_S1x128 : S1x512.Slices ![0, 128] S1x128
  slices_S1x512_o0_256_S1x128 : S1x512.Slices ![0, 256] S1x128
  slices_S1x512_o0_384_S1x128 : S1x512.Slices ![0, 384] S1x128
  concatenates_S65536x128_S16384x128_S4096x128_S1024x128_S256x128_S64x128_S16x128_S4x128_S1x128_S87381x128_d0 : Shape.Concatenates [S65536x128, S16384x128, S4096x128, S1024x128, S256x128, S64x128, S16x128, S4x128, S1x128] S87381x128 0
  bcast_S87381x128_S1x87381x128_1_2 : S87381x128.BroadcastsInDim S1x87381x128 (![1, 2] : Fin 2 → Fin S1x87381x128.rank)
  dot_S1024x128_S128x384_S1024x384_1_0_0_1_n_n_wf : DotDims.WF S1024x128 S128x384 S1024x384 [1] [0] [0] [1] [] []
  dot_S1024x512_S512x384_S1024x384_1_0_0_1_n_n_wf : DotDims.WF S1024x512 S512x384 S1024x384 [1] [0] [0] [1] [] []
  dot_S1024x512_S512x512_S1024x512_1_0_0_1_n_n_wf : DotDims.WF S1024x512 S512x512 S1024x512 [1] [0] [0] [1] [] []
  dot_S1024x128_S128x128_S1024x128_1_0_0_1_n_n_wf : DotDims.WF S1024x128 S128x128 S1024x128 [1] [0] [0] [1] [] []
  dot_S256x128_S128x384_S256x384_1_0_0_1_n_n_wf : DotDims.WF S256x128 S128x384 S256x384 [1] [0] [0] [1] [] []
  dot_S256x512_S512x384_S256x384_1_0_0_1_n_n_wf : DotDims.WF S256x512 S512x384 S256x384 [1] [0] [0] [1] [] []
  dot_S256x512_S512x512_S256x512_1_0_0_1_n_n_wf : DotDims.WF S256x512 S512x512 S256x512 [1] [0] [0] [1] [] []
  dot_S256x128_S128x128_S256x128_1_0_0_1_n_n_wf : DotDims.WF S256x128 S128x128 S256x128 [1] [0] [0] [1] [] []
  dot_S64x128_S128x384_S64x384_1_0_0_1_n_n_wf : DotDims.WF S64x128 S128x384 S64x384 [1] [0] [0] [1] [] []
  dot_S64x512_S512x384_S64x384_1_0_0_1_n_n_wf : DotDims.WF S64x512 S512x384 S64x384 [1] [0] [0] [1] [] []
  dot_S64x512_S512x512_S64x512_1_0_0_1_n_n_wf : DotDims.WF S64x512 S512x512 S64x512 [1] [0] [0] [1] [] []
  dot_S64x128_S128x128_S64x128_1_0_0_1_n_n_wf : DotDims.WF S64x128 S128x128 S64x128 [1] [0] [0] [1] [] []
  dot_S16x128_S128x384_S16x384_1_0_0_1_n_n_wf : DotDims.WF S16x128 S128x384 S16x384 [1] [0] [0] [1] [] []
  dot_S16x512_S512x384_S16x384_1_0_0_1_n_n_wf : DotDims.WF S16x512 S512x384 S16x384 [1] [0] [0] [1] [] []
  dot_S16x512_S512x512_S16x512_1_0_0_1_n_n_wf : DotDims.WF S16x512 S512x512 S16x512 [1] [0] [0] [1] [] []
  dot_S16x128_S128x128_S16x128_1_0_0_1_n_n_wf : DotDims.WF S16x128 S128x128 S16x128 [1] [0] [0] [1] [] []
  dot_S4x128_S128x384_S4x384_1_0_0_1_n_n_wf : DotDims.WF S4x128 S128x384 S4x384 [1] [0] [0] [1] [] []
  dot_S4x512_S512x384_S4x384_1_0_0_1_n_n_wf : DotDims.WF S4x512 S512x384 S4x384 [1] [0] [0] [1] [] []
  dot_S4x512_S512x512_S4x512_1_0_0_1_n_n_wf : DotDims.WF S4x512 S512x512 S4x512 [1] [0] [0] [1] [] []
  dot_S4x128_S128x128_S4x128_1_0_0_1_n_n_wf : DotDims.WF S4x128 S128x128 S4x128 [1] [0] [0] [1] [] []
  dot_S1x128_S128x384_S1x384_1_0_0_1_n_n_wf : DotDims.WF S1x128 S128x384 S1x384 [1] [0] [0] [1] [] []
  dot_S1x512_S512x384_S1x384_1_0_0_1_n_n_wf : DotDims.WF S1x512 S512x384 S1x384 [1] [0] [0] [1] [] []
  dot_S1x512_S512x512_S1x512_1_0_0_1_n_n_wf : DotDims.WF S1x512 S512x512 S1x512 [1] [0] [0] [1] [] []
  dot_S1x128_S128x128_S1x128_1_0_0_1_n_n_wf : DotDims.WF S1x128 S128x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S65536x128.size a
  hwx0_0 : ∀ i : grid0.Coords, EltTy.bits .f32 = 32 ∨ (Rect.block (s := S65536x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .f32 = 32 ∨ (Rect.block (s := S128x384) S128x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x384.size a ≤ S512x384.size a
  hwx0_5 : ∀ i : grid0.Coords, EltTy.bits .f32 = 32 ∨ (Rect.block (s := S512x384) S512x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x384.size a ≤ S1x384.size a
  hwx0_6 : ∀ i : grid0.Coords, EltTy.bits .f32 = 32 ∨ (Rect.block (s := S1x384) S1x384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .f32 = 32 ∨ (Rect.block (s := S512x512) S512x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x128.size a ≤ S65536x128.size a
  hwx0_11 : ∀ i : grid0.Coords, EltTy.bits .f32 = 32 ∨ (Rect.block (s := S65536x128) S1024x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x128.size a ≤ S65536x128.size a
  hwx0_12 : ∀ i : grid0.Coords, EltTy.bits .f32 = 32 ∨ (Rect.block (s := S65536x128) S1024x128.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S16384x128.size a
  hwx1_0 : ∀ i : grid1.Coords, EltTy.bits .f32 = 32 ∨ (Rect.block (s := S16384x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S16384x512.size a
  hwx1_1 : ∀ i : grid1.Coords, EltTy.bits .f32 = 32 ∨ (Rect.block (s := S16384x512) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S16384x512.size a
  hwx1_2 : ∀ i : grid1.Coords, EltTy.bits .f32 = 32 ∨ (Rect.block (s := S16384x512) S1024x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x384.size a ≤ S128x384.size a
  hwx1_3 : ∀ i : grid1.Coords, EltTy.bits .f32 = 32 ∨ (Rect.block (s := S128x384) S128x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x384.size a ≤ S1x384.size a
  hwx1_4 : ∀ i : grid1.Coords, EltTy.bits .f32 = 32 ∨ (Rect.block (s := S1x384) S1x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x384.size a ≤ S512x384.size a
  hwx1_5 : ∀ i : grid1.Coords, EltTy.bits .f32 = 32 ∨ (Rect.block (s := S512x384) S512x384.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x384.size a ≤ S1x384.size a
  hwx1_6 : ∀ i : grid1.Coords, EltTy.bits .f32 = 32 ∨ (Rect.block (s := S1x384) S1x384.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S512x512.size a ≤ S512x512.size a
  hwx1_9 : ∀ i : grid1.Coords, EltTy.bits .f32 = 32 ∨ (Rect.block (s := S512x512) S512x512.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x512.size a ≤ S1x512.size a
  hwx1_10 : ∀ i : grid1.Coords, EltTy.bits .f32 = 32 ∨ (Rect.block (s := S1x512) S1x512.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1024x128.size a ≤ S16384x128.size a
  hwx1_11 : ∀ i : grid1.Coords, EltTy.bits .f32 = 32 ∨ (Rect.block (s := S16384x128) S1024x128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1024x128.size a ≤ S16384x128.size a
  hwx1_12 : ∀ i : grid1.Coords, EltTy.bits .f32 = 32 ∨ (Rect.block (s := S16384x128) S1024x128.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S4096x128.size a
  hwx2_0 : ∀ i : grid2.Coords, EltTy.bits .f32 = 32 ∨ (Rect.block (s := S4096x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S4096x512.size a
  hwx2_1 : ∀ i : grid2.Coords, EltTy.bits .f32 = 32 ∨ (Rect.block (s := S4096x512) S1024x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S4096x512.size a
  hwx2_2 : ∀ i : grid2.Coords, EltTy.bits .f32 = 32 ∨ (Rect.block (s := S4096x512) S1024x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x384.size a ≤ S128x384.size a
  hwx2_3 : ∀ i : grid2.Coords, EltTy.bits .f32 = 32 ∨ (Rect.block (s := S128x384) S128x384.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x384.size a ≤ S1x384.size a
  hwx2_4 : ∀ i : grid2.Coords, EltTy.bits .f32 = 32 ∨ (Rect.block (s := S1x384) S1x384.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x384.size a ≤ S512x384.size a
  hwx2_5 : ∀ i : grid2.Coords, EltTy.bits .f32 = 32 ∨ (Rect.block (s := S512x384) S512x384.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x384.size a ≤ S1x384.size a
  hwx2_6 : ∀ i : grid2.Coords, EltTy.bits .f32 = 32 ∨ (Rect.block (s := S1x384) S1x384.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S512x512.size a ≤ S512x512.size a
  hwx2_9 : ∀ i : grid2.Coords, EltTy.bits .f32 = 32 ∨ (Rect.block (s := S512x512) S512x512.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x512.size a ≤ S1x512.size a
  hwx2_10 : ∀ i : grid2.Coords, EltTy.bits .f32 = 32 ∨ (Rect.block (s := S1x512) S1x512.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S1024x128.size a ≤ S4096x128.size a
  hwx2_11 : ∀ i : grid2.Coords, EltTy.bits .f32 = 32 ∨ (Rect.block (s := S4096x128) S1024x128.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S1024x128.size a ≤ S4096x128.size a
  hwx2_12 : ∀ i : grid2.Coords, EltTy.bits .f32 = 32 ∨ (Rect.block (s := S4096x128) S1024x128.size (cc2_transform_12 i) (hinb2_12 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S1024x128.size a
  hwx3_0 : ∀ i : grid3.Coords, EltTy.bits .f32 = 32 ∨ (Rect.block (s := S1024x128) S1024x128.size (cc3_transform_0 i) (hinb3_0 i)).WholeWords (EltTy.packing .f32)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S1024x512.size a
  hwx3_1 : ∀ i : grid3.Coords, EltTy.bits .f32 = 32 ∨ (Rect.block (s := S1024x512) S1024x512.size (cc3_transform_1 i) (hinb3_1 i)).WholeWords (EltTy.packing .f32)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S1024x512.size a ≤ S1024x512.size a
  hwx3_2 : ∀ i : grid3.Coords, EltTy.bits .f32 = 32 ∨ (Rect.block (s := S1024x512) S1024x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x384.size a ≤ S128x384.size a
  hwx3_3 : ∀ i : grid3.Coords, EltTy.bits .f32 = 32 ∨ (Rect.block (s := S128x384) S128x384.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x384.size a ≤ S1x384.size a
  hwx3_4 : ∀ i : grid3.Coords, EltTy.bits .f32 = 32 ∨ (Rect.block (s := S1x384) S1x384.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x384.size a ≤ S512x384.size a
  hwx3_5 : ∀ i : grid3.Coords, EltTy.bits .f32 = 32 ∨ (Rect.block (s := S512x384) S512x384.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x384.size a ≤ S1x384.size a
  hwx3_6 : ∀ i : grid3.Coords, EltTy.bits .f32 = 32 ∨ (Rect.block (s := S1x384) S1x384.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S512x512.size a ≤ S512x512.size a
  hwx3_9 : ∀ i : grid3.Coords, EltTy.bits .f32 = 32 ∨ (Rect.block (s := S512x512) S512x512.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x512.size a ≤ S1x512.size a
  hwx3_10 : ∀ i : grid3.Coords, EltTy.bits .f32 = 32 ∨ (Rect.block (s := S1x512) S1x512.size (cc3_transform_10 i) (hinb3_10 i)).WholeWords (EltTy.packing .f32)
  hstage3_11 : ∀ j, (stage3_11 j).IsWhole
  nbuf3_11 : grid3.bufCount reads3_11 false = 1
  hreads3_11 : ∀ i i' : grid3.Coords, (∀ a, reads3_11 a = true → i a = i' a) → cc3_transform_11 i = cc3_transform_11 i'
  hinb3_11 : ∀ (i : grid3.Coords) a, (cc3_transform_11 i a + 1) * S1024x128.size a ≤ S1024x128.size a
  hwx3_11 : ∀ i : grid3.Coords, EltTy.bits .f32 = 32 ∨ (Rect.block (s := S1024x128) S1024x128.size (cc3_transform_11 i) (hinb3_11 i)).WholeWords (EltTy.packing .f32)
  hstage3_12 : ∀ j, (stage3_12 j).IsWhole
  nbuf3_12 : grid3.bufCount reads3_12 false = 1
  hreads3_12 : ∀ i i' : grid3.Coords, (∀ a, reads3_12 a = true → i a = i' a) → cc3_transform_12 i = cc3_transform_12 i'
  hinb3_12 : ∀ (i : grid3.Coords) a, (cc3_transform_12 i a + 1) * S1024x128.size a ≤ S1024x128.size a
  hwx3_12 : ∀ i : grid3.Coords, EltTy.bits .f32 = 32 ∨ (Rect.block (s := S1024x128) S1024x128.size (cc3_transform_12 i) (hinb3_12 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S256x128.size a ≤ S256x128.size a
  hwx4_0 : ∀ i : grid4.Coords, EltTy.bits .f32 = 32 ∨ (Rect.block (s := S256x128) S256x128.size (cc4_transform_0 i) (hinb4_0 i)).WholeWords (EltTy.packing .f32)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S256x512.size a ≤ S256x512.size a
  hwx4_1 : ∀ i : grid4.Coords, EltTy.bits .f32 = 32 ∨ (Rect.block (s := S256x512) S256x512.size (cc4_transform_1 i) (hinb4_1 i)).WholeWords (EltTy.packing .f32)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S256x512.size a ≤ S256x512.size a
  hwx4_2 : ∀ i : grid4.Coords, EltTy.bits .f32 = 32 ∨ (Rect.block (s := S256x512) S256x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x384.size a ≤ S128x384.size a
  hwx4_3 : ∀ i : grid4.Coords, EltTy.bits .f32 = 32 ∨ (Rect.block (s := S128x384) S128x384.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x384.size a ≤ S1x384.size a
  hwx4_4 : ∀ i : grid4.Coords, EltTy.bits .f32 = 32 ∨ (Rect.block (s := S1x384) S1x384.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x384.size a ≤ S512x384.size a
  hwx4_5 : ∀ i : grid4.Coords, EltTy.bits .f32 = 32 ∨ (Rect.block (s := S512x384) S512x384.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x384.size a ≤ S1x384.size a
  hwx4_6 : ∀ i : grid4.Coords, EltTy.bits .f32 = 32 ∨ (Rect.block (s := S1x384) S1x384.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128x128.size a ≤ S128x128.size a
  hwx4_7 : ∀ i : grid4.Coords, EltTy.bits .f32 = 32 ∨ (Rect.block (s := S128x128) S128x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S512x512.size a ≤ S512x512.size a
  hwx4_9 : ∀ i : grid4.Coords, EltTy.bits .f32 = 32 ∨ (Rect.block (s := S512x512) S512x512.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x512.size a ≤ S1x512.size a
  hwx4_10 : ∀ i : grid4.Coords, EltTy.bits .f32 = 32 ∨ (Rect.block (s := S1x512) S1x512.size (cc4_transform_10 i) (hinb4_10 i)).WholeWords (EltTy.packing .f32)
  hstage4_11 : ∀ j, (stage4_11 j).IsWhole
  nbuf4_11 : grid4.bufCount reads4_11 false = 1
  hreads4_11 : ∀ i i' : grid4.Coords, (∀ a, reads4_11 a = true → i a = i' a) → cc4_transform_11 i = cc4_transform_11 i'
  hinb4_11 : ∀ (i : grid4.Coords) a, (cc4_transform_11 i a + 1) * S256x128.size a ≤ S256x128.size a
  hwx4_11 : ∀ i : grid4.Coords, EltTy.bits .f32 = 32 ∨ (Rect.block (s := S256x128) S256x128.size (cc4_transform_11 i) (hinb4_11 i)).WholeWords (EltTy.packing .f32)
  hstage4_12 : ∀ j, (stage4_12 j).IsWhole
  nbuf4_12 : grid4.bufCount reads4_12 false = 1
  hreads4_12 : ∀ i i' : grid4.Coords, (∀ a, reads4_12 a = true → i a = i' a) → cc4_transform_12 i = cc4_transform_12 i'
  hinb4_12 : ∀ (i : grid4.Coords) a, (cc4_transform_12 i a + 1) * S256x128.size a ≤ S256x128.size a
  hwx4_12 : ∀ i : grid4.Coords, EltTy.bits .f32 = 32 ∨ (Rect.block (s := S256x128) S256x128.size (cc4_transform_12 i) (hinb4_12 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S64x128.size a ≤ S64x128.size a
  hwx5_0 : ∀ i : grid5.Coords, EltTy.bits .f32 = 32 ∨ (Rect.block (s := S64x128) S64x128.size (cc5_transform_0 i) (hinb5_0 i)).WholeWords (EltTy.packing .f32)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S64x512.size a ≤ S64x512.size a
  hwx5_1 : ∀ i : grid5.Coords, EltTy.bits .f32 = 32 ∨ (Rect.block (s := S64x512) S64x512.size (cc5_transform_1 i) (hinb5_1 i)).WholeWords (EltTy.packing .f32)
  hstage5_2 : ∀ j, (stage5_2 j).IsWhole
  nbuf5_2 : grid5.bufCount reads5_2 false = 1
  hreads5_2 : ∀ i i' : grid5.Coords, (∀ a, reads5_2 a = true → i a = i' a) → cc5_transform_2 i = cc5_transform_2 i'
  hinb5_2 : ∀ (i : grid5.Coords) a, (cc5_transform_2 i a + 1) * S64x512.size a ≤ S64x512.size a
  hwx5_2 : ∀ i : grid5.Coords, EltTy.bits .f32 = 32 ∨ (Rect.block (s := S64x512) S64x512.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x384.size a ≤ S128x384.size a
  hwx5_3 : ∀ i : grid5.Coords, EltTy.bits .f32 = 32 ∨ (Rect.block (s := S128x384) S128x384.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x384.size a ≤ S1x384.size a
  hwx5_4 : ∀ i : grid5.Coords, EltTy.bits .f32 = 32 ∨ (Rect.block (s := S1x384) S1x384.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S512x384.size a ≤ S512x384.size a
  hwx5_5 : ∀ i : grid5.Coords, EltTy.bits .f32 = 32 ∨ (Rect.block (s := S512x384) S512x384.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x384.size a ≤ S1x384.size a
  hwx5_6 : ∀ i : grid5.Coords, EltTy.bits .f32 = 32 ∨ (Rect.block (s := S1x384) S1x384.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S128x128.size a ≤ S128x128.size a
  hwx5_7 : ∀ i : grid5.Coords, EltTy.bits .f32 = 32 ∨ (Rect.block (s := S128x128) S128x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S512x512.size a ≤ S512x512.size a
  hwx5_9 : ∀ i : grid5.Coords, EltTy.bits .f32 = 32 ∨ (Rect.block (s := S512x512) S512x512.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S1x512.size a ≤ S1x512.size a
  hwx5_10 : ∀ i : grid5.Coords, EltTy.bits .f32 = 32 ∨ (Rect.block (s := S1x512) S1x512.size (cc5_transform_10 i) (hinb5_10 i)).WholeWords (EltTy.packing .f32)
  hstage5_11 : ∀ j, (stage5_11 j).IsWhole
  nbuf5_11 : grid5.bufCount reads5_11 false = 1
  hreads5_11 : ∀ i i' : grid5.Coords, (∀ a, reads5_11 a = true → i a = i' a) → cc5_transform_11 i = cc5_transform_11 i'
  hinb5_11 : ∀ (i : grid5.Coords) a, (cc5_transform_11 i a + 1) * S64x128.size a ≤ S64x128.size a
  hwx5_11 : ∀ i : grid5.Coords, EltTy.bits .f32 = 32 ∨ (Rect.block (s := S64x128) S64x128.size (cc5_transform_11 i) (hinb5_11 i)).WholeWords (EltTy.packing .f32)
  hstage5_12 : ∀ j, (stage5_12 j).IsWhole
  nbuf5_12 : grid5.bufCount reads5_12 false = 1
  hreads5_12 : ∀ i i' : grid5.Coords, (∀ a, reads5_12 a = true → i a = i' a) → cc5_transform_12 i = cc5_transform_12 i'
  hinb5_12 : ∀ (i : grid5.Coords) a, (cc5_transform_12 i a + 1) * S64x128.size a ≤ S64x128.size a
  hwx5_12 : ∀ i : grid5.Coords, EltTy.bits .f32 = 32 ∨ (Rect.block (s := S64x128) S64x128.size (cc5_transform_12 i) (hinb5_12 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S16x128.size a ≤ S16x128.size a
  hwx6_0 : ∀ i : grid6.Coords, EltTy.bits .f32 = 32 ∨ (Rect.block (s := S16x128) S16x128.size (cc6_transform_0 i) (hinb6_0 i)).WholeWords (EltTy.packing .f32)
  hstage6_1 : ∀ j, (stage6_1 j).IsWhole
  nbuf6_1 : grid6.bufCount reads6_1 false = 1
  hreads6_1 : ∀ i i' : grid6.Coords, (∀ a, reads6_1 a = true → i a = i' a) → cc6_transform_1 i = cc6_transform_1 i'
  hinb6_1 : ∀ (i : grid6.Coords) a, (cc6_transform_1 i a + 1) * S16x512.size a ≤ S16x512.size a
  hwx6_1 : ∀ i : grid6.Coords, EltTy.bits .f32 = 32 ∨ (Rect.block (s := S16x512) S16x512.size (cc6_transform_1 i) (hinb6_1 i)).WholeWords (EltTy.packing .f32)
  hstage6_2 : ∀ j, (stage6_2 j).IsWhole
  nbuf6_2 : grid6.bufCount reads6_2 false = 1
  hreads6_2 : ∀ i i' : grid6.Coords, (∀ a, reads6_2 a = true → i a = i' a) → cc6_transform_2 i = cc6_transform_2 i'
  hinb6_2 : ∀ (i : grid6.Coords) a, (cc6_transform_2 i a + 1) * S16x512.size a ≤ S16x512.size a
  hwx6_2 : ∀ i : grid6.Coords, EltTy.bits .f32 = 32 ∨ (Rect.block (s := S16x512) S16x512.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x384.size a ≤ S128x384.size a
  hwx6_3 : ∀ i : grid6.Coords, EltTy.bits .f32 = 32 ∨ (Rect.block (s := S128x384) S128x384.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x384.size a ≤ S1x384.size a
  hwx6_4 : ∀ i : grid6.Coords, EltTy.bits .f32 = 32 ∨ (Rect.block (s := S1x384) S1x384.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S512x384.size a ≤ S512x384.size a
  hwx6_5 : ∀ i : grid6.Coords, EltTy.bits .f32 = 32 ∨ (Rect.block (s := S512x384) S512x384.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x384.size a ≤ S1x384.size a
  hwx6_6 : ∀ i : grid6.Coords, EltTy.bits .f32 = 32 ∨ (Rect.block (s := S1x384) S1x384.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S128x128.size a ≤ S128x128.size a
  hwx6_7 : ∀ i : grid6.Coords, EltTy.bits .f32 = 32 ∨ (Rect.block (s := S128x128) S128x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S512x512.size a ≤ S512x512.size a
  hwx6_9 : ∀ i : grid6.Coords, EltTy.bits .f32 = 32 ∨ (Rect.block (s := S512x512) S512x512.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S1x512.size a ≤ S1x512.size a
  hwx6_10 : ∀ i : grid6.Coords, EltTy.bits .f32 = 32 ∨ (Rect.block (s := S1x512) S1x512.size (cc6_transform_10 i) (hinb6_10 i)).WholeWords (EltTy.packing .f32)
  hstage6_11 : ∀ j, (stage6_11 j).IsWhole
  nbuf6_11 : grid6.bufCount reads6_11 false = 1
  hreads6_11 : ∀ i i' : grid6.Coords, (∀ a, reads6_11 a = true → i a = i' a) → cc6_transform_11 i = cc6_transform_11 i'
  hinb6_11 : ∀ (i : grid6.Coords) a, (cc6_transform_11 i a + 1) * S16x128.size a ≤ S16x128.size a
  hwx6_11 : ∀ i : grid6.Coords, EltTy.bits .f32 = 32 ∨ (Rect.block (s := S16x128) S16x128.size (cc6_transform_11 i) (hinb6_11 i)).WholeWords (EltTy.packing .f32)
  hstage6_12 : ∀ j, (stage6_12 j).IsWhole
  nbuf6_12 : grid6.bufCount reads6_12 false = 1
  hreads6_12 : ∀ i i' : grid6.Coords, (∀ a, reads6_12 a = true → i a = i' a) → cc6_transform_12 i = cc6_transform_12 i'
  hinb6_12 : ∀ (i : grid6.Coords) a, (cc6_transform_12 i a + 1) * S16x128.size a ≤ S16x128.size a
  hwx6_12 : ∀ i : grid6.Coords, EltTy.bits .f32 = 32 ∨ (Rect.block (s := S16x128) S16x128.size (cc6_transform_12 i) (hinb6_12 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S4x128.size a ≤ S4x128.size a
  hwx7_0 : ∀ i : grid7.Coords, EltTy.bits .f32 = 32 ∨ (Rect.block (s := S4x128) S4x128.size (cc7_transform_0 i) (hinb7_0 i)).WholeWords (EltTy.packing .f32)
  hstage7_1 : ∀ j, (stage7_1 j).IsWhole
  nbuf7_1 : grid7.bufCount reads7_1 false = 1
  hreads7_1 : ∀ i i' : grid7.Coords, (∀ a, reads7_1 a = true → i a = i' a) → cc7_transform_1 i = cc7_transform_1 i'
  hinb7_1 : ∀ (i : grid7.Coords) a, (cc7_transform_1 i a + 1) * S4x512.size a ≤ S4x512.size a
  hwx7_1 : ∀ i : grid7.Coords, EltTy.bits .f32 = 32 ∨ (Rect.block (s := S4x512) S4x512.size (cc7_transform_1 i) (hinb7_1 i)).WholeWords (EltTy.packing .f32)
  hstage7_2 : ∀ j, (stage7_2 j).IsWhole
  nbuf7_2 : grid7.bufCount reads7_2 false = 1
  hreads7_2 : ∀ i i' : grid7.Coords, (∀ a, reads7_2 a = true → i a = i' a) → cc7_transform_2 i = cc7_transform_2 i'
  hinb7_2 : ∀ (i : grid7.Coords) a, (cc7_transform_2 i a + 1) * S4x512.size a ≤ S4x512.size a
  hwx7_2 : ∀ i : grid7.Coords, EltTy.bits .f32 = 32 ∨ (Rect.block (s := S4x512) S4x512.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x384.size a ≤ S128x384.size a
  hwx7_3 : ∀ i : grid7.Coords, EltTy.bits .f32 = 32 ∨ (Rect.block (s := S128x384) S128x384.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x384.size a ≤ S1x384.size a
  hwx7_4 : ∀ i : grid7.Coords, EltTy.bits .f32 = 32 ∨ (Rect.block (s := S1x384) S1x384.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S512x384.size a ≤ S512x384.size a
  hwx7_5 : ∀ i : grid7.Coords, EltTy.bits .f32 = 32 ∨ (Rect.block (s := S512x384) S512x384.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x384.size a ≤ S1x384.size a
  hwx7_6 : ∀ i : grid7.Coords, EltTy.bits .f32 = 32 ∨ (Rect.block (s := S1x384) S1x384.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S128x128.size a ≤ S128x128.size a
  hwx7_7 : ∀ i : grid7.Coords, EltTy.bits .f32 = 32 ∨ (Rect.block (s := S128x128) S128x128.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x128.size a ≤ S1x128.size a
  hwx7_8 : ∀ i : grid7.Coords, EltTy.bits .f32 = 32 ∨ (Rect.block (s := S1x128) S1x128.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S512x512.size a ≤ S512x512.size a
  hwx7_9 : ∀ i : grid7.Coords, EltTy.bits .f32 = 32 ∨ (Rect.block (s := S512x512) S512x512.size (cc7_transform_9 i) (hinb7_9 i)).WholeWords (EltTy.packing .f32)
  hstage7_10 : ∀ j, (stage7_10 j).IsWhole
  nbuf7_10 : grid7.bufCount reads7_10 true = 1
  hreads7_10 : ∀ i i' : grid7.Coords, (∀ a, reads7_10 a = true → i a = i' a) → cc7_transform_10 i = cc7_transform_10 i'
  hinb7_10 : ∀ (i : grid7.Coords) a, (cc7_transform_10 i a + 1) * S1x512.size a ≤ S1x512.size a
  hwx7_10 : ∀ i : grid7.Coords, EltTy.bits .f32 = 32 ∨ (Rect.block (s := S1x512) S1x512.size (cc7_transform_10 i) (hinb7_10 i)).WholeWords (EltTy.packing .f32)
  hstage7_11 : ∀ j, (stage7_11 j).IsWhole
  nbuf7_11 : grid7.bufCount reads7_11 false = 1
  hreads7_11 : ∀ i i' : grid7.Coords, (∀ a, reads7_11 a = true → i a = i' a) → cc7_transform_11 i = cc7_transform_11 i'
  hinb7_11 : ∀ (i : grid7.Coords) a, (cc7_transform_11 i a + 1) * S4x128.size a ≤ S4x128.size a
  hwx7_11 : ∀ i : grid7.Coords, EltTy.bits .f32 = 32 ∨ (Rect.block (s := S4x128) S4x128.size (cc7_transform_11 i) (hinb7_11 i)).WholeWords (EltTy.packing .f32)
  hstage7_12 : ∀ j, (stage7_12 j).IsWhole
  nbuf7_12 : grid7.bufCount reads7_12 false = 1
  hreads7_12 : ∀ i i' : grid7.Coords, (∀ a, reads7_12 a = true → i a = i' a) → cc7_transform_12 i = cc7_transform_12 i'
  hinb7_12 : ∀ (i : grid7.Coords) a, (cc7_transform_12 i a + 1) * S4x128.size a ≤ S4x128.size a
  hwx7_12 : ∀ i : grid7.Coords, EltTy.bits .f32 = 32 ∨ (Rect.block (s := S4x128) S4x128.size (cc7_transform_12 i) (hinb7_12 i)).WholeWords (EltTy.packing .f32)
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S1x128.size a ≤ S1x128.size a
  hwx8_0 : ∀ i : grid8.Coords, EltTy.bits .f32 = 32 ∨ (Rect.block (s := S1x128) S1x128.size (cc8_transform_0 i) (hinb8_0 i)).WholeWords (EltTy.packing .f32)
  hstage8_1 : ∀ j, (stage8_1 j).IsWhole
  nbuf8_1 : grid8.bufCount reads8_1 false = 1
  hreads8_1 : ∀ i i' : grid8.Coords, (∀ a, reads8_1 a = true → i a = i' a) → cc8_transform_1 i = cc8_transform_1 i'
  hinb8_1 : ∀ (i : grid8.Coords) a, (cc8_transform_1 i a + 1) * S1x512.size a ≤ S1x512.size a
  hwx8_1 : ∀ i : grid8.Coords, EltTy.bits .f32 = 32 ∨ (Rect.block (s := S1x512) S1x512.size (cc8_transform_1 i) (hinb8_1 i)).WholeWords (EltTy.packing .f32)
  hstage8_2 : ∀ j, (stage8_2 j).IsWhole
  nbuf8_2 : grid8.bufCount reads8_2 false = 1
  hreads8_2 : ∀ i i' : grid8.Coords, (∀ a, reads8_2 a = true → i a = i' a) → cc8_transform_2 i = cc8_transform_2 i'
  hinb8_2 : ∀ (i : grid8.Coords) a, (cc8_transform_2 i a + 1) * S1x512.size a ≤ S1x512.size a
  hwx8_2 : ∀ i : grid8.Coords, EltTy.bits .f32 = 32 ∨ (Rect.block (s := S1x512) S1x512.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x384.size a ≤ S128x384.size a
  hwx8_3 : ∀ i : grid8.Coords, EltTy.bits .f32 = 32 ∨ (Rect.block (s := S128x384) S128x384.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x384.size a ≤ S1x384.size a
  hwx8_4 : ∀ i : grid8.Coords, EltTy.bits .f32 = 32 ∨ (Rect.block (s := S1x384) S1x384.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S512x384.size a ≤ S512x384.size a
  hwx8_5 : ∀ i : grid8.Coords, EltTy.bits .f32 = 32 ∨ (Rect.block (s := S512x384) S512x384.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x384.size a ≤ S1x384.size a
  hwx8_6 : ∀ i : grid8.Coords, EltTy.bits .f32 = 32 ∨ (Rect.block (s := S1x384) S1x384.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S128x128.size a ≤ S128x128.size a
  hwx8_7 : ∀ i : grid8.Coords, EltTy.bits .f32 = 32 ∨ (Rect.block (s := S128x128) S128x128.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x128.size a ≤ S1x128.size a
  hwx8_8 : ∀ i : grid8.Coords, EltTy.bits .f32 = 32 ∨ (Rect.block (s := S1x128) S1x128.size (cc8_transform_8 i) (hinb8_8 i)).WholeWords (EltTy.packing .f32)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S512x512.size a ≤ S512x512.size a
  hwx8_9 : ∀ i : grid8.Coords, EltTy.bits .f32 = 32 ∨ (Rect.block (s := S512x512) S512x512.size (cc8_transform_9 i) (hinb8_9 i)).WholeWords (EltTy.packing .f32)
  hstage8_10 : ∀ j, (stage8_10 j).IsWhole
  nbuf8_10 : grid8.bufCount reads8_10 true = 1
  hreads8_10 : ∀ i i' : grid8.Coords, (∀ a, reads8_10 a = true → i a = i' a) → cc8_transform_10 i = cc8_transform_10 i'
  hinb8_10 : ∀ (i : grid8.Coords) a, (cc8_transform_10 i a + 1) * S1x512.size a ≤ S1x512.size a
  hwx8_10 : ∀ i : grid8.Coords, EltTy.bits .f32 = 32 ∨ (Rect.block (s := S1x512) S1x512.size (cc8_transform_10 i) (hinb8_10 i)).WholeWords (EltTy.packing .f32)
  hstage8_11 : ∀ j, (stage8_11 j).IsWhole
  nbuf8_11 : grid8.bufCount reads8_11 false = 1
  hreads8_11 : ∀ i i' : grid8.Coords, (∀ a, reads8_11 a = true → i a = i' a) → cc8_transform_11 i = cc8_transform_11 i'
  hinb8_11 : ∀ (i : grid8.Coords) a, (cc8_transform_11 i a + 1) * S1x128.size a ≤ S1x128.size a
  hwx8_11 : ∀ i : grid8.Coords, EltTy.bits .f32 = 32 ∨ (Rect.block (s := S1x128) S1x128.size (cc8_transform_11 i) (hinb8_11 i)).WholeWords (EltTy.packing .f32)
  hstage8_12 : ∀ j, (stage8_12 j).IsWhole
  nbuf8_12 : grid8.bufCount reads8_12 false = 1
  hreads8_12 : ∀ i i' : grid8.Coords, (∀ a, reads8_12 a = true → i a = i' a) → cc8_transform_12 i = cc8_transform_12 i'
  hinb8_12 : ∀ (i : grid8.Coords) a, (cc8_transform_12 i a + 1) * S1x128.size a ≤ S1x128.size a
  hwx8_12 : ∀ i : grid8.Coords, EltTy.bits .f32 = 32 ∨ (Rect.block (s := S1x128) S1x128.size (cc8_transform_12 i) (hinb8_12 i)).WholeWords (EltTy.packing .f32)

variable [Facts₀]

def dot_S1024x128_S128x384_S1024x384_1_0_0_1_n_n : DotDims S1024x128 S128x384 S1024x384 where
  lhsContracting := [1]
  rhsContracting := [0]
  lhsNonContracting := [0]
  rhsNonContracting := [1]
  lhsBatch := []
  rhsBatch := []
  wf := dot_S1024x128_S128x384_S1024x384_1_0_0_1_n_n_wf
def dot_S1024x512_S512x384_S1024x384_1_0_0_1_n_n : DotDims S1024x512 S512x384 S1024x384 where
  lhsContracting := [1]
  rhsContracting := [0]
  lhsNonContracting := [0]
  rhsNonContracting := [1]
  lhsBatch := []
  rhsBatch := []
  wf := dot_S1024x512_S512x384_S1024x384_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S256x128_S128x384_S256x384_1_0_0_1_n_n : DotDims S256x128 S128x384 S256x384 where
  lhsContracting := [1]
  rhsContracting := [0]
  lhsNonContracting := [0]
  rhsNonContracting := [1]
  lhsBatch := []
  rhsBatch := []
  wf := dot_S256x128_S128x384_S256x384_1_0_0_1_n_n_wf
def dot_S256x512_S512x384_S256x384_1_0_0_1_n_n : DotDims S256x512 S512x384 S256x384 where
  lhsContracting := [1]
  rhsContracting := [0]
  lhsNonContracting := [0]
  rhsNonContracting := [1]
  lhsBatch := []
  rhsBatch := []
  wf := dot_S256x512_S512x384_S256x384_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S64x128_S128x384_S64x384_1_0_0_1_n_n : DotDims S64x128 S128x384 S64x384 where
  lhsContracting := [1]
  rhsContracting := [0]
  lhsNonContracting := [0]
  rhsNonContracting := [1]
  lhsBatch := []
  rhsBatch := []
  wf := dot_S64x128_S128x384_S64x384_1_0_0_1_n_n_wf
def dot_S64x512_S512x384_S64x384_1_0_0_1_n_n : DotDims S64x512 S512x384 S64x384 where
  lhsContracting := [1]
  rhsContracting := [0]
  lhsNonContracting := [0]
  rhsNonContracting := [1]
  lhsBatch := []
  rhsBatch := []
  wf := dot_S64x512_S512x384_S64x384_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S16x128_S128x384_S16x384_1_0_0_1_n_n : DotDims S16x128 S128x384 S16x384 where
  lhsContracting := [1]
  rhsContracting := [0]
  lhsNonContracting := [0]
  rhsNonContracting := [1]
  lhsBatch := []
  rhsBatch := []
  wf := dot_S16x128_S128x384_S16x384_1_0_0_1_n_n_wf
def dot_S16x512_S512x384_S16x384_1_0_0_1_n_n : DotDims S16x512 S512x384 S16x384 where
  lhsContracting := [1]
  rhsContracting := [0]
  lhsNonContracting := [0]
  rhsNonContracting := [1]
  lhsBatch := []
  rhsBatch := []
  wf := dot_S16x512_S512x384_S16x384_1_0_0_1_n_n_wf
def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf
def dot_S4x128_S128x384_S4x384_1_0_0_1_n_n : DotDims S4x128 S128x384 S4x384 where
  lhsContracting := [1]
  rhsContracting := [0]
  lhsNonContracting := [0]
  rhsNonContracting := [1]
  lhsBatch := []
  rhsBatch := []
  wf := dot_S4x128_S128x384_S4x384_1_0_0_1_n_n_wf
def dot_S4x512_S512x384_S4x384_1_0_0_1_n_n : DotDims S4x512 S512x384 S4x384 where
  lhsContracting := [1]
  rhsContracting := [0]
  lhsNonContracting := [0]
  rhsNonContracting := [1]
  lhsBatch := []
  rhsBatch := []
  wf := dot_S4x512_S512x384_S4x384_1_0_0_1_n_n_wf
def dot_S4x512_S512x512_S4x512_1_0_0_1_n_n : DotDims S4x512 S512x512 S4x512 where
  lhsContracting := [1]
  rhsContracting := [0]
  lhsNonContracting := [0]
  rhsNonContracting := [1]
  lhsBatch := []
  rhsBatch := []
  wf := dot_S4x512_S512x512_S4x512_1_0_0_1_n_n_wf
def dot_S4x128_S128x128_S4x128_1_0_0_1_n_n : DotDims S4x128 S128x128 S4x128 where
  lhsContracting := [1]
  rhsContracting := [0]
  lhsNonContracting := [0]
  rhsNonContracting := [1]
  lhsBatch := []
  rhsBatch := []
  wf := dot_S4x128_S128x128_S4x128_1_0_0_1_n_n_wf
def dot_S1x128_S128x384_S1x384_1_0_0_1_n_n : DotDims S1x128 S128x384 S1x384 where
  lhsContracting := [1]
  rhsContracting := [0]
  lhsNonContracting := [0]
  rhsNonContracting := [1]
  lhsBatch := []
  rhsBatch := []
  wf := dot_S1x128_S128x384_S1x384_1_0_0_1_n_n_wf
def dot_S1x512_S512x384_S1x384_1_0_0_1_n_n : DotDims S1x512 S512x384 S1x384 where
  lhsContracting := [1]
  rhsContracting := [0]
  lhsNonContracting := [0]
  rhsNonContracting := [1]
  lhsBatch := []
  rhsBatch := []
  wf := dot_S1x512_S512x384_S1x384_1_0_0_1_n_n_wf
def dot_S1x512_S512x512_S1x512_1_0_0_1_n_n : DotDims S1x512 S512x512 S1x512 where
  lhsContracting := [1]
  rhsContracting := [0]
  lhsNonContracting := [0]
  rhsNonContracting := [1]
  lhsBatch := []
  rhsBatch := []
  wf := dot_S1x512_S512x512_S1x512_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

abbrev win0_0 : Pipeline.Window sig grid0 :=
  Pipeline.Window.ofSpec (Memref.whole main_v8) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg10) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9_0) S1024x128.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v9_1) S1024x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v12) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S128x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S512x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S1x384.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v2) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v6) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v3) S512x512.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v7) S1x512.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v13_0) S1024x128.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v13_1) S1024x128.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v16) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S1024x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0) S128x384.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S1x384.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v1) S512x384.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v5) S1x384.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v2) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v6) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v3) S512x512.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v7) S1x512.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v17_0) S1024x128.size cc2_transform_11 reads2_11 true false 2 stage2_11 sem2_11
    hrank2 hreads2_11 hinb2_11 nbuf2_11 (Memref.isWhole_whole _) hwx2_11 hstage2_11

abbrev win2_12 : Pipeline.Window sig grid2 :=
  Pipeline.Window.ofSpec (Memref.whole main_v17_1) S1024x128.size cc2_transform_12 reads2_12 true false 2 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

abbrev win3_0 : Pipeline.Window sig grid3 :=
  Pipeline.Window.ofSpec (Memref.whole main_v20) S1024x128.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_v18) S1024x512.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_v19) S1024x512.size cc3_transform_2 reads3_2 false false 1 stage3_2 sem3_2
    hrank3 hreads3_2 hinb3_2 nbuf3_2 (Memref.isWhole_whole _) hwx3_2 hstage3_2

abbrev win3_3 : Pipeline.Window sig grid3 :=
  Pipeline.Window.ofSpec (Memref.whole main_v0) S128x384.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v4) S1x384.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v1) S512x384.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v5) S1x384.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v2) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v6) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v3) S512x512.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v7) S1x512.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v21_0) S1024x128.size cc3_transform_11 reads3_11 true false 1 stage3_11 sem3_11
    hrank3 hreads3_11 hinb3_11 nbuf3_11 (Memref.isWhole_whole _) hwx3_11 hstage3_11

abbrev win3_12 : Pipeline.Window sig grid3 :=
  Pipeline.Window.ofSpec (Memref.whole main_v21_1) S1024x128.size cc3_transform_12 reads3_12 true false 1 stage3_12 sem3_12
    hrank3 hreads3_12 hinb3_12 nbuf3_12 (Memref.isWhole_whole _) hwx3_12 hstage3_12

abbrev win3 : Fin 13 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | ⟨_ + 13, h⟩ => absurd h (Nat.not_lt.2 (Nat.le_add_left _ _))
abbrev spec3 : Fin 13 → Pipeline.WinSpec sig grid3.rank := fun w => (win3 w).toWinSpec

abbrev win4_0 : Pipeline.Window sig grid4 :=
  Pipeline.Window.ofSpec (Memref.whole main_v24) S256x128.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_v22) S256x512.size cc4_transform_1 reads4_1 false false 1 stage4_1 sem4_1
    hrank4 hreads4_1 hinb4_1 nbuf4_1 (Memref.isWhole_whole _) hwx4_1 hstage4_1

abbrev win4_2 : Pipeline.Window sig grid4 :=
  Pipeline.Window.ofSpec (Memref.whole main_v23) S256x512.size cc4_transform_2 reads4_2 false false 1 stage4_2 sem4_2
    hrank4 hreads4_2 hinb4_2 nbuf4_2 (Memref.isWhole_whole _) hwx4_2 hstage4_2

abbrev win4_3 : Pipeline.Window sig grid4 :=
  Pipeline.Window.ofSpec (Memref.whole main_v0) S128x384.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v4) S1x384.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v1) S512x384.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v5) S1x384.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v2) S128x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v6) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v3) S512x512.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v7) S1x512.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v25_0) S256x128.size cc4_transform_11 reads4_11 true false 1 stage4_11 sem4_11
    hrank4 hreads4_11 hinb4_11 nbuf4_11 (Memref.isWhole_whole _) hwx4_11 hstage4_11

abbrev win4_12 : Pipeline.Window sig grid4 :=
  Pipeline.Window.ofSpec (Memref.whole main_v25_1) S256x128.size cc4_transform_12 reads4_12 true false 1 stage4_12 sem4_12
    hrank4 hreads4_12 hinb4_12 nbuf4_12 (Memref.isWhole_whole _) hwx4_12 hstage4_12

abbrev win4 : Fin 13 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | ⟨_ + 13, h⟩ => absurd h (Nat.not_lt.2 (Nat.le_add_left _ _))
abbrev spec4 : Fin 13 → Pipeline.WinSpec sig grid4.rank := fun w => (win4 w).toWinSpec

abbrev win5_0 : Pipeline.Window sig grid5 :=
  Pipeline.Window.ofSpec (Memref.whole main_v28) S64x128.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_v26) S64x512.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_v27) S64x512.size cc5_transform_2 reads5_2 false false 1 stage5_2 sem5_2
    hrank5 hreads5_2 hinb5_2 nbuf5_2 (Memref.isWhole_whole _) hwx5_2 hstage5_2

abbrev win5_3 : Pipeline.Window sig grid5 :=
  Pipeline.Window.ofSpec (Memref.whole main_v0) S128x384.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v4) S1x384.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v1) S512x384.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v5) S1x384.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v2) S128x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v6) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v3) S512x512.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v7) S1x512.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v29_0) S64x128.size cc5_transform_11 reads5_11 true false 1 stage5_11 sem5_11
    hrank5 hreads5_11 hinb5_11 nbuf5_11 (Memref.isWhole_whole _) hwx5_11 hstage5_11

abbrev win5_12 : Pipeline.Window sig grid5 :=
  Pipeline.Window.ofSpec (Memref.whole main_v29_1) S64x128.size cc5_transform_12 reads5_12 true false 1 stage5_12 sem5_12
    hrank5 hreads5_12 hinb5_12 nbuf5_12 (Memref.isWhole_whole _) hwx5_12 hstage5_12

abbrev win5 : Fin 13 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | ⟨_ + 13, h⟩ => absurd h (Nat.not_lt.2 (Nat.le_add_left _ _))
abbrev spec5 : Fin 13 → Pipeline.WinSpec sig grid5.rank := fun w => (win5 w).toWinSpec

abbrev win6_0 : Pipeline.Window sig grid6 :=
  Pipeline.Window.ofSpec (Memref.whole main_v32) S16x128.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_v30) S16x512.size cc6_transform_1 reads6_1 false false 1 stage6_1 sem6_1
    hrank6 hreads6_1 hinb6_1 nbuf6_1 (Memref.isWhole_whole _) hwx6_1 hstage6_1

abbrev win6_2 : Pipeline.Window sig grid6 :=
  Pipeline.Window.ofSpec (Memref.whole main_v31) S16x512.size cc6_transform_2 reads6_2 false false 1 stage6_2 sem6_2
    hrank6 hreads6_2 hinb6_2 nbuf6_2 (Memref.isWhole_whole _) hwx6_2 hstage6_2

abbrev win6_3 : Pipeline.Window sig grid6 :=
  Pipeline.Window.ofSpec (Memref.whole main_v0) S128x384.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v4) S1x384.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v1) S512x384.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v5) S1x384.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v2) S128x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v6) S1x128.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v3) S512x512.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v7) S1x512.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v33_0) S16x128.size cc6_transform_11 reads6_11 true false 1 stage6_11 sem6_11
    hrank6 hreads6_11 hinb6_11 nbuf6_11 (Memref.isWhole_whole _) hwx6_11 hstage6_11

abbrev win6_12 : Pipeline.Window sig grid6 :=
  Pipeline.Window.ofSpec (Memref.whole main_v33_1) S16x128.size cc6_transform_12 reads6_12 true false 1 stage6_12 sem6_12
    hrank6 hreads6_12 hinb6_12 nbuf6_12 (Memref.isWhole_whole _) hwx6_12 hstage6_12

abbrev win6 : Fin 13 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | 12 => win6_12 | ⟨_ + 13, h⟩ => absurd h (Nat.not_lt.2 (Nat.le_add_left _ _))
abbrev spec6 : Fin 13 → Pipeline.WinSpec sig grid6.rank := fun w => (win6 w).toWinSpec

abbrev win7_0 : Pipeline.Window sig grid7 :=
  Pipeline.Window.ofSpec (Memref.whole main_v36) S4x128.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_v34) S4x512.size cc7_transform_1 reads7_1 false false 1 stage7_1 sem7_1
    hrank7 hreads7_1 hinb7_1 nbuf7_1 (Memref.isWhole_whole _) hwx7_1 hstage7_1

abbrev win7_2 : Pipeline.Window sig grid7 :=
  Pipeline.Window.ofSpec (Memref.whole main_v35) S4x512.size cc7_transform_2 reads7_2 false false 1 stage7_2 sem7_2
    hrank7 hreads7_2 hinb7_2 nbuf7_2 (Memref.isWhole_whole _) hwx7_2 hstage7_2

abbrev win7_3 : Pipeline.Window sig grid7 :=
  Pipeline.Window.ofSpec (Memref.whole main_v0) S128x384.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v4) S1x384.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v1) S512x384.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v5) S1x384.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v2) S128x128.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v6) S1x128.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v3) S512x512.size cc7_transform_9 reads7_9 false true 1 stage7_9 sem7_9
    hrank7 hreads7_9 hinb7_9 nbuf7_9 (Memref.isWhole_whole _) hwx7_9 hstage7_9

abbrev win7_10 : Pipeline.Window sig grid7 :=
  Pipeline.Window.ofSpec (Memref.whole main_v7) S1x512.size cc7_transform_10 reads7_10 false true 1 stage7_10 sem7_10
    hrank7 hreads7_10 hinb7_10 nbuf7_10 (Memref.isWhole_whole _) hwx7_10 hstage7_10

abbrev win7_11 : Pipeline.Window sig grid7 :=
  Pipeline.Window.ofSpec (Memref.whole main_v37_0) S4x128.size cc7_transform_11 reads7_11 true false 1 stage7_11 sem7_11
    hrank7 hreads7_11 hinb7_11 nbuf7_11 (Memref.isWhole_whole _) hwx7_11 hstage7_11

abbrev win7_12 : Pipeline.Window sig grid7 :=
  Pipeline.Window.ofSpec (Memref.whole main_v37_1) S4x128.size cc7_transform_12 reads7_12 true false 1 stage7_12 sem7_12
    hrank7 hreads7_12 hinb7_12 nbuf7_12 (Memref.isWhole_whole _) hwx7_12 hstage7_12

abbrev win7 : Fin 13 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | 11 => win7_11 | 12 => win7_12 | ⟨_ + 13, h⟩ => absurd h (Nat.not_lt.2 (Nat.le_add_left _ _))
abbrev spec7 : Fin 13 → Pipeline.WinSpec sig grid7.rank := fun w => (win7 w).toWinSpec

abbrev win8_0 : Pipeline.Window sig grid8 :=
  Pipeline.Window.ofSpec (Memref.whole main_v40) S1x128.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_v38) S1x512.size cc8_transform_1 reads8_1 false false 1 stage8_1 sem8_1
    hrank8 hreads8_1 hinb8_1 nbuf8_1 (Memref.isWhole_whole _) hwx8_1 hstage8_1

abbrev win8_2 : Pipeline.Window sig grid8 :=
  Pipeline.Window.ofSpec (Memref.whole main_v39) S1x512.size cc8_transform_2 reads8_2 false false 1 stage8_2 sem8_2
    hrank8 hreads8_2 hinb8_2 nbuf8_2 (Memref.isWhole_whole _) hwx8_2 hstage8_2

abbrev win8_3 : Pipeline.Window sig grid8 :=
  Pipeline.Window.ofSpec (Memref.whole main_v0) S128x384.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v4) S1x384.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v1) S512x384.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v5) S1x384.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v2) S128x128.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v6) S1x128.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v3) S512x512.size cc8_transform_9 reads8_9 false true 1 stage8_9 sem8_9
    hrank8 hreads8_9 hinb8_9 nbuf8_9 (Memref.isWhole_whole _) hwx8_9 hstage8_9

abbrev win8_10 : Pipeline.Window sig grid8 :=
  Pipeline.Window.ofSpec (Memref.whole main_v7) S1x512.size cc8_transform_10 reads8_10 false true 1 stage8_10 sem8_10
    hrank8 hreads8_10 hinb8_10 nbuf8_10 (Memref.isWhole_whole _) hwx8_10 hstage8_10

abbrev win8_11 : Pipeline.Window sig grid8 :=
  Pipeline.Window.ofSpec (Memref.whole main_v41_0) S1x128.size cc8_transform_11 reads8_11 true false 1 stage8_11 sem8_11
    hrank8 hreads8_11 hinb8_11 nbuf8_11 (Memref.isWhole_whole _) hwx8_11 hstage8_11

abbrev win8_12 : Pipeline.Window sig grid8 :=
  Pipeline.Window.ofSpec (Memref.whole main_v41_1) S1x128.size cc8_transform_12 reads8_12 true false 1 stage8_12 sem8_12
    hrank8 hreads8_12 hinb8_12 nbuf8_12 (Memref.isWhole_whole _) hwx8_12 hstage8_12

abbrev win8 : Fin 13 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | 11 => win8_11 | 12 => win8_12 | ⟨_ + 13, h⟩ => absurd h (Nat.not_lt.2 (Nat.le_add_left _ _))
abbrev spec8 : Fin 13 → Pipeline.WinSpec sig grid8.rank := fun w => (win8 w).toWinSpec

class Facts : Prop extends Facts₀ where

variable [Facts]
-- ==== ReferenceIdeal.lean ====
abbrev S87381x128 : Shape := ⟨2, ![87381, 128]⟩
abbrev S384x128 : Shape := ⟨2, ![384, 128]⟩
abbrev S384 : Shape := ⟨1, ![384]⟩
abbrev S384x512 : Shape := ⟨2, ![384, 512]⟩
abbrev S128x128 : Shape := ⟨2, ![128, 128]⟩
abbrev S128 : Shape := ⟨1, ![128]⟩
abbrev S512x512 : Shape := ⟨2, ![512, 512]⟩
abbrev S512 : Shape := ⟨1, ![512]⟩
abbrev S1x512 : Shape := ⟨2, ![1, 512]⟩
abbrev S1x1x1x512 : Shape := ⟨4, ![1, 1, 1, 512]⟩
abbrev S65536x1x1x512 : Shape := ⟨4, ![65536, 1, 1, 512]⟩
abbrev S65536x512 : Shape := ⟨2, ![65536, 512]⟩
abbrev S65536x128 : Shape := ⟨2, ![65536, 128]⟩
abbrev S128x384 : Shape := ⟨2, ![128, 384]⟩
abbrev S65536x384 : Shape := ⟨2, ![65536, 384]⟩
abbrev S1x384 : Shape := ⟨2, ![1, 384]⟩
abbrev S512x384 : Shape := ⟨2, ![512, 384]⟩
abbrev S65536x4x128 : Shape := ⟨3, ![65536, 4, 128]⟩
abbrev S1x128 : Shape := ⟨2, ![1, 128]⟩
abbrev S65536x1x128 : Shape := ⟨3, ![65536, 1, 128]⟩
abbrev S_ : Shape := ⟨0, ![]⟩
abbrev S16384x512 : Shape := ⟨2, ![16384, 512]⟩
abbrev S16384x128 : Shape := ⟨2, ![16384, 128]⟩
abbrev S16384x384 : Shape := ⟨2, ![16384, 384]⟩
abbrev S16384x4x128 : Shape := ⟨3, ![16384, 4, 128]⟩
abbrev S16384x1x128 : Shape := ⟨3, ![16384, 1, 128]⟩
abbrev S4096x512 : Shape := ⟨2, ![4096, 512]⟩
abbrev S4096x128 : Shape := ⟨2, ![4096, 128]⟩
abbrev S4096x384 : Shape := ⟨2, ![4096, 384]⟩
abbrev S4096x4x128 : Shape := ⟨3, ![4096, 4, 128]⟩
abbrev S4096x1x128 : Shape := ⟨3, ![4096, 1, 128]⟩
abbrev S1024x512 : Shape := ⟨2, ![1024, 512]⟩
abbrev S1024x128 : Shape := ⟨2, ![1024, 128]⟩
abbrev S1024x384 : Shape := ⟨2, ![1024, 384]⟩
abbrev S1024x4x128 : Shape := ⟨3, ![1024, 4, 128]⟩
abbrev S1024x1x128 : Shape := ⟨3, ![1024, 1, 128]⟩
abbrev S256x512 : Shape := ⟨2, ![256, 512]⟩
abbrev S256x128 : Shape := ⟨2, ![256, 128]⟩
abbrev S256x384 : Shape := ⟨2, ![256, 384]⟩
abbrev S256x4x128 : Shape := ⟨3, ![256, 4, 128]⟩
abbrev S256x1x128 : Shape := ⟨3, ![256, 1, 128]⟩
abbrev S64x512 : Shape := ⟨2, ![64, 512]⟩
abbrev S64x128 : Shape := ⟨2, ![64, 128]⟩
abbrev S64x384 : Shape := ⟨2, ![64, 384]⟩
abbrev S64x4x128 : Shape := ⟨3, ![64, 4, 128]⟩
abbrev S64x1x128 : Shape := ⟨3, ![64, 1, 128]⟩
abbrev S16x512 : Shape := ⟨2, ![16, 512]⟩
abbrev S16x128 : Shape := ⟨2, ![16, 128]⟩
abbrev S16x384 : Shape := ⟨2, ![16, 384]⟩
abbrev S16x4x128 : Shape := ⟨3, ![16, 4, 128]⟩
abbrev S16x1x128 : Shape := ⟨3, ![16, 1, 128]⟩
abbrev S4x512 : Shape := ⟨2, ![4, 512]⟩
abbrev S4x128 : Shape := ⟨2, ![4, 128]⟩
abbrev S4x384 : Shape := ⟨2, ![4, 384]⟩
abbrev S4x4x128 : Shape := ⟨3, ![4, 4, 128]⟩
abbrev S4x1x128 : Shape := ⟨3, ![4, 1, 128]⟩
abbrev S1x4x128 : Shape := ⟨3, ![1, 4, 128]⟩
abbrev S1x1x128 : Shape := ⟨3, ![1, 1, 128]⟩
abbrev S1x87381x128 : Shape := ⟨3, ![1, 87381, 128]⟩

abbrev nBuf : Space → Nat
  | .hbm => 591
  | .vmem => 0
  | .smem => 0
  | _ => 0

abbrev hbmTy0_0 (i : Nat) : BufTy := match i % 128 with
  | 0 => ⟨S87381x128, .f32⟩
  | 1 => ⟨S384x128, .f32⟩
  | 2 => ⟨S384, .f32⟩
  | 3 => ⟨S384x512, .f32⟩
  | 4 => ⟨S384, .f32⟩
  | 5 => ⟨S128x128, .f32⟩
  | 6 => ⟨S128, .f32⟩
  | 7 => ⟨S512x512, .f32⟩
  | 8 => ⟨S512, .f32⟩
  | 9 => ⟨S1x512, .f32⟩
  | 10 => ⟨S1x512, .f32⟩
  | 11 => ⟨S1x1x1x512, .f32⟩
  | 12 => ⟨S65536x1x1x512, .f32⟩
  | 13 => ⟨S65536x512, .f32⟩
  | 14 => ⟨S1x1x1x512, .f32⟩
  | 15 => ⟨S65536x1x1x512, .f32⟩
  | 16 => ⟨S65536x512, .f32⟩
  | 17 => ⟨S65536x128, .f32⟩
  | 18 => ⟨S128x384, .f32⟩
  | 19 => ⟨S65536x384, .f32⟩
  | 20 => ⟨S1x384, .f32⟩
  | 21 => ⟨S65536x384, .f32⟩
  | 22 => ⟨S65536x384, .f32⟩
  | 23 => ⟨S512x384, .f32⟩
  | 24 => ⟨S65536x384, .f32⟩
  | 25 => ⟨S65536x384, .f32⟩
  | 26 => ⟨S1x384, .f32⟩
  | 27 => ⟨S65536x384, .f32⟩
  | 28 => ⟨S65536x384, .f32⟩
  | 29 => ⟨S65536x128, .f32⟩
  | 30 => ⟨S65536x128, .f32⟩
  | 31 => ⟨S65536x128, .f32⟩
  | 32 => ⟨S512x512, .f32⟩
  | 33 => ⟨S65536x512, .f32⟩
  | 34 => ⟨S1x512, .f32⟩
  | 35 => ⟨S65536x512, .f32⟩
  | 36 => ⟨S65536x512, .f32⟩
  | 37 => ⟨S65536x4x128, .f32⟩
  | 38 => ⟨S128x128, .f32⟩
  | 39 => ⟨S65536x128, .f32⟩
  | 40 => ⟨S1x128, .f32⟩
  | 41 => ⟨S65536x128, .f32⟩
  | 42 => ⟨S65536x128, .f32⟩
  | 43 => ⟨S65536x1x128, .f32⟩
  | 44 => ⟨S65536x4x128, .f32⟩
  | 45 => ⟨S65536x4x128, .f32⟩
  | 46 => ⟨S65536x4x128, .f32⟩
  | 47 => ⟨S65536x4x128, .f32⟩
  | 48 => ⟨S_, .f32⟩
  | 49 => ⟨S65536x4x128, .f32⟩
  | 50 => ⟨S65536x4x128, .f32⟩
  | 51 => ⟨S_, .f32⟩
  | 52 => ⟨S65536x4x128, .f32⟩
  | 53 => ⟨S65536x4x128, .f32⟩
  | 54 => ⟨S65536x128, .f32⟩
  | 55 => ⟨S65536x128, .f32⟩
  | 56 => ⟨S_, .f32⟩
  | 57 => ⟨S65536x128, .f32⟩
  | 58 => ⟨S65536x128, .f32⟩
  | 59 => ⟨S_, .f32⟩
  | 60 => ⟨S65536x128, .f32⟩
  | 61 => ⟨S65536x128, .f32⟩
  | 62 => ⟨S65536x128, .f32⟩
  | 63 => ⟨S65536x128, .f32⟩
  | 64 => ⟨S65536x4x128, .f32⟩
  | 65 => ⟨S65536x4x128, .f32⟩
  | 66 => ⟨S_, .f32⟩
  | 67 => ⟨S65536x128, .f32⟩
  | 68 => ⟨S65536x128, .f32⟩
  | 69 => ⟨S65536x128, .f32⟩
  | 70 => ⟨S65536x128, .f32⟩
  | 71 => ⟨S_, .f32⟩
  | 72 => ⟨S65536x128, .f32⟩
  | 73 => ⟨S65536x128, .f32⟩
  | 74 => ⟨S_, .f32⟩
  | 75 => ⟨S65536x128, .f32⟩
  | 76 => ⟨S65536x128, .f32⟩
  | 77 => ⟨S65536x128, .f32⟩
  | 78 => ⟨S65536x128, .f32⟩
  | 79 => ⟨S16384x512, .f32⟩
  | 80 => ⟨S16384x512, .f32⟩
  | 81 => ⟨S16384x128, .f32⟩
  | 82 => ⟨S128x384, .f32⟩
  | 83 => ⟨S16384x384, .f32⟩
  | 84 => ⟨S1x384, .f32⟩
  | 85 => ⟨S16384x384, .f32⟩
  | 86 => ⟨S16384x384, .f32⟩
  | 87 => ⟨S512x384, .f32⟩
  | 88 => ⟨S16384x384, .f32⟩
  | 89 => ⟨S16384x384, .f32⟩
  | 90 => ⟨S1x384, .f32⟩
  | 91 => ⟨S16384x384, .f32⟩
  | 92 => ⟨S16384x384, .f32⟩
  | 93 => ⟨S16384x128, .f32⟩
  | 94 => ⟨S16384x128, .f32⟩
  | 95 => ⟨S16384x128, .f32⟩
  | 96 => ⟨S512x512, .f32⟩
  | 97 => ⟨S16384x512, .f32⟩
  | 98 => ⟨S1x512, .f32⟩
  | 99 => ⟨S16384x512, .f32⟩
  | 100 => ⟨S16384x512, .f32⟩
  | 101 => ⟨S16384x4x128, .f32⟩
  | 102 => ⟨S128x128, .f32⟩
  | 103 => ⟨S16384x128, .f32⟩
  | 104 => ⟨S1x128, .f32⟩
  | 105 => ⟨S16384x128, .f32⟩
  | 106 => ⟨S16384x128, .f32⟩
  | 107 => ⟨S16384x1x128, .f32⟩
  | 108 => ⟨S16384x4x128, .f32⟩
  | 109 => ⟨S16384x4x128, .f32⟩
  | 110 => ⟨S16384x4x128, .f32⟩
  | 111 => ⟨S16384x4x128, .f32⟩
  | 112 => ⟨S_, .f32⟩
  | 113 => ⟨S16384x4x128, .f32⟩
  | 114 => ⟨S16384x4x128, .f32⟩
  | 115 => ⟨S_, .f32⟩
  | 116 => ⟨S16384x4x128, .f32⟩
  | 117 => ⟨S16384x4x128, .f32⟩
  | 118 => ⟨S16384x128, .f32⟩
  | 119 => ⟨S16384x128, .f32⟩
  | 120 => ⟨S_, .f32⟩
  | 121 => ⟨S16384x128, .f32⟩
  | 122 => ⟨S16384x128, .f32⟩
  | 123 => ⟨S_, .f32⟩
  | 124 => ⟨S16384x128, .f32⟩
  | 125 => ⟨S16384x128, .f32⟩
  | 126 => ⟨S16384x128, .f32⟩
  | 127 => ⟨S16384x128, .f32⟩
  | _ => ⟨S87381x128, .f32⟩

abbrev hbmTy0_1 (i : Nat) : BufTy := match i % 128 with
  | 0 => ⟨S16384x4x128, .f32⟩
  | 1 => ⟨S16384x4x128, .f32⟩
  | 2 => ⟨S_, .f32⟩
  | 3 => ⟨S16384x128, .f32⟩
  | 4 => ⟨S16384x128, .f32⟩
  | 5 => ⟨S16384x128, .f32⟩
  | 6 => ⟨S16384x128, .f32⟩
  | 7 => ⟨S_, .f32⟩
  | 8 => ⟨S16384x128, .f32⟩
  | 9 => ⟨S16384x128, .f32⟩
  | 10 => ⟨S_, .f32⟩
  | 11 => ⟨S16384x128, .f32⟩
  | 12 => ⟨S16384x128, .f32⟩
  | 13 => ⟨S16384x128, .f32⟩
  | 14 => ⟨S16384x128, .f32⟩
  | 15 => ⟨S4096x512, .f32⟩
  | 16 => ⟨S4096x512, .f32⟩
  | 17 => ⟨S4096x128, .f32⟩
  | 18 => ⟨S128x384, .f32⟩
  | 19 => ⟨S4096x384, .f32⟩
  | 20 => ⟨S1x384, .f32⟩
  | 21 => ⟨S4096x384, .f32⟩
  | 22 => ⟨S4096x384, .f32⟩
  | 23 => ⟨S512x384, .f32⟩
  | 24 => ⟨S4096x384, .f32⟩
  | 25 => ⟨S4096x384, .f32⟩
  | 26 => ⟨S1x384, .f32⟩
  | 27 => ⟨S4096x384, .f32⟩
  | 28 => ⟨S4096x384, .f32⟩
  | 29 => ⟨S4096x128, .f32⟩
  | 30 => ⟨S4096x128, .f32⟩
  | 31 => ⟨S4096x128, .f32⟩
  | 32 => ⟨S512x512, .f32⟩
  | 33 => ⟨S4096x512, .f32⟩
  | 34 => ⟨S1x512, .f32⟩
  | 35 => ⟨S4096x512, .f32⟩
  | 36 => ⟨S4096x512, .f32⟩
  | 37 => ⟨S4096x4x128, .f32⟩
  | 38 => ⟨S128x128, .f32⟩
  | 39 => ⟨S4096x128, .f32⟩
  | 40 => ⟨S1x128, .f32⟩
  | 41 => ⟨S4096x128, .f32⟩
  | 42 => ⟨S4096x128, .f32⟩
  | 43 => ⟨S4096x1x128, .f32⟩
  | 44 => ⟨S4096x4x128, .f32⟩
  | 45 => ⟨S4096x4x128, .f32⟩
  | 46 => ⟨S4096x4x128, .f32⟩
  | 47 => ⟨S4096x4x128, .f32⟩
  | 48 => ⟨S_, .f32⟩
  | 49 => ⟨S4096x4x128, .f32⟩
  | 50 => ⟨S4096x4x128, .f32⟩
  | 51 => ⟨S_, .f32⟩
  | 52 => ⟨S4096x4x128, .f32⟩
  | 53 => ⟨S4096x4x128, .f32⟩
  | 54 => ⟨S4096x128, .f32⟩
  | 55 => ⟨S4096x128, .f32⟩
  | 56 => ⟨S_, .f32⟩
  | 57 => ⟨S4096x128, .f32⟩
  | 58 => ⟨S4096x128, .f32⟩
  | 59 => ⟨S_, .f32⟩
  | 60 => ⟨S4096x128, .f32⟩
  | 61 => ⟨S4096x128, .f32⟩
  | 62 => ⟨S4096x128, .f32⟩
  | 63 => ⟨S4096x128, .f32⟩
  | 64 => ⟨S4096x4x128, .f32⟩
  | 65 => ⟨S4096x4x128, .f32⟩
  | 66 => ⟨S_, .f32⟩
  | 67 => ⟨S4096x128, .f32⟩
  | 68 => ⟨S4096x128, .f32⟩
  | 69 => ⟨S4096x128, .f32⟩
  | 70 => ⟨S4096x128, .f32⟩
  | 71 => ⟨S_, .f32⟩
  | 72 => ⟨S4096x128, .f32⟩
  | 73 => ⟨S4096x128, .f32⟩
  | 74 => ⟨S_, .f32⟩
  | 75 => ⟨S4096x128, .f32⟩
  | 76 => ⟨S4096x128, .f32⟩
  | 77 => ⟨S4096x128, .f32⟩
  | 78 => ⟨S4096x128, .f32⟩
  | 79 => ⟨S1024x512, .f32⟩
  | 80 => ⟨S1024x512, .f32⟩
  | 81 => ⟨S1024x128, .f32⟩
  | 82 => ⟨S128x384, .f32⟩
  | 83 => ⟨S1024x384, .f32⟩
  | 84 => ⟨S1x384, .f32⟩
  | 85 => ⟨S1024x384, .f32⟩
  | 86 => ⟨S1024x384, .f32⟩
  | 87 => ⟨S512x384, .f32⟩
  | 88 => ⟨S1024x384, .f32⟩
  | 89 => ⟨S1024x384, .f32⟩
  | 90 => ⟨S1x384, .f32⟩
  | 91 => ⟨S1024x384, .f32⟩
  | 92 => ⟨S1024x384, .f32⟩
  | 93 => ⟨S1024x128, .f32⟩
  | 94 => ⟨S1024x128, .f32⟩
  | 95 => ⟨S1024x128, .f32⟩
  | 96 => ⟨S512x512, .f32⟩
  | 97 => ⟨S1024x512, .f32⟩
  | 98 => ⟨S1x512, .f32⟩
  | 99 => ⟨S1024x512, .f32⟩
  | 100 => ⟨S1024x512, .f32⟩
  | 101 => ⟨S1024x4x128, .f32⟩
  | 102 => ⟨S128x128, .f32⟩
  | 103 => ⟨S1024x128, .f32⟩
  | 104 => ⟨S1x128, .f32⟩
  | 105 => ⟨S1024x128, .f32⟩
  | 106 => ⟨S1024x128, .f32⟩
  | 107 => ⟨S1024x1x128, .f32⟩
  | 108 => ⟨S1024x4x128, .f32⟩
  | 109 => ⟨S1024x4x128, .f32⟩
  | 110 => ⟨S1024x4x128, .f32⟩
  | 111 => ⟨S1024x4x128, .f32⟩
  | 112 => ⟨S_, .f32⟩
  | 113 => ⟨S1024x4x128, .f32⟩
  | 114 => ⟨S1024x4x128, .f32⟩
  | 115 => ⟨S_, .f32⟩
  | 116 => ⟨S1024x4x128, .f32⟩
  | 117 => ⟨S1024x4x128, .f32⟩
  | 118 => ⟨S1024x128, .f32⟩
  | 119 => ⟨S1024x128, .f32⟩
  | 120 => ⟨S_, .f32⟩
  | 121 => ⟨S1024x128, .f32⟩
  | 122 => ⟨S1024x128, .f32⟩
  | 123 => ⟨S_, .f32⟩
  | 124 => ⟨S1024x128, .f32⟩
  | 125 => ⟨S1024x128, .f32⟩
  | 126 => ⟨S1024x128, .f32⟩
  | 127 => ⟨S1024x128, .f32⟩
  | _ => ⟨S87381x128, .f32⟩

abbrev hbmTy0_2 (i : Nat) : BufTy := match i % 128 with
  | 0 => ⟨S1024x4x128, .f32⟩
  | 1 => ⟨S1024x4x128, .f32⟩
  | 2 => ⟨S_, .f32⟩
  | 3 => ⟨S1024x128, .f32⟩
  | 4 => ⟨S1024x128, .f32⟩
  | 5 => ⟨S1024x128, .f32⟩
  | 6 => ⟨S1024x128, .f32⟩
  | 7 => ⟨S_, .f32⟩
  | 8 => ⟨S1024x128, .f32⟩
  | 9 => ⟨S1024x128, .f32⟩
  | 10 => ⟨S_, .f32⟩
  | 11 => ⟨S1024x128, .f32⟩
  | 12 => ⟨S1024x128, .f32⟩
  | 13 => ⟨S1024x128, .f32⟩
  | 14 => ⟨S1024x128, .f32⟩
  | 15 => ⟨S256x512, .f32⟩
  | 16 => ⟨S256x512, .f32⟩
  | 17 => ⟨S256x128, .f32⟩
  | 18 => ⟨S128x384, .f32⟩
  | 19 => ⟨S256x384, .f32⟩
  | 20 => ⟨S1x384, .f32⟩
  | 21 => ⟨S256x384, .f32⟩
  | 22 => ⟨S256x384, .f32⟩
  | 23 => ⟨S512x384, .f32⟩
  | 24 => ⟨S256x384, .f32⟩
  | 25 => ⟨S256x384, .f32⟩
  | 26 => ⟨S1x384, .f32⟩
  | 27 => ⟨S256x384, .f32⟩
  | 28 => ⟨S256x384, .f32⟩
  | 29 => ⟨S256x128, .f32⟩
  | 30 => ⟨S256x128, .f32⟩
  | 31 => ⟨S256x128, .f32⟩
  | 32 => ⟨S512x512, .f32⟩
  | 33 => ⟨S256x512, .f32⟩
  | 34 => ⟨S1x512, .f32⟩
  | 35 => ⟨S256x512, .f32⟩
  | 36 => ⟨S256x512, .f32⟩
  | 37 => ⟨S256x4x128, .f32⟩
  | 38 => ⟨S128x128, .f32⟩
  | 39 => ⟨S256x128, .f32⟩
  | 40 => ⟨S1x128, .f32⟩
  | 41 => ⟨S256x128, .f32⟩
  | 42 => ⟨S256x128, .f32⟩
  | 43 => ⟨S256x1x128, .f32⟩
  | 44 => ⟨S256x4x128, .f32⟩
  | 45 => ⟨S256x4x128, .f32⟩
  | 46 => ⟨S256x4x128, .f32⟩
  | 47 => ⟨S256x4x128, .f32⟩
  | 48 => ⟨S_, .f32⟩
  | 49 => ⟨S256x4x128, .f32⟩
  | 50 => ⟨S256x4x128, .f32⟩
  | 51 => ⟨S_, .f32⟩
  | 52 => ⟨S256x4x128, .f32⟩
  | 53 => ⟨S256x4x128, .f32⟩
  | 54 => ⟨S256x128, .f32⟩
  | 55 => ⟨S256x128, .f32⟩
  | 56 => ⟨S_, .f32⟩
  | 57 => ⟨S256x128, .f32⟩
  | 58 => ⟨S256x128, .f32⟩
  | 59 => ⟨S_, .f32⟩
  | 60 => ⟨S256x128, .f32⟩
  | 61 => ⟨S256x128, .f32⟩
  | 62 => ⟨S256x128, .f32⟩
  | 63 => ⟨S256x128, .f32⟩
  | 64 => ⟨S256x4x128, .f32⟩
  | 65 => ⟨S256x4x128, .f32⟩
  | 66 => ⟨S_, .f32⟩
  | 67 => ⟨S256x128, .f32⟩
  | 68 => ⟨S256x128, .f32⟩
  | 69 => ⟨S256x128, .f32⟩
  | 70 => ⟨S256x128, .f32⟩
  | 71 => ⟨S_, .f32⟩
  | 72 => ⟨S256x128, .f32⟩
  | 73 => ⟨S256x128, .f32⟩
  | 74 => ⟨S_, .f32⟩
  | 75 => ⟨S256x128, .f32⟩
  | 76 => ⟨S256x128, .f32⟩
  | 77 => ⟨S256x128, .f32⟩
  | 78 => ⟨S256x128, .f32⟩
  | 79 => ⟨S64x512, .f32⟩
  | 80 => ⟨S64x512, .f32⟩
  | 81 => ⟨S64x128, .f32⟩
  | 82 => ⟨S128x384, .f32⟩
  | 83 => ⟨S64x384, .f32⟩
  | 84 => ⟨S1x384, .f32⟩
  | 85 => ⟨S64x384, .f32⟩
  | 86 => ⟨S64x384, .f32⟩
  | 87 => ⟨S512x384, .f32⟩
  | 88 => ⟨S64x384, .f32⟩
  | 89 => ⟨S64x384, .f32⟩
  | 90 => ⟨S1x384, .f32⟩
  | 91 => ⟨S64x384, .f32⟩
  | 92 => ⟨S64x384, .f32⟩
  | 93 => ⟨S64x128, .f32⟩
  | 94 => ⟨S64x128, .f32⟩
  | 95 => ⟨S64x128, .f32⟩
  | 96 => ⟨S512x512, .f32⟩
  | 97 => ⟨S64x512, .f32⟩
  | 98 => ⟨S1x512, .f32⟩
  | 99 => ⟨S64x512, .f32⟩
  | 100 => ⟨S64x512, .f32⟩
  | 101 => ⟨S64x4x128, .f32⟩
  | 102 => ⟨S128x128, .f32⟩
  | 103 => ⟨S64x128, .f32⟩
  | 104 => ⟨S1x128, .f32⟩
  | 105 => ⟨S64x128, .f32⟩
  | 106 => ⟨S64x128, .f32⟩
  | 107 => ⟨S64x1x128, .f32⟩
  | 108 => ⟨S64x4x128, .f32⟩
  | 109 => ⟨S64x4x128, .f32⟩
  | 110 => ⟨S64x4x128, .f32⟩
  | 111 => ⟨S64x4x128, .f32⟩
  | 112 => ⟨S_, .f32⟩
  | 113 => ⟨S64x4x128, .f32⟩
  | 114 => ⟨S64x4x128, .f32⟩
  | 115 => ⟨S_, .f32⟩
  | 116 => ⟨S64x4x128, .f32⟩
  | 117 => ⟨S64x4x128, .f32⟩
  | 118 => ⟨S64x128, .f32⟩
  | 119 => ⟨S64x128, .f32⟩
  | 120 => ⟨S_, .f32⟩
  | 121 => ⟨S64x128, .f32⟩
  | 122 => ⟨S64x128, .f32⟩
  | 123 => ⟨S_, .f32⟩
  | 124 => ⟨S64x128, .f32⟩
  | 125 => ⟨S64x128, .f32⟩
  | 126 => ⟨S64x128, .f32⟩
  | 127 => ⟨S64x128, .f32⟩
  | _ => ⟨S87381x128, .f32⟩

abbrev hbmTy0_3 (i : Nat) : BufTy := match i % 128 with
  | 0 => ⟨S64x4x128, .f32⟩
  | 1 => ⟨S64x4x128, .f32⟩
  | 2 => ⟨S_, .f32⟩
  | 3 => ⟨S64x128, .f32⟩
  | 4 => ⟨S64x128, .f32⟩
  | 5 => ⟨S64x128, .f32⟩
  | 6 => ⟨S64x128, .f32⟩
  | 7 => ⟨S_, .f32⟩
  | 8 => ⟨S64x128, .f32⟩
  | 9 => ⟨S64x128, .f32⟩
  | 10 => ⟨S_, .f32⟩
  | 11 => ⟨S64x128, .f32⟩
  | 12 => ⟨S64x128, .f32⟩
  | 13 => ⟨S64x128, .f32⟩
  | 14 => ⟨S64x128, .f32⟩
  | 15 => ⟨S16x512, .f32⟩
  | 16 => ⟨S16x512, .f32⟩
  | 17 => ⟨S16x128, .f32⟩
  | 18 => ⟨S128x384, .f32⟩
  | 19 => ⟨S16x384, .f32⟩
  | 20 => ⟨S1x384, .f32⟩
  | 21 => ⟨S16x384, .f32⟩
  | 22 => ⟨S16x384, .f32⟩
  | 23 => ⟨S512x384, .f32⟩
  | 24 => ⟨S16x384, .f32⟩
  | 25 => ⟨S16x384, .f32⟩
  | 26 => ⟨S1x384, .f32⟩
  | 27 => ⟨S16x384, .f32⟩
  | 28 => ⟨S16x384, .f32⟩
  | 29 => ⟨S16x128, .f32⟩
  | 30 => ⟨S16x128, .f32⟩
  | 31 => ⟨S16x128, .f32⟩
  | 32 => ⟨S512x512, .f32⟩
  | 33 => ⟨S16x512, .f32⟩
  | 34 => ⟨S1x512, .f32⟩
  | 35 => ⟨S16x512, .f32⟩
  | 36 => ⟨S16x512, .f32⟩
  | 37 => ⟨S16x4x128, .f32⟩
  | 38 => ⟨S128x128, .f32⟩
  | 39 => ⟨S16x128, .f32⟩
  | 40 => ⟨S1x128, .f32⟩
  | 41 => ⟨S16x128, .f32⟩
  | 42 => ⟨S16x128, .f32⟩
  | 43 => ⟨S16x1x128, .f32⟩
  | 44 => ⟨S16x4x128, .f32⟩
  | 45 => ⟨S16x4x128, .f32⟩
  | 46 => ⟨S16x4x128, .f32⟩
  | 47 => ⟨S16x4x128, .f32⟩
  | 48 => ⟨S_, .f32⟩
  | 49 => ⟨S16x4x128, .f32⟩
  | 50 => ⟨S16x4x128, .f32⟩
  | 51 => ⟨S_, .f32⟩
  | 52 => ⟨S16x4x128, .f32⟩
  | 53 => ⟨S16x4x128, .f32⟩
  | 54 => ⟨S16x128, .f32⟩
  | 55 => ⟨S16x128, .f32⟩
  | 56 => ⟨S_, .f32⟩
  | 57 => ⟨S16x128, .f32⟩
  | 58 => ⟨S16x128, .f32⟩
  | 59 => ⟨S_, .f32⟩
  | 60 => ⟨S16x128, .f32⟩
  | 61 => ⟨S16x128, .f32⟩
  | 62 => ⟨S16x128, .f32⟩
  | 63 => ⟨S16x128, .f32⟩
  | 64 => ⟨S16x4x128, .f32⟩
  | 65 => ⟨S16x4x128, .f32⟩
  | 66 => ⟨S_, .f32⟩
  | 67 => ⟨S16x128, .f32⟩
  | 68 => ⟨S16x128, .f32⟩
  | 69 => ⟨S16x128, .f32⟩
  | 70 => ⟨S16x128, .f32⟩
  | 71 => ⟨S_, .f32⟩
  | 72 => ⟨S16x128, .f32⟩
  | 73 => ⟨S16x128, .f32⟩
  | 74 => ⟨S_, .f32⟩
  | 75 => ⟨S16x128, .f32⟩
  | 76 => ⟨S16x128, .f32⟩
  | 77 => ⟨S16x128, .f32⟩
  | 78 => ⟨S16x128, .f32⟩
  | 79 => ⟨S4x512, .f32⟩
  | 80 => ⟨S4x512, .f32⟩
  | 81 => ⟨S4x128, .f32⟩
  | 82 => ⟨S128x384, .f32⟩
  | 83 => ⟨S4x384, .f32⟩
  | 84 => ⟨S1x384, .f32⟩
  | 85 => ⟨S4x384, .f32⟩
  | 86 => ⟨S4x384, .f32⟩
  | 87 => ⟨S512x384, .f32⟩
  | 88 => ⟨S4x384, .f32⟩
  | 89 => ⟨S4x384, .f32⟩
  | 90 => ⟨S1x384, .f32⟩
  | 91 => ⟨S4x384, .f32⟩
  | 92 => ⟨S4x384, .f32⟩
  | 93 => ⟨S4x128, .f32⟩
  | 94 => ⟨S4x128, .f32⟩
  | 95 => ⟨S4x128, .f32⟩
  | 96 => ⟨S512x512, .f32⟩
  | 97 => ⟨S4x512, .f32⟩
  | 98 => ⟨S1x512, .f32⟩
  | 99 => ⟨S4x512, .f32⟩
  | 100 => ⟨S4x512, .f32⟩
  | 101 => ⟨S4x4x128, .f32⟩
  | 102 => ⟨S128x128, .f32⟩
  | 103 => ⟨S4x128, .f32⟩
  | 104 => ⟨S1x128, .f32⟩
  | 105 => ⟨S4x128, .f32⟩
  | 106 => ⟨S4x128, .f32⟩
  | 107 => ⟨S4x1x128, .f32⟩
  | 108 => ⟨S4x4x128, .f32⟩
  | 109 => ⟨S4x4x128, .f32⟩
  | 110 => ⟨S4x4x128, .f32⟩
  | 111 => ⟨S4x4x128, .f32⟩
  | 112 => ⟨S_, .f32⟩
  | 113 => ⟨S4x4x128, .f32⟩
  | 114 => ⟨S4x4x128, .f32⟩
  | 115 => ⟨S_, .f32⟩
  | 116 => ⟨S4x4x128, .f32⟩
  | 117 => ⟨S4x4x128, .f32⟩
  | 118 => ⟨S4x128, .f32⟩
  | 119 => ⟨S4x128, .f32⟩
  | 120 => ⟨S_, .f32⟩
  | 121 => ⟨S4x128, .f32⟩
  | 122 => ⟨S4x128, .f32⟩
  | 123 => ⟨S_, .f32⟩
  | 124 => ⟨S4x128, .f32⟩
  | 125 => ⟨S4x128, .f32⟩
  | 126 => ⟨S4x128, .f32⟩
  | 127 => ⟨S4x128, .f32⟩
  | _ => ⟨S87381x128, .f32⟩

abbrev hbmTy0_4 (i : Nat) : BufTy := match i % 128 with
  | 0 => ⟨S4x4x128, .f32⟩
  | 1 => ⟨S4x4x128, .f32⟩
  | 2 => ⟨S_, .f32⟩
  | 3 => ⟨S4x128, .f32⟩
  | 4 => ⟨S4x128, .f32⟩
  | 5 => ⟨S4x128, .f32⟩
  | 6 => ⟨S4x128, .f32⟩
  | 7 => ⟨S_, .f32⟩
  | 8 => ⟨S4x128, .f32⟩
  | 9 => ⟨S4x128, .f32⟩
  | 10 => ⟨S_, .f32⟩
  | 11 => ⟨S4x128, .f32⟩
  | 12 => ⟨S4x128, .f32⟩
  | 13 => ⟨S4x128, .f32⟩
  | 14 => ⟨S4x128, .f32⟩
  | 15 => ⟨S1x512, .f32⟩
  | 16 => ⟨S1x512, .f32⟩
  | 17 => ⟨S1x128, .f32⟩
  | 18 => ⟨S128x384, .f32⟩
  | 19 => ⟨S1x384, .f32⟩
  | 20 => ⟨S1x384, .f32⟩
  | 21 => ⟨S1x384, .f32⟩
  | 22 => ⟨S512x384, .f32⟩
  | 23 => ⟨S1x384, .f32⟩
  | 24 => ⟨S1x384, .f32⟩
  | 25 => ⟨S1x384, .f32⟩
  | 26 => ⟨S1x384, .f32⟩
  | 27 => ⟨S1x128, .f32⟩
  | 28 => ⟨S1x128, .f32⟩
  | 29 => ⟨S1x128, .f32⟩
  | 30 => ⟨S512x512, .f32⟩
  | 31 => ⟨S1x512, .f32⟩
  | 32 => ⟨S1x512, .f32⟩
  | 33 => ⟨S1x512, .f32⟩
  | 34 => ⟨S1x4x128, .f32⟩
  | 35 => ⟨S128x128, .f32⟩
  | 36 => ⟨S1x128, .f32⟩
  | 37 => ⟨S1x128, .f32⟩
  | 38 => ⟨S1x128, .f32⟩
  | 39 => ⟨S1x1x128, .f32⟩
  | 40 => ⟨S1x4x128, .f32⟩
  | 41 => ⟨S1x4x128, .f32⟩
  | 42 => ⟨S1x4x128, .f32⟩
  | 43 => ⟨S1x4x128, .f32⟩
  | 44 => ⟨S_, .f32⟩
  | 45 => ⟨S1x4x128, .f32⟩
  | 46 => ⟨S1x4x128, .f32⟩
  | 47 => ⟨S_, .f32⟩
  | 48 => ⟨S1x4x128, .f32⟩
  | 49 => ⟨S1x4x128, .f32⟩
  | 50 => ⟨S1x128, .f32⟩
  | 51 => ⟨S1x128, .f32⟩
  | 52 => ⟨S_, .f32⟩
  | 53 => ⟨S1x128, .f32⟩
  | 54 => ⟨S1x128, .f32⟩
  | 55 => ⟨S_, .f32⟩
  | 56 => ⟨S1x128, .f32⟩
  | 57 => ⟨S1x128, .f32⟩
  | 58 => ⟨S1x128, .f32⟩
  | 59 => ⟨S1x128, .f32⟩
  | 60 => ⟨S1x4x128, .f32⟩
  | 61 => ⟨S1x4x128, .f32⟩
  | 62 => ⟨S_, .f32⟩
  | 63 => ⟨S1x128, .f32⟩
  | 64 => ⟨S1x128, .f32⟩
  | 65 => ⟨S1x128, .f32⟩
  | 66 => ⟨S1x128, .f32⟩
  | 67 => ⟨S_, .f32⟩
  | 68 => ⟨S1x128, .f32⟩
  | 69 => ⟨S1x128, .f32⟩
  | 70 => ⟨S_, .f32⟩
  | 71 => ⟨S1x128, .f32⟩
  | 72 => ⟨S1x128, .f32⟩
  | 73 => ⟨S1x128, .f32⟩
  | 74 => ⟨S1x128, .f32⟩
  | 75 => ⟨S87381x128, .f32⟩
  | 76 => ⟨S1x87381x128, .f32⟩
  | 77 => ⟨S87381x128, .f32⟩
  | 78 => ⟨S1x87381x128, .f32⟩
  | _ => ⟨S87381x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S87381x128, .f32⟩

abbrev bufTy : (tb : Table) → Fin (tcTables nBuf tb) → BufTy
  | .hbm, ⟨i, _⟩ => hbmTy i
  | _, _ => ⟨S87381x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst : Ref sig .tc := ⟨.hbm, 48, rfl⟩
abbrev main_v37 : Ref sig .tc := ⟨.hbm, 49, rfl⟩
abbrev main_v38 : Ref sig .tc := ⟨.hbm, 50, rfl⟩
abbrev main_cst_0 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_1 : Ref sig .tc := ⟨.hbm, 56, rfl⟩
abbrev main_v43 : Ref sig .tc := ⟨.hbm, 57, rfl⟩
abbrev main_v44 : Ref sig .tc := ⟨.hbm, 58, rfl⟩
abbrev main_cst_2 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_3 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_4 : Ref sig .tc := ⟨.hbm, 71, rfl⟩
abbrev main_v55 : Ref sig .tc := ⟨.hbm, 72, rfl⟩
abbrev main_v56 : Ref sig .tc := ⟨.hbm, 73, rfl⟩
abbrev main_cst_5 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_cst_6 : Ref sig .tc := ⟨.hbm, 112, rfl⟩
abbrev main_v94 : Ref sig .tc := ⟨.hbm, 113, rfl⟩
abbrev main_v95 : Ref sig .tc := ⟨.hbm, 114, rfl⟩
abbrev main_cst_7 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_cst_8 : Ref sig .tc := ⟨.hbm, 120, rfl⟩
abbrev main_v100 : Ref sig .tc := ⟨.hbm, 121, rfl⟩
abbrev main_v101 : Ref sig .tc := ⟨.hbm, 122, rfl⟩
abbrev main_cst_9 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_cst_10 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_cst_11 : Ref sig .tc := ⟨.hbm, 135, rfl⟩
abbrev main_v112 : Ref sig .tc := ⟨.hbm, 136, rfl⟩
abbrev main_v113 : Ref sig .tc := ⟨.hbm, 137, rfl⟩
abbrev main_cst_12 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_cst_13 : Ref sig .tc := ⟨.hbm, 176, rfl⟩
abbrev main_v151 : Ref sig .tc := ⟨.hbm, 177, rfl⟩
abbrev main_v152 : Ref sig .tc := ⟨.hbm, 178, rfl⟩
abbrev main_cst_14 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_cst_15 : Ref sig .tc := ⟨.hbm, 184, rfl⟩
abbrev main_v157 : Ref sig .tc := ⟨.hbm, 185, rfl⟩
abbrev main_v158 : Ref sig .tc := ⟨.hbm, 186, rfl⟩
abbrev main_cst_16 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_cst_17 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_cst_18 : Ref sig .tc := ⟨.hbm, 199, rfl⟩
abbrev main_v169 : Ref sig .tc := ⟨.hbm, 200, rfl⟩
abbrev main_v170 : Ref sig .tc := ⟨.hbm, 201, rfl⟩
abbrev main_cst_19 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_cst_20 : Ref sig .tc := ⟨.hbm, 240, rfl⟩
abbrev main_v208 : Ref sig .tc := ⟨.hbm, 241, rfl⟩
abbrev main_v209 : Ref sig .tc := ⟨.hbm, 242, rfl⟩
abbrev main_cst_21 : Ref sig .tc := ⟨.hbm, 243, rfl⟩
abbrev main_v210 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_cst_22 : Ref sig .tc := ⟨.hbm, 248, rfl⟩
abbrev main_v214 : Ref sig .tc := ⟨.hbm, 249, rfl⟩
abbrev main_v215 : Ref sig .tc := ⟨.hbm, 250, rfl⟩
abbrev main_cst_23 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_cst_24 : Ref sig .tc := ⟨.hbm, 258, rfl⟩
abbrev main_v222 : Ref sig .tc := ⟨.hbm, 259, rfl⟩
abbrev main_v223 : Ref sig .tc := ⟨.hbm, 260, rfl⟩
abbrev main_v224 : Ref sig .tc := ⟨.hbm, 261, rfl⟩
abbrev main_v225 : Ref sig .tc := ⟨.hbm, 262, rfl⟩
abbrev main_cst_25 : Ref sig .tc := ⟨.hbm, 263, rfl⟩
abbrev main_v226 : Ref sig .tc := ⟨.hbm, 264, rfl⟩
abbrev main_v227 : Ref sig .tc := ⟨.hbm, 265, rfl⟩
abbrev main_cst_26 : Ref sig .tc := ⟨.hbm, 266, rfl⟩
abbrev main_v228 : Ref sig .tc := ⟨.hbm, 267, rfl⟩
abbrev main_v229 : Ref sig .tc := ⟨.hbm, 268, rfl⟩
abbrev main_v230 : Ref sig .tc := ⟨.hbm, 269, rfl⟩
abbrev main_v231 : Ref sig .tc := ⟨.hbm, 270, rfl⟩
abbrev main_v232 : Ref sig .tc := ⟨.hbm, 271, rfl⟩
abbrev main_v233 : Ref sig .tc := ⟨.hbm, 272, rfl⟩
abbrev main_v234 : Ref sig .tc := ⟨.hbm, 273, rfl⟩
abbrev main_v235 : Ref sig .tc := ⟨.hbm, 274, rfl⟩
abbrev main_v236 : Ref sig .tc := ⟨.hbm, 275, rfl⟩
abbrev main_v237 : Ref sig .tc := ⟨.hbm, 276, rfl⟩
abbrev main_v238 : Ref sig .tc := ⟨.hbm, 277, rfl⟩
abbrev main_v239 : Ref sig .tc := ⟨.hbm, 278, rfl⟩
abbrev main_v240 : Ref sig .tc := ⟨.hbm, 279, rfl⟩
abbrev main_v241 : Ref sig .tc := ⟨.hbm, 280, rfl⟩
abbrev main_v242 : Ref sig .tc := ⟨.hbm, 281, rfl⟩
abbrev main_v243 : Ref sig .tc := ⟨.hbm, 282, rfl⟩
abbrev main_v244 : Ref sig .tc := ⟨.hbm, 283, rfl⟩
abbrev main_v245 : Ref sig .tc := ⟨.hbm, 284, rfl⟩
abbrev main_v246 : Ref sig .tc := ⟨.hbm, 285, rfl⟩
abbrev main_v247 : Ref sig .tc := ⟨.hbm, 286, rfl⟩
abbrev main_v248 : Ref sig .tc := ⟨.hbm, 287, rfl⟩
abbrev main_v249 : Ref sig .tc := ⟨.hbm, 288, rfl⟩
abbrev main_v250 : Ref sig .tc := ⟨.hbm, 289, rfl⟩
abbrev main_v251 : Ref sig .tc := ⟨.hbm, 290, rfl⟩
abbrev main_v252 : Ref sig .tc := ⟨.hbm, 291, rfl⟩
abbrev main_v253 : Ref sig .tc := ⟨.hbm, 292, rfl⟩
abbrev main_v254 : Ref sig .tc := ⟨.hbm, 293, rfl⟩
abbrev main_v255 : Ref sig .tc := ⟨.hbm, 294, rfl⟩
abbrev main_v256 : Ref sig .tc := ⟨.hbm, 295, rfl⟩
abbrev main_v257 : Ref sig .tc := ⟨.hbm, 296, rfl⟩
abbrev main_v258 : Ref sig .tc := ⟨.hbm, 297, rfl⟩
abbrev main_v259 : Ref sig .tc := ⟨.hbm, 298, rfl⟩
abbrev main_v260 : Ref sig .tc := ⟨.hbm, 299, rfl⟩
abbrev main_v261 : Ref sig .tc := ⟨.hbm, 300, rfl⟩
abbrev main_v262 : Ref sig .tc := ⟨.hbm, 301, rfl⟩
abbrev main_v263 : Ref sig .tc := ⟨.hbm, 302, rfl⟩
abbrev main_v264 : Ref sig .tc := ⟨.hbm, 303, rfl⟩
abbrev main_cst_27 : Ref sig .tc := ⟨.hbm, 304, rfl⟩
abbrev main_v265 : Ref sig .tc := ⟨.hbm, 305, rfl⟩
abbrev main_v266 : Ref sig .tc := ⟨.hbm, 306, rfl⟩
abbrev main_cst_28 : Ref sig .tc := ⟨.hbm, 307, rfl⟩
abbrev main_v267 : Ref sig .tc := ⟨.hbm, 308, rfl⟩
abbrev main_v268 : Ref sig .tc := ⟨.hbm, 309, rfl⟩
abbrev main_v269 : Ref sig .tc := ⟨.hbm, 310, rfl⟩
abbrev main_v270 : Ref sig .tc := ⟨.hbm, 311, rfl⟩
abbrev main_cst_29 : Ref sig .tc := ⟨.hbm, 312, rfl⟩
abbrev main_v271 : Ref sig .tc := ⟨.hbm, 313, rfl⟩
abbrev main_v272 : Ref sig .tc := ⟨.hbm, 314, rfl⟩
abbrev main_cst_30 : Ref sig .tc := ⟨.hbm, 315, rfl⟩
abbrev main_v273 : Ref sig .tc := ⟨.hbm, 316, rfl⟩
abbrev main_v274 : Ref sig .tc := ⟨.hbm, 317, rfl⟩
abbrev main_v275 : Ref sig .tc := ⟨.hbm, 318, rfl⟩
abbrev main_v276 : Ref sig .tc := ⟨.hbm, 319, rfl⟩
abbrev main_v277 : Ref sig .tc := ⟨.hbm, 320, rfl⟩
abbrev main_v278 : Ref sig .tc := ⟨.hbm, 321, rfl⟩
abbrev main_cst_31 : Ref sig .tc := ⟨.hbm, 322, rfl⟩
abbrev main_v279 : Ref sig .tc := ⟨.hbm, 323, rfl⟩
abbrev main_v280 : Ref sig .tc := ⟨.hbm, 324, rfl⟩
abbrev main_v281 : Ref sig .tc := ⟨.hbm, 325, rfl⟩
abbrev main_v282 : Ref sig .tc := ⟨.hbm, 326, rfl⟩
abbrev main_cst_32 : Ref sig .tc := ⟨.hbm, 327, rfl⟩
abbrev main_v283 : Ref sig .tc := ⟨.hbm, 328, rfl⟩
abbrev main_v284 : Ref sig .tc := ⟨.hbm, 329, rfl⟩
abbrev main_cst_33 : Ref sig .tc := ⟨.hbm, 330, rfl⟩
abbrev main_v285 : Ref sig .tc := ⟨.hbm, 331, rfl⟩
abbrev main_v286 : Ref sig .tc := ⟨.hbm, 332, rfl⟩
abbrev main_v287 : Ref sig .tc := ⟨.hbm, 333, rfl⟩
abbrev main_v288 : Ref sig .tc := ⟨.hbm, 334, rfl⟩
abbrev main_v289 : Ref sig .tc := ⟨.hbm, 335, rfl⟩
abbrev main_v290 : Ref sig .tc := ⟨.hbm, 336, rfl⟩
abbrev main_v291 : Ref sig .tc := ⟨.hbm, 337, rfl⟩
abbrev main_v292 : Ref sig .tc := ⟨.hbm, 338, rfl⟩
abbrev main_v293 : Ref sig .tc := ⟨.hbm, 339, rfl⟩
abbrev main_v294 : Ref sig .tc := ⟨.hbm, 340, rfl⟩
abbrev main_v295 : Ref sig .tc := ⟨.hbm, 341, rfl⟩
abbrev main_v296 : Ref sig .tc := ⟨.hbm, 342, rfl⟩
abbrev main_v297 : Ref sig .tc := ⟨.hbm, 343, rfl⟩
abbrev main_v298 : Ref sig .tc := ⟨.hbm, 344, rfl⟩
abbrev main_v299 : Ref sig .tc := ⟨.hbm, 345, rfl⟩
abbrev main_v300 : Ref sig .tc := ⟨.hbm, 346, rfl⟩
abbrev main_v301 : Ref sig .tc := ⟨.hbm, 347, rfl⟩
abbrev main_v302 : Ref sig .tc := ⟨.hbm, 348, rfl⟩
abbrev main_v303 : Ref sig .tc := ⟨.hbm, 349, rfl⟩
abbrev main_v304 : Ref sig .tc := ⟨.hbm, 350, rfl⟩
abbrev main_v305 : Ref sig .tc := ⟨.hbm, 351, rfl⟩
abbrev main_v306 : Ref sig .tc := ⟨.hbm, 352, rfl⟩
abbrev main_v307 : Ref sig .tc := ⟨.hbm, 353, rfl⟩
abbrev main_v308 : Ref sig .tc := ⟨.hbm, 354, rfl⟩
abbrev main_v309 : Ref sig .tc := ⟨.hbm, 355, rfl⟩
abbrev main_v310 : Ref sig .tc := ⟨.hbm, 356, rfl⟩
abbrev main_v311 : Ref sig .tc := ⟨.hbm, 357, rfl⟩
abbrev main_v312 : Ref sig .tc := ⟨.hbm, 358, rfl⟩
abbrev main_v313 : Ref sig .tc := ⟨.hbm, 359, rfl⟩
abbrev main_v314 : Ref sig .tc := ⟨.hbm, 360, rfl⟩
abbrev main_v315 : Ref sig .tc := ⟨.hbm, 361, rfl⟩
abbrev main_v316 : Ref sig .tc := ⟨.hbm, 362, rfl⟩
abbrev main_v317 : Ref sig .tc := ⟨.hbm, 363, rfl⟩
abbrev main_v318 : Ref sig .tc := ⟨.hbm, 364, rfl⟩
abbrev main_v319 : Ref sig .tc := ⟨.hbm, 365, rfl⟩
abbrev main_v320 : Ref sig .tc := ⟨.hbm, 366, rfl⟩
abbrev main_v321 : Ref sig .tc := ⟨.hbm, 367, rfl⟩
abbrev main_cst_34 : Ref sig .tc := ⟨.hbm, 368, rfl⟩
abbrev main_v322 : Ref sig .tc := ⟨.hbm, 369, rfl⟩
abbrev main_v323 : Ref sig .tc := ⟨.hbm, 370, rfl⟩
abbrev main_cst_35 : Ref sig .tc := ⟨.hbm, 371, rfl⟩
abbrev main_v324 : Ref sig .tc := ⟨.hbm, 372, rfl⟩
abbrev main_v325 : Ref sig .tc := ⟨.hbm, 373, rfl⟩
abbrev main_v326 : Ref sig .tc := ⟨.hbm, 374, rfl⟩
abbrev main_v327 : Ref sig .tc := ⟨.hbm, 375, rfl⟩
abbrev main_cst_36 : Ref sig .tc := ⟨.hbm, 376, rfl⟩
abbrev main_v328 : Ref sig .tc := ⟨.hbm, 377, rfl⟩
abbrev main_v329 : Ref sig .tc := ⟨.hbm, 378, rfl⟩
abbrev main_cst_37 : Ref sig .tc := ⟨.hbm, 379, rfl⟩
abbrev main_v330 : Ref sig .tc := ⟨.hbm, 380, rfl⟩
abbrev main_v331 : Ref sig .tc := ⟨.hbm, 381, rfl⟩
abbrev main_v332 : Ref sig .tc := ⟨.hbm, 382, rfl⟩
abbrev main_v333 : Ref sig .tc := ⟨.hbm, 383, rfl⟩
abbrev main_v334 : Ref sig .tc := ⟨.hbm, 384, rfl⟩
abbrev main_v335 : Ref sig .tc := ⟨.hbm, 385, rfl⟩
abbrev main_cst_38 : Ref sig .tc := ⟨.hbm, 386, rfl⟩
abbrev main_v336 : Ref sig .tc := ⟨.hbm, 387, rfl⟩
abbrev main_v337 : Ref sig .tc := ⟨.hbm, 388, rfl⟩
abbrev main_v338 : Ref sig .tc := ⟨.hbm, 389, rfl⟩
abbrev main_v339 : Ref sig .tc := ⟨.hbm, 390, rfl⟩
abbrev main_cst_39 : Ref sig .tc := ⟨.hbm, 391, rfl⟩
abbrev main_v340 : Ref sig .tc := ⟨.hbm, 392, rfl⟩
abbrev main_v341 : Ref sig .tc := ⟨.hbm, 393, rfl⟩
abbrev main_cst_40 : Ref sig .tc := ⟨.hbm, 394, rfl⟩
abbrev main_v342 : Ref sig .tc := ⟨.hbm, 395, rfl⟩
abbrev main_v343 : Ref sig .tc := ⟨.hbm, 396, rfl⟩
abbrev main_v344 : Ref sig .tc := ⟨.hbm, 397, rfl⟩
abbrev main_v345 : Ref sig .tc := ⟨.hbm, 398, rfl⟩
abbrev main_v346 : Ref sig .tc := ⟨.hbm, 399, rfl⟩
abbrev main_v347 : Ref sig .tc := ⟨.hbm, 400, rfl⟩
abbrev main_v348 : Ref sig .tc := ⟨.hbm, 401, rfl⟩
abbrev main_v349 : Ref sig .tc := ⟨.hbm, 402, rfl⟩
abbrev main_v350 : Ref sig .tc := ⟨.hbm, 403, rfl⟩
abbrev main_v351 : Ref sig .tc := ⟨.hbm, 404, rfl⟩
abbrev main_v352 : Ref sig .tc := ⟨.hbm, 405, rfl⟩
abbrev main_v353 : Ref sig .tc := ⟨.hbm, 406, rfl⟩
abbrev main_v354 : Ref sig .tc := ⟨.hbm, 407, rfl⟩
abbrev main_v355 : Ref sig .tc := ⟨.hbm, 408, rfl⟩
abbrev main_v356 : Ref sig .tc := ⟨.hbm, 409, rfl⟩
abbrev main_v357 : Ref sig .tc := ⟨.hbm, 410, rfl⟩
abbrev main_v358 : Ref sig .tc := ⟨.hbm, 411, rfl⟩
abbrev main_v359 : Ref sig .tc := ⟨.hbm, 412, rfl⟩
abbrev main_v360 : Ref sig .tc := ⟨.hbm, 413, rfl⟩
abbrev main_v361 : Ref sig .tc := ⟨.hbm, 414, rfl⟩
abbrev main_v362 : Ref sig .tc := ⟨.hbm, 415, rfl⟩
abbrev main_v363 : Ref sig .tc := ⟨.hbm, 416, rfl⟩
abbrev main_v364 : Ref sig .tc := ⟨.hbm, 417, rfl⟩
abbrev main_v365 : Ref sig .tc := ⟨.hbm, 418, rfl⟩
abbrev main_v366 : Ref sig .tc := ⟨.hbm, 419, rfl⟩
abbrev main_v367 : Ref sig .tc := ⟨.hbm, 420, rfl⟩
abbrev main_v368 : Ref sig .tc := ⟨.hbm, 421, rfl⟩
abbrev main_v369 : Ref sig .tc := ⟨.hbm, 422, rfl⟩
abbrev main_v370 : Ref sig .tc := ⟨.hbm, 423, rfl⟩
abbrev main_v371 : Ref sig .tc := ⟨.hbm, 424, rfl⟩
abbrev main_v372 : Ref sig .tc := ⟨.hbm, 425, rfl⟩
abbrev main_v373 : Ref sig .tc := ⟨.hbm, 426, rfl⟩
abbrev main_v374 : Ref sig .tc := ⟨.hbm, 427, rfl⟩
abbrev main_v375 : Ref sig .tc := ⟨.hbm, 428, rfl⟩
abbrev main_v376 : Ref sig .tc := ⟨.hbm, 429, rfl⟩
abbrev main_v377 : Ref sig .tc := ⟨.hbm, 430, rfl⟩
abbrev main_v378 : Ref sig .tc := ⟨.hbm, 431, rfl⟩
abbrev main_cst_41 : Ref sig .tc := ⟨.hbm, 432, rfl⟩
abbrev main_v379 : Ref sig .tc := ⟨.hbm, 433, rfl⟩
abbrev main_v380 : Ref sig .tc := ⟨.hbm, 434, rfl⟩
abbrev main_cst_42 : Ref sig .tc := ⟨.hbm, 435, rfl⟩
abbrev main_v381 : Ref sig .tc := ⟨.hbm, 436, rfl⟩
abbrev main_v382 : Ref sig .tc := ⟨.hbm, 437, rfl⟩
abbrev main_v383 : Ref sig .tc := ⟨.hbm, 438, rfl⟩
abbrev main_v384 : Ref sig .tc := ⟨.hbm, 439, rfl⟩
abbrev main_cst_43 : Ref sig .tc := ⟨.hbm, 440, rfl⟩
abbrev main_v385 : Ref sig .tc := ⟨.hbm, 441, rfl⟩
abbrev main_v386 : Ref sig .tc := ⟨.hbm, 442, rfl⟩
abbrev main_cst_44 : Ref sig .tc := ⟨.hbm, 443, rfl⟩
abbrev main_v387 : Ref sig .tc := ⟨.hbm, 444, rfl⟩
abbrev main_v388 : Ref sig .tc := ⟨.hbm, 445, rfl⟩
abbrev main_v389 : Ref sig .tc := ⟨.hbm, 446, rfl⟩
abbrev main_v390 : Ref sig .tc := ⟨.hbm, 447, rfl⟩
abbrev main_v391 : Ref sig .tc := ⟨.hbm, 448, rfl⟩
abbrev main_v392 : Ref sig .tc := ⟨.hbm, 449, rfl⟩
abbrev main_cst_45 : Ref sig .tc := ⟨.hbm, 450, rfl⟩
abbrev main_v393 : Ref sig .tc := ⟨.hbm, 451, rfl⟩
abbrev main_v394 : Ref sig .tc := ⟨.hbm, 452, rfl⟩
abbrev main_v395 : Ref sig .tc := ⟨.hbm, 453, rfl⟩
abbrev main_v396 : Ref sig .tc := ⟨.hbm, 454, rfl⟩
abbrev main_cst_46 : Ref sig .tc := ⟨.hbm, 455, rfl⟩
abbrev main_v397 : Ref sig .tc := ⟨.hbm, 456, rfl⟩
abbrev main_v398 : Ref sig .tc := ⟨.hbm, 457, rfl⟩
abbrev main_cst_47 : Ref sig .tc := ⟨.hbm, 458, rfl⟩
abbrev main_v399 : Ref sig .tc := ⟨.hbm, 459, rfl⟩
abbrev main_v400 : Ref sig .tc := ⟨.hbm, 460, rfl⟩
abbrev main_v401 : Ref sig .tc := ⟨.hbm, 461, rfl⟩
abbrev main_v402 : Ref sig .tc := ⟨.hbm, 462, rfl⟩
abbrev main_v403 : Ref sig .tc := ⟨.hbm, 463, rfl⟩
abbrev main_v404 : Ref sig .tc := ⟨.hbm, 464, rfl⟩
abbrev main_v405 : Ref sig .tc := ⟨.hbm, 465, rfl⟩
abbrev main_v406 : Ref sig .tc := ⟨.hbm, 466, rfl⟩
abbrev main_v407 : Ref sig .tc := ⟨.hbm, 467, rfl⟩
abbrev main_v408 : Ref sig .tc := ⟨.hbm, 468, rfl⟩
abbrev main_v409 : Ref sig .tc := ⟨.hbm, 469, rfl⟩
abbrev main_v410 : Ref sig .tc := ⟨.hbm, 470, rfl⟩
abbrev main_v411 : Ref sig .tc := ⟨.hbm, 471, rfl⟩
abbrev main_v412 : Ref sig .tc := ⟨.hbm, 472, rfl⟩
abbrev main_v413 : Ref sig .tc := ⟨.hbm, 473, rfl⟩
abbrev main_v414 : Ref sig .tc := ⟨.hbm, 474, rfl⟩
abbrev main_v415 : Ref sig .tc := ⟨.hbm, 475, rfl⟩
abbrev main_v416 : Ref sig .tc := ⟨.hbm, 476, rfl⟩
abbrev main_v417 : Ref sig .tc := ⟨.hbm, 477, rfl⟩
abbrev main_v418 : Ref sig .tc := ⟨.hbm, 478, rfl⟩
abbrev main_v419 : Ref sig .tc := ⟨.hbm, 479, rfl⟩
abbrev main_v420 : Ref sig .tc := ⟨.hbm, 480, rfl⟩
abbrev main_v421 : Ref sig .tc := ⟨.hbm, 481, rfl⟩
abbrev main_v422 : Ref sig .tc := ⟨.hbm, 482, rfl⟩
abbrev main_v423 : Ref sig .tc := ⟨.hbm, 483, rfl⟩
abbrev main_v424 : Ref sig .tc := ⟨.hbm, 484, rfl⟩
abbrev main_v425 : Ref sig .tc := ⟨.hbm, 485, rfl⟩
abbrev main_v426 : Ref sig .tc := ⟨.hbm, 486, rfl⟩
abbrev main_v427 : Ref sig .tc := ⟨.hbm, 487, rfl⟩
abbrev main_v428 : Ref sig .tc := ⟨.hbm, 488, rfl⟩
abbrev main_v429 : Ref sig .tc := ⟨.hbm, 489, rfl⟩
abbrev main_v430 : Ref sig .tc := ⟨.hbm, 490, rfl⟩
abbrev main_v431 : Ref sig .tc := ⟨.hbm, 491, rfl⟩
abbrev main_v432 : Ref sig .tc := ⟨.hbm, 492, rfl⟩
abbrev main_v433 : Ref sig .tc := ⟨.hbm, 493, rfl⟩
abbrev main_v434 : Ref sig .tc := ⟨.hbm, 494, rfl⟩
abbrev main_v435 : Ref sig .tc := ⟨.hbm, 495, rfl⟩
abbrev main_cst_48 : Ref sig .tc := ⟨.hbm, 496, rfl⟩
abbrev main_v436 : Ref sig .tc := ⟨.hbm, 497, rfl⟩
abbrev main_v437 : Ref sig .tc := ⟨.hbm, 498, rfl⟩
abbrev main_cst_49 : Ref sig .tc := ⟨.hbm, 499, rfl⟩
abbrev main_v438 : Ref sig .tc := ⟨.hbm, 500, rfl⟩
abbrev main_v439 : Ref sig .tc := ⟨.hbm, 501, rfl⟩
abbrev main_v440 : Ref sig .tc := ⟨.hbm, 502, rfl⟩
abbrev main_v441 : Ref sig .tc := ⟨.hbm, 503, rfl⟩
abbrev main_cst_50 : Ref sig .tc := ⟨.hbm, 504, rfl⟩
abbrev main_v442 : Ref sig .tc := ⟨.hbm, 505, rfl⟩
abbrev main_v443 : Ref sig .tc := ⟨.hbm, 506, rfl⟩
abbrev main_cst_51 : Ref sig .tc := ⟨.hbm, 507, rfl⟩
abbrev main_v444 : Ref sig .tc := ⟨.hbm, 508, rfl⟩
abbrev main_v445 : Ref sig .tc := ⟨.hbm, 509, rfl⟩
abbrev main_v446 : Ref sig .tc := ⟨.hbm, 510, rfl⟩
abbrev main_v447 : Ref sig .tc := ⟨.hbm, 511, rfl⟩
abbrev main_v448 : Ref sig .tc := ⟨.hbm, 512, rfl⟩
abbrev main_v449 : Ref sig .tc := ⟨.hbm, 513, rfl⟩
abbrev main_cst_52 : Ref sig .tc := ⟨.hbm, 514, rfl⟩
abbrev main_v450 : Ref sig .tc := ⟨.hbm, 515, rfl⟩
abbrev main_v451 : Ref sig .tc := ⟨.hbm, 516, rfl⟩
abbrev main_v452 : Ref sig .tc := ⟨.hbm, 517, rfl⟩
abbrev main_v453 : Ref sig .tc := ⟨.hbm, 518, rfl⟩
abbrev main_cst_53 : Ref sig .tc := ⟨.hbm, 519, rfl⟩
abbrev main_v454 : Ref sig .tc := ⟨.hbm, 520, rfl⟩
abbrev main_v455 : Ref sig .tc := ⟨.hbm, 521, rfl⟩
abbrev main_cst_54 : Ref sig .tc := ⟨.hbm, 522, rfl⟩
abbrev main_v456 : Ref sig .tc := ⟨.hbm, 523, rfl⟩
abbrev main_v457 : Ref sig .tc := ⟨.hbm, 524, rfl⟩
abbrev main_v458 : Ref sig .tc := ⟨.hbm, 525, rfl⟩
abbrev main_v459 : Ref sig .tc := ⟨.hbm, 526, rfl⟩
abbrev main_v460 : Ref sig .tc := ⟨.hbm, 527, rfl⟩
abbrev main_v461 : Ref sig .tc := ⟨.hbm, 528, rfl⟩
abbrev main_v462 : Ref sig .tc := ⟨.hbm, 529, rfl⟩
abbrev main_v463 : Ref sig .tc := ⟨.hbm, 530, rfl⟩
abbrev main_v464 : Ref sig .tc := ⟨.hbm, 531, rfl⟩
abbrev main_v465 : Ref sig .tc := ⟨.hbm, 532, rfl⟩
abbrev main_v466 : Ref sig .tc := ⟨.hbm, 533, rfl⟩
abbrev main_v467 : Ref sig .tc := ⟨.hbm, 534, rfl⟩
abbrev main_v468 : Ref sig .tc := ⟨.hbm, 535, rfl⟩
abbrev main_v469 : Ref sig .tc := ⟨.hbm, 536, rfl⟩
abbrev main_v470 : Ref sig .tc := ⟨.hbm, 537, rfl⟩
abbrev main_v471 : Ref sig .tc := ⟨.hbm, 538, rfl⟩
abbrev main_v472 : Ref sig .tc := ⟨.hbm, 539, rfl⟩
abbrev main_v473 : Ref sig .tc := ⟨.hbm, 540, rfl⟩
abbrev main_v474 : Ref sig .tc := ⟨.hbm, 541, rfl⟩
abbrev main_v475 : Ref sig .tc := ⟨.hbm, 542, rfl⟩
abbrev main_v476 : Ref sig .tc := ⟨.hbm, 543, rfl⟩
abbrev main_v477 : Ref sig .tc := ⟨.hbm, 544, rfl⟩
abbrev main_v478 : Ref sig .tc := ⟨.hbm, 545, rfl⟩
abbrev main_v479 : Ref sig .tc := ⟨.hbm, 546, rfl⟩
abbrev main_v480 : Ref sig .tc := ⟨.hbm, 547, rfl⟩
abbrev main_v481 : Ref sig .tc := ⟨.hbm, 548, rfl⟩
abbrev main_v482 : Ref sig .tc := ⟨.hbm, 549, rfl⟩
abbrev main_v483 : Ref sig .tc := ⟨.hbm, 550, rfl⟩
abbrev main_v484 : Ref sig .tc := ⟨.hbm, 551, rfl⟩
abbrev main_v485 : Ref sig .tc := ⟨.hbm, 552, rfl⟩
abbrev main_v486 : Ref sig .tc := ⟨.hbm, 553, rfl⟩
abbrev main_v487 : Ref sig .tc := ⟨.hbm, 554, rfl⟩
abbrev main_v488 : Ref sig .tc := ⟨.hbm, 555, rfl⟩
abbrev main_cst_55 : Ref sig .tc := ⟨.hbm, 556, rfl⟩
abbrev main_v489 : Ref sig .tc := ⟨.hbm, 557, rfl⟩
abbrev main_v490 : Ref sig .tc := ⟨.hbm, 558, rfl⟩
abbrev main_cst_56 : Ref sig .tc := ⟨.hbm, 559, rfl⟩
abbrev main_v491 : Ref sig .tc := ⟨.hbm, 560, rfl⟩
abbrev main_v492 : Ref sig .tc := ⟨.hbm, 561, rfl⟩
abbrev main_v493 : Ref sig .tc := ⟨.hbm, 562, rfl⟩
abbrev main_v494 : Ref sig .tc := ⟨.hbm, 563, rfl⟩
abbrev main_cst_57 : Ref sig .tc := ⟨.hbm, 564, rfl⟩
abbrev main_v495 : Ref sig .tc := ⟨.hbm, 565, rfl⟩
abbrev main_v496 : Ref sig .tc := ⟨.hbm, 566, rfl⟩
abbrev main_cst_58 : Ref sig .tc := ⟨.hbm, 567, rfl⟩
abbrev main_v497 : Ref sig .tc := ⟨.hbm, 568, rfl⟩
abbrev main_v498 : Ref sig .tc := ⟨.hbm, 569, rfl⟩
abbrev main_v499 : Ref sig .tc := ⟨.hbm, 570, rfl⟩
abbrev main_v500 : Ref sig .tc := ⟨.hbm, 571, rfl⟩
abbrev main_v501 : Ref sig .tc := ⟨.hbm, 572, rfl⟩
abbrev main_v502 : Ref sig .tc := ⟨.hbm, 573, rfl⟩
abbrev main_cst_59 : Ref sig .tc := ⟨.hbm, 574, rfl⟩
abbrev main_v503 : Ref sig .tc := ⟨.hbm, 575, rfl⟩
abbrev main_v504 : Ref sig .tc := ⟨.hbm, 576, rfl⟩
abbrev main_v505 : Ref sig .tc := ⟨.hbm, 577, rfl⟩
abbrev main_v506 : Ref sig .tc := ⟨.hbm, 578, rfl⟩
abbrev main_cst_60 : Ref sig .tc := ⟨.hbm, 579, rfl⟩
abbrev main_v507 : Ref sig .tc := ⟨.hbm, 580, rfl⟩
abbrev main_v508 : Ref sig .tc := ⟨.hbm, 581, rfl⟩
abbrev main_cst_61 : Ref sig .tc := ⟨.hbm, 582, rfl⟩
abbrev main_v509 : Ref sig .tc := ⟨.hbm, 583, rfl⟩
abbrev main_v510 : Ref sig .tc := ⟨.hbm, 584, rfl⟩
abbrev main_v511 : Ref sig .tc := ⟨.hbm, 585, rfl⟩
abbrev main_v512 : Ref sig .tc := ⟨.hbm, 586, rfl⟩
abbrev main_v513 : Ref sig .tc := ⟨.hbm, 587, rfl⟩
abbrev main_v514 : Ref sig .tc := ⟨.hbm, 588, rfl⟩
abbrev main_v515 : Ref sig .tc := ⟨.hbm, 589, rfl⟩
abbrev main_v516 : Ref sig .tc := ⟨.hbm, 590, rfl⟩

abbrev nD : Nat := 1
abbrev τ : Topo := Topo.v7x

variable {F : FTy → Type} [FloatOps F]

class Facts₀ : Prop where
  shapeCasts_S1x512_S1x1x1x512 : S1x512.ShapeCasts S1x1x1x512
  bcast_S1x1x1x512_S65536x1x1x512_0_1_2_3 : S1x1x1x512.BroadcastsInDim S65536x1x1x512 (![0, 1, 2, 3] : Fin 4 → Fin S65536x1x1x512.rank)
  shapeCasts_S65536x1x1x512_S65536x512 : S65536x1x1x512.ShapeCasts S65536x512
  slices_S87381x128_S65536x128_0_0 : S87381x128.Slices ![0, 0] S65536x128
  transposes_S384x128_S128x384_1_0 : S384x128.Transposes [1, 0] S128x384
  bcast_S384_S1x384_1 : S384.BroadcastsInDim S1x384 (![1] : Fin 1 → Fin S1x384.rank)
  bcast_S1x384_S65536x384_0_1 : S1x384.BroadcastsInDim S65536x384 (![0, 1] : Fin 2 → Fin S65536x384.rank)
  transposes_S384x512_S512x384_1_0 : S384x512.Transposes [1, 0] S512x384
  slices_S65536x384_S65536x128_0_0 : S65536x384.Slices ![0, 0] S65536x128
  slices_S65536x384_S65536x128_0_128 : S65536x384.Slices ![0, 128] S65536x128
  slices_S65536x384_S65536x128_0_256 : S65536x384.Slices ![0, 256] S65536x128
  transposes_S512x512_S512x512_1_0 : S512x512.Transposes [1, 0] S512x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  shapeCasts_S65536x512_S65536x4x128 : S65536x512.ShapeCasts S65536x4x128
  transposes_S128x128_S128x128_1_0 : S128x128.Transposes [1, 0] S128x128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S65536x128_S65536x1x128_0_2 : S65536x128.BroadcastsInDim S65536x1x128 (![0, 2] : Fin 2 → Fin S65536x1x128.rank)
  bcast_S65536x1x128_S65536x4x128_0_1_2 : S65536x1x128.BroadcastsInDim S65536x4x128 (![0, 1, 2] : Fin 3 → Fin S65536x4x128.rank)
  bcast_S_S65536x4x128 : S_.BroadcastsInDim S65536x4x128 (![] : Fin 0 → Fin S65536x4x128.rank)
  bcast_S_S65536x128 : S_.BroadcastsInDim S65536x128 (![] : Fin 0 → Fin S65536x128.rank)
  reducesTo_S65536x4x128_S65536x128_d1 : S65536x4x128.ReducesTo [1] S65536x128
  h_S_ : 0 < S_.numel
  shapeCasts_S65536x128_S16384x512 : S65536x128.ShapeCasts S16384x512
  slices_S87381x128_S16384x128_65536_0 : S87381x128.Slices ![65536, 0] S16384x128
  bcast_S1x384_S16384x384_0_1 : S1x384.BroadcastsInDim S16384x384 (![0, 1] : Fin 2 → Fin S16384x384.rank)
  slices_S16384x384_S16384x128_0_0 : S16384x384.Slices ![0, 0] S16384x128
  slices_S16384x384_S16384x128_0_128 : S16384x384.Slices ![0, 128] S16384x128
  slices_S16384x384_S16384x128_0_256 : S16384x384.Slices ![0, 256] S16384x128
  bcast_S1x512_S16384x512_0_1 : S1x512.BroadcastsInDim S16384x512 (![0, 1] : Fin 2 → Fin S16384x512.rank)
  shapeCasts_S16384x512_S16384x4x128 : S16384x512.ShapeCasts S16384x4x128
  bcast_S1x128_S16384x128_0_1 : S1x128.BroadcastsInDim S16384x128 (![0, 1] : Fin 2 → Fin S16384x128.rank)
  bcast_S16384x128_S16384x1x128_0_2 : S16384x128.BroadcastsInDim S16384x1x128 (![0, 2] : Fin 2 → Fin S16384x1x128.rank)
  bcast_S16384x1x128_S16384x4x128_0_1_2 : S16384x1x128.BroadcastsInDim S16384x4x128 (![0, 1, 2] : Fin 3 → Fin S16384x4x128.rank)
  bcast_S_S16384x4x128 : S_.BroadcastsInDim S16384x4x128 (![] : Fin 0 → Fin S16384x4x128.rank)
  bcast_S_S16384x128 : S_.BroadcastsInDim S16384x128 (![] : Fin 0 → Fin S16384x128.rank)
  reducesTo_S16384x4x128_S16384x128_d1 : S16384x4x128.ReducesTo [1] S16384x128
  shapeCasts_S16384x128_S4096x512 : S16384x128.ShapeCasts S4096x512
  slices_S87381x128_S4096x128_81920_0 : S87381x128.Slices ![81920, 0] S4096x128
  bcast_S1x384_S4096x384_0_1 : S1x384.BroadcastsInDim S4096x384 (![0, 1] : Fin 2 → Fin S4096x384.rank)
  slices_S4096x384_S4096x128_0_0 : S4096x384.Slices ![0, 0] S4096x128
  slices_S4096x384_S4096x128_0_128 : S4096x384.Slices ![0, 128] S4096x128
  slices_S4096x384_S4096x128_0_256 : S4096x384.Slices ![0, 256] S4096x128
  bcast_S1x512_S4096x512_0_1 : S1x512.BroadcastsInDim S4096x512 (![0, 1] : Fin 2 → Fin S4096x512.rank)
  shapeCasts_S4096x512_S4096x4x128 : S4096x512.ShapeCasts S4096x4x128
  bcast_S1x128_S4096x128_0_1 : S1x128.BroadcastsInDim S4096x128 (![0, 1] : Fin 2 → Fin S4096x128.rank)
  bcast_S4096x128_S4096x1x128_0_2 : S4096x128.BroadcastsInDim S4096x1x128 (![0, 2] : Fin 2 → Fin S4096x1x128.rank)
  bcast_S4096x1x128_S4096x4x128_0_1_2 : S4096x1x128.BroadcastsInDim S4096x4x128 (![0, 1, 2] : Fin 3 → Fin S4096x4x128.rank)
  bcast_S_S4096x4x128 : S_.BroadcastsInDim S4096x4x128 (![] : Fin 0 → Fin S4096x4x128.rank)
  bcast_S_S4096x128 : S_.BroadcastsInDim S4096x128 (![] : Fin 0 → Fin S4096x128.rank)
  reducesTo_S4096x4x128_S4096x128_d1 : S4096x4x128.ReducesTo [1] S4096x128
  shapeCasts_S4096x128_S1024x512 : S4096x128.ShapeCasts S1024x512
  slices_S87381x128_S1024x128_86016_0 : S87381x128.Slices ![86016, 0] S1024x128
  bcast_S1x384_S1024x384_0_1 : S1x384.BroadcastsInDim S1024x384 (![0, 1] : Fin 2 → Fin S1024x384.rank)
  slices_S1024x384_S1024x128_0_0 : S1024x384.Slices ![0, 0] S1024x128
  slices_S1024x384_S1024x128_0_128 : S1024x384.Slices ![0, 128] S1024x128
  slices_S1024x384_S1024x128_0_256 : S1024x384.Slices ![0, 256] S1024x128
  bcast_S1x512_S1024x512_0_1 : S1x512.BroadcastsInDim S1024x512 (![0, 1] : Fin 2 → Fin S1024x512.rank)
  shapeCasts_S1024x512_S1024x4x128 : S1024x512.ShapeCasts S1024x4x128
  bcast_S1x128_S1024x128_0_1 : S1x128.BroadcastsInDim S1024x128 (![0, 1] : Fin 2 → Fin S1024x128.rank)
  bcast_S1024x128_S1024x1x128_0_2 : S1024x128.BroadcastsInDim S1024x1x128 (![0, 2] : Fin 2 → Fin S1024x1x128.rank)
  bcast_S1024x1x128_S1024x4x128_0_1_2 : S1024x1x128.BroadcastsInDim S1024x4x128 (![0, 1, 2] : Fin 3 → Fin S1024x4x128.rank)
  bcast_S_S1024x4x128 : S_.BroadcastsInDim S1024x4x128 (![] : Fin 0 → Fin S1024x4x128.rank)
  bcast_S_S1024x128 : S_.BroadcastsInDim S1024x128 (![] : Fin 0 → Fin S1024x128.rank)
  reducesTo_S1024x4x128_S1024x128_d1 : S1024x4x128.ReducesTo [1] S1024x128
  shapeCasts_S1024x128_S256x512 : S1024x128.ShapeCasts S256x512
  slices_S87381x128_S256x128_87040_0 : S87381x128.Slices ![87040, 0] S256x128
  bcast_S1x384_S256x384_0_1 : S1x384.BroadcastsInDim S256x384 (![0, 1] : Fin 2 → Fin S256x384.rank)
  slices_S256x384_S256x128_0_0 : S256x384.Slices ![0, 0] S256x128
  slices_S256x384_S256x128_0_128 : S256x384.Slices ![0, 128] S256x128
  slices_S256x384_S256x128_0_256 : S256x384.Slices ![0, 256] S256x128
  bcast_S1x512_S256x512_0_1 : S1x512.BroadcastsInDim S256x512 (![0, 1] : Fin 2 → Fin S256x512.rank)
  shapeCasts_S256x512_S256x4x128 : S256x512.ShapeCasts S256x4x128
  bcast_S1x128_S256x128_0_1 : S1x128.BroadcastsInDim S256x128 (![0, 1] : Fin 2 → Fin S256x128.rank)
  bcast_S256x128_S256x1x128_0_2 : S256x128.BroadcastsInDim S256x1x128 (![0, 2] : Fin 2 → Fin S256x1x128.rank)
  bcast_S256x1x128_S256x4x128_0_1_2 : S256x1x128.BroadcastsInDim S256x4x128 (![0, 1, 2] : Fin 3 → Fin S256x4x128.rank)
  bcast_S_S256x4x128 : S_.BroadcastsInDim S256x4x128 (![] : Fin 0 → Fin S256x4x128.rank)
  bcast_S_S256x128 : S_.BroadcastsInDim S256x128 (![] : Fin 0 → Fin S256x128.rank)
  reducesTo_S256x4x128_S256x128_d1 : S256x4x128.ReducesTo [1] S256x128
  shapeCasts_S256x128_S64x512 : S256x128.ShapeCasts S64x512
  slices_S87381x128_S64x128_87296_0 : S87381x128.Slices ![87296, 0] S64x128
  bcast_S1x384_S64x384_0_1 : S1x384.BroadcastsInDim S64x384 (![0, 1] : Fin 2 → Fin S64x384.rank)
  slices_S64x384_S64x128_0_0 : S64x384.Slices ![0, 0] S64x128
  slices_S64x384_S64x128_0_128 : S64x384.Slices ![0, 128] S64x128
  slices_S64x384_S64x128_0_256 : S64x384.Slices ![0, 256] S64x128
  bcast_S1x512_S64x512_0_1 : S1x512.BroadcastsInDim S64x512 (![0, 1] : Fin 2 → Fin S64x512.rank)
  shapeCasts_S64x512_S64x4x128 : S64x512.ShapeCasts S64x4x128
  bcast_S1x128_S64x128_0_1 : S1x128.BroadcastsInDim S64x128 (![0, 1] : Fin 2 → Fin S64x128.rank)
  bcast_S64x128_S64x1x128_0_2 : S64x128.BroadcastsInDim S64x1x128 (![0, 2] : Fin 2 → Fin S64x1x128.rank)
  bcast_S64x1x128_S64x4x128_0_1_2 : S64x1x128.BroadcastsInDim S64x4x128 (![0, 1, 2] : Fin 3 → Fin S64x4x128.rank)
  bcast_S_S64x4x128 : S_.BroadcastsInDim S64x4x128 (![] : Fin 0 → Fin S64x4x128.rank)
  bcast_S_S64x128 : S_.BroadcastsInDim S64x128 (![] : Fin 0 → Fin S64x128.rank)
  reducesTo_S64x4x128_S64x128_d1 : S64x4x128.ReducesTo [1] S64x128
  shapeCasts_S64x128_S16x512 : S64x128.ShapeCasts S16x512
  slices_S87381x128_S16x128_87360_0 : S87381x128.Slices ![87360, 0] S16x128
  bcast_S1x384_S16x384_0_1 : S1x384.BroadcastsInDim S16x384 (![0, 1] : Fin 2 → Fin S16x384.rank)
  slices_S16x384_S16x128_0_0 : S16x384.Slices ![0, 0] S16x128
  slices_S16x384_S16x128_0_128 : S16x384.Slices ![0, 128] S16x128
  slices_S16x384_S16x128_0_256 : S16x384.Slices ![0, 256] S16x128
  bcast_S1x512_S16x512_0_1 : S1x512.BroadcastsInDim S16x512 (![0, 1] : Fin 2 → Fin S16x512.rank)
  shapeCasts_S16x512_S16x4x128 : S16x512.ShapeCasts S16x4x128
  bcast_S1x128_S16x128_0_1 : S1x128.BroadcastsInDim S16x128 (![0, 1] : Fin 2 → Fin S16x128.rank)
  bcast_S16x128_S16x1x128_0_2 : S16x128.BroadcastsInDim S16x1x128 (![0, 2] : Fin 2 → Fin S16x1x128.rank)
  bcast_S16x1x128_S16x4x128_0_1_2 : S16x1x128.BroadcastsInDim S16x4x128 (![0, 1, 2] : Fin 3 → Fin S16x4x128.rank)
  bcast_S_S16x4x128 : S_.BroadcastsInDim S16x4x128 (![] : Fin 0 → Fin S16x4x128.rank)
  bcast_S_S16x128 : S_.BroadcastsInDim S16x128 (![] : Fin 0 → Fin S16x128.rank)
  reducesTo_S16x4x128_S16x128_d1 : S16x4x128.ReducesTo [1] S16x128
  shapeCasts_S16x128_S4x512 : S16x128.ShapeCasts S4x512
  slices_S87381x128_S4x128_87376_0 : S87381x128.Slices ![87376, 0] S4x128
  bcast_S1x384_S4x384_0_1 : S1x384.BroadcastsInDim S4x384 (![0, 1] : Fin 2 → Fin S4x384.rank)
  slices_S4x384_S4x128_0_0 : S4x384.Slices ![0, 0] S4x128
  slices_S4x384_S4x128_0_128 : S4x384.Slices ![0, 128] S4x128
  slices_S4x384_S4x128_0_256 : S4x384.Slices ![0, 256] S4x128
  bcast_S1x512_S4x512_0_1 : S1x512.BroadcastsInDim S4x512 (![0, 1] : Fin 2 → Fin S4x512.rank)
  shapeCasts_S4x512_S4x4x128 : S4x512.ShapeCasts S4x4x128
  bcast_S1x128_S4x128_0_1 : S1x128.BroadcastsInDim S4x128 (![0, 1] : Fin 2 → Fin S4x128.rank)
  bcast_S4x128_S4x1x128_0_2 : S4x128.BroadcastsInDim S4x1x128 (![0, 2] : Fin 2 → Fin S4x1x128.rank)
  bcast_S4x1x128_S4x4x128_0_1_2 : S4x1x128.BroadcastsInDim S4x4x128 (![0, 1, 2] : Fin 3 → Fin S4x4x128.rank)
  bcast_S_S4x4x128 : S_.BroadcastsInDim S4x4x128 (![] : Fin 0 → Fin S4x4x128.rank)
  bcast_S_S4x128 : S_.BroadcastsInDim S4x128 (![] : Fin 0 → Fin S4x128.rank)
  reducesTo_S4x4x128_S4x128_d1 : S4x4x128.ReducesTo [1] S4x128
  shapeCasts_S4x128_S1x512 : S4x128.ShapeCasts S1x512
  slices_S87381x128_S1x128_87380_0 : S87381x128.Slices ![87380, 0] S1x128
  slices_S1x384_S1x128_0_0 : S1x384.Slices ![0, 0] S1x128
  slices_S1x384_S1x128_0_128 : S1x384.Slices ![0, 128] S1x128
  slices_S1x384_S1x128_0_256 : S1x384.Slices ![0, 256] S1x128
  shapeCasts_S1x512_S1x4x128 : S1x512.ShapeCasts S1x4x128
  bcast_S1x128_S1x1x128_0_2 : S1x128.BroadcastsInDim S1x1x128 (![0, 2] : Fin 2 → Fin S1x1x128.rank)
  bcast_S1x1x128_S1x4x128_0_1_2 : S1x1x128.BroadcastsInDim S1x4x128 (![0, 1, 2] : Fin 3 → Fin S1x4x128.rank)
  bcast_S_S1x4x128 : S_.BroadcastsInDim S1x4x128 (![] : Fin 0 → Fin S1x4x128.rank)
  bcast_S_S1x128 : S_.BroadcastsInDim S1x128 (![] : Fin 0 → Fin S1x128.rank)
  reducesTo_S1x4x128_S1x128_d1 : S1x4x128.ReducesTo [1] S1x128
  concatenates_S65536x128_S16384x128_S4096x128_S1024x128_S256x128_S64x128_S16x128_S4x128_S1x128_S87381x128_d0 : Shape.Concatenates [S65536x128, S16384x128, S4096x128, S1024x128, S256x128, S64x128, S16x128, S4x128, S1x128] S87381x128 0
  bcast_S87381x128_S1x87381x128_1_2 : S87381x128.BroadcastsInDim S1x87381x128 (![1, 2] : Fin 2 → Fin S1x87381x128.rank)
  dot_S65536x128_S128x384_S65536x384_1_0_0_1_n_n_wf : DotDims.WF S65536x128 S128x384 S65536x384 [1] [0] [0] [1] [] []
  dot_S65536x512_S512x384_S65536x384_1_0_0_1_n_n_wf : DotDims.WF S65536x512 S512x384 S65536x384 [1] [0] [0] [1] [] []
  dot_S65536x512_S512x512_S65536x512_1_0_0_1_n_n_wf : DotDims.WF S65536x512 S512x512 S65536x512 [1] [0] [0] [1] [] []
  dot_S65536x128_S128x128_S65536x128_1_0_0_1_n_n_wf : DotDims.WF S65536x128 S128x128 S65536x128 [1] [0] [0] [1] [] []
  dot_S16384x128_S128x384_S16384x384_1_0_0_1_n_n_wf : DotDims.WF S16384x128 S128x384 S16384x384 [1] [0] [0] [1] [] []
  dot_S16384x512_S512x384_S16384x384_1_0_0_1_n_n_wf : DotDims.WF S16384x512 S512x384 S16384x384 [1] [0] [0] [1] [] []
  dot_S16384x512_S512x512_S16384x512_1_0_0_1_n_n_wf : DotDims.WF S16384x512 S512x512 S16384x512 [1] [0] [0] [1] [] []
  dot_S16384x128_S128x128_S16384x128_1_0_0_1_n_n_wf : DotDims.WF S16384x128 S128x128 S16384x128 [1] [0] [0] [1] [] []
  dot_S4096x128_S128x384_S4096x384_1_0_0_1_n_n_wf : DotDims.WF S4096x128 S128x384 S4096x384 [1] [0] [0] [1] [] []
  dot_S4096x512_S512x384_S4096x384_1_0_0_1_n_n_wf : DotDims.WF S4096x512 S512x384 S4096x384 [1] [0] [0] [1] [] []
  dot_S4096x512_S512x512_S4096x512_1_0_0_1_n_n_wf : DotDims.WF S4096x512 S512x512 S4096x512 [1] [0] [0] [1] [] []
  dot_S4096x128_S128x128_S4096x128_1_0_0_1_n_n_wf : DotDims.WF S4096x128 S128x128 S4096x128 [1] [0] [0] [1] [] []
  dot_S1024x128_S128x384_S1024x384_1_0_0_1_n_n_wf : DotDims.WF S1024x128 S128x384 S1024x384 [1] [0] [0] [1] [] []
  dot_S1024x512_S512x384_S1024x384_1_0_0_1_n_n_wf : DotDims.WF S1024x512 S512x384 S1024x384 [1] [0] [0] [1] [] []
  dot_S1024x512_S512x512_S1024x512_1_0_0_1_n_n_wf : DotDims.WF S1024x512 S512x512 S1024x512 [1] [0] [0] [1] [] []
  dot_S1024x128_S128x128_S1024x128_1_0_0_1_n_n_wf : DotDims.WF S1024x128 S128x128 S1024x128 [1] [0] [0] [1] [] []
  dot_S256x128_S128x384_S256x384_1_0_0_1_n_n_wf : DotDims.WF S256x128 S128x384 S256x384 [1] [0] [0] [1] [] []
  dot_S256x512_S512x384_S256x384_1_0_0_1_n_n_wf : DotDims.WF S256x512 S512x384 S256x384 [1] [0] [0] [1] [] []
  dot_S256x512_S512x512_S256x512_1_0_0_1_n_n_wf : DotDims.WF S256x512 S512x512 S256x512 [1] [0] [0] [1] [] []
  dot_S256x128_S128x128_S256x128_1_0_0_1_n_n_wf : DotDims.WF S256x128 S128x128 S256x128 [1] [0] [0] [1] [] []
  dot_S64x128_S128x384_S64x384_1_0_0_1_n_n_wf : DotDims.WF S64x128 S128x384 S64x384 [1] [0] [0] [1] [] []
  dot_S64x512_S512x384_S64x384_1_0_0_1_n_n_wf : DotDims.WF S64x512 S512x384 S64x384 [1] [0] [0] [1] [] []
  dot_S64x512_S512x512_S64x512_1_0_0_1_n_n_wf : DotDims.WF S64x512 S512x512 S64x512 [1] [0] [0] [1] [] []
  dot_S64x128_S128x128_S64x128_1_0_0_1_n_n_wf : DotDims.WF S64x128 S128x128 S64x128 [1] [0] [0] [1] [] []
  dot_S16x128_S128x384_S16x384_1_0_0_1_n_n_wf : DotDims.WF S16x128 S128x384 S16x384 [1] [0] [0] [1] [] []
  dot_S16x512_S512x384_S16x384_1_0_0_1_n_n_wf : DotDims.WF S16x512 S512x384 S16x384 [1] [0] [0] [1] [] []
  dot_S16x512_S512x512_S16x512_1_0_0_1_n_n_wf : DotDims.WF S16x512 S512x512 S16x512 [1] [0] [0] [1] [] []
  dot_S16x128_S128x128_S16x128_1_0_0_1_n_n_wf : DotDims.WF S16x128 S128x128 S16x128 [1] [0] [0] [1] [] []
  dot_S4x128_S128x384_S4x384_1_0_0_1_n_n_wf : DotDims.WF S4x128 S128x384 S4x384 [1] [0] [0] [1] [] []
  dot_S4x512_S512x384_S4x384_1_0_0_1_n_n_wf : DotDims.WF S4x512 S512x384 S4x384 [1] [0] [0] [1] [] []
  dot_S4x512_S512x512_S4x512_1_0_0_1_n_n_wf : DotDims.WF S4x512 S512x512 S4x512 [1] [0] [0] [1] [] []
  dot_S4x128_S128x128_S4x128_1_0_0_1_n_n_wf : DotDims.WF S4x128 S128x128 S4x128 [1] [0] [0] [1] [] []
  dot_S1x128_S128x384_S1x384_1_0_0_1_n_n_wf : DotDims.WF S1x128 S128x384 S1x384 [1] [0] [0] [1] [] []
  dot_S1x512_S512x384_S1x384_1_0_0_1_n_n_wf : DotDims.WF S1x512 S512x384 S1x384 [1] [0] [0] [1] [] []
  dot_S1x512_S512x512_S1x512_1_0_0_1_n_n_wf : DotDims.WF S1x512 S512x512 S1x512 [1] [0] [0] [1] [] []
  dot_S1x128_S128x128_S1x128_1_0_0_1_n_n_wf : DotDims.WF S1x128 S128x128 S1x128 [1] [0] [0] [1] [] []

variable [Facts₀]

def dot_S65536x128_S128x384_S65536x384_1_0_0_1_n_n : DotDims S65536x128 S128x384 S65536x384 where
  lhsContracting := [1]
  rhsContracting := [0]
  lhsNonContracting := [0]
  rhsNonContracting := [1]
  lhsBatch := []
  rhsBatch := []
  wf := dot_S65536x128_S128x384_S65536x384_1_0_0_1_n_n_wf
def dot_S65536x512_S512x384_S65536x384_1_0_0_1_n_n : DotDims S65536x512 S512x384 S65536x384 where
  lhsContracting := [1]
  rhsContracting := [0]
  lhsNonContracting := [0]
  rhsNonContracting := [1]
  lhsBatch := []
  rhsBatch := []
  wf := dot_S65536x512_S512x384_S65536x384_1_0_0_1_n_n_wf
def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def dot_S16384x128_S128x384_S16384x384_1_0_0_1_n_n : DotDims S16384x128 S128x384 S16384x384 where
  lhsContracting := [1]
  rhsContracting := [0]
  lhsNonContracting := [0]
  rhsNonContracting := [1]
  lhsBatch := []
  rhsBatch := []
  wf := dot_S16384x128_S128x384_S16384x384_1_0_0_1_n_n_wf
def dot_S16384x512_S512x384_S16384x384_1_0_0_1_n_n : DotDims S16384x512 S512x384 S16384x384 where
  lhsContracting := [1]
  rhsContracting := [0]
  lhsNonContracting := [0]
  rhsNonContracting := [1]
  lhsBatch := []
  rhsBatch := []
  wf := dot_S16384x512_S512x384_S16384x384_1_0_0_1_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S4096x128_S128x384_S4096x384_1_0_0_1_n_n : DotDims S4096x128 S128x384 S4096x384 where
  lhsContracting := [1]
  rhsContracting := [0]
  lhsNonContracting := [0]
  rhsNonContracting := [1]
  lhsBatch := []
  rhsBatch := []
  wf := dot_S4096x128_S128x384_S4096x384_1_0_0_1_n_n_wf
def dot_S4096x512_S512x384_S4096x384_1_0_0_1_n_n : DotDims S4096x512 S512x384 S4096x384 where
  lhsContracting := [1]
  rhsContracting := [0]
  lhsNonContracting := [0]
  rhsNonContracting := [1]
  lhsBatch := []
  rhsBatch := []
  wf := dot_S4096x512_S512x384_S4096x384_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S1024x128_S128x384_S1024x384_1_0_0_1_n_n : DotDims S1024x128 S128x384 S1024x384 where
  lhsContracting := [1]
  rhsContracting := [0]
  lhsNonContracting := [0]
  rhsNonContracting := [1]
  lhsBatch := []
  rhsBatch := []
  wf := dot_S1024x128_S128x384_S1024x384_1_0_0_1_n_n_wf
def dot_S1024x512_S512x384_S1024x384_1_0_0_1_n_n : DotDims S1024x512 S512x384 S1024x384 where
  lhsContracting := [1]
  rhsContracting := [0]
  lhsNonContracting := [0]
  rhsNonContracting := [1]
  lhsBatch := []
  rhsBatch := []
  wf := dot_S1024x512_S512x384_S1024x384_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S256x128_S128x384_S256x384_1_0_0_1_n_n : DotDims S256x128 S128x384 S256x384 where
  lhsContracting := [1]
  rhsContracting := [0]
  lhsNonContracting := [0]
  rhsNonContracting := [1]
  lhsBatch := []
  rhsBatch := []
  wf := dot_S256x128_S128x384_S256x384_1_0_0_1_n_n_wf
def dot_S256x512_S512x384_S256x384_1_0_0_1_n_n : DotDims S256x512 S512x384 S256x384 where
  lhsContracting := [1]
  rhsContracting := [0]
  lhsNonContracting := [0]
  rhsNonContracting := [1]
  lhsBatch := []
  rhsBatch := []
  wf := dot_S256x512_S512x384_S256x384_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S64x128_S128x384_S64x384_1_0_0_1_n_n : DotDims S64x128 S128x384 S64x384 where
  lhsContracting := [1]
  rhsContracting := [0]
  lhsNonContracting := [0]
  rhsNonContracting := [1]
  lhsBatch := []
  rhsBatch := []
  wf := dot_S64x128_S128x384_S64x384_1_0_0_1_n_n_wf
def dot_S64x512_S512x384_S64x384_1_0_0_1_n_n : DotDims S64x512 S512x384 S64x384 where
  lhsContracting := [1]
  rhsContracting := [0]
  lhsNonContracting := [0]
  rhsNonContracting := [1]
  lhsBatch := []
  rhsBatch := []
  wf := dot_S64x512_S512x384_S64x384_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S16x128_S128x384_S16x384_1_0_0_1_n_n : DotDims S16x128 S128x384 S16x384 where
  lhsContracting := [1]
  rhsContracting := [0]
  lhsNonContracting := [0]
  rhsNonContracting := [1]
  lhsBatch := []
  rhsBatch := []
  wf := dot_S16x128_S128x384_S16x384_1_0_0_1_n_n_wf
def dot_S16x512_S512x384_S16x384_1_0_0_1_n_n : DotDims S16x512 S512x384 S16x384 where
  lhsContracting := [1]
  rhsContracting := [0]
  lhsNonContracting := [0]
  rhsNonContracting := [1]
  lhsBatch := []
  rhsBatch := []
  wf := dot_S16x512_S512x384_S16x384_1_0_0_1_n_n_wf
def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf
def dot_S4x128_S128x384_S4x384_1_0_0_1_n_n : DotDims S4x128 S128x384 S4x384 where
  lhsContracting := [1]
  rhsContracting := [0]
  lhsNonContracting := [0]
  rhsNonContracting := [1]
  lhsBatch := []
  rhsBatch := []
  wf := dot_S4x128_S128x384_S4x384_1_0_0_1_n_n_wf
def dot_S4x512_S512x384_S4x384_1_0_0_1_n_n : DotDims S4x512 S512x384 S4x384 where
  lhsContracting := [1]
  rhsContracting := [0]
  lhsNonContracting := [0]
  rhsNonContracting := [1]
  lhsBatch := []
  rhsBatch := []
  wf := dot_S4x512_S512x384_S4x384_1_0_0_1_n_n_wf
def dot_S4x512_S512x512_S4x512_1_0_0_1_n_n : DotDims S4x512 S512x512 S4x512 where
  lhsContracting := [1]
  rhsContracting := [0]
  lhsNonContracting := [0]
  rhsNonContracting := [1]
  lhsBatch := []
  rhsBatch := []
  wf := dot_S4x512_S512x512_S4x512_1_0_0_1_n_n_wf
def dot_S4x128_S128x128_S4x128_1_0_0_1_n_n : DotDims S4x128 S128x128 S4x128 where
  lhsContracting := [1]
  rhsContracting := [0]
  lhsNonContracting := [0]
  rhsNonContracting := [1]
  lhsBatch := []
  rhsBatch := []
  wf := dot_S4x128_S128x128_S4x128_1_0_0_1_n_n_wf
def dot_S1x128_S128x384_S1x384_1_0_0_1_n_n : DotDims S1x128 S128x384 S1x384 where
  lhsContracting := [1]
  rhsContracting := [0]
  lhsNonContracting := [0]
  rhsNonContracting := [1]
  lhsBatch := []
  rhsBatch := []
  wf := dot_S1x128_S128x384_S1x384_1_0_0_1_n_n_wf
def dot_S1x512_S512x384_S1x384_1_0_0_1_n_n : DotDims S1x512 S512x384 S1x384 where
  lhsContracting := [1]
  rhsContracting := [0]
  lhsNonContracting := [0]
  rhsNonContracting := [1]
  lhsBatch := []
  rhsBatch := []
  wf := dot_S1x512_S512x384_S1x384_1_0_0_1_n_n_wf
def dot_S1x512_S512x512_S1x512_1_0_0_1_n_n : DotDims S1x512 S512x512 S1x512 where
  lhsContracting := [1]
  rhsContracting := [0]
  lhsNonContracting := [0]
  rhsNonContracting := [1]
  lhsBatch := []
  rhsBatch := []
  wf := dot_S1x512_S512x512_S1x512_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

class Facts : Prop extends Facts₀ where

variable [Facts]
-- ==== Proof.K.Bodies.lean ====
/-
  Each kernel region's two output blocks as ONE function of its eleven input blocks (x0 … x10, the windows in the
  order the region receives them: the node inputs, the children's hidden rows, the children's cell rows, then
  W_iouᵀ, b_iou, U_iouᵀ, b_uiou, W_fᵀ, b_wf, U_fᵀ, b_uf): the body's arithmetic composed as the body passes it along.
  bodyH K is what region K stores into its first output block (the new hidden rows), bodyC K into its second (the new
  cell rows).  Stated at any float instance.
-/
import proofs.«148344_j70635032150607_1_alg».proof.Proof.Gen.Kernel.Skeleton

noncomputable section

namespace Cert.Kernel.Hand

open Idealize.ShloMosaic Cert.Kernel Cert.Kernel.Gen

variable {F : FTy → Type} [FloatOps F]

/-- Region 0 (1024 rows per block): the new hidden rows. -/
def bodyH0 (x0 : Vec F S1024x128 .f32) (x1 : Vec F S1x512 .f32) (x2 : Vec F S1x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  k0_pay3 (k0_pay4 x0) (k0_pay5 x2) (k0_pay6 x1) (k0_pay7 x7) (k0_pay8 x9) (k0_pay9 x6) (k0_pay10 x8) (k0_pay11 x10) (k0_pay12 x0 x1 x3 x5 x4)
/-- Region 0: the new cell rows. -/
def bodyC0 (x0 : Vec F S1024x128 .f32) (x1 : Vec F S1x512 .f32) (x2 : Vec F S1x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  k0_pay2 (k0_pay4 x0) (k0_pay5 x2) (k0_pay6 x1) (k0_pay7 x7) (k0_pay8 x9) (k0_pay9 x6) (k0_pay10 x8) (k0_pay11 x10) (k0_pay12 x0 x1 x3 x5 x4)

/-- Region 1 (1024 rows per block): the new hidden rows. -/
def bodyH1 (x0 : Vec F S1024x128 .f32) (x1 : Vec F S1024x512 .f32) (x2 : Vec F S1024x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  k1_pay2 (k1_pay3 x0) (k1_pay4 x2) (k1_pay5 x1) (k1_pay6 x7) (k1_pay7 x9) (k1_pay8 x8) (k1_pay9 x10) (k1_pay10 x0 x1 x3 x5 x4 x6)
/-- Region 1: the new cell rows. -/
def bodyC1 (x0 : Vec F S1024x128 .f32) (x1 : Vec F S1024x512 .f32) (x2 : Vec F S1024x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  k1_pay1 (k1_pay3 x0) (k1_pay4 x2) (k1_pay5 x1) (k1_pay6 x7) (k1_pay7 x9) (k1_pay8 x8) (k1_pay9 x10) (k1_pay10 x0 x1 x3 x5 x4 x6)

/-- Region 2 (1024 rows per block): the new hidden rows. -/
def bodyH2 (x0 : Vec F S1024x128 .f32) (x1 : Vec F S1024x512 .f32) (x2 : Vec F S1024x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  k2_pay2 (k2_pay3 x0) (k2_pay4 x2) (k2_pay5 x1) (k2_pay6 x7) (k2_pay7 x9) (k2_pay8 x8) (k2_pay9 x10) (k2_pay10 x0 x1 x3 x5 x4 x6)
/-- Region 2: the new cell rows. -/
def bodyC2 (x0 : Vec F S1024x128 .f32) (x1 : Vec F S1024x512 .f32) (x2 : Vec F S1024x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  k2_pay1 (k2_pay3 x0) (k2_pay4 x2) (k2_pay5 x1) (k2_pay6 x7) (k2_pay7 x9) (k2_pay8 x8) (k2_pay9 x10) (k2_pay10 x0 x1 x3 x5 x4 x6)

/-- Region 3 (1024 rows per block): the new hidden rows. -/
def bodyH3 (x0 : Vec F S1024x128 .f32) (x1 : Vec F S1024x512 .f32) (x2 : Vec F S1024x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  k3_pay2 (k3_pay3 x0) (k3_pay4 x2) (k3_pay5 x1) (k3_pay6 x7) (k3_pay7 x9) (k3_pay8 x8) (k3_pay9 x10) (k3_pay10 x0 x1 x3 x5 x4 x6)
/-- Region 3: the new cell rows. -/
def bodyC3 (x0 : Vec F S1024x128 .f32) (x1 : Vec F S1024x512 .f32) (x2 : Vec F S1024x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  k3_pay1 (k3_pay3 x0) (k3_pay4 x2) (k3_pay5 x1) (k3_pay6 x7) (k3_pay7 x9) (k3_pay8 x8) (k3_pay9 x10) (k3_pay10 x0 x1 x3 x5 x4 x6)

/-- Region 4 (256 rows per block): the new hidden rows. -/
def bodyH4 (x0 : Vec F S256x128 .f32) (x1 : Vec F S256x512 .f32) (x2 : Vec F S256x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S256x128 .f32 :=
  k4_pay2 (k4_pay3 x0) (k4_pay4 x2) (k4_pay5 x1) (k4_pay6 x7) (k4_pay7 x9) (k4_pay8 x8) (k4_pay9 x10) (k4_pay10 x0 x1 x3 x5 x4 x6)
/-- Region 4: the new cell rows. -/
def bodyC4 (x0 : Vec F S256x128 .f32) (x1 : Vec F S256x512 .f32) (x2 : Vec F S256x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S256x128 .f32 :=
  k4_pay1 (k4_pay3 x0) (k4_pay4 x2) (k4_pay5 x1) (k4_pay6 x7) (k4_pay7 x9) (k4_pay8 x8) (k4_pay9 x10) (k4_pay10 x0 x1 x3 x5 x4 x6)

/-- Region 5 (64 rows per block): the new hidden rows. -/
def bodyH5 (x0 : Vec F S64x128 .f32) (x1 : Vec F S64x512 .f32) (x2 : Vec F S64x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S64x128 .f32 :=
  k5_pay2 (k5_pay3 x0) (k5_pay4 x2) (k5_pay5 x1) (k5_pay6 x7) (k5_pay7 x9) (k5_pay8 x8) (k5_pay9 x10) (k5_pay10 x0 x1 x3 x5 x4 x6)
/-- Region 5: the new cell rows. -/
def bodyC5 (x0 : Vec F S64x128 .f32) (x1 : Vec F S64x512 .f32) (x2 : Vec F S64x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S64x128 .f32 :=
  k5_pay1 (k5_pay3 x0) (k5_pay4 x2) (k5_pay5 x1) (k5_pay6 x7) (k5_pay7 x9) (k5_pay8 x8) (k5_pay9 x10) (k5_pay10 x0 x1 x3 x5 x4 x6)

/-- Region 6 (16 rows per block): the new hidden rows. -/
def bodyH6 (x0 : Vec F S16x128 .f32) (x1 : Vec F S16x512 .f32) (x2 : Vec F S16x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S16x128 .f32 :=
  k6_pay2 (k6_pay3 x0) (k6_pay4 x2) (k6_pay5 x1) (k6_pay6 x7) (k6_pay7 x9) (k6_pay8 x8) (k6_pay9 x10) (k6_pay10 x0 x1 x3 x5 x4 x6)
/-- Region 6: the new cell rows. -/
def bodyC6 (x0 : Vec F S16x128 .f32) (x1 : Vec F S16x512 .f32) (x2 : Vec F S16x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S16x128 .f32 :=
  k6_pay1 (k6_pay3 x0) (k6_pay4 x2) (k6_pay5 x1) (k6_pay6 x7) (k6_pay7 x9) (k6_pay8 x8) (k6_pay9 x10) (k6_pay10 x0 x1 x3 x5 x4 x6)

/-- Region 7 (4 rows per block): the new hidden rows. -/
def bodyH7 (x0 : Vec F S4x128 .f32) (x1 : Vec F S4x512 .f32) (x2 : Vec F S4x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S4x128 .f32 :=
  k7_pay2 (k7_pay3 x0) (k7_pay4 x2) (k7_pay5 x1) (k7_pay6 x7) (k7_pay7 x9) (k7_pay8 x8) (k7_pay9 x10) (k7_pay10 x0 x1 x3 x5 x4 x6)
/-- Region 7: the new cell rows. -/
def bodyC7 (x0 : Vec F S4x128 .f32) (x1 : Vec F S4x512 .f32) (x2 : Vec F S4x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S4x128 .f32 :=
  k7_pay1 (k7_pay3 x0) (k7_pay4 x2) (k7_pay5 x1) (k7_pay6 x7) (k7_pay7 x9) (k7_pay8 x8) (k7_pay9 x10) (k7_pay10 x0 x1 x3 x5 x4 x6)

/-- Region 8 (1 rows per block): the new hidden rows. -/
def bodyH8 (x0 : Vec F S1x128 .f32) (x1 : Vec F S1x512 .f32) (x2 : Vec F S1x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1x128 .f32 :=
  k8_pay2 (k8_pay3 x0) (k8_pay4 x2) (k8_pay5 x1) (k8_pay6 x7) (k8_pay7 x9) (k8_pay8 x8) (k8_pay9 x10) (k8_pay10 x0 x1 x3 x5 x4 x6) (k8_pay11 x0 x1 x3 x5 x4 x6) (k8_pay12 x0 x1 x3 x5 x4 x6)
/-- Region 8: the new cell rows. -/
def bodyC8 (x0 : Vec F S1x128 .f32) (x1 : Vec F S1x512 .f32) (x2 : Vec F S1x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1x128 .f32 :=
  k8_pay1 (k8_pay3 x0) (k8_pay4 x2) (k8_pay5 x1) (k8_pay6 x7) (k8_pay7 x9) (k8_pay8 x8) (k8_pay9 x10) (k8_pay10 x0 x1 x3 x5 x4 x6) (k8_pay11 x0 x1 x3 x5 x4 x6)

end Cert.Kernel.Hand

end
-- ==== Proof.K.Region0.lean ====
/-
  Region 0 of the program (the cell applied to one level of the tree, 1024 nodes per grid point), at a PARAMETER V: the
  contents of the core's buffers when the region is entered.  Each window's block at a grid point is read off its
  array in V; the body, run on staging buffers holding the eleven input blocks, leaves them as they were and leaves in
  the two output buffers the new hidden rows and the new cell rows of those blocks (bodyH0, bodyC0); with that, the proof
  data of the region's pipeline (its arrays those of V, after the body each input buffer at its block and each output
  buffer at the body's function of the input blocks, nothing owed) meets the pipeline's body obligation at every point.
-/
import proofs.«148344_j70635032150607_1_alg».proof.Proof.Gen.Kernel.Launch
import proofs.«148344_j70635032150607_1_alg».proof.Proof.Gen.Kernel.Skeleton
import proofs.«148344_j70635032150607_1_alg».proof.Proof.Gen.Kernel.Points
import proofs.«148344_j70635032150607_1_alg».proof.Proof.K.Bodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (the index has not moved where it is not fetched). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not (the index has not moved where it is not fetched). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not (the index has not moved where it is not fetched). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not (the index has not moved where it is not fetched). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not (the index has not moved where it is not fetched). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not (the index has not moved where it is not fetched). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not (the index has not moved where it is not fetched). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not (the index has not moved where it is not fetched). -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not (the index has not moved where it is not fetched). -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not (the index has not moved where it is not fetched). -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's current staging buffer holds its block at every point, fetched there or not (the index has not moved where it is not fetched). -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_0 : Rect S1024x128 := Rect.unit (s := S1024x128) ![0, 0] S1024x128.size inb_S1024x128_S1024x128_0_0
abbrev r0_1 : Rect S1x512 := Rect.unit (s := S1x512) ![0, 0] S1x512.size inb_S1x512_S1x512_0_0
abbrev r0_2 : Rect S1x512 := Rect.unit (s := S1x512) ![0, 0] S1x512.size inb_S1x512_S1x512_0_0
abbrev r0_3 : Rect S128x384 := Rect.unit (s := S128x384) ![0, 0] S128x384.size inb_S128x384_S128x384_0_0
abbrev r0_4 : Rect S1x384 := Rect.unit (s := S1x384) ![0, 0] S1x384.size inb_S1x384_S1x384_0_0
abbrev r0_5 : Rect S512x384 := Rect.unit (s := S512x384) ![0, 0] S512x384.size inb_S512x384_S512x384_0_0
abbrev r0_6 : Rect S1x384 := Rect.unit (s := S1x384) ![0, 0] S1x384.size inb_S1x384_S1x384_0_0
abbrev r0_7 : Rect S128x128 := Rect.unit (s := S128x128) ![0, 0] S128x128.size inb_S128x128_S128x128_0_0
abbrev r0_8 : Rect S1x128 := Rect.unit (s := S1x128) ![0, 0] S1x128.size inb_S1x128_S1x128_0_0
abbrev r0_9 : Rect S512x512 := Rect.unit (s := S512x512) ![0, 0] S512x512.size inb_S512x512_S512x512_0_0
abbrev r0_10 : Rect S1x512 := Rect.unit (s := S1x512) ![0, 0] S1x512.size inb_S1x512_S1x512_0_0
abbrev r0_11 : Rect S1024x128 := Rect.unit (s := S1024x128) ![0, 0] S1024x128.size inb_S1024x128_S1024x128_0_0
abbrev r0_12 : Rect S1024x128 := Rect.unit (s := S1024x128) ![0, 0] S1024x128.size inb_S1024x128_S1024x128_0_0

/-- The first output buffer after the body, from the input blocks: its one store, of the new hidden rows. -/
def out0_11 (x0 : Vec F S1024x128 .f32) (x1 : Vec F S1x512 .f32) (x2 : Vec F S1x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  View.canon [⟨r0_11, bodyH0 (View.ld x0 r0_0) (View.ld x1 r0_1) (View.ld x2 r0_2) (View.ld x3 r0_3) (View.ld x4 r0_4) (View.ld x5 r0_5) (View.ld x6 r0_6) (View.ld x7 r0_7) (View.ld x8 r0_8) (View.ld x9 r0_9) (View.ld x10 r0_10)⟩]
/-- The second output buffer after the body: its one store, of the new cell rows. -/
def out0_12 (x0 : Vec F S1024x128 .f32) (x1 : Vec F S1x512 .f32) (x2 : Vec F S1x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  View.canon [⟨r0_12, bodyC0 (View.ld x0 r0_0) (View.ld x1 r0_1) (View.ld x2 r0_2) (View.ld x3 r0_3) (View.ld x4 r0_4) (View.ld x5 r0_5) (View.ld x6 r0_6) (View.ld x7 r0_7) (View.ld x8 r0_8) (View.ld x9 r0_9) (View.ld x10 r0_10)⟩]

/-- The one store covers the buffer. -/
theorem cover0_11 (p0 : Vec F S1024x128 .f32) (y : S1024x128.Idx) :
    ∃ pc ∈ ([⟨r0_11, p0⟩] : List (View.Piece (Elt F) S1024x128 .f32)), y ∈ pc.1.set :=
  View.cover_of_tiled [⟨r0_11, p0⟩] S1024x128.size (by rfl) y
theorem cover0_12 (p0 : Vec F S1024x128 .f32) (y : S1024x128.Idx) :
    ∃ pc ∈ ([⟨r0_12, p0⟩] : List (View.Piece (Elt F) S1024x128 .f32)), y ∈ pc.1.set :=
  View.cover_of_tiled [⟨r0_12, p0⟩] S1024x128.size (by rfl) y

set_option maxHeartbeats 4000000 in
/-- The body on whole staging buffers, the inputs' at contents x0 … x10 and the outputs' at anything, runs to the continuation holding
    the inputs' as they were and the outputs' at out0_11, out0_12 of the inputs'. -/
theorem sound_kernel0 (c : Dev nD) (E : Set ℕ) (i : grid0.Coords) (arg1 : Memref sig .tc .vmem S1024x128 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S512x384 .f32) (harg6 : arg6.IsWhole) (arg7 : Memref sig .tc .vmem S1x384 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S1024x128 .f32) (harg12 : arg12.IsWhole) (arg13 : Memref sig .tc .vmem S1024x128 .f32) (harg13 : arg13.IsWhole)
    (x0 : Vec F S1024x128 .f32) (x1 : Vec F S1x512 .f32) (x2 : Vec F S1x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10) ∗ owns (c : Thread nD τ) arg13 fullShare (out0_12 x0 x1 x2 x3 x4 x5 x6 x7 x8 x9 x10)) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9 arg10 harg10 arg11 harg11 arg12 harg12 arg13 harg13) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover0_11 _)
  iexists _; isplitr
  swap; · iexact H12
  ipureintro
  try dsimp only
  exact View.read_writes_eq_canon _ _ _ (cover0_12 _)

/-- The proof data of the region's pipeline on core c: the arrays as the region finds them; after the body at point t each
    input's buffer at its block and each output's at the body's function of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

/-- The body at any point: the inputs' buffers hold their blocks, so sound_kernel0 applies; the invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  Region 1 of the program (the cell applied to one level of the tree, 1024 nodes per grid point), at a PARAMETER V: the
  contents of the core's buffers when the region is entered.  Each window's block at a grid point is read off its
  array in V; the body, run on staging buffers holding the eleven input blocks, leaves them as they were and leaves in
  the two output buffers the new hidden rows and the new cell rows of those blocks (bodyH1, bodyC1); with that, the proof
  data of the region's pipeline (its arrays those of V, after the body each input buffer at its block and each output
  buffer at the body's function of the input blocks, nothing owed) meets the pipeline's body obligation at every point.
-/
import proofs.«148344_j70635032150607_1_alg».proof.Proof.Gen.Kernel.Launch
import proofs.«148344_j70635032150607_1_alg».proof.Proof.Gen.Kernel.Skeleton
import proofs.«148344_j70635032150607_1_alg».proof.Proof.Gen.Kernel.Points
import proofs.«148344_j70635032150607_1_alg».proof.Proof.K.Bodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (the index has not moved where it is not fetched). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not (the index has not moved where it is not fetched). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not (the index has not moved where it is not fetched). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not (the index has not moved where it is not fetched). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not (the index has not moved where it is not fetched). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not (the index has not moved where it is not fetched). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not (the index has not moved where it is not fetched). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not (the index has not moved where it is not fetched). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not (the index has not moved where it is not fetched). -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not (the index has not moved where it is not fetched). -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not (the index has not moved where it is not fetched). -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r1_0 : Rect S1024x128 := Rect.unit (s := S1024x128) ![0, 0] S1024x128.size inb_S1024x128_S1024x128_0_0
abbrev r1_1 : Rect S1024x512 := Rect.unit (s := S1024x512) ![0, 0] S1024x512.size inb_S1024x512_S1024x512_0_0
abbrev r1_2 : Rect S1024x512 := Rect.unit (s := S1024x512) ![0, 0] S1024x512.size inb_S1024x512_S1024x512_0_0
abbrev r1_3 : Rect S128x384 := Rect.unit (s := S128x384) ![0, 0] S128x384.size inb_S128x384_S128x384_0_0
abbrev r1_4 : Rect S1x384 := Rect.unit (s := S1x384) ![0, 0] S1x384.size inb_S1x384_S1x384_0_0
abbrev r1_5 : Rect S512x384 := Rect.unit (s := S512x384) ![0, 0] S512x384.size inb_S512x384_S512x384_0_0
abbrev r1_6 : Rect S1x384 := Rect.unit (s := S1x384) ![0, 0] S1x384.size inb_S1x384_S1x384_0_0
abbrev r1_7 : Rect S128x128 := Rect.unit (s := S128x128) ![0, 0] S128x128.size inb_S128x128_S128x128_0_0
abbrev r1_8 : Rect S1x128 := Rect.unit (s := S1x128) ![0, 0] S1x128.size inb_S1x128_S1x128_0_0
abbrev r1_9 : Rect S512x512 := Rect.unit (s := S512x512) ![0, 0] S512x512.size inb_S512x512_S512x512_0_0
abbrev r1_10 : Rect S1x512 := Rect.unit (s := S1x512) ![0, 0] S1x512.size inb_S1x512_S1x512_0_0
abbrev r1_11 : Rect S1024x128 := Rect.unit (s := S1024x128) ![0, 0] S1024x128.size inb_S1024x128_S1024x128_0_0
abbrev r1_12 : Rect S1024x128 := Rect.unit (s := S1024x128) ![0, 0] S1024x128.size inb_S1024x128_S1024x128_0_0

/-- The first output buffer after the body, from the input blocks: its one store, of the new hidden rows. -/
def out1_11 (x0 : Vec F S1024x128 .f32) (x1 : Vec F S1024x512 .f32) (x2 : Vec F S1024x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  View.canon [⟨r1_11, bodyH1 (View.ld x0 r1_0) (View.ld x1 r1_1) (View.ld x2 r1_2) (View.ld x3 r1_3) (View.ld x4 r1_4) (View.ld x5 r1_5) (View.ld x6 r1_6) (View.ld x7 r1_7) (View.ld x8 r1_8) (View.ld x9 r1_9) (View.ld x10 r1_10)⟩]
/-- The second output buffer after the body: its one store, of the new cell rows. -/
def out1_12 (x0 : Vec F S1024x128 .f32) (x1 : Vec F S1024x512 .f32) (x2 : Vec F S1024x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  View.canon [⟨r1_12, bodyC1 (View.ld x0 r1_0) (View.ld x1 r1_1) (View.ld x2 r1_2) (View.ld x3 r1_3) (View.ld x4 r1_4) (View.ld x5 r1_5) (View.ld x6 r1_6) (View.ld x7 r1_7) (View.ld x8 r1_8) (View.ld x9 r1_9) (View.ld x10 r1_10)⟩]

/-- The one store covers the buffer. -/
theorem cover1_11 (p0 : Vec F S1024x128 .f32) (y : S1024x128.Idx) :
    ∃ pc ∈ ([⟨r1_11, p0⟩] : List (View.Piece (Elt F) S1024x128 .f32)), y ∈ pc.1.set :=
  View.cover_of_tiled [⟨r1_11, p0⟩] S1024x128.size (by rfl) y
theorem cover1_12 (p0 : Vec F S1024x128 .f32) (y : S1024x128.Idx) :
    ∃ pc ∈ ([⟨r1_12, p0⟩] : List (View.Piece (Elt F) S1024x128 .f32)), y ∈ pc.1.set :=
  View.cover_of_tiled [⟨r1_12, p0⟩] S1024x128.size (by rfl) y

set_option maxHeartbeats 4000000 in
/-- The body on whole staging buffers, the inputs' at contents x0 … x10 and the outputs' at anything, runs to the continuation holding
    the inputs' as they were and the outputs' at out1_11, out1_12 of the inputs'. -/
theorem sound_kernel1 (c : Dev nD) (E : Set ℕ) (i : grid1.Coords) (arg1 : Memref sig .tc .vmem S1024x128 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S512x384 .f32) (harg6 : arg6.IsWhole) (arg7 : Memref sig .tc .vmem S1x384 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S1024x128 .f32) (harg12 : arg12.IsWhole) (arg13 : Memref sig .tc .vmem S1024x128 .f32) (harg13 : arg13.IsWhole)
    (x0 : Vec F S1024x128 .f32) (x1 : Vec F S1024x512 .f32) (x2 : Vec F S1024x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out1_11 x0 x1 x2 x3 x4 x5 x6 x7 x8 x9 x10) ∗ owns (c : Thread nD τ) arg13 fullShare (out1_12 x0 x1 x2 x3 x4 x5 x6 x7 x8 x9 x10)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11 arg12 harg12 arg13 harg13) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover1_11 _)
  iexists _; isplitr
  swap; · iexact H12
  ipureintro
  try dsimp only
  exact View.read_writes_eq_canon _ _ _ (cover1_12 _)

/-- The proof data of the region's pipeline on core c: the arrays as the region finds them; after the body at point t each
    input's buffer at its block and each output's at the body's function of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
    | ⟨12, _⟩ => out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]
theorem after1_12 (c : Dev nD) (t : Fin cfg1.N) : (dat1 V c).after 12 t = out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

/-- The body at any point: the inputs' buffers hold their blocks, so sound_kernel1 applies; the invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
/-
  Region 2 of the program (the cell applied to one level of the tree, 1024 nodes per grid point), at a PARAMETER V: the
  contents of the core's buffers when the region is entered.  Each window's block at a grid point is read off its
  array in V; the body, run on staging buffers holding the eleven input blocks, leaves them as they were and leaves in
  the two output buffers the new hidden rows and the new cell rows of those blocks (bodyH2, bodyC2); with that, the proof
  data of the region's pipeline (its arrays those of V, after the body each input buffer at its block and each output
  buffer at the body's function of the input blocks, nothing owed) meets the pipeline's body obligation at every point.
-/
import proofs.«148344_j70635032150607_1_alg».proof.Proof.Gen.Kernel.Launch
import proofs.«148344_j70635032150607_1_alg».proof.Proof.Gen.Kernel.Skeleton
import proofs.«148344_j70635032150607_1_alg».proof.Proof.Gen.Kernel.Points
import proofs.«148344_j70635032150607_1_alg».proof.Proof.K.Bodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (the index has not moved where it is not fetched). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not (the index has not moved where it is not fetched). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not (the index has not moved where it is not fetched). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not (the index has not moved where it is not fetched). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not (the index has not moved where it is not fetched). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not (the index has not moved where it is not fetched). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not (the index has not moved where it is not fetched). -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not (the index has not moved where it is not fetched). -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's current staging buffer holds its block at every point, fetched there or not (the index has not moved where it is not fetched). -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
/-- Input window 9's current staging buffer holds its block at every point, fetched there or not (the index has not moved where it is not fetched). -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
/-- Input window 10's current staging buffer holds its block at every point, fetched there or not (the index has not moved where it is not fetched). -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev r2_0 : Rect S1024x128 := Rect.unit (s := S1024x128) ![0, 0] S1024x128.size inb_S1024x128_S1024x128_0_0
abbrev r2_1 : Rect S1024x512 := Rect.unit (s := S1024x512) ![0, 0] S1024x512.size inb_S1024x512_S1024x512_0_0
abbrev r2_2 : Rect S1024x512 := Rect.unit (s := S1024x512) ![0, 0] S1024x512.size inb_S1024x512_S1024x512_0_0
abbrev r2_3 : Rect S128x384 := Rect.unit (s := S128x384) ![0, 0] S128x384.size inb_S128x384_S128x384_0_0
abbrev r2_4 : Rect S1x384 := Rect.unit (s := S1x384) ![0, 0] S1x384.size inb_S1x384_S1x384_0_0
abbrev r2_5 : Rect S512x384 := Rect.unit (s := S512x384) ![0, 0] S512x384.size inb_S512x384_S512x384_0_0
abbrev r2_6 : Rect S1x384 := Rect.unit (s := S1x384) ![0, 0] S1x384.size inb_S1x384_S1x384_0_0
abbrev r2_7 : Rect S128x128 := Rect.unit (s := S128x128) ![0, 0] S128x128.size inb_S128x128_S128x128_0_0
abbrev r2_8 : Rect S1x128 := Rect.unit (s := S1x128) ![0, 0] S1x128.size inb_S1x128_S1x128_0_0
abbrev r2_9 : Rect S512x512 := Rect.unit (s := S512x512) ![0, 0] S512x512.size inb_S512x512_S512x512_0_0
abbrev r2_10 : Rect S1x512 := Rect.unit (s := S1x512) ![0, 0] S1x512.size inb_S1x512_S1x512_0_0
abbrev r2_11 : Rect S1024x128 := Rect.unit (s := S1024x128) ![0, 0] S1024x128.size inb_S1024x128_S1024x128_0_0
abbrev r2_12 : Rect S1024x128 := Rect.unit (s := S1024x128) ![0, 0] S1024x128.size inb_S1024x128_S1024x128_0_0

/-- The first output buffer after the body, from the input blocks: its one store, of the new hidden rows. -/
def out2_11 (x0 : Vec F S1024x128 .f32) (x1 : Vec F S1024x512 .f32) (x2 : Vec F S1024x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  View.canon [⟨r2_11, bodyH2 (View.ld x0 r2_0) (View.ld x1 r2_1) (View.ld x2 r2_2) (View.ld x3 r2_3) (View.ld x4 r2_4) (View.ld x5 r2_5) (View.ld x6 r2_6) (View.ld x7 r2_7) (View.ld x8 r2_8) (View.ld x9 r2_9) (View.ld x10 r2_10)⟩]
/-- The second output buffer after the body: its one store, of the new cell rows. -/
def out2_12 (x0 : Vec F S1024x128 .f32) (x1 : Vec F S1024x512 .f32) (x2 : Vec F S1024x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  View.canon [⟨r2_12, bodyC2 (View.ld x0 r2_0) (View.ld x1 r2_1) (View.ld x2 r2_2) (View.ld x3 r2_3) (View.ld x4 r2_4) (View.ld x5 r2_5) (View.ld x6 r2_6) (View.ld x7 r2_7) (View.ld x8 r2_8) (View.ld x9 r2_9) (View.ld x10 r2_10)⟩]

/-- The one store covers the buffer. -/
theorem cover2_11 (p0 : Vec F S1024x128 .f32) (y : S1024x128.Idx) :
    ∃ pc ∈ ([⟨r2_11, p0⟩] : List (View.Piece (Elt F) S1024x128 .f32)), y ∈ pc.1.set :=
  View.cover_of_tiled [⟨r2_11, p0⟩] S1024x128.size (by rfl) y
theorem cover2_12 (p0 : Vec F S1024x128 .f32) (y : S1024x128.Idx) :
    ∃ pc ∈ ([⟨r2_12, p0⟩] : List (View.Piece (Elt F) S1024x128 .f32)), y ∈ pc.1.set :=
  View.cover_of_tiled [⟨r2_12, p0⟩] S1024x128.size (by rfl) y

set_option maxHeartbeats 4000000 in
/-- The body on whole staging buffers, the inputs' at contents x0 … x10 and the outputs' at anything, runs to the continuation holding
    the inputs' as they were and the outputs' at out2_11, out2_12 of the inputs'. -/
theorem sound_kernel2 (c : Dev nD) (E : Set ℕ) (i : grid2.Coords) (arg1 : Memref sig .tc .vmem S1024x128 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S512x384 .f32) (harg6 : arg6.IsWhole) (arg7 : Memref sig .tc .vmem S1x384 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S1024x128 .f32) (harg12 : arg12.IsWhole) (arg13 : Memref sig .tc .vmem S1024x128 .f32) (harg13 : arg13.IsWhole)
    (x0 : Vec F S1024x128 .f32) (x1 : Vec F S1024x512 .f32) (x2 : Vec F S1024x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out2_11 x0 x1 x2 x3 x4 x5 x6 x7 x8 x9 x10) ∗ owns (c : Thread nD τ) arg13 fullShare (out2_12 x0 x1 x2 x3 x4 x5 x6 x7 x8 x9 x10)) -∗ K ⟨⟩))
      ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11 arg12 harg12 arg13 harg13) K := by
  simp only [cc2_kernel_eq_skeleton]; unfold cc2_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover2_11 _)
  iexists _; isplitr
  swap; · iexact H12
  ipureintro
  try dsimp only
  exact View.read_writes_eq_canon _ _ _ (cover2_12 _)

/-- The proof data of the region's pipeline on core c: the arrays as the region finds them; after the body at point t each
    input's buffer at its block and each output's at the body's function of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => out2_11 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)
    | ⟨12, _⟩ => out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = out2_11 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) := by dsimp only [dat2]
theorem after2_12 (c : Dev nD) (t : Fin cfg2.N) : (dat2 V c).after 12 t = out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t))

/-- The body at any point: the inputs' buffers hold their blocks, so sound_kernel2 applies; the invariant and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel2 c Set.univ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Region3.lean ====
/-
  Region 3 of the program (the cell applied to one level of the tree, 1024 nodes per grid point), at a PARAMETER V: the
  contents of the core's buffers when the region is entered.  Each window's block at a grid point is read off its
  array in V; the body, run on staging buffers holding the eleven input blocks, leaves them as they were and leaves in
  the two output buffers the new hidden rows and the new cell rows of those blocks (bodyH3, bodyC3); with that, the proof
  data of the region's pipeline (its arrays those of V, after the body each input buffer at its block and each output
  buffer at the body's function of the input blocks, nothing owed) meets the pipeline's body obligation at every point.
-/
import proofs.«148344_j70635032150607_1_alg».proof.Proof.Gen.Kernel.Launch
import proofs.«148344_j70635032150607_1_alg».proof.Proof.Gen.Kernel.Skeleton
import proofs.«148344_j70635032150607_1_alg».proof.Proof.Gen.Kernel.Points
import proofs.«148344_j70635032150607_1_alg».proof.Proof.K.Bodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (the index has not moved where it is not fetched). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not (the index has not moved where it is not fetched). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not (the index has not moved where it is not fetched). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not (the index has not moved where it is not fetched). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not (the index has not moved where it is not fetched). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not (the index has not moved where it is not fetched). -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not (the index has not moved where it is not fetched). -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- Input window 7's current staging buffer holds its block at every point, fetched there or not (the index has not moved where it is not fetched). -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
/-- Input window 8's current staging buffer holds its block at every point, fetched there or not (the index has not moved where it is not fetched). -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
/-- Input window 9's current staging buffer holds its block at every point, fetched there or not (the index has not moved where it is not fetched). -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
/-- Input window 10's current staging buffer holds its block at every point, fetched there or not (the index has not moved where it is not fetched). -/
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and store is of a whole buffer -/

abbrev r3_0 : Rect S1024x128 := Rect.unit (s := S1024x128) ![0, 0] S1024x128.size inb_S1024x128_S1024x128_0_0
abbrev r3_1 : Rect S1024x512 := Rect.unit (s := S1024x512) ![0, 0] S1024x512.size inb_S1024x512_S1024x512_0_0
abbrev r3_2 : Rect S1024x512 := Rect.unit (s := S1024x512) ![0, 0] S1024x512.size inb_S1024x512_S1024x512_0_0
abbrev r3_3 : Rect S128x384 := Rect.unit (s := S128x384) ![0, 0] S128x384.size inb_S128x384_S128x384_0_0
abbrev r3_4 : Rect S1x384 := Rect.unit (s := S1x384) ![0, 0] S1x384.size inb_S1x384_S1x384_0_0
abbrev r3_5 : Rect S512x384 := Rect.unit (s := S512x384) ![0, 0] S512x384.size inb_S512x384_S512x384_0_0
abbrev r3_6 : Rect S1x384 := Rect.unit (s := S1x384) ![0, 0] S1x384.size inb_S1x384_S1x384_0_0
abbrev r3_7 : Rect S128x128 := Rect.unit (s := S128x128) ![0, 0] S128x128.size inb_S128x128_S128x128_0_0
abbrev r3_8 : Rect S1x128 := Rect.unit (s := S1x128) ![0, 0] S1x128.size inb_S1x128_S1x128_0_0
abbrev r3_9 : Rect S512x512 := Rect.unit (s := S512x512) ![0, 0] S512x512.size inb_S512x512_S512x512_0_0
abbrev r3_10 : Rect S1x512 := Rect.unit (s := S1x512) ![0, 0] S1x512.size inb_S1x512_S1x512_0_0
abbrev r3_11 : Rect S1024x128 := Rect.unit (s := S1024x128) ![0, 0] S1024x128.size inb_S1024x128_S1024x128_0_0
abbrev r3_12 : Rect S1024x128 := Rect.unit (s := S1024x128) ![0, 0] S1024x128.size inb_S1024x128_S1024x128_0_0

/-- The first output buffer after the body, from the input blocks: its one store, of the new hidden rows. -/
def out3_11 (x0 : Vec F S1024x128 .f32) (x1 : Vec F S1024x512 .f32) (x2 : Vec F S1024x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  View.canon [⟨r3_11, bodyH3 (View.ld x0 r3_0) (View.ld x1 r3_1) (View.ld x2 r3_2) (View.ld x3 r3_3) (View.ld x4 r3_4) (View.ld x5 r3_5) (View.ld x6 r3_6) (View.ld x7 r3_7) (View.ld x8 r3_8) (View.ld x9 r3_9) (View.ld x10 r3_10)⟩]
/-- The second output buffer after the body: its one store, of the new cell rows. -/
def out3_12 (x0 : Vec F S1024x128 .f32) (x1 : Vec F S1024x512 .f32) (x2 : Vec F S1024x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  View.canon [⟨r3_12, bodyC3 (View.ld x0 r3_0) (View.ld x1 r3_1) (View.ld x2 r3_2) (View.ld x3 r3_3) (View.ld x4 r3_4) (View.ld x5 r3_5) (View.ld x6 r3_6) (View.ld x7 r3_7) (View.ld x8 r3_8) (View.ld x9 r3_9) (View.ld x10 r3_10)⟩]

/-- The one store covers the buffer. -/
theorem cover3_11 (p0 : Vec F S1024x128 .f32) (y : S1024x128.Idx) :
    ∃ pc ∈ ([⟨r3_11, p0⟩] : List (View.Piece (Elt F) S1024x128 .f32)), y ∈ pc.1.set :=
  View.cover_of_tiled [⟨r3_11, p0⟩] S1024x128.size (by rfl) y
theorem cover3_12 (p0 : Vec F S1024x128 .f32) (y : S1024x128.Idx) :
    ∃ pc ∈ ([⟨r3_12, p0⟩] : List (View.Piece (Elt F) S1024x128 .f32)), y ∈ pc.1.set :=
  View.cover_of_tiled [⟨r3_12, p0⟩] S1024x128.size (by rfl) y

set_option maxHeartbeats 4000000 in
/-- The body on whole staging buffers, the inputs' at contents x0 … x10 and the outputs' at anything, runs to the continuation holding
    the inputs' as they were and the outputs' at out3_11, out3_12 of the inputs'. -/
theorem sound_kernel3 (c : Dev nD) (E : Set ℕ) (i : grid3.Coords) (arg1 : Memref sig .tc .vmem S1024x128 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S512x384 .f32) (harg6 : arg6.IsWhole) (arg7 : Memref sig .tc .vmem S1x384 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S1024x128 .f32) (harg12 : arg12.IsWhole) (arg13 : Memref sig .tc .vmem S1024x128 .f32) (harg13 : arg13.IsWhole)
    (x0 : Vec F S1024x128 .f32) (x1 : Vec F S1024x512 .f32) (x2 : Vec F S1024x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out3_11 x0 x1 x2 x3 x4 x5 x6 x7 x8 x9 x10) ∗ owns (c : Thread nD τ) arg13 fullShare (out3_12 x0 x1 x2 x3 x4 x5 x6 x7 x8 x9 x10)) -∗ K ⟨⟩))
      ⊢ wp frame (wpE (defs₀ (F := F)) Variants.none c none) E (cc3_kernel i arg1 harg1 arg2 harg2 arg3 harg3 arg4 harg4 arg5 harg5 arg6 harg6 arg7 harg7 arg8 harg8 arg9 harg9 arg10 harg10 arg11 harg11 arg12 harg12 arg13 harg13) K := by
  simp only [cc3_kernel_eq_skeleton]; unfold cc3_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover3_11 _)
  iexists _; isplitr
  swap; · iexact H12
  ipureintro
  try dsimp only
  exact View.read_writes_eq_canon _ _ _ (cover3_12 _)

/-- The proof data of the region's pipeline on core c: the arrays as the region finds them; after the body at point t each
    input's buffer at its block and each output's at the body's function of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
    | ⟨12, _⟩ => out3_12 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]
theorem after3_12 (c : Dev nD) (t : Fin cfg3.N) : (dat3 V c).after 12 t = out3_12 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t))

/-- The body at any point: the inputs' buffers hold their blocks, so sound_kernel3 applies; the invariant and the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel3 c Set.univ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Region4.lean ====
/-
  Region 4 of the program (the cell applied to one level of the tree, 256 nodes per grid point), at a PARAMETER V: the
  contents of the core's buffers when the region is entered.  Each window's block at a grid point is read off its
  array in V; the body, run on staging buffers holding the eleven input blocks, leaves them as they were and leaves in
  the two output buffers the new hidden rows and the new cell rows of those blocks (bodyH4, bodyC4); with that, the proof
  data of the region's pipeline (its arrays those of V, after the body each input buffer at its block and each output
  buffer at the body's function of the input blocks, nothing owed) meets the pipeline's body obligation at every point.
-/
import proofs.«148344_j70635032150607_1_alg».proof.Proof.Gen.Kernel.Launch
import proofs.«148344_j70635032150607_1_alg».proof.Proof.Gen.Kernel.Skeleton
import proofs.«148344_j70635032150607_1_alg».proof.Proof.Gen.Kernel.Points
import proofs.«148344_j70635032150607_1_alg».proof.Proof.K.Bodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (the index has not moved where it is not fetched). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not (the index has not moved where it is not fetched). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not (the index has not moved where it is not fetched). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not (the index has not moved where it is not fetched). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, fetched there or not (the index has not moved where it is not fetched). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- Input window 5's current staging buffer holds its block at every point, fetched there or not (the index has not moved where it is not fetched). -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
/-- Input window 6's current staging buffer holds its block at every point, fetched there or not (the index has not moved where it is not fetched). -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
/-- Input window 7's current staging buffer holds its block at every point, fetched there or not (the index has not moved where it is not fetched). -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)
/-- Input window 8's current staging buffer holds its block at every point, fetched there or not (the index has not moved where it is not fetched). -/
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)
/-- Input window 9's current staging buffer holds its block at every point, fetched there or not (the index has not moved where it is not fetched). -/
theorem before4_9_of {c : Dev nD} (dat : Dat τ (Elt F) Unit ℕ (UR sig nD τ) ℕ cfg4 c) (hA : dat.A 9 = V c (Pipeline.arrRef spec4 9))
    (hafter : ∀ t, dat.after 9 t = iblk4 V c 9 t) (t : Fin cfg4.N) (d) : dat.before 9 t d = iblk4 V c 9 t :=
  (dat.before_in_eq_fetched 9 rfl (fun _ => rfl) (fun _ _ _ => rfl) (fun t => by rw [hafter]; unfold Dat.blockOf iblk4; rw [hA]; try rfl) t d).trans
    (by unfold Dat.fetched Dat.blockOf iblk4; rw [hA]; try rfl)
/-- Input window 10's current staging buffer holds its block at every point, fetched there or not (the index has not moved where it is not fetched). -/
theorem before4_10_of {c : Dev nD} (dat : Dat τ (Elt F) Unit ℕ (UR sig nD τ) ℕ cfg4 c) (hA : dat.A 10 = V c (Pipeline.arrRef spec4 10))
    (hafter : ∀ t, dat.after 10 t = iblk4 V c 10 t) (t : Fin cfg4.N) (d) : dat.before 10 t d = iblk4 V c 10 t :=
  (dat.before_in_eq_fetched 10 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and store is of a whole buffer -/

abbrev r4_0 : Rect S256x128 := Rect.unit (s := S256x128) ![0, 0] S256x128.size inb_S256x128_S256x128_0_0
abbrev r4_1 : Rect S256x512 := Rect.unit (s := S256x512) ![0, 0] S256x512.size inb_S256x512_S256x512_0_0
abbrev r4_2 : Rect S256x512 := Rect.unit (s := S256x512) ![0, 0] S256x512.size inb_S256x512_S256x512_0_0
abbrev r4_3 : Rect S128x384 := Rect.unit (s := S128x384) ![0, 0] S128x384.size inb_S128x384_S128x384_0_0
abbrev r4_4 : Rect S1x384 := Rect.unit (s := S1x384) ![0, 0] S1x384.size inb_S1x384_S1x384_0_0
abbrev r4_5 : Rect S512x384 := Rect.unit (s := S512x384) ![0, 0] S512x384.size inb_S512x384_S512x384_0_0
abbrev r4_6 : Rect S1x384 := Rect.unit (s := S1x384) ![0, 0] S1x384.size inb_S1x384_S1x384_0_0
abbrev r4_7 : Rect S128x128 := Rect.unit (s := S128x128) ![0, 0] S128x128.size inb_S128x128_S128x128_0_0
abbrev r4_8 : Rect S1x128 := Rect.unit (s := S1x128) ![0, 0] S1x128.size inb_S1x128_S1x128_0_0
abbrev r4_9 : Rect S512x512 := Rect.unit (s := S512x512) ![0, 0] S512x512.size inb_S512x512_S512x512_0_0
abbrev r4_10 : Rect S1x512 := Rect.unit (s := S1x512) ![0, 0] S1x512.size inb_S1x512_S1x512_0_0
abbrev r4_11 : Rect S256x128 := Rect.unit (s := S256x128) ![0, 0] S256x128.size inb_S256x128_S256x128_0_0
abbrev r4_12 : Rect S256x128 := Rect.unit (s := S256x128) ![0, 0] S256x128.size inb_S256x128_S256x128_0_0

/-- The first output buffer after the body, from the input blocks: its one store, of the new hidden rows. -/
def out4_11 (x0 : Vec F S256x128 .f32) (x1 : Vec F S256x512 .f32) (x2 : Vec F S256x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S256x128 .f32 :=
  View.canon [⟨r4_11, bodyH4 (View.ld x0 r4_0) (View.ld x1 r4_1) (View.ld x2 r4_2) (View.ld x3 r4_3) (View.ld x4 r4_4) (View.ld x5 r4_5) (View.ld x6 r4_6) (View.ld x7 r4_7) (View.ld x8 r4_8) (View.ld x9 r4_9) (View.ld x10 r4_10)⟩]
/-- The second output buffer after the body: its one store, of the new cell rows. -/
def out4_12 (x0 : Vec F S256x128 .f32) (x1 : Vec F S256x512 .f32) (x2 : Vec F S256x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S256x128 .f32 :=
  View.canon [⟨r4_12, bodyC4 (View.ld x0 r4_0) (View.ld x1 r4_1) (View.ld x2 r4_2) (View.ld x3 r4_3) (View.ld x4 r4_4) (View.ld x5 r4_5) (View.ld x6 r4_6) (View.ld x7 r4_7) (View.ld x8 r4_8) (View.ld x9 r4_9) (View.ld x10 r4_10)⟩]

/-- The one store covers the buffer. -/
theorem cover4_11 (p0 : Vec F S256x128 .f32) (y : S256x128.Idx) :
    ∃ pc ∈ ([⟨r4_11, p0⟩] : List (View.Piece (Elt F) S256x128 .f32)), y ∈ pc.1.set :=
  View.cover_of_tiled [⟨r4_11, p0⟩] S256x128.size (by rfl) y
theorem cover4_12 (p0 : Vec F S256x128 .f32) (y : S256x128.Idx) :
    ∃ pc ∈ ([⟨r4_12, p0⟩] : List (View.Piece (Elt F) S256x128 .f32)), y ∈ pc.1.set :=
  View.cover_of_tiled [⟨r4_12, p0⟩] S256x128.size (by rfl) y

set_option maxHeartbeats 4000000 in
/-- The body on whole staging buffers, the inputs' at contents x0 … x10 and the outputs' at anything, runs to the continuation holding
    the inputs' as they were and the outputs' at out4_11, out4_12 of the inputs'. -/
theorem sound_kernel4 (c : Dev nD) (E : Set ℕ) (i : grid4.Coords) (arg1 : Memref sig .tc .vmem S256x128 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S512x384 .f32) (harg6 : arg6.IsWhole) (arg7 : Memref sig .tc .vmem S1x384 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S256x128 .f32) (harg12 : arg12.IsWhole) (arg13 : Memref sig .tc .vmem S256x128 .f32) (harg13 : arg13.IsWhole)
    (x0 : Vec F S256x128 .f32) (x1 : Vec F S256x512 .f32) (x2 : Vec F S256x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out4_11 x0 x1 x2 x3 x4 x5 x6 x7 x8 x9 x10) ∗ owns (c : Thread nD τ) arg13 fullShare (out4_12 x0 x1 x2 x3 x4 x5 x6 x7 x8 x9 x10)) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9 arg10 harg10 arg11 harg11 arg12 harg12 arg13 harg13) K := by
  simp only [cc4_kernel_eq_skeleton]; unfold cc4_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover4_11 _)
  iexists _; isplitr
  swap; · iexact H12
  ipureintro
  try dsimp only
  exact View.read_writes_eq_canon _ _ _ (cover4_12 _)

/-- The proof data of the region's pipeline on core c: the arrays as the region finds them; after the body at point t each
    input's buffer at its block and each output's at the body's function of the input blocks; the invariant the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => out4_11 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t)
    | ⟨12, _⟩ => out4_12 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = iblk4 V c 10 t := by dsimp only [dat4]
theorem after4_11 (c : Dev nD) (t : Fin cfg4.N) : (dat4 V c).after 11 t = out4_11 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) := by dsimp only [dat4]
theorem after4_12 (c : Dev nD) (t : Fin cfg4.N) : (dat4 V c).after 12 t = out4_12 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d
theorem before4_9 (c : Dev nD) (t : Fin cfg4.N) (d) : (dat4 V c).before 9 t d = iblk4 V c 9 t :=
  before4_9_of V (dat4 V c) (A_eq4 V c 9) (after4_9 V c) t d
theorem before4_10 (c : Dev nD) (t : Fin cfg4.N) (d) : (dat4 V c).before 10 t d = iblk4 V c 10 t :=
  before4_10_of V (dat4 V c) (A_eq4 V c 10) (after4_10 V c) t d

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d))
    ∗ (∃ d, owns (c : Thread nD τ) (st4_12 t) fullShare ((dat4 V c).before 12 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t)
    ∗ owns (c : Thread nD τ) (st4_12 t) fullShare ((dat4 V c).after 12 t))

/-- The body at any point: the inputs' buffers hold their blocks, so sound_kernel4 applies; the invariant and the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9, before4_10]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11, after4_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel4 c Set.univ _ _ _ _ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Region5.lean ====
/-
  Region 5 of the program (the cell applied to one level of the tree, 64 nodes per grid point), at a PARAMETER V: the
  contents of the core's buffers when the region is entered.  Each window's block at a grid point is read off its
  array in V; the body, run on staging buffers holding the eleven input blocks, leaves them as they were and leaves in
  the two output buffers the new hidden rows and the new cell rows of those blocks (bodyH5, bodyC5); with that, the proof
  data of the region's pipeline (its arrays those of V, after the body each input buffer at its block and each output
  buffer at the body's function of the input blocks, nothing owed) meets the pipeline's body obligation at every point.
-/
import proofs.«148344_j70635032150607_1_alg».proof.Proof.Gen.Kernel.Launch
import proofs.«148344_j70635032150607_1_alg».proof.Proof.Gen.Kernel.Skeleton
import proofs.«148344_j70635032150607_1_alg».proof.Proof.Gen.Kernel.Points
import proofs.«148344_j70635032150607_1_alg».proof.Proof.K.Bodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not (the index has not moved where it is not fetched). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not (the index has not moved where it is not fetched). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not (the index has not moved where it is not fetched). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, fetched there or not (the index has not moved where it is not fetched). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, fetched there or not (the index has not moved where it is not fetched). -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- Input window 5's current staging buffer holds its block at every point, fetched there or not (the index has not moved where it is not fetched). -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
/-- Input window 6's current staging buffer holds its block at every point, fetched there or not (the index has not moved where it is not fetched). -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
/-- Input window 7's current staging buffer holds its block at every point, fetched there or not (the index has not moved where it is not fetched). -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)
/-- Input window 8's current staging buffer holds its block at every point, fetched there or not (the index has not moved where it is not fetched). -/
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)
/-- Input window 9's current staging buffer holds its block at every point, fetched there or not (the index has not moved where it is not fetched). -/
theorem before5_9_of {c : Dev nD} (dat : Dat τ (Elt F) Unit ℕ (UR sig nD τ) ℕ cfg5 c) (hA : dat.A 9 = V c (Pipeline.arrRef spec5 9))
    (hafter : ∀ t, dat.after 9 t = iblk5 V c 9 t) (t : Fin cfg5.N) (d) : dat.before 9 t d = iblk5 V c 9 t :=
  (dat.before_in_eq_fetched 9 rfl (fun _ => rfl) (fun _ _ _ => rfl) (fun t => by rw [hafter]; unfold Dat.blockOf iblk5; rw [hA]; try rfl) t d).trans
    (by unfold Dat.fetched Dat.blockOf iblk5; rw [hA]; try rfl)
/-- Input window 10's current staging buffer holds its block at every point, fetched there or not (the index has not moved where it is not fetched). -/
theorem before5_10_of {c : Dev nD} (dat : Dat τ (Elt F) Unit ℕ (UR sig nD τ) ℕ cfg5 c) (hA : dat.A 10 = V c (Pipeline.arrRef spec5 10))
    (hafter : ∀ t, dat.after 10 t = iblk5 V c 10 t) (t : Fin cfg5.N) (d) : dat.before 10 t d = iblk5 V c 10 t :=
  (dat.before_in_eq_fetched 10 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and store is of a whole buffer -/

abbrev r5_0 : Rect S64x128 := Rect.unit (s := S64x128) ![0, 0] S64x128.size inb_S64x128_S64x128_0_0
abbrev r5_1 : Rect S64x512 := Rect.unit (s := S64x512) ![0, 0] S64x512.size inb_S64x512_S64x512_0_0
abbrev r5_2 : Rect S64x512 := Rect.unit (s := S64x512) ![0, 0] S64x512.size inb_S64x512_S64x512_0_0
abbrev r5_3 : Rect S128x384 := Rect.unit (s := S128x384) ![0, 0] S128x384.size inb_S128x384_S128x384_0_0
abbrev r5_4 : Rect S1x384 := Rect.unit (s := S1x384) ![0, 0] S1x384.size inb_S1x384_S1x384_0_0
abbrev r5_5 : Rect S512x384 := Rect.unit (s := S512x384) ![0, 0] S512x384.size inb_S512x384_S512x384_0_0
abbrev r5_6 : Rect S1x384 := Rect.unit (s := S1x384) ![0, 0] S1x384.size inb_S1x384_S1x384_0_0
abbrev r5_7 : Rect S128x128 := Rect.unit (s := S128x128) ![0, 0] S128x128.size inb_S128x128_S128x128_0_0
abbrev r5_8 : Rect S1x128 := Rect.unit (s := S1x128) ![0, 0] S1x128.size inb_S1x128_S1x128_0_0
abbrev r5_9 : Rect S512x512 := Rect.unit (s := S512x512) ![0, 0] S512x512.size inb_S512x512_S512x512_0_0
abbrev r5_10 : Rect S1x512 := Rect.unit (s := S1x512) ![0, 0] S1x512.size inb_S1x512_S1x512_0_0
abbrev r5_11 : Rect S64x128 := Rect.unit (s := S64x128) ![0, 0] S64x128.size inb_S64x128_S64x128_0_0
abbrev r5_12 : Rect S64x128 := Rect.unit (s := S64x128) ![0, 0] S64x128.size inb_S64x128_S64x128_0_0

/-- The first output buffer after the body, from the input blocks: its one store, of the new hidden rows. -/
def out5_11 (x0 : Vec F S64x128 .f32) (x1 : Vec F S64x512 .f32) (x2 : Vec F S64x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S64x128 .f32 :=
  View.canon [⟨r5_11, bodyH5 (View.ld x0 r5_0) (View.ld x1 r5_1) (View.ld x2 r5_2) (View.ld x3 r5_3) (View.ld x4 r5_4) (View.ld x5 r5_5) (View.ld x6 r5_6) (View.ld x7 r5_7) (View.ld x8 r5_8) (View.ld x9 r5_9) (View.ld x10 r5_10)⟩]
/-- The second output buffer after the body: its one store, of the new cell rows. -/
def out5_12 (x0 : Vec F S64x128 .f32) (x1 : Vec F S64x512 .f32) (x2 : Vec F S64x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S64x128 .f32 :=
  View.canon [⟨r5_12, bodyC5 (View.ld x0 r5_0) (View.ld x1 r5_1) (View.ld x2 r5_2) (View.ld x3 r5_3) (View.ld x4 r5_4) (View.ld x5 r5_5) (View.ld x6 r5_6) (View.ld x7 r5_7) (View.ld x8 r5_8) (View.ld x9 r5_9) (View.ld x10 r5_10)⟩]

/-- The one store covers the buffer. -/
theorem cover5_11 (p0 : Vec F S64x128 .f32) (y : S64x128.Idx) :
    ∃ pc ∈ ([⟨r5_11, p0⟩] : List (View.Piece (Elt F) S64x128 .f32)), y ∈ pc.1.set :=
  View.cover_of_tiled [⟨r5_11, p0⟩] S64x128.size (by rfl) y
theorem cover5_12 (p0 : Vec F S64x128 .f32) (y : S64x128.Idx) :
    ∃ pc ∈ ([⟨r5_12, p0⟩] : List (View.Piece (Elt F) S64x128 .f32)), y ∈ pc.1.set :=
  View.cover_of_tiled [⟨r5_12, p0⟩] S64x128.size (by rfl) y

set_option maxHeartbeats 4000000 in
/-- The body on whole staging buffers, the inputs' at contents x0 … x10 and the outputs' at anything, runs to the continuation holding
    the inputs' as they were and the outputs' at out5_11, out5_12 of the inputs'. -/
theorem sound_kernel5 (c : Dev nD) (E : Set ℕ) (i : grid5.Coords) (arg1 : Memref sig .tc .vmem S64x128 .f32) (harg1 : arg1.IsWhole) (arg2 : Memref sig .tc .vmem S64x512 .f32) (harg2 : arg2.IsWhole) (arg3 : Memref sig .tc .vmem S64x512 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S512x384 .f32) (harg6 : arg6.IsWhole) (arg7 : Memref sig .tc .vmem S1x384 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S64x128 .f32) (harg12 : arg12.IsWhole) (arg13 : Memref sig .tc .vmem S64x128 .f32) (harg13 : arg13.IsWhole)
    (x0 : Vec F S64x128 .f32) (x1 : Vec F S64x512 .f32) (x2 : Vec F S64x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out5_11 x0 x1 x2 x3 x4 x5 x6 x7 x8 x9 x10) ∗ owns (c : Thread nD τ) arg13 fullShare (out5_12 x0 x1 x2 x3 x4 x5 x6 x7 x8 x9 x10)) -∗ K ⟨⟩))
      ⊢ wp frame (wpE (defs₀ (F := F)) Variants.none c none) E (cc5_kernel i arg1 harg1 arg2 harg2 arg3 harg3 arg4 harg4 arg5 harg5 arg6 harg6 arg7 harg7 arg8 harg8 arg9 harg9 arg10 harg10 arg11 harg11 arg12 harg12 arg13 harg13) K := by
  simp only [cc5_kernel_eq_skeleton]; unfold cc5_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover5_11 _)
  iexists _; isplitr
  swap; · iexact H12
  ipureintro
  try dsimp only
  exact View.read_writes_eq_canon _ _ _ (cover5_12 _)

/-- The proof data of the region's pipeline on core c: the arrays as the region finds them; after the body at point t each
    input's buffer at its block and each output's at the body's function of the input blocks; the invariant the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => iblk5 V c 10 t
    | ⟨11, _⟩ => out5_11 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t)
    | ⟨12, _⟩ => out5_12 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = iblk5 V c 10 t := by dsimp only [dat5]
theorem after5_11 (c : Dev nD) (t : Fin cfg5.N) : (dat5 V c).after 11 t = out5_11 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) := by dsimp only [dat5]
theorem after5_12 (c : Dev nD) (t : Fin cfg5.N) : (dat5 V c).after 12 t = out5_12 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d
theorem before5_9 (c : Dev nD) (t : Fin cfg5.N) (d) : (dat5 V c).before 9 t d = iblk5 V c 9 t :=
  before5_9_of V (dat5 V c) (A_eq5 V c 9) (after5_9 V c) t d
theorem before5_10 (c : Dev nD) (t : Fin cfg5.N) (d) : (dat5 V c).before 10 t d = iblk5 V c 10 t :=
  before5_10_of V (dat5 V c) (A_eq5 V c 10) (after5_10 V c) t d

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d))
    ∗ (∃ d, owns (c : Thread nD τ) (st5_11 t) fullShare ((dat5 V c).before 11 t d))
    ∗ (∃ d, owns (c : Thread nD τ) (st5_12 t) fullShare ((dat5 V c).before 12 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t)
    ∗ owns (c : Thread nD τ) (st5_11 t) fullShare ((dat5 V c).after 11 t)
    ∗ owns (c : Thread nD τ) (st5_12 t) fullShare ((dat5 V c).after 12 t))

/-- The body at any point: the inputs' buffers hold their blocks, so sound_kernel5 applies; the invariant and the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8, before5_9, before5_10]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10, after5_11, after5_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel5 c Set.univ _ _ _ _ _ _ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Region6.lean ====
/-
  Region 6 of the program (the cell applied to one level of the tree, 16 nodes per grid point), at a PARAMETER V: the
  contents of the core's buffers when the region is entered.  Each window's block at a grid point is read off its
  array in V; the body, run on staging buffers holding the eleven input blocks, leaves them as they were and leaves in
  the two output buffers the new hidden rows and the new cell rows of those blocks (bodyH6, bodyC6); with that, the proof
  data of the region's pipeline (its arrays those of V, after the body each input buffer at its block and each output
  buffer at the body's function of the input blocks, nothing owed) meets the pipeline's body obligation at every point.
-/
import proofs.«148344_j70635032150607_1_alg».proof.Proof.Gen.Kernel.Launch
import proofs.«148344_j70635032150607_1_alg».proof.Proof.Gen.Kernel.Skeleton
import proofs.«148344_j70635032150607_1_alg».proof.Proof.Gen.Kernel.Points
import proofs.«148344_j70635032150607_1_alg».proof.Proof.K.Bodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not (the index has not moved where it is not fetched). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, fetched there or not (the index has not moved where it is not fetched). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, fetched there or not (the index has not moved where it is not fetched). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3's current staging buffer holds its block at every point, fetched there or not (the index has not moved where it is not fetched). -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- Input window 4's current staging buffer holds its block at every point, fetched there or not (the index has not moved where it is not fetched). -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
/-- Input window 5's current staging buffer holds its block at every point, fetched there or not (the index has not moved where it is not fetched). -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
/-- Input window 6's current staging buffer holds its block at every point, fetched there or not (the index has not moved where it is not fetched). -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)
/-- Input window 7's current staging buffer holds its block at every point, fetched there or not (the index has not moved where it is not fetched). -/
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)
/-- Input window 8's current staging buffer holds its block at every point, fetched there or not (the index has not moved where it is not fetched). -/
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)
/-- Input window 9's current staging buffer holds its block at every point, fetched there or not (the index has not moved where it is not fetched). -/
theorem before6_9_of {c : Dev nD} (dat : Dat τ (Elt F) Unit ℕ (UR sig nD τ) ℕ cfg6 c) (hA : dat.A 9 = V c (Pipeline.arrRef spec6 9))
    (hafter : ∀ t, dat.after 9 t = iblk6 V c 9 t) (t : Fin cfg6.N) (d) : dat.before 9 t d = iblk6 V c 9 t :=
  (dat.before_in_eq_fetched 9 rfl (fun _ => rfl) (fun _ _ _ => rfl) (fun t => by rw [hafter]; unfold Dat.blockOf iblk6; rw [hA]; try rfl) t d).trans
    (by unfold Dat.fetched Dat.blockOf iblk6; rw [hA]; try rfl)
/-- Input window 10's current staging buffer holds its block at every point, fetched there or not (the index has not moved where it is not fetched). -/
theorem before6_10_of {c : Dev nD} (dat : Dat τ (Elt F) Unit ℕ (UR sig nD τ) ℕ cfg6 c) (hA : dat.A 10 = V c (Pipeline.arrRef spec6 10))
    (hafter : ∀ t, dat.after 10 t = iblk6 V c 10 t) (t : Fin cfg6.N) (d) : dat.before 10 t d = iblk6 V c 10 t :=
  (dat.before_in_eq_fetched 10 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and store is of a whole buffer -/

abbrev r6_0 : Rect S16x128 := Rect.unit (s := S16x128) ![0, 0] S16x128.size inb_S16x128_S16x128_0_0
abbrev r6_1 : Rect S16x512 := Rect.unit (s := S16x512) ![0, 0] S16x512.size inb_S16x512_S16x512_0_0
abbrev r6_2 : Rect S16x512 := Rect.unit (s := S16x512) ![0, 0] S16x512.size inb_S16x512_S16x512_0_0
abbrev r6_3 : Rect S128x384 := Rect.unit (s := S128x384) ![0, 0] S128x384.size inb_S128x384_S128x384_0_0
abbrev r6_4 : Rect S1x384 := Rect.unit (s := S1x384) ![0, 0] S1x384.size inb_S1x384_S1x384_0_0
abbrev r6_5 : Rect S512x384 := Rect.unit (s := S512x384) ![0, 0] S512x384.size inb_S512x384_S512x384_0_0
abbrev r6_6 : Rect S1x384 := Rect.unit (s := S1x384) ![0, 0] S1x384.size inb_S1x384_S1x384_0_0
abbrev r6_7 : Rect S128x128 := Rect.unit (s := S128x128) ![0, 0] S128x128.size inb_S128x128_S128x128_0_0
abbrev r6_8 : Rect S1x128 := Rect.unit (s := S1x128) ![0, 0] S1x128.size inb_S1x128_S1x128_0_0
abbrev r6_9 : Rect S512x512 := Rect.unit (s := S512x512) ![0, 0] S512x512.size inb_S512x512_S512x512_0_0
abbrev r6_10 : Rect S1x512 := Rect.unit (s := S1x512) ![0, 0] S1x512.size inb_S1x512_S1x512_0_0
abbrev r6_11 : Rect S16x128 := Rect.unit (s := S16x128) ![0, 0] S16x128.size inb_S16x128_S16x128_0_0
abbrev r6_12 : Rect S16x128 := Rect.unit (s := S16x128) ![0, 0] S16x128.size inb_S16x128_S16x128_0_0

/-- The first output buffer after the body, from the input blocks: its one store, of the new hidden rows. -/
def out6_11 (x0 : Vec F S16x128 .f32) (x1 : Vec F S16x512 .f32) (x2 : Vec F S16x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S16x128 .f32 :=
  View.canon [⟨r6_11, bodyH6 (View.ld x0 r6_0) (View.ld x1 r6_1) (View.ld x2 r6_2) (View.ld x3 r6_3) (View.ld x4 r6_4) (View.ld x5 r6_5) (View.ld x6 r6_6) (View.ld x7 r6_7) (View.ld x8 r6_8) (View.ld x9 r6_9) (View.ld x10 r6_10)⟩]
/-- The second output buffer after the body: its one store, of the new cell rows. -/
def out6_12 (x0 : Vec F S16x128 .f32) (x1 : Vec F S16x512 .f32) (x2 : Vec F S16x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S16x128 .f32 :=
  View.canon [⟨r6_12, bodyC6 (View.ld x0 r6_0) (View.ld x1 r6_1) (View.ld x2 r6_2) (View.ld x3 r6_3) (View.ld x4 r6_4) (View.ld x5 r6_5) (View.ld x6 r6_6) (View.ld x7 r6_7) (View.ld x8 r6_8) (View.ld x9 r6_9) (View.ld x10 r6_10)⟩]

/-- The one store covers the buffer. -/
theorem cover6_11 (p0 : Vec F S16x128 .f32) (y : S16x128.Idx) :
    ∃ pc ∈ ([⟨r6_11, p0⟩] : List (View.Piece (Elt F) S16x128 .f32)), y ∈ pc.1.set :=
  View.cover_of_tiled [⟨r6_11, p0⟩] S16x128.size (by rfl) y
theorem cover6_12 (p0 : Vec F S16x128 .f32) (y : S16x128.Idx) :
    ∃ pc ∈ ([⟨r6_12, p0⟩] : List (View.Piece (Elt F) S16x128 .f32)), y ∈ pc.1.set :=
  View.cover_of_tiled [⟨r6_12, p0⟩] S16x128.size (by rfl) y

set_option maxHeartbeats 4000000 in
/-- The body on whole staging buffers, the inputs' at contents x0 … x10 and the outputs' at anything, runs to the continuation holding
    the inputs' as they were and the outputs' at out6_11, out6_12 of the inputs'. -/
theorem sound_kernel6 (c : Dev nD) (E : Set ℕ) (i : grid6.Coords) (arg1 : Memref sig .tc .vmem S16x128 .f32) (harg1 : arg1.IsWhole) (arg2 : Memref sig .tc .vmem S16x512 .f32) (harg2 : arg2.IsWhole) (arg3 : Memref sig .tc .vmem S16x512 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S512x384 .f32) (harg6 : arg6.IsWhole) (arg7 : Memref sig .tc .vmem S1x384 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S16x128 .f32) (harg12 : arg12.IsWhole) (arg13 : Memref sig .tc .vmem S16x128 .f32) (harg13 : arg13.IsWhole)
    (x0 : Vec F S16x128 .f32) (x1 : Vec F S16x512 .f32) (x2 : Vec F S16x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out6_11 x0 x1 x2 x3 x4 x5 x6 x7 x8 x9 x10) ∗ owns (c : Thread nD τ) arg13 fullShare (out6_12 x0 x1 x2 x3 x4 x5 x6 x7 x8 x9 x10)) -∗ K ⟨⟩))
      ⊢ wp frame (wpE (defs₀ (F := F)) Variants.none c none) E (cc6_kernel i arg1 harg1 arg2 harg2 arg3 harg3 arg4 harg4 arg5 harg5 arg6 harg6 arg7 harg7 arg8 harg8 arg9 harg9 arg10 harg10 arg11 harg11 arg12 harg12 arg13 harg13) K := by
  simp only [cc6_kernel_eq_skeleton]; unfold cc6_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover6_11 _)
  iexists _; isplitr
  swap; · iexact H12
  ipureintro
  try dsimp only
  exact View.read_writes_eq_canon _ _ _ (cover6_12 _)

/-- The proof data of the region's pipeline on core c: the arrays as the region finds them; after the body at point t each
    input's buffer at its block and each output's at the body's function of the input blocks; the invariant the scoped rest and the
    generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => iblk6 V c 9 t
    | ⟨10, _⟩ => iblk6 V c 10 t
    | ⟨11, _⟩ => out6_11 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t)
    | ⟨12, _⟩ => out6_12 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = iblk6 V c 9 t := by dsimp only [dat6]
theorem after6_10 (c : Dev nD) (t : Fin cfg6.N) : (dat6 V c).after 10 t = iblk6 V c 10 t := by dsimp only [dat6]
theorem after6_11 (c : Dev nD) (t : Fin cfg6.N) : (dat6 V c).after 11 t = out6_11 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) := by dsimp only [dat6]
theorem after6_12 (c : Dev nD) (t : Fin cfg6.N) : (dat6 V c).after 12 t = out6_12 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d
theorem before6_8 (c : Dev nD) (t : Fin cfg6.N) (d) : (dat6 V c).before 8 t d = iblk6 V c 8 t :=
  before6_8_of V (dat6 V c) (A_eq6 V c 8) (after6_8 V c) t d
theorem before6_9 (c : Dev nD) (t : Fin cfg6.N) (d) : (dat6 V c).before 9 t d = iblk6 V c 9 t :=
  before6_9_of V (dat6 V c) (A_eq6 V c 9) (after6_9 V c) t d
theorem before6_10 (c : Dev nD) (t : Fin cfg6.N) (d) : (dat6 V c).before 10 t d = iblk6 V c 10 t :=
  before6_10_of V (dat6 V c) (A_eq6 V c 10) (after6_10 V c) t d

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d))
    ∗ (∃ d, owns (c : Thread nD τ) (st6_10 t) fullShare ((dat6 V c).before 10 t d))
    ∗ (∃ d, owns (c : Thread nD τ) (st6_11 t) fullShare ((dat6 V c).before 11 t d))
    ∗ (∃ d, owns (c : Thread nD τ) (st6_12 t) fullShare ((dat6 V c).before 12 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t)
    ∗ owns (c : Thread nD τ) (st6_10 t) fullShare ((dat6 V c).after 10 t)
    ∗ owns (c : Thread nD τ) (st6_11 t) fullShare ((dat6 V c).after 11 t)
    ∗ owns (c : Thread nD τ) (st6_12 t) fullShare ((dat6 V c).after 12 t))

/-- The body at any point: the inputs' buffers hold their blocks, so sound_kernel6 applies; the invariant and the core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8, before6_9, before6_10]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9, after6_10, after6_11, after6_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel6 c Set.univ _ _ _ _ _ _ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Region7.lean ====
/-
  Region 7 of the program (the cell applied to one level of the tree, 4 nodes per grid point), at a PARAMETER V: the
  contents of the core's buffers when the region is entered.  Each window's block at a grid point is read off its
  array in V; the body, run on staging buffers holding the eleven input blocks, leaves them as they were and leaves in
  the two output buffers the new hidden rows and the new cell rows of those blocks (bodyH7, bodyC7); with that, the proof
  data of the region's pipeline (its arrays those of V, after the body each input buffer at its block and each output
  buffer at the body's function of the input blocks, nothing owed) meets the pipeline's body obligation at every point.
-/
import proofs.«148344_j70635032150607_1_alg».proof.Proof.Gen.Kernel.Launch
import proofs.«148344_j70635032150607_1_alg».proof.Proof.Gen.Kernel.Skeleton
import proofs.«148344_j70635032150607_1_alg».proof.Proof.Gen.Kernel.Points
import proofs.«148344_j70635032150607_1_alg».proof.Proof.K.Bodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not (the index has not moved where it is not fetched). -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's current staging buffer holds its block at every point, fetched there or not (the index has not moved where it is not fetched). -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2's current staging buffer holds its block at every point, fetched there or not (the index has not moved where it is not fetched). -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- Input window 3's current staging buffer holds its block at every point, fetched there or not (the index has not moved where it is not fetched). -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- Input window 4's current staging buffer holds its block at every point, fetched there or not (the index has not moved where it is not fetched). -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
/-- Input window 5's current staging buffer holds its block at every point, fetched there or not (the index has not moved where it is not fetched). -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
/-- Input window 6's current staging buffer holds its block at every point, fetched there or not (the index has not moved where it is not fetched). -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)
/-- Input window 7's current staging buffer holds its block at every point, fetched there or not (the index has not moved where it is not fetched). -/
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)
/-- Input window 8's current staging buffer holds its block at every point, fetched there or not (the index has not moved where it is not fetched). -/
theorem before7_8_of {c : Dev nD} (dat : Dat τ (Elt F) Unit ℕ (UR sig nD τ) ℕ cfg7 c) (hA : dat.A 8 = V c (Pipeline.arrRef spec7 8))
    (hafter : ∀ t, dat.after 8 t = iblk7 V c 8 t) (t : Fin cfg7.N) (d) : dat.before 8 t d = iblk7 V c 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)
/-- Input window 9's current staging buffer holds its block at every point, fetched there or not (the index has not moved where it is not fetched). -/
theorem before7_9_of {c : Dev nD} (dat : Dat τ (Elt F) Unit ℕ (UR sig nD τ) ℕ cfg7 c) (hA : dat.A 9 = V c (Pipeline.arrRef spec7 9))
    (hafter : ∀ t, dat.after 9 t = iblk7 V c 9 t) (t : Fin cfg7.N) (d) : dat.before 9 t d = iblk7 V c 9 t :=
  (dat.before_in_eq_fetched 9 rfl (fun _ => rfl) (fun _ _ _ => rfl) (fun t => by rw [hafter]; unfold Dat.blockOf iblk7; rw [hA]; try rfl) t d).trans
    (by unfold Dat.fetched Dat.blockOf iblk7; rw [hA]; try rfl)
/-- Input window 10's current staging buffer holds its block at every point, fetched there or not (the index has not moved where it is not fetched). -/
theorem before7_10_of {c : Dev nD} (dat : Dat τ (Elt F) Unit ℕ (UR sig nD τ) ℕ cfg7 c) (hA : dat.A 10 = V c (Pipeline.arrRef spec7 10))
    (hafter : ∀ t, dat.after 10 t = iblk7 V c 10 t) (t : Fin cfg7.N) (d) : dat.before 10 t d = iblk7 V c 10 t :=
  (dat.before_in_eq_fetched 10 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: every load and store is of a whole buffer -/

abbrev r7_0 : Rect S4x128 := Rect.unit (s := S4x128) ![0, 0] S4x128.size inb_S4x128_S4x128_0_0
abbrev r7_1 : Rect S4x512 := Rect.unit (s := S4x512) ![0, 0] S4x512.size inb_S4x512_S4x512_0_0
abbrev r7_2 : Rect S4x512 := Rect.unit (s := S4x512) ![0, 0] S4x512.size inb_S4x512_S4x512_0_0
abbrev r7_3 : Rect S128x384 := Rect.unit (s := S128x384) ![0, 0] S128x384.size inb_S128x384_S128x384_0_0
abbrev r7_4 : Rect S1x384 := Rect.unit (s := S1x384) ![0, 0] S1x384.size inb_S1x384_S1x384_0_0
abbrev r7_5 : Rect S512x384 := Rect.unit (s := S512x384) ![0, 0] S512x384.size inb_S512x384_S512x384_0_0
abbrev r7_6 : Rect S1x384 := Rect.unit (s := S1x384) ![0, 0] S1x384.size inb_S1x384_S1x384_0_0
abbrev r7_7 : Rect S128x128 := Rect.unit (s := S128x128) ![0, 0] S128x128.size inb_S128x128_S128x128_0_0
abbrev r7_8 : Rect S1x128 := Rect.unit (s := S1x128) ![0, 0] S1x128.size inb_S1x128_S1x128_0_0
abbrev r7_9 : Rect S512x512 := Rect.unit (s := S512x512) ![0, 0] S512x512.size inb_S512x512_S512x512_0_0
abbrev r7_10 : Rect S1x512 := Rect.unit (s := S1x512) ![0, 0] S1x512.size inb_S1x512_S1x512_0_0
abbrev r7_11 : Rect S4x128 := Rect.unit (s := S4x128) ![0, 0] S4x128.size inb_S4x128_S4x128_0_0
abbrev r7_12 : Rect S4x128 := Rect.unit (s := S4x128) ![0, 0] S4x128.size inb_S4x128_S4x128_0_0

/-- The first output buffer after the body, from the input blocks: its one store, of the new hidden rows. -/
def out7_11 (x0 : Vec F S4x128 .f32) (x1 : Vec F S4x512 .f32) (x2 : Vec F S4x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S4x128 .f32 :=
  View.canon [⟨r7_11, bodyH7 (View.ld x0 r7_0) (View.ld x1 r7_1) (View.ld x2 r7_2) (View.ld x3 r7_3) (View.ld x4 r7_4) (View.ld x5 r7_5) (View.ld x6 r7_6) (View.ld x7 r7_7) (View.ld x8 r7_8) (View.ld x9 r7_9) (View.ld x10 r7_10)⟩]
/-- The second output buffer after the body: its one store, of the new cell rows. -/
def out7_12 (x0 : Vec F S4x128 .f32) (x1 : Vec F S4x512 .f32) (x2 : Vec F S4x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S4x128 .f32 :=
  View.canon [⟨r7_12, bodyC7 (View.ld x0 r7_0) (View.ld x1 r7_1) (View.ld x2 r7_2) (View.ld x3 r7_3) (View.ld x4 r7_4) (View.ld x5 r7_5) (View.ld x6 r7_6) (View.ld x7 r7_7) (View.ld x8 r7_8) (View.ld x9 r7_9) (View.ld x10 r7_10)⟩]

/-- The one store covers the buffer. -/
theorem cover7_11 (p0 : Vec F S4x128 .f32) (y : S4x128.Idx) :
    ∃ pc ∈ ([⟨r7_11, p0⟩] : List (View.Piece (Elt F) S4x128 .f32)), y ∈ pc.1.set :=
  View.cover_of_tiled [⟨r7_11, p0⟩] S4x128.size (by rfl) y
theorem cover7_12 (p0 : Vec F S4x128 .f32) (y : S4x128.Idx) :
    ∃ pc ∈ ([⟨r7_12, p0⟩] : List (View.Piece (Elt F) S4x128 .f32)), y ∈ pc.1.set :=
  View.cover_of_tiled [⟨r7_12, p0⟩] S4x128.size (by rfl) y

set_option maxHeartbeats 4000000 in
/-- The body on whole staging buffers, the inputs' at contents x0 … x10 and the outputs' at anything, runs to the continuation holding
    the inputs' as they were and the outputs' at out7_11, out7_12 of the inputs'. -/
theorem sound_kernel7 (c : Dev nD) (E : Set ℕ) (i : grid7.Coords) (arg1 : Memref sig .tc .vmem S4x128 .f32) (harg1 : arg1.IsWhole) (arg2 : Memref sig .tc .vmem S4x512 .f32) (harg2 : arg2.IsWhole) (arg3 : Memref sig .tc .vmem S4x512 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S512x384 .f32) (harg6 : arg6.IsWhole) (arg7 : Memref sig .tc .vmem S1x384 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S4x128 .f32) (harg12 : arg12.IsWhole) (arg13 : Memref sig .tc .vmem S4x128 .f32) (harg13 : arg13.IsWhole)
    (x0 : Vec F S4x128 .f32) (x1 : Vec F S4x512 .f32) (x2 : Vec F S4x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out7_11 x0 x1 x2 x3 x4 x5 x6 x7 x8 x9 x10) ∗ owns (c : Thread nD τ) arg13 fullShare (out7_12 x0 x1 x2 x3 x4 x5 x6 x7 x8 x9 x10)) -∗ K ⟨⟩))
      ⊢ wp frame (wpE (defs₀ (F := F)) Variants.none c none) E (cc7_kernel i arg1 harg1 arg2 harg2 arg3 harg3 arg4 harg4 arg5 harg5 arg6 harg6 arg7 harg7 arg8 harg8 arg9 harg9 arg10 harg10 arg11 harg11 arg12 harg12 arg13 harg13) K := by
  simp only [cc7_kernel_eq_skeleton]; unfold cc7_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover7_11 _)
  iexists _; isplitr
  swap; · iexact H12
  ipureintro
  try dsimp only
  exact View.read_writes_eq_canon _ _ _ (cover7_12 _)

/-- The proof data of the region's pipeline on core c: the arrays as the region finds them; after the body at point t each
    input's buffer at its block and each output's at the body's function of the input blocks; the invariant the scoped rest and the
    generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => iblk7 V c 9 t
    | ⟨10, _⟩ => iblk7 V c 10 t
    | ⟨11, _⟩ => out7_11 (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t)
    | ⟨12, _⟩ => out7_12 (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) : (dat7 V c).after 9 t = iblk7 V c 9 t := by dsimp only [dat7]
theorem after7_10 (c : Dev nD) (t : Fin cfg7.N) : (dat7 V c).after 10 t = iblk7 V c 10 t := by dsimp only [dat7]
theorem after7_11 (c : Dev nD) (t : Fin cfg7.N) : (dat7 V c).after 11 t = out7_11 (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) := by dsimp only [dat7]
theorem after7_12 (c : Dev nD) (t : Fin cfg7.N) : (dat7 V c).after 12 t = out7_12 (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d
theorem before7_8 (c : Dev nD) (t : Fin cfg7.N) (d) : (dat7 V c).before 8 t d = iblk7 V c 8 t :=
  before7_8_of V (dat7 V c) (A_eq7 V c 8) (after7_8 V c) t d
theorem before7_9 (c : Dev nD) (t : Fin cfg7.N) (d) : (dat7 V c).before 9 t d = iblk7 V c 9 t :=
  before7_9_of V (dat7 V c) (A_eq7 V c 9) (after7_9 V c) t d
theorem before7_10 (c : Dev nD) (t : Fin cfg7.N) (d) : (dat7 V c).before 10 t d = iblk7 V c 10 t :=
  before7_10_of V (dat7 V c) (A_eq7 V c 10) (after7_10 V c) t d

/-- What the body is called with at point t, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d))
    ∗ (∃ d, owns (c : Thread nD τ) (st7_10 t) fullShare ((dat7 V c).before 10 t d))
    ∗ (∃ d, owns (c : Thread nD τ) (st7_11 t) fullShare ((dat7 V c).before 11 t d))
    ∗ (∃ d, owns (c : Thread nD τ) (st7_12 t) fullShare ((dat7 V c).before 12 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ owns (c : Thread nD τ) (st7_9 t) fullShare ((dat7 V c).after 9 t)
    ∗ owns (c : Thread nD τ) (st7_10 t) fullShare ((dat7 V c).after 10 t)
    ∗ owns (c : Thread nD τ) (st7_11 t) fullShare ((dat7 V c).after 11 t)
    ∗ owns (c : Thread nD τ) (st7_12 t) fullShare ((dat7 V c).after 12 t))

/-- The body at any point: the inputs' buffers hold their blocks, so sound_kernel7 applies; the invariant and the core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8, before7_9, before7_10]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9, after7_10, after7_11, after7_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel7 c Set.univ _ _ _ _ _ _ _ _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.Region8.lean ====
/-
  Region 8 of the program (the cell applied to one level of the tree, 1 nodes per grid point), at a PARAMETER V: the
  contents of the core's buffers when the region is entered.  Each window's block at a grid point is read off its
  array in V; the body, run on staging buffers holding the eleven input blocks, leaves them as they were and leaves in
  the two output buffers the new hidden rows and the new cell rows of those blocks (bodyH8, bodyC8); with that, the proof
  data of the region's pipeline (its arrays those of V, after the body each input buffer at its block and each output
  buffer at the body's function of the input blocks, nothing owed) meets the pipeline's body obligation at every point.
-/
import proofs.«148344_j70635032150607_1_alg».proof.Proof.Gen.Kernel.Launch
import proofs.«148344_j70635032150607_1_alg».proof.Proof.Gen.Kernel.Skeleton
import proofs.«148344_j70635032150607_1_alg».proof.Proof.Gen.Kernel.Points
import proofs.«148344_j70635032150607_1_alg».proof.Proof.K.Bodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not (the index has not moved where it is not fetched). -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1's current staging buffer holds its block at every point, fetched there or not (the index has not moved where it is not fetched). -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2's current staging buffer holds its block at every point, fetched there or not (the index has not moved where it is not fetched). -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
/-- Input window 3's current staging buffer holds its block at every point, fetched there or not (the index has not moved where it is not fetched). -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
/-- Input window 4's current staging buffer holds its block at every point, fetched there or not (the index has not moved where it is not fetched). -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
/-- Input window 5's current staging buffer holds its block at every point, fetched there or not (the index has not moved where it is not fetched). -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)
/-- Input window 6's current staging buffer holds its block at every point, fetched there or not (the index has not moved where it is not fetched). -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)
/-- Input window 7's current staging buffer holds its block at every point, fetched there or not (the index has not moved where it is not fetched). -/
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)
/-- Input window 8's current staging buffer holds its block at every point, fetched there or not (the index has not moved where it is not fetched). -/
theorem before8_8_of {c : Dev nD} (dat : Dat τ (Elt F) Unit ℕ (UR sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)
/-- Input window 9's current staging buffer holds its block at every point, fetched there or not (the index has not moved where it is not fetched). -/
theorem before8_9_of {c : Dev nD} (dat : Dat τ (Elt F) Unit ℕ (UR sig nD τ) ℕ cfg8 c) (hA : dat.A 9 = V c (Pipeline.arrRef spec8 9))
    (hafter : ∀ t, dat.after 9 t = iblk8 V c 9 t) (t : Fin cfg8.N) (d) : dat.before 9 t d = iblk8 V c 9 t :=
  (dat.before_in_eq_fetched 9 rfl (fun _ => rfl) (fun _ _ _ => rfl) (fun t => by rw [hafter]; unfold Dat.blockOf iblk8; rw [hA]; try rfl) t d).trans
    (by unfold Dat.fetched Dat.blockOf iblk8; rw [hA]; try rfl)
/-- Input window 10's current staging buffer holds its block at every point, fetched there or not (the index has not moved where it is not fetched). -/
theorem before8_10_of {c : Dev nD} (dat : Dat τ (Elt F) Unit ℕ (UR sig nD τ) ℕ cfg8 c) (hA : dat.A 10 = V c (Pipeline.arrRef spec8 10))
    (hafter : ∀ t, dat.after 10 t = iblk8 V c 10 t) (t : Fin cfg8.N) (d) : dat.before 10 t d = iblk8 V c 10 t :=
  (dat.before_in_eq_fetched 10 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: every load and store is of a whole buffer -/

abbrev r8_0 : Rect S1x128 := Rect.unit (s := S1x128) ![0, 0] S1x128.size inb_S1x128_S1x128_0_0
abbrev r8_1 : Rect S1x512 := Rect.unit (s := S1x512) ![0, 0] S1x512.size inb_S1x512_S1x512_0_0
abbrev r8_2 : Rect S1x512 := Rect.unit (s := S1x512) ![0, 0] S1x512.size inb_S1x512_S1x512_0_0
abbrev r8_3 : Rect S128x384 := Rect.unit (s := S128x384) ![0, 0] S128x384.size inb_S128x384_S128x384_0_0
abbrev r8_4 : Rect S1x384 := Rect.unit (s := S1x384) ![0, 0] S1x384.size inb_S1x384_S1x384_0_0
abbrev r8_5 : Rect S512x384 := Rect.unit (s := S512x384) ![0, 0] S512x384.size inb_S512x384_S512x384_0_0
abbrev r8_6 : Rect S1x384 := Rect.unit (s := S1x384) ![0, 0] S1x384.size inb_S1x384_S1x384_0_0
abbrev r8_7 : Rect S128x128 := Rect.unit (s := S128x128) ![0, 0] S128x128.size inb_S128x128_S128x128_0_0
abbrev r8_8 : Rect S1x128 := Rect.unit (s := S1x128) ![0, 0] S1x128.size inb_S1x128_S1x128_0_0
abbrev r8_9 : Rect S512x512 := Rect.unit (s := S512x512) ![0, 0] S512x512.size inb_S512x512_S512x512_0_0
abbrev r8_10 : Rect S1x512 := Rect.unit (s := S1x512) ![0, 0] S1x512.size inb_S1x512_S1x512_0_0
abbrev r8_11 : Rect S1x128 := Rect.unit (s := S1x128) ![0, 0] S1x128.size inb_S1x128_S1x128_0_0
abbrev r8_12 : Rect S1x128 := Rect.unit (s := S1x128) ![0, 0] S1x128.size inb_S1x128_S1x128_0_0

/-- The first output buffer after the body, from the input blocks: its one store, of the new hidden rows. -/
def out8_11 (x0 : Vec F S1x128 .f32) (x1 : Vec F S1x512 .f32) (x2 : Vec F S1x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1x128 .f32 :=
  View.canon [⟨r8_11, bodyH8 (View.ld x0 r8_0) (View.ld x1 r8_1) (View.ld x2 r8_2) (View.ld x3 r8_3) (View.ld x4 r8_4) (View.ld x5 r8_5) (View.ld x6 r8_6) (View.ld x7 r8_7) (View.ld x8 r8_8) (View.ld x9 r8_9) (View.ld x10 r8_10)⟩]
/-- The second output buffer after the body: its one store, of the new cell rows. -/
def out8_12 (x0 : Vec F S1x128 .f32) (x1 : Vec F S1x512 .f32) (x2 : Vec F S1x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1x128 .f32 :=
  View.canon [⟨r8_12, bodyC8 (View.ld x0 r8_0) (View.ld x1 r8_1) (View.ld x2 r8_2) (View.ld x3 r8_3) (View.ld x4 r8_4) (View.ld x5 r8_5) (View.ld x6 r8_6) (View.ld x7 r8_7) (View.ld x8 r8_8) (View.ld x9 r8_9) (View.ld x10 r8_10)⟩]

/-- The one store covers the buffer. -/
theorem cover8_11 (p0 : Vec F S1x128 .f32) (y : S1x128.Idx) :
    ∃ pc ∈ ([⟨r8_11, p0⟩] : List (View.Piece (Elt F) S1x128 .f32)), y ∈ pc.1.set :=
  View.cover_of_tiled [⟨r8_11, p0⟩] S1x128.size (by rfl) y
theorem cover8_12 (p0 : Vec F S1x128 .f32) (y : S1x128.Idx) :
    ∃ pc ∈ ([⟨r8_12, p0⟩] : List (View.Piece (Elt F) S1x128 .f32)), y ∈ pc.1.set :=
  View.cover_of_tiled [⟨r8_12, p0⟩] S1x128.size (by rfl) y

set_option maxHeartbeats 4000000 in
/-- The body on whole staging buffers, the inputs' at contents x0 … x10 and the outputs' at anything, runs to the continuation holding
    the inputs' as they were and the outputs' at out8_11, out8_12 of the inputs'. -/
theorem sound_kernel8 (c : Dev nD) (E : Set ℕ) (i : grid8.Coords) (arg1 : Memref sig .tc .vmem S1x128 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S512x384 .f32) (harg6 : arg6.IsWhole) (arg7 : Memref sig .tc .vmem S1x384 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S1x128 .f32) (harg12 : arg12.IsWhole) (arg13 : Memref sig .tc .vmem S1x128 .f32) (harg13 : arg13.IsWhole)
    (x0 : Vec F S1x128 .f32) (x1 : Vec F S1x512 .f32) (x2 : Vec F S1x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out8_11 x0 x1 x2 x3 x4 x5 x6 x7 x8 x9 x10) ∗ owns (c : Thread nD τ) arg13 fullShare (out8_12 x0 x1 x2 x3 x4 x5 x6 x7 x8 x9 x10)) -∗ K ⟨⟩))
      ⊢ wp frame (wpE (defs₀ (F := F)) Variants.none c none) E (cc8_kernel i arg1 harg1 arg2 harg2 arg3 harg3 arg4 harg4 arg5 harg5 arg6 harg6 arg7 harg7 arg8 harg8 arg9 harg9 arg10 harg10 arg11 harg11 arg12 harg12 arg13 harg13) K := by
  simp only [cc8_kernel_eq_skeleton]; unfold cc8_kernel_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover8_11 _)
  iexists _; isplitr
  swap; · iexact H12
  ipureintro
  try dsimp only
  exact View.read_writes_eq_canon _ _ _ (cover8_12 _)

/-- The proof data of the region's pipeline on core c: the arrays as the region finds them; after the body at point t each
    input's buffer at its block and each output's at the body's function of the input blocks; the invariant the scoped rest and the
    generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => iblk8 V c 9 t
    | ⟨10, _⟩ => iblk8 V c 10 t
    | ⟨11, _⟩ => out8_11 (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t)
    | ⟨12, _⟩ => out8_12 (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t = iblk8 V c 9 t := by dsimp only [dat8]
theorem after8_10 (c : Dev nD) (t : Fin cfg8.N) : (dat8 V c).after 10 t = iblk8 V c 10 t := by dsimp only [dat8]
theorem after8_11 (c : Dev nD) (t : Fin cfg8.N) : (dat8 V c).after 11 t = out8_11 (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) := by dsimp only [dat8]
theorem after8_12 (c : Dev nD) (t : Fin cfg8.N) : (dat8 V c).after 12 t = out8_12 (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d
theorem before8_8 (c : Dev nD) (t : Fin cfg8.N) (d) : (dat8 V c).before 8 t d = iblk8 V c 8 t :=
  before8_8_of V (dat8 V c) (A_eq8 V c 8) (after8_8 V c) t d
theorem before8_9 (c : Dev nD) (t : Fin cfg8.N) (d) : (dat8 V c).before 9 t d = iblk8 V c 9 t :=
  before8_9_of V (dat8 V c) (A_eq8 V c 9) (after8_9 V c) t d
theorem before8_10 (c : Dev nD) (t : Fin cfg8.N) (d) : (dat8 V c).before 10 t d = iblk8 V c 10 t :=
  before8_10_of V (dat8 V c) (A_eq8 V c 10) (after8_10 V c) t d

/-- What the body is called with at point t, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d))
    ∗ (∃ d, owns (c : Thread nD τ) (st8_10 t) fullShare ((dat8 V c).before 10 t d))
    ∗ (∃ d, owns (c : Thread nD τ) (st8_11 t) fullShare ((dat8 V c).before 11 t d))
    ∗ (∃ d, owns (c : Thread nD τ) (st8_12 t) fullShare ((dat8 V c).before 12 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t)
    ∗ owns (c : Thread nD τ) (st8_10 t) fullShare ((dat8 V c).after 10 t)
    ∗ owns (c : Thread nD τ) (st8_11 t) fullShare ((dat8 V c).after 11 t)
    ∗ owns (c : Thread nD τ) (st8_12 t) fullShare ((dat8 V c).after 12 t))

/-- The body at any point: the inputs' buffers hold their blocks, so sound_kernel8 applies; the invariant and the core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7, before8_8, before8_9, before8_10]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9, after8_10, after8_11, after8_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel8 c Set.univ _ _ _ _ _ _ _ _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.Run.lean ====
/-
  The whole run of the program: @main is ten stretches of host operations with the nine kernel regions between them.
  The contents of the core's buffers at each of the twenty boundaries are a fold from the launch memory: after a stretch,
  its operations applied; after a region, its arrays at what its pipeline leaves (the inputs as entered, each output the
  blocks the grid points wrote back) and every other buffer as entered.  Every weakly fair execution from any memory with
  zero counters terminates, nothing faulting, with every unscoped buffer at the last boundary's contents (run_all).
-/
import proofs.«148344_j70635032150607_1_alg».proof.Proof.Gen.Kernel.Regions
import proofs.«148344_j70635032150607_1_alg».proof.Proof.K.Region0
import proofs.«148344_j70635032150607_1_alg».proof.Proof.K.Region1
import proofs.«148344_j70635032150607_1_alg».proof.Proof.K.Region2
import proofs.«148344_j70635032150607_1_alg».proof.Proof.K.Region3
import proofs.«148344_j70635032150607_1_alg».proof.Proof.K.Region4
import proofs.«148344_j70635032150607_1_alg».proof.Proof.K.Region5
import proofs.«148344_j70635032150607_1_alg».proof.Proof.K.Region6
import proofs.«148344_j70635032150607_1_alg».proof.Proof.K.Region7
import proofs.«148344_j70635032150607_1_alg».proof.Proof.K.Region8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the stretch hostOps0 (region 0's entry). -/
abbrev W1 : Dev nD → Valuation τ sig (Elt F) := fun c => StableHlo.after hostOps0 (W0 m ρ c)
/-- The same read at the TensorCore's references. -/
abbrev E1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An array the region only reads is as it was entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (E1 m ρ) c).arrAt_in w hin _).trans (A_eq0 (E1 m ρ) c w))
/-- A buffer the stretch hostOps0 does not write is as before it. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- After the stretch hostOps1 (region 1's entry). -/
abbrev W3 : Dev nD → Valuation τ sig (Elt F) := fun c => StableHlo.after hostOps1 (W2 m ρ c)
/-- The same read at the TensorCore's references. -/
abbrev E3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An array the region only reads is as it was entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (E3 m ρ) c).arrAt_in w hin _).trans (A_eq1 (E3 m ρ) c w))
/-- A buffer the stretch hostOps1 does not write is as before it. -/
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h
abbrev E4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = E4 m ρ c (Pipeline.arrRef spec1 w) :=
  (W4_arr m ρ c w).symm
theorem hrest1 (c : Dev nD) : ∀ b, b ∉ Finset.univ.image (Pipeline.arrRef spec1) → E4 m ρ c b = E3 m ρ c b :=
  fun b hb => W4_of_ne m ρ c b fun w e => hb (Finset.mem_image.mpr ⟨w, Finset.mem_univ _, e⟩)

/-- After the stretch hostOps2 (region 2's entry). -/
abbrev W5 : Dev nD → Valuation τ sig (Elt F) := fun c => StableHlo.after hostOps2 (W4 m ρ c)
/-- The same read at the TensorCore's references. -/
abbrev E5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (E5 m ρ) c).arrAt w cfg2.N
theorem W6_arr (c : Dev nD) (w : Fin cfg2.W) :
    W6 m ρ c (Proc.devRef .tc (Pipeline.arrRef spec2 w)) = (dat2 (E5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An array the region only reads is as it was entered. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (E5 m ρ) c).arrAt_in w hin _).trans (A_eq2 (E5 m ρ) c w))
/-- A buffer the stretch hostOps2 does not write is as before it. -/
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h
abbrev E6 : (c : Dev nD) → (b : Ref sig .tc) → Buf (Elt F) ((c : Thread nD τ).loc b) := fun c b => W6 m ρ c b
theorem hF2 (c : Dev nD) (w : Fin cfg2.W) : (dat2 (E5 m ρ) c).arrAt w cfg2.N = E6 m ρ c (Pipeline.arrRef spec2 w) :=
  (W6_arr m ρ c w).symm
theorem hrest2 (c : Dev nD) : ∀ b, b ∉ Finset.univ.image (Pipeline.arrRef spec2) → E6 m ρ c b = E5 m ρ c b :=
  fun b hb => W6_of_ne m ρ c b fun w e => hb (Finset.mem_image.mpr ⟨w, Finset.mem_univ _, e⟩)

/-- After the stretch hostOps3 (region 3's entry). -/
abbrev W7 : Dev nD → Valuation τ sig (Elt F) := fun c => StableHlo.after hostOps3 (W6 m ρ c)
/-- The same read at the TensorCore's references. -/
abbrev E7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (E7 m ρ) c).arrAt w cfg3.N
theorem W8_arr (c : Dev nD) (w : Fin cfg3.W) :
    W8 m ρ c (Proc.devRef .tc (Pipeline.arrRef spec3 w)) = (dat3 (E7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- An array the region only reads is as it was entered. -/
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (E7 m ρ) c).arrAt_in w hin _).trans (A_eq3 (E7 m ρ) c w))
/-- A buffer the stretch hostOps3 does not write is as before it. -/
theorem W7_keep (c : Dev nD) (r : Ref sig .tc) (h : r ∉ hostOps3_W) :
    W7 m ρ c (Proc.devRef .tc r) = W6 m ρ c (Proc.devRef .tc r) :=
  StableHlo.after_of_writes_sub hostOps3 _ hostOps3_writes h
abbrev E8 : (c : Dev nD) → (b : Ref sig .tc) → Buf (Elt F) ((c : Thread nD τ).loc b) := fun c b => W8 m ρ c b
theorem hF3 (c : Dev nD) (w : Fin cfg3.W) : (dat3 (E7 m ρ) c).arrAt w cfg3.N = E8 m ρ c (Pipeline.arrRef spec3 w) :=
  (W8_arr m ρ c w).symm
theorem hrest3 (c : Dev nD) : ∀ b, b ∉ Finset.univ.image (Pipeline.arrRef spec3) → E8 m ρ c b = E7 m ρ c b :=
  fun b hb => W8_of_ne m ρ c b fun w e => hb (Finset.mem_image.mpr ⟨w, Finset.mem_univ _, e⟩)

/-- After the stretch hostOps4 (region 4's entry). -/
abbrev W9 : Dev nD → Valuation τ sig (Elt F) := fun c => StableHlo.after hostOps4 (W8 m ρ c)
/-- The same read at the TensorCore's references. -/
abbrev E9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (E9 m ρ) c).arrAt w cfg4.N
theorem W10_arr (c : Dev nD) (w : Fin cfg4.W) :
    W10 m ρ c (Proc.devRef .tc (Pipeline.arrRef spec4 w)) = (dat4 (E9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- An array the region only reads is as it was entered. -/
theorem W10_in (c : Dev nD) (w : Fin cfg4.W) (hin : (cfg4.win w).isOut = false) :
    W10 m ρ c (Proc.devRef .tc (Pipeline.arrRef spec4 w)) = W9 m ρ c (Proc.devRef .tc (Pipeline.arrRef spec4 w)) :=
  (W10_arr m ρ c w).trans (((dat4 (E9 m ρ) c).arrAt_in w hin _).trans (A_eq4 (E9 m ρ) c w))
/-- A buffer the stretch hostOps4 does not write is as before it. -/
theorem W9_keep (c : Dev nD) (r : Ref sig .tc) (h : r ∉ hostOps4_W) :
    W9 m ρ c (Proc.devRef .tc r) = W8 m ρ c (Proc.devRef .tc r) :=
  StableHlo.after_of_writes_sub hostOps4 _ hostOps4_writes h
abbrev E10 : (c : Dev nD) → (b : Ref sig .tc) → Buf (Elt F) ((c : Thread nD τ).loc b) := fun c b => W10 m ρ c b
theorem hF4 (c : Dev nD) (w : Fin cfg4.W) : (dat4 (E9 m ρ) c).arrAt w cfg4.N = E10 m ρ c (Pipeline.arrRef spec4 w) :=
  (W10_arr m ρ c w).symm
theorem hrest4 (c : Dev nD) : ∀ b, b ∉ Finset.univ.image (Pipeline.arrRef spec4) → E10 m ρ c b = E9 m ρ c b :=
  fun b hb => W10_of_ne m ρ c b fun w e => hb (Finset.mem_image.mpr ⟨w, Finset.mem_univ _, e⟩)

/-- After the stretch hostOps5 (region 5's entry). -/
abbrev W11 : Dev nD → Valuation τ sig (Elt F) := fun c => StableHlo.after hostOps5 (W10 m ρ c)
/-- The same read at the TensorCore's references. -/
abbrev E11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (E11 m ρ) c).arrAt w cfg5.N
theorem W12_arr (c : Dev nD) (w : Fin cfg5.W) :
    W12 m ρ c (Proc.devRef .tc (Pipeline.arrRef spec5 w)) = (dat5 (E11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- An array the region only reads is as it was entered. -/
theorem W12_in (c : Dev nD) (w : Fin cfg5.W) (hin : (cfg5.win w).isOut = false) :
    W12 m ρ c (Proc.devRef .tc (Pipeline.arrRef spec5 w)) = W11 m ρ c (Proc.devRef .tc (Pipeline.arrRef spec5 w)) :=
  (W12_arr m ρ c w).trans (((dat5 (E11 m ρ) c).arrAt_in w hin _).trans (A_eq5 (E11 m ρ) c w))
/-- A buffer the stretch hostOps5 does not write is as before it. -/
theorem W11_keep (c : Dev nD) (r : Ref sig .tc) (h : r ∉ hostOps5_W) :
    W11 m ρ c (Proc.devRef .tc r) = W10 m ρ c (Proc.devRef .tc r) :=
  StableHlo.after_of_writes_sub hostOps5 _ hostOps5_writes h
abbrev E12 : (c : Dev nD) → (b : Ref sig .tc) → Buf (Elt F) ((c : Thread nD τ).loc b) := fun c b => W12 m ρ c b
theorem hF5 (c : Dev nD) (w : Fin cfg5.W) : (dat5 (E11 m ρ) c).arrAt w cfg5.N = E12 m ρ c (Pipeline.arrRef spec5 w) :=
  (W12_arr m ρ c w).symm
theorem hrest5 (c : Dev nD) : ∀ b, b ∉ Finset.univ.image (Pipeline.arrRef spec5) → E12 m ρ c b = E11 m ρ c b :=
  fun b hb => W12_of_ne m ρ c b fun w e => hb (Finset.mem_image.mpr ⟨w, Finset.mem_univ _, e⟩)

/-- After the stretch hostOps6 (region 6's entry). -/
abbrev W13 : Dev nD → Valuation τ sig (Elt F) := fun c => StableHlo.after hostOps6 (W12 m ρ c)
/-- The same read at the TensorCore's references. -/
abbrev E13 : (c : Dev nD) → (b : Ref sig .tc) → Buf (Elt F) ((c : Thread nD τ).loc b) := fun c b => W13 m ρ c b
/-- At region 6's exit: its arrays at what the pipeline leaves, every other buffer as entered. -/
def W14 (c : Dev nD) : Valuation τ sig (Elt F) :=
  Pipeline.withArrays spec6 c (W13 m ρ c) fun w => (dat6 (E13 m ρ) c).arrAt w cfg6.N
theorem W14_arr (c : Dev nD) (w : Fin cfg6.W) :
    W14 m ρ c (Proc.devRef .tc (Pipeline.arrRef spec6 w)) = (dat6 (E13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- An array the region only reads is as it was entered. -/
theorem W14_in (c : Dev nD) (w : Fin cfg6.W) (hin : (cfg6.win w).isOut = false) :
    W14 m ρ c (Proc.devRef .tc (Pipeline.arrRef spec6 w)) = W13 m ρ c (Proc.devRef .tc (Pipeline.arrRef spec6 w)) :=
  (W14_arr m ρ c w).trans (((dat6 (E13 m ρ) c).arrAt_in w hin _).trans (A_eq6 (E13 m ρ) c w))
/-- A buffer the stretch hostOps6 does not write is as before it. -/
theorem W13_keep (c : Dev nD) (r : Ref sig .tc) (h : r ∉ hostOps6_W) :
    W13 m ρ c (Proc.devRef .tc r) = W12 m ρ c (Proc.devRef .tc r) :=
  StableHlo.after_of_writes_sub hostOps6 _ hostOps6_writes h
abbrev E14 : (c : Dev nD) → (b : Ref sig .tc) → Buf (Elt F) ((c : Thread nD τ).loc b) := fun c b => W14 m ρ c b
theorem hF6 (c : Dev nD) (w : Fin cfg6.W) : (dat6 (E13 m ρ) c).arrAt w cfg6.N = E14 m ρ c (Pipeline.arrRef spec6 w) :=
  (W14_arr m ρ c w).symm
theorem hrest6 (c : Dev nD) : ∀ b, b ∉ Finset.univ.image (Pipeline.arrRef spec6) → E14 m ρ c b = E13 m ρ c b :=
  fun b hb => W14_of_ne m ρ c b fun w e => hb (Finset.mem_image.mpr ⟨w, Finset.mem_univ _, e⟩)

/-- After the stretch hostOps7 (region 7's entry). -/
abbrev W15 : Dev nD → Valuation τ sig (Elt F) := fun c => StableHlo.after hostOps7 (W14 m ρ c)
/-- The same read at the TensorCore's references. -/
abbrev E15 : (c : Dev nD) → (b : Ref sig .tc) → Buf (Elt F) ((c : Thread nD τ).loc b) := fun c b => W15 m ρ c b
/-- At region 7's exit: its arrays at what the pipeline leaves, every other buffer as entered. -/
def W16 (c : Dev nD) : Valuation τ sig (Elt F) :=
  Pipeline.withArrays spec7 c (W15 m ρ c) fun w => (dat7 (E15 m ρ) c).arrAt w cfg7.N
theorem W16_arr (c : Dev nD) (w : Fin cfg7.W) :
    W16 m ρ c (Proc.devRef .tc (Pipeline.arrRef spec7 w)) = (dat7 (E15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- An array the region only reads is as it was entered. -/
theorem W16_in (c : Dev nD) (w : Fin cfg7.W) (hin : (cfg7.win w).isOut = false) :
    W16 m ρ c (Proc.devRef .tc (Pipeline.arrRef spec7 w)) = W15 m ρ c (Proc.devRef .tc (Pipeline.arrRef spec7 w)) :=
  (W16_arr m ρ c w).trans (((dat7 (E15 m ρ) c).arrAt_in w hin _).trans (A_eq7 (E15 m ρ) c w))
/-- A buffer the stretch hostOps7 does not write is as before it. -/
theorem W15_keep (c : Dev nD) (r : Ref sig .tc) (h : r ∉ hostOps7_W) :
    W15 m ρ c (Proc.devRef .tc r) = W14 m ρ c (Proc.devRef .tc r) :=
  StableHlo.after_of_writes_sub hostOps7 _ hostOps7_writes h
abbrev E16 : (c : Dev nD) → (b : Ref sig .tc) → Buf (Elt F) ((c : Thread nD τ).loc b) := fun c b => W16 m ρ c b
theorem hF7 (c : Dev nD) (w : Fin cfg7.W) : (dat7 (E15 m ρ) c).arrAt w cfg7.N = E16 m ρ c (Pipeline.arrRef spec7 w) :=
  (W16_arr m ρ c w).symm
theorem hrest7 (c : Dev nD) : ∀ b, b ∉ Finset.univ.image (Pipeline.arrRef spec7) → E16 m ρ c b = E15 m ρ c b :=
  fun b hb => W16_of_ne m ρ c b fun w e => hb (Finset.mem_image.mpr ⟨w, Finset.mem_univ _, e⟩)

/-- After the stretch hostOps8 (region 8's entry). -/
abbrev W17 : Dev nD → Valuation τ sig (Elt F) := fun c => StableHlo.after hostOps8 (W16 m ρ c)
/-- The same read at the TensorCore's references. -/
abbrev E17 : (c : Dev nD) → (b : Ref sig .tc) → Buf (Elt F) ((c : Thread nD τ).loc b) := fun c b => W17 m ρ c b
/-- At region 8's exit: its arrays at what the pipeline leaves, every other buffer as entered. -/
def W18 (c : Dev nD) : Valuation τ sig (Elt F) :=
  Pipeline.withArrays spec8 c (W17 m ρ c) fun w => (dat8 (E17 m ρ) c).arrAt w cfg8.N
theorem W18_arr (c : Dev nD) (w : Fin cfg8.W) :
    W18 m ρ c (Proc.devRef .tc (Pipeline.arrRef spec8 w)) = (dat8 (E17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
/-- An array the region only reads is as it was entered. -/
theorem W18_in (c : Dev nD) (w : Fin cfg8.W) (hin : (cfg8.win w).isOut = false) :
    W18 m ρ c (Proc.devRef .tc (Pipeline.arrRef spec8 w)) = W17 m ρ c (Proc.devRef .tc (Pipeline.arrRef spec8 w)) :=
  (W18_arr m ρ c w).trans (((dat8 (E17 m ρ) c).arrAt_in w hin _).trans (A_eq8 (E17 m ρ) c w))
/-- A buffer the stretch hostOps8 does not write is as before it. -/
theorem W17_keep (c : Dev nD) (r : Ref sig .tc) (h : r ∉ hostOps8_W) :
    W17 m ρ c (Proc.devRef .tc r) = W16 m ρ c (Proc.devRef .tc r) :=
  StableHlo.after_of_writes_sub hostOps8 _ hostOps8_writes h
abbrev E18 : (c : Dev nD) → (b : Ref sig .tc) → Buf (Elt F) ((c : Thread nD τ).loc b) := fun c b => W18 m ρ c b
theorem hF8 (c : Dev nD) (w : Fin cfg8.W) : (dat8 (E17 m ρ) c).arrAt w cfg8.N = E18 m ρ c (Pipeline.arrRef spec8 w) :=
  (W18_arr m ρ c w).symm
theorem hrest8 (c : Dev nD) : ∀ b, b ∉ Finset.univ.image (Pipeline.arrRef spec8) → E18 m ρ c b = E17 m ρ c b :=
  fun b hb => W18_of_ne m ρ c b fun w e => hb (Finset.mem_image.mpr ⟨w, Finset.mem_univ _, e⟩)

/-- After the last stretch hostOps9: the contents at the return. -/
abbrev W19 : Dev nD → Valuation τ sig (Elt F) := fun c => StableHlo.after hostOps9 (W18 m ρ c)
theorem W19_keep (c : Dev nD) (r : Ref sig .tc) (h : r ∉ hostOps9_W) :
    W19 m ρ c (Proc.devRef .tc r) = W18 m ρ c (Proc.devRef .tc r) :=
  StableHlo.after_of_writes_sub hostOps9 _ hostOps9_writes h

/-! ## The arguments end as launched: no stretch writes one, no region changes one -/

theorem W19_main_arg0 (c : Dev nD) : W19 m ρ c (Proc.devRef .tc main_arg0) = m ((c : Thread nD τ).loc main_arg0) :=
  (W19_keep m ρ c main_arg0 (by decide)).trans <| (W18_of_ne m ρ c main_arg0 (by decide)).trans <| (W17_keep m ρ c main_arg0 (by decide)).trans <| (W16_of_ne m ρ c main_arg0 (by decide)).trans <| (W15_keep m ρ c main_arg0 (by decide)).trans <| (W14_of_ne m ρ c main_arg0 (by decide)).trans <| (W13_keep m ρ c main_arg0 (by decide)).trans <| (W12_of_ne m ρ c main_arg0 (by decide)).trans <| (W11_keep m ρ c main_arg0 (by decide)).trans <| (W10_of_ne m ρ c main_arg0 (by decide)).trans <| (W9_keep m ρ c main_arg0 (by decide)).trans <| (W8_of_ne m ρ c main_arg0 (by decide)).trans <| (W7_keep m ρ c main_arg0 (by decide)).trans <| (W6_of_ne m ρ c main_arg0 (by decide)).trans <| (W5_keep m ρ c main_arg0 (by decide)).trans <| (W4_of_ne m ρ c main_arg0 (by decide)).trans <| (W3_keep m ρ c main_arg0 (by decide)).trans <| (W2_of_ne m ρ c main_arg0 (by decide)).trans <| (W1_keep m ρ c main_arg0 (by decide)).trans <| rfl
theorem W19_main_arg1 (c : Dev nD) : W19 m ρ c (Proc.devRef .tc main_arg1) = m ((c : Thread nD τ).loc main_arg1) :=
  (W19_keep m ρ c main_arg1 (by decide)).trans <| (W18_of_ne m ρ c main_arg1 (by decide)).trans <| (W17_keep m ρ c main_arg1 (by decide)).trans <| (W16_of_ne m ρ c main_arg1 (by decide)).trans <| (W15_keep m ρ c main_arg1 (by decide)).trans <| (W14_of_ne m ρ c main_arg1 (by decide)).trans <| (W13_keep m ρ c main_arg1 (by decide)).trans <| (W12_of_ne m ρ c main_arg1 (by decide)).trans <| (W11_keep m ρ c main_arg1 (by decide)).trans <| (W10_of_ne m ρ c main_arg1 (by decide)).trans <| (W9_keep m ρ c main_arg1 (by decide)).trans <| (W8_of_ne m ρ c main_arg1 (by decide)).trans <| (W7_keep m ρ c main_arg1 (by decide)).trans <| (W6_of_ne m ρ c main_arg1 (by decide)).trans <| (W5_keep m ρ c main_arg1 (by decide)).trans <| (W4_of_ne m ρ c main_arg1 (by decide)).trans <| (W3_keep m ρ c main_arg1 (by decide)).trans <| (W2_of_ne m ρ c main_arg1 (by decide)).trans <| (W1_keep m ρ c main_arg1 (by decide)).trans <| rfl
theorem W19_main_arg2 (c : Dev nD) : W19 m ρ c (Proc.devRef .tc main_arg2) = m ((c : Thread nD τ).loc main_arg2) :=
  (W19_keep m ρ c main_arg2 (by decide)).trans <| (W18_of_ne m ρ c main_arg2 (by decide)).trans <| (W17_keep m ρ c main_arg2 (by decide)).trans <| (W16_of_ne m ρ c main_arg2 (by decide)).trans <| (W15_keep m ρ c main_arg2 (by decide)).trans <| (W14_of_ne m ρ c main_arg2 (by decide)).trans <| (W13_keep m ρ c main_arg2 (by decide)).trans <| (W12_of_ne m ρ c main_arg2 (by decide)).trans <| (W11_keep m ρ c main_arg2 (by decide)).trans <| (W10_of_ne m ρ c main_arg2 (by decide)).trans <| (W9_keep m ρ c main_arg2 (by decide)).trans <| (W8_of_ne m ρ c main_arg2 (by decide)).trans <| (W7_keep m ρ c main_arg2 (by decide)).trans <| (W6_of_ne m ρ c main_arg2 (by decide)).trans <| (W5_keep m ρ c main_arg2 (by decide)).trans <| (W4_of_ne m ρ c main_arg2 (by decide)).trans <| (W3_keep m ρ c main_arg2 (by decide)).trans <| (W2_of_ne m ρ c main_arg2 (by decide)).trans <| (W1_keep m ρ c main_arg2 (by decide)).trans <| rfl
theorem W19_main_arg3 (c : Dev nD) : W19 m ρ c (Proc.devRef .tc main_arg3) = m ((c : Thread nD τ).loc main_arg3) :=
  (W19_keep m ρ c main_arg3 (by decide)).trans <| (W18_of_ne m ρ c main_arg3 (by decide)).trans <| (W17_keep m ρ c main_arg3 (by decide)).trans <| (W16_of_ne m ρ c main_arg3 (by decide)).trans <| (W15_keep m ρ c main_arg3 (by decide)).trans <| (W14_of_ne m ρ c main_arg3 (by decide)).trans <| (W13_keep m ρ c main_arg3 (by decide)).trans <| (W12_of_ne m ρ c main_arg3 (by decide)).trans <| (W11_keep m ρ c main_arg3 (by decide)).trans <| (W10_of_ne m ρ c main_arg3 (by decide)).trans <| (W9_keep m ρ c main_arg3 (by decide)).trans <| (W8_of_ne m ρ c main_arg3 (by decide)).trans <| (W7_keep m ρ c main_arg3 (by decide)).trans <| (W6_of_ne m ρ c main_arg3 (by decide)).trans <| (W5_keep m ρ c main_arg3 (by decide)).trans <| (W4_of_ne m ρ c main_arg3 (by decide)).trans <| (W3_keep m ρ c main_arg3 (by decide)).trans <| (W2_of_ne m ρ c main_arg3 (by decide)).trans <| (W1_keep m ρ c main_arg3 (by decide)).trans <| rfl
theorem W19_main_arg4 (c : Dev nD) : W19 m ρ c (Proc.devRef .tc main_arg4) = m ((c : Thread nD τ).loc main_arg4) :=
  (W19_keep m ρ c main_arg4 (by decide)).trans <| (W18_of_ne m ρ c main_arg4 (by decide)).trans <| (W17_keep m ρ c main_arg4 (by decide)).trans <| (W16_of_ne m ρ c main_arg4 (by decide)).trans <| (W15_keep m ρ c main_arg4 (by decide)).trans <| (W14_of_ne m ρ c main_arg4 (by decide)).trans <| (W13_keep m ρ c main_arg4 (by decide)).trans <| (W12_of_ne m ρ c main_arg4 (by decide)).trans <| (W11_keep m ρ c main_arg4 (by decide)).trans <| (W10_of_ne m ρ c main_arg4 (by decide)).trans <| (W9_keep m ρ c main_arg4 (by decide)).trans <| (W8_of_ne m ρ c main_arg4 (by decide)).trans <| (W7_keep m ρ c main_arg4 (by decide)).trans <| (W6_of_ne m ρ c main_arg4 (by decide)).trans <| (W5_keep m ρ c main_arg4 (by decide)).trans <| (W4_of_ne m ρ c main_arg4 (by decide)).trans <| (W3_keep m ρ c main_arg4 (by decide)).trans <| (W2_of_ne m ρ c main_arg4 (by decide)).trans <| (W1_keep m ρ c main_arg4 (by decide)).trans <| rfl
theorem W19_main_arg5 (c : Dev nD) : W19 m ρ c (Proc.devRef .tc main_arg5) = m ((c : Thread nD τ).loc main_arg5) :=
  (W19_keep m ρ c main_arg5 (by decide)).trans <| (W18_of_ne m ρ c main_arg5 (by decide)).trans <| (W17_keep m ρ c main_arg5 (by decide)).trans <| (W16_of_ne m ρ c main_arg5 (by decide)).trans <| (W15_keep m ρ c main_arg5 (by decide)).trans <| (W14_of_ne m ρ c main_arg5 (by decide)).trans <| (W13_keep m ρ c main_arg5 (by decide)).trans <| (W12_of_ne m ρ c main_arg5 (by decide)).trans <| (W11_keep m ρ c main_arg5 (by decide)).trans <| (W10_of_ne m ρ c main_arg5 (by decide)).trans <| (W9_keep m ρ c main_arg5 (by decide)).trans <| (W8_of_ne m ρ c main_arg5 (by decide)).trans <| (W7_keep m ρ c main_arg5 (by decide)).trans <| (W6_of_ne m ρ c main_arg5 (by decide)).trans <| (W5_keep m ρ c main_arg5 (by decide)).trans <| (W4_of_ne m ρ c main_arg5 (by decide)).trans <| (W3_keep m ρ c main_arg5 (by decide)).trans <| (W2_of_ne m ρ c main_arg5 (by decide)).trans <| (W1_keep m ρ c main_arg5 (by decide)).trans <| rfl
theorem W19_main_arg6 (c : Dev nD) : W19 m ρ c (Proc.devRef .tc main_arg6) = m ((c : Thread nD τ).loc main_arg6) :=
  (W19_keep m ρ c main_arg6 (by decide)).trans <| (W18_of_ne m ρ c main_arg6 (by decide)).trans <| (W17_keep m ρ c main_arg6 (by decide)).trans <| (W16_of_ne m ρ c main_arg6 (by decide)).trans <| (W15_keep m ρ c main_arg6 (by decide)).trans <| (W14_of_ne m ρ c main_arg6 (by decide)).trans <| (W13_keep m ρ c main_arg6 (by decide)).trans <| (W12_of_ne m ρ c main_arg6 (by decide)).trans <| (W11_keep m ρ c main_arg6 (by decide)).trans <| (W10_of_ne m ρ c main_arg6 (by decide)).trans <| (W9_keep m ρ c main_arg6 (by decide)).trans <| (W8_of_ne m ρ c main_arg6 (by decide)).trans <| (W7_keep m ρ c main_arg6 (by decide)).trans <| (W6_of_ne m ρ c main_arg6 (by decide)).trans <| (W5_keep m ρ c main_arg6 (by decide)).trans <| (W4_of_ne m ρ c main_arg6 (by decide)).trans <| (W3_keep m ρ c main_arg6 (by decide)).trans <| (W2_of_ne m ρ c main_arg6 (by decide)).trans <| (W1_keep m ρ c main_arg6 (by decide)).trans <| rfl
theorem W19_main_arg7 (c : Dev nD) : W19 m ρ c (Proc.devRef .tc main_arg7) = m ((c : Thread nD τ).loc main_arg7) :=
  (W19_keep m ρ c main_arg7 (by decide)).trans <| (W18_of_ne m ρ c main_arg7 (by decide)).trans <| (W17_keep m ρ c main_arg7 (by decide)).trans <| (W16_of_ne m ρ c main_arg7 (by decide)).trans <| (W15_keep m ρ c main_arg7 (by decide)).trans <| (W14_of_ne m ρ c main_arg7 (by decide)).trans <| (W13_keep m ρ c main_arg7 (by decide)).trans <| (W12_of_ne m ρ c main_arg7 (by decide)).trans <| (W11_keep m ρ c main_arg7 (by decide)).trans <| (W10_of_ne m ρ c main_arg7 (by decide)).trans <| (W9_keep m ρ c main_arg7 (by decide)).trans <| (W8_of_ne m ρ c main_arg7 (by decide)).trans <| (W7_keep m ρ c main_arg7 (by decide)).trans <| (W6_of_ne m ρ c main_arg7 (by decide)).trans <| (W5_keep m ρ c main_arg7 (by decide)).trans <| (W4_of_ne m ρ c main_arg7 (by decide)).trans <| (W3_keep m ρ c main_arg7 (by decide)).trans <| (W2_of_ne m ρ c main_arg7 (by decide)).trans <| (W1_keep m ρ c main_arg7 (by decide)).trans <| rfl
theorem W19_main_arg8 (c : Dev nD) : W19 m ρ c (Proc.devRef .tc main_arg8) = m ((c : Thread nD τ).loc main_arg8) :=
  (W19_keep m ρ c main_arg8 (by decide)).trans <| (W18_of_ne m ρ c main_arg8 (by decide)).trans <| (W17_keep m ρ c main_arg8 (by decide)).trans <| (W16_of_ne m ρ c main_arg8 (by decide)).trans <| (W15_keep m ρ c main_arg8 (by decide)).trans <| (W14_of_ne m ρ c main_arg8 (by decide)).trans <| (W13_keep m ρ c main_arg8 (by decide)).trans <| (W12_of_ne m ρ c main_arg8 (by decide)).trans <| (W11_keep m ρ c main_arg8 (by decide)).trans <| (W10_of_ne m ρ c main_arg8 (by decide)).trans <| (W9_keep m ρ c main_arg8 (by decide)).trans <| (W8_of_ne m ρ c main_arg8 (by decide)).trans <| (W7_keep m ρ c main_arg8 (by decide)).trans <| (W6_of_ne m ρ c main_arg8 (by decide)).trans <| (W5_keep m ρ c main_arg8 (by decide)).trans <| (W4_of_ne m ρ c main_arg8 (by decide)).trans <| (W3_keep m ρ c main_arg8 (by decide)).trans <| (W2_of_ne m ρ c main_arg8 (by decide)).trans <| (W1_keep m ρ c main_arg8 (by decide)).trans <| rfl
theorem W19_main_arg9 (c : Dev nD) : W19 m ρ c (Proc.devRef .tc main_arg9) = m ((c : Thread nD τ).loc main_arg9) :=
  (W19_keep m ρ c main_arg9 (by decide)).trans <| (W18_of_ne m ρ c main_arg9 (by decide)).trans <| (W17_keep m ρ c main_arg9 (by decide)).trans <| (W16_of_ne m ρ c main_arg9 (by decide)).trans <| (W15_keep m ρ c main_arg9 (by decide)).trans <| (W14_of_ne m ρ c main_arg9 (by decide)).trans <| (W13_keep m ρ c main_arg9 (by decide)).trans <| (W12_of_ne m ρ c main_arg9 (by decide)).trans <| (W11_keep m ρ c main_arg9 (by decide)).trans <| (W10_of_ne m ρ c main_arg9 (by decide)).trans <| (W9_keep m ρ c main_arg9 (by decide)).trans <| (W8_of_ne m ρ c main_arg9 (by decide)).trans <| (W7_keep m ρ c main_arg9 (by decide)).trans <| (W6_of_ne m ρ c main_arg9 (by decide)).trans <| (W5_keep m ρ c main_arg9 (by decide)).trans <| (W4_of_ne m ρ c main_arg9 (by decide)).trans <| (W3_keep m ρ c main_arg9 (by decide)).trans <| (W2_in m ρ c 1 rfl).trans <| (W1_keep m ρ c main_arg9 (by decide)).trans <| rfl
theorem W19_main_arg10 (c : Dev nD) : W19 m ρ c (Proc.devRef .tc main_arg10) = m ((c : Thread nD τ).loc main_arg10) :=
  (W19_keep m ρ c main_arg10 (by decide)).trans <| (W18_of_ne m ρ c main_arg10 (by decide)).trans <| (W17_keep m ρ c main_arg10 (by decide)).trans <| (W16_of_ne m ρ c main_arg10 (by decide)).trans <| (W15_keep m ρ c main_arg10 (by decide)).trans <| (W14_of_ne m ρ c main_arg10 (by decide)).trans <| (W13_keep m ρ c main_arg10 (by decide)).trans <| (W12_of_ne m ρ c main_arg10 (by decide)).trans <| (W11_keep m ρ c main_arg10 (by decide)).trans <| (W10_of_ne m ρ c main_arg10 (by decide)).trans <| (W9_keep m ρ c main_arg10 (by decide)).trans <| (W8_of_ne m ρ c main_arg10 (by decide)).trans <| (W7_keep m ρ c main_arg10 (by decide)).trans <| (W6_of_ne m ρ c main_arg10 (by decide)).trans <| (W5_keep m ρ c main_arg10 (by decide)).trans <| (W4_of_ne m ρ c main_arg10 (by decide)).trans <| (W3_keep m ρ c main_arg10 (by decide)).trans <| (W2_in m ρ c 2 rfl).trans <| (W1_keep m ρ c main_arg10 (by decide)).trans <| rfl

/-! ## The proof data family and the thread state -/

abbrev admH : (p : Fin 9) → (pcfgs (F := F) p).Adm := fun p => (cfgs p).toPCfg_adm
/-- Every pipeline's proof data, each at its region's entry contents. -/
def pdats : (p : Fin 9) → (c : Dev nD) → Dat τ (Elt F) Unit ℕ (UR sig nD τ) ℕ (Pipeline.pin (pcfgs (F := F)) admH p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
  | ⟨4, _⟩ => fun c => dat4 (E9 m ρ) c
  | ⟨5, _⟩ => fun c => dat5 (E11 m ρ) c
  | ⟨6, _⟩ => fun c => dat6 (E13 m ρ) c
  | ⟨7, _⟩ => fun c => dat7 (E15 m ρ) c
  | ⟨8, _⟩ => fun c => dat8 (E17 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W19 m ρ c) ∗ ∃ r, prngReg c r)

/-! ## The regions as segments -/

set_option backward.isDefEq.respectTransparency.types false in
/-- Region 0 over the thread state: entered from every unscoped buffer at W1, left at W2. Its arrays are split out of the unscoped
    buffers and put back at the exit contents; the generator register goes into the pipeline's invariant and out; nothing owed. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. Its arrays are split out of the unscoped
    buffers and put back at the exit contents; the generator register goes into the pipeline's invariant and out; nothing owed. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W5, left at W6. Its arrays are split out of the unscoped
    buffers and put back at the exit contents; the generator register goes into the pipeline's invariant and out; nothing owed. -/
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at W7, left at W8. Its arrays are split out of the unscoped
    buffers and put back at the exit contents; the generator register goes into the pipeline's invariant and out; nothing owed. -/
def reg3 : Pipeline.RegionSeg (pcfgs (F := F)) admH (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (E7 m ρ c)
  hentry c := by
    rw [Pipeline.ownSems0_none]
    have hsplit := Pipeline.arrays_of_unscopedBufs (p := 3) (pcfgs (F := F)) admH (pdats m ρ) launch3.win launch3.arr_whole c
      ((pdats m ρ 3 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m ρ) ((pdats m ρ 3 c).share_full fun _ => rfl)
      (E7 m ρ c) (E8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at W9, left at W10. Its arrays are split out of the unscoped
    buffers and put back at the exit contents; the generator register goes into the pipeline's invariant and out; nothing owed. -/
def reg4 : Pipeline.RegionSeg (pcfgs (F := F)) admH (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (E9 m ρ c)
  hentry c := by
    rw [Pipeline.ownSems0_none]
    have hsplit := Pipeline.arrays_of_unscopedBufs (p := 4) (pcfgs (F := F)) admH (pdats m ρ) launch4.win launch4.arr_whole c
      ((pdats m ρ 4 c).share_full fun _ => rfl) (E9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdats m ρ) ((pdats m ρ 4 c).share_full fun _ => rfl)
      (E9 m ρ c) (E10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at W11, left at W12. Its arrays are split out of the unscoped
    buffers and put back at the exit contents; the generator register goes into the pipeline's invariant and out; nothing owed. -/
def reg5 : Pipeline.RegionSeg (pcfgs (F := F)) admH (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (E11 m ρ c)
  hentry c := by
    rw [Pipeline.ownSems0_none]
    have hsplit := Pipeline.arrays_of_unscopedBufs (p := 5) (pcfgs (F := F)) admH (pdats m ρ) launch5.win launch5.arr_whole c
      ((pdats m ρ 5 c).share_full fun _ => rfl) (E11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := UR sig nD τ) (Lvl := ℕ)
      launch5.win launch5.arr_whole c (pdats m ρ) ((pdats m ρ 5 c).share_full fun _ => rfl)
      (E11 m ρ c) (E12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at W13, left at W14. Its arrays are split out of the unscoped
    buffers and put back at the exit contents; the generator register goes into the pipeline's invariant and out; nothing owed. -/
def reg6 : Pipeline.RegionSeg (pcfgs (F := F)) admH (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (E13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (E13 m ρ c)
  hentry c := by
    rw [Pipeline.ownSems0_none]
    have hsplit := Pipeline.arrays_of_unscopedBufs (p := 6) (pcfgs (F := F)) admH (pdats m ρ) launch6.win launch6.arr_whole c
      ((pdats m ρ 6 c).share_full fun _ => rfl) (E13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admH (Ix := Unit) (Name := ℕ) (U := UR sig nD τ) (Lvl := ℕ)
      launch6.win launch6.arr_whole c (pdats m ρ) ((pdats m ρ 6 c).share_full fun _ => rfl)
      (E13 m ρ c) (E14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at W15, left at W16. Its arrays are split out of the unscoped
    buffers and put back at the exit contents; the generator register goes into the pipeline's invariant and out; nothing owed. -/
def reg7 : Pipeline.RegionSeg (pcfgs (F := F)) admH (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (E15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (E15 m ρ c)
  hentry c := by
    rw [Pipeline.ownSems0_none]
    have hsplit := Pipeline.arrays_of_unscopedBufs (p := 7) (pcfgs (F := F)) admH (pdats m ρ) launch7.win launch7.arr_whole c
      ((pdats m ρ 7 c).share_full fun _ => rfl) (E15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) admH (Ix := Unit) (Name := ℕ) (U := UR sig nD τ) (Lvl := ℕ)
      launch7.win launch7.arr_whole c (pdats m ρ) ((pdats m ρ 7 c).share_full fun _ => rfl)
      (E15 m ρ c) (E16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at W17, left at W18. Its arrays are split out of the unscoped
    buffers and put back at the exit contents; the generator register goes into the pipeline's invariant and out; nothing owed. -/
def reg8 : Pipeline.RegionSeg (pcfgs (F := F)) admH (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (E17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (E17 m ρ c)
  hentry c := by
    rw [Pipeline.ownSems0_none]
    have hsplit := Pipeline.arrays_of_unscopedBufs (p := 8) (pcfgs (F := F)) admH (pdats m ρ) launch8.win launch8.arr_whole c
      ((pdats m ρ 8 c).share_full fun _ => rfl) (E17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) admH (Ix := Unit) (Name := ℕ) (U := UR sig nD τ) (Lvl := ℕ)
      launch8.win launch8.arr_whole c (pdats m ρ) ((pdats m ρ 8 c).share_full fun _ => rfl)
      (E17 m ρ c) (E18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) admH (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every final
    state has every unscoped buffer at the last boundary's contents W19. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) admH (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W19 m ρ c) ∗ R c) ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h => h)

end Cert.Kernel.Hand

end
-- ==== Proof.KI.Bodies.lean ====
/-
  Each kernel region's two output blocks as ONE function of its eleven input blocks (x0 … x10, the windows in the
  order the region receives them: the node inputs, the children's hidden rows, the children's cell rows, then
  W_iouᵀ, b_iou, U_iouᵀ, b_uiou, W_fᵀ, b_wf, U_fᵀ, b_uf): the body's arithmetic composed as the body passes it along.
  bodyH K is what region K stores into its first output block (the new hidden rows), bodyC K into its second (the new
  cell rows).  Stated at any float instance.
-/
import proofs.«148344_j70635032150607_1_alg».proof.Proof.Gen.KernelIdeal.Skeleton

noncomputable section

namespace Cert.KernelIdeal.Hand

open Idealize.ShloMosaic Cert.KernelIdeal Cert.KernelIdeal.Gen

variable {F : FTy → Type} [FloatOps F]

/-- Region 0 (1024 rows per block): the new hidden rows. -/
def bodyH0 (x0 : Vec F S1024x128 .f32) (x1 : Vec F S1x512 .f32) (x2 : Vec F S1x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  k0_pay3 (k0_pay4 x0) (k0_pay5 x2) (k0_pay6 x1) (k0_pay7 x7) (k0_pay8 x9) (k0_pay9 x6) (k0_pay10 x8) (k0_pay11 x10) (k0_pay12 x0 x1 x3 x5 x4)
/-- Region 0: the new cell rows. -/
def bodyC0 (x0 : Vec F S1024x128 .f32) (x1 : Vec F S1x512 .f32) (x2 : Vec F S1x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  k0_pay2 (k0_pay4 x0) (k0_pay5 x2) (k0_pay6 x1) (k0_pay7 x7) (k0_pay8 x9) (k0_pay9 x6) (k0_pay10 x8) (k0_pay11 x10) (k0_pay12 x0 x1 x3 x5 x4)

/-- Region 1 (1024 rows per block): the new hidden rows. -/
def bodyH1 (x0 : Vec F S1024x128 .f32) (x1 : Vec F S1024x512 .f32) (x2 : Vec F S1024x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  k1_pay2 (k1_pay3 x0) (k1_pay4 x2) (k1_pay5 x1) (k1_pay6 x7) (k1_pay7 x9) (k1_pay8 x8) (k1_pay9 x10) (k1_pay10 x0 x1 x3 x5 x4 x6)
/-- Region 1: the new cell rows. -/
def bodyC1 (x0 : Vec F S1024x128 .f32) (x1 : Vec F S1024x512 .f32) (x2 : Vec F S1024x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  k1_pay1 (k1_pay3 x0) (k1_pay4 x2) (k1_pay5 x1) (k1_pay6 x7) (k1_pay7 x9) (k1_pay8 x8) (k1_pay9 x10) (k1_pay10 x0 x1 x3 x5 x4 x6)

/-- Region 2 (1024 rows per block): the new hidden rows. -/
def bodyH2 (x0 : Vec F S1024x128 .f32) (x1 : Vec F S1024x512 .f32) (x2 : Vec F S1024x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  k2_pay2 (k2_pay3 x0) (k2_pay4 x2) (k2_pay5 x1) (k2_pay6 x7) (k2_pay7 x9) (k2_pay8 x8) (k2_pay9 x10) (k2_pay10 x0 x1 x3 x5 x4 x6)
/-- Region 2: the new cell rows. -/
def bodyC2 (x0 : Vec F S1024x128 .f32) (x1 : Vec F S1024x512 .f32) (x2 : Vec F S1024x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  k2_pay1 (k2_pay3 x0) (k2_pay4 x2) (k2_pay5 x1) (k2_pay6 x7) (k2_pay7 x9) (k2_pay8 x8) (k2_pay9 x10) (k2_pay10 x0 x1 x3 x5 x4 x6)

/-- Region 3 (1024 rows per block): the new hidden rows. -/
def bodyH3 (x0 : Vec F S1024x128 .f32) (x1 : Vec F S1024x512 .f32) (x2 : Vec F S1024x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  k3_pay2 (k3_pay3 x0) (k3_pay4 x2) (k3_pay5 x1) (k3_pay6 x7) (k3_pay7 x9) (k3_pay8 x8) (k3_pay9 x10) (k3_pay10 x0 x1 x3 x5 x4 x6)
/-- Region 3: the new cell rows. -/
def bodyC3 (x0 : Vec F S1024x128 .f32) (x1 : Vec F S1024x512 .f32) (x2 : Vec F S1024x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  k3_pay1 (k3_pay3 x0) (k3_pay4 x2) (k3_pay5 x1) (k3_pay6 x7) (k3_pay7 x9) (k3_pay8 x8) (k3_pay9 x10) (k3_pay10 x0 x1 x3 x5 x4 x6)

/-- Region 4 (256 rows per block): the new hidden rows. -/
def bodyH4 (x0 : Vec F S256x128 .f32) (x1 : Vec F S256x512 .f32) (x2 : Vec F S256x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S256x128 .f32 :=
  k4_pay2 (k4_pay3 x0) (k4_pay4 x2) (k4_pay5 x1) (k4_pay6 x7) (k4_pay7 x9) (k4_pay8 x8) (k4_pay9 x10) (k4_pay10 x0 x1 x3 x5 x4 x6)
/-- Region 4: the new cell rows. -/
def bodyC4 (x0 : Vec F S256x128 .f32) (x1 : Vec F S256x512 .f32) (x2 : Vec F S256x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S256x128 .f32 :=
  k4_pay1 (k4_pay3 x0) (k4_pay4 x2) (k4_pay5 x1) (k4_pay6 x7) (k4_pay7 x9) (k4_pay8 x8) (k4_pay9 x10) (k4_pay10 x0 x1 x3 x5 x4 x6)

/-- Region 5 (64 rows per block): the new hidden rows. -/
def bodyH5 (x0 : Vec F S64x128 .f32) (x1 : Vec F S64x512 .f32) (x2 : Vec F S64x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S64x128 .f32 :=
  k5_pay2 (k5_pay3 x0) (k5_pay4 x2) (k5_pay5 x1) (k5_pay6 x7) (k5_pay7 x9) (k5_pay8 x8) (k5_pay9 x10) (k5_pay10 x0 x1 x3 x5 x4 x6)
/-- Region 5: the new cell rows. -/
def bodyC5 (x0 : Vec F S64x128 .f32) (x1 : Vec F S64x512 .f32) (x2 : Vec F S64x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S64x128 .f32 :=
  k5_pay1 (k5_pay3 x0) (k5_pay4 x2) (k5_pay5 x1) (k5_pay6 x7) (k5_pay7 x9) (k5_pay8 x8) (k5_pay9 x10) (k5_pay10 x0 x1 x3 x5 x4 x6)

/-- Region 6 (16 rows per block): the new hidden rows. -/
def bodyH6 (x0 : Vec F S16x128 .f32) (x1 : Vec F S16x512 .f32) (x2 : Vec F S16x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S16x128 .f32 :=
  k6_pay2 (k6_pay3 x0) (k6_pay4 x2) (k6_pay5 x1) (k6_pay6 x7) (k6_pay7 x9) (k6_pay8 x8) (k6_pay9 x10) (k6_pay10 x0 x1 x3 x5 x4 x6)
/-- Region 6: the new cell rows. -/
def bodyC6 (x0 : Vec F S16x128 .f32) (x1 : Vec F S16x512 .f32) (x2 : Vec F S16x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S16x128 .f32 :=
  k6_pay1 (k6_pay3 x0) (k6_pay4 x2) (k6_pay5 x1) (k6_pay6 x7) (k6_pay7 x9) (k6_pay8 x8) (k6_pay9 x10) (k6_pay10 x0 x1 x3 x5 x4 x6)

/-- Region 7 (4 rows per block): the new hidden rows. -/
def bodyH7 (x0 : Vec F S4x128 .f32) (x1 : Vec F S4x512 .f32) (x2 : Vec F S4x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S4x128 .f32 :=
  k7_pay2 (k7_pay3 x0) (k7_pay4 x2) (k7_pay5 x1) (k7_pay6 x7) (k7_pay7 x9) (k7_pay8 x8) (k7_pay9 x10) (k7_pay10 x0 x1 x3 x5 x4 x6)
/-- Region 7: the new cell rows. -/
def bodyC7 (x0 : Vec F S4x128 .f32) (x1 : Vec F S4x512 .f32) (x2 : Vec F S4x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S4x128 .f32 :=
  k7_pay1 (k7_pay3 x0) (k7_pay4 x2) (k7_pay5 x1) (k7_pay6 x7) (k7_pay7 x9) (k7_pay8 x8) (k7_pay9 x10) (k7_pay10 x0 x1 x3 x5 x4 x6)

/-- Region 8 (1 rows per block): the new hidden rows. -/
def bodyH8 (x0 : Vec F S1x128 .f32) (x1 : Vec F S1x512 .f32) (x2 : Vec F S1x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1x128 .f32 :=
  k8_pay2 (k8_pay3 x0) (k8_pay4 x2) (k8_pay5 x1) (k8_pay6 x7) (k8_pay7 x9) (k8_pay8 x8) (k8_pay9 x10) (k8_pay10 x0 x1 x3 x5 x4 x6) (k8_pay11 x0 x1 x3 x5 x4 x6) (k8_pay12 x0 x1 x3 x5 x4 x6)
/-- Region 8: the new cell rows. -/
def bodyC8 (x0 : Vec F S1x128 .f32) (x1 : Vec F S1x512 .f32) (x2 : Vec F S1x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1x128 .f32 :=
  k8_pay1 (k8_pay3 x0) (k8_pay4 x2) (k8_pay5 x1) (k8_pay6 x7) (k8_pay7 x9) (k8_pay8 x8) (k8_pay9 x10) (k8_pay10 x0 x1 x3 x5 x4 x6) (k8_pay11 x0 x1 x3 x5 x4 x6)

end Cert.KernelIdeal.Hand

end
-- ==== Proof.KI.Region0.lean ====
/-
  Region 0 of the program (the cell applied to one level of the tree, 1024 nodes per grid point), at a PARAMETER V: the
  contents of the core's buffers when the region is entered.  Each window's block at a grid point is read off its
  array in V; the body, run on staging buffers holding the eleven input blocks, leaves them as they were and leaves in
  the two output buffers the new hidden rows and the new cell rows of those blocks (bodyH0, bodyC0); with that, the proof
  data of the region's pipeline (its arrays those of V, after the body each input buffer at its block and each output
  buffer at the body's function of the input blocks, nothing owed) meets the pipeline's body obligation at every point.
-/
import proofs.«148344_j70635032150607_1_alg».proof.Proof.Gen.KernelIdeal.Launch
import proofs.«148344_j70635032150607_1_alg».proof.Proof.Gen.KernelIdeal.Skeleton
import proofs.«148344_j70635032150607_1_alg».proof.Proof.Gen.KernelIdeal.Points
import proofs.«148344_j70635032150607_1_alg».proof.Proof.KI.Bodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (the index has not moved where it is not fetched). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not (the index has not moved where it is not fetched). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not (the index has not moved where it is not fetched). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not (the index has not moved where it is not fetched). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not (the index has not moved where it is not fetched). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not (the index has not moved where it is not fetched). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not (the index has not moved where it is not fetched). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's current staging buffer holds its block at every point, fetched there or not (the index has not moved where it is not fetched). -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's current staging buffer holds its block at every point, fetched there or not (the index has not moved where it is not fetched). -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's current staging buffer holds its block at every point, fetched there or not (the index has not moved where it is not fetched). -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's current staging buffer holds its block at every point, fetched there or not (the index has not moved where it is not fetched). -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_0 : Rect S1024x128 := Rect.unit (s := S1024x128) ![0, 0] S1024x128.size inb_S1024x128_S1024x128_0_0
abbrev r0_1 : Rect S1x512 := Rect.unit (s := S1x512) ![0, 0] S1x512.size inb_S1x512_S1x512_0_0
abbrev r0_2 : Rect S1x512 := Rect.unit (s := S1x512) ![0, 0] S1x512.size inb_S1x512_S1x512_0_0
abbrev r0_3 : Rect S128x384 := Rect.unit (s := S128x384) ![0, 0] S128x384.size inb_S128x384_S128x384_0_0
abbrev r0_4 : Rect S1x384 := Rect.unit (s := S1x384) ![0, 0] S1x384.size inb_S1x384_S1x384_0_0
abbrev r0_5 : Rect S512x384 := Rect.unit (s := S512x384) ![0, 0] S512x384.size inb_S512x384_S512x384_0_0
abbrev r0_6 : Rect S1x384 := Rect.unit (s := S1x384) ![0, 0] S1x384.size inb_S1x384_S1x384_0_0
abbrev r0_7 : Rect S128x128 := Rect.unit (s := S128x128) ![0, 0] S128x128.size inb_S128x128_S128x128_0_0
abbrev r0_8 : Rect S1x128 := Rect.unit (s := S1x128) ![0, 0] S1x128.size inb_S1x128_S1x128_0_0
abbrev r0_9 : Rect S512x512 := Rect.unit (s := S512x512) ![0, 0] S512x512.size inb_S512x512_S512x512_0_0
abbrev r0_10 : Rect S1x512 := Rect.unit (s := S1x512) ![0, 0] S1x512.size inb_S1x512_S1x512_0_0
abbrev r0_11 : Rect S1024x128 := Rect.unit (s := S1024x128) ![0, 0] S1024x128.size inb_S1024x128_S1024x128_0_0
abbrev r0_12 : Rect S1024x128 := Rect.unit (s := S1024x128) ![0, 0] S1024x128.size inb_S1024x128_S1024x128_0_0

/-- The first output buffer after the body, from the input blocks: its one store, of the new hidden rows. -/
def out0_11 (x0 : Vec F S1024x128 .f32) (x1 : Vec F S1x512 .f32) (x2 : Vec F S1x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  View.canon [⟨r0_11, bodyH0 (View.ld x0 r0_0) (View.ld x1 r0_1) (View.ld x2 r0_2) (View.ld x3 r0_3) (View.ld x4 r0_4) (View.ld x5 r0_5) (View.ld x6 r0_6) (View.ld x7 r0_7) (View.ld x8 r0_8) (View.ld x9 r0_9) (View.ld x10 r0_10)⟩]
/-- The second output buffer after the body: its one store, of the new cell rows. -/
def out0_12 (x0 : Vec F S1024x128 .f32) (x1 : Vec F S1x512 .f32) (x2 : Vec F S1x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  View.canon [⟨r0_12, bodyC0 (View.ld x0 r0_0) (View.ld x1 r0_1) (View.ld x2 r0_2) (View.ld x3 r0_3) (View.ld x4 r0_4) (View.ld x5 r0_5) (View.ld x6 r0_6) (View.ld x7 r0_7) (View.ld x8 r0_8) (View.ld x9 r0_9) (View.ld x10 r0_10)⟩]

/-- The one store covers the buffer. -/
theorem cover0_11 (p0 : Vec F S1024x128 .f32) (y : S1024x128.Idx) :
    ∃ pc ∈ ([⟨r0_11, p0⟩] : List (View.Piece (Elt F) S1024x128 .f32)), y ∈ pc.1.set :=
  View.cover_of_tiled [⟨r0_11, p0⟩] S1024x128.size (by rfl) y
theorem cover0_12 (p0 : Vec F S1024x128 .f32) (y : S1024x128.Idx) :
    ∃ pc ∈ ([⟨r0_12, p0⟩] : List (View.Piece (Elt F) S1024x128 .f32)), y ∈ pc.1.set :=
  View.cover_of_tiled [⟨r0_12, p0⟩] S1024x128.size (by rfl) y

set_option maxHeartbeats 4000000 in
/-- The body on whole staging buffers, the inputs' at contents x0 … x10 and the outputs' at anything, runs to the continuation holding
    the inputs' as they were and the outputs' at out0_11, out0_12 of the inputs'. -/
theorem sound_kernel0 (c : Dev nD) (E : Set ℕ) (i : grid0.Coords) (arg1 : Memref sig .tc .vmem S1024x128 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S512x384 .f32) (harg6 : arg6.IsWhole) (arg7 : Memref sig .tc .vmem S1x384 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S1024x128 .f32) (harg12 : arg12.IsWhole) (arg13 : Memref sig .tc .vmem S1024x128 .f32) (harg13 : arg13.IsWhole)
    (x0 : Vec F S1024x128 .f32) (x1 : Vec F S1x512 .f32) (x2 : Vec F S1x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10) ∗ owns (c : Thread nD τ) arg13 fullShare (out0_12 x0 x1 x2 x3 x4 x5 x6 x7 x8 x9 x10)) -∗ K ⟨⟩))
      ⊢ wp frame (wpE (defs₀ (F := F)) Variants.none c none) E (cc0_kernel i arg1 harg1 arg2 harg2 arg3 harg3 arg4 harg4 arg5 harg5 arg6 harg6 arg7 harg7 arg8 harg8 arg9 harg9 arg10 harg10 arg11 harg11 arg12 harg12 arg13 harg13) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover0_11 _)
  iexists _; isplitr
  swap; · iexact H12
  ipureintro
  try dsimp only
  exact View.read_writes_eq_canon _ _ _ (cover0_12 _)

/-- The proof data of the region's pipeline on core c: the arrays as the region finds them; after the body at point t each
    input's buffer at its block and each output's at the body's function of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

/-- The body at any point: the inputs' buffers hold their blocks, so sound_kernel0 applies; the invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Region 1 of the program (the cell applied to one level of the tree, 1024 nodes per grid point), at a PARAMETER V: the
  contents of the core's buffers when the region is entered.  Each window's block at a grid point is read off its
  array in V; the body, run on staging buffers holding the eleven input blocks, leaves them as they were and leaves in
  the two output buffers the new hidden rows and the new cell rows of those blocks (bodyH1, bodyC1); with that, the proof
  data of the region's pipeline (its arrays those of V, after the body each input buffer at its block and each output
  buffer at the body's function of the input blocks, nothing owed) meets the pipeline's body obligation at every point.
-/
import proofs.«148344_j70635032150607_1_alg».proof.Proof.Gen.KernelIdeal.Launch
import proofs.«148344_j70635032150607_1_alg».proof.Proof.Gen.KernelIdeal.Skeleton
import proofs.«148344_j70635032150607_1_alg».proof.Proof.Gen.KernelIdeal.Points
import proofs.«148344_j70635032150607_1_alg».proof.Proof.KI.Bodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (the index has not moved where it is not fetched). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not (the index has not moved where it is not fetched). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not (the index has not moved where it is not fetched). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not (the index has not moved where it is not fetched). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not (the index has not moved where it is not fetched). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not (the index has not moved where it is not fetched). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not (the index has not moved where it is not fetched). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not (the index has not moved where it is not fetched). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not (the index has not moved where it is not fetched). -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not (the index has not moved where it is not fetched). -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not (the index has not moved where it is not fetched). -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r1_0 : Rect S1024x128 := Rect.unit (s := S1024x128) ![0, 0] S1024x128.size inb_S1024x128_S1024x128_0_0
abbrev r1_1 : Rect S1024x512 := Rect.unit (s := S1024x512) ![0, 0] S1024x512.size inb_S1024x512_S1024x512_0_0
abbrev r1_2 : Rect S1024x512 := Rect.unit (s := S1024x512) ![0, 0] S1024x512.size inb_S1024x512_S1024x512_0_0
abbrev r1_3 : Rect S128x384 := Rect.unit (s := S128x384) ![0, 0] S128x384.size inb_S128x384_S128x384_0_0
abbrev r1_4 : Rect S1x384 := Rect.unit (s := S1x384) ![0, 0] S1x384.size inb_S1x384_S1x384_0_0
abbrev r1_5 : Rect S512x384 := Rect.unit (s := S512x384) ![0, 0] S512x384.size inb_S512x384_S512x384_0_0
abbrev r1_6 : Rect S1x384 := Rect.unit (s := S1x384) ![0, 0] S1x384.size inb_S1x384_S1x384_0_0
abbrev r1_7 : Rect S128x128 := Rect.unit (s := S128x128) ![0, 0] S128x128.size inb_S128x128_S128x128_0_0
abbrev r1_8 : Rect S1x128 := Rect.unit (s := S1x128) ![0, 0] S1x128.size inb_S1x128_S1x128_0_0
abbrev r1_9 : Rect S512x512 := Rect.unit (s := S512x512) ![0, 0] S512x512.size inb_S512x512_S512x512_0_0
abbrev r1_10 : Rect S1x512 := Rect.unit (s := S1x512) ![0, 0] S1x512.size inb_S1x512_S1x512_0_0
abbrev r1_11 : Rect S1024x128 := Rect.unit (s := S1024x128) ![0, 0] S1024x128.size inb_S1024x128_S1024x128_0_0
abbrev r1_12 : Rect S1024x128 := Rect.unit (s := S1024x128) ![0, 0] S1024x128.size inb_S1024x128_S1024x128_0_0

/-- The first output buffer after the body, from the input blocks: its one store, of the new hidden rows. -/
def out1_11 (x0 : Vec F S1024x128 .f32) (x1 : Vec F S1024x512 .f32) (x2 : Vec F S1024x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  View.canon [⟨r1_11, bodyH1 (View.ld x0 r1_0) (View.ld x1 r1_1) (View.ld x2 r1_2) (View.ld x3 r1_3) (View.ld x4 r1_4) (View.ld x5 r1_5) (View.ld x6 r1_6) (View.ld x7 r1_7) (View.ld x8 r1_8) (View.ld x9 r1_9) (View.ld x10 r1_10)⟩]
/-- The second output buffer after the body: its one store, of the new cell rows. -/
def out1_12 (x0 : Vec F S1024x128 .f32) (x1 : Vec F S1024x512 .f32) (x2 : Vec F S1024x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  View.canon [⟨r1_12, bodyC1 (View.ld x0 r1_0) (View.ld x1 r1_1) (View.ld x2 r1_2) (View.ld x3 r1_3) (View.ld x4 r1_4) (View.ld x5 r1_5) (View.ld x6 r1_6) (View.ld x7 r1_7) (View.ld x8 r1_8) (View.ld x9 r1_9) (View.ld x10 r1_10)⟩]

/-- The one store covers the buffer. -/
theorem cover1_11 (p0 : Vec F S1024x128 .f32) (y : S1024x128.Idx) :
    ∃ pc ∈ ([⟨r1_11, p0⟩] : List (View.Piece (Elt F) S1024x128 .f32)), y ∈ pc.1.set :=
  View.cover_of_tiled [⟨r1_11, p0⟩] S1024x128.size (by rfl) y
theorem cover1_12 (p0 : Vec F S1024x128 .f32) (y : S1024x128.Idx) :
    ∃ pc ∈ ([⟨r1_12, p0⟩] : List (View.Piece (Elt F) S1024x128 .f32)), y ∈ pc.1.set :=
  View.cover_of_tiled [⟨r1_12, p0⟩] S1024x128.size (by rfl) y

set_option maxHeartbeats 4000000 in
/-- The body on whole staging buffers, the inputs' at contents x0 … x10 and the outputs' at anything, runs to the continuation holding
    the inputs' as they were and the outputs' at out1_11, out1_12 of the inputs'. -/
theorem sound_kernel1 (c : Dev nD) (E : Set ℕ) (i : grid1.Coords) (arg1 : Memref sig .tc .vmem S1024x128 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S512x384 .f32) (harg6 : arg6.IsWhole) (arg7 : Memref sig .tc .vmem S1x384 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S1024x128 .f32) (harg12 : arg12.IsWhole) (arg13 : Memref sig .tc .vmem S1024x128 .f32) (harg13 : arg13.IsWhole)
    (x0 : Vec F S1024x128 .f32) (x1 : Vec F S1024x512 .f32) (x2 : Vec F S1024x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out1_11 x0 x1 x2 x3 x4 x5 x6 x7 x8 x9 x10) ∗ owns (c : Thread nD τ) arg13 fullShare (out1_12 x0 x1 x2 x3 x4 x5 x6 x7 x8 x9 x10)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11 arg12 harg12 arg13 harg13) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover1_11 _)
  iexists _; isplitr
  swap; · iexact H12
  ipureintro
  try dsimp only
  exact View.read_writes_eq_canon _ _ _ (cover1_12 _)

/-- The proof data of the region's pipeline on core c: the arrays as the region finds them; after the body at point t each
    input's buffer at its block and each output's at the body's function of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
    | ⟨12, _⟩ => out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]
theorem after1_12 (c : Dev nD) (t : Fin cfg1.N) : (dat1 V c).after 12 t = out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

/-- The body at any point: the inputs' buffers hold their blocks, so sound_kernel1 applies; the invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/-
  Region 2 of the program (the cell applied to one level of the tree, 1024 nodes per grid point), at a PARAMETER V: the
  contents of the core's buffers when the region is entered.  Each window's block at a grid point is read off its
  array in V; the body, run on staging buffers holding the eleven input blocks, leaves them as they were and leaves in
  the two output buffers the new hidden rows and the new cell rows of those blocks (bodyH2, bodyC2); with that, the proof
  data of the region's pipeline (its arrays those of V, after the body each input buffer at its block and each output
  buffer at the body's function of the input blocks, nothing owed) meets the pipeline's body obligation at every point.
-/
import proofs.«148344_j70635032150607_1_alg».proof.Proof.Gen.KernelIdeal.Launch
import proofs.«148344_j70635032150607_1_alg».proof.Proof.Gen.KernelIdeal.Skeleton
import proofs.«148344_j70635032150607_1_alg».proof.Proof.Gen.KernelIdeal.Points
import proofs.«148344_j70635032150607_1_alg».proof.Proof.KI.Bodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (the index has not moved where it is not fetched). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not (the index has not moved where it is not fetched). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not (the index has not moved where it is not fetched). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not (the index has not moved where it is not fetched). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not (the index has not moved where it is not fetched). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not (the index has not moved where it is not fetched). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not (the index has not moved where it is not fetched). -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not (the index has not moved where it is not fetched). -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's current staging buffer holds its block at every point, fetched there or not (the index has not moved where it is not fetched). -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
/-- Input window 9's current staging buffer holds its block at every point, fetched there or not (the index has not moved where it is not fetched). -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
/-- Input window 10's current staging buffer holds its block at every point, fetched there or not (the index has not moved where it is not fetched). -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev r2_0 : Rect S1024x128 := Rect.unit (s := S1024x128) ![0, 0] S1024x128.size inb_S1024x128_S1024x128_0_0
abbrev r2_1 : Rect S1024x512 := Rect.unit (s := S1024x512) ![0, 0] S1024x512.size inb_S1024x512_S1024x512_0_0
abbrev r2_2 : Rect S1024x512 := Rect.unit (s := S1024x512) ![0, 0] S1024x512.size inb_S1024x512_S1024x512_0_0
abbrev r2_3 : Rect S128x384 := Rect.unit (s := S128x384) ![0, 0] S128x384.size inb_S128x384_S128x384_0_0
abbrev r2_4 : Rect S1x384 := Rect.unit (s := S1x384) ![0, 0] S1x384.size inb_S1x384_S1x384_0_0
abbrev r2_5 : Rect S512x384 := Rect.unit (s := S512x384) ![0, 0] S512x384.size inb_S512x384_S512x384_0_0
abbrev r2_6 : Rect S1x384 := Rect.unit (s := S1x384) ![0, 0] S1x384.size inb_S1x384_S1x384_0_0
abbrev r2_7 : Rect S128x128 := Rect.unit (s := S128x128) ![0, 0] S128x128.size inb_S128x128_S128x128_0_0
abbrev r2_8 : Rect S1x128 := Rect.unit (s := S1x128) ![0, 0] S1x128.size inb_S1x128_S1x128_0_0
abbrev r2_9 : Rect S512x512 := Rect.unit (s := S512x512) ![0, 0] S512x512.size inb_S512x512_S512x512_0_0
abbrev r2_10 : Rect S1x512 := Rect.unit (s := S1x512) ![0, 0] S1x512.size inb_S1x512_S1x512_0_0
abbrev r2_11 : Rect S1024x128 := Rect.unit (s := S1024x128) ![0, 0] S1024x128.size inb_S1024x128_S1024x128_0_0
abbrev r2_12 : Rect S1024x128 := Rect.unit (s := S1024x128) ![0, 0] S1024x128.size inb_S1024x128_S1024x128_0_0

/-- The first output buffer after the body, from the input blocks: its one store, of the new hidden rows. -/
def out2_11 (x0 : Vec F S1024x128 .f32) (x1 : Vec F S1024x512 .f32) (x2 : Vec F S1024x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  View.canon [⟨r2_11, bodyH2 (View.ld x0 r2_0) (View.ld x1 r2_1) (View.ld x2 r2_2) (View.ld x3 r2_3) (View.ld x4 r2_4) (View.ld x5 r2_5) (View.ld x6 r2_6) (View.ld x7 r2_7) (View.ld x8 r2_8) (View.ld x9 r2_9) (View.ld x10 r2_10)⟩]
/-- The second output buffer after the body: its one store, of the new cell rows. -/
def out2_12 (x0 : Vec F S1024x128 .f32) (x1 : Vec F S1024x512 .f32) (x2 : Vec F S1024x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  View.canon [⟨r2_12, bodyC2 (View.ld x0 r2_0) (View.ld x1 r2_1) (View.ld x2 r2_2) (View.ld x3 r2_3) (View.ld x4 r2_4) (View.ld x5 r2_5) (View.ld x6 r2_6) (View.ld x7 r2_7) (View.ld x8 r2_8) (View.ld x9 r2_9) (View.ld x10 r2_10)⟩]

/-- The one store covers the buffer. -/
theorem cover2_11 (p0 : Vec F S1024x128 .f32) (y : S1024x128.Idx) :
    ∃ pc ∈ ([⟨r2_11, p0⟩] : List (View.Piece (Elt F) S1024x128 .f32)), y ∈ pc.1.set :=
  View.cover_of_tiled [⟨r2_11, p0⟩] S1024x128.size (by rfl) y
theorem cover2_12 (p0 : Vec F S1024x128 .f32) (y : S1024x128.Idx) :
    ∃ pc ∈ ([⟨r2_12, p0⟩] : List (View.Piece (Elt F) S1024x128 .f32)), y ∈ pc.1.set :=
  View.cover_of_tiled [⟨r2_12, p0⟩] S1024x128.size (by rfl) y

set_option maxHeartbeats 4000000 in
/-- The body on whole staging buffers, the inputs' at contents x0 … x10 and the outputs' at anything, runs to the continuation holding
    the inputs' as they were and the outputs' at out2_11, out2_12 of the inputs'. -/
theorem sound_kernel2 (c : Dev nD) (E : Set ℕ) (i : grid2.Coords) (arg1 : Memref sig .tc .vmem S1024x128 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S512x384 .f32) (harg6 : arg6.IsWhole) (arg7 : Memref sig .tc .vmem S1x384 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S1024x128 .f32) (harg12 : arg12.IsWhole) (arg13 : Memref sig .tc .vmem S1024x128 .f32) (harg13 : arg13.IsWhole)
    (x0 : Vec F S1024x128 .f32) (x1 : Vec F S1024x512 .f32) (x2 : Vec F S1024x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out2_11 x0 x1 x2 x3 x4 x5 x6 x7 x8 x9 x10) ∗ owns (c : Thread nD τ) arg13 fullShare (out2_12 x0 x1 x2 x3 x4 x5 x6 x7 x8 x9 x10)) -∗ K ⟨⟩))
      ⊢ wp frame (wpE (defs₀ (F := F)) Variants.none c none) E (cc2_kernel i arg1 harg1 arg2 harg2 arg3 harg3 arg4 harg4 arg5 harg5 arg6 harg6 arg7 harg7 arg8 harg8 arg9 harg9 arg10 harg10 arg11 harg11 arg12 harg12 arg13 harg13) K := by
  simp only [cc2_kernel_eq_skeleton]; unfold cc2_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover2_11 _)
  iexists _; isplitr
  swap; · iexact H12
  ipureintro
  try dsimp only
  exact View.read_writes_eq_canon _ _ _ (cover2_12 _)

/-- The proof data of the region's pipeline on core c: the arrays as the region finds them; after the body at point t each
    input's buffer at its block and each output's at the body's function of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => out2_11 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)
    | ⟨12, _⟩ => out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = out2_11 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) := by dsimp only [dat2]
theorem after2_12 (c : Dev nD) (t : Fin cfg2.N) : (dat2 V c).after 12 t = out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t))

/-- The body at any point: the inputs' buffers hold their blocks, so sound_kernel2 applies; the invariant and the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel2 c Set.univ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3.lean ====
/-
  Region 3 of the program (the cell applied to one level of the tree, 1024 nodes per grid point), at a PARAMETER V: the
  contents of the core's buffers when the region is entered.  Each window's block at a grid point is read off its
  array in V; the body, run on staging buffers holding the eleven input blocks, leaves them as they were and leaves in
  the two output buffers the new hidden rows and the new cell rows of those blocks (bodyH3, bodyC3); with that, the proof
  data of the region's pipeline (its arrays those of V, after the body each input buffer at its block and each output
  buffer at the body's function of the input blocks, nothing owed) meets the pipeline's body obligation at every point.
-/
import proofs.«148344_j70635032150607_1_alg».proof.Proof.Gen.KernelIdeal.Launch
import proofs.«148344_j70635032150607_1_alg».proof.Proof.Gen.KernelIdeal.Skeleton
import proofs.«148344_j70635032150607_1_alg».proof.Proof.Gen.KernelIdeal.Points
import proofs.«148344_j70635032150607_1_alg».proof.Proof.KI.Bodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (the index has not moved where it is not fetched). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not (the index has not moved where it is not fetched). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not (the index has not moved where it is not fetched). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not (the index has not moved where it is not fetched). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not (the index has not moved where it is not fetched). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not (the index has not moved where it is not fetched). -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not (the index has not moved where it is not fetched). -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- Input window 7's current staging buffer holds its block at every point, fetched there or not (the index has not moved where it is not fetched). -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
/-- Input window 8's current staging buffer holds its block at every point, fetched there or not (the index has not moved where it is not fetched). -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
/-- Input window 9's current staging buffer holds its block at every point, fetched there or not (the index has not moved where it is not fetched). -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
/-- Input window 10's current staging buffer holds its block at every point, fetched there or not (the index has not moved where it is not fetched). -/
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and store is of a whole buffer -/

abbrev r3_0 : Rect S1024x128 := Rect.unit (s := S1024x128) ![0, 0] S1024x128.size inb_S1024x128_S1024x128_0_0
abbrev r3_1 : Rect S1024x512 := Rect.unit (s := S1024x512) ![0, 0] S1024x512.size inb_S1024x512_S1024x512_0_0
abbrev r3_2 : Rect S1024x512 := Rect.unit (s := S1024x512) ![0, 0] S1024x512.size inb_S1024x512_S1024x512_0_0
abbrev r3_3 : Rect S128x384 := Rect.unit (s := S128x384) ![0, 0] S128x384.size inb_S128x384_S128x384_0_0
abbrev r3_4 : Rect S1x384 := Rect.unit (s := S1x384) ![0, 0] S1x384.size inb_S1x384_S1x384_0_0
abbrev r3_5 : Rect S512x384 := Rect.unit (s := S512x384) ![0, 0] S512x384.size inb_S512x384_S512x384_0_0
abbrev r3_6 : Rect S1x384 := Rect.unit (s := S1x384) ![0, 0] S1x384.size inb_S1x384_S1x384_0_0
abbrev r3_7 : Rect S128x128 := Rect.unit (s := S128x128) ![0, 0] S128x128.size inb_S128x128_S128x128_0_0
abbrev r3_8 : Rect S1x128 := Rect.unit (s := S1x128) ![0, 0] S1x128.size inb_S1x128_S1x128_0_0
abbrev r3_9 : Rect S512x512 := Rect.unit (s := S512x512) ![0, 0] S512x512.size inb_S512x512_S512x512_0_0
abbrev r3_10 : Rect S1x512 := Rect.unit (s := S1x512) ![0, 0] S1x512.size inb_S1x512_S1x512_0_0
abbrev r3_11 : Rect S1024x128 := Rect.unit (s := S1024x128) ![0, 0] S1024x128.size inb_S1024x128_S1024x128_0_0
abbrev r3_12 : Rect S1024x128 := Rect.unit (s := S1024x128) ![0, 0] S1024x128.size inb_S1024x128_S1024x128_0_0

/-- The first output buffer after the body, from the input blocks: its one store, of the new hidden rows. -/
def out3_11 (x0 : Vec F S1024x128 .f32) (x1 : Vec F S1024x512 .f32) (x2 : Vec F S1024x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  View.canon [⟨r3_11, bodyH3 (View.ld x0 r3_0) (View.ld x1 r3_1) (View.ld x2 r3_2) (View.ld x3 r3_3) (View.ld x4 r3_4) (View.ld x5 r3_5) (View.ld x6 r3_6) (View.ld x7 r3_7) (View.ld x8 r3_8) (View.ld x9 r3_9) (View.ld x10 r3_10)⟩]
/-- The second output buffer after the body: its one store, of the new cell rows. -/
def out3_12 (x0 : Vec F S1024x128 .f32) (x1 : Vec F S1024x512 .f32) (x2 : Vec F S1024x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1024x128 .f32 :=
  View.canon [⟨r3_12, bodyC3 (View.ld x0 r3_0) (View.ld x1 r3_1) (View.ld x2 r3_2) (View.ld x3 r3_3) (View.ld x4 r3_4) (View.ld x5 r3_5) (View.ld x6 r3_6) (View.ld x7 r3_7) (View.ld x8 r3_8) (View.ld x9 r3_9) (View.ld x10 r3_10)⟩]

/-- The one store covers the buffer. -/
theorem cover3_11 (p0 : Vec F S1024x128 .f32) (y : S1024x128.Idx) :
    ∃ pc ∈ ([⟨r3_11, p0⟩] : List (View.Piece (Elt F) S1024x128 .f32)), y ∈ pc.1.set :=
  View.cover_of_tiled [⟨r3_11, p0⟩] S1024x128.size (by rfl) y
theorem cover3_12 (p0 : Vec F S1024x128 .f32) (y : S1024x128.Idx) :
    ∃ pc ∈ ([⟨r3_12, p0⟩] : List (View.Piece (Elt F) S1024x128 .f32)), y ∈ pc.1.set :=
  View.cover_of_tiled [⟨r3_12, p0⟩] S1024x128.size (by rfl) y

set_option maxHeartbeats 4000000 in
/-- The body on whole staging buffers, the inputs' at contents x0 … x10 and the outputs' at anything, runs to the continuation holding
    the inputs' as they were and the outputs' at out3_11, out3_12 of the inputs'. -/
theorem sound_kernel3 (c : Dev nD) (E : Set ℕ) (i : grid3.Coords) (arg1 : Memref sig .tc .vmem S1024x128 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S512x384 .f32) (harg6 : arg6.IsWhole) (arg7 : Memref sig .tc .vmem S1x384 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S1024x128 .f32) (harg12 : arg12.IsWhole) (arg13 : Memref sig .tc .vmem S1024x128 .f32) (harg13 : arg13.IsWhole)
    (x0 : Vec F S1024x128 .f32) (x1 : Vec F S1024x512 .f32) (x2 : Vec F S1024x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out3_11 x0 x1 x2 x3 x4 x5 x6 x7 x8 x9 x10) ∗ owns (c : Thread nD τ) arg13 fullShare (out3_12 x0 x1 x2 x3 x4 x5 x6 x7 x8 x9 x10)) -∗ K ⟨⟩))
      ⊢ wp frame (wpE (defs₀ (F := F)) Variants.none c none) E (cc3_kernel i arg1 harg1 arg2 harg2 arg3 harg3 arg4 harg4 arg5 harg5 arg6 harg6 arg7 harg7 arg8 harg8 arg9 harg9 arg10 harg10 arg11 harg11 arg12 harg12 arg13 harg13) K := by
  simp only [cc3_kernel_eq_skeleton]; unfold cc3_kernel_skel
  simp only [k3_part1_eq_skeleton]; unfold k3_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover3_11 _)
  iexists _; isplitr
  swap; · iexact H12
  ipureintro
  try dsimp only
  exact View.read_writes_eq_canon _ _ _ (cover3_12 _)

/-- The proof data of the region's pipeline on core c: the arrays as the region finds them; after the body at point t each
    input's buffer at its block and each output's at the body's function of the input blocks; the invariant the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
    | ⟨12, _⟩ => out3_12 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]
theorem after3_12 (c : Dev nD) (t : Fin cfg3.N) : (dat3 V c).after 12 t = out3_12 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t))

/-- The body at any point: the inputs' buffers hold their blocks, so sound_kernel3 applies; the invariant and the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel3 c Set.univ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Region4.lean ====
/-
  Region 4 of the program (the cell applied to one level of the tree, 256 nodes per grid point), at a PARAMETER V: the
  contents of the core's buffers when the region is entered.  Each window's block at a grid point is read off its
  array in V; the body, run on staging buffers holding the eleven input blocks, leaves them as they were and leaves in
  the two output buffers the new hidden rows and the new cell rows of those blocks (bodyH4, bodyC4); with that, the proof
  data of the region's pipeline (its arrays those of V, after the body each input buffer at its block and each output
  buffer at the body's function of the input blocks, nothing owed) meets the pipeline's body obligation at every point.
-/
import proofs.«148344_j70635032150607_1_alg».proof.Proof.Gen.KernelIdeal.Launch
import proofs.«148344_j70635032150607_1_alg».proof.Proof.Gen.KernelIdeal.Skeleton
import proofs.«148344_j70635032150607_1_alg».proof.Proof.Gen.KernelIdeal.Points
import proofs.«148344_j70635032150607_1_alg».proof.Proof.KI.Bodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (the index has not moved where it is not fetched). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not (the index has not moved where it is not fetched). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not (the index has not moved where it is not fetched). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not (the index has not moved where it is not fetched). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, fetched there or not (the index has not moved where it is not fetched). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- Input window 5's current staging buffer holds its block at every point, fetched there or not (the index has not moved where it is not fetched). -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
/-- Input window 6's current staging buffer holds its block at every point, fetched there or not (the index has not moved where it is not fetched). -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
/-- Input window 7's current staging buffer holds its block at every point, fetched there or not (the index has not moved where it is not fetched). -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)
/-- Input window 8's current staging buffer holds its block at every point, fetched there or not (the index has not moved where it is not fetched). -/
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)
/-- Input window 9's current staging buffer holds its block at every point, fetched there or not (the index has not moved where it is not fetched). -/
theorem before4_9_of {c : Dev nD} (dat : Dat τ (Elt F) Unit ℕ (UR sig nD τ) ℕ cfg4 c) (hA : dat.A 9 = V c (Pipeline.arrRef spec4 9))
    (hafter : ∀ t, dat.after 9 t = iblk4 V c 9 t) (t : Fin cfg4.N) (d) : dat.before 9 t d = iblk4 V c 9 t :=
  (dat.before_in_eq_fetched 9 rfl (fun _ => rfl) (fun _ _ _ => rfl) (fun t => by rw [hafter]; unfold Dat.blockOf iblk4; rw [hA]; try rfl) t d).trans
    (by unfold Dat.fetched Dat.blockOf iblk4; rw [hA]; try rfl)
/-- Input window 10's current staging buffer holds its block at every point, fetched there or not (the index has not moved where it is not fetched). -/
theorem before4_10_of {c : Dev nD} (dat : Dat τ (Elt F) Unit ℕ (UR sig nD τ) ℕ cfg4 c) (hA : dat.A 10 = V c (Pipeline.arrRef spec4 10))
    (hafter : ∀ t, dat.after 10 t = iblk4 V c 10 t) (t : Fin cfg4.N) (d) : dat.before 10 t d = iblk4 V c 10 t :=
  (dat.before_in_eq_fetched 10 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and store is of a whole buffer -/

abbrev r4_0 : Rect S256x128 := Rect.unit (s := S256x128) ![0, 0] S256x128.size inb_S256x128_S256x128_0_0
abbrev r4_1 : Rect S256x512 := Rect.unit (s := S256x512) ![0, 0] S256x512.size inb_S256x512_S256x512_0_0
abbrev r4_2 : Rect S256x512 := Rect.unit (s := S256x512) ![0, 0] S256x512.size inb_S256x512_S256x512_0_0
abbrev r4_3 : Rect S128x384 := Rect.unit (s := S128x384) ![0, 0] S128x384.size inb_S128x384_S128x384_0_0
abbrev r4_4 : Rect S1x384 := Rect.unit (s := S1x384) ![0, 0] S1x384.size inb_S1x384_S1x384_0_0
abbrev r4_5 : Rect S512x384 := Rect.unit (s := S512x384) ![0, 0] S512x384.size inb_S512x384_S512x384_0_0
abbrev r4_6 : Rect S1x384 := Rect.unit (s := S1x384) ![0, 0] S1x384.size inb_S1x384_S1x384_0_0
abbrev r4_7 : Rect S128x128 := Rect.unit (s := S128x128) ![0, 0] S128x128.size inb_S128x128_S128x128_0_0
abbrev r4_8 : Rect S1x128 := Rect.unit (s := S1x128) ![0, 0] S1x128.size inb_S1x128_S1x128_0_0
abbrev r4_9 : Rect S512x512 := Rect.unit (s := S512x512) ![0, 0] S512x512.size inb_S512x512_S512x512_0_0
abbrev r4_10 : Rect S1x512 := Rect.unit (s := S1x512) ![0, 0] S1x512.size inb_S1x512_S1x512_0_0
abbrev r4_11 : Rect S256x128 := Rect.unit (s := S256x128) ![0, 0] S256x128.size inb_S256x128_S256x128_0_0
abbrev r4_12 : Rect S256x128 := Rect.unit (s := S256x128) ![0, 0] S256x128.size inb_S256x128_S256x128_0_0

/-- The first output buffer after the body, from the input blocks: its one store, of the new hidden rows. -/
def out4_11 (x0 : Vec F S256x128 .f32) (x1 : Vec F S256x512 .f32) (x2 : Vec F S256x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S256x128 .f32 :=
  View.canon [⟨r4_11, bodyH4 (View.ld x0 r4_0) (View.ld x1 r4_1) (View.ld x2 r4_2) (View.ld x3 r4_3) (View.ld x4 r4_4) (View.ld x5 r4_5) (View.ld x6 r4_6) (View.ld x7 r4_7) (View.ld x8 r4_8) (View.ld x9 r4_9) (View.ld x10 r4_10)⟩]
/-- The second output buffer after the body: its one store, of the new cell rows. -/
def out4_12 (x0 : Vec F S256x128 .f32) (x1 : Vec F S256x512 .f32) (x2 : Vec F S256x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S256x128 .f32 :=
  View.canon [⟨r4_12, bodyC4 (View.ld x0 r4_0) (View.ld x1 r4_1) (View.ld x2 r4_2) (View.ld x3 r4_3) (View.ld x4 r4_4) (View.ld x5 r4_5) (View.ld x6 r4_6) (View.ld x7 r4_7) (View.ld x8 r4_8) (View.ld x9 r4_9) (View.ld x10 r4_10)⟩]

/-- The one store covers the buffer. -/
theorem cover4_11 (p0 : Vec F S256x128 .f32) (y : S256x128.Idx) :
    ∃ pc ∈ ([⟨r4_11, p0⟩] : List (View.Piece (Elt F) S256x128 .f32)), y ∈ pc.1.set :=
  View.cover_of_tiled [⟨r4_11, p0⟩] S256x128.size (by rfl) y
theorem cover4_12 (p0 : Vec F S256x128 .f32) (y : S256x128.Idx) :
    ∃ pc ∈ ([⟨r4_12, p0⟩] : List (View.Piece (Elt F) S256x128 .f32)), y ∈ pc.1.set :=
  View.cover_of_tiled [⟨r4_12, p0⟩] S256x128.size (by rfl) y

set_option maxHeartbeats 4000000 in
/-- The body on whole staging buffers, the inputs' at contents x0 … x10 and the outputs' at anything, runs to the continuation holding
    the inputs' as they were and the outputs' at out4_11, out4_12 of the inputs'. -/
theorem sound_kernel4 (c : Dev nD) (E : Set ℕ) (i : grid4.Coords) (arg1 : Memref sig .tc .vmem S256x128 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S512x384 .f32) (harg6 : arg6.IsWhole) (arg7 : Memref sig .tc .vmem S1x384 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S256x128 .f32) (harg12 : arg12.IsWhole) (arg13 : Memref sig .tc .vmem S256x128 .f32) (harg13 : arg13.IsWhole)
    (x0 : Vec F S256x128 .f32) (x1 : Vec F S256x512 .f32) (x2 : Vec F S256x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out4_11 x0 x1 x2 x3 x4 x5 x6 x7 x8 x9 x10) ∗ owns (c : Thread nD τ) arg13 fullShare (out4_12 x0 x1 x2 x3 x4 x5 x6 x7 x8 x9 x10)) -∗ K ⟨⟩))
      ⊢ wp frame (wpE (defs₀ (F := F)) Variants.none c none) E (cc4_kernel i arg1 harg1 arg2 harg2 arg3 harg3 arg4 harg4 arg5 harg5 arg6 harg6 arg7 harg7 arg8 harg8 arg9 harg9 arg10 harg10 arg11 harg11 arg12 harg12 arg13 harg13) K := by
  simp only [cc4_kernel_eq_skeleton]; unfold cc4_kernel_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover4_11 _)
  iexists _; isplitr
  swap; · iexact H12
  ipureintro
  try dsimp only
  exact View.read_writes_eq_canon _ _ _ (cover4_12 _)

/-- The proof data of the region's pipeline on core c: the arrays as the region finds them; after the body at point t each
    input's buffer at its block and each output's at the body's function of the input blocks; the invariant the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => out4_11 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t)
    | ⟨12, _⟩ => out4_12 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = iblk4 V c 10 t := by dsimp only [dat4]
theorem after4_11 (c : Dev nD) (t : Fin cfg4.N) : (dat4 V c).after 11 t = out4_11 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) := by dsimp only [dat4]
theorem after4_12 (c : Dev nD) (t : Fin cfg4.N) : (dat4 V c).after 12 t = out4_12 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d
theorem before4_9 (c : Dev nD) (t : Fin cfg4.N) (d) : (dat4 V c).before 9 t d = iblk4 V c 9 t :=
  before4_9_of V (dat4 V c) (A_eq4 V c 9) (after4_9 V c) t d
theorem before4_10 (c : Dev nD) (t : Fin cfg4.N) (d) : (dat4 V c).before 10 t d = iblk4 V c 10 t :=
  before4_10_of V (dat4 V c) (A_eq4 V c 10) (after4_10 V c) t d

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d))
    ∗ (∃ d, owns (c : Thread nD τ) (st4_12 t) fullShare ((dat4 V c).before 12 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t)
    ∗ owns (c : Thread nD τ) (st4_12 t) fullShare ((dat4 V c).after 12 t))

/-- The body at any point: the inputs' buffers hold their blocks, so sound_kernel4 applies; the invariant and the core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9, before4_10]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11, after4_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel4 c Set.univ _ _ _ _ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Region5.lean ====
/-
  Region 5 of the program (the cell applied to one level of the tree, 64 nodes per grid point), at a PARAMETER V: the
  contents of the core's buffers when the region is entered.  Each window's block at a grid point is read off its
  array in V; the body, run on staging buffers holding the eleven input blocks, leaves them as they were and leaves in
  the two output buffers the new hidden rows and the new cell rows of those blocks (bodyH5, bodyC5); with that, the proof
  data of the region's pipeline (its arrays those of V, after the body each input buffer at its block and each output
  buffer at the body's function of the input blocks, nothing owed) meets the pipeline's body obligation at every point.
-/
import proofs.«148344_j70635032150607_1_alg».proof.Proof.Gen.KernelIdeal.Launch
import proofs.«148344_j70635032150607_1_alg».proof.Proof.Gen.KernelIdeal.Skeleton
import proofs.«148344_j70635032150607_1_alg».proof.Proof.Gen.KernelIdeal.Points
import proofs.«148344_j70635032150607_1_alg».proof.Proof.KI.Bodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not (the index has not moved where it is not fetched). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not (the index has not moved where it is not fetched). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's current staging buffer holds its block at every point, fetched there or not (the index has not moved where it is not fetched). -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's current staging buffer holds its block at every point, fetched there or not (the index has not moved where it is not fetched). -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's current staging buffer holds its block at every point, fetched there or not (the index has not moved where it is not fetched). -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- Input window 5's current staging buffer holds its block at every point, fetched there or not (the index has not moved where it is not fetched). -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
/-- Input window 6's current staging buffer holds its block at every point, fetched there or not (the index has not moved where it is not fetched). -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
/-- Input window 7's current staging buffer holds its block at every point, fetched there or not (the index has not moved where it is not fetched). -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)
/-- Input window 8's current staging buffer holds its block at every point, fetched there or not (the index has not moved where it is not fetched). -/
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)
/-- Input window 9's current staging buffer holds its block at every point, fetched there or not (the index has not moved where it is not fetched). -/
theorem before5_9_of {c : Dev nD} (dat : Dat τ (Elt F) Unit ℕ (UR sig nD τ) ℕ cfg5 c) (hA : dat.A 9 = V c (Pipeline.arrRef spec5 9))
    (hafter : ∀ t, dat.after 9 t = iblk5 V c 9 t) (t : Fin cfg5.N) (d) : dat.before 9 t d = iblk5 V c 9 t :=
  (dat.before_in_eq_fetched 9 rfl (fun _ => rfl) (fun _ _ _ => rfl) (fun t => by rw [hafter]; unfold Dat.blockOf iblk5; rw [hA]; try rfl) t d).trans
    (by unfold Dat.fetched Dat.blockOf iblk5; rw [hA]; try rfl)
/-- Input window 10's current staging buffer holds its block at every point, fetched there or not (the index has not moved where it is not fetched). -/
theorem before5_10_of {c : Dev nD} (dat : Dat τ (Elt F) Unit ℕ (UR sig nD τ) ℕ cfg5 c) (hA : dat.A 10 = V c (Pipeline.arrRef spec5 10))
    (hafter : ∀ t, dat.after 10 t = iblk5 V c 10 t) (t : Fin cfg5.N) (d) : dat.before 10 t d = iblk5 V c 10 t :=
  (dat.before_in_eq_fetched 10 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and store is of a whole buffer -/

abbrev r5_0 : Rect S64x128 := Rect.unit (s := S64x128) ![0, 0] S64x128.size inb_S64x128_S64x128_0_0
abbrev r5_1 : Rect S64x512 := Rect.unit (s := S64x512) ![0, 0] S64x512.size inb_S64x512_S64x512_0_0
abbrev r5_2 : Rect S64x512 := Rect.unit (s := S64x512) ![0, 0] S64x512.size inb_S64x512_S64x512_0_0
abbrev r5_3 : Rect S128x384 := Rect.unit (s := S128x384) ![0, 0] S128x384.size inb_S128x384_S128x384_0_0
abbrev r5_4 : Rect S1x384 := Rect.unit (s := S1x384) ![0, 0] S1x384.size inb_S1x384_S1x384_0_0
abbrev r5_5 : Rect S512x384 := Rect.unit (s := S512x384) ![0, 0] S512x384.size inb_S512x384_S512x384_0_0
abbrev r5_6 : Rect S1x384 := Rect.unit (s := S1x384) ![0, 0] S1x384.size inb_S1x384_S1x384_0_0
abbrev r5_7 : Rect S128x128 := Rect.unit (s := S128x128) ![0, 0] S128x128.size inb_S128x128_S128x128_0_0
abbrev r5_8 : Rect S1x128 := Rect.unit (s := S1x128) ![0, 0] S1x128.size inb_S1x128_S1x128_0_0
abbrev r5_9 : Rect S512x512 := Rect.unit (s := S512x512) ![0, 0] S512x512.size inb_S512x512_S512x512_0_0
abbrev r5_10 : Rect S1x512 := Rect.unit (s := S1x512) ![0, 0] S1x512.size inb_S1x512_S1x512_0_0
abbrev r5_11 : Rect S64x128 := Rect.unit (s := S64x128) ![0, 0] S64x128.size inb_S64x128_S64x128_0_0
abbrev r5_12 : Rect S64x128 := Rect.unit (s := S64x128) ![0, 0] S64x128.size inb_S64x128_S64x128_0_0

/-- The first output buffer after the body, from the input blocks: its one store, of the new hidden rows. -/
def out5_11 (x0 : Vec F S64x128 .f32) (x1 : Vec F S64x512 .f32) (x2 : Vec F S64x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S64x128 .f32 :=
  View.canon [⟨r5_11, bodyH5 (View.ld x0 r5_0) (View.ld x1 r5_1) (View.ld x2 r5_2) (View.ld x3 r5_3) (View.ld x4 r5_4) (View.ld x5 r5_5) (View.ld x6 r5_6) (View.ld x7 r5_7) (View.ld x8 r5_8) (View.ld x9 r5_9) (View.ld x10 r5_10)⟩]
/-- The second output buffer after the body: its one store, of the new cell rows. -/
def out5_12 (x0 : Vec F S64x128 .f32) (x1 : Vec F S64x512 .f32) (x2 : Vec F S64x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S64x128 .f32 :=
  View.canon [⟨r5_12, bodyC5 (View.ld x0 r5_0) (View.ld x1 r5_1) (View.ld x2 r5_2) (View.ld x3 r5_3) (View.ld x4 r5_4) (View.ld x5 r5_5) (View.ld x6 r5_6) (View.ld x7 r5_7) (View.ld x8 r5_8) (View.ld x9 r5_9) (View.ld x10 r5_10)⟩]

/-- The one store covers the buffer. -/
theorem cover5_11 (p0 : Vec F S64x128 .f32) (y : S64x128.Idx) :
    ∃ pc ∈ ([⟨r5_11, p0⟩] : List (View.Piece (Elt F) S64x128 .f32)), y ∈ pc.1.set :=
  View.cover_of_tiled [⟨r5_11, p0⟩] S64x128.size (by rfl) y
theorem cover5_12 (p0 : Vec F S64x128 .f32) (y : S64x128.Idx) :
    ∃ pc ∈ ([⟨r5_12, p0⟩] : List (View.Piece (Elt F) S64x128 .f32)), y ∈ pc.1.set :=
  View.cover_of_tiled [⟨r5_12, p0⟩] S64x128.size (by rfl) y

set_option maxHeartbeats 4000000 in
/-- The body on whole staging buffers, the inputs' at contents x0 … x10 and the outputs' at anything, runs to the continuation holding
    the inputs' as they were and the outputs' at out5_11, out5_12 of the inputs'. -/
theorem sound_kernel5 (c : Dev nD) (E : Set ℕ) (i : grid5.Coords) (arg1 : Memref sig .tc .vmem S64x128 .f32) (harg1 : arg1.IsWhole) (arg2 : Memref sig .tc .vmem S64x512 .f32) (harg2 : arg2.IsWhole) (arg3 : Memref sig .tc .vmem S64x512 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S512x384 .f32) (harg6 : arg6.IsWhole) (arg7 : Memref sig .tc .vmem S1x384 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S64x128 .f32) (harg12 : arg12.IsWhole) (arg13 : Memref sig .tc .vmem S64x128 .f32) (harg13 : arg13.IsWhole)
    (x0 : Vec F S64x128 .f32) (x1 : Vec F S64x512 .f32) (x2 : Vec F S64x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out5_11 x0 x1 x2 x3 x4 x5 x6 x7 x8 x9 x10) ∗ owns (c : Thread nD τ) arg13 fullShare (out5_12 x0 x1 x2 x3 x4 x5 x6 x7 x8 x9 x10)) -∗ K ⟨⟩))
      ⊢ wp frame (wpE (defs₀ (F := F)) Variants.none c none) E (cc5_kernel i arg1 harg1 arg2 harg2 arg3 harg3 arg4 harg4 arg5 harg5 arg6 harg6 arg7 harg7 arg8 harg8 arg9 harg9 arg10 harg10 arg11 harg11 arg12 harg12 arg13 harg13) K := by
  simp only [cc5_kernel_eq_skeleton]; unfold cc5_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover5_11 _)
  iexists _; isplitr
  swap; · iexact H12
  ipureintro
  try dsimp only
  exact View.read_writes_eq_canon _ _ _ (cover5_12 _)

/-- The proof data of the region's pipeline on core c: the arrays as the region finds them; after the body at point t each
    input's buffer at its block and each output's at the body's function of the input blocks; the invariant the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => iblk5 V c 10 t
    | ⟨11, _⟩ => out5_11 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t)
    | ⟨12, _⟩ => out5_12 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = iblk5 V c 10 t := by dsimp only [dat5]
theorem after5_11 (c : Dev nD) (t : Fin cfg5.N) : (dat5 V c).after 11 t = out5_11 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) := by dsimp only [dat5]
theorem after5_12 (c : Dev nD) (t : Fin cfg5.N) : (dat5 V c).after 12 t = out5_12 (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d
theorem before5_9 (c : Dev nD) (t : Fin cfg5.N) (d) : (dat5 V c).before 9 t d = iblk5 V c 9 t :=
  before5_9_of V (dat5 V c) (A_eq5 V c 9) (after5_9 V c) t d
theorem before5_10 (c : Dev nD) (t : Fin cfg5.N) (d) : (dat5 V c).before 10 t d = iblk5 V c 10 t :=
  before5_10_of V (dat5 V c) (A_eq5 V c 10) (after5_10 V c) t d

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d))
    ∗ (∃ d, owns (c : Thread nD τ) (st5_11 t) fullShare ((dat5 V c).before 11 t d))
    ∗ (∃ d, owns (c : Thread nD τ) (st5_12 t) fullShare ((dat5 V c).before 12 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t)
    ∗ owns (c : Thread nD τ) (st5_11 t) fullShare ((dat5 V c).after 11 t)
    ∗ owns (c : Thread nD τ) (st5_12 t) fullShare ((dat5 V c).after 12 t))

/-- The body at any point: the inputs' buffers hold their blocks, so sound_kernel5 applies; the invariant and the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8, before5_9, before5_10]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10, after5_11, after5_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel5 c Set.univ _ _ _ _ _ _ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Region6.lean ====
/-
  Region 6 of the program (the cell applied to one level of the tree, 16 nodes per grid point), at a PARAMETER V: the
  contents of the core's buffers when the region is entered.  Each window's block at a grid point is read off its
  array in V; the body, run on staging buffers holding the eleven input blocks, leaves them as they were and leaves in
  the two output buffers the new hidden rows and the new cell rows of those blocks (bodyH6, bodyC6); with that, the proof
  data of the region's pipeline (its arrays those of V, after the body each input buffer at its block and each output
  buffer at the body's function of the input blocks, nothing owed) meets the pipeline's body obligation at every point.
-/
import proofs.«148344_j70635032150607_1_alg».proof.Proof.Gen.KernelIdeal.Launch
import proofs.«148344_j70635032150607_1_alg».proof.Proof.Gen.KernelIdeal.Skeleton
import proofs.«148344_j70635032150607_1_alg».proof.Proof.Gen.KernelIdeal.Points
import proofs.«148344_j70635032150607_1_alg».proof.Proof.KI.Bodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not (the index has not moved where it is not fetched). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, fetched there or not (the index has not moved where it is not fetched). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
/-- Input window 2's current staging buffer holds its block at every point, fetched there or not (the index has not moved where it is not fetched). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
/-- Input window 3's current staging buffer holds its block at every point, fetched there or not (the index has not moved where it is not fetched). -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
/-- Input window 4's current staging buffer holds its block at every point, fetched there or not (the index has not moved where it is not fetched). -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
/-- Input window 5's current staging buffer holds its block at every point, fetched there or not (the index has not moved where it is not fetched). -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
/-- Input window 6's current staging buffer holds its block at every point, fetched there or not (the index has not moved where it is not fetched). -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)
/-- Input window 7's current staging buffer holds its block at every point, fetched there or not (the index has not moved where it is not fetched). -/
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)
/-- Input window 8's current staging buffer holds its block at every point, fetched there or not (the index has not moved where it is not fetched). -/
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)
/-- Input window 9's current staging buffer holds its block at every point, fetched there or not (the index has not moved where it is not fetched). -/
theorem before6_9_of {c : Dev nD} (dat : Dat τ (Elt F) Unit ℕ (UR sig nD τ) ℕ cfg6 c) (hA : dat.A 9 = V c (Pipeline.arrRef spec6 9))
    (hafter : ∀ t, dat.after 9 t = iblk6 V c 9 t) (t : Fin cfg6.N) (d) : dat.before 9 t d = iblk6 V c 9 t :=
  (dat.before_in_eq_fetched 9 rfl (fun _ => rfl) (fun _ _ _ => rfl) (fun t => by rw [hafter]; unfold Dat.blockOf iblk6; rw [hA]; try rfl) t d).trans
    (by unfold Dat.fetched Dat.blockOf iblk6; rw [hA]; try rfl)
/-- Input window 10's current staging buffer holds its block at every point, fetched there or not (the index has not moved where it is not fetched). -/
theorem before6_10_of {c : Dev nD} (dat : Dat τ (Elt F) Unit ℕ (UR sig nD τ) ℕ cfg6 c) (hA : dat.A 10 = V c (Pipeline.arrRef spec6 10))
    (hafter : ∀ t, dat.after 10 t = iblk6 V c 10 t) (t : Fin cfg6.N) (d) : dat.before 10 t d = iblk6 V c 10 t :=
  (dat.before_in_eq_fetched 10 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and store is of a whole buffer -/

abbrev r6_0 : Rect S16x128 := Rect.unit (s := S16x128) ![0, 0] S16x128.size inb_S16x128_S16x128_0_0
abbrev r6_1 : Rect S16x512 := Rect.unit (s := S16x512) ![0, 0] S16x512.size inb_S16x512_S16x512_0_0
abbrev r6_2 : Rect S16x512 := Rect.unit (s := S16x512) ![0, 0] S16x512.size inb_S16x512_S16x512_0_0
abbrev r6_3 : Rect S128x384 := Rect.unit (s := S128x384) ![0, 0] S128x384.size inb_S128x384_S128x384_0_0
abbrev r6_4 : Rect S1x384 := Rect.unit (s := S1x384) ![0, 0] S1x384.size inb_S1x384_S1x384_0_0
abbrev r6_5 : Rect S512x384 := Rect.unit (s := S512x384) ![0, 0] S512x384.size inb_S512x384_S512x384_0_0
abbrev r6_6 : Rect S1x384 := Rect.unit (s := S1x384) ![0, 0] S1x384.size inb_S1x384_S1x384_0_0
abbrev r6_7 : Rect S128x128 := Rect.unit (s := S128x128) ![0, 0] S128x128.size inb_S128x128_S128x128_0_0
abbrev r6_8 : Rect S1x128 := Rect.unit (s := S1x128) ![0, 0] S1x128.size inb_S1x128_S1x128_0_0
abbrev r6_9 : Rect S512x512 := Rect.unit (s := S512x512) ![0, 0] S512x512.size inb_S512x512_S512x512_0_0
abbrev r6_10 : Rect S1x512 := Rect.unit (s := S1x512) ![0, 0] S1x512.size inb_S1x512_S1x512_0_0
abbrev r6_11 : Rect S16x128 := Rect.unit (s := S16x128) ![0, 0] S16x128.size inb_S16x128_S16x128_0_0
abbrev r6_12 : Rect S16x128 := Rect.unit (s := S16x128) ![0, 0] S16x128.size inb_S16x128_S16x128_0_0

/-- The first output buffer after the body, from the input blocks: its one store, of the new hidden rows. -/
def out6_11 (x0 : Vec F S16x128 .f32) (x1 : Vec F S16x512 .f32) (x2 : Vec F S16x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S16x128 .f32 :=
  View.canon [⟨r6_11, bodyH6 (View.ld x0 r6_0) (View.ld x1 r6_1) (View.ld x2 r6_2) (View.ld x3 r6_3) (View.ld x4 r6_4) (View.ld x5 r6_5) (View.ld x6 r6_6) (View.ld x7 r6_7) (View.ld x8 r6_8) (View.ld x9 r6_9) (View.ld x10 r6_10)⟩]
/-- The second output buffer after the body: its one store, of the new cell rows. -/
def out6_12 (x0 : Vec F S16x128 .f32) (x1 : Vec F S16x512 .f32) (x2 : Vec F S16x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S16x128 .f32 :=
  View.canon [⟨r6_12, bodyC6 (View.ld x0 r6_0) (View.ld x1 r6_1) (View.ld x2 r6_2) (View.ld x3 r6_3) (View.ld x4 r6_4) (View.ld x5 r6_5) (View.ld x6 r6_6) (View.ld x7 r6_7) (View.ld x8 r6_8) (View.ld x9 r6_9) (View.ld x10 r6_10)⟩]

/-- The one store covers the buffer. -/
theorem cover6_11 (p0 : Vec F S16x128 .f32) (y : S16x128.Idx) :
    ∃ pc ∈ ([⟨r6_11, p0⟩] : List (View.Piece (Elt F) S16x128 .f32)), y ∈ pc.1.set :=
  View.cover_of_tiled [⟨r6_11, p0⟩] S16x128.size (by rfl) y
theorem cover6_12 (p0 : Vec F S16x128 .f32) (y : S16x128.Idx) :
    ∃ pc ∈ ([⟨r6_12, p0⟩] : List (View.Piece (Elt F) S16x128 .f32)), y ∈ pc.1.set :=
  View.cover_of_tiled [⟨r6_12, p0⟩] S16x128.size (by rfl) y

set_option maxHeartbeats 4000000 in
/-- The body on whole staging buffers, the inputs' at contents x0 … x10 and the outputs' at anything, runs to the continuation holding
    the inputs' as they were and the outputs' at out6_11, out6_12 of the inputs'. -/
theorem sound_kernel6 (c : Dev nD) (E : Set ℕ) (i : grid6.Coords) (arg1 : Memref sig .tc .vmem S16x128 .f32) (harg1 : arg1.IsWhole) (arg2 : Memref sig .tc .vmem S16x512 .f32) (harg2 : arg2.IsWhole) (arg3 : Memref sig .tc .vmem S16x512 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S512x384 .f32) (harg6 : arg6.IsWhole) (arg7 : Memref sig .tc .vmem S1x384 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S16x128 .f32) (harg12 : arg12.IsWhole) (arg13 : Memref sig .tc .vmem S16x128 .f32) (harg13 : arg13.IsWhole)
    (x0 : Vec F S16x128 .f32) (x1 : Vec F S16x512 .f32) (x2 : Vec F S16x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out6_11 x0 x1 x2 x3 x4 x5 x6 x7 x8 x9 x10) ∗ owns (c : Thread nD τ) arg13 fullShare (out6_12 x0 x1 x2 x3 x4 x5 x6 x7 x8 x9 x10)) -∗ K ⟨⟩))
      ⊢ wp frame (wpE (defs₀ (F := F)) Variants.none c none) E (cc6_kernel i arg1 harg1 arg2 harg2 arg3 harg3 arg4 harg4 arg5 harg5 arg6 harg6 arg7 harg7 arg8 harg8 arg9 harg9 arg10 harg10 arg11 harg11 arg12 harg12 arg13 harg13) K := by
  simp only [cc6_kernel_eq_skeleton]; unfold cc6_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover6_11 _)
  iexists _; isplitr
  swap; · iexact H12
  ipureintro
  try dsimp only
  exact View.read_writes_eq_canon _ _ _ (cover6_12 _)

/-- The proof data of the region's pipeline on core c: the arrays as the region finds them; after the body at point t each
    input's buffer at its block and each output's at the body's function of the input blocks; the invariant the scoped rest and the
    generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => iblk6 V c 9 t
    | ⟨10, _⟩ => iblk6 V c 10 t
    | ⟨11, _⟩ => out6_11 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t)
    | ⟨12, _⟩ => out6_12 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = iblk6 V c 9 t := by dsimp only [dat6]
theorem after6_10 (c : Dev nD) (t : Fin cfg6.N) : (dat6 V c).after 10 t = iblk6 V c 10 t := by dsimp only [dat6]
theorem after6_11 (c : Dev nD) (t : Fin cfg6.N) : (dat6 V c).after 11 t = out6_11 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) := by dsimp only [dat6]
theorem after6_12 (c : Dev nD) (t : Fin cfg6.N) : (dat6 V c).after 12 t = out6_12 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d
theorem before6_8 (c : Dev nD) (t : Fin cfg6.N) (d) : (dat6 V c).before 8 t d = iblk6 V c 8 t :=
  before6_8_of V (dat6 V c) (A_eq6 V c 8) (after6_8 V c) t d
theorem before6_9 (c : Dev nD) (t : Fin cfg6.N) (d) : (dat6 V c).before 9 t d = iblk6 V c 9 t :=
  before6_9_of V (dat6 V c) (A_eq6 V c 9) (after6_9 V c) t d
theorem before6_10 (c : Dev nD) (t : Fin cfg6.N) (d) : (dat6 V c).before 10 t d = iblk6 V c 10 t :=
  before6_10_of V (dat6 V c) (A_eq6 V c 10) (after6_10 V c) t d

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d))
    ∗ (∃ d, owns (c : Thread nD τ) (st6_10 t) fullShare ((dat6 V c).before 10 t d))
    ∗ (∃ d, owns (c : Thread nD τ) (st6_11 t) fullShare ((dat6 V c).before 11 t d))
    ∗ (∃ d, owns (c : Thread nD τ) (st6_12 t) fullShare ((dat6 V c).before 12 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t)
    ∗ owns (c : Thread nD τ) (st6_10 t) fullShare ((dat6 V c).after 10 t)
    ∗ owns (c : Thread nD τ) (st6_11 t) fullShare ((dat6 V c).after 11 t)
    ∗ owns (c : Thread nD τ) (st6_12 t) fullShare ((dat6 V c).after 12 t))

/-- The body at any point: the inputs' buffers hold their blocks, so sound_kernel6 applies; the invariant and the core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8, before6_9, before6_10]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9, after6_10, after6_11, after6_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel6 c Set.univ _ _ _ _ _ _ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Region7.lean ====
/-
  Region 7 of the program (the cell applied to one level of the tree, 4 nodes per grid point), at a PARAMETER V: the
  contents of the core's buffers when the region is entered.  Each window's block at a grid point is read off its
  array in V; the body, run on staging buffers holding the eleven input blocks, leaves them as they were and leaves in
  the two output buffers the new hidden rows and the new cell rows of those blocks (bodyH7, bodyC7); with that, the proof
  data of the region's pipeline (its arrays those of V, after the body each input buffer at its block and each output
  buffer at the body's function of the input blocks, nothing owed) meets the pipeline's body obligation at every point.
-/
import proofs.«148344_j70635032150607_1_alg».proof.Proof.Gen.KernelIdeal.Launch
import proofs.«148344_j70635032150607_1_alg».proof.Proof.Gen.KernelIdeal.Skeleton
import proofs.«148344_j70635032150607_1_alg».proof.Proof.Gen.KernelIdeal.Points
import proofs.«148344_j70635032150607_1_alg».proof.Proof.KI.Bodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not (the index has not moved where it is not fetched). -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's current staging buffer holds its block at every point, fetched there or not (the index has not moved where it is not fetched). -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- Input window 2's current staging buffer holds its block at every point, fetched there or not (the index has not moved where it is not fetched). -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
/-- Input window 3's current staging buffer holds its block at every point, fetched there or not (the index has not moved where it is not fetched). -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
/-- Input window 4's current staging buffer holds its block at every point, fetched there or not (the index has not moved where it is not fetched). -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
/-- Input window 5's current staging buffer holds its block at every point, fetched there or not (the index has not moved where it is not fetched). -/
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
/-- Input window 6's current staging buffer holds its block at every point, fetched there or not (the index has not moved where it is not fetched). -/
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)
/-- Input window 7's current staging buffer holds its block at every point, fetched there or not (the index has not moved where it is not fetched). -/
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)
/-- Input window 8's current staging buffer holds its block at every point, fetched there or not (the index has not moved where it is not fetched). -/
theorem before7_8_of {c : Dev nD} (dat : Dat τ (Elt F) Unit ℕ (UR sig nD τ) ℕ cfg7 c) (hA : dat.A 8 = V c (Pipeline.arrRef spec7 8))
    (hafter : ∀ t, dat.after 8 t = iblk7 V c 8 t) (t : Fin cfg7.N) (d) : dat.before 8 t d = iblk7 V c 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)
/-- Input window 9's current staging buffer holds its block at every point, fetched there or not (the index has not moved where it is not fetched). -/
theorem before7_9_of {c : Dev nD} (dat : Dat τ (Elt F) Unit ℕ (UR sig nD τ) ℕ cfg7 c) (hA : dat.A 9 = V c (Pipeline.arrRef spec7 9))
    (hafter : ∀ t, dat.after 9 t = iblk7 V c 9 t) (t : Fin cfg7.N) (d) : dat.before 9 t d = iblk7 V c 9 t :=
  (dat.before_in_eq_fetched 9 rfl (fun _ => rfl) (fun _ _ _ => rfl) (fun t => by rw [hafter]; unfold Dat.blockOf iblk7; rw [hA]; try rfl) t d).trans
    (by unfold Dat.fetched Dat.blockOf iblk7; rw [hA]; try rfl)
/-- Input window 10's current staging buffer holds its block at every point, fetched there or not (the index has not moved where it is not fetched). -/
theorem before7_10_of {c : Dev nD} (dat : Dat τ (Elt F) Unit ℕ (UR sig nD τ) ℕ cfg7 c) (hA : dat.A 10 = V c (Pipeline.arrRef spec7 10))
    (hafter : ∀ t, dat.after 10 t = iblk7 V c 10 t) (t : Fin cfg7.N) (d) : dat.before 10 t d = iblk7 V c 10 t :=
  (dat.before_in_eq_fetched 10 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: every load and store is of a whole buffer -/

abbrev r7_0 : Rect S4x128 := Rect.unit (s := S4x128) ![0, 0] S4x128.size inb_S4x128_S4x128_0_0
abbrev r7_1 : Rect S4x512 := Rect.unit (s := S4x512) ![0, 0] S4x512.size inb_S4x512_S4x512_0_0
abbrev r7_2 : Rect S4x512 := Rect.unit (s := S4x512) ![0, 0] S4x512.size inb_S4x512_S4x512_0_0
abbrev r7_3 : Rect S128x384 := Rect.unit (s := S128x384) ![0, 0] S128x384.size inb_S128x384_S128x384_0_0
abbrev r7_4 : Rect S1x384 := Rect.unit (s := S1x384) ![0, 0] S1x384.size inb_S1x384_S1x384_0_0
abbrev r7_5 : Rect S512x384 := Rect.unit (s := S512x384) ![0, 0] S512x384.size inb_S512x384_S512x384_0_0
abbrev r7_6 : Rect S1x384 := Rect.unit (s := S1x384) ![0, 0] S1x384.size inb_S1x384_S1x384_0_0
abbrev r7_7 : Rect S128x128 := Rect.unit (s := S128x128) ![0, 0] S128x128.size inb_S128x128_S128x128_0_0
abbrev r7_8 : Rect S1x128 := Rect.unit (s := S1x128) ![0, 0] S1x128.size inb_S1x128_S1x128_0_0
abbrev r7_9 : Rect S512x512 := Rect.unit (s := S512x512) ![0, 0] S512x512.size inb_S512x512_S512x512_0_0
abbrev r7_10 : Rect S1x512 := Rect.unit (s := S1x512) ![0, 0] S1x512.size inb_S1x512_S1x512_0_0
abbrev r7_11 : Rect S4x128 := Rect.unit (s := S4x128) ![0, 0] S4x128.size inb_S4x128_S4x128_0_0
abbrev r7_12 : Rect S4x128 := Rect.unit (s := S4x128) ![0, 0] S4x128.size inb_S4x128_S4x128_0_0

/-- The first output buffer after the body, from the input blocks: its one store, of the new hidden rows. -/
def out7_11 (x0 : Vec F S4x128 .f32) (x1 : Vec F S4x512 .f32) (x2 : Vec F S4x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S4x128 .f32 :=
  View.canon [⟨r7_11, bodyH7 (View.ld x0 r7_0) (View.ld x1 r7_1) (View.ld x2 r7_2) (View.ld x3 r7_3) (View.ld x4 r7_4) (View.ld x5 r7_5) (View.ld x6 r7_6) (View.ld x7 r7_7) (View.ld x8 r7_8) (View.ld x9 r7_9) (View.ld x10 r7_10)⟩]
/-- The second output buffer after the body: its one store, of the new cell rows. -/
def out7_12 (x0 : Vec F S4x128 .f32) (x1 : Vec F S4x512 .f32) (x2 : Vec F S4x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S4x128 .f32 :=
  View.canon [⟨r7_12, bodyC7 (View.ld x0 r7_0) (View.ld x1 r7_1) (View.ld x2 r7_2) (View.ld x3 r7_3) (View.ld x4 r7_4) (View.ld x5 r7_5) (View.ld x6 r7_6) (View.ld x7 r7_7) (View.ld x8 r7_8) (View.ld x9 r7_9) (View.ld x10 r7_10)⟩]

/-- The one store covers the buffer. -/
theorem cover7_11 (p0 : Vec F S4x128 .f32) (y : S4x128.Idx) :
    ∃ pc ∈ ([⟨r7_11, p0⟩] : List (View.Piece (Elt F) S4x128 .f32)), y ∈ pc.1.set :=
  View.cover_of_tiled [⟨r7_11, p0⟩] S4x128.size (by rfl) y
theorem cover7_12 (p0 : Vec F S4x128 .f32) (y : S4x128.Idx) :
    ∃ pc ∈ ([⟨r7_12, p0⟩] : List (View.Piece (Elt F) S4x128 .f32)), y ∈ pc.1.set :=
  View.cover_of_tiled [⟨r7_12, p0⟩] S4x128.size (by rfl) y

set_option maxHeartbeats 4000000 in
/-- The body on whole staging buffers, the inputs' at contents x0 … x10 and the outputs' at anything, runs to the continuation holding
    the inputs' as they were and the outputs' at out7_11, out7_12 of the inputs'. -/
theorem sound_kernel7 (c : Dev nD) (E : Set ℕ) (i : grid7.Coords) (arg1 : Memref sig .tc .vmem S4x128 .f32) (harg1 : arg1.IsWhole) (arg2 : Memref sig .tc .vmem S4x512 .f32) (harg2 : arg2.IsWhole) (arg3 : Memref sig .tc .vmem S4x512 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S512x384 .f32) (harg6 : arg6.IsWhole) (arg7 : Memref sig .tc .vmem S1x384 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S4x128 .f32) (harg12 : arg12.IsWhole) (arg13 : Memref sig .tc .vmem S4x128 .f32) (harg13 : arg13.IsWhole)
    (x0 : Vec F S4x128 .f32) (x1 : Vec F S4x512 .f32) (x2 : Vec F S4x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out7_11 x0 x1 x2 x3 x4 x5 x6 x7 x8 x9 x10) ∗ owns (c : Thread nD τ) arg13 fullShare (out7_12 x0 x1 x2 x3 x4 x5 x6 x7 x8 x9 x10)) -∗ K ⟨⟩))
      ⊢ wp frame (wpE (defs₀ (F := F)) Variants.none c none) E (cc7_kernel i arg1 harg1 arg2 harg2 arg3 harg3 arg4 harg4 arg5 harg5 arg6 harg6 arg7 harg7 arg8 harg8 arg9 harg9 arg10 harg10 arg11 harg11 arg12 harg12 arg13 harg13) K := by
  simp only [cc7_kernel_eq_skeleton]; unfold cc7_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover7_11 _)
  iexists _; isplitr
  swap; · iexact H12
  ipureintro
  try dsimp only
  exact View.read_writes_eq_canon _ _ _ (cover7_12 _)

/-- The proof data of the region's pipeline on core c: the arrays as the region finds them; after the body at point t each
    input's buffer at its block and each output's at the body's function of the input blocks; the invariant the scoped rest and the
    generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => iblk7 V c 9 t
    | ⟨10, _⟩ => iblk7 V c 10 t
    | ⟨11, _⟩ => out7_11 (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t)
    | ⟨12, _⟩ => out7_12 (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) : (dat7 V c).after 9 t = iblk7 V c 9 t := by dsimp only [dat7]
theorem after7_10 (c : Dev nD) (t : Fin cfg7.N) : (dat7 V c).after 10 t = iblk7 V c 10 t := by dsimp only [dat7]
theorem after7_11 (c : Dev nD) (t : Fin cfg7.N) : (dat7 V c).after 11 t = out7_11 (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) := by dsimp only [dat7]
theorem after7_12 (c : Dev nD) (t : Fin cfg7.N) : (dat7 V c).after 12 t = out7_12 (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d
theorem before7_8 (c : Dev nD) (t : Fin cfg7.N) (d) : (dat7 V c).before 8 t d = iblk7 V c 8 t :=
  before7_8_of V (dat7 V c) (A_eq7 V c 8) (after7_8 V c) t d
theorem before7_9 (c : Dev nD) (t : Fin cfg7.N) (d) : (dat7 V c).before 9 t d = iblk7 V c 9 t :=
  before7_9_of V (dat7 V c) (A_eq7 V c 9) (after7_9 V c) t d
theorem before7_10 (c : Dev nD) (t : Fin cfg7.N) (d) : (dat7 V c).before 10 t d = iblk7 V c 10 t :=
  before7_10_of V (dat7 V c) (A_eq7 V c 10) (after7_10 V c) t d

/-- What the body is called with at point t, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d))
    ∗ (∃ d, owns (c : Thread nD τ) (st7_10 t) fullShare ((dat7 V c).before 10 t d))
    ∗ (∃ d, owns (c : Thread nD τ) (st7_11 t) fullShare ((dat7 V c).before 11 t d))
    ∗ (∃ d, owns (c : Thread nD τ) (st7_12 t) fullShare ((dat7 V c).before 12 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ owns (c : Thread nD τ) (st7_9 t) fullShare ((dat7 V c).after 9 t)
    ∗ owns (c : Thread nD τ) (st7_10 t) fullShare ((dat7 V c).after 10 t)
    ∗ owns (c : Thread nD τ) (st7_11 t) fullShare ((dat7 V c).after 11 t)
    ∗ owns (c : Thread nD τ) (st7_12 t) fullShare ((dat7 V c).after 12 t))

/-- The body at any point: the inputs' buffers hold their blocks, so sound_kernel7 applies; the invariant and the core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8, before7_9, before7_10]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9, after7_10, after7_11, after7_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel7 c Set.univ _ _ _ _ _ _ _ _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Region8.lean ====
/-
  Region 8 of the program (the cell applied to one level of the tree, 1 nodes per grid point), at a PARAMETER V: the
  contents of the core's buffers when the region is entered.  Each window's block at a grid point is read off its
  array in V; the body, run on staging buffers holding the eleven input blocks, leaves them as they were and leaves in
  the two output buffers the new hidden rows and the new cell rows of those blocks (bodyH8, bodyC8); with that, the proof
  data of the region's pipeline (its arrays those of V, after the body each input buffer at its block and each output
  buffer at the body's function of the input blocks, nothing owed) meets the pipeline's body obligation at every point.
-/
import proofs.«148344_j70635032150607_1_alg».proof.Proof.Gen.KernelIdeal.Launch
import proofs.«148344_j70635032150607_1_alg».proof.Proof.Gen.KernelIdeal.Skeleton
import proofs.«148344_j70635032150607_1_alg».proof.Proof.Gen.KernelIdeal.Points
import proofs.«148344_j70635032150607_1_alg».proof.Proof.KI.Bodies
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not (the index has not moved where it is not fetched). -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1's current staging buffer holds its block at every point, fetched there or not (the index has not moved where it is not fetched). -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2's current staging buffer holds its block at every point, fetched there or not (the index has not moved where it is not fetched). -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
/-- Input window 3's current staging buffer holds its block at every point, fetched there or not (the index has not moved where it is not fetched). -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
/-- Input window 4's current staging buffer holds its block at every point, fetched there or not (the index has not moved where it is not fetched). -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
/-- Input window 5's current staging buffer holds its block at every point, fetched there or not (the index has not moved where it is not fetched). -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)
/-- Input window 6's current staging buffer holds its block at every point, fetched there or not (the index has not moved where it is not fetched). -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)
/-- Input window 7's current staging buffer holds its block at every point, fetched there or not (the index has not moved where it is not fetched). -/
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)
/-- Input window 8's current staging buffer holds its block at every point, fetched there or not (the index has not moved where it is not fetched). -/
theorem before8_8_of {c : Dev nD} (dat : Dat τ (Elt F) Unit ℕ (UR sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)
/-- Input window 9's current staging buffer holds its block at every point, fetched there or not (the index has not moved where it is not fetched). -/
theorem before8_9_of {c : Dev nD} (dat : Dat τ (Elt F) Unit ℕ (UR sig nD τ) ℕ cfg8 c) (hA : dat.A 9 = V c (Pipeline.arrRef spec8 9))
    (hafter : ∀ t, dat.after 9 t = iblk8 V c 9 t) (t : Fin cfg8.N) (d) : dat.before 9 t d = iblk8 V c 9 t :=
  (dat.before_in_eq_fetched 9 rfl (fun _ => rfl) (fun _ _ _ => rfl) (fun t => by rw [hafter]; unfold Dat.blockOf iblk8; rw [hA]; try rfl) t d).trans
    (by unfold Dat.fetched Dat.blockOf iblk8; rw [hA]; try rfl)
/-- Input window 10's current staging buffer holds its block at every point, fetched there or not (the index has not moved where it is not fetched). -/
theorem before8_10_of {c : Dev nD} (dat : Dat τ (Elt F) Unit ℕ (UR sig nD τ) ℕ cfg8 c) (hA : dat.A 10 = V c (Pipeline.arrRef spec8 10))
    (hafter : ∀ t, dat.after 10 t = iblk8 V c 10 t) (t : Fin cfg8.N) (d) : dat.before 10 t d = iblk8 V c 10 t :=
  (dat.before_in_eq_fetched 10 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: every load and store is of a whole buffer -/

abbrev r8_0 : Rect S1x128 := Rect.unit (s := S1x128) ![0, 0] S1x128.size inb_S1x128_S1x128_0_0
abbrev r8_1 : Rect S1x512 := Rect.unit (s := S1x512) ![0, 0] S1x512.size inb_S1x512_S1x512_0_0
abbrev r8_2 : Rect S1x512 := Rect.unit (s := S1x512) ![0, 0] S1x512.size inb_S1x512_S1x512_0_0
abbrev r8_3 : Rect S128x384 := Rect.unit (s := S128x384) ![0, 0] S128x384.size inb_S128x384_S128x384_0_0
abbrev r8_4 : Rect S1x384 := Rect.unit (s := S1x384) ![0, 0] S1x384.size inb_S1x384_S1x384_0_0
abbrev r8_5 : Rect S512x384 := Rect.unit (s := S512x384) ![0, 0] S512x384.size inb_S512x384_S512x384_0_0
abbrev r8_6 : Rect S1x384 := Rect.unit (s := S1x384) ![0, 0] S1x384.size inb_S1x384_S1x384_0_0
abbrev r8_7 : Rect S128x128 := Rect.unit (s := S128x128) ![0, 0] S128x128.size inb_S128x128_S128x128_0_0
abbrev r8_8 : Rect S1x128 := Rect.unit (s := S1x128) ![0, 0] S1x128.size inb_S1x128_S1x128_0_0
abbrev r8_9 : Rect S512x512 := Rect.unit (s := S512x512) ![0, 0] S512x512.size inb_S512x512_S512x512_0_0
abbrev r8_10 : Rect S1x512 := Rect.unit (s := S1x512) ![0, 0] S1x512.size inb_S1x512_S1x512_0_0
abbrev r8_11 : Rect S1x128 := Rect.unit (s := S1x128) ![0, 0] S1x128.size inb_S1x128_S1x128_0_0
abbrev r8_12 : Rect S1x128 := Rect.unit (s := S1x128) ![0, 0] S1x128.size inb_S1x128_S1x128_0_0

/-- The first output buffer after the body, from the input blocks: its one store, of the new hidden rows. -/
def out8_11 (x0 : Vec F S1x128 .f32) (x1 : Vec F S1x512 .f32) (x2 : Vec F S1x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1x128 .f32 :=
  View.canon [⟨r8_11, bodyH8 (View.ld x0 r8_0) (View.ld x1 r8_1) (View.ld x2 r8_2) (View.ld x3 r8_3) (View.ld x4 r8_4) (View.ld x5 r8_5) (View.ld x6 r8_6) (View.ld x7 r8_7) (View.ld x8 r8_8) (View.ld x9 r8_9) (View.ld x10 r8_10)⟩]
/-- The second output buffer after the body: its one store, of the new cell rows. -/
def out8_12 (x0 : Vec F S1x128 .f32) (x1 : Vec F S1x512 .f32) (x2 : Vec F S1x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) : Vec F S1x128 .f32 :=
  View.canon [⟨r8_12, bodyC8 (View.ld x0 r8_0) (View.ld x1 r8_1) (View.ld x2 r8_2) (View.ld x3 r8_3) (View.ld x4 r8_4) (View.ld x5 r8_5) (View.ld x6 r8_6) (View.ld x7 r8_7) (View.ld x8 r8_8) (View.ld x9 r8_9) (View.ld x10 r8_10)⟩]

/-- The one store covers the buffer. -/
theorem cover8_11 (p0 : Vec F S1x128 .f32) (y : S1x128.Idx) :
    ∃ pc ∈ ([⟨r8_11, p0⟩] : List (View.Piece (Elt F) S1x128 .f32)), y ∈ pc.1.set :=
  View.cover_of_tiled [⟨r8_11, p0⟩] S1x128.size (by rfl) y
theorem cover8_12 (p0 : Vec F S1x128 .f32) (y : S1x128.Idx) :
    ∃ pc ∈ ([⟨r8_12, p0⟩] : List (View.Piece (Elt F) S1x128 .f32)), y ∈ pc.1.set :=
  View.cover_of_tiled [⟨r8_12, p0⟩] S1x128.size (by rfl) y

set_option maxHeartbeats 4000000 in
/-- The body on whole staging buffers, the inputs' at contents x0 … x10 and the outputs' at anything, runs to the continuation holding
    the inputs' as they were and the outputs' at out8_11, out8_12 of the inputs'. -/
theorem sound_kernel8 (c : Dev nD) (E : Set ℕ) (i : grid8.Coords) (arg1 : Memref sig .tc .vmem S1x128 .f32) (harg1 : arg1.IsWhole) (arg2 : Memref sig .tc .vmem S1x512 .f32) (harg2 : arg2.IsWhole) (arg3 : Memref sig .tc .vmem S1x512 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S512x384 .f32) (harg6 : arg6.IsWhole) (arg7 : Memref sig .tc .vmem S1x384 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S1x128 .f32) (harg12 : arg12.IsWhole) (arg13 : Memref sig .tc .vmem S1x128 .f32) (harg13 : arg13.IsWhole)
    (x0 : Vec F S1x128 .f32) (x1 : Vec F S1x512 .f32) (x2 : Vec F S1x512 .f32) (x3 : Vec F S128x384 .f32) (x4 : Vec F S1x384 .f32) (x5 : Vec F S512x384 .f32) (x6 : Vec F S1x384 .f32) (x7 : Vec F S128x128 .f32) (x8 : Vec F S1x128 .f32) (x9 : Vec F S512x512 .f32) (x10 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out8_11 x0 x1 x2 x3 x4 x5 x6 x7 x8 x9 x10) ∗ owns (c : Thread nD τ) arg13 fullShare (out8_12 x0 x1 x2 x3 x4 x5 x6 x7 x8 x9 x10)) -∗ K ⟨⟩))
      ⊢ wp frame (wpE (defs₀ (F := F)) Variants.none c none) E (cc8_kernel i arg1 harg1 arg2 harg2 arg3 harg3 arg4 harg4 arg5 harg5 arg6 harg6 arg7 harg7 arg8 harg8 arg9 harg9 arg10 harg10 arg11 harg11 arg12 harg12 arg13 harg13) K := by
  simp only [cc8_kernel_eq_skeleton]; unfold cc8_kernel_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact View.read_writes_eq_canon _ _ _ (cover8_11 _)
  iexists _; isplitr
  swap; · iexact H12
  ipureintro
  try dsimp only
  exact View.read_writes_eq_canon _ _ _ (cover8_12 _)

/-- The proof data of the region's pipeline on core c: the arrays as the region finds them; after the body at point t each
    input's buffer at its block and each output's at the body's function of the input blocks; the invariant the scoped rest and the
    generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => iblk8 V c 9 t
    | ⟨10, _⟩ => iblk8 V c 10 t
    | ⟨11, _⟩ => out8_11 (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t)
    | ⟨12, _⟩ => out8_12 (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t = iblk8 V c 9 t := by dsimp only [dat8]
theorem after8_10 (c : Dev nD) (t : Fin cfg8.N) : (dat8 V c).after 10 t = iblk8 V c 10 t := by dsimp only [dat8]
theorem after8_11 (c : Dev nD) (t : Fin cfg8.N) : (dat8 V c).after 11 t = out8_11 (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) := by dsimp only [dat8]
theorem after8_12 (c : Dev nD) (t : Fin cfg8.N) : (dat8 V c).after 12 t = out8_12 (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d
theorem before8_8 (c : Dev nD) (t : Fin cfg8.N) (d) : (dat8 V c).before 8 t d = iblk8 V c 8 t :=
  before8_8_of V (dat8 V c) (A_eq8 V c 8) (after8_8 V c) t d
theorem before8_9 (c : Dev nD) (t : Fin cfg8.N) (d) : (dat8 V c).before 9 t d = iblk8 V c 9 t :=
  before8_9_of V (dat8 V c) (A_eq8 V c 9) (after8_9 V c) t d
theorem before8_10 (c : Dev nD) (t : Fin cfg8.N) (d) : (dat8 V c).before 10 t d = iblk8 V c 10 t :=
  before8_10_of V (dat8 V c) (A_eq8 V c 10) (after8_10 V c) t d

/-- What the body is called with at point t, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d))
    ∗ (∃ d, owns (c : Thread nD τ) (st8_10 t) fullShare ((dat8 V c).before 10 t d))
    ∗ (∃ d, owns (c : Thread nD τ) (st8_11 t) fullShare ((dat8 V c).before 11 t d))
    ∗ (∃ d, owns (c : Thread nD τ) (st8_12 t) fullShare ((dat8 V c).before 12 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t)
    ∗ owns (c : Thread nD τ) (st8_10 t) fullShare ((dat8 V c).after 10 t)
    ∗ owns (c : Thread nD τ) (st8_11 t) fullShare ((dat8 V c).after 11 t)
    ∗ owns (c : Thread nD τ) (st8_12 t) fullShare ((dat8 V c).after 12 t))

/-- The body at any point: the inputs' buffers hold their blocks, so sound_kernel8 applies; the invariant and the core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7, before8_8, before8_9, before8_10]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9, after8_10, after8_11, after8_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel8 c Set.univ _ _ _ _ _ _ _ _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (iblk8 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Run.lean ====
/-
  The whole run of the program: @main is ten stretches of host operations with the nine kernel regions between them.
  The contents of the core's buffers at each of the twenty boundaries are a fold from the launch memory: after a stretch,
  its operations applied; after a region, its arrays at what its pipeline leaves (the inputs as entered, each output the
  blocks the grid points wrote back) and every other buffer as entered.  Every weakly fair execution from any memory with
  zero counters terminates, nothing faulting, with every unscoped buffer at the last boundary's contents (run_all).
-/
import proofs.«148344_j70635032150607_1_alg».proof.Proof.Gen.KernelIdeal.Regions
import proofs.«148344_j70635032150607_1_alg».proof.Proof.KI.Region0
import proofs.«148344_j70635032150607_1_alg».proof.Proof.KI.Region1
import proofs.«148344_j70635032150607_1_alg».proof.Proof.KI.Region2
import proofs.«148344_j70635032150607_1_alg».proof.Proof.KI.Region3
import proofs.«148344_j70635032150607_1_alg».proof.Proof.KI.Region4
import proofs.«148344_j70635032150607_1_alg».proof.Proof.KI.Region5
import proofs.«148344_j70635032150607_1_alg».proof.Proof.KI.Region6
import proofs.«148344_j70635032150607_1_alg».proof.Proof.KI.Region7
import proofs.«148344_j70635032150607_1_alg».proof.Proof.KI.Region8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the stretch hostOps0 (region 0's entry). -/
abbrev W1 : Dev nD → Valuation τ sig (Elt F) := fun c => StableHlo.after hostOps0 (W0 m ρ c)
/-- The same read at the TensorCore's references. -/
abbrev E1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An array the region only reads is as it was entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (E1 m ρ) c).arrAt_in w hin _).trans (A_eq0 (E1 m ρ) c w))
/-- A buffer the stretch hostOps0 does not write is as before it. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- After the stretch hostOps1 (region 1's entry). -/
abbrev W3 : Dev nD → Valuation τ sig (Elt F) := fun c => StableHlo.after hostOps1 (W2 m ρ c)
/-- The same read at the TensorCore's references. -/
abbrev E3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An array the region only reads is as it was entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (E3 m ρ) c).arrAt_in w hin _).trans (A_eq1 (E3 m ρ) c w))
/-- A buffer the stretch hostOps1 does not write is as before it. -/
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h
abbrev E4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = E4 m ρ c (Pipeline.arrRef spec1 w) :=
  (W4_arr m ρ c w).symm
theorem hrest1 (c : Dev nD) : ∀ b, b ∉ Finset.univ.image (Pipeline.arrRef spec1) → E4 m ρ c b = E3 m ρ c b :=
  fun b hb => W4_of_ne m ρ c b fun w e => hb (Finset.mem_image.mpr ⟨w, Finset.mem_univ _, e⟩)

/-- After the stretch hostOps2 (region 2's entry). -/
abbrev W5 : Dev nD → Valuation τ sig (Elt F) := fun c => StableHlo.after hostOps2 (W4 m ρ c)
/-- The same read at the TensorCore's references. -/
abbrev E5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (E5 m ρ) c).arrAt w cfg2.N
theorem W6_arr (c : Dev nD) (w : Fin cfg2.W) :
    W6 m ρ c (Proc.devRef .tc (Pipeline.arrRef spec2 w)) = (dat2 (E5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An array the region only reads is as it was entered. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (E5 m ρ) c).arrAt_in w hin _).trans (A_eq2 (E5 m ρ) c w))
/-- A buffer the stretch hostOps2 does not write is as before it. -/
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h
abbrev E6 : (c : Dev nD) → (b : Ref sig .tc) → Buf (Elt F) ((c : Thread nD τ).loc b) := fun c b => W6 m ρ c b
theorem hF2 (c : Dev nD) (w : Fin cfg2.W) : (dat2 (E5 m ρ) c).arrAt w cfg2.N = E6 m ρ c (Pipeline.arrRef spec2 w) :=
  (W6_arr m ρ c w).symm
theorem hrest2 (c : Dev nD) : ∀ b, b ∉ Finset.univ.image (Pipeline.arrRef spec2) → E6 m ρ c b = E5 m ρ c b :=
  fun b hb => W6_of_ne m ρ c b fun w e => hb (Finset.mem_image.mpr ⟨w, Finset.mem_univ _, e⟩)

/-- After the stretch hostOps3 (region 3's entry). -/
abbrev W7 : Dev nD → Valuation τ sig (Elt F) := fun c => StableHlo.after hostOps3 (W6 m ρ c)
/-- The same read at the TensorCore's references. -/
abbrev E7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (E7 m ρ) c).arrAt w cfg3.N
theorem W8_arr (c : Dev nD) (w : Fin cfg3.W) :
    W8 m ρ c (Proc.devRef .tc (Pipeline.arrRef spec3 w)) = (dat3 (E7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- An array the region only reads is as it was entered. -/
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (E7 m ρ) c).arrAt_in w hin _).trans (A_eq3 (E7 m ρ) c w))
/-- A buffer the stretch hostOps3 does not write is as before it. -/
theorem W7_keep (c : Dev nD) (r : Ref sig .tc) (h : r ∉ hostOps3_W) :
    W7 m ρ c (Proc.devRef .tc r) = W6 m ρ c (Proc.devRef .tc r) :=
  StableHlo.after_of_writes_sub hostOps3 _ hostOps3_writes h
abbrev E8 : (c : Dev nD) → (b : Ref sig .tc) → Buf (Elt F) ((c : Thread nD τ).loc b) := fun c b => W8 m ρ c b
theorem hF3 (c : Dev nD) (w : Fin cfg3.W) : (dat3 (E7 m ρ) c).arrAt w cfg3.N = E8 m ρ c (Pipeline.arrRef spec3 w) :=
  (W8_arr m ρ c w).symm
theorem hrest3 (c : Dev nD) : ∀ b, b ∉ Finset.univ.image (Pipeline.arrRef spec3) → E8 m ρ c b = E7 m ρ c b :=
  fun b hb => W8_of_ne m ρ c b fun w e => hb (Finset.mem_image.mpr ⟨w, Finset.mem_univ _, e⟩)

/-- After the stretch hostOps4 (region 4's entry). -/
abbrev W9 : Dev nD → Valuation τ sig (Elt F) := fun c => StableHlo.after hostOps4 (W8 m ρ c)
/-- The same read at the TensorCore's references. -/
abbrev E9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (E9 m ρ) c).arrAt w cfg4.N
theorem W10_arr (c : Dev nD) (w : Fin cfg4.W) :
    W10 m ρ c (Proc.devRef .tc (Pipeline.arrRef spec4 w)) = (dat4 (E9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- An array the region only reads is as it was entered. -/
theorem W10_in (c : Dev nD) (w : Fin cfg4.W) (hin : (cfg4.win w).isOut = false) :
    W10 m ρ c (Proc.devRef .tc (Pipeline.arrRef spec4 w)) = W9 m ρ c (Proc.devRef .tc (Pipeline.arrRef spec4 w)) :=
  (W10_arr m ρ c w).trans (((dat4 (E9 m ρ) c).arrAt_in w hin _).trans (A_eq4 (E9 m ρ) c w))
/-- A buffer the stretch hostOps4 does not write is as before it. -/
theorem W9_keep (c : Dev nD) (r : Ref sig .tc) (h : r ∉ hostOps4_W) :
    W9 m ρ c (Proc.devRef .tc r) = W8 m ρ c (Proc.devRef .tc r) :=
  StableHlo.after_of_writes_sub hostOps4 _ hostOps4_writes h
abbrev E10 : (c : Dev nD) → (b : Ref sig .tc) → Buf (Elt F) ((c : Thread nD τ).loc b) := fun c b => W10 m ρ c b
theorem hF4 (c : Dev nD) (w : Fin cfg4.W) : (dat4 (E9 m ρ) c).arrAt w cfg4.N = E10 m ρ c (Pipeline.arrRef spec4 w) :=
  (W10_arr m ρ c w).symm
theorem hrest4 (c : Dev nD) : ∀ b, b ∉ Finset.univ.image (Pipeline.arrRef spec4) → E10 m ρ c b = E9 m ρ c b :=
  fun b hb => W10_of_ne m ρ c b fun w e => hb (Finset.mem_image.mpr ⟨w, Finset.mem_univ _, e⟩)

/-- After the stretch hostOps5 (region 5's entry). -/
abbrev W11 : Dev nD → Valuation τ sig (Elt F) := fun c => StableHlo.after hostOps5 (W10 m ρ c)
/-- The same read at the TensorCore's references. -/
abbrev E11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (E11 m ρ) c).arrAt w cfg5.N
theorem W12_arr (c : Dev nD) (w : Fin cfg5.W) :
    W12 m ρ c (Proc.devRef .tc (Pipeline.arrRef spec5 w)) = (dat5 (E11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- An array the region only reads is as it was entered. -/
theorem W12_in (c : Dev nD) (w : Fin cfg5.W) (hin : (cfg5.win w).isOut = false) :
    W12 m ρ c (Proc.devRef .tc (Pipeline.arrRef spec5 w)) = W11 m ρ c (Proc.devRef .tc (Pipeline.arrRef spec5 w)) :=
  (W12_arr m ρ c w).trans (((dat5 (E11 m ρ) c).arrAt_in w hin _).trans (A_eq5 (E11 m ρ) c w))
/-- A buffer the stretch hostOps5 does not write is as before it. -/
theorem W11_keep (c : Dev nD) (r : Ref sig .tc) (h : r ∉ hostOps5_W) :
    W11 m ρ c (Proc.devRef .tc r) = W10 m ρ c (Proc.devRef .tc r) :=
  StableHlo.after_of_writes_sub hostOps5 _ hostOps5_writes h
abbrev E12 : (c : Dev nD) → (b : Ref sig .tc) → Buf (Elt F) ((c : Thread nD τ).loc b) := fun c b => W12 m ρ c b
theorem hF5 (c : Dev nD) (w : Fin cfg5.W) : (dat5 (E11 m ρ) c).arrAt w cfg5.N = E12 m ρ c (Pipeline.arrRef spec5 w) :=
  (W12_arr m ρ c w).symm
theorem hrest5 (c : Dev nD) : ∀ b, b ∉ Finset.univ.image (Pipeline.arrRef spec5) → E12 m ρ c b = E11 m ρ c b :=
  fun b hb => W12_of_ne m ρ c b fun w e => hb (Finset.mem_image.mpr ⟨w, Finset.mem_univ _, e⟩)

/-- After the stretch hostOps6 (region 6's entry). -/
abbrev W13 : Dev nD → Valuation τ sig (Elt F) := fun c => StableHlo.after hostOps6 (W12 m ρ c)
/-- The same read at the TensorCore's references. -/
abbrev E13 : (c : Dev nD) → (b : Ref sig .tc) → Buf (Elt F) ((c : Thread nD τ).loc b) := fun c b => W13 m ρ c b
/-- At region 6's exit: its arrays at what the pipeline leaves, every other buffer as entered. -/
def W14 (c : Dev nD) : Valuation τ sig (Elt F) :=
  Pipeline.withArrays spec6 c (W13 m ρ c) fun w => (dat6 (E13 m ρ) c).arrAt w cfg6.N
theorem W14_arr (c : Dev nD) (w : Fin cfg6.W) :
    W14 m ρ c (Proc.devRef .tc (Pipeline.arrRef spec6 w)) = (dat6 (E13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- An array the region only reads is as it was entered. -/
theorem W14_in (c : Dev nD) (w : Fin cfg6.W) (hin : (cfg6.win w).isOut = false) :
    W14 m ρ c (Proc.devRef .tc (Pipeline.arrRef spec6 w)) = W13 m ρ c (Proc.devRef .tc (Pipeline.arrRef spec6 w)) :=
  (W14_arr m ρ c w).trans (((dat6 (E13 m ρ) c).arrAt_in w hin _).trans (A_eq6 (E13 m ρ) c w))
/-- A buffer the stretch hostOps6 does not write is as before it. -/
theorem W13_keep (c : Dev nD) (r : Ref sig .tc) (h : r ∉ hostOps6_W) :
    W13 m ρ c (Proc.devRef .tc r) = W12 m ρ c (Proc.devRef .tc r) :=
  StableHlo.after_of_writes_sub hostOps6 _ hostOps6_writes h
abbrev E14 : (c : Dev nD) → (b : Ref sig .tc) → Buf (Elt F) ((c : Thread nD τ).loc b) := fun c b => W14 m ρ c b
theorem hF6 (c : Dev nD) (w : Fin cfg6.W) : (dat6 (E13 m ρ) c).arrAt w cfg6.N = E14 m ρ c (Pipeline.arrRef spec6 w) :=
  (W14_arr m ρ c w).symm
theorem hrest6 (c : Dev nD) : ∀ b, b ∉ Finset.univ.image (Pipeline.arrRef spec6) → E14 m ρ c b = E13 m ρ c b :=
  fun b hb => W14_of_ne m ρ c b fun w e => hb (Finset.mem_image.mpr ⟨w, Finset.mem_univ _, e⟩)

/-- After the stretch hostOps7 (region 7's entry). -/
abbrev W15 : Dev nD → Valuation τ sig (Elt F) := fun c => StableHlo.after hostOps7 (W14 m ρ c)
/-- The same read at the TensorCore's references. -/
abbrev E15 : (c : Dev nD) → (b : Ref sig .tc) → Buf (Elt F) ((c : Thread nD τ).loc b) := fun c b => W15 m ρ c b
/-- At region 7's exit: its arrays at what the pipeline leaves, every other buffer as entered. -/
def W16 (c : Dev nD) : Valuation τ sig (Elt F) :=
  Pipeline.withArrays spec7 c (W15 m ρ c) fun w => (dat7 (E15 m ρ) c).arrAt w cfg7.N
theorem W16_arr (c : Dev nD) (w : Fin cfg7.W) :
    W16 m ρ c (Proc.devRef .tc (Pipeline.arrRef spec7 w)) = (dat7 (E15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- An array the region only reads is as it was entered. -/
theorem W16_in (c : Dev nD) (w : Fin cfg7.W) (hin : (cfg7.win w).isOut = false) :
    W16 m ρ c (Proc.devRef .tc (Pipeline.arrRef spec7 w)) = W15 m ρ c (Proc.devRef .tc (Pipeline.arrRef spec7 w)) :=
  (W16_arr m ρ c w).trans (((dat7 (E15 m ρ) c).arrAt_in w hin _).trans (A_eq7 (E15 m ρ) c w))
/-- A buffer the stretch hostOps7 does not write is as before it. -/
theorem W15_keep (c : Dev nD) (r : Ref sig .tc) (h : r ∉ hostOps7_W) :
    W15 m ρ c (Proc.devRef .tc r) = W14 m ρ c (Proc.devRef .tc r) :=
  StableHlo.after_of_writes_sub hostOps7 _ hostOps7_writes h
abbrev E16 : (c : Dev nD) → (b : Ref sig .tc) → Buf (Elt F) ((c : Thread nD τ).loc b) := fun c b => W16 m ρ c b
theorem hF7 (c : Dev nD) (w : Fin cfg7.W) : (dat7 (E15 m ρ) c).arrAt w cfg7.N = E16 m ρ c (Pipeline.arrRef spec7 w) :=
  (W16_arr m ρ c w).symm
theorem hrest7 (c : Dev nD) : ∀ b, b ∉ Finset.univ.image (Pipeline.arrRef spec7) → E16 m ρ c b = E15 m ρ c b :=
  fun b hb => W16_of_ne m ρ c b fun w e => hb (Finset.mem_image.mpr ⟨w, Finset.mem_univ _, e⟩)

/-- After the stretch hostOps8 (region 8's entry). -/
abbrev W17 : Dev nD → Valuation τ sig (Elt F) := fun c => StableHlo.after hostOps8 (W16 m ρ c)
/-- The same read at the TensorCore's references. -/
abbrev E17 : (c : Dev nD) → (b : Ref sig .tc) → Buf (Elt F) ((c : Thread nD τ).loc b) := fun c b => W17 m ρ c b
/-- At region 8's exit: its arrays at what the pipeline leaves, every other buffer as entered. -/
def W18 (c : Dev nD) : Valuation τ sig (Elt F) :=
  Pipeline.withArrays spec8 c (W17 m ρ c) fun w => (dat8 (E17 m ρ) c).arrAt w cfg8.N
theorem W18_arr (c : Dev nD) (w : Fin cfg8.W) :
    W18 m ρ c (Proc.devRef .tc (Pipeline.arrRef spec8 w)) = (dat8 (E17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
/-- An array the region only reads is as it was entered. -/
theorem W18_in (c : Dev nD) (w : Fin cfg8.W) (hin : (cfg8.win w).isOut = false) :
    W18 m ρ c (Proc.devRef .tc (Pipeline.arrRef spec8 w)) = W17 m ρ c (Proc.devRef .tc (Pipeline.arrRef spec8 w)) :=
  (W18_arr m ρ c w).trans (((dat8 (E17 m ρ) c).arrAt_in w hin _).trans (A_eq8 (E17 m ρ) c w))
/-- A buffer the stretch hostOps8 does not write is as before it. -/
theorem W17_keep (c : Dev nD) (r : Ref sig .tc) (h : r ∉ hostOps8_W) :
    W17 m ρ c (Proc.devRef .tc r) = W16 m ρ c (Proc.devRef .tc r) :=
  StableHlo.after_of_writes_sub hostOps8 _ hostOps8_writes h
abbrev E18 : (c : Dev nD) → (b : Ref sig .tc) → Buf (Elt F) ((c : Thread nD τ).loc b) := fun c b => W18 m ρ c b
theorem hF8 (c : Dev nD) (w : Fin cfg8.W) : (dat8 (E17 m ρ) c).arrAt w cfg8.N = E18 m ρ c (Pipeline.arrRef spec8 w) :=
  (W18_arr m ρ c w).symm
theorem hrest8 (c : Dev nD) : ∀ b, b ∉ Finset.univ.image (Pipeline.arrRef spec8) → E18 m ρ c b = E17 m ρ c b :=
  fun b hb => W18_of_ne m ρ c b fun w e => hb (Finset.mem_image.mpr ⟨w, Finset.mem_univ _, e⟩)

/-- After the last stretch hostOps9: the contents at the return. -/
abbrev W19 : Dev nD → Valuation τ sig (Elt F) := fun c => StableHlo.after hostOps9 (W18 m ρ c)
theorem W19_keep (c : Dev nD) (r : Ref sig .tc) (h : r ∉ hostOps9_W) :
    W19 m ρ c (Proc.devRef .tc r) = W18 m ρ c (Proc.devRef .tc r) :=
  StableHlo.after_of_writes_sub hostOps9 _ hostOps9_writes h

/-! ## The arguments end as launched: no stretch writes one, no region changes one -/

theorem W19_main_arg0 (c : Dev nD) : W19 m ρ c (Proc.devRef .tc main_arg0) = m ((c : Thread nD τ).loc main_arg0) :=
  (W19_keep m ρ c main_arg0 (by decide)).trans <| (W18_of_ne m ρ c main_arg0 (by decide)).trans <| (W17_keep m ρ c main_arg0 (by decide)).trans <| (W16_of_ne m ρ c main_arg0 (by decide)).trans <| (W15_keep m ρ c main_arg0 (by decide)).trans <| (W14_of_ne m ρ c main_arg0 (by decide)).trans <| (W13_keep m ρ c main_arg0 (by decide)).trans <| (W12_of_ne m ρ c main_arg0 (by decide)).trans <| (W11_keep m ρ c main_arg0 (by decide)).trans <| (W10_of_ne m ρ c main_arg0 (by decide)).trans <| (W9_keep m ρ c main_arg0 (by decide)).trans <| (W8_of_ne m ρ c main_arg0 (by decide)).trans <| (W7_keep m ρ c main_arg0 (by decide)).trans <| (W6_of_ne m ρ c main_arg0 (by decide)).trans <| (W5_keep m ρ c main_arg0 (by decide)).trans <| (W4_of_ne m ρ c main_arg0 (by decide)).trans <| (W3_keep m ρ c main_arg0 (by decide)).trans <| (W2_of_ne m ρ c main_arg0 (by decide)).trans <| (W1_keep m ρ c main_arg0 (by decide)).trans <| rfl
theorem W19_main_arg1 (c : Dev nD) : W19 m ρ c (Proc.devRef .tc main_arg1) = m ((c : Thread nD τ).loc main_arg1) :=
  (W19_keep m ρ c main_arg1 (by decide)).trans <| (W18_of_ne m ρ c main_arg1 (by decide)).trans <| (W17_keep m ρ c main_arg1 (by decide)).trans <| (W16_of_ne m ρ c main_arg1 (by decide)).trans <| (W15_keep m ρ c main_arg1 (by decide)).trans <| (W14_of_ne m ρ c main_arg1 (by decide)).trans <| (W13_keep m ρ c main_arg1 (by decide)).trans <| (W12_of_ne m ρ c main_arg1 (by decide)).trans <| (W11_keep m ρ c main_arg1 (by decide)).trans <| (W10_of_ne m ρ c main_arg1 (by decide)).trans <| (W9_keep m ρ c main_arg1 (by decide)).trans <| (W8_of_ne m ρ c main_arg1 (by decide)).trans <| (W7_keep m ρ c main_arg1 (by decide)).trans <| (W6_of_ne m ρ c main_arg1 (by decide)).trans <| (W5_keep m ρ c main_arg1 (by decide)).trans <| (W4_of_ne m ρ c main_arg1 (by decide)).trans <| (W3_keep m ρ c main_arg1 (by decide)).trans <| (W2_of_ne m ρ c main_arg1 (by decide)).trans <| (W1_keep m ρ c main_arg1 (by decide)).trans <| rfl
theorem W19_main_arg2 (c : Dev nD) : W19 m ρ c (Proc.devRef .tc main_arg2) = m ((c : Thread nD τ).loc main_arg2) :=
  (W19_keep m ρ c main_arg2 (by decide)).trans <| (W18_of_ne m ρ c main_arg2 (by decide)).trans <| (W17_keep m ρ c main_arg2 (by decide)).trans <| (W16_of_ne m ρ c main_arg2 (by decide)).trans <| (W15_keep m ρ c main_arg2 (by decide)).trans <| (W14_of_ne m ρ c main_arg2 (by decide)).trans <| (W13_keep m ρ c main_arg2 (by decide)).trans <| (W12_of_ne m ρ c main_arg2 (by decide)).trans <| (W11_keep m ρ c main_arg2 (by decide)).trans <| (W10_of_ne m ρ c main_arg2 (by decide)).trans <| (W9_keep m ρ c main_arg2 (by decide)).trans <| (W8_of_ne m ρ c main_arg2 (by decide)).trans <| (W7_keep m ρ c main_arg2 (by decide)).trans <| (W6_of_ne m ρ c main_arg2 (by decide)).trans <| (W5_keep m ρ c main_arg2 (by decide)).trans <| (W4_of_ne m ρ c main_arg2 (by decide)).trans <| (W3_keep m ρ c main_arg2 (by decide)).trans <| (W2_of_ne m ρ c main_arg2 (by decide)).trans <| (W1_keep m ρ c main_arg2 (by decide)).trans <| rfl
theorem W19_main_arg3 (c : Dev nD) : W19 m ρ c (Proc.devRef .tc main_arg3) = m ((c : Thread nD τ).loc main_arg3) :=
  (W19_keep m ρ c main_arg3 (by decide)).trans <| (W18_of_ne m ρ c main_arg3 (by decide)).trans <| (W17_keep m ρ c main_arg3 (by decide)).trans <| (W16_of_ne m ρ c main_arg3 (by decide)).trans <| (W15_keep m ρ c main_arg3 (by decide)).trans <| (W14_of_ne m ρ c main_arg3 (by decide)).trans <| (W13_keep m ρ c main_arg3 (by decide)).trans <| (W12_of_ne m ρ c main_arg3 (by decide)).trans <| (W11_keep m ρ c main_arg3 (by decide)).trans <| (W10_of_ne m ρ c main_arg3 (by decide)).trans <| (W9_keep m ρ c main_arg3 (by decide)).trans <| (W8_of_ne m ρ c main_arg3 (by decide)).trans <| (W7_keep m ρ c main_arg3 (by decide)).trans <| (W6_of_ne m ρ c main_arg3 (by decide)).trans <| (W5_keep m ρ c main_arg3 (by decide)).trans <| (W4_of_ne m ρ c main_arg3 (by decide)).trans <| (W3_keep m ρ c main_arg3 (by decide)).trans <| (W2_of_ne m ρ c main_arg3 (by decide)).trans <| (W1_keep m ρ c main_arg3 (by decide)).trans <| rfl
theorem W19_main_arg4 (c : Dev nD) : W19 m ρ c (Proc.devRef .tc main_arg4) = m ((c : Thread nD τ).loc main_arg4) :=
  (W19_keep m ρ c main_arg4 (by decide)).trans <| (W18_of_ne m ρ c main_arg4 (by decide)).trans <| (W17_keep m ρ c main_arg4 (by decide)).trans <| (W16_of_ne m ρ c main_arg4 (by decide)).trans <| (W15_keep m ρ c main_arg4 (by decide)).trans <| (W14_of_ne m ρ c main_arg4 (by decide)).trans <| (W13_keep m ρ c main_arg4 (by decide)).trans <| (W12_of_ne m ρ c main_arg4 (by decide)).trans <| (W11_keep m ρ c main_arg4 (by decide)).trans <| (W10_of_ne m ρ c main_arg4 (by decide)).trans <| (W9_keep m ρ c main_arg4 (by decide)).trans <| (W8_of_ne m ρ c main_arg4 (by decide)).trans <| (W7_keep m ρ c main_arg4 (by decide)).trans <| (W6_of_ne m ρ c main_arg4 (by decide)).trans <| (W5_keep m ρ c main_arg4 (by decide)).trans <| (W4_of_ne m ρ c main_arg4 (by decide)).trans <| (W3_keep m ρ c main_arg4 (by decide)).trans <| (W2_of_ne m ρ c main_arg4 (by decide)).trans <| (W1_keep m ρ c main_arg4 (by decide)).trans <| rfl
theorem W19_main_arg5 (c : Dev nD) : W19 m ρ c (Proc.devRef .tc main_arg5) = m ((c : Thread nD τ).loc main_arg5) :=
  (W19_keep m ρ c main_arg5 (by decide)).trans <| (W18_of_ne m ρ c main_arg5 (by decide)).trans <| (W17_keep m ρ c main_arg5 (by decide)).trans <| (W16_of_ne m ρ c main_arg5 (by decide)).trans <| (W15_keep m ρ c main_arg5 (by decide)).trans <| (W14_of_ne m ρ c main_arg5 (by decide)).trans <| (W13_keep m ρ c main_arg5 (by decide)).trans <| (W12_of_ne m ρ c main_arg5 (by decide)).trans <| (W11_keep m ρ c main_arg5 (by decide)).trans <| (W10_of_ne m ρ c main_arg5 (by decide)).trans <| (W9_keep m ρ c main_arg5 (by decide)).trans <| (W8_of_ne m ρ c main_arg5 (by decide)).trans <| (W7_keep m ρ c main_arg5 (by decide)).trans <| (W6_of_ne m ρ c main_arg5 (by decide)).trans <| (W5_keep m ρ c main_arg5 (by decide)).trans <| (W4_of_ne m ρ c main_arg5 (by decide)).trans <| (W3_keep m ρ c main_arg5 (by decide)).trans <| (W2_of_ne m ρ c main_arg5 (by decide)).trans <| (W1_keep m ρ c main_arg5 (by decide)).trans <| rfl
theorem W19_main_arg6 (c : Dev nD) : W19 m ρ c (Proc.devRef .tc main_arg6) = m ((c : Thread nD τ).loc main_arg6) :=
  (W19_keep m ρ c main_arg6 (by decide)).trans <| (W18_of_ne m ρ c main_arg6 (by decide)).trans <| (W17_keep m ρ c main_arg6 (by decide)).trans <| (W16_of_ne m ρ c main_arg6 (by decide)).trans <| (W15_keep m ρ c main_arg6 (by decide)).trans <| (W14_of_ne m ρ c main_arg6 (by decide)).trans <| (W13_keep m ρ c main_arg6 (by decide)).trans <| (W12_of_ne m ρ c main_arg6 (by decide)).trans <| (W11_keep m ρ c main_arg6 (by decide)).trans <| (W10_of_ne m ρ c main_arg6 (by decide)).trans <| (W9_keep m ρ c main_arg6 (by decide)).trans <| (W8_of_ne m ρ c main_arg6 (by decide)).trans <| (W7_keep m ρ c main_arg6 (by decide)).trans <| (W6_of_ne m ρ c main_arg6 (by decide)).trans <| (W5_keep m ρ c main_arg6 (by decide)).trans <| (W4_of_ne m ρ c main_arg6 (by decide)).trans <| (W3_keep m ρ c main_arg6 (by decide)).trans <| (W2_of_ne m ρ c main_arg6 (by decide)).trans <| (W1_keep m ρ c main_arg6 (by decide)).trans <| rfl
theorem W19_main_arg7 (c : Dev nD) : W19 m ρ c (Proc.devRef .tc main_arg7) = m ((c : Thread nD τ).loc main_arg7) :=
  (W19_keep m ρ c main_arg7 (by decide)).trans <| (W18_of_ne m ρ c main_arg7 (by decide)).trans <| (W17_keep m ρ c main_arg7 (by decide)).trans <| (W16_of_ne m ρ c main_arg7 (by decide)).trans <| (W15_keep m ρ c main_arg7 (by decide)).trans <| (W14_of_ne m ρ c main_arg7 (by decide)).trans <| (W13_keep m ρ c main_arg7 (by decide)).trans <| (W12_of_ne m ρ c main_arg7 (by decide)).trans <| (W11_keep m ρ c main_arg7 (by decide)).trans <| (W10_of_ne m ρ c main_arg7 (by decide)).trans <| (W9_keep m ρ c main_arg7 (by decide)).trans <| (W8_of_ne m ρ c main_arg7 (by decide)).trans <| (W7_keep m ρ c main_arg7 (by decide)).trans <| (W6_of_ne m ρ c main_arg7 (by decide)).trans <| (W5_keep m ρ c main_arg7 (by decide)).trans <| (W4_of_ne m ρ c main_arg7 (by decide)).trans <| (W3_keep m ρ c main_arg7 (by decide)).trans <| (W2_of_ne m ρ c main_arg7 (by decide)).trans <| (W1_keep m ρ c main_arg7 (by decide)).trans <| rfl
theorem W19_main_arg8 (c : Dev nD) : W19 m ρ c (Proc.devRef .tc main_arg8) = m ((c : Thread nD τ).loc main_arg8) :=
  (W19_keep m ρ c main_arg8 (by decide)).trans <| (W18_of_ne m ρ c main_arg8 (by decide)).trans <| (W17_keep m ρ c main_arg8 (by decide)).trans <| (W16_of_ne m ρ c main_arg8 (by decide)).trans <| (W15_keep m ρ c main_arg8 (by decide)).trans <| (W14_of_ne m ρ c main_arg8 (by decide)).trans <| (W13_keep m ρ c main_arg8 (by decide)).trans <| (W12_of_ne m ρ c main_arg8 (by decide)).trans <| (W11_keep m ρ c main_arg8 (by decide)).trans <| (W10_of_ne m ρ c main_arg8 (by decide)).trans <| (W9_keep m ρ c main_arg8 (by decide)).trans <| (W8_of_ne m ρ c main_arg8 (by decide)).trans <| (W7_keep m ρ c main_arg8 (by decide)).trans <| (W6_of_ne m ρ c main_arg8 (by decide)).trans <| (W5_keep m ρ c main_arg8 (by decide)).trans <| (W4_of_ne m ρ c main_arg8 (by decide)).trans <| (W3_keep m ρ c main_arg8 (by decide)).trans <| (W2_of_ne m ρ c main_arg8 (by decide)).trans <| (W1_keep m ρ c main_arg8 (by decide)).trans <| rfl
theorem W19_main_arg9 (c : Dev nD) : W19 m ρ c (Proc.devRef .tc main_arg9) = m ((c : Thread nD τ).loc main_arg9) :=
  (W19_keep m ρ c main_arg9 (by decide)).trans <| (W18_of_ne m ρ c main_arg9 (by decide)).trans <| (W17_keep m ρ c main_arg9 (by decide)).trans <| (W16_of_ne m ρ c main_arg9 (by decide)).trans <| (W15_keep m ρ c main_arg9 (by decide)).trans <| (W14_of_ne m ρ c main_arg9 (by decide)).trans <| (W13_keep m ρ c main_arg9 (by decide)).trans <| (W12_of_ne m ρ c main_arg9 (by decide)).trans <| (W11_keep m ρ c main_arg9 (by decide)).trans <| (W10_of_ne m ρ c main_arg9 (by decide)).trans <| (W9_keep m ρ c main_arg9 (by decide)).trans <| (W8_of_ne m ρ c main_arg9 (by decide)).trans <| (W7_keep m ρ c main_arg9 (by decide)).trans <| (W6_of_ne m ρ c main_arg9 (by decide)).trans <| (W5_keep m ρ c main_arg9 (by decide)).trans <| (W4_of_ne m ρ c main_arg9 (by decide)).trans <| (W3_keep m ρ c main_arg9 (by decide)).trans <| (W2_in m ρ c 1 rfl).trans <| (W1_keep m ρ c main_arg9 (by decide)).trans <| rfl
theorem W19_main_arg10 (c : Dev nD) : W19 m ρ c (Proc.devRef .tc main_arg10) = m ((c : Thread nD τ).loc main_arg10) :=
  (W19_keep m ρ c main_arg10 (by decide)).trans <| (W18_of_ne m ρ c main_arg10 (by decide)).trans <| (W17_keep m ρ c main_arg10 (by decide)).trans <| (W16_of_ne m ρ c main_arg10 (by decide)).trans <| (W15_keep m ρ c main_arg10 (by decide)).trans <| (W14_of_ne m ρ c main_arg10 (by decide)).trans <| (W13_keep m ρ c main_arg10 (by decide)).trans <| (W12_of_ne m ρ c main_arg10 (by decide)).trans <| (W11_keep m ρ c main_arg10 (by decide)).trans <| (W10_of_ne m ρ c main_arg10 (by decide)).trans <| (W9_keep m ρ c main_arg10 (by decide)).trans <| (W8_of_ne m ρ c main_arg10 (by decide)).trans <| (W7_keep m ρ c main_arg10 (by decide)).trans <| (W6_of_ne m ρ c main_arg10 (by decide)).trans <| (W5_keep m ρ c main_arg10 (by decide)).trans <| (W4_of_ne m ρ c main_arg10 (by decide)).trans <| (W3_keep m ρ c main_arg10 (by decide)).trans <| (W2_in m ρ c 2 rfl).trans <| (W1_keep m ρ c main_arg10 (by decide)).trans <| rfl

/-! ## The proof data family and the thread state -/

abbrev admH : (p : Fin 9) → (pcfgs (F := F) p).Adm := fun p => (cfgs p).toPCfg_adm
/-- Every pipeline's proof data, each at its region's entry contents. -/
def pdats : (p : Fin 9) → (c : Dev nD) → Dat τ (Elt F) Unit ℕ (UR sig nD τ) ℕ (Pipeline.pin (pcfgs (F := F)) admH p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
  | ⟨4, _⟩ => fun c => dat4 (E9 m ρ) c
  | ⟨5, _⟩ => fun c => dat5 (E11 m ρ) c
  | ⟨6, _⟩ => fun c => dat6 (E13 m ρ) c
  | ⟨7, _⟩ => fun c => dat7 (E15 m ρ) c
  | ⟨8, _⟩ => fun c => dat8 (E17 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W19 m ρ c) ∗ ∃ r, prngReg c r)

/-! ## The regions as segments -/

set_option backward.isDefEq.respectTransparency.types false in
/-- Region 0 over the thread state: entered from every unscoped buffer at W1, left at W2. Its arrays are split out of the unscoped
    buffers and put back at the exit contents; the generator register goes into the pipeline's invariant and out; nothing owed. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. Its arrays are split out of the unscoped
    buffers and put back at the exit contents; the generator register goes into the pipeline's invariant and out; nothing owed. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W5, left at W6. Its arrays are split out of the unscoped
    buffers and put back at the exit contents; the generator register goes into the pipeline's invariant and out; nothing owed. -/
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at W7, left at W8. Its arrays are split out of the unscoped
    buffers and put back at the exit contents; the generator register goes into the pipeline's invariant and out; nothing owed. -/
def reg3 : Pipeline.RegionSeg (pcfgs (F := F)) admH (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (E7 m ρ c)
  hentry c := by
    rw [Pipeline.ownSems0_none]
    have hsplit := Pipeline.arrays_of_unscopedBufs (p := 3) (pcfgs (F := F)) admH (pdats m ρ) launch3.win launch3.arr_whole c
      ((pdats m ρ 3 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m ρ) ((pdats m ρ 3 c).share_full fun _ => rfl)
      (E7 m ρ c) (E8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at W9, left at W10. Its arrays are split out of the unscoped
    buffers and put back at the exit contents; the generator register goes into the pipeline's invariant and out; nothing owed. -/
def reg4 : Pipeline.RegionSeg (pcfgs (F := F)) admH (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (E9 m ρ c)
  hentry c := by
    rw [Pipeline.ownSems0_none]
    have hsplit := Pipeline.arrays_of_unscopedBufs (p := 4) (pcfgs (F := F)) admH (pdats m ρ) launch4.win launch4.arr_whole c
      ((pdats m ρ 4 c).share_full fun _ => rfl) (E9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) admH (Ix := Unit) (Name := ℕ) (U := UR sig nD τ) (Lvl := ℕ)
      launch4.win launch4.arr_whole c (pdats m ρ) ((pdats m ρ 4 c).share_full fun _ => rfl)
      (E9 m ρ c) (E10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at W11, left at W12. Its arrays are split out of the unscoped
    buffers and put back at the exit contents; the generator register goes into the pipeline's invariant and out; nothing owed. -/
def reg5 : Pipeline.RegionSeg (pcfgs (F := F)) admH (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (E11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (E11 m ρ c)
  hentry c := by
    rw [Pipeline.ownSems0_none]
    have hsplit := Pipeline.arrays_of_unscopedBufs (p := 5) (pcfgs (F := F)) admH (pdats m ρ) launch5.win launch5.arr_whole c
      ((pdats m ρ 5 c).share_full fun _ => rfl) (E11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admH (Ix := Unit) (Name := ℕ) (U := UR sig nD τ) (Lvl := ℕ)
      launch5.win launch5.arr_whole c (pdats m ρ) ((pdats m ρ 5 c).share_full fun _ => rfl)
      (E11 m ρ c) (E12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at W13, left at W14. Its arrays are split out of the unscoped
    buffers and put back at the exit contents; the generator register goes into the pipeline's invariant and out; nothing owed. -/
def reg6 : Pipeline.RegionSeg (pcfgs (F := F)) admH (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (E13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (E13 m ρ c)
  hentry c := by
    rw [Pipeline.ownSems0_none]
    have hsplit := Pipeline.arrays_of_unscopedBufs (p := 6) (pcfgs (F := F)) admH (pdats m ρ) launch6.win launch6.arr_whole c
      ((pdats m ρ 6 c).share_full fun _ => rfl) (E13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admH (Ix := Unit) (Name := ℕ) (U := UR sig nD τ) (Lvl := ℕ)
      launch6.win launch6.arr_whole c (pdats m ρ) ((pdats m ρ 6 c).share_full fun _ => rfl)
      (E13 m ρ c) (E14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at W15, left at W16. Its arrays are split out of the unscoped
    buffers and put back at the exit contents; the generator register goes into the pipeline's invariant and out; nothing owed. -/
def reg7 : Pipeline.RegionSeg (pcfgs (F := F)) admH (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (E15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (E15 m ρ c)
  hentry c := by
    rw [Pipeline.ownSems0_none]
    have hsplit := Pipeline.arrays_of_unscopedBufs (p := 7) (pcfgs (F := F)) admH (pdats m ρ) launch7.win launch7.arr_whole c
      ((pdats m ρ 7 c).share_full fun _ => rfl) (E15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) admH (Ix := Unit) (Name := ℕ) (U := UR sig nD τ) (Lvl := ℕ)
      launch7.win launch7.arr_whole c (pdats m ρ) ((pdats m ρ 7 c).share_full fun _ => rfl)
      (E15 m ρ c) (E16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at W17, left at W18. Its arrays are split out of the unscoped
    buffers and put back at the exit contents; the generator register goes into the pipeline's invariant and out; nothing owed. -/
def reg8 : Pipeline.RegionSeg (pcfgs (F := F)) admH (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (E17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (E17 m ρ c)
  hentry c := by
    rw [Pipeline.ownSems0_none]
    have hsplit := Pipeline.arrays_of_unscopedBufs (p := 8) (pcfgs (F := F)) admH (pdats m ρ) launch8.win launch8.arr_whole c
      ((pdats m ρ 8 c).share_full fun _ => rfl) (E17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) admH (Ix := Unit) (Name := ℕ) (U := UR sig nD τ) (Lvl := ℕ)
      launch8.win launch8.arr_whole c (pdats m ρ) ((pdats m ρ 8 c).share_full fun _ => rfl)
      (E17 m ρ c) (E18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) admH (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every final
    state has every unscoped buffer at the last boundary's contents W19. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) admH (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W19 m ρ c) ∗ R c) ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h => h)

end Cert.KernelIdeal.Hand

end
-- ==== Proof.KI.Chain.lean ====
/-
  What the contents at the boundaries (Proof/KI/Run.lean) hold in the buffers the value of the program is read from: the eight
  parameter buffers the first stretch writes stay as written (every later stretch writes other buffers, every region only reads
  them); the input array stays as launched; a level's two output arrays, once its region has left them, stay until the end.
-/
import proofs.«148344_j70635032150607_1_alg».proof.Proof.KI.Run

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ) (ρ : Dev nD → PrngReg)

theorem W3_main_v0 (c : Dev nD) : W3 m ρ c (Proc.devRef .tc main_v0) = W1 m ρ c (Proc.devRef .tc main_v0) :=
  (W3_keep m ρ c main_v0 (by decide)).trans <| (W2_in m ρ c 3 rfl).trans <| rfl
theorem W5_main_v0 (c : Dev nD) : W5 m ρ c (Proc.devRef .tc main_v0) = W1 m ρ c (Proc.devRef .tc main_v0) :=
  (W5_keep m ρ c main_v0 (by decide)).trans <| (W4_in m ρ c 3 rfl).trans <| W3_main_v0 m ρ c
theorem W7_main_v0 (c : Dev nD) : W7 m ρ c (Proc.devRef .tc main_v0) = W1 m ρ c (Proc.devRef .tc main_v0) :=
  (W7_keep m ρ c main_v0 (by decide)).trans <| (W6_in m ρ c 3 rfl).trans <| W5_main_v0 m ρ c
theorem W9_main_v0 (c : Dev nD) : W9 m ρ c (Proc.devRef .tc main_v0) = W1 m ρ c (Proc.devRef .tc main_v0) :=
  (W9_keep m ρ c main_v0 (by decide)).trans <| (W8_in m ρ c 3 rfl).trans <| W7_main_v0 m ρ c
theorem W11_main_v0 (c : Dev nD) : W11 m ρ c (Proc.devRef .tc main_v0) = W1 m ρ c (Proc.devRef .tc main_v0) :=
  (W11_keep m ρ c main_v0 (by decide)).trans <| (W10_in m ρ c 3 rfl).trans <| W9_main_v0 m ρ c
theorem W13_main_v0 (c : Dev nD) : W13 m ρ c (Proc.devRef .tc main_v0) = W1 m ρ c (Proc.devRef .tc main_v0) :=
  (W13_keep m ρ c main_v0 (by decide)).trans <| (W12_in m ρ c 3 rfl).trans <| W11_main_v0 m ρ c
theorem W15_main_v0 (c : Dev nD) : W15 m ρ c (Proc.devRef .tc main_v0) = W1 m ρ c (Proc.devRef .tc main_v0) :=
  (W15_keep m ρ c main_v0 (by decide)).trans <| (W14_in m ρ c 3 rfl).trans <| W13_main_v0 m ρ c
theorem W17_main_v0 (c : Dev nD) : W17 m ρ c (Proc.devRef .tc main_v0) = W1 m ρ c (Proc.devRef .tc main_v0) :=
  (W17_keep m ρ c main_v0 (by decide)).trans <| (W16_in m ρ c 3 rfl).trans <| W15_main_v0 m ρ c

theorem W3_main_v4 (c : Dev nD) : W3 m ρ c (Proc.devRef .tc main_v4) = W1 m ρ c (Proc.devRef .tc main_v4) :=
  (W3_keep m ρ c main_v4 (by decide)).trans <| (W2_in m ρ c 4 rfl).trans <| rfl
theorem W5_main_v4 (c : Dev nD) : W5 m ρ c (Proc.devRef .tc main_v4) = W1 m ρ c (Proc.devRef .tc main_v4) :=
  (W5_keep m ρ c main_v4 (by decide)).trans <| (W4_in m ρ c 4 rfl).trans <| W3_main_v4 m ρ c
theorem W7_main_v4 (c : Dev nD) : W7 m ρ c (Proc.devRef .tc main_v4) = W1 m ρ c (Proc.devRef .tc main_v4) :=
  (W7_keep m ρ c main_v4 (by decide)).trans <| (W6_in m ρ c 4 rfl).trans <| W5_main_v4 m ρ c
theorem W9_main_v4 (c : Dev nD) : W9 m ρ c (Proc.devRef .tc main_v4) = W1 m ρ c (Proc.devRef .tc main_v4) :=
  (W9_keep m ρ c main_v4 (by decide)).trans <| (W8_in m ρ c 4 rfl).trans <| W7_main_v4 m ρ c
theorem W11_main_v4 (c : Dev nD) : W11 m ρ c (Proc.devRef .tc main_v4) = W1 m ρ c (Proc.devRef .tc main_v4) :=
  (W11_keep m ρ c main_v4 (by decide)).trans <| (W10_in m ρ c 4 rfl).trans <| W9_main_v4 m ρ c
theorem W13_main_v4 (c : Dev nD) : W13 m ρ c (Proc.devRef .tc main_v4) = W1 m ρ c (Proc.devRef .tc main_v4) :=
  (W13_keep m ρ c main_v4 (by decide)).trans <| (W12_in m ρ c 4 rfl).trans <| W11_main_v4 m ρ c
theorem W15_main_v4 (c : Dev nD) : W15 m ρ c (Proc.devRef .tc main_v4) = W1 m ρ c (Proc.devRef .tc main_v4) :=
  (W15_keep m ρ c main_v4 (by decide)).trans <| (W14_in m ρ c 4 rfl).trans <| W13_main_v4 m ρ c
theorem W17_main_v4 (c : Dev nD) : W17 m ρ c (Proc.devRef .tc main_v4) = W1 m ρ c (Proc.devRef .tc main_v4) :=
  (W17_keep m ρ c main_v4 (by decide)).trans <| (W16_in m ρ c 4 rfl).trans <| W15_main_v4 m ρ c

theorem W3_main_v1 (c : Dev nD) : W3 m ρ c (Proc.devRef .tc main_v1) = W1 m ρ c (Proc.devRef .tc main_v1) :=
  (W3_keep m ρ c main_v1 (by decide)).trans <| (W2_in m ρ c 5 rfl).trans <| rfl
theorem W5_main_v1 (c : Dev nD) : W5 m ρ c (Proc.devRef .tc main_v1) = W1 m ρ c (Proc.devRef .tc main_v1) :=
  (W5_keep m ρ c main_v1 (by decide)).trans <| (W4_in m ρ c 5 rfl).trans <| W3_main_v1 m ρ c
theorem W7_main_v1 (c : Dev nD) : W7 m ρ c (Proc.devRef .tc main_v1) = W1 m ρ c (Proc.devRef .tc main_v1) :=
  (W7_keep m ρ c main_v1 (by decide)).trans <| (W6_in m ρ c 5 rfl).trans <| W5_main_v1 m ρ c
theorem W9_main_v1 (c : Dev nD) : W9 m ρ c (Proc.devRef .tc main_v1) = W1 m ρ c (Proc.devRef .tc main_v1) :=
  (W9_keep m ρ c main_v1 (by decide)).trans <| (W8_in m ρ c 5 rfl).trans <| W7_main_v1 m ρ c
theorem W11_main_v1 (c : Dev nD) : W11 m ρ c (Proc.devRef .tc main_v1) = W1 m ρ c (Proc.devRef .tc main_v1) :=
  (W11_keep m ρ c main_v1 (by decide)).trans <| (W10_in m ρ c 5 rfl).trans <| W9_main_v1 m ρ c
theorem W13_main_v1 (c : Dev nD) : W13 m ρ c (Proc.devRef .tc main_v1) = W1 m ρ c (Proc.devRef .tc main_v1) :=
  (W13_keep m ρ c main_v1 (by decide)).trans <| (W12_in m ρ c 5 rfl).trans <| W11_main_v1 m ρ c
theorem W15_main_v1 (c : Dev nD) : W15 m ρ c (Proc.devRef .tc main_v1) = W1 m ρ c (Proc.devRef .tc main_v1) :=
  (W15_keep m ρ c main_v1 (by decide)).trans <| (W14_in m ρ c 5 rfl).trans <| W13_main_v1 m ρ c
theorem W17_main_v1 (c : Dev nD) : W17 m ρ c (Proc.devRef .tc main_v1) = W1 m ρ c (Proc.devRef .tc main_v1) :=
  (W17_keep m ρ c main_v1 (by decide)).trans <| (W16_in m ρ c 5 rfl).trans <| W15_main_v1 m ρ c

theorem W3_main_v5 (c : Dev nD) : W3 m ρ c (Proc.devRef .tc main_v5) = W1 m ρ c (Proc.devRef .tc main_v5) :=
  (W3_keep m ρ c main_v5 (by decide)).trans <| (W2_in m ρ c 6 rfl).trans <| rfl
theorem W5_main_v5 (c : Dev nD) : W5 m ρ c (Proc.devRef .tc main_v5) = W1 m ρ c (Proc.devRef .tc main_v5) :=
  (W5_keep m ρ c main_v5 (by decide)).trans <| (W4_in m ρ c 6 rfl).trans <| W3_main_v5 m ρ c
theorem W7_main_v5 (c : Dev nD) : W7 m ρ c (Proc.devRef .tc main_v5) = W1 m ρ c (Proc.devRef .tc main_v5) :=
  (W7_keep m ρ c main_v5 (by decide)).trans <| (W6_in m ρ c 6 rfl).trans <| W5_main_v5 m ρ c
theorem W9_main_v5 (c : Dev nD) : W9 m ρ c (Proc.devRef .tc main_v5) = W1 m ρ c (Proc.devRef .tc main_v5) :=
  (W9_keep m ρ c main_v5 (by decide)).trans <| (W8_in m ρ c 6 rfl).trans <| W7_main_v5 m ρ c
theorem W11_main_v5 (c : Dev nD) : W11 m ρ c (Proc.devRef .tc main_v5) = W1 m ρ c (Proc.devRef .tc main_v5) :=
  (W11_keep m ρ c main_v5 (by decide)).trans <| (W10_in m ρ c 6 rfl).trans <| W9_main_v5 m ρ c
theorem W13_main_v5 (c : Dev nD) : W13 m ρ c (Proc.devRef .tc main_v5) = W1 m ρ c (Proc.devRef .tc main_v5) :=
  (W13_keep m ρ c main_v5 (by decide)).trans <| (W12_in m ρ c 6 rfl).trans <| W11_main_v5 m ρ c
theorem W15_main_v5 (c : Dev nD) : W15 m ρ c (Proc.devRef .tc main_v5) = W1 m ρ c (Proc.devRef .tc main_v5) :=
  (W15_keep m ρ c main_v5 (by decide)).trans <| (W14_in m ρ c 6 rfl).trans <| W13_main_v5 m ρ c
theorem W17_main_v5 (c : Dev nD) : W17 m ρ c (Proc.devRef .tc main_v5) = W1 m ρ c (Proc.devRef .tc main_v5) :=
  (W17_keep m ρ c main_v5 (by decide)).trans <| (W16_in m ρ c 6 rfl).trans <| W15_main_v5 m ρ c

theorem W3_main_v2 (c : Dev nD) : W3 m ρ c (Proc.devRef .tc main_v2) = W1 m ρ c (Proc.devRef .tc main_v2) :=
  (W3_keep m ρ c main_v2 (by decide)).trans <| (W2_in m ρ c 7 rfl).trans <| rfl
theorem W5_main_v2 (c : Dev nD) : W5 m ρ c (Proc.devRef .tc main_v2) = W1 m ρ c (Proc.devRef .tc main_v2) :=
  (W5_keep m ρ c main_v2 (by decide)).trans <| (W4_in m ρ c 7 rfl).trans <| W3_main_v2 m ρ c
theorem W7_main_v2 (c : Dev nD) : W7 m ρ c (Proc.devRef .tc main_v2) = W1 m ρ c (Proc.devRef .tc main_v2) :=
  (W7_keep m ρ c main_v2 (by decide)).trans <| (W6_in m ρ c 7 rfl).trans <| W5_main_v2 m ρ c
theorem W9_main_v2 (c : Dev nD) : W9 m ρ c (Proc.devRef .tc main_v2) = W1 m ρ c (Proc.devRef .tc main_v2) :=
  (W9_keep m ρ c main_v2 (by decide)).trans <| (W8_in m ρ c 7 rfl).trans <| W7_main_v2 m ρ c
theorem W11_main_v2 (c : Dev nD) : W11 m ρ c (Proc.devRef .tc main_v2) = W1 m ρ c (Proc.devRef .tc main_v2) :=
  (W11_keep m ρ c main_v2 (by decide)).trans <| (W10_in m ρ c 7 rfl).trans <| W9_main_v2 m ρ c
theorem W13_main_v2 (c : Dev nD) : W13 m ρ c (Proc.devRef .tc main_v2) = W1 m ρ c (Proc.devRef .tc main_v2) :=
  (W13_keep m ρ c main_v2 (by decide)).trans <| (W12_in m ρ c 7 rfl).trans <| W11_main_v2 m ρ c
theorem W15_main_v2 (c : Dev nD) : W15 m ρ c (Proc.devRef .tc main_v2) = W1 m ρ c (Proc.devRef .tc main_v2) :=
  (W15_keep m ρ c main_v2 (by decide)).trans <| (W14_in m ρ c 7 rfl).trans <| W13_main_v2 m ρ c
theorem W17_main_v2 (c : Dev nD) : W17 m ρ c (Proc.devRef .tc main_v2) = W1 m ρ c (Proc.devRef .tc main_v2) :=
  (W17_keep m ρ c main_v2 (by decide)).trans <| (W16_in m ρ c 7 rfl).trans <| W15_main_v2 m ρ c

theorem W3_main_v6 (c : Dev nD) : W3 m ρ c (Proc.devRef .tc main_v6) = W1 m ρ c (Proc.devRef .tc main_v6) :=
  (W3_keep m ρ c main_v6 (by decide)).trans <| (W2_in m ρ c 8 rfl).trans <| rfl
theorem W5_main_v6 (c : Dev nD) : W5 m ρ c (Proc.devRef .tc main_v6) = W1 m ρ c (Proc.devRef .tc main_v6) :=
  (W5_keep m ρ c main_v6 (by decide)).trans <| (W4_in m ρ c 8 rfl).trans <| W3_main_v6 m ρ c
theorem W7_main_v6 (c : Dev nD) : W7 m ρ c (Proc.devRef .tc main_v6) = W1 m ρ c (Proc.devRef .tc main_v6) :=
  (W7_keep m ρ c main_v6 (by decide)).trans <| (W6_in m ρ c 8 rfl).trans <| W5_main_v6 m ρ c
theorem W9_main_v6 (c : Dev nD) : W9 m ρ c (Proc.devRef .tc main_v6) = W1 m ρ c (Proc.devRef .tc main_v6) :=
  (W9_keep m ρ c main_v6 (by decide)).trans <| (W8_in m ρ c 8 rfl).trans <| W7_main_v6 m ρ c
theorem W11_main_v6 (c : Dev nD) : W11 m ρ c (Proc.devRef .tc main_v6) = W1 m ρ c (Proc.devRef .tc main_v6) :=
  (W11_keep m ρ c main_v6 (by decide)).trans <| (W10_in m ρ c 8 rfl).trans <| W9_main_v6 m ρ c
theorem W13_main_v6 (c : Dev nD) : W13 m ρ c (Proc.devRef .tc main_v6) = W1 m ρ c (Proc.devRef .tc main_v6) :=
  (W13_keep m ρ c main_v6 (by decide)).trans <| (W12_in m ρ c 8 rfl).trans <| W11_main_v6 m ρ c
theorem W15_main_v6 (c : Dev nD) : W15 m ρ c (Proc.devRef .tc main_v6) = W1 m ρ c (Proc.devRef .tc main_v6) :=
  (W15_keep m ρ c main_v6 (by decide)).trans <| (W14_in m ρ c 8 rfl).trans <| W13_main_v6 m ρ c
theorem W17_main_v6 (c : Dev nD) : W17 m ρ c (Proc.devRef .tc main_v6) = W1 m ρ c (Proc.devRef .tc main_v6) :=
  (W17_keep m ρ c main_v6 (by decide)).trans <| (W16_in m ρ c 8 rfl).trans <| W15_main_v6 m ρ c

theorem W3_main_v3 (c : Dev nD) : W3 m ρ c (Proc.devRef .tc main_v3) = W1 m ρ c (Proc.devRef .tc main_v3) :=
  (W3_keep m ρ c main_v3 (by decide)).trans <| (W2_in m ρ c 9 rfl).trans <| rfl
theorem W5_main_v3 (c : Dev nD) : W5 m ρ c (Proc.devRef .tc main_v3) = W1 m ρ c (Proc.devRef .tc main_v3) :=
  (W5_keep m ρ c main_v3 (by decide)).trans <| (W4_in m ρ c 9 rfl).trans <| W3_main_v3 m ρ c
theorem W7_main_v3 (c : Dev nD) : W7 m ρ c (Proc.devRef .tc main_v3) = W1 m ρ c (Proc.devRef .tc main_v3) :=
  (W7_keep m ρ c main_v3 (by decide)).trans <| (W6_in m ρ c 9 rfl).trans <| W5_main_v3 m ρ c
theorem W9_main_v3 (c : Dev nD) : W9 m ρ c (Proc.devRef .tc main_v3) = W1 m ρ c (Proc.devRef .tc main_v3) :=
  (W9_keep m ρ c main_v3 (by decide)).trans <| (W8_in m ρ c 9 rfl).trans <| W7_main_v3 m ρ c
theorem W11_main_v3 (c : Dev nD) : W11 m ρ c (Proc.devRef .tc main_v3) = W1 m ρ c (Proc.devRef .tc main_v3) :=
  (W11_keep m ρ c main_v3 (by decide)).trans <| (W10_in m ρ c 9 rfl).trans <| W9_main_v3 m ρ c
theorem W13_main_v3 (c : Dev nD) : W13 m ρ c (Proc.devRef .tc main_v3) = W1 m ρ c (Proc.devRef .tc main_v3) :=
  (W13_keep m ρ c main_v3 (by decide)).trans <| (W12_in m ρ c 9 rfl).trans <| W11_main_v3 m ρ c
theorem W15_main_v3 (c : Dev nD) : W15 m ρ c (Proc.devRef .tc main_v3) = W1 m ρ c (Proc.devRef .tc main_v3) :=
  (W15_keep m ρ c main_v3 (by decide)).trans <| (W14_in m ρ c 9 rfl).trans <| W13_main_v3 m ρ c
theorem W17_main_v3 (c : Dev nD) : W17 m ρ c (Proc.devRef .tc main_v3) = W1 m ρ c (Proc.devRef .tc main_v3) :=
  (W17_keep m ρ c main_v3 (by decide)).trans <| (W16_in m ρ c 9 rfl).trans <| W15_main_v3 m ρ c

theorem W3_main_v7 (c : Dev nD) : W3 m ρ c (Proc.devRef .tc main_v7) = W1 m ρ c (Proc.devRef .tc main_v7) :=
  (W3_keep m ρ c main_v7 (by decide)).trans <| (W2_in m ρ c 10 rfl).trans <| rfl
theorem W5_main_v7 (c : Dev nD) : W5 m ρ c (Proc.devRef .tc main_v7) = W1 m ρ c (Proc.devRef .tc main_v7) :=
  (W5_keep m ρ c main_v7 (by decide)).trans <| (W4_in m ρ c 10 rfl).trans <| W3_main_v7 m ρ c
theorem W7_main_v7 (c : Dev nD) : W7 m ρ c (Proc.devRef .tc main_v7) = W1 m ρ c (Proc.devRef .tc main_v7) :=
  (W7_keep m ρ c main_v7 (by decide)).trans <| (W6_in m ρ c 10 rfl).trans <| W5_main_v7 m ρ c
theorem W9_main_v7 (c : Dev nD) : W9 m ρ c (Proc.devRef .tc main_v7) = W1 m ρ c (Proc.devRef .tc main_v7) :=
  (W9_keep m ρ c main_v7 (by decide)).trans <| (W8_in m ρ c 10 rfl).trans <| W7_main_v7 m ρ c
theorem W11_main_v7 (c : Dev nD) : W11 m ρ c (Proc.devRef .tc main_v7) = W1 m ρ c (Proc.devRef .tc main_v7) :=
  (W11_keep m ρ c main_v7 (by decide)).trans <| (W10_in m ρ c 10 rfl).trans <| W9_main_v7 m ρ c
theorem W13_main_v7 (c : Dev nD) : W13 m ρ c (Proc.devRef .tc main_v7) = W1 m ρ c (Proc.devRef .tc main_v7) :=
  (W13_keep m ρ c main_v7 (by decide)).trans <| (W12_in m ρ c 10 rfl).trans <| W11_main_v7 m ρ c
theorem W15_main_v7 (c : Dev nD) : W15 m ρ c (Proc.devRef .tc main_v7) = W1 m ρ c (Proc.devRef .tc main_v7) :=
  (W15_keep m ρ c main_v7 (by decide)).trans <| (W14_in m ρ c 10 rfl).trans <| W13_main_v7 m ρ c
theorem W17_main_v7 (c : Dev nD) : W17 m ρ c (Proc.devRef .tc main_v7) = W1 m ρ c (Proc.devRef .tc main_v7) :=
  (W17_keep m ρ c main_v7 (by decide)).trans <| (W16_in m ρ c 10 rfl).trans <| W15_main_v7 m ρ c

theorem W0_main_arg0 (c : Dev nD) : W0 m ρ c (Proc.devRef .tc main_arg0) = m ((c : Thread nD τ).loc main_arg0) := rfl
theorem W2_main_arg0 (c : Dev nD) : W2 m ρ c (Proc.devRef .tc main_arg0) = m ((c : Thread nD τ).loc main_arg0) :=
  (W2_of_ne m ρ c main_arg0 (by decide)).trans <| (W1_keep m ρ c main_arg0 (by decide)).trans <| W0_main_arg0 m ρ c
theorem W4_main_arg0 (c : Dev nD) : W4 m ρ c (Proc.devRef .tc main_arg0) = m ((c : Thread nD τ).loc main_arg0) :=
  (W4_of_ne m ρ c main_arg0 (by decide)).trans <| (W3_keep m ρ c main_arg0 (by decide)).trans <| W2_main_arg0 m ρ c
theorem W6_main_arg0 (c : Dev nD) : W6 m ρ c (Proc.devRef .tc main_arg0) = m ((c : Thread nD τ).loc main_arg0) :=
  (W6_of_ne m ρ c main_arg0 (by decide)).trans <| (W5_keep m ρ c main_arg0 (by decide)).trans <| W4_main_arg0 m ρ c
theorem W8_main_arg0 (c : Dev nD) : W8 m ρ c (Proc.devRef .tc main_arg0) = m ((c : Thread nD τ).loc main_arg0) :=
  (W8_of_ne m ρ c main_arg0 (by decide)).trans <| (W7_keep m ρ c main_arg0 (by decide)).trans <| W6_main_arg0 m ρ c
theorem W10_main_arg0 (c : Dev nD) : W10 m ρ c (Proc.devRef .tc main_arg0) = m ((c : Thread nD τ).loc main_arg0) :=
  (W10_of_ne m ρ c main_arg0 (by decide)).trans <| (W9_keep m ρ c main_arg0 (by decide)).trans <| W8_main_arg0 m ρ c
theorem W12_main_arg0 (c : Dev nD) : W12 m ρ c (Proc.devRef .tc main_arg0) = m ((c : Thread nD τ).loc main_arg0) :=
  (W12_of_ne m ρ c main_arg0 (by decide)).trans <| (W11_keep m ρ c main_arg0 (by decide)).trans <| W10_main_arg0 m ρ c
theorem W14_main_arg0 (c : Dev nD) : W14 m ρ c (Proc.devRef .tc main_arg0) = m ((c : Thread nD τ).loc main_arg0) :=
  (W14_of_ne m ρ c main_arg0 (by decide)).trans <| (W13_keep m ρ c main_arg0 (by decide)).trans <| W12_main_arg0 m ρ c
theorem W16_main_arg0 (c : Dev nD) : W16 m ρ c (Proc.devRef .tc main_arg0) = m ((c : Thread nD τ).loc main_arg0) :=
  (W16_of_ne m ρ c main_arg0 (by decide)).trans <| (W15_keep m ρ c main_arg0 (by decide)).trans <| W14_main_arg0 m ρ c

theorem W18_main_v9_0 (c : Dev nD) : W18 m ρ c (Proc.devRef .tc main_v9_0) = W2 m ρ c (Proc.devRef .tc main_v9_0) :=
  (W18_of_ne m ρ c main_v9_0 (by decide)).trans <| (W17_keep m ρ c main_v9_0 (by decide)).trans <| (W16_of_ne m ρ c main_v9_0 (by decide)).trans <| (W15_keep m ρ c main_v9_0 (by decide)).trans <| (W14_of_ne m ρ c main_v9_0 (by decide)).trans <| (W13_keep m ρ c main_v9_0 (by decide)).trans <| (W12_of_ne m ρ c main_v9_0 (by decide)).trans <| (W11_keep m ρ c main_v9_0 (by decide)).trans <| (W10_of_ne m ρ c main_v9_0 (by decide)).trans <| (W9_keep m ρ c main_v9_0 (by decide)).trans <| (W8_of_ne m ρ c main_v9_0 (by decide)).trans <| (W7_keep m ρ c main_v9_0 (by decide)).trans <| (W6_of_ne m ρ c main_v9_0 (by decide)).trans <| (W5_keep m ρ c main_v9_0 (by decide)).trans <| (W4_of_ne m ρ c main_v9_0 (by decide)).trans <| (W3_keep m ρ c main_v9_0 (by decide)).trans <| rfl
theorem W18_main_v9_1 (c : Dev nD) : W18 m ρ c (Proc.devRef .tc main_v9_1) = W2 m ρ c (Proc.devRef .tc main_v9_1) :=
  (W18_of_ne m ρ c main_v9_1 (by decide)).trans <| (W17_keep m ρ c main_v9_1 (by decide)).trans <| (W16_of_ne m ρ c main_v9_1 (by decide)).trans <| (W15_keep m ρ c main_v9_1 (by decide)).trans <| (W14_of_ne m ρ c main_v9_1 (by decide)).trans <| (W13_keep m ρ c main_v9_1 (by decide)).trans <| (W12_of_ne m ρ c main_v9_1 (by decide)).trans <| (W11_keep m ρ c main_v9_1 (by decide)).trans <| (W10_of_ne m ρ c main_v9_1 (by decide)).trans <| (W9_keep m ρ c main_v9_1 (by decide)).trans <| (W8_of_ne m ρ c main_v9_1 (by decide)).trans <| (W7_keep m ρ c main_v9_1 (by decide)).trans <| (W6_of_ne m ρ c main_v9_1 (by decide)).trans <| (W5_keep m ρ c main_v9_1 (by decide)).trans <| (W4_of_ne m ρ c main_v9_1 (by decide)).trans <| (W3_keep m ρ c main_v9_1 (by decide)).trans <| rfl
theorem W18_main_v13_0 (c : Dev nD) : W18 m ρ c (Proc.devRef .tc main_v13_0) = W4 m ρ c (Proc.devRef .tc main_v13_0) :=
  (W18_of_ne m ρ c main_v13_0 (by decide)).trans <| (W17_keep m ρ c main_v13_0 (by decide)).trans <| (W16_of_ne m ρ c main_v13_0 (by decide)).trans <| (W15_keep m ρ c main_v13_0 (by decide)).trans <| (W14_of_ne m ρ c main_v13_0 (by decide)).trans <| (W13_keep m ρ c main_v13_0 (by decide)).trans <| (W12_of_ne m ρ c main_v13_0 (by decide)).trans <| (W11_keep m ρ c main_v13_0 (by decide)).trans <| (W10_of_ne m ρ c main_v13_0 (by decide)).trans <| (W9_keep m ρ c main_v13_0 (by decide)).trans <| (W8_of_ne m ρ c main_v13_0 (by decide)).trans <| (W7_keep m ρ c main_v13_0 (by decide)).trans <| (W6_of_ne m ρ c main_v13_0 (by decide)).trans <| (W5_keep m ρ c main_v13_0 (by decide)).trans <| rfl
theorem W18_main_v13_1 (c : Dev nD) : W18 m ρ c (Proc.devRef .tc main_v13_1) = W4 m ρ c (Proc.devRef .tc main_v13_1) :=
  (W18_of_ne m ρ c main_v13_1 (by decide)).trans <| (W17_keep m ρ c main_v13_1 (by decide)).trans <| (W16_of_ne m ρ c main_v13_1 (by decide)).trans <| (W15_keep m ρ c main_v13_1 (by decide)).trans <| (W14_of_ne m ρ c main_v13_1 (by decide)).trans <| (W13_keep m ρ c main_v13_1 (by decide)).trans <| (W12_of_ne m ρ c main_v13_1 (by decide)).trans <| (W11_keep m ρ c main_v13_1 (by decide)).trans <| (W10_of_ne m ρ c main_v13_1 (by decide)).trans <| (W9_keep m ρ c main_v13_1 (by decide)).trans <| (W8_of_ne m ρ c main_v13_1 (by decide)).trans <| (W7_keep m ρ c main_v13_1 (by decide)).trans <| (W6_of_ne m ρ c main_v13_1 (by decide)).trans <| (W5_keep m ρ c main_v13_1 (by decide)).trans <| rfl
theorem W18_main_v17_0 (c : Dev nD) : W18 m ρ c (Proc.devRef .tc main_v17_0) = W6 m ρ c (Proc.devRef .tc main_v17_0) :=
  (W18_of_ne m ρ c main_v17_0 (by decide)).trans <| (W17_keep m ρ c main_v17_0 (by decide)).trans <| (W16_of_ne m ρ c main_v17_0 (by decide)).trans <| (W15_keep m ρ c main_v17_0 (by decide)).trans <| (W14_of_ne m ρ c main_v17_0 (by decide)).trans <| (W13_keep m ρ c main_v17_0 (by decide)).trans <| (W12_of_ne m ρ c main_v17_0 (by decide)).trans <| (W11_keep m ρ c main_v17_0 (by decide)).trans <| (W10_of_ne m ρ c main_v17_0 (by decide)).trans <| (W9_keep m ρ c main_v17_0 (by decide)).trans <| (W8_of_ne m ρ c main_v17_0 (by decide)).trans <| (W7_keep m ρ c main_v17_0 (by decide)).trans <| rfl
theorem W18_main_v17_1 (c : Dev nD) : W18 m ρ c (Proc.devRef .tc main_v17_1) = W6 m ρ c (Proc.devRef .tc main_v17_1) :=
  (W18_of_ne m ρ c main_v17_1 (by decide)).trans <| (W17_keep m ρ c main_v17_1 (by decide)).trans <| (W16_of_ne m ρ c main_v17_1 (by decide)).trans <| (W15_keep m ρ c main_v17_1 (by decide)).trans <| (W14_of_ne m ρ c main_v17_1 (by decide)).trans <| (W13_keep m ρ c main_v17_1 (by decide)).trans <| (W12_of_ne m ρ c main_v17_1 (by decide)).trans <| (W11_keep m ρ c main_v17_1 (by decide)).trans <| (W10_of_ne m ρ c main_v17_1 (by decide)).trans <| (W9_keep m ρ c main_v17_1 (by decide)).trans <| (W8_of_ne m ρ c main_v17_1 (by decide)).trans <| (W7_keep m ρ c main_v17_1 (by decide)).trans <| rfl
theorem W18_main_v21_0 (c : Dev nD) : W18 m ρ c (Proc.devRef .tc main_v21_0) = W8 m ρ c (Proc.devRef .tc main_v21_0) :=
  (W18_of_ne m ρ c main_v21_0 (by decide)).trans <| (W17_keep m ρ c main_v21_0 (by decide)).trans <| (W16_of_ne m ρ c main_v21_0 (by decide)).trans <| (W15_keep m ρ c main_v21_0 (by decide)).trans <| (W14_of_ne m ρ c main_v21_0 (by decide)).trans <| (W13_keep m ρ c main_v21_0 (by decide)).trans <| (W12_of_ne m ρ c main_v21_0 (by decide)).trans <| (W11_keep m ρ c main_v21_0 (by decide)).trans <| (W10_of_ne m ρ c main_v21_0 (by decide)).trans <| (W9_keep m ρ c main_v21_0 (by decide)).trans <| rfl
theorem W18_main_v21_1 (c : Dev nD) : W18 m ρ c (Proc.devRef .tc main_v21_1) = W8 m ρ c (Proc.devRef .tc main_v21_1) :=
  (W18_of_ne m ρ c main_v21_1 (by decide)).trans <| (W17_keep m ρ c main_v21_1 (by decide)).trans <| (W16_of_ne m ρ c main_v21_1 (by decide)).trans <| (W15_keep m ρ c main_v21_1 (by decide)).trans <| (W14_of_ne m ρ c main_v21_1 (by decide)).trans <| (W13_keep m ρ c main_v21_1 (by decide)).trans <| (W12_of_ne m ρ c main_v21_1 (by decide)).trans <| (W11_keep m ρ c main_v21_1 (by decide)).trans <| (W10_of_ne m ρ c main_v21_1 (by decide)).trans <| (W9_keep m ρ c main_v21_1 (by decide)).trans <| rfl
theorem W18_main_v25_0 (c : Dev nD) : W18 m ρ c (Proc.devRef .tc main_v25_0) = W10 m ρ c (Proc.devRef .tc main_v25_0) :=
  (W18_of_ne m ρ c main_v25_0 (by decide)).trans <| (W17_keep m ρ c main_v25_0 (by decide)).trans <| (W16_of_ne m ρ c main_v25_0 (by decide)).trans <| (W15_keep m ρ c main_v25_0 (by decide)).trans <| (W14_of_ne m ρ c main_v25_0 (by decide)).trans <| (W13_keep m ρ c main_v25_0 (by decide)).trans <| (W12_of_ne m ρ c main_v25_0 (by decide)).trans <| (W11_keep m ρ c main_v25_0 (by decide)).trans <| rfl
theorem W18_main_v25_1 (c : Dev nD) : W18 m ρ c (Proc.devRef .tc main_v25_1) = W10 m ρ c (Proc.devRef .tc main_v25_1) :=
  (W18_of_ne m ρ c main_v25_1 (by decide)).trans <| (W17_keep m ρ c main_v25_1 (by decide)).trans <| (W16_of_ne m ρ c main_v25_1 (by decide)).trans <| (W15_keep m ρ c main_v25_1 (by decide)).trans <| (W14_of_ne m ρ c main_v25_1 (by decide)).trans <| (W13_keep m ρ c main_v25_1 (by decide)).trans <| (W12_of_ne m ρ c main_v25_1 (by decide)).trans <| (W11_keep m ρ c main_v25_1 (by decide)).trans <| rfl
theorem W18_main_v29_0 (c : Dev nD) : W18 m ρ c (Proc.devRef .tc main_v29_0) = W12 m ρ c (Proc.devRef .tc main_v29_0) :=
  (W18_of_ne m ρ c main_v29_0 (by decide)).trans <| (W17_keep m ρ c main_v29_0 (by decide)).trans <| (W16_of_ne m ρ c main_v29_0 (by decide)).trans <| (W15_keep m ρ c main_v29_0 (by decide)).trans <| (W14_of_ne m ρ c main_v29_0 (by decide)).trans <| (W13_keep m ρ c main_v29_0 (by decide)).trans <| rfl
theorem W18_main_v29_1 (c : Dev nD) : W18 m ρ c (Proc.devRef .tc main_v29_1) = W12 m ρ c (Proc.devRef .tc main_v29_1) :=
  (W18_of_ne m ρ c main_v29_1 (by decide)).trans <| (W17_keep m ρ c main_v29_1 (by decide)).trans <| (W16_of_ne m ρ c main_v29_1 (by decide)).trans <| (W15_keep m ρ c main_v29_1 (by decide)).trans <| (W14_of_ne m ρ c main_v29_1 (by decide)).trans <| (W13_keep m ρ c main_v29_1 (by decide)).trans <| rfl
theorem W18_main_v33_0 (c : Dev nD) : W18 m ρ c (Proc.devRef .tc main_v33_0) = W14 m ρ c (Proc.devRef .tc main_v33_0) :=
  (W18_of_ne m ρ c main_v33_0 (by decide)).trans <| (W17_keep m ρ c main_v33_0 (by decide)).trans <| (W16_of_ne m ρ c main_v33_0 (by decide)).trans <| (W15_keep m ρ c main_v33_0 (by decide)).trans <| rfl
theorem W18_main_v33_1 (c : Dev nD) : W18 m ρ c (Proc.devRef .tc main_v33_1) = W14 m ρ c (Proc.devRef .tc main_v33_1) :=
  (W18_of_ne m ρ c main_v33_1 (by decide)).trans <| (W17_keep m ρ c main_v33_1 (by decide)).trans <| (W16_of_ne m ρ c main_v33_1 (by decide)).trans <| (W15_keep m ρ c main_v33_1 (by decide)).trans <| rfl
theorem W18_main_v37_0 (c : Dev nD) : W18 m ρ c (Proc.devRef .tc main_v37_0) = W16 m ρ c (Proc.devRef .tc main_v37_0) :=
  (W18_of_ne m ρ c main_v37_0 (by decide)).trans <| (W17_keep m ρ c main_v37_0 (by decide)).trans <| rfl
theorem W18_main_v37_1 (c : Dev nD) : W18 m ρ c (Proc.devRef .tc main_v37_1) = W16 m ρ c (Proc.devRef .tc main_v37_1) :=
  (W18_of_ne m ρ c main_v37_1 (by decide)).trans <| (W17_keep m ρ c main_v37_1 (by decide)).trans <| rfl
theorem W18_main_v41_0 (c : Dev nD) : W18 m ρ c (Proc.devRef .tc main_v41_0) = W18 m ρ c (Proc.devRef .tc main_v41_0) :=
  rfl
theorem W18_main_v41_1 (c : Dev nD) : W18 m ρ c (Proc.devRef .tc main_v41_1) = W18 m ρ c (Proc.devRef .tc main_v41_1) :=
  rfl

end Cert.KernelIdeal.Hand

end
-- ==== Proof.KI.CellLemmas.lean ====
/-
  The three operations of the cell's body that are not lane by lane, read at an index (row r, column j), for any
  number of rows n: a block of 128 columns cut out at column o reads column o + j; a single row copied to every row
  reads that row's column j; and a plain matrix product into a zero accumulator reads the sum over the contracted
  coordinate of the products of the entries.  Everything else in the body (sums, products, the logistic function, tanh,
  the changes of float format, reshapes to the same shape) acts lane by lane and is the identity or the extended reals'
  own operation at each index.
-/
import Idealize.ShloMosaic.PureOps.Ideal.Laws
import Idealize.ShloMosaic.Lib.ValueIdx
import Idealize.ShloMosaic.Lib.Pipeline.Value
import Idealize.ShloMosaic.Lib.StackMember

noncomputable section

namespace Cert.KernelIdeal.Hand

open Idealize.ShloMosaic Idealize.ShloMosaic.ValueIdx

section Layout
variable {α : Type} {n W : Nat}

/-- Columns o … o+127 of an n × W array, read at (r, j): the array at (r, o + j). -/
theorem slice_cols_apply (o : Nat) (x : (⟨2, ![n, W]⟩ : Shape).Idx → α)
    (h : (⟨2, ![n, W]⟩ : Shape).Slices ![0, o] ⟨2, ![n, 128]⟩) (r : Fin n) (j : Fin 128) :
    extractStridedSlice ⟨2, ![n, 128]⟩ ![0, o] x h (ix2 r j)
      = x (ix2 r ⟨o + j.val, lt_of_lt_of_le (Nat.add_lt_add_left j.isLt o) (h.2 (1 : Fin 2))⟩) :=
  extractStridedSlice_apply ![0, o] x h (ix2 r j) _ (fun a => by
    match a with
    | ⟨0, _⟩ => exact (Nat.zero_add _).symm
    | ⟨1, _⟩ => rfl)

/-- One row of W numbers copied to each of n rows, read at (r, j): the row at j. -/
theorem bcast_row_apply (x : (⟨2, ![1, W]⟩ : Shape).Idx → α)
    (h : (⟨2, ![1, W]⟩ : Shape).Broadcasts ⟨2, ![n, W]⟩) (r : Fin n) (j : Fin W) :
    broadcastTo ⟨2, ![n, W]⟩ x h (ix2 r j) = x (ix2 (0 : Fin 1) j) :=
  broadcastTo_apply x h (ix2 r j) (ix2 (0 : Fin 1) j) (fun a => by
    match a with
    | ⟨0, _⟩ => exact (if_pos rfl).symm
    | ⟨1, _⟩ =>
      show j.val = if W = 1 then 0 else j.val
      have := j.isLt
      split <;> omega)

end Layout

section Lanewise
variable {s : Shape} {φ : FTy}

/-- The logistic function of a block, at an index: the logistic function of the entry. -/
theorem logistic_apply (a : FVec Ideal s φ) (i : s.Idx) : logistic a i = Ideal.logistic (a i) := rfl
/-- The hyperbolic tangent of a block, at an index: that of the entry. -/
theorem tanh_apply (a : FVec Ideal s φ) (i : s.Idx) : tanh a i = Ideal.tanh (a i) := rfl

end Lanewise

/-- An m × k matrix times a k × n matrix, added into zeros, read at (a, b): the sum over c of A(a, c) · B(c, b). -/
theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.KernelIdeal.Hand

end
-- ==== Proof.Spec.lean ====
/-
  The mathematics both programs compute.

  A complete 4-ary tree of depth 8 is processed level by level, deepest level first.  Level K (K = 0 … 8) has
  4^(8-K) nodes; node r of level K+1 has as children the nodes 4r … 4r+3 of level K.  Each node carries an input
  row x (128 numbers) and receives, packed side by side, its four children's hidden rows h (4·128 = 512 numbers)
  and cell rows c (512 numbers); the leaves receive the same learned initial rows instead.  One cell maps
  (x, h, c) to a new hidden row and a new cell row of 128 numbers each:

      iou   = x·Wᵀ + b₁ + h·Uᵀ + b₂                       (384 numbers: the gates i | o | u)
      f_a   = σ( (h·U_fᵀ + b_uf)[128a … 128a+127] + (x·W_fᵀ + b_wf) )          a = 0 … 3
      c'    = σ(i)·tanh(u) + f₀·c[0…127] + f₁·c[128…255] + f₂·c[256…383] + f₃·c[384…511]
      h'    = σ(o)·tanh(c')

  with σ(v) = 1 / (1 + e^(-v)).  Everything is over the extended reals with the exact operations; sums are grouped as
  written here (left to right), which is one of the groupings the two programs use — addition of extended reals is
  associative and commutative, so every grouping denotes the same number.

  The weights enter already transposed (W_T k j = W j k): both programs transpose them before contracting.
-/
import Idealize.ShloMosaic.PureOps.Ideal
import Idealize.ShloMosaic.Lib.ValueIdx

noncomputable section

namespace Cert.TreeSpec

open Idealize.ShloMosaic

/-- The eight parameter arrays of the cell, the four matrices transposed (contraction index first). -/
structure Params where
  WT : Fin 128 → Fin 384 → EReal
  b1 : Fin 384 → EReal
  UT : Fin 512 → Fin 384 → EReal
  b2 : Fin 384 → EReal
  WfT : Fin 128 → Fin 128 → EReal
  bwf : Fin 128 → EReal
  UfT : Fin 512 → Fin 512 → EReal
  buf : Fin 512 → EReal

variable (P : Params)

/-- The gates' pre-activations of one node: x·Wᵀ + b₁ + h·Uᵀ + b₂, added in this order. -/
def iou (x : Fin 128 → EReal) (h : Fin 512 → EReal) (j : Fin 384) : EReal :=
  (((∑ k : Fin 128, x k * P.WT k j) + P.b1 j) + ∑ k : Fin 512, h k * P.UT k j) + P.b2 j

/-- The children's part of the forget gates: h·U_fᵀ + b_uf. -/
def uf (h : Fin 512 → EReal) (q : Fin 512) : EReal :=
  (∑ k : Fin 512, h k * P.UfT k q) + P.buf q

/-- The node's own part of the forget gates: x·W_fᵀ + b_wf. -/
def wf (x : Fin 128 → EReal) (j : Fin 128) : EReal :=
  (∑ k : Fin 128, x k * P.WfT k j) + P.bwf j

/-- The forget gate of the child whose rows sit at columns o … o+127 (o = 0, 128, 256, 384). -/
def fg (x : Fin 128 → EReal) (h : Fin 512 → EReal) (o : Nat) (ho : o + 128 ≤ 512) (j : Fin 128) : EReal :=
  Ideal.logistic (uf P h ⟨o + j.val, by omega⟩ + wf P x j)

/-- The new cell row. -/
def cNew (x : Fin 128 → EReal) (h c : Fin 512 → EReal) (j : Fin 128) : EReal :=
  ((((Ideal.logistic (iou P x h ⟨0 + j.val, by omega⟩) * Ideal.tanh (iou P x h ⟨256 + j.val, by omega⟩))
      + fg P x h 0 (by omega) j * c ⟨0 + j.val, by omega⟩)
      + fg P x h 128 (by omega) j * c ⟨128 + j.val, by omega⟩)
      + fg P x h 256 (by omega) j * c ⟨256 + j.val, by omega⟩)
      + fg P x h 384 (by omega) j * c ⟨384 + j.val, by omega⟩

/-- The new hidden row. -/
def hNew (x : Fin 128 → EReal) (h c : Fin 512 → EReal) (j : Fin 128) : EReal :=
  Ideal.logistic (iou P x h ⟨128 + j.val, by omega⟩) * Ideal.tanh (cNew P x h c j)

/-- The hidden and cell rows of all n nodes of one level. -/
structure Level (n : Nat) where
  h : Fin n → Fin 128 → EReal
  c : Fin n → Fin 128 → EReal

/-- One level: the cell at every node. -/
def cell {n : Nat} (X : Fin n → Fin 128 → EReal) (H C : Fin n → Fin 512 → EReal) : Level n :=
  ⟨fun r j => hNew P (X r) (H r) (C r) j, fun r j => cNew P (X r) (H r) (C r) j⟩

/-- The n input rows of a level: rows off … off+n-1 of all the inputs. -/
def rows (E : Fin 87381 → Fin 128 → EReal) (off n : Nat) (h : off + n ≤ 87381) : Fin n → Fin 128 → EReal :=
  fun r k => E ⟨off + r.val, by omega⟩ k

/-- Four consecutive rows of 128 packed into one row of 512: entry (p, q) is entry (4p + q / 128, q % 128). -/
def pack {m n : Nat} (hm : m = 4 * n) (A : Fin m → Fin 128 → EReal) : Fin n → Fin 512 → EReal :=
  fun p q => A ⟨4 * p.val + q.val / 128, by omega⟩ ⟨q.val % 128, Nat.mod_lt _ (by omega)⟩

variable (E : Fin 87381 → Fin 128 → EReal) (h0 c0 : Fin 512 → EReal)

/-- The nine levels, leaves first. -/
def L0 : Level 65536 := cell P (rows E 0 65536 (by omega)) (fun _ => h0) (fun _ => c0)
def L1 : Level 16384 := cell P (rows E 65536 16384 (by omega)) (pack rfl (L0 P E h0 c0).h) (pack rfl (L0 P E h0 c0).c)
def L2 : Level 4096 := cell P (rows E 81920 4096 (by omega)) (pack rfl (L1 P E h0 c0).h) (pack rfl (L1 P E h0 c0).c)
def L3 : Level 1024 := cell P (rows E 86016 1024 (by omega)) (pack rfl (L2 P E h0 c0).h) (pack rfl (L2 P E h0 c0).c)
def L4 : Level 256 := cell P (rows E 87040 256 (by omega)) (pack rfl (L3 P E h0 c0).h) (pack rfl (L3 P E h0 c0).c)
def L5 : Level 64 := cell P (rows E 87296 64 (by omega)) (pack rfl (L4 P E h0 c0).h) (pack rfl (L4 P E h0 c0).c)
def L6 : Level 16 := cell P (rows E 87360 16 (by omega)) (pack rfl (L5 P E h0 c0).h) (pack rfl (L5 P E h0 c0).c)
def L7 : Level 4 := cell P (rows E 87376 4 (by omega)) (pack rfl (L6 P E h0 c0).h) (pack rfl (L6 P E h0 c0).c)
def L8 : Level 1 := cell P (rows E 87380 1 (by omega)) (pack rfl (L7 P E h0 c0).h) (pack rfl (L7 P E h0 c0).c)

/-! ## From the programs' arrays to the specification, and back -/

open Idealize.ShloMosaic.ValueIdx

abbrev Sh1 (a : Nat) : Shape := ⟨1, ![a]⟩
abbrev Sh2 (a b : Nat) : Shape := ⟨2, ![a, b]⟩
abbrev Sh3 (a b c : Nat) : Shape := ⟨3, ![a, b, c]⟩

/-- n rows of 128 as an array indexed by (row, column). -/
def asArr {n : Nat} (A : Fin n → Fin 128 → EReal) : (Sh2 n 128).Idx → EReal := fun i => A (i 0) (i 1)

/-- The cell's parameters from the eight weight arrays as the programs receive them (W_iou [384,128], b_iou [384],
    U_iou [384,512], b_uiou [384], W_f [128,128], b_wf [128], U_f [512,512], b_uf [512]): the matrices transposed. -/
def paramsOf (a1 : (Sh2 384 128).Idx → EReal) (a2 : (Sh1 384).Idx → EReal) (a3 : (Sh2 384 512).Idx → EReal)
    (a4 : (Sh1 384).Idx → EReal) (a5 : (Sh2 128 128).Idx → EReal) (a6 : (Sh1 128).Idx → EReal)
    (a7 : (Sh2 512 512).Idx → EReal) (a8 : (Sh1 512).Idx → EReal) : Params :=
  ⟨fun k j => a1 (ix2 j k), fun j => a2 (ix1 j), fun k j => a3 (ix2 j k), fun j => a4 (ix1 j),
   fun k j => a5 (ix2 j k), fun j => a6 (ix1 j), fun k q => a7 (ix2 q k), fun q => a8 (ix1 q)⟩

/-- All the input rows from the embeddings array [87381, 128]. -/
def embOf (a0 : (Sh2 87381 128).Idx → EReal) : Fin 87381 → Fin 128 → EReal := fun r k => a0 (ix2 r k)

/-- The one row of an initial-state array [1, 512]. -/
def rowOf (a : (Sh2 1 512).Idx → EReal) : Fin 512 → EReal := fun q => a (ix2 0 q)

/-- What both programs do with the nine levels' arrays at the end: stack them (deepest level first) into one array of
    87381 rows and put a leading axis of extent 1 in front. -/
def tail (hc : Shape.Concatenates [Sh2 65536 128, Sh2 16384 128, Sh2 4096 128, Sh2 1024 128, Sh2 256 128, Sh2 64 128,
      Sh2 16 128, Sh2 4 128, Sh2 1 128] (Sh2 87381 128) 0)
    (hb : (Sh2 87381 128).BroadcastsInDim (Sh3 1 87381 128) ![1, 2])
    (p0 : (Sh2 65536 128).Idx → EReal) (p1 : (Sh2 16384 128).Idx → EReal) (p2 : (Sh2 4096 128).Idx → EReal)
    (p3 : (Sh2 1024 128).Idx → EReal) (p4 : (Sh2 256 128).Idx → EReal) (p5 : (Sh2 64 128).Idx → EReal)
    (p6 : (Sh2 16 128).Idx → EReal) (p7 : (Sh2 4 128).Idx → EReal) (p8 : (Sh2 1 128).Idx → EReal) :
    (Sh3 1 87381 128).Idx → EReal :=
  broadcastInDim (Sh3 1 87381 128) ![1, 2] hb
    (concatenate (Sh2 87381 128) 0 [⟨Sh2 65536 128, p0⟩, ⟨Sh2 16384 128, p1⟩, ⟨Sh2 4096 128, p2⟩, ⟨Sh2 1024 128, p3⟩,
      ⟨Sh2 256 128, p4⟩, ⟨Sh2 64 128, p5⟩, ⟨Sh2 16 128, p6⟩, ⟨Sh2 4 128, p7⟩, ⟨Sh2 1 128, p8⟩] hc)

section Results

variable (hc : Shape.Concatenates [Sh2 65536 128, Sh2 16384 128, Sh2 4096 128, Sh2 1024 128, Sh2 256 128, Sh2 64 128,
      Sh2 16 128, Sh2 4 128, Sh2 1 128] (Sh2 87381 128) 0)
  (hb : (Sh2 87381 128).BroadcastsInDim (Sh3 1 87381 128) ![1, 2])
  (a0 : (Sh2 87381 128).Idx → EReal) (a1 : (Sh2 384 128).Idx → EReal) (a2 : (Sh1 384).Idx → EReal)
  (a3 : (Sh2 384 512).Idx → EReal) (a4 : (Sh1 384).Idx → EReal) (a5 : (Sh2 128 128).Idx → EReal)
  (a6 : (Sh1 128).Idx → EReal) (a7 : (Sh2 512 512).Idx → EReal) (a8 : (Sh1 512).Idx → EReal)
  (a9 a10 : (Sh2 1 512).Idx → EReal)

/-- The first result: every node's hidden row, as a function of the eleven argument arrays. -/
def outH : (Sh3 1 87381 128).Idx → EReal :=
  let Q := paramsOf a1 a2 a3 a4 a5 a6 a7 a8
  let X := embOf a0
  let h := rowOf a9
  let c := rowOf a10
  tail hc hb (asArr (L0 Q X h c).h) (asArr (L1 Q X h c).h) (asArr (L2 Q X h c).h) (asArr (L3 Q X h c).h)
    (asArr (L4 Q X h c).h) (asArr (L5 Q X h c).h) (asArr (L6 Q X h c).h) (asArr (L7 Q X h c).h) (asArr (L8 Q X h c).h)

/-- The second result: every node's cell row. -/
def outC : (Sh3 1 87381 128).Idx → EReal :=
  let Q := paramsOf a1 a2 a3 a4 a5 a6 a7 a8
  let X := embOf a0
  let h := rowOf a9
  let c := rowOf a10
  tail hc hb (asArr (L0 Q X h c).c) (asArr (L1 Q X h c).c) (asArr (L2 Q X h c).c) (asArr (L3 Q X h c).c)
    (asArr (L4 Q X h c).c) (asArr (L5 Q X h c).c) (asArr (L6 Q X h c).c) (asArr (L7 Q X h c).c) (asArr (L8 Q X h c).c)

end Results

/-- The cell's parameters from a region's eight parameter blocks as it receives them: the matrices already transposed, each bias one row. -/
def winParams (x3 : (Sh2 128 384).Idx → EReal) (x4 : (Sh2 1 384).Idx → EReal) (x5 : (Sh2 512 384).Idx → EReal) (x6 : (Sh2 1 384).Idx → EReal) (x7 : (Sh2 128 128).Idx → EReal) (x8 : (Sh2 1 128).Idx → EReal) (x9 : (Sh2 512 512).Idx → EReal) (x10 : (Sh2 1 512).Idx → EReal) : Params :=
  ⟨fun k j => x3 (ix2 k j), fun j => x4 (ix2 0 j), fun k j => x5 (ix2 k j), fun j => x6 (ix2 0 j), fun k j => x7 (ix2 k j), fun j => x8 (ix2 0 j), fun k q => x9 (ix2 k q), fun q => x10 (ix2 0 q)⟩

end Cert.TreeSpec

end
-- ==== Proof.KI.Cell0.lean ====
/-
  Region 0 of the kernel (the leaves, blocks of 1024 nodes) read at an index.  A leaf has no children: in place of
  children's rows every leaf receives the same initial hidden row and the same initial cell row (one row of 512 each),
  which the body copies to all 1024 rows before it applies the cell.  Row r of the two output blocks is therefore the
  cell applied to row r of the node inputs and to those two rows, with the eight parameter blocks as the region receives
  them; entry (r, j) of the first block is the specification's new hidden row at j, of the second its new cell row at j.

  The gate pre-activations are formed as x·W_iouᵀ + b_iou + h·U_iouᵀ first and b_uiou is added afterwards: the
  specification's grouping.  The forget gates and the sum for the new cell row are formed as in every other region.
-/
import proofs.«148344_j70635032150607_1_alg».proof.Proof.KI.Bodies
import proofs.«148344_j70635032150607_1_alg».proof.Proof.KI.CellLemmas
import proofs.«148344_j70635032150607_1_alg».proof.Proof.Spec

noncomputable section

namespace Cert.KernelIdeal.Hand

open Idealize.ShloMosaic Idealize.ShloMosaic.ValueIdx Cert.KernelIdeal Cert.KernelIdeal.Gen

/-- x · W_iouᵀ at (r, j): the sum over k of x(r, k) · W_iouᵀ(k, j), 128 terms. -/
theorem mm0_xW (A : FVec Ideal S1024x128 .bf16) (B : FVec Ideal S128x384 .bf16) (r : Fin 1024) (j : Fin 384) :
    matmul dot_S1024x128_S128x384_S1024x384_1_0_0_1_n_n none A B (constant (F := Ideal) S1024x384 .f32 0x00000000#32) (ix2 r j)
      = ∑ k : Fin 128, A (ix2 r k) * B (ix2 k j) :=
  matmul_plain_apply none A B r j
/-- h · U_iouᵀ at (r, j): 512 terms. -/
theorem mm0_hU (A : FVec Ideal S1024x512 .bf16) (B : FVec Ideal S512x384 .bf16) (r : Fin 1024) (j : Fin 384) :
    matmul dot_S1024x512_S512x384_S1024x384_1_0_0_1_n_n none A B (constant (F := Ideal) S1024x384 .f32 0x00000000#32) (ix2 r j)
      = ∑ k : Fin 512, A (ix2 r k) * B (ix2 k j) :=
  matmul_plain_apply none A B r j
/-- h · U_fᵀ at (r, q): 512 terms. -/
theorem mm0_hUf (A : FVec Ideal S1024x512 .bf16) (B : FVec Ideal S512x512 .bf16) (r : Fin 1024) (q : Fin 512) :
    matmul dot_S1024x512_S512x512_S1024x512_1_0_0_1_n_n none A B (constant (F := Ideal) S1024x512 .f32 0x00000000#32) (ix2 r q)
      = ∑ k : Fin 512, A (ix2 r k) * B (ix2 k q) :=
  matmul_plain_apply none A B r q
/-- x · W_fᵀ at (r, j): 128 terms. -/
theorem mm0_xWf (A : FVec Ideal S1024x128 .bf16) (B : FVec Ideal S128x128 .bf16) (r : Fin 1024) (j : Fin 128) :
    matmul dot_S1024x128_S128x128_S1024x128_1_0_0_1_n_n none A B (constant (F := Ideal) S1024x128 .f32 0x00000000#32) (ix2 r j)
      = ∑ k : Fin 128, A (ix2 r k) * B (ix2 k j) :=
  matmul_plain_apply none A B r j

/-- The gate pre-activations of leaf r at column j. -/
theorem iou0_apply (x0 : Vec Ideal S1024x128 .f32) (x1 x2 : Vec Ideal S1x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 1024) (j : Fin 384) :
    k0_pay1 (F := Ideal) (k0_pay9 x6) (k0_pay12 x0 x1 x3 x5 x4) (ix2 r j)
      = Cert.TreeSpec.iou (Cert.TreeSpec.winParams x3 x4 x5 x6 x7 x8 x9 x10) (fun k => x0 (ix2 r k)) (fun q => x1 (ix2 0 q)) j := by
  unfold k0_pay1 k0_pay9 k0_pay12 k0_pay4 k0_pay6
  simp only [addf_apply, mm0_xW, mm0_hU, bcast_row_apply, truncf_apply, shapeCast_self]
  rfl

/-- The new cell row of leaf r at column j, as the body passes it on to the hidden row's formula. -/
theorem cell0_apply (x0 : Vec Ideal S1024x128 .f32) (x1 x2 : Vec Ideal S1x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 1024) (j : Fin 128) :
    k0_pay2 (F := Ideal) (k0_pay4 x0) (k0_pay5 x2) (k0_pay6 x1) (k0_pay7 x7) (k0_pay8 x9) (k0_pay9 x6) (k0_pay10 x8) (k0_pay11 x10) (k0_pay12 x0 x1 x3 x5 x4) (ix2 r j)
      = Cert.TreeSpec.cNew (Cert.TreeSpec.winParams x3 x4 x5 x6 x7 x8 x9 x10) (fun k => x0 (ix2 r k)) (fun q => x1 (ix2 0 q)) (fun q => x2 (ix2 0 q)) j := by
  unfold k0_pay2 k0_pay4 k0_pay5 k0_pay6 k0_pay7 k0_pay8 k0_pay10 k0_pay11
  simp only [addf_apply, mulf_apply, logistic_apply, tanh_apply, slice_cols_apply, mm0_hUf, mm0_xWf, bcast_row_apply,
    truncf_apply, shapeCast_self, iou0_apply x0 x1 x2 x3 x4 x5 x6 x7 x8 x9 x10]
  rfl

/-- The second output block: the new cell rows. -/
theorem bodyC0_apply (x0 : Vec Ideal S1024x128 .f32) (x1 x2 : Vec Ideal S1x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 1024) (j : Fin 128) :
    bodyC0 (F := Ideal) x0 x1 x2 x3 x4 x5 x6 x7 x8 x9 x10 (ix2 r j)
      = Cert.TreeSpec.cNew (Cert.TreeSpec.winParams x3 x4 x5 x6 x7 x8 x9 x10) (fun k => x0 (ix2 r k)) (fun q => x1 (ix2 0 q)) (fun q => x2 (ix2 0 q)) j :=
  cell0_apply x0 x1 x2 x3 x4 x5 x6 x7 x8 x9 x10 r j

/-- The first output block: the new hidden rows, σ(o)·tanh of the new cell row. -/
theorem bodyH0_apply (x0 : Vec Ideal S1024x128 .f32) (x1 x2 : Vec Ideal S1x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 1024) (j : Fin 128) :
    bodyH0 (F := Ideal) x0 x1 x2 x3 x4 x5 x6 x7 x8 x9 x10 (ix2 r j)
      = Cert.TreeSpec.hNew (Cert.TreeSpec.winParams x3 x4 x5 x6 x7 x8 x9 x10) (fun k => x0 (ix2 r k)) (fun q => x1 (ix2 0 q)) (fun q => x2 (ix2 0 q)) j := by
  unfold bodyH0 k0_pay3
  simp only [mulf_apply, logistic_apply, tanh_apply, slice_cols_apply, cell0_apply x0 x1 x2 x3 x4 x5 x6 x7 x8 x9 x10, iou0_apply x0 x1 x2 x3 x4 x5 x6 x7 x8 x9 x10]
  rfl

end Cert.KernelIdeal.Hand

end
-- ==== Proof.CellArr.lean ====
/-
  One level of the tree as an array function: the cell (Proof/Spec.lean) applied at every row of the level's arrays.
  `cellArrH X H C Q` is the array of new hidden rows from the node-input array X (N rows of 128), the packed children's
  hidden rows H and cell rows C (N rows of 512) and the cell's parameters Q; `cellArrC` the array of new cell rows.
  For the leaves the children's rows are the same learned row for every node (`cellArrH0`, `cellArrC0`).
-/
import proofs.«148344_j70635032150607_1_alg».proof.Proof.Spec

noncomputable section

namespace Cert.TreeSpec

open Idealize.ShloMosaic Idealize.ShloMosaic.ValueIdx

theorem hz2 : (![0, 0] : Fin 2 → Nat) = fun _ => 0 := funext fun a => by fin_cases a <;> rfl

def cellArrH {N : Nat} (X : (Sh2 N 128).Idx → EReal) (H C : (Sh2 N 512).Idx → EReal) (Q : Params) : (Sh2 N 128).Idx → EReal :=
  fun i => hNew Q (fun k => X (ix2 (i 0) k)) (fun q => H (ix2 (i 0) q)) (fun q => C (ix2 (i 0) q)) (i 1)

def cellArrC {N : Nat} (X : (Sh2 N 128).Idx → EReal) (H C : (Sh2 N 512).Idx → EReal) (Q : Params) : (Sh2 N 128).Idx → EReal :=
  fun i => cNew Q (fun k => X (ix2 (i 0) k)) (fun q => H (ix2 (i 0) q)) (fun q => C (ix2 (i 0) q)) (i 1)

def cellArrH0 {N : Nat} (X : (Sh2 N 128).Idx → EReal) (h c : (Sh2 1 512).Idx → EReal) (Q : Params) : (Sh2 N 128).Idx → EReal :=
  fun i => hNew Q (fun k => X (ix2 (i 0) k)) (fun q => h (ix2 0 q)) (fun q => c (ix2 0 q)) (i 1)

def cellArrC0 {N : Nat} (X : (Sh2 N 128).Idx → EReal) (h c : (Sh2 1 512).Idx → EReal) (Q : Params) : (Sh2 N 128).Idx → EReal :=
  fun i => cNew Q (fun k => X (ix2 (i 0) k)) (fun q => h (ix2 0 q)) (fun q => c (ix2 0 q)) (i 1)

end Cert.TreeSpec

end
-- ==== Proof.KI.Val0.lean ====
/-
  What region 0 leaves in its two output arrays, at the ideal instance, as ONE function of the arrays it is entered with: the cell
  (Proof/Spec.lean) at every row.  Grid point t's blocks are rows t·1024 … t·1024+1023 of the row arrays and the whole of each parameter
  array (the index maps, decided over the grid); what point t writes back is block t of that function (the body's arithmetic at an
  index is the cell's: Proof/KI/Cell0.lean); the 64 blocks cover the output arrays.
-/
import proofs.«148344_j70635032150607_1_alg».proof.Proof.KI.Region0
import proofs.«148344_j70635032150607_1_alg».proof.Proof.KI.Cell0
import proofs.«148344_j70635032150607_1_alg».proof.Proof.CellArr
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert

variable (V : (c : Dev nD) → (b : Ref sig .tc) → Buf (Elt Ideal) ((c : Thread nD τ).loc b))

/-- The printed index maps, decided over the grid. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = t.val
    ∧ win0_11.index t (1 : Fin 2) = 0
    ∧ win0_12.index t (0 : Fin 2) = t.val
    ∧ win0_12.index t (1 : Fin 2) = 0 :=
  (by decide +kernel : ∀ t : Fin grid0.N, _)

theorem tlt0 (t : Fin cfg0.N) : t.val < 64 := lt_of_lt_of_eq t.isLt N_0

/-- Window 0's block at point t is rows t·1024 … of its array. -/
theorem iblk0_0_apply (c : Dev nD) (t : Fin cfg0.N) (r : Fin 1024) (k : Fin 128) :
    iblk0 V c 0 t (ix2 r k) = V c main_v8 (ix2 ⟨t.val * 1024 + r.val, by have := tlt0 t; omega⟩ k) := by
  show V c main_v8 (((cfg0.win 0).blk t).view.emb (ix2 r k)) = _
  obtain ⟨e0a, e0b, e1a, e1b, e2a, e2b, e3a, e3b, e4a, e4b, e5a, e5b, e6a, e6b, e7a, e7b, e8a, e8b, e9a, e9b, e10a, e10b, e11a, e11b, e12a, e12b⟩ := idx_facts0 t
  refine congrArg (V c main_v8) ?_
  funext a; apply Fin.ext
  match a with
  | ⟨0, _⟩ => show win0_0.index t (0 : Fin 2) * 1024 + 1 * r.val = t.val * 1024 + r.val; omega
  | ⟨1, _⟩ => show win0_0.index t (1 : Fin 2) * 128 + 1 * k.val = k.val; omega

/-- Window 1's one block is its whole array. -/
theorem iblk0_1_eq (c : Dev nD) (t : Fin cfg0.N) : iblk0 V c 1 t = V c main_arg9 := by
  funext y
  show V c main_arg9 (((cfg0.win 1).blk t).view.emb y) = V c main_arg9 y
  obtain ⟨e0a, e0b, e1a, e1b, e2a, e2b, e3a, e3b, e4a, e4b, e5a, e5b, e6a, e6b, e7a, e7b, e8a, e8b, e9a, e9b, e10a, e10b, e11a, e11b, e12a, e12b⟩ := idx_facts0 t
  refine congrArg (V c main_arg9) ?_
  funext a; apply Fin.ext
  match a with
  | ⟨0, _⟩ => show win0_1.index t (0 : Fin 2) * 1 + 1 * (y 0).val = (y 0).val; omega
  | ⟨1, _⟩ => show win0_1.index t (1 : Fin 2) * 512 + 1 * (y 1).val = (y 1).val; omega

/-- Window 2's one block is its whole array. -/
theorem iblk0_2_eq (c : Dev nD) (t : Fin cfg0.N) : iblk0 V c 2 t = V c main_arg10 := by
  funext y
  show V c main_arg10 (((cfg0.win 2).blk t).view.emb y) = V c main_arg10 y
  obtain ⟨e0a, e0b, e1a, e1b, e2a, e2b, e3a, e3b, e4a, e4b, e5a, e5b, e6a, e6b, e7a, e7b, e8a, e8b, e9a, e9b, e10a, e10b, e11a, e11b, e12a, e12b⟩ := idx_facts0 t
  refine congrArg (V c main_arg10) ?_
  funext a; apply Fin.ext
  match a with
  | ⟨0, _⟩ => show win0_2.index t (0 : Fin 2) * 1 + 1 * (y 0).val = (y 0).val; omega
  | ⟨1, _⟩ => show win0_2.index t (1 : Fin 2) * 512 + 1 * (y 1).val = (y 1).val; omega

/-- Window 3's one block is its whole array. -/
theorem iblk0_3_eq (c : Dev nD) (t : Fin cfg0.N) : iblk0 V c 3 t = V c main_v0 := by
  funext y
  show V c main_v0 (((cfg0.win 3).blk t).view.emb y) = V c main_v0 y
  obtain ⟨e0a, e0b, e1a, e1b, e2a, e2b, e3a, e3b, e4a, e4b, e5a, e5b, e6a, e6b, e7a, e7b, e8a, e8b, e9a, e9b, e10a, e10b, e11a, e11b, e12a, e12b⟩ := idx_facts0 t
  refine congrArg (V c main_v0) ?_
  funext a; apply Fin.ext
  match a with
  | ⟨0, _⟩ => show win0_3.index t (0 : Fin 2) * 128 + 1 * (y 0).val = (y 0).val; omega
  | ⟨1, _⟩ => show win0_3.index t (1 : Fin 2) * 384 + 1 * (y 1).val = (y 1).val; omega

/-- Window 4's one block is its whole array. -/
theorem iblk0_4_eq (c : Dev nD) (t : Fin cfg0.N) : iblk0 V c 4 t = V c main_v4 := by
  funext y
  show V c main_v4 (((cfg0.win 4).blk t).view.emb y) = V c main_v4 y
  obtain ⟨e0a, e0b, e1a, e1b, e2a, e2b, e3a, e3b, e4a, e4b, e5a, e5b, e6a, e6b, e7a, e7b, e8a, e8b, e9a, e9b, e10a, e10b, e11a, e11b, e12a, e12b⟩ := idx_facts0 t
  refine congrArg (V c main_v4) ?_
  funext a; apply Fin.ext
  match a with
  | ⟨0, _⟩ => show win0_4.index t (0 : Fin 2) * 1 + 1 * (y 0).val = (y 0).val; omega
  | ⟨1, _⟩ => show win0_4.index t (1 : Fin 2) * 384 + 1 * (y 1).val = (y 1).val; omega

/-- Window 5's one block is its whole array. -/
theorem iblk0_5_eq (c : Dev nD) (t : Fin cfg0.N) : iblk0 V c 5 t = V c main_v1 := by
  funext y
  show V c main_v1 (((cfg0.win 5).blk t).view.emb y) = V c main_v1 y
  obtain ⟨e0a, e0b, e1a, e1b, e2a, e2b, e3a, e3b, e4a, e4b, e5a, e5b, e6a, e6b, e7a, e7b, e8a, e8b, e9a, e9b, e10a, e10b, e11a, e11b, e12a, e12b⟩ := idx_facts0 t
  refine congrArg (V c main_v1) ?_
  funext a; apply Fin.ext
  match a with
  | ⟨0, _⟩ => show win0_5.index t (0 : Fin 2) * 512 + 1 * (y 0).val = (y 0).val; omega
  | ⟨1, _⟩ => show win0_5.index t (1 : Fin 2) * 384 + 1 * (y 1).val = (y 1).val; omega

/-- Window 6's one block is its whole array. -/
theorem iblk0_6_eq (c : Dev nD) (t : Fin cfg0.N) : iblk0 V c 6 t = V c main_v5 := by
  funext y
  show V c main_v5 (((cfg0.win 6).blk t).view.emb y) = V c main_v5 y
  obtain ⟨e0a, e0b, e1a, e1b, e2a, e2b, e3a, e3b, e4a, e4b, e5a, e5b, e6a, e6b, e7a, e7b, e8a, e8b, e9a, e9b, e10a, e10b, e11a, e11b, e12a, e12b⟩ := idx_facts0 t
  refine congrArg (V c main_v5) ?_
  funext a; apply Fin.ext
  match a with
  | ⟨0, _⟩ => show win0_6.index t (0 : Fin 2) * 1 + 1 * (y 0).val = (y 0).val; omega
  | ⟨1, _⟩ => show win0_6.index t (1 : Fin 2) * 384 + 1 * (y 1).val = (y 1).val; omega

/-- Window 7's one block is its whole array. -/
theorem iblk0_7_eq (c : Dev nD) (t : Fin cfg0.N) : iblk0 V c 7 t = V c main_v2 := by
  funext y
  show V c main_v2 (((cfg0.win 7).blk t).view.emb y) = V c main_v2 y
  obtain ⟨e0a, e0b, e1a, e1b, e2a, e2b, e3a, e3b, e4a, e4b, e5a, e5b, e6a, e6b, e7a, e7b, e8a, e8b, e9a, e9b, e10a, e10b, e11a, e11b, e12a, e12b⟩ := idx_facts0 t
  refine congrArg (V c main_v2) ?_
  funext a; apply Fin.ext
  match a with
  | ⟨0, _⟩ => show win0_7.index t (0 : Fin 2) * 128 + 1 * (y 0).val = (y 0).val; omega
  | ⟨1, _⟩ => show win0_7.index t (1 : Fin 2) * 128 + 1 * (y 1).val = (y 1).val; omega

/-- Window 8's one block is its whole array. -/
theorem iblk0_8_eq (c : Dev nD) (t : Fin cfg0.N) : iblk0 V c 8 t = V c main_v6 := by
  funext y
  show V c main_v6 (((cfg0.win 8).blk t).view.emb y) = V c main_v6 y
  obtain ⟨e0a, e0b, e1a, e1b, e2a, e2b, e3a, e3b, e4a, e4b, e5a, e5b, e6a, e6b, e7a, e7b, e8a, e8b, e9a, e9b, e10a, e10b, e11a, e11b, e12a, e12b⟩ := idx_facts0 t
  refine congrArg (V c main_v6) ?_
  funext a; apply Fin.ext
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- Window 9's one block is its whole array. -/
theorem iblk0_9_eq (c : Dev nD) (t : Fin cfg0.N) : iblk0 V c 9 t = V c main_v3 := by
  funext y
  show V c main_v3 (((cfg0.win 9).blk t).view.emb y) = V c main_v3 y
  obtain ⟨e0a, e0b, e1a, e1b, e2a, e2b, e3a, e3b, e4a, e4b, e5a, e5b, e6a, e6b, e7a, e7b, e8a, e8b, e9a, e9b, e10a, e10b, e11a, e11b, e12a, e12b⟩ := idx_facts0 t
  refine congrArg (V c main_v3) ?_
  funext a; apply Fin.ext
  match a with
  | ⟨0, _⟩ => show win0_9.index t (0 : Fin 2) * 512 + 1 * (y 0).val = (y 0).val; omega
  | ⟨1, _⟩ => show win0_9.index t (1 : Fin 2) * 512 + 1 * (y 1).val = (y 1).val; omega

/-- Window 10's one block is its whole array. -/
theorem iblk0_10_eq (c : Dev nD) (t : Fin cfg0.N) : iblk0 V c 10 t = V c main_v7 := by
  funext y
  show V c main_v7 (((cfg0.win 10).blk t).view.emb y) = V c main_v7 y
  obtain ⟨e0a, e0b, e1a, e1b, e2a, e2b, e3a, e3b, e4a, e4b, e5a, e5b, e6a, e6b, e7a, e7b, e8a, e8b, e9a, e9b, e10a, e10b, e11a, e11b, e12a, e12b⟩ := idx_facts0 t
  refine congrArg (V c main_v7) ?_
  funext a; apply Fin.ext
  match a with
  | ⟨0, _⟩ => show win0_10.index t (0 : Fin 2) * 1 + 1 * (y 0).val = (y 0).val; omega
  | ⟨1, _⟩ => show win0_10.index t (1 : Fin 2) * 512 + 1 * (y 1).val = (y 1).val; omega

/-- What point t writes back into output 0 is block t of the cell's array function of the arrays the region is entered with. -/
theorem flushed0_11_eq (c : Dev nD) (t : Fin cfg0.N) :
    (dat0 V c).flushed 11 t = ((cfg0.win 11).blk t).view.read (Elt Ideal) (TreeSpec.cellArrH0 (N := 65536) (V c main_v8) (V c main_arg9) (V c main_arg10) (TreeSpec.winParams (V c main_v0) (V c main_v4) (V c main_v1) (V c main_v5) (V c main_v2) (V c main_v6) (V c main_v3) (V c main_v7))) := by
  show (cfg0.win 11).cut (grid0.coords t) ((dat0 V c).after 11 t) = _
  rw [after0_11]
  unfold out0_11
  rw [View.canon_unit_zero TreeSpec.hz2]
  simp only [View.ld_unit_zero (S := S1024x128) TreeSpec.hz2, View.ld_unit_zero (S := S1x512) TreeSpec.hz2, View.ld_unit_zero (S := S128x384) TreeSpec.hz2, View.ld_unit_zero (S := S1x384) TreeSpec.hz2, View.ld_unit_zero (S := S512x384) TreeSpec.hz2, View.ld_unit_zero (S := S128x128) TreeSpec.hz2, View.ld_unit_zero (S := S1x128) TreeSpec.hz2, View.ld_unit_zero (S := S512x512) TreeSpec.hz2]
  rw [iblk0_1_eq V c t, iblk0_2_eq V c t, iblk0_3_eq V c t, iblk0_4_eq V c t, iblk0_5_eq V c t, iblk0_6_eq V c t, iblk0_7_eq V c t, iblk0_8_eq V c t, iblk0_9_eq V c t, iblk0_10_eq V c t]
  funext j
  obtain ⟨r, q, rfl⟩ : ∃ (r : Fin 1024) (q : Fin 128), j = ix2 r q := ⟨j 0, j 1, eq_ix2 j⟩
  have hemb : ((cfg0.win 11).blk t).view.emb (ix2 r q) = (ix2 ⟨t.val * 1024 + r.val, by have := tlt0 t; omega⟩ q : S65536x128.Idx) := by
    obtain ⟨e0a, e0b, e1a, e1b, e2a, e2b, e3a, e3b, e4a, e4b, e5a, e5b, e6a, e6b, e7a, e7b, e8a, e8b, e9a, e9b, e10a, e10b, e11a, e11b, e12a, e12b⟩ := idx_facts0 t
    funext a; apply Fin.ext
    match a with
    | ⟨0, _⟩ => show win0_11.index t (0 : Fin 2) * 1024 + 1 * r.val = t.val * 1024 + r.val; omega
    | ⟨1, _⟩ => show win0_11.index t (1 : Fin 2) * 128 + 1 * q.val = q.val; omega
  show bodyH0 (F := Ideal) (iblk0 V c 0 t) (V c main_arg9) (V c main_arg10) (V c main_v0) (V c main_v4) (V c main_v1) (V c main_v5) (V c main_v2) (V c main_v6) (V c main_v3) (V c main_v7) (ix2 r q) = (TreeSpec.cellArrH0 (N := 65536) (V c main_v8) (V c main_arg9) (V c main_arg10) (TreeSpec.winParams (V c main_v0) (V c main_v4) (V c main_v1) (V c main_v5) (V c main_v2) (V c main_v6) (V c main_v3) (V c main_v7))) (((cfg0.win 11).blk t).view.emb (ix2 r q))
  rw [hemb, bodyH0_apply]
  unfold TreeSpec.cellArrH0
  simp only [iblk0_0_apply V c t] <;> rfl

/-- An index of output 0's array is in point t's block iff each coordinate is in the block's range on its axis. -/
theorem mem_blk0_11 (t : Fin cfg0.N) (i : S65536x128.Idx) :
    i ∈ ((cfg0.win 11).blk t).view.set ↔ ∀ a : Fin 2, win0_11.index t a * S1024x128.size a ≤ (i a).val ∧ (i a).val < win0_11.index t a * S1024x128.size a + S1024x128.size a := by
  show i ∈ ((View.whole main_v9_0).slice (win0_11.rect t)).set ↔ _
  rw [View.set_slice_whole, Rect.mem_set_unit]
  exact Iff.rfl

/-- Every index of output 0's array is in the block of the point its row falls in. -/
theorem covered0_11 (i : S65536x128.Idx) : ∃ t : Fin cfg0.N, (cfg0.win 11).flush t = true ∧ i ∈ ((cfg0.win 11).blk t).view.set := by
  have hi0 : (i 0).val < 65536 := (i 0).isLt
  have hi1 : (i 1).val < 128 := (i 1).isLt
  have ht : (i 0).val / 1024 < cfg0.N := by rw [show cfg0.N = 64 from N_0]; omega
  refine ⟨⟨(i 0).val / 1024, ht⟩, flush0_11 _, ?_⟩
  rw [mem_blk0_11]
  obtain ⟨e0a, e0b, e1a, e1b, e2a, e2b, e3a, e3b, e4a, e4b, e5a, e5b, e6a, e6b, e7a, e7b, e8a, e8b, e9a, e9b, e10a, e10b, e11a, e11b, e12a, e12b⟩ := idx_facts0 ⟨(i 0).val / 1024, ht⟩
  intro a
  match a with
  | ⟨0, _⟩ => show win0_11.index _ (0 : Fin 2) * 1024 ≤ (i 0).val ∧ (i 0).val < win0_11.index _ (0 : Fin 2) * 1024 + 1024; rw [e11a]; show (i 0).val / 1024 * 1024 ≤ (i 0).val ∧ (i 0).val < (i 0).val / 1024 * 1024 + 1024; omega
  | ⟨1, _⟩ => show win0_11.index _ (1 : Fin 2) * 128 ≤ (i 1).val ∧ (i 1).val < win0_11.index _ (1 : Fin 2) * 128 + 128; rw [e11b]; omega

/-- Output 0's array after the region: the cell's array function of the arrays the region is entered with. -/
theorem final0_H (c : Dev nD) : (dat0 V c).arrAt 11 cfg0.N = (TreeSpec.cellArrH0 (N := 65536) (V c main_v8) (V c main_arg9) (V c main_arg10) (TreeSpec.winParams (V c main_v0) (V c main_v4) (V c main_v1) (V c main_v5) (V c main_v2) (V c main_v6) (V c main_v3) (V c main_v7))) :=
  (dat0 V c).arrAt_eq_of_cover 11 _ (fun t _ => flushed0_11_eq V c t) (covered0_11)

/-- What point t writes back into output 1 is block t of the cell's array function of the arrays the region is entered with. -/
theorem flushed0_12_eq (c : Dev nD) (t : Fin cfg0.N) :
    (dat0 V c).flushed 12 t = ((cfg0.win 12).blk t).view.read (Elt Ideal) (TreeSpec.cellArrC0 (N := 65536) (V c main_v8) (V c main_arg9) (V c main_arg10) (TreeSpec.winParams (V c main_v0) (V c main_v4) (V c main_v1) (V c main_v5) (V c main_v2) (V c main_v6) (V c main_v3) (V c main_v7))) := by
  show (cfg0.win 12).cut (grid0.coords t) ((dat0 V c).after 12 t) = _
  rw [after0_12]
  unfold out0_12
  rw [View.canon_unit_zero TreeSpec.hz2]
  simp only [View.ld_unit_zero (S := S1024x128) TreeSpec.hz2, View.ld_unit_zero (S := S1x512) TreeSpec.hz2, View.ld_unit_zero (S := S128x384) TreeSpec.hz2, View.ld_unit_zero (S := S1x384) TreeSpec.hz2, View.ld_unit_zero (S := S512x384) TreeSpec.hz2, View.ld_unit_zero (S := S128x128) TreeSpec.hz2, View.ld_unit_zero (S := S1x128) TreeSpec.hz2, View.ld_unit_zero (S := S512x512) TreeSpec.hz2]
  rw [iblk0_1_eq V c t, iblk0_2_eq V c t, iblk0_3_eq V c t, iblk0_4_eq V c t, iblk0_5_eq V c t, iblk0_6_eq V c t, iblk0_7_eq V c t, iblk0_8_eq V c t, iblk0_9_eq V c t, iblk0_10_eq V c t]
  funext j
  obtain ⟨r, q, rfl⟩ : ∃ (r : Fin 1024) (q : Fin 128), j = ix2 r q := ⟨j 0, j 1, eq_ix2 j⟩
  have hemb : ((cfg0.win 12).blk t).view.emb (ix2 r q) = (ix2 ⟨t.val * 1024 + r.val, by have := tlt0 t; omega⟩ q : S65536x128.Idx) := by
    obtain ⟨e0a, e0b, e1a, e1b, e2a, e2b, e3a, e3b, e4a, e4b, e5a, e5b, e6a, e6b, e7a, e7b, e8a, e8b, e9a, e9b, e10a, e10b, e11a, e11b, e12a, e12b⟩ := idx_facts0 t
    funext a; apply Fin.ext
    match a with
    | ⟨0, _⟩ => show win0_12.index t (0 : Fin 2) * 1024 + 1 * r.val = t.val * 1024 + r.val; omega
    | ⟨1, _⟩ => show win0_12.index t (1 : Fin 2) * 128 + 1 * q.val = q.val; omega
  show bodyC0 (F := Ideal) (iblk0 V c 0 t) (V c main_arg9) (V c main_arg10) (V c main_v0) (V c main_v4) (V c main_v1) (V c main_v5) (V c main_v2) (V c main_v6) (V c main_v3) (V c main_v7) (ix2 r q) = (TreeSpec.cellArrC0 (N := 65536) (V c main_v8) (V c main_arg9) (V c main_arg10) (TreeSpec.winParams (V c main_v0) (V c main_v4) (V c main_v1) (V c main_v5) (V c main_v2) (V c main_v6) (V c main_v3) (V c main_v7))) (((cfg0.win 12).blk t).view.emb (ix2 r q))
  rw [hemb, bodyC0_apply]
  unfold TreeSpec.cellArrC0
  simp only [iblk0_0_apply V c t] <;> rfl

/-- An index of output 1's array is in point t's block iff each coordinate is in the block's range on its axis. -/
theorem mem_blk0_12 (t : Fin cfg0.N) (i : S65536x128.Idx) :
    i ∈ ((cfg0.win 12).blk t).view.set ↔ ∀ a : Fin 2, win0_12.index t a * S1024x128.size a ≤ (i a).val ∧ (i a).val < win0_12.index t a * S1024x128.size a + S1024x128.size a := by
  show i ∈ ((View.whole main_v9_1).slice (win0_12.rect t)).set ↔ _
  rw [View.set_slice_whole, Rect.mem_set_unit]
  exact Iff.rfl

/-- Every index of output 1's array is in the block of the point its row falls in. -/
theorem covered0_12 (i : S65536x128.Idx) : ∃ t : Fin cfg0.N, (cfg0.win 12).flush t = true ∧ i ∈ ((cfg0.win 12).blk t).view.set := by
  have hi0 : (i 0).val < 65536 := (i 0).isLt
  have hi1 : (i 1).val < 128 := (i 1).isLt
  have ht : (i 0).val / 1024 < cfg0.N := by rw [show cfg0.N = 64 from N_0]; omega
  refine ⟨⟨(i 0).val / 1024, ht⟩, flush0_12 _, ?_⟩
  rw [mem_blk0_12]
  obtain ⟨e0a, e0b, e1a, e1b, e2a, e2b, e3a, e3b, e4a, e4b, e5a, e5b, e6a, e6b, e7a, e7b, e8a, e8b, e9a, e9b, e10a, e10b, e11a, e11b, e12a, e12b⟩ := idx_facts0 ⟨(i 0).val / 1024, ht⟩
  intro a
  match a with
  | ⟨0, _⟩ => show win0_12.index _ (0 : Fin 2) * 1024 ≤ (i 0).val ∧ (i 0).val < win0_12.index _ (0 : Fin 2) * 1024 + 1024; rw [e12a]; show (i 0).val / 1024 * 1024 ≤ (i 0).val ∧ (i 0).val < (i 0).val / 1024 * 1024 + 1024; omega
  | ⟨1, _⟩ => show win0_12.index _ (1 : Fin 2) * 128 ≤ (i 1).val ∧ (i 1).val < win0_12.index _ (1 : Fin 2) * 128 + 128; rw [e12b]; omega

/-- Output 1's array after the region: the cell's array function of the arrays the region is entered with. -/
theorem final0_C (c : Dev nD) : (dat0 V c).arrAt 12 cfg0.N = (TreeSpec.cellArrC0 (N := 65536) (V c main_v8) (V c main_arg9) (V c main_arg10) (TreeSpec.winParams (V c main_v0) (V c main_v4) (V c main_v1) (V c main_v5) (V c main_v2) (V c main_v6) (V c main_v3) (V c main_v7))) :=
  (dat0 V c).arrAt_eq_of_cover 12 _ (fun t _ => flushed0_12_eq V c t) (covered0_12)

end Cert.KernelIdeal.Hand

end
-- ==== Proof.KI.Cell1.lean ====
/-
  Region 1 of the kernel (blocks of 1024 nodes) read at an index.  Row r of the region's two output blocks is the cell
  applied to node r: to row r of the node inputs, row r of the children's packed hidden rows and of their packed cell
  rows, with the eight parameter blocks as the region receives them (matrices already transposed, each bias one row).
  Entry (r, j) of the first output block is the specification's new hidden row at j, of the second its new cell row at j.

  The body forms the 384 gate pre-activations as x·W_iouᵀ + b_iou + h·U_iouᵀ + b_uiou in this order — the
  specification's grouping —, cuts them into the gates i, o, u, forms h·U_fᵀ + b_uf and x·W_fᵀ + b_wf, and adds the
  four forget-gate products to σ(i)·tanh(u) from left to right, again as the specification does; so after each
  operation is read at the index the two sides are the same expression.
-/
import proofs.«148344_j70635032150607_1_alg».proof.Proof.KI.Bodies
import proofs.«148344_j70635032150607_1_alg».proof.Proof.KI.CellLemmas
import proofs.«148344_j70635032150607_1_alg».proof.Proof.Spec

noncomputable section

namespace Cert.KernelIdeal.Hand

open Idealize.ShloMosaic Idealize.ShloMosaic.ValueIdx Cert.KernelIdeal Cert.KernelIdeal.Gen

/-- x · W_iouᵀ at (r, j): the sum over k of x(r, k) · W_iouᵀ(k, j), 128 terms. -/
theorem mm1_xW (A : FVec Ideal S1024x128 .bf16) (B : FVec Ideal S128x384 .bf16) (r : Fin 1024) (j : Fin 384) :
    matmul dot_S1024x128_S128x384_S1024x384_1_0_0_1_n_n none A B (constant (F := Ideal) S1024x384 .f32 0x00000000#32) (ix2 r j)
      = ∑ k : Fin 128, A (ix2 r k) * B (ix2 k j) :=
  matmul_plain_apply none A B r j
/-- h · U_iouᵀ at (r, j): 512 terms. -/
theorem mm1_hU (A : FVec Ideal S1024x512 .bf16) (B : FVec Ideal S512x384 .bf16) (r : Fin 1024) (j : Fin 384) :
    matmul dot_S1024x512_S512x384_S1024x384_1_0_0_1_n_n none A B (constant (F := Ideal) S1024x384 .f32 0x00000000#32) (ix2 r j)
      = ∑ k : Fin 512, A (ix2 r k) * B (ix2 k j) :=
  matmul_plain_apply none A B r j
/-- h · U_fᵀ at (r, q): 512 terms. -/
theorem mm1_hUf (A : FVec Ideal S1024x512 .bf16) (B : FVec Ideal S512x512 .bf16) (r : Fin 1024) (q : Fin 512) :
    matmul dot_S1024x512_S512x512_S1024x512_1_0_0_1_n_n none A B (constant (F := Ideal) S1024x512 .f32 0x00000000#32) (ix2 r q)
      = ∑ k : Fin 512, A (ix2 r k) * B (ix2 k q) :=
  matmul_plain_apply none A B r q
/-- x · W_fᵀ at (r, j): 128 terms. -/
theorem mm1_xWf (A : FVec Ideal S1024x128 .bf16) (B : FVec Ideal S128x128 .bf16) (r : Fin 1024) (j : Fin 128) :
    matmul dot_S1024x128_S128x128_S1024x128_1_0_0_1_n_n none A B (constant (F := Ideal) S1024x128 .f32 0x00000000#32) (ix2 r j)
      = ∑ k : Fin 128, A (ix2 r k) * B (ix2 k j) :=
  matmul_plain_apply none A B r j

/-- The gate pre-activations of node r at column j. -/
theorem iou1_apply (x0 : Vec Ideal S1024x128 .f32) (x1 x2 : Vec Ideal S1024x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 1024) (j : Fin 384) :
    k1_pay10 (F := Ideal) x0 x1 x3 x5 x4 x6 (ix2 r j)
      = Cert.TreeSpec.iou (Cert.TreeSpec.winParams x3 x4 x5 x6 x7 x8 x9 x10) (fun k => x0 (ix2 r k)) (fun q => x1 (ix2 r q)) j := by
  unfold k1_pay10 k1_pay3 k1_pay5
  simp only [addf_apply, mm1_xW, mm1_hU, bcast_row_apply, truncf_apply, shapeCast_self]
  rfl

/-- The new cell row of node r at column j, as the body passes it on to the hidden row's formula. -/
theorem cell1_apply (x0 : Vec Ideal S1024x128 .f32) (x1 x2 : Vec Ideal S1024x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 1024) (j : Fin 128) :
    k1_pay1 (F := Ideal) (k1_pay3 x0) (k1_pay4 x2) (k1_pay5 x1) (k1_pay6 x7) (k1_pay7 x9) (k1_pay8 x8) (k1_pay9 x10) (k1_pay10 x0 x1 x3 x5 x4 x6) (ix2 r j)
      = Cert.TreeSpec.cNew (Cert.TreeSpec.winParams x3 x4 x5 x6 x7 x8 x9 x10) (fun k => x0 (ix2 r k)) (fun q => x1 (ix2 r q)) (fun q => x2 (ix2 r q)) j := by
  unfold k1_pay1 k1_pay3 k1_pay4 k1_pay5 k1_pay6 k1_pay7 k1_pay8 k1_pay9
  simp only [addf_apply, mulf_apply, logistic_apply, tanh_apply, slice_cols_apply, mm1_hUf, mm1_xWf, bcast_row_apply,
    truncf_apply, shapeCast_self, iou1_apply x0 x1 x2 x3 x4 x5 x6 x7 x8 x9 x10]
  rfl

/-- The second output block: the new cell rows. -/
theorem bodyC1_apply (x0 : Vec Ideal S1024x128 .f32) (x1 x2 : Vec Ideal S1024x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 1024) (j : Fin 128) :
    bodyC1 (F := Ideal) x0 x1 x2 x3 x4 x5 x6 x7 x8 x9 x10 (ix2 r j)
      = Cert.TreeSpec.cNew (Cert.TreeSpec.winParams x3 x4 x5 x6 x7 x8 x9 x10) (fun k => x0 (ix2 r k)) (fun q => x1 (ix2 r q)) (fun q => x2 (ix2 r q)) j :=
  cell1_apply x0 x1 x2 x3 x4 x5 x6 x7 x8 x9 x10 r j

/-- The first output block: the new hidden rows, σ(o)·tanh of the new cell row. -/
theorem bodyH1_apply (x0 : Vec Ideal S1024x128 .f32) (x1 x2 : Vec Ideal S1024x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 1024) (j : Fin 128) :
    bodyH1 (F := Ideal) x0 x1 x2 x3 x4 x5 x6 x7 x8 x9 x10 (ix2 r j)
      = Cert.TreeSpec.hNew (Cert.TreeSpec.winParams x3 x4 x5 x6 x7 x8 x9 x10) (fun k => x0 (ix2 r k)) (fun q => x1 (ix2 r q)) (fun q => x2 (ix2 r q)) j := by
  unfold bodyH1 k1_pay2
  simp only [mulf_apply, logistic_apply, tanh_apply, slice_cols_apply, cell1_apply x0 x1 x2 x3 x4 x5 x6 x7 x8 x9 x10, iou1_apply x0 x1 x2 x3 x4 x5 x6 x7 x8 x9 x10]
  rfl

end Cert.KernelIdeal.Hand

end
-- ==== Proof.KI.Val1.lean ====
/-
  What region 1 leaves in its two output arrays, at the ideal instance, as ONE function of the arrays it is entered with: the cell
  (Proof/Spec.lean) at every row.  Grid point t's blocks are rows t·1024 … t·1024+1023 of the row arrays and the whole of each parameter
  array (the index maps, decided over the grid); what point t writes back is block t of that function (the body's arithmetic at an
  index is the cell's: Proof/KI/Cell1.lean); the 16 blocks cover the output arrays.
-/
import proofs.«148344_j70635032150607_1_alg».proof.Proof.KI.Region1
import proofs.«148344_j70635032150607_1_alg».proof.Proof.KI.Cell1
import proofs.«148344_j70635032150607_1_alg».proof.Proof.CellArr
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert

variable (V : (c : Dev nD) → (b : Ref sig .tc) → Buf (Elt Ideal) ((c : Thread nD τ).loc b))

/-- The printed index maps, decided over the grid. -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = t.val
    ∧ win1_11.index t (1 : Fin 2) = 0
    ∧ win1_12.index t (0 : Fin 2) = t.val
    ∧ win1_12.index t (1 : Fin 2) = 0 :=
  (by decide +kernel : ∀ t : Fin grid1.N, _)

theorem tlt1 (t : Fin cfg1.N) : t.val < 16 := lt_of_lt_of_eq t.isLt N_1

/-- Window 0's block at point t is rows t·1024 … of its array. -/
theorem iblk1_0_apply (c : Dev nD) (t : Fin cfg1.N) (r : Fin 1024) (k : Fin 128) :
    iblk1 V c 0 t (ix2 r k) = V c main_v12 (ix2 ⟨t.val * 1024 + r.val, by have := tlt1 t; omega⟩ k) := by
  show V c main_v12 (((cfg1.win 0).blk t).view.emb (ix2 r k)) = _
  obtain ⟨e0a, e0b, e1a, e1b, e2a, e2b, e3a, e3b, e4a, e4b, e5a, e5b, e6a, e6b, e7a, e7b, e8a, e8b, e9a, e9b, e10a, e10b, e11a, e11b, e12a, e12b⟩ := idx_facts1 t
  refine congrArg (V c main_v12) ?_
  funext a; apply Fin.ext
  match a with
  | ⟨0, _⟩ => show win1_0.index t (0 : Fin 2) * 1024 + 1 * r.val = t.val * 1024 + r.val; omega
  | ⟨1, _⟩ => show win1_0.index t (1 : Fin 2) * 128 + 1 * k.val = k.val; omega

/-- Window 1's block at point t is rows t·1024 … of its array. -/
theorem iblk1_1_apply (c : Dev nD) (t : Fin cfg1.N) (r : Fin 1024) (k : Fin 512) :
    iblk1 V c 1 t (ix2 r k) = V c main_v10 (ix2 ⟨t.val * 1024 + r.val, by have := tlt1 t; omega⟩ k) := by
  show V c main_v10 (((cfg1.win 1).blk t).view.emb (ix2 r k)) = _
  obtain ⟨e0a, e0b, e1a, e1b, e2a, e2b, e3a, e3b, e4a, e4b, e5a, e5b, e6a, e6b, e7a, e7b, e8a, e8b, e9a, e9b, e10a, e10b, e11a, e11b, e12a, e12b⟩ := idx_facts1 t
  refine congrArg (V c main_v10) ?_
  funext a; apply Fin.ext
  match a with
  | ⟨0, _⟩ => show win1_1.index t (0 : Fin 2) * 1024 + 1 * r.val = t.val * 1024 + r.val; omega
  | ⟨1, _⟩ => show win1_1.index t (1 : Fin 2) * 512 + 1 * k.val = k.val; omega

/-- Window 2's block at point t is rows t·1024 … of its array. -/
theorem iblk1_2_apply (c : Dev nD) (t : Fin cfg1.N) (r : Fin 1024) (k : Fin 512) :
    iblk1 V c 2 t (ix2 r k) = V c main_v11 (ix2 ⟨t.val * 1024 + r.val, by have := tlt1 t; omega⟩ k) := by
  show V c main_v11 (((cfg1.win 2).blk t).view.emb (ix2 r k)) = _
  obtain ⟨e0a, e0b, e1a, e1b, e2a, e2b, e3a, e3b, e4a, e4b, e5a, e5b, e6a, e6b, e7a, e7b, e8a, e8b, e9a, e9b, e10a, e10b, e11a, e11b, e12a, e12b⟩ := idx_facts1 t
  refine congrArg (V c main_v11) ?_
  funext a; apply Fin.ext
  match a with
  | ⟨0, _⟩ => show win1_2.index t (0 : Fin 2) * 1024 + 1 * r.val = t.val * 1024 + r.val; omega
  | ⟨1, _⟩ => show win1_2.index t (1 : Fin 2) * 512 + 1 * k.val = k.val; omega

/-- Window 3's one block is its whole array. -/
theorem iblk1_3_eq (c : Dev nD) (t : Fin cfg1.N) : iblk1 V c 3 t = V c main_v0 := by
  funext y
  show V c main_v0 (((cfg1.win 3).blk t).view.emb y) = V c main_v0 y
  obtain ⟨e0a, e0b, e1a, e1b, e2a, e2b, e3a, e3b, e4a, e4b, e5a, e5b, e6a, e6b, e7a, e7b, e8a, e8b, e9a, e9b, e10a, e10b, e11a, e11b, e12a, e12b⟩ := idx_facts1 t
  refine congrArg (V c main_v0) ?_
  funext a; apply Fin.ext
  match a with
  | ⟨0, _⟩ => show win1_3.index t (0 : Fin 2) * 128 + 1 * (y 0).val = (y 0).val; omega
  | ⟨1, _⟩ => show win1_3.index t (1 : Fin 2) * 384 + 1 * (y 1).val = (y 1).val; omega

/-- Window 4's one block is its whole array. -/
theorem iblk1_4_eq (c : Dev nD) (t : Fin cfg1.N) : iblk1 V c 4 t = V c main_v4 := by
  funext y
  show V c main_v4 (((cfg1.win 4).blk t).view.emb y) = V c main_v4 y
  obtain ⟨e0a, e0b, e1a, e1b, e2a, e2b, e3a, e3b, e4a, e4b, e5a, e5b, e6a, e6b, e7a, e7b, e8a, e8b, e9a, e9b, e10a, e10b, e11a, e11b, e12a, e12b⟩ := idx_facts1 t
  refine congrArg (V c main_v4) ?_
  funext a; apply Fin.ext
  match a with
  | ⟨0, _⟩ => show win1_4.index t (0 : Fin 2) * 1 + 1 * (y 0).val = (y 0).val; omega
  | ⟨1, _⟩ => show win1_4.index t (1 : Fin 2) * 384 + 1 * (y 1).val = (y 1).val; omega

/-- Window 5's one block is its whole array. -/
theorem iblk1_5_eq (c : Dev nD) (t : Fin cfg1.N) : iblk1 V c 5 t = V c main_v1 := by
  funext y
  show V c main_v1 (((cfg1.win 5).blk t).view.emb y) = V c main_v1 y
  obtain ⟨e0a, e0b, e1a, e1b, e2a, e2b, e3a, e3b, e4a, e4b, e5a, e5b, e6a, e6b, e7a, e7b, e8a, e8b, e9a, e9b, e10a, e10b, e11a, e11b, e12a, e12b⟩ := idx_facts1 t
  refine congrArg (V c main_v1) ?_
  funext a; apply Fin.ext
  match a with
  | ⟨0, _⟩ => show win1_5.index t (0 : Fin 2) * 512 + 1 * (y 0).val = (y 0).val; omega
  | ⟨1, _⟩ => show win1_5.index t (1 : Fin 2) * 384 + 1 * (y 1).val = (y 1).val; omega

/-- Window 6's one block is its whole array. -/
theorem iblk1_6_eq (c : Dev nD) (t : Fin cfg1.N) : iblk1 V c 6 t = V c main_v5 := by
  funext y
  show V c main_v5 (((cfg1.win 6).blk t).view.emb y) = V c main_v5 y
  obtain ⟨e0a, e0b, e1a, e1b, e2a, e2b, e3a, e3b, e4a, e4b, e5a, e5b, e6a, e6b, e7a, e7b, e8a, e8b, e9a, e9b, e10a, e10b, e11a, e11b, e12a, e12b⟩ := idx_facts1 t
  refine congrArg (V c main_v5) ?_
  funext a; apply Fin.ext
  match a with
  | ⟨0, _⟩ => show win1_6.index t (0 : Fin 2) * 1 + 1 * (y 0).val = (y 0).val; omega
  | ⟨1, _⟩ => show win1_6.index t (1 : Fin 2) * 384 + 1 * (y 1).val = (y 1).val; omega

/-- Window 7's one block is its whole array. -/
theorem iblk1_7_eq (c : Dev nD) (t : Fin cfg1.N) : iblk1 V c 7 t = V c main_v2 := by
  funext y
  show V c main_v2 (((cfg1.win 7).blk t).view.emb y) = V c main_v2 y
  obtain ⟨e0a, e0b, e1a, e1b, e2a, e2b, e3a, e3b, e4a, e4b, e5a, e5b, e6a, e6b, e7a, e7b, e8a, e8b, e9a, e9b, e10a, e10b, e11a, e11b, e12a, e12b⟩ := idx_facts1 t
  refine congrArg (V c main_v2) ?_
  funext a; apply Fin.ext
  match a with
  | ⟨0, _⟩ => show win1_7.index t (0 : Fin 2) * 128 + 1 * (y 0).val = (y 0).val; omega
  | ⟨1, _⟩ => show win1_7.index t (1 : Fin 2) * 128 + 1 * (y 1).val = (y 1).val; omega

/-- Window 8's one block is its whole array. -/
theorem iblk1_8_eq (c : Dev nD) (t : Fin cfg1.N) : iblk1 V c 8 t = V c main_v6 := by
  funext y
  show V c main_v6 (((cfg1.win 8).blk t).view.emb y) = V c main_v6 y
  obtain ⟨e0a, e0b, e1a, e1b, e2a, e2b, e3a, e3b, e4a, e4b, e5a, e5b, e6a, e6b, e7a, e7b, e8a, e8b, e9a, e9b, e10a, e10b, e11a, e11b, e12a, e12b⟩ := idx_facts1 t
  refine congrArg (V c main_v6) ?_
  funext a; apply Fin.ext
  match a with
  | ⟨0, _⟩ => show win1_8.index t (0 : Fin 2) * 1 + 1 * (y 0).val = (y 0).val; omega
  | ⟨1, _⟩ => show win1_8.index t (1 : Fin 2) * 128 + 1 * (y 1).val = (y 1).val; omega

/-- Window 9's one block is its whole array. -/
theorem iblk1_9_eq (c : Dev nD) (t : Fin cfg1.N) : iblk1 V c 9 t = V c main_v3 := by
  funext y
  show V c main_v3 (((cfg1.win 9).blk t).view.emb y) = V c main_v3 y
  obtain ⟨e0a, e0b, e1a, e1b, e2a, e2b, e3a, e3b, e4a, e4b, e5a, e5b, e6a, e6b, e7a, e7b, e8a, e8b, e9a, e9b, e10a, e10b, e11a, e11b, e12a, e12b⟩ := idx_facts1 t
  refine congrArg (V c main_v3) ?_
  funext a; apply Fin.ext
  match a with
  | ⟨0, _⟩ => show win1_9.index t (0 : Fin 2) * 512 + 1 * (y 0).val = (y 0).val; omega
  | ⟨1, _⟩ => show win1_9.index t (1 : Fin 2) * 512 + 1 * (y 1).val = (y 1).val; omega

/-- Window 10's one block is its whole array. -/
theorem iblk1_10_eq (c : Dev nD) (t : Fin cfg1.N) : iblk1 V c 10 t = V c main_v7 := by
  funext y
  show V c main_v7 (((cfg1.win 10).blk t).view.emb y) = V c main_v7 y
  obtain ⟨e0a, e0b, e1a, e1b, e2a, e2b, e3a, e3b, e4a, e4b, e5a, e5b, e6a, e6b, e7a, e7b, e8a, e8b, e9a, e9b, e10a, e10b, e11a, e11b, e12a, e12b⟩ := idx_facts1 t
  refine congrArg (V c main_v7) ?_
  funext a; apply Fin.ext
  match a with
  | ⟨0, _⟩ => show win1_10.index t (0 : Fin 2) * 1 + 1 * (y 0).val = (y 0).val; omega
  | ⟨1, _⟩ => show win1_10.index t (1 : Fin 2) * 512 + 1 * (y 1).val = (y 1).val; omega

/-- What point t writes back into output 0 is block t of the cell's array function of the arrays the region is entered with. -/
theorem flushed1_11_eq (c : Dev nD) (t : Fin cfg1.N) :
    (dat1 V c).flushed 11 t = ((cfg1.win 11).blk t).view.read (Elt Ideal) (TreeSpec.cellArrH (N := 16384) (V c main_v12) (V c main_v10) (V c main_v11) (TreeSpec.winParams (V c main_v0) (V c main_v4) (V c main_v1) (V c main_v5) (V c main_v2) (V c main_v6) (V c main_v3) (V c main_v7))) := by
  show (cfg1.win 11).cut (grid1.coords t) ((dat1 V c).after 11 t) = _
  rw [after1_11]
  unfold out1_11
  rw [View.canon_unit_zero TreeSpec.hz2]
  simp only [View.ld_unit_zero (S := S1024x128) TreeSpec.hz2, View.ld_unit_zero (S := S1024x512) TreeSpec.hz2, View.ld_unit_zero (S := S128x384) TreeSpec.hz2, View.ld_unit_zero (S := S1x384) TreeSpec.hz2, View.ld_unit_zero (S := S512x384) TreeSpec.hz2, View.ld_unit_zero (S := S128x128) TreeSpec.hz2, View.ld_unit_zero (S := S1x128) TreeSpec.hz2, View.ld_unit_zero (S := S512x512) TreeSpec.hz2, View.ld_unit_zero (S := S1x512) TreeSpec.hz2]
  rw [iblk1_3_eq V c t, iblk1_4_eq V c t, iblk1_5_eq V c t, iblk1_6_eq V c t, iblk1_7_eq V c t, iblk1_8_eq V c t, iblk1_9_eq V c t, iblk1_10_eq V c t]
  funext j
  obtain ⟨r, q, rfl⟩ : ∃ (r : Fin 1024) (q : Fin 128), j = ix2 r q := ⟨j 0, j 1, eq_ix2 j⟩
  have hemb : ((cfg1.win 11).blk t).view.emb (ix2 r q) = (ix2 ⟨t.val * 1024 + r.val, by have := tlt1 t; omega⟩ q : S16384x128.Idx) := by
    obtain ⟨e0a, e0b, e1a, e1b, e2a, e2b, e3a, e3b, e4a, e4b, e5a, e5b, e6a, e6b, e7a, e7b, e8a, e8b, e9a, e9b, e10a, e10b, e11a, e11b, e12a, e12b⟩ := idx_facts1 t
    funext a; apply Fin.ext
    match a with
    | ⟨0, _⟩ => show win1_11.index t (0 : Fin 2) * 1024 + 1 * r.val = t.val * 1024 + r.val; omega
    | ⟨1, _⟩ => show win1_11.index t (1 : Fin 2) * 128 + 1 * q.val = q.val; omega
  show bodyH1 (F := Ideal) (iblk1 V c 0 t) (iblk1 V c 1 t) (iblk1 V c 2 t) (V c main_v0) (V c main_v4) (V c main_v1) (V c main_v5) (V c main_v2) (V c main_v6) (V c main_v3) (V c main_v7) (ix2 r q) = (TreeSpec.cellArrH (N := 16384) (V c main_v12) (V c main_v10) (V c main_v11) (TreeSpec.winParams (V c main_v0) (V c main_v4) (V c main_v1) (V c main_v5) (V c main_v2) (V c main_v6) (V c main_v3) (V c main_v7))) (((cfg1.win 11).blk t).view.emb (ix2 r q))
  rw [hemb, bodyH1_apply]
  unfold TreeSpec.cellArrH
  simp only [iblk1_0_apply V c t, iblk1_1_apply V c t, iblk1_2_apply V c t] <;> rfl

/-- An index of output 0's array is in point t's block iff each coordinate is in the block's range on its axis. -/
theorem mem_blk1_11 (t : Fin cfg1.N) (i : S16384x128.Idx) :
    i ∈ ((cfg1.win 11).blk t).view.set ↔ ∀ a : Fin 2, win1_11.index t a * S1024x128.size a ≤ (i a).val ∧ (i a).val < win1_11.index t a * S1024x128.size a + S1024x128.size a := by
  show i ∈ ((View.whole main_v13_0).slice (win1_11.rect t)).set ↔ _
  rw [View.set_slice_whole, Rect.mem_set_unit]
  exact Iff.rfl

/-- Every index of output 0's array is in the block of the point its row falls in. -/
theorem covered1_11 (i : S16384x128.Idx) : ∃ t : Fin cfg1.N, (cfg1.win 11).flush t = true ∧ i ∈ ((cfg1.win 11).blk t).view.set := by
  have hi0 : (i 0).val < 16384 := (i 0).isLt
  have hi1 : (i 1).val < 128 := (i 1).isLt
  have ht : (i 0).val / 1024 < cfg1.N := by rw [show cfg1.N = 16 from N_1]; omega
  refine ⟨⟨(i 0).val / 1024, ht⟩, flush1_11 _, ?_⟩
  rw [mem_blk1_11]
  obtain ⟨e0a, e0b, e1a, e1b, e2a, e2b, e3a, e3b, e4a, e4b, e5a, e5b, e6a, e6b, e7a, e7b, e8a, e8b, e9a, e9b, e10a, e10b, e11a, e11b, e12a, e12b⟩ := idx_facts1 ⟨(i 0).val / 1024, ht⟩
  intro a
  match a with
  | ⟨0, _⟩ => show win1_11.index _ (0 : Fin 2) * 1024 ≤ (i 0).val ∧ (i 0).val < win1_11.index _ (0 : Fin 2) * 1024 + 1024; rw [e11a]; show (i 0).val / 1024 * 1024 ≤ (i 0).val ∧ (i 0).val < (i 0).val / 1024 * 1024 + 1024; omega
  | ⟨1, _⟩ => show win1_11.index _ (1 : Fin 2) * 128 ≤ (i 1).val ∧ (i 1).val < win1_11.index _ (1 : Fin 2) * 128 + 128; rw [e11b]; omega

/-- Output 0's array after the region: the cell's array function of the arrays the region is entered with. -/
theorem final1_H (c : Dev nD) : (dat1 V c).arrAt 11 cfg1.N = (TreeSpec.cellArrH (N := 16384) (V c main_v12) (V c main_v10) (V c main_v11) (TreeSpec.winParams (V c main_v0) (V c main_v4) (V c main_v1) (V c main_v5) (V c main_v2) (V c main_v6) (V c main_v3) (V c main_v7))) :=
  (dat1 V c).arrAt_eq_of_cover 11 _ (fun t _ => flushed1_11_eq V c t) (covered1_11)

/-- What point t writes back into output 1 is block t of the cell's array function of the arrays the region is entered with. -/
theorem flushed1_12_eq (c : Dev nD) (t : Fin cfg1.N) :
    (dat1 V c).flushed 12 t = ((cfg1.win 12).blk t).view.read (Elt Ideal) (TreeSpec.cellArrC (N := 16384) (V c main_v12) (V c main_v10) (V c main_v11) (TreeSpec.winParams (V c main_v0) (V c main_v4) (V c main_v1) (V c main_v5) (V c main_v2) (V c main_v6) (V c main_v3) (V c main_v7))) := by
  show (cfg1.win 12).cut (grid1.coords t) ((dat1 V c).after 12 t) = _
  rw [after1_12]
  unfold out1_12
  rw [View.canon_unit_zero TreeSpec.hz2]
  simp only [View.ld_unit_zero (S := S1024x128) TreeSpec.hz2, View.ld_unit_zero (S := S1024x512) TreeSpec.hz2, View.ld_unit_zero (S := S128x384) TreeSpec.hz2, View.ld_unit_zero (S := S1x384) TreeSpec.hz2, View.ld_unit_zero (S := S512x384) TreeSpec.hz2, View.ld_unit_zero (S := S128x128) TreeSpec.hz2, View.ld_unit_zero (S := S1x128) TreeSpec.hz2, View.ld_unit_zero (S := S512x512) TreeSpec.hz2, View.ld_unit_zero (S := S1x512) TreeSpec.hz2]
  rw [iblk1_3_eq V c t, iblk1_4_eq V c t, iblk1_5_eq V c t, iblk1_6_eq V c t, iblk1_7_eq V c t, iblk1_8_eq V c t, iblk1_9_eq V c t, iblk1_10_eq V c t]
  funext j
  obtain ⟨r, q, rfl⟩ : ∃ (r : Fin 1024) (q : Fin 128), j = ix2 r q := ⟨j 0, j 1, eq_ix2 j⟩
  have hemb : ((cfg1.win 12).blk t).view.emb (ix2 r q) = (ix2 ⟨t.val * 1024 + r.val, by have := tlt1 t; omega⟩ q : S16384x128.Idx) := by
    obtain ⟨e0a, e0b, e1a, e1b, e2a, e2b, e3a, e3b, e4a, e4b, e5a, e5b, e6a, e6b, e7a, e7b, e8a, e8b, e9a, e9b, e10a, e10b, e11a, e11b, e12a, e12b⟩ := idx_facts1 t
    funext a; apply Fin.ext
    match a with
    | ⟨0, _⟩ => show win1_12.index t (0 : Fin 2) * 1024 + 1 * r.val = t.val * 1024 + r.val; omega
    | ⟨1, _⟩ => show win1_12.index t (1 : Fin 2) * 128 + 1 * q.val = q.val; omega
  show bodyC1 (F := Ideal) (iblk1 V c 0 t) (iblk1 V c 1 t) (iblk1 V c 2 t) (V c main_v0) (V c main_v4) (V c main_v1) (V c main_v5) (V c main_v2) (V c main_v6) (V c main_v3) (V c main_v7) (ix2 r q) = (TreeSpec.cellArrC (N := 16384) (V c main_v12) (V c main_v10) (V c main_v11) (TreeSpec.winParams (V c main_v0) (V c main_v4) (V c main_v1) (V c main_v5) (V c main_v2) (V c main_v6) (V c main_v3) (V c main_v7))) (((cfg1.win 12).blk t).view.emb (ix2 r q))
  rw [hemb, bodyC1_apply]
  unfold TreeSpec.cellArrC
  simp only [iblk1_0_apply V c t, iblk1_1_apply V c t, iblk1_2_apply V c t] <;> rfl

/-- An index of output 1's array is in point t's block iff each coordinate is in the block's range on its axis. -/
theorem mem_blk1_12 (t : Fin cfg1.N) (i : S16384x128.Idx) :
    i ∈ ((cfg1.win 12).blk t).view.set ↔ ∀ a : Fin 2, win1_12.index t a * S1024x128.size a ≤ (i a).val ∧ (i a).val < win1_12.index t a * S1024x128.size a + S1024x128.size a := by
  show i ∈ ((View.whole main_v13_1).slice (win1_12.rect t)).set ↔ _
  rw [View.set_slice_whole, Rect.mem_set_unit]
  exact Iff.rfl

/-- Every index of output 1's array is in the block of the point its row falls in. -/
theorem covered1_12 (i : S16384x128.Idx) : ∃ t : Fin cfg1.N, (cfg1.win 12).flush t = true ∧ i ∈ ((cfg1.win 12).blk t).view.set := by
  have hi0 : (i 0).val < 16384 := (i 0).isLt
  have hi1 : (i 1).val < 128 := (i 1).isLt
  have ht : (i 0).val / 1024 < cfg1.N := by rw [show cfg1.N = 16 from N_1]; omega
  refine ⟨⟨(i 0).val / 1024, ht⟩, flush1_12 _, ?_⟩
  rw [mem_blk1_12]
  obtain ⟨e0a, e0b, e1a, e1b, e2a, e2b, e3a, e3b, e4a, e4b, e5a, e5b, e6a, e6b, e7a, e7b, e8a, e8b, e9a, e9b, e10a, e10b, e11a, e11b, e12a, e12b⟩ := idx_facts1 ⟨(i 0).val / 1024, ht⟩
  intro a
  match a with
  | ⟨0, _⟩ => show win1_12.index _ (0 : Fin 2) * 1024 ≤ (i 0).val ∧ (i 0).val < win1_12.index _ (0 : Fin 2) * 1024 + 1024; rw [e12a]; show (i 0).val / 1024 * 1024 ≤ (i 0).val ∧ (i 0).val < (i 0).val / 1024 * 1024 + 1024; omega
  | ⟨1, _⟩ => show win1_12.index _ (1 : Fin 2) * 128 ≤ (i 1).val ∧ (i 1).val < win1_12.index _ (1 : Fin 2) * 128 + 128; rw [e12b]; omega

/-- Output 1's array after the region: the cell's array function of the arrays the region is entered with. -/
theorem final1_C (c : Dev nD) : (dat1 V c).arrAt 12 cfg1.N = (TreeSpec.cellArrC (N := 16384) (V c main_v12) (V c main_v10) (V c main_v11) (TreeSpec.winParams (V c main_v0) (V c main_v4) (V c main_v1) (V c main_v5) (V c main_v2) (V c main_v6) (V c main_v3) (V c main_v7))) :=
  (dat1 V c).arrAt_eq_of_cover 12 _ (fun t _ => flushed1_12_eq V c t) (covered1_12)

end Cert.KernelIdeal.Hand

end
-- ==== Proof.KI.Cell2.lean ====
/-
  Region 2 of the kernel (blocks of 1024 nodes) read at an index.  Row r of the region's two output blocks is the cell
  applied to node r: to row r of the node inputs, row r of the children's packed hidden rows and of their packed cell
  rows, with the eight parameter blocks as the region receives them (matrices already transposed, each bias one row).
  Entry (r, j) of the first output block is the specification's new hidden row at j, of the second its new cell row at j.

  The body forms the 384 gate pre-activations as x·W_iouᵀ + b_iou + h·U_iouᵀ + b_uiou in this order — the
  specification's grouping —, cuts them into the gates i, o, u, forms h·U_fᵀ + b_uf and x·W_fᵀ + b_wf, and adds the
  four forget-gate products to σ(i)·tanh(u) from left to right, again as the specification does; so after each
  operation is read at the index the two sides are the same expression.
-/
import proofs.«148344_j70635032150607_1_alg».proof.Proof.KI.Bodies
import proofs.«148344_j70635032150607_1_alg».proof.Proof.KI.CellLemmas
import proofs.«148344_j70635032150607_1_alg».proof.Proof.Spec

noncomputable section

namespace Cert.KernelIdeal.Hand

open Idealize.ShloMosaic Idealize.ShloMosaic.ValueIdx Cert.KernelIdeal Cert.KernelIdeal.Gen

/-- x · W_iouᵀ at (r, j): the sum over k of x(r, k) · W_iouᵀ(k, j), 128 terms. -/
theorem mm2_xW (A : FVec Ideal S1024x128 .bf16) (B : FVec Ideal S128x384 .bf16) (r : Fin 1024) (j : Fin 384) :
    matmul dot_S1024x128_S128x384_S1024x384_1_0_0_1_n_n none A B (constant (F := Ideal) S1024x384 .f32 0x00000000#32) (ix2 r j)
      = ∑ k : Fin 128, A (ix2 r k) * B (ix2 k j) :=
  matmul_plain_apply none A B r j
/-- h · U_iouᵀ at (r, j): 512 terms. -/
theorem mm2_hU (A : FVec Ideal S1024x512 .bf16) (B : FVec Ideal S512x384 .bf16) (r : Fin 1024) (j : Fin 384) :
    matmul dot_S1024x512_S512x384_S1024x384_1_0_0_1_n_n none A B (constant (F := Ideal) S1024x384 .f32 0x00000000#32) (ix2 r j)
      = ∑ k : Fin 512, A (ix2 r k) * B (ix2 k j) :=
  matmul_plain_apply none A B r j
/-- h · U_fᵀ at (r, q): 512 terms. -/
theorem mm2_hUf (A : FVec Ideal S1024x512 .bf16) (B : FVec Ideal S512x512 .bf16) (r : Fin 1024) (q : Fin 512) :
    matmul dot_S1024x512_S512x512_S1024x512_1_0_0_1_n_n none A B (constant (F := Ideal) S1024x512 .f32 0x00000000#32) (ix2 r q)
      = ∑ k : Fin 512, A (ix2 r k) * B (ix2 k q) :=
  matmul_plain_apply none A B r q
/-- x · W_fᵀ at (r, j): 128 terms. -/
theorem mm2_xWf (A : FVec Ideal S1024x128 .bf16) (B : FVec Ideal S128x128 .bf16) (r : Fin 1024) (j : Fin 128) :
    matmul dot_S1024x128_S128x128_S1024x128_1_0_0_1_n_n none A B (constant (F := Ideal) S1024x128 .f32 0x00000000#32) (ix2 r j)
      = ∑ k : Fin 128, A (ix2 r k) * B (ix2 k j) :=
  matmul_plain_apply none A B r j

/-- The gate pre-activations of node r at column j. -/
theorem iou2_apply (x0 : Vec Ideal S1024x128 .f32) (x1 x2 : Vec Ideal S1024x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 1024) (j : Fin 384) :
    k2_pay10 (F := Ideal) x0 x1 x3 x5 x4 x6 (ix2 r j)
      = Cert.TreeSpec.iou (Cert.TreeSpec.winParams x3 x4 x5 x6 x7 x8 x9 x10) (fun k => x0 (ix2 r k)) (fun q => x1 (ix2 r q)) j := by
  unfold k2_pay10 k2_pay3 k2_pay5
  simp only [addf_apply, mm2_xW, mm2_hU, bcast_row_apply, truncf_apply, shapeCast_self]
  rfl

/-- The new cell row of node r at column j, as the body passes it on to the hidden row's formula. -/
theorem cell2_apply (x0 : Vec Ideal S1024x128 .f32) (x1 x2 : Vec Ideal S1024x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 1024) (j : Fin 128) :
    k2_pay1 (F := Ideal) (k2_pay3 x0) (k2_pay4 x2) (k2_pay5 x1) (k2_pay6 x7) (k2_pay7 x9) (k2_pay8 x8) (k2_pay9 x10) (k2_pay10 x0 x1 x3 x5 x4 x6) (ix2 r j)
      = Cert.TreeSpec.cNew (Cert.TreeSpec.winParams x3 x4 x5 x6 x7 x8 x9 x10) (fun k => x0 (ix2 r k)) (fun q => x1 (ix2 r q)) (fun q => x2 (ix2 r q)) j := by
  unfold k2_pay1 k2_pay3 k2_pay4 k2_pay5 k2_pay6 k2_pay7 k2_pay8 k2_pay9
  simp only [addf_apply, mulf_apply, logistic_apply, tanh_apply, slice_cols_apply, mm2_hUf, mm2_xWf, bcast_row_apply,
    truncf_apply, shapeCast_self, iou2_apply x0 x1 x2 x3 x4 x5 x6 x7 x8 x9 x10]
  rfl

/-- The second output block: the new cell rows. -/
theorem bodyC2_apply (x0 : Vec Ideal S1024x128 .f32) (x1 x2 : Vec Ideal S1024x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 1024) (j : Fin 128) :
    bodyC2 (F := Ideal) x0 x1 x2 x3 x4 x5 x6 x7 x8 x9 x10 (ix2 r j)
      = Cert.TreeSpec.cNew (Cert.TreeSpec.winParams x3 x4 x5 x6 x7 x8 x9 x10) (fun k => x0 (ix2 r k)) (fun q => x1 (ix2 r q)) (fun q => x2 (ix2 r q)) j :=
  cell2_apply x0 x1 x2 x3 x4 x5 x6 x7 x8 x9 x10 r j

/-- The first output block: the new hidden rows, σ(o)·tanh of the new cell row. -/
theorem bodyH2_apply (x0 : Vec Ideal S1024x128 .f32) (x1 x2 : Vec Ideal S1024x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 1024) (j : Fin 128) :
    bodyH2 (F := Ideal) x0 x1 x2 x3 x4 x5 x6 x7 x8 x9 x10 (ix2 r j)
      = Cert.TreeSpec.hNew (Cert.TreeSpec.winParams x3 x4 x5 x6 x7 x8 x9 x10) (fun k => x0 (ix2 r k)) (fun q => x1 (ix2 r q)) (fun q => x2 (ix2 r q)) j := by
  unfold bodyH2 k2_pay2
  simp only [mulf_apply, logistic_apply, tanh_apply, slice_cols_apply, cell2_apply x0 x1 x2 x3 x4 x5 x6 x7 x8 x9 x10, iou2_apply x0 x1 x2 x3 x4 x5 x6 x7 x8 x9 x10]
  rfl

end Cert.KernelIdeal.Hand

end
-- ==== Proof.KI.Val2.lean ====
/-
  What region 2 leaves in its two output arrays, at the ideal instance, as ONE function of the arrays it is entered with: the cell
  (Proof/Spec.lean) at every row.  Grid point t's blocks are rows t·1024 … t·1024+1023 of the row arrays and the whole of each parameter
  array (the index maps, decided over the grid); what point t writes back is block t of that function (the body's arithmetic at an
  index is the cell's: Proof/KI/Cell2.lean); the 4 blocks cover the output arrays.
-/
import proofs.«148344_j70635032150607_1_alg».proof.Proof.KI.Region2
import proofs.«148344_j70635032150607_1_alg».proof.Proof.KI.Cell2
import proofs.«148344_j70635032150607_1_alg».proof.Proof.CellArr
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert

variable (V : (c : Dev nD) → (b : Ref sig .tc) → Buf (Elt Ideal) ((c : Thread nD τ).loc b))

/-- The printed index maps, decided over the grid. -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (0 : Fin 2) = 0
    ∧ win2_10.index t (1 : Fin 2) = 0
    ∧ win2_11.index t (0 : Fin 2) = t.val
    ∧ win2_11.index t (1 : Fin 2) = 0
    ∧ win2_12.index t (0 : Fin 2) = t.val
    ∧ win2_12.index t (1 : Fin 2) = 0 :=
  (by decide +kernel : ∀ t : Fin grid2.N, _)

theorem tlt2 (t : Fin cfg2.N) : t.val < 4 := lt_of_lt_of_eq t.isLt N_2

/-- Window 0's block at point t is rows t·1024 … of its array. -/
theorem iblk2_0_apply (c : Dev nD) (t : Fin cfg2.N) (r : Fin 1024) (k : Fin 128) :
    iblk2 V c 0 t (ix2 r k) = V c main_v16 (ix2 ⟨t.val * 1024 + r.val, by have := tlt2 t; omega⟩ k) := by
  show V c main_v16 (((cfg2.win 0).blk t).view.emb (ix2 r k)) = _
  obtain ⟨e0a, e0b, e1a, e1b, e2a, e2b, e3a, e3b, e4a, e4b, e5a, e5b, e6a, e6b, e7a, e7b, e8a, e8b, e9a, e9b, e10a, e10b, e11a, e11b, e12a, e12b⟩ := idx_facts2 t
  refine congrArg (V c main_v16) ?_
  funext a; apply Fin.ext
  match a with
  | ⟨0, _⟩ => show win2_0.index t (0 : Fin 2) * 1024 + 1 * r.val = t.val * 1024 + r.val; omega
  | ⟨1, _⟩ => show win2_0.index t (1 : Fin 2) * 128 + 1 * k.val = k.val; omega

/-- Window 1's block at point t is rows t·1024 … of its array. -/
theorem iblk2_1_apply (c : Dev nD) (t : Fin cfg2.N) (r : Fin 1024) (k : Fin 512) :
    iblk2 V c 1 t (ix2 r k) = V c main_v14 (ix2 ⟨t.val * 1024 + r.val, by have := tlt2 t; omega⟩ k) := by
  show V c main_v14 (((cfg2.win 1).blk t).view.emb (ix2 r k)) = _
  obtain ⟨e0a, e0b, e1a, e1b, e2a, e2b, e3a, e3b, e4a, e4b, e5a, e5b, e6a, e6b, e7a, e7b, e8a, e8b, e9a, e9b, e10a, e10b, e11a, e11b, e12a, e12b⟩ := idx_facts2 t
  refine congrArg (V c main_v14) ?_
  funext a; apply Fin.ext
  match a with
  | ⟨0, _⟩ => show win2_1.index t (0 : Fin 2) * 1024 + 1 * r.val = t.val * 1024 + r.val; omega
  | ⟨1, _⟩ => show win2_1.index t (1 : Fin 2) * 512 + 1 * k.val = k.val; omega

/-- Window 2's block at point t is rows t·1024 … of its array. -/
theorem iblk2_2_apply (c : Dev nD) (t : Fin cfg2.N) (r : Fin 1024) (k : Fin 512) :
    iblk2 V c 2 t (ix2 r k) = V c main_v15 (ix2 ⟨t.val * 1024 + r.val, by have := tlt2 t; omega⟩ k) := by
  show V c main_v15 (((cfg2.win 2).blk t).view.emb (ix2 r k)) = _
  obtain ⟨e0a, e0b, e1a, e1b, e2a, e2b, e3a, e3b, e4a, e4b, e5a, e5b, e6a, e6b, e7a, e7b, e8a, e8b, e9a, e9b, e10a, e10b, e11a, e11b, e12a, e12b⟩ := idx_facts2 t
  refine congrArg (V c main_v15) ?_
  funext a; apply Fin.ext
  match a with
  | ⟨0, _⟩ => show win2_2.index t (0 : Fin 2) * 1024 + 1 * r.val = t.val * 1024 + r.val; omega
  | ⟨1, _⟩ => show win2_2.index t (1 : Fin 2) * 512 + 1 * k.val = k.val; omega

/-- Window 3's one block is its whole array. -/
theorem iblk2_3_eq (c : Dev nD) (t : Fin cfg2.N) : iblk2 V c 3 t = V c main_v0 := by
  funext y
  show V c main_v0 (((cfg2.win 3).blk t).view.emb y) = V c main_v0 y
  obtain ⟨e0a, e0b, e1a, e1b, e2a, e2b, e3a, e3b, e4a, e4b, e5a, e5b, e6a, e6b, e7a, e7b, e8a, e8b, e9a, e9b, e10a, e10b, e11a, e11b, e12a, e12b⟩ := idx_facts2 t
  refine congrArg (V c main_v0) ?_
  funext a; apply Fin.ext
  match a with
  | ⟨0, _⟩ => show win2_3.index t (0 : Fin 2) * 128 + 1 * (y 0).val = (y 0).val; omega
  | ⟨1, _⟩ => show win2_3.index t (1 : Fin 2) * 384 + 1 * (y 1).val = (y 1).val; omega

/-- Window 4's one block is its whole array. -/
theorem iblk2_4_eq (c : Dev nD) (t : Fin cfg2.N) : iblk2 V c 4 t = V c main_v4 := by
  funext y
  show V c main_v4 (((cfg2.win 4).blk t).view.emb y) = V c main_v4 y
  obtain ⟨e0a, e0b, e1a, e1b, e2a, e2b, e3a, e3b, e4a, e4b, e5a, e5b, e6a, e6b, e7a, e7b, e8a, e8b, e9a, e9b, e10a, e10b, e11a, e11b, e12a, e12b⟩ := idx_facts2 t
  refine congrArg (V c main_v4) ?_
  funext a; apply Fin.ext
  match a with
  | ⟨0, _⟩ => show win2_4.index t (0 : Fin 2) * 1 + 1 * (y 0).val = (y 0).val; omega
  | ⟨1, _⟩ => show win2_4.index t (1 : Fin 2) * 384 + 1 * (y 1).val = (y 1).val; omega

/-- Window 5's one block is its whole array. -/
theorem iblk2_5_eq (c : Dev nD) (t : Fin cfg2.N) : iblk2 V c 5 t = V c main_v1 := by
  funext y
  show V c main_v1 (((cfg2.win 5).blk t).view.emb y) = V c main_v1 y
  obtain ⟨e0a, e0b, e1a, e1b, e2a, e2b, e3a, e3b, e4a, e4b, e5a, e5b, e6a, e6b, e7a, e7b, e8a, e8b, e9a, e9b, e10a, e10b, e11a, e11b, e12a, e12b⟩ := idx_facts2 t
  refine congrArg (V c main_v1) ?_
  funext a; apply Fin.ext
  match a with
  | ⟨0, _⟩ => show win2_5.index t (0 : Fin 2) * 512 + 1 * (y 0).val = (y 0).val; omega
  | ⟨1, _⟩ => show win2_5.index t (1 : Fin 2) * 384 + 1 * (y 1).val = (y 1).val; omega

/-- Window 6's one block is its whole array. -/
theorem iblk2_6_eq (c : Dev nD) (t : Fin cfg2.N) : iblk2 V c 6 t = V c main_v5 := by
  funext y
  show V c main_v5 (((cfg2.win 6).blk t).view.emb y) = V c main_v5 y
  obtain ⟨e0a, e0b, e1a, e1b, e2a, e2b, e3a, e3b, e4a, e4b, e5a, e5b, e6a, e6b, e7a, e7b, e8a, e8b, e9a, e9b, e10a, e10b, e11a, e11b, e12a, e12b⟩ := idx_facts2 t
  refine congrArg (V c main_v5) ?_
  funext a; apply Fin.ext
  match a with
  | ⟨0, _⟩ => show win2_6.index t (0 : Fin 2) * 1 + 1 * (y 0).val = (y 0).val; omega
  | ⟨1, _⟩ => show win2_6.index t (1 : Fin 2) * 384 + 1 * (y 1).val = (y 1).val; omega

/-- Window 7's one block is its whole array. -/
theorem iblk2_7_eq (c : Dev nD) (t : Fin cfg2.N) : iblk2 V c 7 t = V c main_v2 := by
  funext y
  show V c main_v2 (((cfg2.win 7).blk t).view.emb y) = V c main_v2 y
  obtain ⟨e0a, e0b, e1a, e1b, e2a, e2b, e3a, e3b, e4a, e4b, e5a, e5b, e6a, e6b, e7a, e7b, e8a, e8b, e9a, e9b, e10a, e10b, e11a, e11b, e12a, e12b⟩ := idx_facts2 t
  refine congrArg (V c main_v2) ?_
  funext a; apply Fin.ext
  match a with
  | ⟨0, _⟩ => show win2_7.index t (0 : Fin 2) * 128 + 1 * (y 0).val = (y 0).val; omega
  | ⟨1, _⟩ => show win2_7.index t (1 : Fin 2) * 128 + 1 * (y 1).val = (y 1).val; omega

/-- Window 8's one block is its whole array. -/
theorem iblk2_8_eq (c : Dev nD) (t : Fin cfg2.N) : iblk2 V c 8 t = V c main_v6 := by
  funext y
  show V c main_v6 (((cfg2.win 8).blk t).view.emb y) = V c main_v6 y
  obtain ⟨e0a, e0b, e1a, e1b, e2a, e2b, e3a, e3b, e4a, e4b, e5a, e5b, e6a, e6b, e7a, e7b, e8a, e8b, e9a, e9b, e10a, e10b, e11a, e11b, e12a, e12b⟩ := idx_facts2 t
  refine congrArg (V c main_v6) ?_
  funext a; apply Fin.ext
  match a with
  | ⟨0, _⟩ => show win2_8.index t (0 : Fin 2) * 1 + 1 * (y 0).val = (y 0).val; omega
  | ⟨1, _⟩ => show win2_8.index t (1 : Fin 2) * 128 + 1 * (y 1).val = (y 1).val; omega

/-- Window 9's one block is its whole array. -/
theorem iblk2_9_eq (c : Dev nD) (t : Fin cfg2.N) : iblk2 V c 9 t = V c main_v3 := by
  funext y
  show V c main_v3 (((cfg2.win 9).blk t).view.emb y) = V c main_v3 y
  obtain ⟨e0a, e0b, e1a, e1b, e2a, e2b, e3a, e3b, e4a, e4b, e5a, e5b, e6a, e6b, e7a, e7b, e8a, e8b, e9a, e9b, e10a, e10b, e11a, e11b, e12a, e12b⟩ := idx_facts2 t
  refine congrArg (V c main_v3) ?_
  funext a; apply Fin.ext
  match a with
  | ⟨0, _⟩ => show win2_9.index t (0 : Fin 2) * 512 + 1 * (y 0).val = (y 0).val; omega
  | ⟨1, _⟩ => show win2_9.index t (1 : Fin 2) * 512 + 1 * (y 1).val = (y 1).val; omega

/-- Window 10's one block is its whole array. -/
theorem iblk2_10_eq (c : Dev nD) (t : Fin cfg2.N) : iblk2 V c 10 t = V c main_v7 := by
  funext y
  show V c main_v7 (((cfg2.win 10).blk t).view.emb y) = V c main_v7 y
  obtain ⟨e0a, e0b, e1a, e1b, e2a, e2b, e3a, e3b, e4a, e4b, e5a, e5b, e6a, e6b, e7a, e7b, e8a, e8b, e9a, e9b, e10a, e10b, e11a, e11b, e12a, e12b⟩ := idx_facts2 t
  refine congrArg (V c main_v7) ?_
  funext a; apply Fin.ext
  match a with
  | ⟨0, _⟩ => show win2_10.index t (0 : Fin 2) * 1 + 1 * (y 0).val = (y 0).val; omega
  | ⟨1, _⟩ => show win2_10.index t (1 : Fin 2) * 512 + 1 * (y 1).val = (y 1).val; omega

/-- What point t writes back into output 0 is block t of the cell's array function of the arrays the region is entered with. -/
theorem flushed2_11_eq (c : Dev nD) (t : Fin cfg2.N) :
    (dat2 V c).flushed 11 t = ((cfg2.win 11).blk t).view.read (Elt Ideal) (TreeSpec.cellArrH (N := 4096) (V c main_v16) (V c main_v14) (V c main_v15) (TreeSpec.winParams (V c main_v0) (V c main_v4) (V c main_v1) (V c main_v5) (V c main_v2) (V c main_v6) (V c main_v3) (V c main_v7))) := by
  show (cfg2.win 11).cut (grid2.coords t) ((dat2 V c).after 11 t) = _
  rw [after2_11]
  unfold out2_11
  rw [View.canon_unit_zero TreeSpec.hz2]
  simp only [View.ld_unit_zero (S := S1024x128) TreeSpec.hz2, View.ld_unit_zero (S := S1024x512) TreeSpec.hz2, View.ld_unit_zero (S := S128x384) TreeSpec.hz2, View.ld_unit_zero (S := S1x384) TreeSpec.hz2, View.ld_unit_zero (S := S512x384) TreeSpec.hz2, View.ld_unit_zero (S := S128x128) TreeSpec.hz2, View.ld_unit_zero (S := S1x128) TreeSpec.hz2, View.ld_unit_zero (S := S512x512) TreeSpec.hz2, View.ld_unit_zero (S := S1x512) TreeSpec.hz2]
  rw [iblk2_3_eq V c t, iblk2_4_eq V c t, iblk2_5_eq V c t, iblk2_6_eq V c t, iblk2_7_eq V c t, iblk2_8_eq V c t, iblk2_9_eq V c t, iblk2_10_eq V c t]
  funext j
  obtain ⟨r, q, rfl⟩ : ∃ (r : Fin 1024) (q : Fin 128), j = ix2 r q := ⟨j 0, j 1, eq_ix2 j⟩
  have hemb : ((cfg2.win 11).blk t).view.emb (ix2 r q) = (ix2 ⟨t.val * 1024 + r.val, by have := tlt2 t; omega⟩ q : S4096x128.Idx) := by
    obtain ⟨e0a, e0b, e1a, e1b, e2a, e2b, e3a, e3b, e4a, e4b, e5a, e5b, e6a, e6b, e7a, e7b, e8a, e8b, e9a, e9b, e10a, e10b, e11a, e11b, e12a, e12b⟩ := idx_facts2 t
    funext a; apply Fin.ext
    match a with
    | ⟨0, _⟩ => show win2_11.index t (0 : Fin 2) * 1024 + 1 * r.val = t.val * 1024 + r.val; omega
    | ⟨1, _⟩ => show win2_11.index t (1 : Fin 2) * 128 + 1 * q.val = q.val; omega
  show bodyH2 (F := Ideal) (iblk2 V c 0 t) (iblk2 V c 1 t) (iblk2 V c 2 t) (V c main_v0) (V c main_v4) (V c main_v1) (V c main_v5) (V c main_v2) (V c main_v6) (V c main_v3) (V c main_v7) (ix2 r q) = (TreeSpec.cellArrH (N := 4096) (V c main_v16) (V c main_v14) (V c main_v15) (TreeSpec.winParams (V c main_v0) (V c main_v4) (V c main_v1) (V c main_v5) (V c main_v2) (V c main_v6) (V c main_v3) (V c main_v7))) (((cfg2.win 11).blk t).view.emb (ix2 r q))
  rw [hemb, bodyH2_apply]
  unfold TreeSpec.cellArrH
  simp only [iblk2_0_apply V c t, iblk2_1_apply V c t, iblk2_2_apply V c t] <;> rfl

/-- An index of output 0's array is in point t's block iff each coordinate is in the block's range on its axis. -/
theorem mem_blk2_11 (t : Fin cfg2.N) (i : S4096x128.Idx) :
    i ∈ ((cfg2.win 11).blk t).view.set ↔ ∀ a : Fin 2, win2_11.index t a * S1024x128.size a ≤ (i a).val ∧ (i a).val < win2_11.index t a * S1024x128.size a + S1024x128.size a := by
  show i ∈ ((View.whole main_v17_0).slice (win2_11.rect t)).set ↔ _
  rw [View.set_slice_whole, Rect.mem_set_unit]
  exact Iff.rfl

/-- Every index of output 0's array is in the block of the point its row falls in. -/
theorem covered2_11 (i : S4096x128.Idx) : ∃ t : Fin cfg2.N, (cfg2.win 11).flush t = true ∧ i ∈ ((cfg2.win 11).blk t).view.set := by
  have hi0 : (i 0).val < 4096 := (i 0).isLt
  have hi1 : (i 1).val < 128 := (i 1).isLt
  have ht : (i 0).val / 1024 < cfg2.N := by rw [show cfg2.N = 4 from N_2]; omega
  refine ⟨⟨(i 0).val / 1024, ht⟩, flush2_11 _, ?_⟩
  rw [mem_blk2_11]
  obtain ⟨e0a, e0b, e1a, e1b, e2a, e2b, e3a, e3b, e4a, e4b, e5a, e5b, e6a, e6b, e7a, e7b, e8a, e8b, e9a, e9b, e10a, e10b, e11a, e11b, e12a, e12b⟩ := idx_facts2 ⟨(i 0).val / 1024, ht⟩
  intro a
  match a with
  | ⟨0, _⟩ => show win2_11.index _ (0 : Fin 2) * 1024 ≤ (i 0).val ∧ (i 0).val < win2_11.index _ (0 : Fin 2) * 1024 + 1024; rw [e11a]; show (i 0).val / 1024 * 1024 ≤ (i 0).val ∧ (i 0).val < (i 0).val / 1024 * 1024 + 1024; omega
  | ⟨1, _⟩ => show win2_11.index _ (1 : Fin 2) * 128 ≤ (i 1).val ∧ (i 1).val < win2_11.index _ (1 : Fin 2) * 128 + 128; rw [e11b]; omega

/-- Output 0's array after the region: the cell's array function of the arrays the region is entered with. -/
theorem final2_H (c : Dev nD) : (dat2 V c).arrAt 11 cfg2.N = (TreeSpec.cellArrH (N := 4096) (V c main_v16) (V c main_v14) (V c main_v15) (TreeSpec.winParams (V c main_v0) (V c main_v4) (V c main_v1) (V c main_v5) (V c main_v2) (V c main_v6) (V c main_v3) (V c main_v7))) :=
  (dat2 V c).arrAt_eq_of_cover 11 _ (fun t _ => flushed2_11_eq V c t) (covered2_11)

/-- What point t writes back into output 1 is block t of the cell's array function of the arrays the region is entered with. -/
theorem flushed2_12_eq (c : Dev nD) (t : Fin cfg2.N) :
    (dat2 V c).flushed 12 t = ((cfg2.win 12).blk t).view.read (Elt Ideal) (TreeSpec.cellArrC (N := 4096) (V c main_v16) (V c main_v14) (V c main_v15) (TreeSpec.winParams (V c main_v0) (V c main_v4) (V c main_v1) (V c main_v5) (V c main_v2) (V c main_v6) (V c main_v3) (V c main_v7))) := by
  show (cfg2.win 12).cut (grid2.coords t) ((dat2 V c).after 12 t) = _
  rw [after2_12]
  unfold out2_12
  rw [View.canon_unit_zero TreeSpec.hz2]
  simp only [View.ld_unit_zero (S := S1024x128) TreeSpec.hz2, View.ld_unit_zero (S := S1024x512) TreeSpec.hz2, View.ld_unit_zero (S := S128x384) TreeSpec.hz2, View.ld_unit_zero (S := S1x384) TreeSpec.hz2, View.ld_unit_zero (S := S512x384) TreeSpec.hz2, View.ld_unit_zero (S := S128x128) TreeSpec.hz2, View.ld_unit_zero (S := S1x128) TreeSpec.hz2, View.ld_unit_zero (S := S512x512) TreeSpec.hz2, View.ld_unit_zero (S := S1x512) TreeSpec.hz2]
  rw [iblk2_3_eq V c t, iblk2_4_eq V c t, iblk2_5_eq V c t, iblk2_6_eq V c t, iblk2_7_eq V c t, iblk2_8_eq V c t, iblk2_9_eq V c t, iblk2_10_eq V c t]
  funext j
  obtain ⟨r, q, rfl⟩ : ∃ (r : Fin 1024) (q : Fin 128), j = ix2 r q := ⟨j 0, j 1, eq_ix2 j⟩
  have hemb : ((cfg2.win 12).blk t).view.emb (ix2 r q) = (ix2 ⟨t.val * 1024 + r.val, by have := tlt2 t; omega⟩ q : S4096x128.Idx) := by
    obtain ⟨e0a, e0b, e1a, e1b, e2a, e2b, e3a, e3b, e4a, e4b, e5a, e5b, e6a, e6b, e7a, e7b, e8a, e8b, e9a, e9b, e10a, e10b, e11a, e11b, e12a, e12b⟩ := idx_facts2 t
    funext a; apply Fin.ext
    match a with
    | ⟨0, _⟩ => show win2_12.index t (0 : Fin 2) * 1024 + 1 * r.val = t.val * 1024 + r.val; omega
    | ⟨1, _⟩ => show win2_12.index t (1 : Fin 2) * 128 + 1 * q.val = q.val; omega
  show bodyC2 (F := Ideal) (iblk2 V c 0 t) (iblk2 V c 1 t) (iblk2 V c 2 t) (V c main_v0) (V c main_v4) (V c main_v1) (V c main_v5) (V c main_v2) (V c main_v6) (V c main_v3) (V c main_v7) (ix2 r q) = (TreeSpec.cellArrC (N := 4096) (V c main_v16) (V c main_v14) (V c main_v15) (TreeSpec.winParams (V c main_v0) (V c main_v4) (V c main_v1) (V c main_v5) (V c main_v2) (V c main_v6) (V c main_v3) (V c main_v7))) (((cfg2.win 12).blk t).view.emb (ix2 r q))
  rw [hemb, bodyC2_apply]
  unfold TreeSpec.cellArrC
  simp only [iblk2_0_apply V c t, iblk2_1_apply V c t, iblk2_2_apply V c t] <;> rfl

/-- An index of output 1's array is in point t's block iff each coordinate is in the block's range on its axis. -/
theorem mem_blk2_12 (t : Fin cfg2.N) (i : S4096x128.Idx) :
    i ∈ ((cfg2.win 12).blk t).view.set ↔ ∀ a : Fin 2, win2_12.index t a * S1024x128.size a ≤ (i a).val ∧ (i a).val < win2_12.index t a * S1024x128.size a + S1024x128.size a := by
  show i ∈ ((View.whole main_v17_1).slice (win2_12.rect t)).set ↔ _
  rw [View.set_slice_whole, Rect.mem_set_unit]
  exact Iff.rfl

/-- Every index of output 1's array is in the block of the point its row falls in. -/
theorem covered2_12 (i : S4096x128.Idx) : ∃ t : Fin cfg2.N, (cfg2.win 12).flush t = true ∧ i ∈ ((cfg2.win 12).blk t).view.set := by
  have hi0 : (i 0).val < 4096 := (i 0).isLt
  have hi1 : (i 1).val < 128 := (i 1).isLt
  have ht : (i 0).val / 1024 < cfg2.N := by rw [show cfg2.N = 4 from N_2]; omega
  refine ⟨⟨(i 0).val / 1024, ht⟩, flush2_12 _, ?_⟩
  rw [mem_blk2_12]
  obtain ⟨e0a, e0b, e1a, e1b, e2a, e2b, e3a, e3b, e4a, e4b, e5a, e5b, e6a, e6b, e7a, e7b, e8a, e8b, e9a, e9b, e10a, e10b, e11a, e11b, e12a, e12b⟩ := idx_facts2 ⟨(i 0).val / 1024, ht⟩
  intro a
  match a with
  | ⟨0, _⟩ => show win2_12.index _ (0 : Fin 2) * 1024 ≤ (i 0).val ∧ (i 0).val < win2_12.index _ (0 : Fin 2) * 1024 + 1024; rw [e12a]; show (i 0).val / 1024 * 1024 ≤ (i 0).val ∧ (i 0).val < (i 0).val / 1024 * 1024 + 1024; omega
  | ⟨1, _⟩ => show win2_12.index _ (1 : Fin 2) * 128 ≤ (i 1).val ∧ (i 1).val < win2_12.index _ (1 : Fin 2) * 128 + 128; rw [e12b]; omega

/-- Output 1's array after the region: the cell's array function of the arrays the region is entered with. -/
theorem final2_C (c : Dev nD) : (dat2 V c).arrAt 12 cfg2.N = (TreeSpec.cellArrC (N := 4096) (V c main_v16) (V c main_v14) (V c main_v15) (TreeSpec.winParams (V c main_v0) (V c main_v4) (V c main_v1) (V c main_v5) (V c main_v2) (V c main_v6) (V c main_v3) (V c main_v7))) :=
  (dat2 V c).arrAt_eq_of_cover 12 _ (fun t _ => flushed2_12_eq V c t) (covered2_12)

end Cert.KernelIdeal.Hand

end
-- ==== Proof.KI.Cell3.lean ====
/-
  Region 3 of the kernel (blocks of 1024 nodes) read at an index.  Row r of the region's two output blocks is the cell
  applied to node r: to row r of the node inputs, row r of the children's packed hidden rows and of their packed cell
  rows, with the eight parameter blocks as the region receives them (matrices already transposed, each bias one row).
  Entry (r, j) of the first output block is the specification's new hidden row at j, of the second its new cell row at j.

  The body forms the 384 gate pre-activations as x·W_iouᵀ + b_iou + h·U_iouᵀ + b_uiou in this order — the
  specification's grouping —, cuts them into the gates i, o, u, forms h·U_fᵀ + b_uf and x·W_fᵀ + b_wf, and adds the
  four forget-gate products to σ(i)·tanh(u) from left to right, again as the specification does; so after each
  operation is read at the index the two sides are the same expression.
-/
import proofs.«148344_j70635032150607_1_alg».proof.Proof.KI.Bodies
import proofs.«148344_j70635032150607_1_alg».proof.Proof.KI.CellLemmas
import proofs.«148344_j70635032150607_1_alg».proof.Proof.Spec

noncomputable section

namespace Cert.KernelIdeal.Hand

open Idealize.ShloMosaic Idealize.ShloMosaic.ValueIdx Cert.KernelIdeal Cert.KernelIdeal.Gen

/-- x · W_iouᵀ at (r, j): the sum over k of x(r, k) · W_iouᵀ(k, j), 128 terms. -/
theorem mm3_xW (A : FVec Ideal S1024x128 .bf16) (B : FVec Ideal S128x384 .bf16) (r : Fin 1024) (j : Fin 384) :
    matmul dot_S1024x128_S128x384_S1024x384_1_0_0_1_n_n none A B (constant (F := Ideal) S1024x384 .f32 0x00000000#32) (ix2 r j)
      = ∑ k : Fin 128, A (ix2 r k) * B (ix2 k j) :=
  matmul_plain_apply none A B r j
/-- h · U_iouᵀ at (r, j): 512 terms. -/
theorem mm3_hU (A : FVec Ideal S1024x512 .bf16) (B : FVec Ideal S512x384 .bf16) (r : Fin 1024) (j : Fin 384) :
    matmul dot_S1024x512_S512x384_S1024x384_1_0_0_1_n_n none A B (constant (F := Ideal) S1024x384 .f32 0x00000000#32) (ix2 r j)
      = ∑ k : Fin 512, A (ix2 r k) * B (ix2 k j) :=
  matmul_plain_apply none A B r j
/-- h · U_fᵀ at (r, q): 512 terms. -/
theorem mm3_hUf (A : FVec Ideal S1024x512 .bf16) (B : FVec Ideal S512x512 .bf16) (r : Fin 1024) (q : Fin 512) :
    matmul dot_S1024x512_S512x512_S1024x512_1_0_0_1_n_n none A B (constant (F := Ideal) S1024x512 .f32 0x00000000#32) (ix2 r q)
      = ∑ k : Fin 512, A (ix2 r k) * B (ix2 k q) :=
  matmul_plain_apply none A B r q
/-- x · W_fᵀ at (r, j): 128 terms. -/
theorem mm3_xWf (A : FVec Ideal S1024x128 .bf16) (B : FVec Ideal S128x128 .bf16) (r : Fin 1024) (j : Fin 128) :
    matmul dot_S1024x128_S128x128_S1024x128_1_0_0_1_n_n none A B (constant (F := Ideal) S1024x128 .f32 0x00000000#32) (ix2 r j)
      = ∑ k : Fin 128, A (ix2 r k) * B (ix2 k j) :=
  matmul_plain_apply none A B r j

/-- The gate pre-activations of node r at column j. -/
theorem iou3_apply (x0 : Vec Ideal S1024x128 .f32) (x1 x2 : Vec Ideal S1024x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 1024) (j : Fin 384) :
    k3_pay10 (F := Ideal) x0 x1 x3 x5 x4 x6 (ix2 r j)
      = Cert.TreeSpec.iou (Cert.TreeSpec.winParams x3 x4 x5 x6 x7 x8 x9 x10) (fun k => x0 (ix2 r k)) (fun q => x1 (ix2 r q)) j := by
  unfold k3_pay10 k3_pay3 k3_pay5
  simp only [addf_apply, mm3_xW, mm3_hU, bcast_row_apply, truncf_apply, shapeCast_self]
  rfl

/-- The new cell row of node r at column j, as the body passes it on to the hidden row's formula. -/
theorem cell3_apply (x0 : Vec Ideal S1024x128 .f32) (x1 x2 : Vec Ideal S1024x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 1024) (j : Fin 128) :
    k3_pay1 (F := Ideal) (k3_pay3 x0) (k3_pay4 x2) (k3_pay5 x1) (k3_pay6 x7) (k3_pay7 x9) (k3_pay8 x8) (k3_pay9 x10) (k3_pay10 x0 x1 x3 x5 x4 x6) (ix2 r j)
      = Cert.TreeSpec.cNew (Cert.TreeSpec.winParams x3 x4 x5 x6 x7 x8 x9 x10) (fun k => x0 (ix2 r k)) (fun q => x1 (ix2 r q)) (fun q => x2 (ix2 r q)) j := by
  unfold k3_pay1 k3_pay3 k3_pay4 k3_pay5 k3_pay6 k3_pay7 k3_pay8 k3_pay9
  simp only [addf_apply, mulf_apply, logistic_apply, tanh_apply, slice_cols_apply, mm3_hUf, mm3_xWf, bcast_row_apply,
    truncf_apply, shapeCast_self, iou3_apply x0 x1 x2 x3 x4 x5 x6 x7 x8 x9 x10]
  rfl

/-- The second output block: the new cell rows. -/
theorem bodyC3_apply (x0 : Vec Ideal S1024x128 .f32) (x1 x2 : Vec Ideal S1024x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 1024) (j : Fin 128) :
    bodyC3 (F := Ideal) x0 x1 x2 x3 x4 x5 x6 x7 x8 x9 x10 (ix2 r j)
      = Cert.TreeSpec.cNew (Cert.TreeSpec.winParams x3 x4 x5 x6 x7 x8 x9 x10) (fun k => x0 (ix2 r k)) (fun q => x1 (ix2 r q)) (fun q => x2 (ix2 r q)) j :=
  cell3_apply x0 x1 x2 x3 x4 x5 x6 x7 x8 x9 x10 r j

/-- The first output block: the new hidden rows, σ(o)·tanh of the new cell row. -/
theorem bodyH3_apply (x0 : Vec Ideal S1024x128 .f32) (x1 x2 : Vec Ideal S1024x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 1024) (j : Fin 128) :
    bodyH3 (F := Ideal) x0 x1 x2 x3 x4 x5 x6 x7 x8 x9 x10 (ix2 r j)
      = Cert.TreeSpec.hNew (Cert.TreeSpec.winParams x3 x4 x5 x6 x7 x8 x9 x10) (fun k => x0 (ix2 r k)) (fun q => x1 (ix2 r q)) (fun q => x2 (ix2 r q)) j := by
  unfold bodyH3 k3_pay2
  simp only [mulf_apply, logistic_apply, tanh_apply, slice_cols_apply, cell3_apply x0 x1 x2 x3 x4 x5 x6 x7 x8 x9 x10, iou3_apply x0 x1 x2 x3 x4 x5 x6 x7 x8 x9 x10]
  rfl

end Cert.KernelIdeal.Hand

end
-- ==== Proof.KI.Val3.lean ====
/-
  What region 3 leaves in its two output arrays, at the ideal instance, as ONE function of the arrays it is entered with: the cell
  (Proof/Spec.lean) at every row.  Grid point t's blocks are rows t·1024 … t·1024+1023 of the row arrays and the whole of each parameter
  array (the index maps, decided over the grid); what point t writes back is block t of that function (the body's arithmetic at an
  index is the cell's: Proof/KI/Cell3.lean); the 1 blocks cover the output arrays.
-/
import proofs.«148344_j70635032150607_1_alg».proof.Proof.KI.Region3
import proofs.«148344_j70635032150607_1_alg».proof.Proof.KI.Cell3
import proofs.«148344_j70635032150607_1_alg».proof.Proof.CellArr
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert

variable (V : (c : Dev nD) → (b : Ref sig .tc) → Buf (Elt Ideal) ((c : Thread nD τ).loc b))

/-- The printed index maps, decided over the grid. -/
theorem idx_facts3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 2) = 0
    ∧ win3_9.index t (1 : Fin 2) = 0
    ∧ win3_10.index t (0 : Fin 2) = 0
    ∧ win3_10.index t (1 : Fin 2) = 0
    ∧ win3_11.index t (0 : Fin 2) = t.val
    ∧ win3_11.index t (1 : Fin 2) = 0
    ∧ win3_12.index t (0 : Fin 2) = t.val
    ∧ win3_12.index t (1 : Fin 2) = 0 :=
  (by decide +kernel : ∀ t : Fin grid3.N, _)

theorem tlt3 (t : Fin cfg3.N) : t.val < 1 := lt_of_lt_of_eq t.isLt N_3

/-- Window 0's block at point t is rows t·1024 … of its array. -/
theorem iblk3_0_apply (c : Dev nD) (t : Fin cfg3.N) (r : Fin 1024) (k : Fin 128) :
    iblk3 V c 0 t (ix2 r k) = V c main_v20 (ix2 ⟨t.val * 1024 + r.val, by have := tlt3 t; omega⟩ k) := by
  show V c main_v20 (((cfg3.win 0).blk t).view.emb (ix2 r k)) = _
  obtain ⟨e0a, e0b, e1a, e1b, e2a, e2b, e3a, e3b, e4a, e4b, e5a, e5b, e6a, e6b, e7a, e7b, e8a, e8b, e9a, e9b, e10a, e10b, e11a, e11b, e12a, e12b⟩ := idx_facts3 t
  refine congrArg (V c main_v20) ?_
  funext a; apply Fin.ext
  match a with
  | ⟨0, _⟩ => show win3_0.index t (0 : Fin 2) * 1024 + 1 * r.val = t.val * 1024 + r.val; omega
  | ⟨1, _⟩ => show win3_0.index t (1 : Fin 2) * 128 + 1 * k.val = k.val; omega

/-- Window 1's block at point t is rows t·1024 … of its array. -/
theorem iblk3_1_apply (c : Dev nD) (t : Fin cfg3.N) (r : Fin 1024) (k : Fin 512) :
    iblk3 V c 1 t (ix2 r k) = V c main_v18 (ix2 ⟨t.val * 1024 + r.val, by have := tlt3 t; omega⟩ k) := by
  show V c main_v18 (((cfg3.win 1).blk t).view.emb (ix2 r k)) = _
  obtain ⟨e0a, e0b, e1a, e1b, e2a, e2b, e3a, e3b, e4a, e4b, e5a, e5b, e6a, e6b, e7a, e7b, e8a, e8b, e9a, e9b, e10a, e10b, e11a, e11b, e12a, e12b⟩ := idx_facts3 t
  refine congrArg (V c main_v18) ?_
  funext a; apply Fin.ext
  match a with
  | ⟨0, _⟩ => show win3_1.index t (0 : Fin 2) * 1024 + 1 * r.val = t.val * 1024 + r.val; omega
  | ⟨1, _⟩ => show win3_1.index t (1 : Fin 2) * 512 + 1 * k.val = k.val; omega

/-- Window 2's block at point t is rows t·1024 … of its array. -/
theorem iblk3_2_apply (c : Dev nD) (t : Fin cfg3.N) (r : Fin 1024) (k : Fin 512) :
    iblk3 V c 2 t (ix2 r k) = V c main_v19 (ix2 ⟨t.val * 1024 + r.val, by have := tlt3 t; omega⟩ k) := by
  show V c main_v19 (((cfg3.win 2).blk t).view.emb (ix2 r k)) = _
  obtain ⟨e0a, e0b, e1a, e1b, e2a, e2b, e3a, e3b, e4a, e4b, e5a, e5b, e6a, e6b, e7a, e7b, e8a, e8b, e9a, e9b, e10a, e10b, e11a, e11b, e12a, e12b⟩ := idx_facts3 t
  refine congrArg (V c main_v19) ?_
  funext a; apply Fin.ext
  match a with
  | ⟨0, _⟩ => show win3_2.index t (0 : Fin 2) * 1024 + 1 * r.val = t.val * 1024 + r.val; omega
  | ⟨1, _⟩ => show win3_2.index t (1 : Fin 2) * 512 + 1 * k.val = k.val; omega

/-- Window 3's one block is its whole array. -/
theorem iblk3_3_eq (c : Dev nD) (t : Fin cfg3.N) : iblk3 V c 3 t = V c main_v0 := by
  funext y
  show V c main_v0 (((cfg3.win 3).blk t).view.emb y) = V c main_v0 y
  obtain ⟨e0a, e0b, e1a, e1b, e2a, e2b, e3a, e3b, e4a, e4b, e5a, e5b, e6a, e6b, e7a, e7b, e8a, e8b, e9a, e9b, e10a, e10b, e11a, e11b, e12a, e12b⟩ := idx_facts3 t
  refine congrArg (V c main_v0) ?_
  funext a; apply Fin.ext
  match a with
  | ⟨0, _⟩ => show win3_3.index t (0 : Fin 2) * 128 + 1 * (y 0).val = (y 0).val; omega
  | ⟨1, _⟩ => show win3_3.index t (1 : Fin 2) * 384 + 1 * (y 1).val = (y 1).val; omega

/-- Window 4's one block is its whole array. -/
theorem iblk3_4_eq (c : Dev nD) (t : Fin cfg3.N) : iblk3 V c 4 t = V c main_v4 := by
  funext y
  show V c main_v4 (((cfg3.win 4).blk t).view.emb y) = V c main_v4 y
  obtain ⟨e0a, e0b, e1a, e1b, e2a, e2b, e3a, e3b, e4a, e4b, e5a, e5b, e6a, e6b, e7a, e7b, e8a, e8b, e9a, e9b, e10a, e10b, e11a, e11b, e12a, e12b⟩ := idx_facts3 t
  refine congrArg (V c main_v4) ?_
  funext a; apply Fin.ext
  match a with
  | ⟨0, _⟩ => show win3_4.index t (0 : Fin 2) * 1 + 1 * (y 0).val = (y 0).val; omega
  | ⟨1, _⟩ => show win3_4.index t (1 : Fin 2) * 384 + 1 * (y 1).val = (y 1).val; omega

/-- Window 5's one block is its whole array. -/
theorem iblk3_5_eq (c : Dev nD) (t : Fin cfg3.N) : iblk3 V c 5 t = V c main_v1 := by
  funext y
  show V c main_v1 (((cfg3.win 5).blk t).view.emb y) = V c main_v1 y
  obtain ⟨e0a, e0b, e1a, e1b, e2a, e2b, e3a, e3b, e4a, e4b, e5a, e5b, e6a, e6b, e7a, e7b, e8a, e8b, e9a, e9b, e10a, e10b, e11a, e11b, e12a, e12b⟩ := idx_facts3 t
  refine congrArg (V c main_v1) ?_
  funext a; apply Fin.ext
  match a with
  | ⟨0, _⟩ => show win3_5.index t (0 : Fin 2) * 512 + 1 * (y 0).val = (y 0).val; omega
  | ⟨1, _⟩ => show win3_5.index t (1 : Fin 2) * 384 + 1 * (y 1).val = (y 1).val; omega

/-- Window 6's one block is its whole array. -/
theorem iblk3_6_eq (c : Dev nD) (t : Fin cfg3.N) : iblk3 V c 6 t = V c main_v5 := by
  funext y
  show V c main_v5 (((cfg3.win 6).blk t).view.emb y) = V c main_v5 y
  obtain ⟨e0a, e0b, e1a, e1b, e2a, e2b, e3a, e3b, e4a, e4b, e5a, e5b, e6a, e6b, e7a, e7b, e8a, e8b, e9a, e9b, e10a, e10b, e11a, e11b, e12a, e12b⟩ := idx_facts3 t
  refine congrArg (V c main_v5) ?_
  funext a; apply Fin.ext
  match a with
  | ⟨0, _⟩ => show win3_6.index t (0 : Fin 2) * 1 + 1 * (y 0).val = (y 0).val; omega
  | ⟨1, _⟩ => show win3_6.index t (1 : Fin 2) * 384 + 1 * (y 1).val = (y 1).val; omega

/-- Window 7's one block is its whole array. -/
theorem iblk3_7_eq (c : Dev nD) (t : Fin cfg3.N) : iblk3 V c 7 t = V c main_v2 := by
  funext y
  show V c main_v2 (((cfg3.win 7).blk t).view.emb y) = V c main_v2 y
  obtain ⟨e0a, e0b, e1a, e1b, e2a, e2b, e3a, e3b, e4a, e4b, e5a, e5b, e6a, e6b, e7a, e7b, e8a, e8b, e9a, e9b, e10a, e10b, e11a, e11b, e12a, e12b⟩ := idx_facts3 t
  refine congrArg (V c main_v2) ?_
  funext a; apply Fin.ext
  match a with
  | ⟨0, _⟩ => show win3_7.index t (0 : Fin 2) * 128 + 1 * (y 0).val = (y 0).val; omega
  | ⟨1, _⟩ => show win3_7.index t (1 : Fin 2) * 128 + 1 * (y 1).val = (y 1).val; omega

/-- Window 8's one block is its whole array. -/
theorem iblk3_8_eq (c : Dev nD) (t : Fin cfg3.N) : iblk3 V c 8 t = V c main_v6 := by
  funext y
  show V c main_v6 (((cfg3.win 8).blk t).view.emb y) = V c main_v6 y
  obtain ⟨e0a, e0b, e1a, e1b, e2a, e2b, e3a, e3b, e4a, e4b, e5a, e5b, e6a, e6b, e7a, e7b, e8a, e8b, e9a, e9b, e10a, e10b, e11a, e11b, e12a, e12b⟩ := idx_facts3 t
  refine congrArg (V c main_v6) ?_
  funext a; apply Fin.ext
  match a with
  | ⟨0, _⟩ => show win3_8.index t (0 : Fin 2) * 1 + 1 * (y 0).val = (y 0).val; omega
  | ⟨1, _⟩ => show win3_8.index t (1 : Fin 2) * 128 + 1 * (y 1).val = (y 1).val; omega

/-- Window 9's one block is its whole array. -/
theorem iblk3_9_eq (c : Dev nD) (t : Fin cfg3.N) : iblk3 V c 9 t = V c main_v3 := by
  funext y
  show V c main_v3 (((cfg3.win 9).blk t).view.emb y) = V c main_v3 y
  obtain ⟨e0a, e0b, e1a, e1b, e2a, e2b, e3a, e3b, e4a, e4b, e5a, e5b, e6a, e6b, e7a, e7b, e8a, e8b, e9a, e9b, e10a, e10b, e11a, e11b, e12a, e12b⟩ := idx_facts3 t
  refine congrArg (V c main_v3) ?_
  funext a; apply Fin.ext
  match a with
  | ⟨0, _⟩ => show win3_9.index t (0 : Fin 2) * 512 + 1 * (y 0).val = (y 0).val; omega
  | ⟨1, _⟩ => show win3_9.index t (1 : Fin 2) * 512 + 1 * (y 1).val = (y 1).val; omega

/-- Window 10's one block is its whole array. -/
theorem iblk3_10_eq (c : Dev nD) (t : Fin cfg3.N) : iblk3 V c 10 t = V c main_v7 := by
  funext y
  show V c main_v7 (((cfg3.win 10).blk t).view.emb y) = V c main_v7 y
  obtain ⟨e0a, e0b, e1a, e1b, e2a, e2b, e3a, e3b, e4a, e4b, e5a, e5b, e6a, e6b, e7a, e7b, e8a, e8b, e9a, e9b, e10a, e10b, e11a, e11b, e12a, e12b⟩ := idx_facts3 t
  refine congrArg (V c main_v7) ?_
  funext a; apply Fin.ext
  match a with
  | ⟨0, _⟩ => show win3_10.index t (0 : Fin 2) * 1 + 1 * (y 0).val = (y 0).val; omega
  | ⟨1, _⟩ => show win3_10.index t (1 : Fin 2) * 512 + 1 * (y 1).val = (y 1).val; omega

/-- What point t writes back into output 0 is block t of the cell's array function of the arrays the region is entered with. -/
theorem flushed3_11_eq (c : Dev nD) (t : Fin cfg3.N) :
    (dat3 V c).flushed 11 t = ((cfg3.win 11).blk t).view.read (Elt Ideal) (TreeSpec.cellArrH (N := 1024) (V c main_v20) (V c main_v18) (V c main_v19) (TreeSpec.winParams (V c main_v0) (V c main_v4) (V c main_v1) (V c main_v5) (V c main_v2) (V c main_v6) (V c main_v3) (V c main_v7))) := by
  show (cfg3.win 11).cut (grid3.coords t) ((dat3 V c).after 11 t) = _
  rw [after3_11]
  unfold out3_11
  rw [View.canon_unit_zero TreeSpec.hz2]
  simp only [View.ld_unit_zero (S := S1024x128) TreeSpec.hz2, View.ld_unit_zero (S := S1024x512) TreeSpec.hz2, View.ld_unit_zero (S := S128x384) TreeSpec.hz2, View.ld_unit_zero (S := S1x384) TreeSpec.hz2, View.ld_unit_zero (S := S512x384) TreeSpec.hz2, View.ld_unit_zero (S := S128x128) TreeSpec.hz2, View.ld_unit_zero (S := S1x128) TreeSpec.hz2, View.ld_unit_zero (S := S512x512) TreeSpec.hz2, View.ld_unit_zero (S := S1x512) TreeSpec.hz2]
  rw [iblk3_3_eq V c t, iblk3_4_eq V c t, iblk3_5_eq V c t, iblk3_6_eq V c t, iblk3_7_eq V c t, iblk3_8_eq V c t, iblk3_9_eq V c t, iblk3_10_eq V c t]
  funext j
  obtain ⟨r, q, rfl⟩ : ∃ (r : Fin 1024) (q : Fin 128), j = ix2 r q := ⟨j 0, j 1, eq_ix2 j⟩
  have hemb : ((cfg3.win 11).blk t).view.emb (ix2 r q) = (ix2 ⟨t.val * 1024 + r.val, by have := tlt3 t; omega⟩ q : S1024x128.Idx) := by
    obtain ⟨e0a, e0b, e1a, e1b, e2a, e2b, e3a, e3b, e4a, e4b, e5a, e5b, e6a, e6b, e7a, e7b, e8a, e8b, e9a, e9b, e10a, e10b, e11a, e11b, e12a, e12b⟩ := idx_facts3 t
    funext a; apply Fin.ext
    match a with
    | ⟨0, _⟩ => show win3_11.index t (0 : Fin 2) * 1024 + 1 * r.val = t.val * 1024 + r.val; omega
    | ⟨1, _⟩ => show win3_11.index t (1 : Fin 2) * 128 + 1 * q.val = q.val; omega
  show bodyH3 (F := Ideal) (iblk3 V c 0 t) (iblk3 V c 1 t) (iblk3 V c 2 t) (V c main_v0) (V c main_v4) (V c main_v1) (V c main_v5) (V c main_v2) (V c main_v6) (V c main_v3) (V c main_v7) (ix2 r q) = (TreeSpec.cellArrH (N := 1024) (V c main_v20) (V c main_v18) (V c main_v19) (TreeSpec.winParams (V c main_v0) (V c main_v4) (V c main_v1) (V c main_v5) (V c main_v2) (V c main_v6) (V c main_v3) (V c main_v7))) (((cfg3.win 11).blk t).view.emb (ix2 r q))
  rw [hemb, bodyH3_apply]
  unfold TreeSpec.cellArrH
  simp only [iblk3_0_apply V c t, iblk3_1_apply V c t, iblk3_2_apply V c t] <;> rfl

/-- An index of output 0's array is in point t's block iff each coordinate is in the block's range on its axis. -/
theorem mem_blk3_11 (t : Fin cfg3.N) (i : S1024x128.Idx) :
    i ∈ ((cfg3.win 11).blk t).view.set ↔ ∀ a : Fin 2, win3_11.index t a * S1024x128.size a ≤ (i a).val ∧ (i a).val < win3_11.index t a * S1024x128.size a + S1024x128.size a := by
  show i ∈ ((View.whole main_v21_0).slice (win3_11.rect t)).set ↔ _
  rw [View.set_slice_whole, Rect.mem_set_unit]
  exact Iff.rfl

/-- Every index of output 0's array is in the block of the point its row falls in. -/
theorem covered3_11 (i : S1024x128.Idx) : ∃ t : Fin cfg3.N, (cfg3.win 11).flush t = true ∧ i ∈ ((cfg3.win 11).blk t).view.set := by
  have hi0 : (i 0).val < 1024 := (i 0).isLt
  have hi1 : (i 1).val < 128 := (i 1).isLt
  have ht : (i 0).val / 1024 < cfg3.N := by rw [show cfg3.N = 1 from N_3]; omega
  refine ⟨⟨(i 0).val / 1024, ht⟩, flush3_11 _, ?_⟩
  rw [mem_blk3_11]
  obtain ⟨e0a, e0b, e1a, e1b, e2a, e2b, e3a, e3b, e4a, e4b, e5a, e5b, e6a, e6b, e7a, e7b, e8a, e8b, e9a, e9b, e10a, e10b, e11a, e11b, e12a, e12b⟩ := idx_facts3 ⟨(i 0).val / 1024, ht⟩
  intro a
  match a with
  | ⟨0, _⟩ => show win3_11.index _ (0 : Fin 2) * 1024 ≤ (i 0).val ∧ (i 0).val < win3_11.index _ (0 : Fin 2) * 1024 + 1024; rw [e11a]; show (i 0).val / 1024 * 1024 ≤ (i 0).val ∧ (i 0).val < (i 0).val / 1024 * 1024 + 1024; omega
  | ⟨1, _⟩ => show win3_11.index _ (1 : Fin 2) * 128 ≤ (i 1).val ∧ (i 1).val < win3_11.index _ (1 : Fin 2) * 128 + 128; rw [e11b]; omega

/-- Output 0's array after the region: the cell's array function of the arrays the region is entered with. -/
theorem final3_H (c : Dev nD) : (dat3 V c).arrAt 11 cfg3.N = (TreeSpec.cellArrH (N := 1024) (V c main_v20) (V c main_v18) (V c main_v19) (TreeSpec.winParams (V c main_v0) (V c main_v4) (V c main_v1) (V c main_v5) (V c main_v2) (V c main_v6) (V c main_v3) (V c main_v7))) :=
  (dat3 V c).arrAt_eq_of_cover 11 _ (fun t _ => flushed3_11_eq V c t) (covered3_11)

/-- What point t writes back into output 1 is block t of the cell's array function of the arrays the region is entered with. -/
theorem flushed3_12_eq (c : Dev nD) (t : Fin cfg3.N) :
    (dat3 V c).flushed 12 t = ((cfg3.win 12).blk t).view.read (Elt Ideal) (TreeSpec.cellArrC (N := 1024) (V c main_v20) (V c main_v18) (V c main_v19) (TreeSpec.winParams (V c main_v0) (V c main_v4) (V c main_v1) (V c main_v5) (V c main_v2) (V c main_v6) (V c main_v3) (V c main_v7))) := by
  show (cfg3.win 12).cut (grid3.coords t) ((dat3 V c).after 12 t) = _
  rw [after3_12]
  unfold out3_12
  rw [View.canon_unit_zero TreeSpec.hz2]
  simp only [View.ld_unit_zero (S := S1024x128) TreeSpec.hz2, View.ld_unit_zero (S := S1024x512) TreeSpec.hz2, View.ld_unit_zero (S := S128x384) TreeSpec.hz2, View.ld_unit_zero (S := S1x384) TreeSpec.hz2, View.ld_unit_zero (S := S512x384) TreeSpec.hz2, View.ld_unit_zero (S := S128x128) TreeSpec.hz2, View.ld_unit_zero (S := S1x128) TreeSpec.hz2, View.ld_unit_zero (S := S512x512) TreeSpec.hz2, View.ld_unit_zero (S := S1x512) TreeSpec.hz2]
  rw [iblk3_3_eq V c t, iblk3_4_eq V c t, iblk3_5_eq V c t, iblk3_6_eq V c t, iblk3_7_eq V c t, iblk3_8_eq V c t, iblk3_9_eq V c t, iblk3_10_eq V c t]
  funext j
  obtain ⟨r, q, rfl⟩ : ∃ (r : Fin 1024) (q : Fin 128), j = ix2 r q := ⟨j 0, j 1, eq_ix2 j⟩
  have hemb : ((cfg3.win 12).blk t).view.emb (ix2 r q) = (ix2 ⟨t.val * 1024 + r.val, by have := tlt3 t; omega⟩ q : S1024x128.Idx) := by
    obtain ⟨e0a, e0b, e1a, e1b, e2a, e2b, e3a, e3b, e4a, e4b, e5a, e5b, e6a, e6b, e7a, e7b, e8a, e8b, e9a, e9b, e10a, e10b, e11a, e11b, e12a, e12b⟩ := idx_facts3 t
    funext a; apply Fin.ext
    match a with
    | ⟨0, _⟩ => show win3_12.index t (0 : Fin 2) * 1024 + 1 * r.val = t.val * 1024 + r.val; omega
    | ⟨1, _⟩ => show win3_12.index t (1 : Fin 2) * 128 + 1 * q.val = q.val; omega
  show bodyC3 (F := Ideal) (iblk3 V c 0 t) (iblk3 V c 1 t) (iblk3 V c 2 t) (V c main_v0) (V c main_v4) (V c main_v1) (V c main_v5) (V c main_v2) (V c main_v6) (V c main_v3) (V c main_v7) (ix2 r q) = (TreeSpec.cellArrC (N := 1024) (V c main_v20) (V c main_v18) (V c main_v19) (TreeSpec.winParams (V c main_v0) (V c main_v4) (V c main_v1) (V c main_v5) (V c main_v2) (V c main_v6) (V c main_v3) (V c main_v7))) (((cfg3.win 12).blk t).view.emb (ix2 r q))
  rw [hemb, bodyC3_apply]
  unfold TreeSpec.cellArrC
  simp only [iblk3_0_apply V c t, iblk3_1_apply V c t, iblk3_2_apply V c t] <;> rfl

/-- An index of output 1's array is in point t's block iff each coordinate is in the block's range on its axis. -/
theorem mem_blk3_12 (t : Fin cfg3.N) (i : S1024x128.Idx) :
    i ∈ ((cfg3.win 12).blk t).view.set ↔ ∀ a : Fin 2, win3_12.index t a * S1024x128.size a ≤ (i a).val ∧ (i a).val < win3_12.index t a * S1024x128.size a + S1024x128.size a := by
  show i ∈ ((View.whole main_v21_1).slice (win3_12.rect t)).set ↔ _
  rw [View.set_slice_whole, Rect.mem_set_unit]
  exact Iff.rfl

/-- Every index of output 1's array is in the block of the point its row falls in. -/
theorem covered3_12 (i : S1024x128.Idx) : ∃ t : Fin cfg3.N, (cfg3.win 12).flush t = true ∧ i ∈ ((cfg3.win 12).blk t).view.set := by
  have hi0 : (i 0).val < 1024 := (i 0).isLt
  have hi1 : (i 1).val < 128 := (i 1).isLt
  have ht : (i 0).val / 1024 < cfg3.N := by rw [show cfg3.N = 1 from N_3]; omega
  refine ⟨⟨(i 0).val / 1024, ht⟩, flush3_12 _, ?_⟩
  rw [mem_blk3_12]
  obtain ⟨e0a, e0b, e1a, e1b, e2a, e2b, e3a, e3b, e4a, e4b, e5a, e5b, e6a, e6b, e7a, e7b, e8a, e8b, e9a, e9b, e10a, e10b, e11a, e11b, e12a, e12b⟩ := idx_facts3 ⟨(i 0).val / 1024, ht⟩
  intro a
  match a with
  | ⟨0, _⟩ => show win3_12.index _ (0 : Fin 2) * 1024 ≤ (i 0).val ∧ (i 0).val < win3_12.index _ (0 : Fin 2) * 1024 + 1024; rw [e12a]; show (i 0).val / 1024 * 1024 ≤ (i 0).val ∧ (i 0).val < (i 0).val / 1024 * 1024 + 1024; omega
  | ⟨1, _⟩ => show win3_12.index _ (1 : Fin 2) * 128 ≤ (i 1).val ∧ (i 1).val < win3_12.index _ (1 : Fin 2) * 128 + 128; rw [e12b]; omega

/-- Output 1's array after the region: the cell's array function of the arrays the region is entered with. -/
theorem final3_C (c : Dev nD) : (dat3 V c).arrAt 12 cfg3.N = (TreeSpec.cellArrC (N := 1024) (V c main_v20) (V c main_v18) (V c main_v19) (TreeSpec.winParams (V c main_v0) (V c main_v4) (V c main_v1) (V c main_v5) (V c main_v2) (V c main_v6) (V c main_v3) (V c main_v7))) :=
  (dat3 V c).arrAt_eq_of_cover 12 _ (fun t _ => flushed3_12_eq V c t) (covered3_12)

end Cert.KernelIdeal.Hand

end
-- ==== Proof.KI.Cell4.lean ====
/-
  Region 4 of the kernel (blocks of 256 nodes) read at an index.  Row r of the region's two output blocks is the cell
  applied to node r: to row r of the node inputs, row r of the children's packed hidden rows and of their packed cell
  rows, with the eight parameter blocks as the region receives them (matrices already transposed, each bias one row).
  Entry (r, j) of the first output block is the specification's new hidden row at j, of the second its new cell row at j.

  The body forms the 384 gate pre-activations as x·W_iouᵀ + b_iou + h·U_iouᵀ + b_uiou in this order — the
  specification's grouping —, cuts them into the gates i, o, u, forms h·U_fᵀ + b_uf and x·W_fᵀ + b_wf, and adds the
  four forget-gate products to σ(i)·tanh(u) from left to right, again as the specification does; so after each
  operation is read at the index the two sides are the same expression.
-/
import proofs.«148344_j70635032150607_1_alg».proof.Proof.KI.Bodies
import proofs.«148344_j70635032150607_1_alg».proof.Proof.KI.CellLemmas
import proofs.«148344_j70635032150607_1_alg».proof.Proof.Spec

noncomputable section

namespace Cert.KernelIdeal.Hand

open Idealize.ShloMosaic Idealize.ShloMosaic.ValueIdx Cert.KernelIdeal Cert.KernelIdeal.Gen

/-- x · W_iouᵀ at (r, j): the sum over k of x(r, k) · W_iouᵀ(k, j), 128 terms. -/
theorem mm4_xW (A : FVec Ideal S256x128 .bf16) (B : FVec Ideal S128x384 .bf16) (r : Fin 256) (j : Fin 384) :
    matmul dot_S256x128_S128x384_S256x384_1_0_0_1_n_n none A B (constant (F := Ideal) S256x384 .f32 0x00000000#32) (ix2 r j)
      = ∑ k : Fin 128, A (ix2 r k) * B (ix2 k j) :=
  matmul_plain_apply none A B r j
/-- h · U_iouᵀ at (r, j): 512 terms. -/
theorem mm4_hU (A : FVec Ideal S256x512 .bf16) (B : FVec Ideal S512x384 .bf16) (r : Fin 256) (j : Fin 384) :
    matmul dot_S256x512_S512x384_S256x384_1_0_0_1_n_n none A B (constant (F := Ideal) S256x384 .f32 0x00000000#32) (ix2 r j)
      = ∑ k : Fin 512, A (ix2 r k) * B (ix2 k j) :=
  matmul_plain_apply none A B r j
/-- h · U_fᵀ at (r, q): 512 terms. -/
theorem mm4_hUf (A : FVec Ideal S256x512 .bf16) (B : FVec Ideal S512x512 .bf16) (r : Fin 256) (q : Fin 512) :
    matmul dot_S256x512_S512x512_S256x512_1_0_0_1_n_n none A B (constant (F := Ideal) S256x512 .f32 0x00000000#32) (ix2 r q)
      = ∑ k : Fin 512, A (ix2 r k) * B (ix2 k q) :=
  matmul_plain_apply none A B r q
/-- x · W_fᵀ at (r, j): 128 terms. -/
theorem mm4_xWf (A : FVec Ideal S256x128 .bf16) (B : FVec Ideal S128x128 .bf16) (r : Fin 256) (j : Fin 128) :
    matmul dot_S256x128_S128x128_S256x128_1_0_0_1_n_n none A B (constant (F := Ideal) S256x128 .f32 0x00000000#32) (ix2 r j)
      = ∑ k : Fin 128, A (ix2 r k) * B (ix2 k j) :=
  matmul_plain_apply none A B r j

/-- The gate pre-activations of node r at column j. -/
theorem iou4_apply (x0 : Vec Ideal S256x128 .f32) (x1 x2 : Vec Ideal S256x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 256) (j : Fin 384) :
    k4_pay10 (F := Ideal) x0 x1 x3 x5 x4 x6 (ix2 r j)
      = Cert.TreeSpec.iou (Cert.TreeSpec.winParams x3 x4 x5 x6 x7 x8 x9 x10) (fun k => x0 (ix2 r k)) (fun q => x1 (ix2 r q)) j := by
  unfold k4_pay10 k4_pay3 k4_pay5
  simp only [addf_apply, mm4_xW, mm4_hU, bcast_row_apply, truncf_apply, shapeCast_self]
  rfl

/-- The new cell row of node r at column j, as the body passes it on to the hidden row's formula. -/
theorem cell4_apply (x0 : Vec Ideal S256x128 .f32) (x1 x2 : Vec Ideal S256x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 256) (j : Fin 128) :
    k4_pay1 (F := Ideal) (k4_pay3 x0) (k4_pay4 x2) (k4_pay5 x1) (k4_pay6 x7) (k4_pay7 x9) (k4_pay8 x8) (k4_pay9 x10) (k4_pay10 x0 x1 x3 x5 x4 x6) (ix2 r j)
      = Cert.TreeSpec.cNew (Cert.TreeSpec.winParams x3 x4 x5 x6 x7 x8 x9 x10) (fun k => x0 (ix2 r k)) (fun q => x1 (ix2 r q)) (fun q => x2 (ix2 r q)) j := by
  unfold k4_pay1 k4_pay3 k4_pay4 k4_pay5 k4_pay6 k4_pay7 k4_pay8 k4_pay9
  simp only [addf_apply, mulf_apply, logistic_apply, tanh_apply, slice_cols_apply, mm4_hUf, mm4_xWf, bcast_row_apply,
    truncf_apply, shapeCast_self, iou4_apply x0 x1 x2 x3 x4 x5 x6 x7 x8 x9 x10]
  rfl

/-- The second output block: the new cell rows. -/
theorem bodyC4_apply (x0 : Vec Ideal S256x128 .f32) (x1 x2 : Vec Ideal S256x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 256) (j : Fin 128) :
    bodyC4 (F := Ideal) x0 x1 x2 x3 x4 x5 x6 x7 x8 x9 x10 (ix2 r j)
      = Cert.TreeSpec.cNew (Cert.TreeSpec.winParams x3 x4 x5 x6 x7 x8 x9 x10) (fun k => x0 (ix2 r k)) (fun q => x1 (ix2 r q)) (fun q => x2 (ix2 r q)) j :=
  cell4_apply x0 x1 x2 x3 x4 x5 x6 x7 x8 x9 x10 r j

/-- The first output block: the new hidden rows, σ(o)·tanh of the new cell row. -/
theorem bodyH4_apply (x0 : Vec Ideal S256x128 .f32) (x1 x2 : Vec Ideal S256x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 256) (j : Fin 128) :
    bodyH4 (F := Ideal) x0 x1 x2 x3 x4 x5 x6 x7 x8 x9 x10 (ix2 r j)
      = Cert.TreeSpec.hNew (Cert.TreeSpec.winParams x3 x4 x5 x6 x7 x8 x9 x10) (fun k => x0 (ix2 r k)) (fun q => x1 (ix2 r q)) (fun q => x2 (ix2 r q)) j := by
  unfold bodyH4 k4_pay2
  simp only [mulf_apply, logistic_apply, tanh_apply, slice_cols_apply, cell4_apply x0 x1 x2 x3 x4 x5 x6 x7 x8 x9 x10, iou4_apply x0 x1 x2 x3 x4 x5 x6 x7 x8 x9 x10]
  rfl

end Cert.KernelIdeal.Hand

end
-- ==== Proof.KI.Val4.lean ====
/-
  What region 4 leaves in its two output arrays, at the ideal instance, as ONE function of the arrays it is entered with: the cell
  (Proof/Spec.lean) at every row.  Grid point t's blocks are rows t·256 … t·256+255 of the row arrays and the whole of each parameter
  array (the index maps, decided over the grid); what point t writes back is block t of that function (the body's arithmetic at an
  index is the cell's: Proof/KI/Cell4.lean); the 1 blocks cover the output arrays.
-/
import proofs.«148344_j70635032150607_1_alg».proof.Proof.KI.Region4
import proofs.«148344_j70635032150607_1_alg».proof.Proof.KI.Cell4
import proofs.«148344_j70635032150607_1_alg».proof.Proof.CellArr
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert

variable (V : (c : Dev nD) → (b : Ref sig .tc) → Buf (Elt Ideal) ((c : Thread nD τ).loc b))

/-- The printed index maps, decided over the grid. -/
theorem idx_facts4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0
    ∧ win4_7.index t (0 : Fin 2) = 0
    ∧ win4_7.index t (1 : Fin 2) = 0
    ∧ win4_8.index t (0 : Fin 2) = 0
    ∧ win4_8.index t (1 : Fin 2) = 0
    ∧ win4_9.index t (0 : Fin 2) = 0
    ∧ win4_9.index t (1 : Fin 2) = 0
    ∧ win4_10.index t (0 : Fin 2) = 0
    ∧ win4_10.index t (1 : Fin 2) = 0
    ∧ win4_11.index t (0 : Fin 2) = t.val
    ∧ win4_11.index t (1 : Fin 2) = 0
    ∧ win4_12.index t (0 : Fin 2) = t.val
    ∧ win4_12.index t (1 : Fin 2) = 0 :=
  (by decide +kernel : ∀ t : Fin grid4.N, _)

theorem tlt4 (t : Fin cfg4.N) : t.val < 1 := lt_of_lt_of_eq t.isLt N_4

/-- Window 0's block at point t is rows t·256 … of its array. -/
theorem iblk4_0_apply (c : Dev nD) (t : Fin cfg4.N) (r : Fin 256) (k : Fin 128) :
    iblk4 V c 0 t (ix2 r k) = V c main_v24 (ix2 ⟨t.val * 256 + r.val, by have := tlt4 t; omega⟩ k) := by
  show V c main_v24 (((cfg4.win 0).blk t).view.emb (ix2 r k)) = _
  obtain ⟨e0a, e0b, e1a, e1b, e2a, e2b, e3a, e3b, e4a, e4b, e5a, e5b, e6a, e6b, e7a, e7b, e8a, e8b, e9a, e9b, e10a, e10b, e11a, e11b, e12a, e12b⟩ := idx_facts4 t
  refine congrArg (V c main_v24) ?_
  funext a; apply Fin.ext
  match a with
  | ⟨0, _⟩ => show win4_0.index t (0 : Fin 2) * 256 + 1 * r.val = t.val * 256 + r.val; omega
  | ⟨1, _⟩ => show win4_0.index t (1 : Fin 2) * 128 + 1 * k.val = k.val; omega

/-- Window 1's block at point t is rows t·256 … of its array. -/
theorem iblk4_1_apply (c : Dev nD) (t : Fin cfg4.N) (r : Fin 256) (k : Fin 512) :
    iblk4 V c 1 t (ix2 r k) = V c main_v22 (ix2 ⟨t.val * 256 + r.val, by have := tlt4 t; omega⟩ k) := by
  show V c main_v22 (((cfg4.win 1).blk t).view.emb (ix2 r k)) = _
  obtain ⟨e0a, e0b, e1a, e1b, e2a, e2b, e3a, e3b, e4a, e4b, e5a, e5b, e6a, e6b, e7a, e7b, e8a, e8b, e9a, e9b, e10a, e10b, e11a, e11b, e12a, e12b⟩ := idx_facts4 t
  refine congrArg (V c main_v22) ?_
  funext a; apply Fin.ext
  match a with
  | ⟨0, _⟩ => show win4_1.index t (0 : Fin 2) * 256 + 1 * r.val = t.val * 256 + r.val; omega
  | ⟨1, _⟩ => show win4_1.index t (1 : Fin 2) * 512 + 1 * k.val = k.val; omega

/-- Window 2's block at point t is rows t·256 … of its array. -/
theorem iblk4_2_apply (c : Dev nD) (t : Fin cfg4.N) (r : Fin 256) (k : Fin 512) :
    iblk4 V c 2 t (ix2 r k) = V c main_v23 (ix2 ⟨t.val * 256 + r.val, by have := tlt4 t; omega⟩ k) := by
  show V c main_v23 (((cfg4.win 2).blk t).view.emb (ix2 r k)) = _
  obtain ⟨e0a, e0b, e1a, e1b, e2a, e2b, e3a, e3b, e4a, e4b, e5a, e5b, e6a, e6b, e7a, e7b, e8a, e8b, e9a, e9b, e10a, e10b, e11a, e11b, e12a, e12b⟩ := idx_facts4 t
  refine congrArg (V c main_v23) ?_
  funext a; apply Fin.ext
  match a with
  | ⟨0, _⟩ => show win4_2.index t (0 : Fin 2) * 256 + 1 * r.val = t.val * 256 + r.val; omega
  | ⟨1, _⟩ => show win4_2.index t (1 : Fin 2) * 512 + 1 * k.val = k.val; omega

/-- Window 3's one block is its whole array. -/
theorem iblk4_3_eq (c : Dev nD) (t : Fin cfg4.N) : iblk4 V c 3 t = V c main_v0 := by
  funext y
  show V c main_v0 (((cfg4.win 3).blk t).view.emb y) = V c main_v0 y
  obtain ⟨e0a, e0b, e1a, e1b, e2a, e2b, e3a, e3b, e4a, e4b, e5a, e5b, e6a, e6b, e7a, e7b, e8a, e8b, e9a, e9b, e10a, e10b, e11a, e11b, e12a, e12b⟩ := idx_facts4 t
  refine congrArg (V c main_v0) ?_
  funext a; apply Fin.ext
  match a with
  | ⟨0, _⟩ => show win4_3.index t (0 : Fin 2) * 128 + 1 * (y 0).val = (y 0).val; omega
  | ⟨1, _⟩ => show win4_3.index t (1 : Fin 2) * 384 + 1 * (y 1).val = (y 1).val; omega

/-- Window 4's one block is its whole array. -/
theorem iblk4_4_eq (c : Dev nD) (t : Fin cfg4.N) : iblk4 V c 4 t = V c main_v4 := by
  funext y
  show V c main_v4 (((cfg4.win 4).blk t).view.emb y) = V c main_v4 y
  obtain ⟨e0a, e0b, e1a, e1b, e2a, e2b, e3a, e3b, e4a, e4b, e5a, e5b, e6a, e6b, e7a, e7b, e8a, e8b, e9a, e9b, e10a, e10b, e11a, e11b, e12a, e12b⟩ := idx_facts4 t
  refine congrArg (V c main_v4) ?_
  funext a; apply Fin.ext
  match a with
  | ⟨0, _⟩ => show win4_4.index t (0 : Fin 2) * 1 + 1 * (y 0).val = (y 0).val; omega
  | ⟨1, _⟩ => show win4_4.index t (1 : Fin 2) * 384 + 1 * (y 1).val = (y 1).val; omega

/-- Window 5's one block is its whole array. -/
theorem iblk4_5_eq (c : Dev nD) (t : Fin cfg4.N) : iblk4 V c 5 t = V c main_v1 := by
  funext y
  show V c main_v1 (((cfg4.win 5).blk t).view.emb y) = V c main_v1 y
  obtain ⟨e0a, e0b, e1a, e1b, e2a, e2b, e3a, e3b, e4a, e4b, e5a, e5b, e6a, e6b, e7a, e7b, e8a, e8b, e9a, e9b, e10a, e10b, e11a, e11b, e12a, e12b⟩ := idx_facts4 t
  refine congrArg (V c main_v1) ?_
  funext a; apply Fin.ext
  match a with
  | ⟨0, _⟩ => show win4_5.index t (0 : Fin 2) * 512 + 1 * (y 0).val = (y 0).val; omega
  | ⟨1, _⟩ => show win4_5.index t (1 : Fin 2) * 384 + 1 * (y 1).val = (y 1).val; omega

/-- Window 6's one block is its whole array. -/
theorem iblk4_6_eq (c : Dev nD) (t : Fin cfg4.N) : iblk4 V c 6 t = V c main_v5 := by
  funext y
  show V c main_v5 (((cfg4.win 6).blk t).view.emb y) = V c main_v5 y
  obtain ⟨e0a, e0b, e1a, e1b, e2a, e2b, e3a, e3b, e4a, e4b, e5a, e5b, e6a, e6b, e7a, e7b, e8a, e8b, e9a, e9b, e10a, e10b, e11a, e11b, e12a, e12b⟩ := idx_facts4 t
  refine congrArg (V c main_v5) ?_
  funext a; apply Fin.ext
  match a with
  | ⟨0, _⟩ => show win4_6.index t (0 : Fin 2) * 1 + 1 * (y 0).val = (y 0).val; omega
  | ⟨1, _⟩ => show win4_6.index t (1 : Fin 2) * 384 + 1 * (y 1).val = (y 1).val; omega

/-- Window 7's one block is its whole array. -/
theorem iblk4_7_eq (c : Dev nD) (t : Fin cfg4.N) : iblk4 V c 7 t = V c main_v2 := by
  funext y
  show V c main_v2 (((cfg4.win 7).blk t).view.emb y) = V c main_v2 y
  obtain ⟨e0a, e0b, e1a, e1b, e2a, e2b, e3a, e3b, e4a, e4b, e5a, e5b, e6a, e6b, e7a, e7b, e8a, e8b, e9a, e9b, e10a, e10b, e11a, e11b, e12a, e12b⟩ := idx_facts4 t
  refine congrArg (V c main_v2) ?_
  funext a; apply Fin.ext
  match a with
  | ⟨0, _⟩ => show win4_7.index t (0 : Fin 2) * 128 + 1 * (y 0).val = (y 0).val; omega
  | ⟨1, _⟩ => show win4_7.index t (1 : Fin 2) * 128 + 1 * (y 1).val = (y 1).val; omega

/-- Window 8's one block is its whole array. -/
theorem iblk4_8_eq (c : Dev nD) (t : Fin cfg4.N) : iblk4 V c 8 t = V c main_v6 := by
  funext y
  show V c main_v6 (((cfg4.win 8).blk t).view.emb y) = V c main_v6 y
  obtain ⟨e0a, e0b, e1a, e1b, e2a, e2b, e3a, e3b, e4a, e4b, e5a, e5b, e6a, e6b, e7a, e7b, e8a, e8b, e9a, e9b, e10a, e10b, e11a, e11b, e12a, e12b⟩ := idx_facts4 t
  refine congrArg (V c main_v6) ?_
  funext a; apply Fin.ext
  match a with
  | ⟨0, _⟩ => show win4_8.index t (0 : Fin 2) * 1 + 1 * (y 0).val = (y 0).val; omega
  | ⟨1, _⟩ => show win4_8.index t (1 : Fin 2) * 128 + 1 * (y 1).val = (y 1).val; omega

/-- Window 9's one block is its whole array. -/
theorem iblk4_9_eq (c : Dev nD) (t : Fin cfg4.N) : iblk4 V c 9 t = V c main_v3 := by
  funext y
  show V c main_v3 (((cfg4.win 9).blk t).view.emb y) = V c main_v3 y
  obtain ⟨e0a, e0b, e1a, e1b, e2a, e2b, e3a, e3b, e4a, e4b, e5a, e5b, e6a, e6b, e7a, e7b, e8a, e8b, e9a, e9b, e10a, e10b, e11a, e11b, e12a, e12b⟩ := idx_facts4 t
  refine congrArg (V c main_v3) ?_
  funext a; apply Fin.ext
  match a with
  | ⟨0, _⟩ => show win4_9.index t (0 : Fin 2) * 512 + 1 * (y 0).val = (y 0).val; omega
  | ⟨1, _⟩ => show win4_9.index t (1 : Fin 2) * 512 + 1 * (y 1).val = (y 1).val; omega

/-- Window 10's one block is its whole array. -/
theorem iblk4_10_eq (c : Dev nD) (t : Fin cfg4.N) : iblk4 V c 10 t = V c main_v7 := by
  funext y
  show V c main_v7 (((cfg4.win 10).blk t).view.emb y) = V c main_v7 y
  obtain ⟨e0a, e0b, e1a, e1b, e2a, e2b, e3a, e3b, e4a, e4b, e5a, e5b, e6a, e6b, e7a, e7b, e8a, e8b, e9a, e9b, e10a, e10b, e11a, e11b, e12a, e12b⟩ := idx_facts4 t
  refine congrArg (V c main_v7) ?_
  funext a; apply Fin.ext
  match a with
  | ⟨0, _⟩ => show win4_10.index t (0 : Fin 2) * 1 + 1 * (y 0).val = (y 0).val; omega
  | ⟨1, _⟩ => show win4_10.index t (1 : Fin 2) * 512 + 1 * (y 1).val = (y 1).val; omega

/-- What point t writes back into output 0 is block t of the cell's array function of the arrays the region is entered with. -/
theorem flushed4_11_eq (c : Dev nD) (t : Fin cfg4.N) :
    (dat4 V c).flushed 11 t = ((cfg4.win 11).blk t).view.read (Elt Ideal) (TreeSpec.cellArrH (N := 256) (V c main_v24) (V c main_v22) (V c main_v23) (TreeSpec.winParams (V c main_v0) (V c main_v4) (V c main_v1) (V c main_v5) (V c main_v2) (V c main_v6) (V c main_v3) (V c main_v7))) := by
  show (cfg4.win 11).cut (grid4.coords t) ((dat4 V c).after 11 t) = _
  rw [after4_11]
  unfold out4_11
  rw [View.canon_unit_zero TreeSpec.hz2]
  simp only [View.ld_unit_zero (S := S256x128) TreeSpec.hz2, View.ld_unit_zero (S := S256x512) TreeSpec.hz2, View.ld_unit_zero (S := S128x384) TreeSpec.hz2, View.ld_unit_zero (S := S1x384) TreeSpec.hz2, View.ld_unit_zero (S := S512x384) TreeSpec.hz2, View.ld_unit_zero (S := S128x128) TreeSpec.hz2, View.ld_unit_zero (S := S1x128) TreeSpec.hz2, View.ld_unit_zero (S := S512x512) TreeSpec.hz2, View.ld_unit_zero (S := S1x512) TreeSpec.hz2]
  rw [iblk4_3_eq V c t, iblk4_4_eq V c t, iblk4_5_eq V c t, iblk4_6_eq V c t, iblk4_7_eq V c t, iblk4_8_eq V c t, iblk4_9_eq V c t, iblk4_10_eq V c t]
  funext j
  obtain ⟨r, q, rfl⟩ : ∃ (r : Fin 256) (q : Fin 128), j = ix2 r q := ⟨j 0, j 1, eq_ix2 j⟩
  have hemb : ((cfg4.win 11).blk t).view.emb (ix2 r q) = (ix2 ⟨t.val * 256 + r.val, by have := tlt4 t; omega⟩ q : S256x128.Idx) := by
    obtain ⟨e0a, e0b, e1a, e1b, e2a, e2b, e3a, e3b, e4a, e4b, e5a, e5b, e6a, e6b, e7a, e7b, e8a, e8b, e9a, e9b, e10a, e10b, e11a, e11b, e12a, e12b⟩ := idx_facts4 t
    funext a; apply Fin.ext
    match a with
    | ⟨0, _⟩ => show win4_11.index t (0 : Fin 2) * 256 + 1 * r.val = t.val * 256 + r.val; omega
    | ⟨1, _⟩ => show win4_11.index t (1 : Fin 2) * 128 + 1 * q.val = q.val; omega
  show bodyH4 (F := Ideal) (iblk4 V c 0 t) (iblk4 V c 1 t) (iblk4 V c 2 t) (V c main_v0) (V c main_v4) (V c main_v1) (V c main_v5) (V c main_v2) (V c main_v6) (V c main_v3) (V c main_v7) (ix2 r q) = (TreeSpec.cellArrH (N := 256) (V c main_v24) (V c main_v22) (V c main_v23) (TreeSpec.winParams (V c main_v0) (V c main_v4) (V c main_v1) (V c main_v5) (V c main_v2) (V c main_v6) (V c main_v3) (V c main_v7))) (((cfg4.win 11).blk t).view.emb (ix2 r q))
  rw [hemb, bodyH4_apply]
  unfold TreeSpec.cellArrH
  simp only [iblk4_0_apply V c t, iblk4_1_apply V c t, iblk4_2_apply V c t] <;> rfl

/-- An index of output 0's array is in point t's block iff each coordinate is in the block's range on its axis. -/
theorem mem_blk4_11 (t : Fin cfg4.N) (i : S256x128.Idx) :
    i ∈ ((cfg4.win 11).blk t).view.set ↔ ∀ a : Fin 2, win4_11.index t a * S256x128.size a ≤ (i a).val ∧ (i a).val < win4_11.index t a * S256x128.size a + S256x128.size a := by
  show i ∈ ((View.whole main_v25_0).slice (win4_11.rect t)).set ↔ _
  rw [View.set_slice_whole, Rect.mem_set_unit]
  exact Iff.rfl

/-- Every index of output 0's array is in the block of the point its row falls in. -/
theorem covered4_11 (i : S256x128.Idx) : ∃ t : Fin cfg4.N, (cfg4.win 11).flush t = true ∧ i ∈ ((cfg4.win 11).blk t).view.set := by
  have hi0 : (i 0).val < 256 := (i 0).isLt
  have hi1 : (i 1).val < 128 := (i 1).isLt
  have ht : (i 0).val / 256 < cfg4.N := by rw [show cfg4.N = 1 from N_4]; omega
  refine ⟨⟨(i 0).val / 256, ht⟩, flush4_11 _, ?_⟩
  rw [mem_blk4_11]
  obtain ⟨e0a, e0b, e1a, e1b, e2a, e2b, e3a, e3b, e4a, e4b, e5a, e5b, e6a, e6b, e7a, e7b, e8a, e8b, e9a, e9b, e10a, e10b, e11a, e11b, e12a, e12b⟩ := idx_facts4 ⟨(i 0).val / 256, ht⟩
  intro a
  match a with
  | ⟨0, _⟩ => show win4_11.index _ (0 : Fin 2) * 256 ≤ (i 0).val ∧ (i 0).val < win4_11.index _ (0 : Fin 2) * 256 + 256; rw [e11a]; show (i 0).val / 256 * 256 ≤ (i 0).val ∧ (i 0).val < (i 0).val / 256 * 256 + 256; omega
  | ⟨1, _⟩ => show win4_11.index _ (1 : Fin 2) * 128 ≤ (i 1).val ∧ (i 1).val < win4_11.index _ (1 : Fin 2) * 128 + 128; rw [e11b]; omega

/-- Output 0's array after the region: the cell's array function of the arrays the region is entered with. -/
theorem final4_H (c : Dev nD) : (dat4 V c).arrAt 11 cfg4.N = (TreeSpec.cellArrH (N := 256) (V c main_v24) (V c main_v22) (V c main_v23) (TreeSpec.winParams (V c main_v0) (V c main_v4) (V c main_v1) (V c main_v5) (V c main_v2) (V c main_v6) (V c main_v3) (V c main_v7))) :=
  (dat4 V c).arrAt_eq_of_cover 11 _ (fun t _ => flushed4_11_eq V c t) (covered4_11)

/-- What point t writes back into output 1 is block t of the cell's array function of the arrays the region is entered with. -/
theorem flushed4_12_eq (c : Dev nD) (t : Fin cfg4.N) :
    (dat4 V c).flushed 12 t = ((cfg4.win 12).blk t).view.read (Elt Ideal) (TreeSpec.cellArrC (N := 256) (V c main_v24) (V c main_v22) (V c main_v23) (TreeSpec.winParams (V c main_v0) (V c main_v4) (V c main_v1) (V c main_v5) (V c main_v2) (V c main_v6) (V c main_v3) (V c main_v7))) := by
  show (cfg4.win 12).cut (grid4.coords t) ((dat4 V c).after 12 t) = _
  rw [after4_12]
  unfold out4_12
  rw [View.canon_unit_zero TreeSpec.hz2]
  simp only [View.ld_unit_zero (S := S256x128) TreeSpec.hz2, View.ld_unit_zero (S := S256x512) TreeSpec.hz2, View.ld_unit_zero (S := S128x384) TreeSpec.hz2, View.ld_unit_zero (S := S1x384) TreeSpec.hz2, View.ld_unit_zero (S := S512x384) TreeSpec.hz2, View.ld_unit_zero (S := S128x128) TreeSpec.hz2, View.ld_unit_zero (S := S1x128) TreeSpec.hz2, View.ld_unit_zero (S := S512x512) TreeSpec.hz2, View.ld_unit_zero (S := S1x512) TreeSpec.hz2]
  rw [iblk4_3_eq V c t, iblk4_4_eq V c t, iblk4_5_eq V c t, iblk4_6_eq V c t, iblk4_7_eq V c t, iblk4_8_eq V c t, iblk4_9_eq V c t, iblk4_10_eq V c t]
  funext j
  obtain ⟨r, q, rfl⟩ : ∃ (r : Fin 256) (q : Fin 128), j = ix2 r q := ⟨j 0, j 1, eq_ix2 j⟩
  have hemb : ((cfg4.win 12).blk t).view.emb (ix2 r q) = (ix2 ⟨t.val * 256 + r.val, by have := tlt4 t; omega⟩ q : S256x128.Idx) := by
    obtain ⟨e0a, e0b, e1a, e1b, e2a, e2b, e3a, e3b, e4a, e4b, e5a, e5b, e6a, e6b, e7a, e7b, e8a, e8b, e9a, e9b, e10a, e10b, e11a, e11b, e12a, e12b⟩ := idx_facts4 t
    funext a; apply Fin.ext
    match a with
    | ⟨0, _⟩ => show win4_12.index t (0 : Fin 2) * 256 + 1 * r.val = t.val * 256 + r.val; omega
    | ⟨1, _⟩ => show win4_12.index t (1 : Fin 2) * 128 + 1 * q.val = q.val; omega
  show bodyC4 (F := Ideal) (iblk4 V c 0 t) (iblk4 V c 1 t) (iblk4 V c 2 t) (V c main_v0) (V c main_v4) (V c main_v1) (V c main_v5) (V c main_v2) (V c main_v6) (V c main_v3) (V c main_v7) (ix2 r q) = (TreeSpec.cellArrC (N := 256) (V c main_v24) (V c main_v22) (V c main_v23) (TreeSpec.winParams (V c main_v0) (V c main_v4) (V c main_v1) (V c main_v5) (V c main_v2) (V c main_v6) (V c main_v3) (V c main_v7))) (((cfg4.win 12).blk t).view.emb (ix2 r q))
  rw [hemb, bodyC4_apply]
  unfold TreeSpec.cellArrC
  simp only [iblk4_0_apply V c t, iblk4_1_apply V c t, iblk4_2_apply V c t] <;> rfl

/-- An index of output 1's array is in point t's block iff each coordinate is in the block's range on its axis. -/
theorem mem_blk4_12 (t : Fin cfg4.N) (i : S256x128.Idx) :
    i ∈ ((cfg4.win 12).blk t).view.set ↔ ∀ a : Fin 2, win4_12.index t a * S256x128.size a ≤ (i a).val ∧ (i a).val < win4_12.index t a * S256x128.size a + S256x128.size a := by
  show i ∈ ((View.whole main_v25_1).slice (win4_12.rect t)).set ↔ _
  rw [View.set_slice_whole, Rect.mem_set_unit]
  exact Iff.rfl

/-- Every index of output 1's array is in the block of the point its row falls in. -/
theorem covered4_12 (i : S256x128.Idx) : ∃ t : Fin cfg4.N, (cfg4.win 12).flush t = true ∧ i ∈ ((cfg4.win 12).blk t).view.set := by
  have hi0 : (i 0).val < 256 := (i 0).isLt
  have hi1 : (i 1).val < 128 := (i 1).isLt
  have ht : (i 0).val / 256 < cfg4.N := by rw [show cfg4.N = 1 from N_4]; omega
  refine ⟨⟨(i 0).val / 256, ht⟩, flush4_12 _, ?_⟩
  rw [mem_blk4_12]
  obtain ⟨e0a, e0b, e1a, e1b, e2a, e2b, e3a, e3b, e4a, e4b, e5a, e5b, e6a, e6b, e7a, e7b, e8a, e8b, e9a, e9b, e10a, e10b, e11a, e11b, e12a, e12b⟩ := idx_facts4 ⟨(i 0).val / 256, ht⟩
  intro a
  match a with
  | ⟨0, _⟩ => show win4_12.index _ (0 : Fin 2) * 256 ≤ (i 0).val ∧ (i 0).val < win4_12.index _ (0 : Fin 2) * 256 + 256; rw [e12a]; show (i 0).val / 256 * 256 ≤ (i 0).val ∧ (i 0).val < (i 0).val / 256 * 256 + 256; omega
  | ⟨1, _⟩ => show win4_12.index _ (1 : Fin 2) * 128 ≤ (i 1).val ∧ (i 1).val < win4_12.index _ (1 : Fin 2) * 128 + 128; rw [e12b]; omega

/-- Output 1's array after the region: the cell's array function of the arrays the region is entered with. -/
theorem final4_C (c : Dev nD) : (dat4 V c).arrAt 12 cfg4.N = (TreeSpec.cellArrC (N := 256) (V c main_v24) (V c main_v22) (V c main_v23) (TreeSpec.winParams (V c main_v0) (V c main_v4) (V c main_v1) (V c main_v5) (V c main_v2) (V c main_v6) (V c main_v3) (V c main_v7))) :=
  (dat4 V c).arrAt_eq_of_cover 12 _ (fun t _ => flushed4_12_eq V c t) (covered4_12)

end Cert.KernelIdeal.Hand

end
-- ==== Proof.KI.Cell5.lean ====
/-
  Region 5 of the kernel (blocks of 64 nodes) read at an index.  Row r of the region's two output blocks is the cell
  applied to node r: to row r of the node inputs, row r of the children's packed hidden rows and of their packed cell
  rows, with the eight parameter blocks as the region receives them (matrices already transposed, each bias one row).
  Entry (r, j) of the first output block is the specification's new hidden row at j, of the second its new cell row at j.

  The body forms the 384 gate pre-activations as x·W_iouᵀ + b_iou + h·U_iouᵀ + b_uiou in this order — the
  specification's grouping —, cuts them into the gates i, o, u, forms h·U_fᵀ + b_uf and x·W_fᵀ + b_wf, and adds the
  four forget-gate products to σ(i)·tanh(u) from left to right, again as the specification does; so after each
  operation is read at the index the two sides are the same expression.
-/
import proofs.«148344_j70635032150607_1_alg».proof.Proof.KI.Bodies
import proofs.«148344_j70635032150607_1_alg».proof.Proof.KI.CellLemmas
import proofs.«148344_j70635032150607_1_alg».proof.Proof.Spec

noncomputable section

namespace Cert.KernelIdeal.Hand

open Idealize.ShloMosaic Idealize.ShloMosaic.ValueIdx Cert.KernelIdeal Cert.KernelIdeal.Gen

/-- x · W_iouᵀ at (r, j): the sum over k of x(r, k) · W_iouᵀ(k, j), 128 terms. -/
theorem mm5_xW (A : FVec Ideal S64x128 .bf16) (B : FVec Ideal S128x384 .bf16) (r : Fin 64) (j : Fin 384) :
    matmul dot_S64x128_S128x384_S64x384_1_0_0_1_n_n none A B (constant (F := Ideal) S64x384 .f32 0x00000000#32) (ix2 r j)
      = ∑ k : Fin 128, A (ix2 r k) * B (ix2 k j) :=
  matmul_plain_apply none A B r j
/-- h · U_iouᵀ at (r, j): 512 terms. -/
theorem mm5_hU (A : FVec Ideal S64x512 .bf16) (B : FVec Ideal S512x384 .bf16) (r : Fin 64) (j : Fin 384) :
    matmul dot_S64x512_S512x384_S64x384_1_0_0_1_n_n none A B (constant (F := Ideal) S64x384 .f32 0x00000000#32) (ix2 r j)
      = ∑ k : Fin 512, A (ix2 r k) * B (ix2 k j) :=
  matmul_plain_apply none A B r j
/-- h · U_fᵀ at (r, q): 512 terms. -/
theorem mm5_hUf (A : FVec Ideal S64x512 .bf16) (B : FVec Ideal S512x512 .bf16) (r : Fin 64) (q : Fin 512) :
    matmul dot_S64x512_S512x512_S64x512_1_0_0_1_n_n none A B (constant (F := Ideal) S64x512 .f32 0x00000000#32) (ix2 r q)
      = ∑ k : Fin 512, A (ix2 r k) * B (ix2 k q) :=
  matmul_plain_apply none A B r q
/-- x · W_fᵀ at (r, j): 128 terms. -/
theorem mm5_xWf (A : FVec Ideal S64x128 .bf16) (B : FVec Ideal S128x128 .bf16) (r : Fin 64) (j : Fin 128) :
    matmul dot_S64x128_S128x128_S64x128_1_0_0_1_n_n none A B (constant (F := Ideal) S64x128 .f32 0x00000000#32) (ix2 r j)
      = ∑ k : Fin 128, A (ix2 r k) * B (ix2 k j) :=
  matmul_plain_apply none A B r j

/-- The gate pre-activations of node r at column j. -/
theorem iou5_apply (x0 : Vec Ideal S64x128 .f32) (x1 x2 : Vec Ideal S64x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 64) (j : Fin 384) :
    k5_pay10 (F := Ideal) x0 x1 x3 x5 x4 x6 (ix2 r j)
      = Cert.TreeSpec.iou (Cert.TreeSpec.winParams x3 x4 x5 x6 x7 x8 x9 x10) (fun k => x0 (ix2 r k)) (fun q => x1 (ix2 r q)) j := by
  unfold k5_pay10 k5_pay3 k5_pay5
  simp only [addf_apply, mm5_xW, mm5_hU, bcast_row_apply, truncf_apply, shapeCast_self]
  rfl

/-- The new cell row of node r at column j, as the body passes it on to the hidden row's formula. -/
theorem cell5_apply (x0 : Vec Ideal S64x128 .f32) (x1 x2 : Vec Ideal S64x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 64) (j : Fin 128) :
    k5_pay1 (F := Ideal) (k5_pay3 x0) (k5_pay4 x2) (k5_pay5 x1) (k5_pay6 x7) (k5_pay7 x9) (k5_pay8 x8) (k5_pay9 x10) (k5_pay10 x0 x1 x3 x5 x4 x6) (ix2 r j)
      = Cert.TreeSpec.cNew (Cert.TreeSpec.winParams x3 x4 x5 x6 x7 x8 x9 x10) (fun k => x0 (ix2 r k)) (fun q => x1 (ix2 r q)) (fun q => x2 (ix2 r q)) j := by
  unfold k5_pay1 k5_pay3 k5_pay4 k5_pay5 k5_pay6 k5_pay7 k5_pay8 k5_pay9
  simp only [addf_apply, mulf_apply, logistic_apply, tanh_apply, slice_cols_apply, mm5_hUf, mm5_xWf, bcast_row_apply,
    truncf_apply, shapeCast_self, iou5_apply x0 x1 x2 x3 x4 x5 x6 x7 x8 x9 x10]
  rfl

/-- The second output block: the new cell rows. -/
theorem bodyC5_apply (x0 : Vec Ideal S64x128 .f32) (x1 x2 : Vec Ideal S64x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 64) (j : Fin 128) :
    bodyC5 (F := Ideal) x0 x1 x2 x3 x4 x5 x6 x7 x8 x9 x10 (ix2 r j)
      = Cert.TreeSpec.cNew (Cert.TreeSpec.winParams x3 x4 x5 x6 x7 x8 x9 x10) (fun k => x0 (ix2 r k)) (fun q => x1 (ix2 r q)) (fun q => x2 (ix2 r q)) j :=
  cell5_apply x0 x1 x2 x3 x4 x5 x6 x7 x8 x9 x10 r j

/-- The first output block: the new hidden rows, σ(o)·tanh of the new cell row. -/
theorem bodyH5_apply (x0 : Vec Ideal S64x128 .f32) (x1 x2 : Vec Ideal S64x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 64) (j : Fin 128) :
    bodyH5 (F := Ideal) x0 x1 x2 x3 x4 x5 x6 x7 x8 x9 x10 (ix2 r j)
      = Cert.TreeSpec.hNew (Cert.TreeSpec.winParams x3 x4 x5 x6 x7 x8 x9 x10) (fun k => x0 (ix2 r k)) (fun q => x1 (ix2 r q)) (fun q => x2 (ix2 r q)) j := by
  unfold bodyH5 k5_pay2
  simp only [mulf_apply, logistic_apply, tanh_apply, slice_cols_apply, cell5_apply x0 x1 x2 x3 x4 x5 x6 x7 x8 x9 x10, iou5_apply x0 x1 x2 x3 x4 x5 x6 x7 x8 x9 x10]
  rfl

end Cert.KernelIdeal.Hand

end
-- ==== Proof.KI.Val5.lean ====
/-
  What region 5 leaves in its two output arrays, at the ideal instance, as ONE function of the arrays it is entered with: the cell
  (Proof/Spec.lean) at every row.  Grid point t's blocks are rows t·64 … t·64+63 of the row arrays and the whole of each parameter
  array (the index maps, decided over the grid); what point t writes back is block t of that function (the body's arithmetic at an
  index is the cell's: Proof/KI/Cell5.lean); the 1 blocks cover the output arrays.
-/
import proofs.«148344_j70635032150607_1_alg».proof.Proof.KI.Region5
import proofs.«148344_j70635032150607_1_alg».proof.Proof.KI.Cell5
import proofs.«148344_j70635032150607_1_alg».proof.Proof.CellArr
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert

variable (V : (c : Dev nD) → (b : Ref sig .tc) → Buf (Elt Ideal) ((c : Thread nD τ).loc b))

/-- The printed index maps, decided over the grid. -/
theorem idx_facts5 : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = t.val
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 2) = 0
    ∧ win5_6.index t (1 : Fin 2) = 0
    ∧ win5_7.index t (0 : Fin 2) = 0
    ∧ win5_7.index t (1 : Fin 2) = 0
    ∧ win5_8.index t (0 : Fin 2) = 0
    ∧ win5_8.index t (1 : Fin 2) = 0
    ∧ win5_9.index t (0 : Fin 2) = 0
    ∧ win5_9.index t (1 : Fin 2) = 0
    ∧ win5_10.index t (0 : Fin 2) = 0
    ∧ win5_10.index t (1 : Fin 2) = 0
    ∧ win5_11.index t (0 : Fin 2) = t.val
    ∧ win5_11.index t (1 : Fin 2) = 0
    ∧ win5_12.index t (0 : Fin 2) = t.val
    ∧ win5_12.index t (1 : Fin 2) = 0 :=
  (by decide +kernel : ∀ t : Fin grid5.N, _)

theorem tlt5 (t : Fin cfg5.N) : t.val < 1 := lt_of_lt_of_eq t.isLt N_5

/-- Window 0's block at point t is rows t·64 … of its array. -/
theorem iblk5_0_apply (c : Dev nD) (t : Fin cfg5.N) (r : Fin 64) (k : Fin 128) :
    iblk5 V c 0 t (ix2 r k) = V c main_v28 (ix2 ⟨t.val * 64 + r.val, by have := tlt5 t; omega⟩ k) := by
  show V c main_v28 (((cfg5.win 0).blk t).view.emb (ix2 r k)) = _
  obtain ⟨e0a, e0b, e1a, e1b, e2a, e2b, e3a, e3b, e4a, e4b, e5a, e5b, e6a, e6b, e7a, e7b, e8a, e8b, e9a, e9b, e10a, e10b, e11a, e11b, e12a, e12b⟩ := idx_facts5 t
  refine congrArg (V c main_v28) ?_
  funext a; apply Fin.ext
  match a with
  | ⟨0, _⟩ => show win5_0.index t (0 : Fin 2) * 64 + 1 * r.val = t.val * 64 + r.val; omega
  | ⟨1, _⟩ => show win5_0.index t (1 : Fin 2) * 128 + 1 * k.val = k.val; omega

/-- Window 1's block at point t is rows t·64 … of its array. -/
theorem iblk5_1_apply (c : Dev nD) (t : Fin cfg5.N) (r : Fin 64) (k : Fin 512) :
    iblk5 V c 1 t (ix2 r k) = V c main_v26 (ix2 ⟨t.val * 64 + r.val, by have := tlt5 t; omega⟩ k) := by
  show V c main_v26 (((cfg5.win 1).blk t).view.emb (ix2 r k)) = _
  obtain ⟨e0a, e0b, e1a, e1b, e2a, e2b, e3a, e3b, e4a, e4b, e5a, e5b, e6a, e6b, e7a, e7b, e8a, e8b, e9a, e9b, e10a, e10b, e11a, e11b, e12a, e12b⟩ := idx_facts5 t
  refine congrArg (V c main_v26) ?_
  funext a; apply Fin.ext
  match a with
  | ⟨0, _⟩ => show win5_1.index t (0 : Fin 2) * 64 + 1 * r.val = t.val * 64 + r.val; omega
  | ⟨1, _⟩ => show win5_1.index t (1 : Fin 2) * 512 + 1 * k.val = k.val; omega

/-- Window 2's block at point t is rows t·64 … of its array. -/
theorem iblk5_2_apply (c : Dev nD) (t : Fin cfg5.N) (r : Fin 64) (k : Fin 512) :
    iblk5 V c 2 t (ix2 r k) = V c main_v27 (ix2 ⟨t.val * 64 + r.val, by have := tlt5 t; omega⟩ k) := by
  show V c main_v27 (((cfg5.win 2).blk t).view.emb (ix2 r k)) = _
  obtain ⟨e0a, e0b, e1a, e1b, e2a, e2b, e3a, e3b, e4a, e4b, e5a, e5b, e6a, e6b, e7a, e7b, e8a, e8b, e9a, e9b, e10a, e10b, e11a, e11b, e12a, e12b⟩ := idx_facts5 t
  refine congrArg (V c main_v27) ?_
  funext a; apply Fin.ext
  match a with
  | ⟨0, _⟩ => show win5_2.index t (0 : Fin 2) * 64 + 1 * r.val = t.val * 64 + r.val; omega
  | ⟨1, _⟩ => show win5_2.index t (1 : Fin 2) * 512 + 1 * k.val = k.val; omega

/-- Window 3's one block is its whole array. -/
theorem iblk5_3_eq (c : Dev nD) (t : Fin cfg5.N) : iblk5 V c 3 t = V c main_v0 := by
  funext y
  show V c main_v0 (((cfg5.win 3).blk t).view.emb y) = V c main_v0 y
  obtain ⟨e0a, e0b, e1a, e1b, e2a, e2b, e3a, e3b, e4a, e4b, e5a, e5b, e6a, e6b, e7a, e7b, e8a, e8b, e9a, e9b, e10a, e10b, e11a, e11b, e12a, e12b⟩ := idx_facts5 t
  refine congrArg (V c main_v0) ?_
  funext a; apply Fin.ext
  match a with
  | ⟨0, _⟩ => show win5_3.index t (0 : Fin 2) * 128 + 1 * (y 0).val = (y 0).val; omega
  | ⟨1, _⟩ => show win5_3.index t (1 : Fin 2) * 384 + 1 * (y 1).val = (y 1).val; omega

/-- Window 4's one block is its whole array. -/
theorem iblk5_4_eq (c : Dev nD) (t : Fin cfg5.N) : iblk5 V c 4 t = V c main_v4 := by
  funext y
  show V c main_v4 (((cfg5.win 4).blk t).view.emb y) = V c main_v4 y
  obtain ⟨e0a, e0b, e1a, e1b, e2a, e2b, e3a, e3b, e4a, e4b, e5a, e5b, e6a, e6b, e7a, e7b, e8a, e8b, e9a, e9b, e10a, e10b, e11a, e11b, e12a, e12b⟩ := idx_facts5 t
  refine congrArg (V c main_v4) ?_
  funext a; apply Fin.ext
  match a with
  | ⟨0, _⟩ => show win5_4.index t (0 : Fin 2) * 1 + 1 * (y 0).val = (y 0).val; omega
  | ⟨1, _⟩ => show win5_4.index t (1 : Fin 2) * 384 + 1 * (y 1).val = (y 1).val; omega

/-- Window 5's one block is its whole array. -/
theorem iblk5_5_eq (c : Dev nD) (t : Fin cfg5.N) : iblk5 V c 5 t = V c main_v1 := by
  funext y
  show V c main_v1 (((cfg5.win 5).blk t).view.emb y) = V c main_v1 y
  obtain ⟨e0a, e0b, e1a, e1b, e2a, e2b, e3a, e3b, e4a, e4b, e5a, e5b, e6a, e6b, e7a, e7b, e8a, e8b, e9a, e9b, e10a, e10b, e11a, e11b, e12a, e12b⟩ := idx_facts5 t
  refine congrArg (V c main_v1) ?_
  funext a; apply Fin.ext
  match a with
  | ⟨0, _⟩ => show win5_5.index t (0 : Fin 2) * 512 + 1 * (y 0).val = (y 0).val; omega
  | ⟨1, _⟩ => show win5_5.index t (1 : Fin 2) * 384 + 1 * (y 1).val = (y 1).val; omega

/-- Window 6's one block is its whole array. -/
theorem iblk5_6_eq (c : Dev nD) (t : Fin cfg5.N) : iblk5 V c 6 t = V c main_v5 := by
  funext y
  show V c main_v5 (((cfg5.win 6).blk t).view.emb y) = V c main_v5 y
  obtain ⟨e0a, e0b, e1a, e1b, e2a, e2b, e3a, e3b, e4a, e4b, e5a, e5b, e6a, e6b, e7a, e7b, e8a, e8b, e9a, e9b, e10a, e10b, e11a, e11b, e12a, e12b⟩ := idx_facts5 t
  refine congrArg (V c main_v5) ?_
  funext a; apply Fin.ext
  match a with
  | ⟨0, _⟩ => show win5_6.index t (0 : Fin 2) * 1 + 1 * (y 0).val = (y 0).val; omega
  | ⟨1, _⟩ => show win5_6.index t (1 : Fin 2) * 384 + 1 * (y 1).val = (y 1).val; omega

/-- Window 7's one block is its whole array. -/
theorem iblk5_7_eq (c : Dev nD) (t : Fin cfg5.N) : iblk5 V c 7 t = V c main_v2 := by
  funext y
  show V c main_v2 (((cfg5.win 7).blk t).view.emb y) = V c main_v2 y
  obtain ⟨e0a, e0b, e1a, e1b, e2a, e2b, e3a, e3b, e4a, e4b, e5a, e5b, e6a, e6b, e7a, e7b, e8a, e8b, e9a, e9b, e10a, e10b, e11a, e11b, e12a, e12b⟩ := idx_facts5 t
  refine congrArg (V c main_v2) ?_
  funext a; apply Fin.ext
  match a with
  | ⟨0, _⟩ => show win5_7.index t (0 : Fin 2) * 128 + 1 * (y 0).val = (y 0).val; omega
  | ⟨1, _⟩ => show win5_7.index t (1 : Fin 2) * 128 + 1 * (y 1).val = (y 1).val; omega

/-- Window 8's one block is its whole array. -/
theorem iblk5_8_eq (c : Dev nD) (t : Fin cfg5.N) : iblk5 V c 8 t = V c main_v6 := by
  funext y
  show V c main_v6 (((cfg5.win 8).blk t).view.emb y) = V c main_v6 y
  obtain ⟨e0a, e0b, e1a, e1b, e2a, e2b, e3a, e3b, e4a, e4b, e5a, e5b, e6a, e6b, e7a, e7b, e8a, e8b, e9a, e9b, e10a, e10b, e11a, e11b, e12a, e12b⟩ := idx_facts5 t
  refine congrArg (V c main_v6) ?_
  funext a; apply Fin.ext
  match a with
  | ⟨0, _⟩ => show win5_8.index t (0 : Fin 2) * 1 + 1 * (y 0).val = (y 0).val; omega
  | ⟨1, _⟩ => show win5_8.index t (1 : Fin 2) * 128 + 1 * (y 1).val = (y 1).val; omega

/-- Window 9's one block is its whole array. -/
theorem iblk5_9_eq (c : Dev nD) (t : Fin cfg5.N) : iblk5 V c 9 t = V c main_v3 := by
  funext y
  show V c main_v3 (((cfg5.win 9).blk t).view.emb y) = V c main_v3 y
  obtain ⟨e0a, e0b, e1a, e1b, e2a, e2b, e3a, e3b, e4a, e4b, e5a, e5b, e6a, e6b, e7a, e7b, e8a, e8b, e9a, e9b, e10a, e10b, e11a, e11b, e12a, e12b⟩ := idx_facts5 t
  refine congrArg (V c main_v3) ?_
  funext a; apply Fin.ext
  match a with
  | ⟨0, _⟩ => show win5_9.index t (0 : Fin 2) * 512 + 1 * (y 0).val = (y 0).val; omega
  | ⟨1, _⟩ => show win5_9.index t (1 : Fin 2) * 512 + 1 * (y 1).val = (y 1).val; omega

/-- Window 10's one block is its whole array. -/
theorem iblk5_10_eq (c : Dev nD) (t : Fin cfg5.N) : iblk5 V c 10 t = V c main_v7 := by
  funext y
  show V c main_v7 (((cfg5.win 10).blk t).view.emb y) = V c main_v7 y
  obtain ⟨e0a, e0b, e1a, e1b, e2a, e2b, e3a, e3b, e4a, e4b, e5a, e5b, e6a, e6b, e7a, e7b, e8a, e8b, e9a, e9b, e10a, e10b, e11a, e11b, e12a, e12b⟩ := idx_facts5 t
  refine congrArg (V c main_v7) ?_
  funext a; apply Fin.ext
  match a with
  | ⟨0, _⟩ => show win5_10.index t (0 : Fin 2) * 1 + 1 * (y 0).val = (y 0).val; omega
  | ⟨1, _⟩ => show win5_10.index t (1 : Fin 2) * 512 + 1 * (y 1).val = (y 1).val; omega

/-- What point t writes back into output 0 is block t of the cell's array function of the arrays the region is entered with. -/
theorem flushed5_11_eq (c : Dev nD) (t : Fin cfg5.N) :
    (dat5 V c).flushed 11 t = ((cfg5.win 11).blk t).view.read (Elt Ideal) (TreeSpec.cellArrH (N := 64) (V c main_v28) (V c main_v26) (V c main_v27) (TreeSpec.winParams (V c main_v0) (V c main_v4) (V c main_v1) (V c main_v5) (V c main_v2) (V c main_v6) (V c main_v3) (V c main_v7))) := by
  show (cfg5.win 11).cut (grid5.coords t) ((dat5 V c).after 11 t) = _
  rw [after5_11]
  unfold out5_11
  rw [View.canon_unit_zero TreeSpec.hz2]
  simp only [View.ld_unit_zero (S := S64x128) TreeSpec.hz2, View.ld_unit_zero (S := S64x512) TreeSpec.hz2, View.ld_unit_zero (S := S128x384) TreeSpec.hz2, View.ld_unit_zero (S := S1x384) TreeSpec.hz2, View.ld_unit_zero (S := S512x384) TreeSpec.hz2, View.ld_unit_zero (S := S128x128) TreeSpec.hz2, View.ld_unit_zero (S := S1x128) TreeSpec.hz2, View.ld_unit_zero (S := S512x512) TreeSpec.hz2, View.ld_unit_zero (S := S1x512) TreeSpec.hz2]
  rw [iblk5_3_eq V c t, iblk5_4_eq V c t, iblk5_5_eq V c t, iblk5_6_eq V c t, iblk5_7_eq V c t, iblk5_8_eq V c t, iblk5_9_eq V c t, iblk5_10_eq V c t]
  funext j
  obtain ⟨r, q, rfl⟩ : ∃ (r : Fin 64) (q : Fin 128), j = ix2 r q := ⟨j 0, j 1, eq_ix2 j⟩
  have hemb : ((cfg5.win 11).blk t).view.emb (ix2 r q) = (ix2 ⟨t.val * 64 + r.val, by have := tlt5 t; omega⟩ q : S64x128.Idx) := by
    obtain ⟨e0a, e0b, e1a, e1b, e2a, e2b, e3a, e3b, e4a, e4b, e5a, e5b, e6a, e6b, e7a, e7b, e8a, e8b, e9a, e9b, e10a, e10b, e11a, e11b, e12a, e12b⟩ := idx_facts5 t
    funext a; apply Fin.ext
    match a with
    | ⟨0, _⟩ => show win5_11.index t (0 : Fin 2) * 64 + 1 * r.val = t.val * 64 + r.val; omega
    | ⟨1, _⟩ => show win5_11.index t (1 : Fin 2) * 128 + 1 * q.val = q.val; omega
  show bodyH5 (F := Ideal) (iblk5 V c 0 t) (iblk5 V c 1 t) (iblk5 V c 2 t) (V c main_v0) (V c main_v4) (V c main_v1) (V c main_v5) (V c main_v2) (V c main_v6) (V c main_v3) (V c main_v7) (ix2 r q) = (TreeSpec.cellArrH (N := 64) (V c main_v28) (V c main_v26) (V c main_v27) (TreeSpec.winParams (V c main_v0) (V c main_v4) (V c main_v1) (V c main_v5) (V c main_v2) (V c main_v6) (V c main_v3) (V c main_v7))) (((cfg5.win 11).blk t).view.emb (ix2 r q))
  rw [hemb, bodyH5_apply]
  unfold TreeSpec.cellArrH
  simp only [iblk5_0_apply V c t, iblk5_1_apply V c t, iblk5_2_apply V c t] <;> rfl

/-- An index of output 0's array is in point t's block iff each coordinate is in the block's range on its axis. -/
theorem mem_blk5_11 (t : Fin cfg5.N) (i : S64x128.Idx) :
    i ∈ ((cfg5.win 11).blk t).view.set ↔ ∀ a : Fin 2, win5_11.index t a * S64x128.size a ≤ (i a).val ∧ (i a).val < win5_11.index t a * S64x128.size a + S64x128.size a := by
  show i ∈ ((View.whole main_v29_0).slice (win5_11.rect t)).set ↔ _
  rw [View.set_slice_whole, Rect.mem_set_unit]
  exact Iff.rfl

/-- Every index of output 0's array is in the block of the point its row falls in. -/
theorem covered5_11 (i : S64x128.Idx) : ∃ t : Fin cfg5.N, (cfg5.win 11).flush t = true ∧ i ∈ ((cfg5.win 11).blk t).view.set := by
  have hi0 : (i 0).val < 64 := (i 0).isLt
  have hi1 : (i 1).val < 128 := (i 1).isLt
  have ht : (i 0).val / 64 < cfg5.N := by rw [show cfg5.N = 1 from N_5]; omega
  refine ⟨⟨(i 0).val / 64, ht⟩, flush5_11 _, ?_⟩
  rw [mem_blk5_11]
  obtain ⟨e0a, e0b, e1a, e1b, e2a, e2b, e3a, e3b, e4a, e4b, e5a, e5b, e6a, e6b, e7a, e7b, e8a, e8b, e9a, e9b, e10a, e10b, e11a, e11b, e12a, e12b⟩ := idx_facts5 ⟨(i 0).val / 64, ht⟩
  intro a
  match a with
  | ⟨0, _⟩ => show win5_11.index _ (0 : Fin 2) * 64 ≤ (i 0).val ∧ (i 0).val < win5_11.index _ (0 : Fin 2) * 64 + 64; rw [e11a]; show (i 0).val / 64 * 64 ≤ (i 0).val ∧ (i 0).val < (i 0).val / 64 * 64 + 64; omega
  | ⟨1, _⟩ => show win5_11.index _ (1 : Fin 2) * 128 ≤ (i 1).val ∧ (i 1).val < win5_11.index _ (1 : Fin 2) * 128 + 128; rw [e11b]; omega

/-- Output 0's array after the region: the cell's array function of the arrays the region is entered with. -/
theorem final5_H (c : Dev nD) : (dat5 V c).arrAt 11 cfg5.N = (TreeSpec.cellArrH (N := 64) (V c main_v28) (V c main_v26) (V c main_v27) (TreeSpec.winParams (V c main_v0) (V c main_v4) (V c main_v1) (V c main_v5) (V c main_v2) (V c main_v6) (V c main_v3) (V c main_v7))) :=
  (dat5 V c).arrAt_eq_of_cover 11 _ (fun t _ => flushed5_11_eq V c t) (covered5_11)

/-- What point t writes back into output 1 is block t of the cell's array function of the arrays the region is entered with. -/
theorem flushed5_12_eq (c : Dev nD) (t : Fin cfg5.N) :
    (dat5 V c).flushed 12 t = ((cfg5.win 12).blk t).view.read (Elt Ideal) (TreeSpec.cellArrC (N := 64) (V c main_v28) (V c main_v26) (V c main_v27) (TreeSpec.winParams (V c main_v0) (V c main_v4) (V c main_v1) (V c main_v5) (V c main_v2) (V c main_v6) (V c main_v3) (V c main_v7))) := by
  show (cfg5.win 12).cut (grid5.coords t) ((dat5 V c).after 12 t) = _
  rw [after5_12]
  unfold out5_12
  rw [View.canon_unit_zero TreeSpec.hz2]
  simp only [View.ld_unit_zero (S := S64x128) TreeSpec.hz2, View.ld_unit_zero (S := S64x512) TreeSpec.hz2, View.ld_unit_zero (S := S128x384) TreeSpec.hz2, View.ld_unit_zero (S := S1x384) TreeSpec.hz2, View.ld_unit_zero (S := S512x384) TreeSpec.hz2, View.ld_unit_zero (S := S128x128) TreeSpec.hz2, View.ld_unit_zero (S := S1x128) TreeSpec.hz2, View.ld_unit_zero (S := S512x512) TreeSpec.hz2, View.ld_unit_zero (S := S1x512) TreeSpec.hz2]
  rw [iblk5_3_eq V c t, iblk5_4_eq V c t, iblk5_5_eq V c t, iblk5_6_eq V c t, iblk5_7_eq V c t, iblk5_8_eq V c t, iblk5_9_eq V c t, iblk5_10_eq V c t]
  funext j
  obtain ⟨r, q, rfl⟩ : ∃ (r : Fin 64) (q : Fin 128), j = ix2 r q := ⟨j 0, j 1, eq_ix2 j⟩
  have hemb : ((cfg5.win 12).blk t).view.emb (ix2 r q) = (ix2 ⟨t.val * 64 + r.val, by have := tlt5 t; omega⟩ q : S64x128.Idx) := by
    obtain ⟨e0a, e0b, e1a, e1b, e2a, e2b, e3a, e3b, e4a, e4b, e5a, e5b, e6a, e6b, e7a, e7b, e8a, e8b, e9a, e9b, e10a, e10b, e11a, e11b, e12a, e12b⟩ := idx_facts5 t
    funext a; apply Fin.ext
    match a with
    | ⟨0, _⟩ => show win5_12.index t (0 : Fin 2) * 64 + 1 * r.val = t.val * 64 + r.val; omega
    | ⟨1, _⟩ => show win5_12.index t (1 : Fin 2) * 128 + 1 * q.val = q.val; omega
  show bodyC5 (F := Ideal) (iblk5 V c 0 t) (iblk5 V c 1 t) (iblk5 V c 2 t) (V c main_v0) (V c main_v4) (V c main_v1) (V c main_v5) (V c main_v2) (V c main_v6) (V c main_v3) (V c main_v7) (ix2 r q) = (TreeSpec.cellArrC (N := 64) (V c main_v28) (V c main_v26) (V c main_v27) (TreeSpec.winParams (V c main_v0) (V c main_v4) (V c main_v1) (V c main_v5) (V c main_v2) (V c main_v6) (V c main_v3) (V c main_v7))) (((cfg5.win 12).blk t).view.emb (ix2 r q))
  rw [hemb, bodyC5_apply]
  unfold TreeSpec.cellArrC
  simp only [iblk5_0_apply V c t, iblk5_1_apply V c t, iblk5_2_apply V c t] <;> rfl

/-- An index of output 1's array is in point t's block iff each coordinate is in the block's range on its axis. -/
theorem mem_blk5_12 (t : Fin cfg5.N) (i : S64x128.Idx) :
    i ∈ ((cfg5.win 12).blk t).view.set ↔ ∀ a : Fin 2, win5_12.index t a * S64x128.size a ≤ (i a).val ∧ (i a).val < win5_12.index t a * S64x128.size a + S64x128.size a := by
  show i ∈ ((View.whole main_v29_1).slice (win5_12.rect t)).set ↔ _
  rw [View.set_slice_whole, Rect.mem_set_unit]
  exact Iff.rfl

/-- Every index of output 1's array is in the block of the point its row falls in. -/
theorem covered5_12 (i : S64x128.Idx) : ∃ t : Fin cfg5.N, (cfg5.win 12).flush t = true ∧ i ∈ ((cfg5.win 12).blk t).view.set := by
  have hi0 : (i 0).val < 64 := (i 0).isLt
  have hi1 : (i 1).val < 128 := (i 1).isLt
  have ht : (i 0).val / 64 < cfg5.N := by rw [show cfg5.N = 1 from N_5]; omega
  refine ⟨⟨(i 0).val / 64, ht⟩, flush5_12 _, ?_⟩
  rw [mem_blk5_12]
  obtain ⟨e0a, e0b, e1a, e1b, e2a, e2b, e3a, e3b, e4a, e4b, e5a, e5b, e6a, e6b, e7a, e7b, e8a, e8b, e9a, e9b, e10a, e10b, e11a, e11b, e12a, e12b⟩ := idx_facts5 ⟨(i 0).val / 64, ht⟩
  intro a
  match a with
  | ⟨0, _⟩ => show win5_12.index _ (0 : Fin 2) * 64 ≤ (i 0).val ∧ (i 0).val < win5_12.index _ (0 : Fin 2) * 64 + 64; rw [e12a]; show (i 0).val / 64 * 64 ≤ (i 0).val ∧ (i 0).val < (i 0).val / 64 * 64 + 64; omega
  | ⟨1, _⟩ => show win5_12.index _ (1 : Fin 2) * 128 ≤ (i 1).val ∧ (i 1).val < win5_12.index _ (1 : Fin 2) * 128 + 128; rw [e12b]; omega

/-- Output 1's array after the region: the cell's array function of the arrays the region is entered with. -/
theorem final5_C (c : Dev nD) : (dat5 V c).arrAt 12 cfg5.N = (TreeSpec.cellArrC (N := 64) (V c main_v28) (V c main_v26) (V c main_v27) (TreeSpec.winParams (V c main_v0) (V c main_v4) (V c main_v1) (V c main_v5) (V c main_v2) (V c main_v6) (V c main_v3) (V c main_v7))) :=
  (dat5 V c).arrAt_eq_of_cover 12 _ (fun t _ => flushed5_12_eq V c t) (covered5_12)

end Cert.KernelIdeal.Hand

end
-- ==== Proof.KI.Cell6.lean ====
/-
  Region 6 of the kernel (blocks of 16 nodes) read at an index.  Row r of the region's two output blocks is the cell
  applied to node r: to row r of the node inputs, row r of the children's packed hidden rows and of their packed cell
  rows, with the eight parameter blocks as the region receives them (matrices already transposed, each bias one row).
  Entry (r, j) of the first output block is the specification's new hidden row at j, of the second its new cell row at j.

  The body forms the 384 gate pre-activations as x·W_iouᵀ + b_iou + h·U_iouᵀ + b_uiou in this order — the
  specification's grouping —, cuts them into the gates i, o, u, forms h·U_fᵀ + b_uf and x·W_fᵀ + b_wf, and adds the
  four forget-gate products to σ(i)·tanh(u) from left to right, again as the specification does; so after each
  operation is read at the index the two sides are the same expression.
-/
import proofs.«148344_j70635032150607_1_alg».proof.Proof.KI.Bodies
import proofs.«148344_j70635032150607_1_alg».proof.Proof.KI.CellLemmas
import proofs.«148344_j70635032150607_1_alg».proof.Proof.Spec

noncomputable section

namespace Cert.KernelIdeal.Hand

open Idealize.ShloMosaic Idealize.ShloMosaic.ValueIdx Cert.KernelIdeal Cert.KernelIdeal.Gen

/-- x · W_iouᵀ at (r, j): the sum over k of x(r, k) · W_iouᵀ(k, j), 128 terms. -/
theorem mm6_xW (A : FVec Ideal S16x128 .bf16) (B : FVec Ideal S128x384 .bf16) (r : Fin 16) (j : Fin 384) :
    matmul dot_S16x128_S128x384_S16x384_1_0_0_1_n_n none A B (constant (F := Ideal) S16x384 .f32 0x00000000#32) (ix2 r j)
      = ∑ k : Fin 128, A (ix2 r k) * B (ix2 k j) :=
  matmul_plain_apply none A B r j
/-- h · U_iouᵀ at (r, j): 512 terms. -/
theorem mm6_hU (A : FVec Ideal S16x512 .bf16) (B : FVec Ideal S512x384 .bf16) (r : Fin 16) (j : Fin 384) :
    matmul dot_S16x512_S512x384_S16x384_1_0_0_1_n_n none A B (constant (F := Ideal) S16x384 .f32 0x00000000#32) (ix2 r j)
      = ∑ k : Fin 512, A (ix2 r k) * B (ix2 k j) :=
  matmul_plain_apply none A B r j
/-- h · U_fᵀ at (r, q): 512 terms. -/
theorem mm6_hUf (A : FVec Ideal S16x512 .bf16) (B : FVec Ideal S512x512 .bf16) (r : Fin 16) (q : Fin 512) :
    matmul dot_S16x512_S512x512_S16x512_1_0_0_1_n_n none A B (constant (F := Ideal) S16x512 .f32 0x00000000#32) (ix2 r q)
      = ∑ k : Fin 512, A (ix2 r k) * B (ix2 k q) :=
  matmul_plain_apply none A B r q
/-- x · W_fᵀ at (r, j): 128 terms. -/
theorem mm6_xWf (A : FVec Ideal S16x128 .bf16) (B : FVec Ideal S128x128 .bf16) (r : Fin 16) (j : Fin 128) :
    matmul dot_S16x128_S128x128_S16x128_1_0_0_1_n_n none A B (constant (F := Ideal) S16x128 .f32 0x00000000#32) (ix2 r j)
      = ∑ k : Fin 128, A (ix2 r k) * B (ix2 k j) :=
  matmul_plain_apply none A B r j

/-- The gate pre-activations of node r at column j. -/
theorem iou6_apply (x0 : Vec Ideal S16x128 .f32) (x1 x2 : Vec Ideal S16x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 16) (j : Fin 384) :
    k6_pay10 (F := Ideal) x0 x1 x3 x5 x4 x6 (ix2 r j)
      = Cert.TreeSpec.iou (Cert.TreeSpec.winParams x3 x4 x5 x6 x7 x8 x9 x10) (fun k => x0 (ix2 r k)) (fun q => x1 (ix2 r q)) j := by
  unfold k6_pay10 k6_pay3 k6_pay5
  simp only [addf_apply, mm6_xW, mm6_hU, bcast_row_apply, truncf_apply, shapeCast_self]
  rfl

/-- The new cell row of node r at column j, as the body passes it on to the hidden row's formula. -/
theorem cell6_apply (x0 : Vec Ideal S16x128 .f32) (x1 x2 : Vec Ideal S16x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 16) (j : Fin 128) :
    k6_pay1 (F := Ideal) (k6_pay3 x0) (k6_pay4 x2) (k6_pay5 x1) (k6_pay6 x7) (k6_pay7 x9) (k6_pay8 x8) (k6_pay9 x10) (k6_pay10 x0 x1 x3 x5 x4 x6) (ix2 r j)
      = Cert.TreeSpec.cNew (Cert.TreeSpec.winParams x3 x4 x5 x6 x7 x8 x9 x10) (fun k => x0 (ix2 r k)) (fun q => x1 (ix2 r q)) (fun q => x2 (ix2 r q)) j := by
  unfold k6_pay1 k6_pay3 k6_pay4 k6_pay5 k6_pay6 k6_pay7 k6_pay8 k6_pay9
  simp only [addf_apply, mulf_apply, logistic_apply, tanh_apply, slice_cols_apply, mm6_hUf, mm6_xWf, bcast_row_apply,
    truncf_apply, shapeCast_self, iou6_apply x0 x1 x2 x3 x4 x5 x6 x7 x8 x9 x10]
  rfl

/-- The second output block: the new cell rows. -/
theorem bodyC6_apply (x0 : Vec Ideal S16x128 .f32) (x1 x2 : Vec Ideal S16x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 16) (j : Fin 128) :
    bodyC6 (F := Ideal) x0 x1 x2 x3 x4 x5 x6 x7 x8 x9 x10 (ix2 r j)
      = Cert.TreeSpec.cNew (Cert.TreeSpec.winParams x3 x4 x5 x6 x7 x8 x9 x10) (fun k => x0 (ix2 r k)) (fun q => x1 (ix2 r q)) (fun q => x2 (ix2 r q)) j :=
  cell6_apply x0 x1 x2 x3 x4 x5 x6 x7 x8 x9 x10 r j

/-- The first output block: the new hidden rows, σ(o)·tanh of the new cell row. -/
theorem bodyH6_apply (x0 : Vec Ideal S16x128 .f32) (x1 x2 : Vec Ideal S16x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 16) (j : Fin 128) :
    bodyH6 (F := Ideal) x0 x1 x2 x3 x4 x5 x6 x7 x8 x9 x10 (ix2 r j)
      = Cert.TreeSpec.hNew (Cert.TreeSpec.winParams x3 x4 x5 x6 x7 x8 x9 x10) (fun k => x0 (ix2 r k)) (fun q => x1 (ix2 r q)) (fun q => x2 (ix2 r q)) j := by
  unfold bodyH6 k6_pay2
  simp only [mulf_apply, logistic_apply, tanh_apply, slice_cols_apply, cell6_apply x0 x1 x2 x3 x4 x5 x6 x7 x8 x9 x10, iou6_apply x0 x1 x2 x3 x4 x5 x6 x7 x8 x9 x10]
  rfl

end Cert.KernelIdeal.Hand

end
-- ==== Proof.KI.Val6.lean ====
/-
  What region 6 leaves in its two output arrays, at the ideal instance, as ONE function of the arrays it is entered with: the cell
  (Proof/Spec.lean) at every row.  Grid point t's blocks are rows t·16 … t·16+15 of the row arrays and the whole of each parameter
  array (the index maps, decided over the grid); what point t writes back is block t of that function (the body's arithmetic at an
  index is the cell's: Proof/KI/Cell6.lean); the 1 blocks cover the output arrays.
-/
import proofs.«148344_j70635032150607_1_alg».proof.Proof.KI.Region6
import proofs.«148344_j70635032150607_1_alg».proof.Proof.KI.Cell6
import proofs.«148344_j70635032150607_1_alg».proof.Proof.CellArr
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert

variable (V : (c : Dev nD) → (b : Ref sig .tc) → Buf (Elt Ideal) ((c : Thread nD τ).loc b))

/-- The printed index maps, decided over the grid. -/
theorem idx_facts6 : ∀ t : Fin cfg6.N, win6_0.index t (0 : Fin 2) = t.val
    ∧ win6_0.index t (1 : Fin 2) = 0
    ∧ win6_1.index t (0 : Fin 2) = t.val
    ∧ win6_1.index t (1 : Fin 2) = 0
    ∧ win6_2.index t (0 : Fin 2) = t.val
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = 0
    ∧ win6_5.index t (1 : Fin 2) = 0
    ∧ win6_6.index t (0 : Fin 2) = 0
    ∧ win6_6.index t (1 : Fin 2) = 0
    ∧ win6_7.index t (0 : Fin 2) = 0
    ∧ win6_7.index t (1 : Fin 2) = 0
    ∧ win6_8.index t (0 : Fin 2) = 0
    ∧ win6_8.index t (1 : Fin 2) = 0
    ∧ win6_9.index t (0 : Fin 2) = 0
    ∧ win6_9.index t (1 : Fin 2) = 0
    ∧ win6_10.index t (0 : Fin 2) = 0
    ∧ win6_10.index t (1 : Fin 2) = 0
    ∧ win6_11.index t (0 : Fin 2) = t.val
    ∧ win6_11.index t (1 : Fin 2) = 0
    ∧ win6_12.index t (0 : Fin 2) = t.val
    ∧ win6_12.index t (1 : Fin 2) = 0 :=
  (by decide +kernel : ∀ t : Fin grid6.N, _)

theorem tlt6 (t : Fin cfg6.N) : t.val < 1 := lt_of_lt_of_eq t.isLt N_6

/-- Window 0's block at point t is rows t·16 … of its array. -/
theorem iblk6_0_apply (c : Dev nD) (t : Fin cfg6.N) (r : Fin 16) (k : Fin 128) :
    iblk6 V c 0 t (ix2 r k) = V c main_v32 (ix2 ⟨t.val * 16 + r.val, by have := tlt6 t; omega⟩ k) := by
  show V c main_v32 (((cfg6.win 0).blk t).view.emb (ix2 r k)) = _
  obtain ⟨e0a, e0b, e1a, e1b, e2a, e2b, e3a, e3b, e4a, e4b, e5a, e5b, e6a, e6b, e7a, e7b, e8a, e8b, e9a, e9b, e10a, e10b, e11a, e11b, e12a, e12b⟩ := idx_facts6 t
  refine congrArg (V c main_v32) ?_
  funext a; apply Fin.ext
  match a with
  | ⟨0, _⟩ => show win6_0.index t (0 : Fin 2) * 16 + 1 * r.val = t.val * 16 + r.val; omega
  | ⟨1, _⟩ => show win6_0.index t (1 : Fin 2) * 128 + 1 * k.val = k.val; omega

/-- Window 1's block at point t is rows t·16 … of its array. -/
theorem iblk6_1_apply (c : Dev nD) (t : Fin cfg6.N) (r : Fin 16) (k : Fin 512) :
    iblk6 V c 1 t (ix2 r k) = V c main_v30 (ix2 ⟨t.val * 16 + r.val, by have := tlt6 t; omega⟩ k) := by
  show V c main_v30 (((cfg6.win 1).blk t).view.emb (ix2 r k)) = _
  obtain ⟨e0a, e0b, e1a, e1b, e2a, e2b, e3a, e3b, e4a, e4b, e5a, e5b, e6a, e6b, e7a, e7b, e8a, e8b, e9a, e9b, e10a, e10b, e11a, e11b, e12a, e12b⟩ := idx_facts6 t
  refine congrArg (V c main_v30) ?_
  funext a; apply Fin.ext
  match a with
  | ⟨0, _⟩ => show win6_1.index t (0 : Fin 2) * 16 + 1 * r.val = t.val * 16 + r.val; omega
  | ⟨1, _⟩ => show win6_1.index t (1 : Fin 2) * 512 + 1 * k.val = k.val; omega

/-- Window 2's block at point t is rows t·16 … of its array. -/
theorem iblk6_2_apply (c : Dev nD) (t : Fin cfg6.N) (r : Fin 16) (k : Fin 512) :
    iblk6 V c 2 t (ix2 r k) = V c main_v31 (ix2 ⟨t.val * 16 + r.val, by have := tlt6 t; omega⟩ k) := by
  show V c main_v31 (((cfg6.win 2).blk t).view.emb (ix2 r k)) = _
  obtain ⟨e0a, e0b, e1a, e1b, e2a, e2b, e3a, e3b, e4a, e4b, e5a, e5b, e6a, e6b, e7a, e7b, e8a, e8b, e9a, e9b, e10a, e10b, e11a, e11b, e12a, e12b⟩ := idx_facts6 t
  refine congrArg (V c main_v31) ?_
  funext a; apply Fin.ext
  match a with
  | ⟨0, _⟩ => show win6_2.index t (0 : Fin 2) * 16 + 1 * r.val = t.val * 16 + r.val; omega
  | ⟨1, _⟩ => show win6_2.index t (1 : Fin 2) * 512 + 1 * k.val = k.val; omega

/-- Window 3's one block is its whole array. -/
theorem iblk6_3_eq (c : Dev nD) (t : Fin cfg6.N) : iblk6 V c 3 t = V c main_v0 := by
  funext y
  show V c main_v0 (((cfg6.win 3).blk t).view.emb y) = V c main_v0 y
  obtain ⟨e0a, e0b, e1a, e1b, e2a, e2b, e3a, e3b, e4a, e4b, e5a, e5b, e6a, e6b, e7a, e7b, e8a, e8b, e9a, e9b, e10a, e10b, e11a, e11b, e12a, e12b⟩ := idx_facts6 t
  refine congrArg (V c main_v0) ?_
  funext a; apply Fin.ext
  match a with
  | ⟨0, _⟩ => show win6_3.index t (0 : Fin 2) * 128 + 1 * (y 0).val = (y 0).val; omega
  | ⟨1, _⟩ => show win6_3.index t (1 : Fin 2) * 384 + 1 * (y 1).val = (y 1).val; omega

/-- Window 4's one block is its whole array. -/
theorem iblk6_4_eq (c : Dev nD) (t : Fin cfg6.N) : iblk6 V c 4 t = V c main_v4 := by
  funext y
  show V c main_v4 (((cfg6.win 4).blk t).view.emb y) = V c main_v4 y
  obtain ⟨e0a, e0b, e1a, e1b, e2a, e2b, e3a, e3b, e4a, e4b, e5a, e5b, e6a, e6b, e7a, e7b, e8a, e8b, e9a, e9b, e10a, e10b, e11a, e11b, e12a, e12b⟩ := idx_facts6 t
  refine congrArg (V c main_v4) ?_
  funext a; apply Fin.ext
  match a with
  | ⟨0, _⟩ => show win6_4.index t (0 : Fin 2) * 1 + 1 * (y 0).val = (y 0).val; omega
  | ⟨1, _⟩ => show win6_4.index t (1 : Fin 2) * 384 + 1 * (y 1).val = (y 1).val; omega

/-- Window 5's one block is its whole array. -/
theorem iblk6_5_eq (c : Dev nD) (t : Fin cfg6.N) : iblk6 V c 5 t = V c main_v1 := by
  funext y
  show V c main_v1 (((cfg6.win 5).blk t).view.emb y) = V c main_v1 y
  obtain ⟨e0a, e0b, e1a, e1b, e2a, e2b, e3a, e3b, e4a, e4b, e5a, e5b, e6a, e6b, e7a, e7b, e8a, e8b, e9a, e9b, e10a, e10b, e11a, e11b, e12a, e12b⟩ := idx_facts6 t
  refine congrArg (V c main_v1) ?_
  funext a; apply Fin.ext
  match a with
  | ⟨0, _⟩ => show win6_5.index t (0 : Fin 2) * 512 + 1 * (y 0).val = (y 0).val; omega
  | ⟨1, _⟩ => show win6_5.index t (1 : Fin 2) * 384 + 1 * (y 1).val = (y 1).val; omega

/-- Window 6's one block is its whole array. -/
theorem iblk6_6_eq (c : Dev nD) (t : Fin cfg6.N) : iblk6 V c 6 t = V c main_v5 := by
  funext y
  show V c main_v5 (((cfg6.win 6).blk t).view.emb y) = V c main_v5 y
  obtain ⟨e0a, e0b, e1a, e1b, e2a, e2b, e3a, e3b, e4a, e4b, e5a, e5b, e6a, e6b, e7a, e7b, e8a, e8b, e9a, e9b, e10a, e10b, e11a, e11b, e12a, e12b⟩ := idx_facts6 t
  refine congrArg (V c main_v5) ?_
  funext a; apply Fin.ext
  match a with
  | ⟨0, _⟩ => show win6_6.index t (0 : Fin 2) * 1 + 1 * (y 0).val = (y 0).val; omega
  | ⟨1, _⟩ => show win6_6.index t (1 : Fin 2) * 384 + 1 * (y 1).val = (y 1).val; omega

/-- Window 7's one block is its whole array. -/
theorem iblk6_7_eq (c : Dev nD) (t : Fin cfg6.N) : iblk6 V c 7 t = V c main_v2 := by
  funext y
  show V c main_v2 (((cfg6.win 7).blk t).view.emb y) = V c main_v2 y
  obtain ⟨e0a, e0b, e1a, e1b, e2a, e2b, e3a, e3b, e4a, e4b, e5a, e5b, e6a, e6b, e7a, e7b, e8a, e8b, e9a, e9b, e10a, e10b, e11a, e11b, e12a, e12b⟩ := idx_facts6 t
  refine congrArg (V c main_v2) ?_
  funext a; apply Fin.ext
  match a with
  | ⟨0, _⟩ => show win6_7.index t (0 : Fin 2) * 128 + 1 * (y 0).val = (y 0).val; omega
  | ⟨1, _⟩ => show win6_7.index t (1 : Fin 2) * 128 + 1 * (y 1).val = (y 1).val; omega

/-- Window 8's one block is its whole array. -/
theorem iblk6_8_eq (c : Dev nD) (t : Fin cfg6.N) : iblk6 V c 8 t = V c main_v6 := by
  funext y
  show V c main_v6 (((cfg6.win 8).blk t).view.emb y) = V c main_v6 y
  obtain ⟨e0a, e0b, e1a, e1b, e2a, e2b, e3a, e3b, e4a, e4b, e5a, e5b, e6a, e6b, e7a, e7b, e8a, e8b, e9a, e9b, e10a, e10b, e11a, e11b, e12a, e12b⟩ := idx_facts6 t
  refine congrArg (V c main_v6) ?_
  funext a; apply Fin.ext
  match a with
  | ⟨0, _⟩ => show win6_8.index t (0 : Fin 2) * 1 + 1 * (y 0).val = (y 0).val; omega
  | ⟨1, _⟩ => show win6_8.index t (1 : Fin 2) * 128 + 1 * (y 1).val = (y 1).val; omega

/-- Window 9's one block is its whole array. -/
theorem iblk6_9_eq (c : Dev nD) (t : Fin cfg6.N) : iblk6 V c 9 t = V c main_v3 := by
  funext y
  show V c main_v3 (((cfg6.win 9).blk t).view.emb y) = V c main_v3 y
  obtain ⟨e0a, e0b, e1a, e1b, e2a, e2b, e3a, e3b, e4a, e4b, e5a, e5b, e6a, e6b, e7a, e7b, e8a, e8b, e9a, e9b, e10a, e10b, e11a, e11b, e12a, e12b⟩ := idx_facts6 t
  refine congrArg (V c main_v3) ?_
  funext a; apply Fin.ext
  match a with
  | ⟨0, _⟩ => show win6_9.index t (0 : Fin 2) * 512 + 1 * (y 0).val = (y 0).val; omega
  | ⟨1, _⟩ => show win6_9.index t (1 : Fin 2) * 512 + 1 * (y 1).val = (y 1).val; omega

/-- Window 10's one block is its whole array. -/
theorem iblk6_10_eq (c : Dev nD) (t : Fin cfg6.N) : iblk6 V c 10 t = V c main_v7 := by
  funext y
  show V c main_v7 (((cfg6.win 10).blk t).view.emb y) = V c main_v7 y
  obtain ⟨e0a, e0b, e1a, e1b, e2a, e2b, e3a, e3b, e4a, e4b, e5a, e5b, e6a, e6b, e7a, e7b, e8a, e8b, e9a, e9b, e10a, e10b, e11a, e11b, e12a, e12b⟩ := idx_facts6 t
  refine congrArg (V c main_v7) ?_
  funext a; apply Fin.ext
  match a with
  | ⟨0, _⟩ => show win6_10.index t (0 : Fin 2) * 1 + 1 * (y 0).val = (y 0).val; omega
  | ⟨1, _⟩ => show win6_10.index t (1 : Fin 2) * 512 + 1 * (y 1).val = (y 1).val; omega

/-- What point t writes back into output 0 is block t of the cell's array function of the arrays the region is entered with. -/
theorem flushed6_11_eq (c : Dev nD) (t : Fin cfg6.N) :
    (dat6 V c).flushed 11 t = ((cfg6.win 11).blk t).view.read (Elt Ideal) (TreeSpec.cellArrH (N := 16) (V c main_v32) (V c main_v30) (V c main_v31) (TreeSpec.winParams (V c main_v0) (V c main_v4) (V c main_v1) (V c main_v5) (V c main_v2) (V c main_v6) (V c main_v3) (V c main_v7))) := by
  show (cfg6.win 11).cut (grid6.coords t) ((dat6 V c).after 11 t) = _
  rw [after6_11]
  unfold out6_11
  rw [View.canon_unit_zero TreeSpec.hz2]
  simp only [View.ld_unit_zero (S := S16x128) TreeSpec.hz2, View.ld_unit_zero (S := S16x512) TreeSpec.hz2, View.ld_unit_zero (S := S128x384) TreeSpec.hz2, View.ld_unit_zero (S := S1x384) TreeSpec.hz2, View.ld_unit_zero (S := S512x384) TreeSpec.hz2, View.ld_unit_zero (S := S128x128) TreeSpec.hz2, View.ld_unit_zero (S := S1x128) TreeSpec.hz2, View.ld_unit_zero (S := S512x512) TreeSpec.hz2, View.ld_unit_zero (S := S1x512) TreeSpec.hz2]
  rw [iblk6_3_eq V c t, iblk6_4_eq V c t, iblk6_5_eq V c t, iblk6_6_eq V c t, iblk6_7_eq V c t, iblk6_8_eq V c t, iblk6_9_eq V c t, iblk6_10_eq V c t]
  funext j
  obtain ⟨r, q, rfl⟩ : ∃ (r : Fin 16) (q : Fin 128), j = ix2 r q := ⟨j 0, j 1, eq_ix2 j⟩
  have hemb : ((cfg6.win 11).blk t).view.emb (ix2 r q) = (ix2 ⟨t.val * 16 + r.val, by have := tlt6 t; omega⟩ q : S16x128.Idx) := by
    obtain ⟨e0a, e0b, e1a, e1b, e2a, e2b, e3a, e3b, e4a, e4b, e5a, e5b, e6a, e6b, e7a, e7b, e8a, e8b, e9a, e9b, e10a, e10b, e11a, e11b, e12a, e12b⟩ := idx_facts6 t
    funext a; apply Fin.ext
    match a with
    | ⟨0, _⟩ => show win6_11.index t (0 : Fin 2) * 16 + 1 * r.val = t.val * 16 + r.val; omega
    | ⟨1, _⟩ => show win6_11.index t (1 : Fin 2) * 128 + 1 * q.val = q.val; omega
  show bodyH6 (F := Ideal) (iblk6 V c 0 t) (iblk6 V c 1 t) (iblk6 V c 2 t) (V c main_v0) (V c main_v4) (V c main_v1) (V c main_v5) (V c main_v2) (V c main_v6) (V c main_v3) (V c main_v7) (ix2 r q) = (TreeSpec.cellArrH (N := 16) (V c main_v32) (V c main_v30) (V c main_v31) (TreeSpec.winParams (V c main_v0) (V c main_v4) (V c main_v1) (V c main_v5) (V c main_v2) (V c main_v6) (V c main_v3) (V c main_v7))) (((cfg6.win 11).blk t).view.emb (ix2 r q))
  rw [hemb, bodyH6_apply]
  unfold TreeSpec.cellArrH
  simp only [iblk6_0_apply V c t, iblk6_1_apply V c t, iblk6_2_apply V c t] <;> rfl

/-- An index of output 0's array is in point t's block iff each coordinate is in the block's range on its axis. -/
theorem mem_blk6_11 (t : Fin cfg6.N) (i : S16x128.Idx) :
    i ∈ ((cfg6.win 11).blk t).view.set ↔ ∀ a : Fin 2, win6_11.index t a * S16x128.size a ≤ (i a).val ∧ (i a).val < win6_11.index t a * S16x128.size a + S16x128.size a := by
  show i ∈ ((View.whole main_v33_0).slice (win6_11.rect t)).set ↔ _
  rw [View.set_slice_whole, Rect.mem_set_unit]
  exact Iff.rfl

/-- Every index of output 0's array is in the block of the point its row falls in. -/
theorem covered6_11 (i : S16x128.Idx) : ∃ t : Fin cfg6.N, (cfg6.win 11).flush t = true ∧ i ∈ ((cfg6.win 11).blk t).view.set := by
  have hi0 : (i 0).val < 16 := (i 0).isLt
  have hi1 : (i 1).val < 128 := (i 1).isLt
  have ht : (i 0).val / 16 < cfg6.N := by rw [show cfg6.N = 1 from N_6]; omega
  refine ⟨⟨(i 0).val / 16, ht⟩, flush6_11 _, ?_⟩
  rw [mem_blk6_11]
  obtain ⟨e0a, e0b, e1a, e1b, e2a, e2b, e3a, e3b, e4a, e4b, e5a, e5b, e6a, e6b, e7a, e7b, e8a, e8b, e9a, e9b, e10a, e10b, e11a, e11b, e12a, e12b⟩ := idx_facts6 ⟨(i 0).val / 16, ht⟩
  intro a
  match a with
  | ⟨0, _⟩ => show win6_11.index _ (0 : Fin 2) * 16 ≤ (i 0).val ∧ (i 0).val < win6_11.index _ (0 : Fin 2) * 16 + 16; rw [e11a]; show (i 0).val / 16 * 16 ≤ (i 0).val ∧ (i 0).val < (i 0).val / 16 * 16 + 16; omega
  | ⟨1, _⟩ => show win6_11.index _ (1 : Fin 2) * 128 ≤ (i 1).val ∧ (i 1).val < win6_11.index _ (1 : Fin 2) * 128 + 128; rw [e11b]; omega

/-- Output 0's array after the region: the cell's array function of the arrays the region is entered with. -/
theorem final6_H (c : Dev nD) : (dat6 V c).arrAt 11 cfg6.N = (TreeSpec.cellArrH (N := 16) (V c main_v32) (V c main_v30) (V c main_v31) (TreeSpec.winParams (V c main_v0) (V c main_v4) (V c main_v1) (V c main_v5) (V c main_v2) (V c main_v6) (V c main_v3) (V c main_v7))) :=
  (dat6 V c).arrAt_eq_of_cover 11 _ (fun t _ => flushed6_11_eq V c t) (covered6_11)

/-- What point t writes back into output 1 is block t of the cell's array function of the arrays the region is entered with. -/
theorem flushed6_12_eq (c : Dev nD) (t : Fin cfg6.N) :
    (dat6 V c).flushed 12 t = ((cfg6.win 12).blk t).view.read (Elt Ideal) (TreeSpec.cellArrC (N := 16) (V c main_v32) (V c main_v30) (V c main_v31) (TreeSpec.winParams (V c main_v0) (V c main_v4) (V c main_v1) (V c main_v5) (V c main_v2) (V c main_v6) (V c main_v3) (V c main_v7))) := by
  show (cfg6.win 12).cut (grid6.coords t) ((dat6 V c).after 12 t) = _
  rw [after6_12]
  unfold out6_12
  rw [View.canon_unit_zero TreeSpec.hz2]
  simp only [View.ld_unit_zero (S := S16x128) TreeSpec.hz2, View.ld_unit_zero (S := S16x512) TreeSpec.hz2, View.ld_unit_zero (S := S128x384) TreeSpec.hz2, View.ld_unit_zero (S := S1x384) TreeSpec.hz2, View.ld_unit_zero (S := S512x384) TreeSpec.hz2, View.ld_unit_zero (S := S128x128) TreeSpec.hz2, View.ld_unit_zero (S := S1x128) TreeSpec.hz2, View.ld_unit_zero (S := S512x512) TreeSpec.hz2, View.ld_unit_zero (S := S1x512) TreeSpec.hz2]
  rw [iblk6_3_eq V c t, iblk6_4_eq V c t, iblk6_5_eq V c t, iblk6_6_eq V c t, iblk6_7_eq V c t, iblk6_8_eq V c t, iblk6_9_eq V c t, iblk6_10_eq V c t]
  funext j
  obtain ⟨r, q, rfl⟩ : ∃ (r : Fin 16) (q : Fin 128), j = ix2 r q := ⟨j 0, j 1, eq_ix2 j⟩
  have hemb : ((cfg6.win 12).blk t).view.emb (ix2 r q) = (ix2 ⟨t.val * 16 + r.val, by have := tlt6 t; omega⟩ q : S16x128.Idx) := by
    obtain ⟨e0a, e0b, e1a, e1b, e2a, e2b, e3a, e3b, e4a, e4b, e5a, e5b, e6a, e6b, e7a, e7b, e8a, e8b, e9a, e9b, e10a, e10b, e11a, e11b, e12a, e12b⟩ := idx_facts6 t
    funext a; apply Fin.ext
    match a with
    | ⟨0, _⟩ => show win6_12.index t (0 : Fin 2) * 16 + 1 * r.val = t.val * 16 + r.val; omega
    | ⟨1, _⟩ => show win6_12.index t (1 : Fin 2) * 128 + 1 * q.val = q.val; omega
  show bodyC6 (F := Ideal) (iblk6 V c 0 t) (iblk6 V c 1 t) (iblk6 V c 2 t) (V c main_v0) (V c main_v4) (V c main_v1) (V c main_v5) (V c main_v2) (V c main_v6) (V c main_v3) (V c main_v7) (ix2 r q) = (TreeSpec.cellArrC (N := 16) (V c main_v32) (V c main_v30) (V c main_v31) (TreeSpec.winParams (V c main_v0) (V c main_v4) (V c main_v1) (V c main_v5) (V c main_v2) (V c main_v6) (V c main_v3) (V c main_v7))) (((cfg6.win 12).blk t).view.emb (ix2 r q))
  rw [hemb, bodyC6_apply]
  unfold TreeSpec.cellArrC
  simp only [iblk6_0_apply V c t, iblk6_1_apply V c t, iblk6_2_apply V c t] <;> rfl

/-- An index of output 1's array is in point t's block iff each coordinate is in the block's range on its axis. -/
theorem mem_blk6_12 (t : Fin cfg6.N) (i : S16x128.Idx) :
    i ∈ ((cfg6.win 12).blk t).view.set ↔ ∀ a : Fin 2, win6_12.index t a * S16x128.size a ≤ (i a).val ∧ (i a).val < win6_12.index t a * S16x128.size a + S16x128.size a := by
  show i ∈ ((View.whole main_v33_1).slice (win6_12.rect t)).set ↔ _
  rw [View.set_slice_whole, Rect.mem_set_unit]
  exact Iff.rfl

/-- Every index of output 1's array is in the block of the point its row falls in. -/
theorem covered6_12 (i : S16x128.Idx) : ∃ t : Fin cfg6.N, (cfg6.win 12).flush t = true ∧ i ∈ ((cfg6.win 12).blk t).view.set := by
  have hi0 : (i 0).val < 16 := (i 0).isLt
  have hi1 : (i 1).val < 128 := (i 1).isLt
  have ht : (i 0).val / 16 < cfg6.N := by rw [show cfg6.N = 1 from N_6]; omega
  refine ⟨⟨(i 0).val / 16, ht⟩, flush6_12 _, ?_⟩
  rw [mem_blk6_12]
  obtain ⟨e0a, e0b, e1a, e1b, e2a, e2b, e3a, e3b, e4a, e4b, e5a, e5b, e6a, e6b, e7a, e7b, e8a, e8b, e9a, e9b, e10a, e10b, e11a, e11b, e12a, e12b⟩ := idx_facts6 ⟨(i 0).val / 16, ht⟩
  intro a
  match a with
  | ⟨0, _⟩ => show win6_12.index _ (0 : Fin 2) * 16 ≤ (i 0).val ∧ (i 0).val < win6_12.index _ (0 : Fin 2) * 16 + 16; rw [e12a]; show (i 0).val / 16 * 16 ≤ (i 0).val ∧ (i 0).val < (i 0).val / 16 * 16 + 16; omega
  | ⟨1, _⟩ => show win6_12.index _ (1 : Fin 2) * 128 ≤ (i 1).val ∧ (i 1).val < win6_12.index _ (1 : Fin 2) * 128 + 128; rw [e12b]; omega

/-- Output 1's array after the region: the cell's array function of the arrays the region is entered with. -/
theorem final6_C (c : Dev nD) : (dat6 V c).arrAt 12 cfg6.N = (TreeSpec.cellArrC (N := 16) (V c main_v32) (V c main_v30) (V c main_v31) (TreeSpec.winParams (V c main_v0) (V c main_v4) (V c main_v1) (V c main_v5) (V c main_v2) (V c main_v6) (V c main_v3) (V c main_v7))) :=
  (dat6 V c).arrAt_eq_of_cover 12 _ (fun t _ => flushed6_12_eq V c t) (covered6_12)

end Cert.KernelIdeal.Hand

end
-- ==== Proof.KI.Cell7.lean ====
/-
  Region 7 of the kernel (blocks of 4 nodes) read at an index.  Row r of the region's two output blocks is the cell
  applied to node r: to row r of the node inputs, row r of the children's packed hidden rows and of their packed cell
  rows, with the eight parameter blocks as the region receives them (matrices already transposed, each bias one row).
  Entry (r, j) of the first output block is the specification's new hidden row at j, of the second its new cell row at j.

  The body forms the 384 gate pre-activations as x·W_iouᵀ + b_iou + h·U_iouᵀ + b_uiou in this order — the
  specification's grouping —, cuts them into the gates i, o, u, forms h·U_fᵀ + b_uf and x·W_fᵀ + b_wf, and adds the
  four forget-gate products to σ(i)·tanh(u) from left to right, again as the specification does; so after each
  operation is read at the index the two sides are the same expression.
-/
import proofs.«148344_j70635032150607_1_alg».proof.Proof.KI.Bodies
import proofs.«148344_j70635032150607_1_alg».proof.Proof.KI.CellLemmas
import proofs.«148344_j70635032150607_1_alg».proof.Proof.Spec

noncomputable section

namespace Cert.KernelIdeal.Hand

open Idealize.ShloMosaic Idealize.ShloMosaic.ValueIdx Cert.KernelIdeal Cert.KernelIdeal.Gen

/-- x · W_iouᵀ at (r, j): the sum over k of x(r, k) · W_iouᵀ(k, j), 128 terms. -/
theorem mm7_xW (A : FVec Ideal S4x128 .bf16) (B : FVec Ideal S128x384 .bf16) (r : Fin 4) (j : Fin 384) :
    matmul dot_S4x128_S128x384_S4x384_1_0_0_1_n_n none A B (constant (F := Ideal) S4x384 .f32 0x00000000#32) (ix2 r j)
      = ∑ k : Fin 128, A (ix2 r k) * B (ix2 k j) :=
  matmul_plain_apply none A B r j
/-- h · U_iouᵀ at (r, j): 512 terms. -/
theorem mm7_hU (A : FVec Ideal S4x512 .bf16) (B : FVec Ideal S512x384 .bf16) (r : Fin 4) (j : Fin 384) :
    matmul dot_S4x512_S512x384_S4x384_1_0_0_1_n_n none A B (constant (F := Ideal) S4x384 .f32 0x00000000#32) (ix2 r j)
      = ∑ k : Fin 512, A (ix2 r k) * B (ix2 k j) :=
  matmul_plain_apply none A B r j
/-- h · U_fᵀ at (r, q): 512 terms. -/
theorem mm7_hUf (A : FVec Ideal S4x512 .bf16) (B : FVec Ideal S512x512 .bf16) (r : Fin 4) (q : Fin 512) :
    matmul dot_S4x512_S512x512_S4x512_1_0_0_1_n_n none A B (constant (F := Ideal) S4x512 .f32 0x00000000#32) (ix2 r q)
      = ∑ k : Fin 512, A (ix2 r k) * B (ix2 k q) :=
  matmul_plain_apply none A B r q
/-- x · W_fᵀ at (r, j): 128 terms. -/
theorem mm7_xWf (A : FVec Ideal S4x128 .bf16) (B : FVec Ideal S128x128 .bf16) (r : Fin 4) (j : Fin 128) :
    matmul dot_S4x128_S128x128_S4x128_1_0_0_1_n_n none A B (constant (F := Ideal) S4x128 .f32 0x00000000#32) (ix2 r j)
      = ∑ k : Fin 128, A (ix2 r k) * B (ix2 k j) :=
  matmul_plain_apply none A B r j

/-- The gate pre-activations of node r at column j. -/
theorem iou7_apply (x0 : Vec Ideal S4x128 .f32) (x1 x2 : Vec Ideal S4x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 4) (j : Fin 384) :
    k7_pay10 (F := Ideal) x0 x1 x3 x5 x4 x6 (ix2 r j)
      = Cert.TreeSpec.iou (Cert.TreeSpec.winParams x3 x4 x5 x6 x7 x8 x9 x10) (fun k => x0 (ix2 r k)) (fun q => x1 (ix2 r q)) j := by
  unfold k7_pay10 k7_pay3 k7_pay5
  simp only [addf_apply, mm7_xW, mm7_hU, bcast_row_apply, truncf_apply, shapeCast_self]
  rfl

/-- The new cell row of node r at column j, as the body passes it on to the hidden row's formula. -/
theorem cell7_apply (x0 : Vec Ideal S4x128 .f32) (x1 x2 : Vec Ideal S4x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 4) (j : Fin 128) :
    k7_pay1 (F := Ideal) (k7_pay3 x0) (k7_pay4 x2) (k7_pay5 x1) (k7_pay6 x7) (k7_pay7 x9) (k7_pay8 x8) (k7_pay9 x10) (k7_pay10 x0 x1 x3 x5 x4 x6) (ix2 r j)
      = Cert.TreeSpec.cNew (Cert.TreeSpec.winParams x3 x4 x5 x6 x7 x8 x9 x10) (fun k => x0 (ix2 r k)) (fun q => x1 (ix2 r q)) (fun q => x2 (ix2 r q)) j := by
  unfold k7_pay1 k7_pay3 k7_pay4 k7_pay5 k7_pay6 k7_pay7 k7_pay8 k7_pay9
  simp only [addf_apply, mulf_apply, logistic_apply, tanh_apply, slice_cols_apply, mm7_hUf, mm7_xWf, bcast_row_apply,
    truncf_apply, shapeCast_self, iou7_apply x0 x1 x2 x3 x4 x5 x6 x7 x8 x9 x10]
  rfl

/-- The second output block: the new cell rows. -/
theorem bodyC7_apply (x0 : Vec Ideal S4x128 .f32) (x1 x2 : Vec Ideal S4x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 4) (j : Fin 128) :
    bodyC7 (F := Ideal) x0 x1 x2 x3 x4 x5 x6 x7 x8 x9 x10 (ix2 r j)
      = Cert.TreeSpec.cNew (Cert.TreeSpec.winParams x3 x4 x5 x6 x7 x8 x9 x10) (fun k => x0 (ix2 r k)) (fun q => x1 (ix2 r q)) (fun q => x2 (ix2 r q)) j :=
  cell7_apply x0 x1 x2 x3 x4 x5 x6 x7 x8 x9 x10 r j

/-- The first output block: the new hidden rows, σ(o)·tanh of the new cell row. -/
theorem bodyH7_apply (x0 : Vec Ideal S4x128 .f32) (x1 x2 : Vec Ideal S4x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 4) (j : Fin 128) :
    bodyH7 (F := Ideal) x0 x1 x2 x3 x4 x5 x6 x7 x8 x9 x10 (ix2 r j)
      = Cert.TreeSpec.hNew (Cert.TreeSpec.winParams x3 x4 x5 x6 x7 x8 x9 x10) (fun k => x0 (ix2 r k)) (fun q => x1 (ix2 r q)) (fun q => x2 (ix2 r q)) j := by
  unfold bodyH7 k7_pay2
  simp only [mulf_apply, logistic_apply, tanh_apply, slice_cols_apply, cell7_apply x0 x1 x2 x3 x4 x5 x6 x7 x8 x9 x10, iou7_apply x0 x1 x2 x3 x4 x5 x6 x7 x8 x9 x10]
  rfl

end Cert.KernelIdeal.Hand

end
-- ==== Proof.KI.Val7.lean ====
/-
  What region 7 leaves in its two output arrays, at the ideal instance, as ONE function of the arrays it is entered with: the cell
  (Proof/Spec.lean) at every row.  Grid point t's blocks are rows t·4 … t·4+3 of the row arrays and the whole of each parameter
  array (the index maps, decided over the grid); what point t writes back is block t of that function (the body's arithmetic at an
  index is the cell's: Proof/KI/Cell7.lean); the 1 blocks cover the output arrays.
-/
import proofs.«148344_j70635032150607_1_alg».proof.Proof.KI.Region7
import proofs.«148344_j70635032150607_1_alg».proof.Proof.KI.Cell7
import proofs.«148344_j70635032150607_1_alg».proof.Proof.CellArr
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert

variable (V : (c : Dev nD) → (b : Ref sig .tc) → Buf (Elt Ideal) ((c : Thread nD τ).loc b))

/-- The printed index maps, decided over the grid. -/
theorem idx_facts7 : ∀ t : Fin cfg7.N, win7_0.index t (0 : Fin 2) = t.val
    ∧ win7_0.index t (1 : Fin 2) = 0
    ∧ win7_1.index t (0 : Fin 2) = t.val
    ∧ win7_1.index t (1 : Fin 2) = 0
    ∧ win7_2.index t (0 : Fin 2) = t.val
    ∧ win7_2.index t (1 : Fin 2) = 0
    ∧ win7_3.index t (0 : Fin 2) = 0
    ∧ win7_3.index t (1 : Fin 2) = 0
    ∧ win7_4.index t (0 : Fin 2) = 0
    ∧ win7_4.index t (1 : Fin 2) = 0
    ∧ win7_5.index t (0 : Fin 2) = 0
    ∧ win7_5.index t (1 : Fin 2) = 0
    ∧ win7_6.index t (0 : Fin 2) = 0
    ∧ win7_6.index t (1 : Fin 2) = 0
    ∧ win7_7.index t (0 : Fin 2) = 0
    ∧ win7_7.index t (1 : Fin 2) = 0
    ∧ win7_8.index t (0 : Fin 2) = 0
    ∧ win7_8.index t (1 : Fin 2) = 0
    ∧ win7_9.index t (0 : Fin 2) = 0
    ∧ win7_9.index t (1 : Fin 2) = 0
    ∧ win7_10.index t (0 : Fin 2) = 0
    ∧ win7_10.index t (1 : Fin 2) = 0
    ∧ win7_11.index t (0 : Fin 2) = t.val
    ∧ win7_11.index t (1 : Fin 2) = 0
    ∧ win7_12.index t (0 : Fin 2) = t.val
    ∧ win7_12.index t (1 : Fin 2) = 0 :=
  (by decide +kernel : ∀ t : Fin grid7.N, _)

theorem tlt7 (t : Fin cfg7.N) : t.val < 1 := lt_of_lt_of_eq t.isLt N_7

/-- Window 0's block at point t is rows t·4 … of its array. -/
theorem iblk7_0_apply (c : Dev nD) (t : Fin cfg7.N) (r : Fin 4) (k : Fin 128) :
    iblk7 V c 0 t (ix2 r k) = V c main_v36 (ix2 ⟨t.val * 4 + r.val, by have := tlt7 t; omega⟩ k) := by
  show V c main_v36 (((cfg7.win 0).blk t).view.emb (ix2 r k)) = _
  obtain ⟨e0a, e0b, e1a, e1b, e2a, e2b, e3a, e3b, e4a, e4b, e5a, e5b, e6a, e6b, e7a, e7b, e8a, e8b, e9a, e9b, e10a, e10b, e11a, e11b, e12a, e12b⟩ := idx_facts7 t
  refine congrArg (V c main_v36) ?_
  funext a; apply Fin.ext
  match a with
  | ⟨0, _⟩ => show win7_0.index t (0 : Fin 2) * 4 + 1 * r.val = t.val * 4 + r.val; omega
  | ⟨1, _⟩ => show win7_0.index t (1 : Fin 2) * 128 + 1 * k.val = k.val; omega

/-- Window 1's block at point t is rows t·4 … of its array. -/
theorem iblk7_1_apply (c : Dev nD) (t : Fin cfg7.N) (r : Fin 4) (k : Fin 512) :
    iblk7 V c 1 t (ix2 r k) = V c main_v34 (ix2 ⟨t.val * 4 + r.val, by have := tlt7 t; omega⟩ k) := by
  show V c main_v34 (((cfg7.win 1).blk t).view.emb (ix2 r k)) = _
  obtain ⟨e0a, e0b, e1a, e1b, e2a, e2b, e3a, e3b, e4a, e4b, e5a, e5b, e6a, e6b, e7a, e7b, e8a, e8b, e9a, e9b, e10a, e10b, e11a, e11b, e12a, e12b⟩ := idx_facts7 t
  refine congrArg (V c main_v34) ?_
  funext a; apply Fin.ext
  match a with
  | ⟨0, _⟩ => show win7_1.index t (0 : Fin 2) * 4 + 1 * r.val = t.val * 4 + r.val; omega
  | ⟨1, _⟩ => show win7_1.index t (1 : Fin 2) * 512 + 1 * k.val = k.val; omega

/-- Window 2's block at point t is rows t·4 … of its array. -/
theorem iblk7_2_apply (c : Dev nD) (t : Fin cfg7.N) (r : Fin 4) (k : Fin 512) :
    iblk7 V c 2 t (ix2 r k) = V c main_v35 (ix2 ⟨t.val * 4 + r.val, by have := tlt7 t; omega⟩ k) := by
  show V c main_v35 (((cfg7.win 2).blk t).view.emb (ix2 r k)) = _
  obtain ⟨e0a, e0b, e1a, e1b, e2a, e2b, e3a, e3b, e4a, e4b, e5a, e5b, e6a, e6b, e7a, e7b, e8a, e8b, e9a, e9b, e10a, e10b, e11a, e11b, e12a, e12b⟩ := idx_facts7 t
  refine congrArg (V c main_v35) ?_
  funext a; apply Fin.ext
  match a with
  | ⟨0, _⟩ => show win7_2.index t (0 : Fin 2) * 4 + 1 * r.val = t.val * 4 + r.val; omega
  | ⟨1, _⟩ => show win7_2.index t (1 : Fin 2) * 512 + 1 * k.val = k.val; omega

/-- Window 3's one block is its whole array. -/
theorem iblk7_3_eq (c : Dev nD) (t : Fin cfg7.N) : iblk7 V c 3 t = V c main_v0 := by
  funext y
  show V c main_v0 (((cfg7.win 3).blk t).view.emb y) = V c main_v0 y
  obtain ⟨e0a, e0b, e1a, e1b, e2a, e2b, e3a, e3b, e4a, e4b, e5a, e5b, e6a, e6b, e7a, e7b, e8a, e8b, e9a, e9b, e10a, e10b, e11a, e11b, e12a, e12b⟩ := idx_facts7 t
  refine congrArg (V c main_v0) ?_
  funext a; apply Fin.ext
  match a with
  | ⟨0, _⟩ => show win7_3.index t (0 : Fin 2) * 128 + 1 * (y 0).val = (y 0).val; omega
  | ⟨1, _⟩ => show win7_3.index t (1 : Fin 2) * 384 + 1 * (y 1).val = (y 1).val; omega

/-- Window 4's one block is its whole array. -/
theorem iblk7_4_eq (c : Dev nD) (t : Fin cfg7.N) : iblk7 V c 4 t = V c main_v4 := by
  funext y
  show V c main_v4 (((cfg7.win 4).blk t).view.emb y) = V c main_v4 y
  obtain ⟨e0a, e0b, e1a, e1b, e2a, e2b, e3a, e3b, e4a, e4b, e5a, e5b, e6a, e6b, e7a, e7b, e8a, e8b, e9a, e9b, e10a, e10b, e11a, e11b, e12a, e12b⟩ := idx_facts7 t
  refine congrArg (V c main_v4) ?_
  funext a; apply Fin.ext
  match a with
  | ⟨0, _⟩ => show win7_4.index t (0 : Fin 2) * 1 + 1 * (y 0).val = (y 0).val; omega
  | ⟨1, _⟩ => show win7_4.index t (1 : Fin 2) * 384 + 1 * (y 1).val = (y 1).val; omega

/-- Window 5's one block is its whole array. -/
theorem iblk7_5_eq (c : Dev nD) (t : Fin cfg7.N) : iblk7 V c 5 t = V c main_v1 := by
  funext y
  show V c main_v1 (((cfg7.win 5).blk t).view.emb y) = V c main_v1 y
  obtain ⟨e0a, e0b, e1a, e1b, e2a, e2b, e3a, e3b, e4a, e4b, e5a, e5b, e6a, e6b, e7a, e7b, e8a, e8b, e9a, e9b, e10a, e10b, e11a, e11b, e12a, e12b⟩ := idx_facts7 t
  refine congrArg (V c main_v1) ?_
  funext a; apply Fin.ext
  match a with
  | ⟨0, _⟩ => show win7_5.index t (0 : Fin 2) * 512 + 1 * (y 0).val = (y 0).val; omega
  | ⟨1, _⟩ => show win7_5.index t (1 : Fin 2) * 384 + 1 * (y 1).val = (y 1).val; omega

/-- Window 6's one block is its whole array. -/
theorem iblk7_6_eq (c : Dev nD) (t : Fin cfg7.N) : iblk7 V c 6 t = V c main_v5 := by
  funext y
  show V c main_v5 (((cfg7.win 6).blk t).view.emb y) = V c main_v5 y
  obtain ⟨e0a, e0b, e1a, e1b, e2a, e2b, e3a, e3b, e4a, e4b, e5a, e5b, e6a, e6b, e7a, e7b, e8a, e8b, e9a, e9b, e10a, e10b, e11a, e11b, e12a, e12b⟩ := idx_facts7 t
  refine congrArg (V c main_v5) ?_
  funext a; apply Fin.ext
  match a with
  | ⟨0, _⟩ => show win7_6.index t (0 : Fin 2) * 1 + 1 * (y 0).val = (y 0).val; omega
  | ⟨1, _⟩ => show win7_6.index t (1 : Fin 2) * 384 + 1 * (y 1).val = (y 1).val; omega

/-- Window 7's one block is its whole array. -/
theorem iblk7_7_eq (c : Dev nD) (t : Fin cfg7.N) : iblk7 V c 7 t = V c main_v2 := by
  funext y
  show V c main_v2 (((cfg7.win 7).blk t).view.emb y) = V c main_v2 y
  obtain ⟨e0a, e0b, e1a, e1b, e2a, e2b, e3a, e3b, e4a, e4b, e5a, e5b, e6a, e6b, e7a, e7b, e8a, e8b, e9a, e9b, e10a, e10b, e11a, e11b, e12a, e12b⟩ := idx_facts7 t
  refine congrArg (V c main_v2) ?_
  funext a; apply Fin.ext
  match a with
  | ⟨0, _⟩ => show win7_7.index t (0 : Fin 2) * 128 + 1 * (y 0).val = (y 0).val; omega
  | ⟨1, _⟩ => show win7_7.index t (1 : Fin 2) * 128 + 1 * (y 1).val = (y 1).val; omega

/-- Window 8's one block is its whole array. -/
theorem iblk7_8_eq (c : Dev nD) (t : Fin cfg7.N) : iblk7 V c 8 t = V c main_v6 := by
  funext y
  show V c main_v6 (((cfg7.win 8).blk t).view.emb y) = V c main_v6 y
  obtain ⟨e0a, e0b, e1a, e1b, e2a, e2b, e3a, e3b, e4a, e4b, e5a, e5b, e6a, e6b, e7a, e7b, e8a, e8b, e9a, e9b, e10a, e10b, e11a, e11b, e12a, e12b⟩ := idx_facts7 t
  refine congrArg (V c main_v6) ?_
  funext a; apply Fin.ext
  match a with
  | ⟨0, _⟩ => show win7_8.index t (0 : Fin 2) * 1 + 1 * (y 0).val = (y 0).val; omega
  | ⟨1, _⟩ => show win7_8.index t (1 : Fin 2) * 128 + 1 * (y 1).val = (y 1).val; omega

/-- Window 9's one block is its whole array. -/
theorem iblk7_9_eq (c : Dev nD) (t : Fin cfg7.N) : iblk7 V c 9 t = V c main_v3 := by
  funext y
  show V c main_v3 (((cfg7.win 9).blk t).view.emb y) = V c main_v3 y
  obtain ⟨e0a, e0b, e1a, e1b, e2a, e2b, e3a, e3b, e4a, e4b, e5a, e5b, e6a, e6b, e7a, e7b, e8a, e8b, e9a, e9b, e10a, e10b, e11a, e11b, e12a, e12b⟩ := idx_facts7 t
  refine congrArg (V c main_v3) ?_
  funext a; apply Fin.ext
  match a with
  | ⟨0, _⟩ => show win7_9.index t (0 : Fin 2) * 512 + 1 * (y 0).val = (y 0).val; omega
  | ⟨1, _⟩ => show win7_9.index t (1 : Fin 2) * 512 + 1 * (y 1).val = (y 1).val; omega

/-- Window 10's one block is its whole array. -/
theorem iblk7_10_eq (c : Dev nD) (t : Fin cfg7.N) : iblk7 V c 10 t = V c main_v7 := by
  funext y
  show V c main_v7 (((cfg7.win 10).blk t).view.emb y) = V c main_v7 y
  obtain ⟨e0a, e0b, e1a, e1b, e2a, e2b, e3a, e3b, e4a, e4b, e5a, e5b, e6a, e6b, e7a, e7b, e8a, e8b, e9a, e9b, e10a, e10b, e11a, e11b, e12a, e12b⟩ := idx_facts7 t
  refine congrArg (V c main_v7) ?_
  funext a; apply Fin.ext
  match a with
  | ⟨0, _⟩ => show win7_10.index t (0 : Fin 2) * 1 + 1 * (y 0).val = (y 0).val; omega
  | ⟨1, _⟩ => show win7_10.index t (1 : Fin 2) * 512 + 1 * (y 1).val = (y 1).val; omega

/-- What point t writes back into output 0 is block t of the cell's array function of the arrays the region is entered with. -/
theorem flushed7_11_eq (c : Dev nD) (t : Fin cfg7.N) :
    (dat7 V c).flushed 11 t = ((cfg7.win 11).blk t).view.read (Elt Ideal) (TreeSpec.cellArrH (N := 4) (V c main_v36) (V c main_v34) (V c main_v35) (TreeSpec.winParams (V c main_v0) (V c main_v4) (V c main_v1) (V c main_v5) (V c main_v2) (V c main_v6) (V c main_v3) (V c main_v7))) := by
  show (cfg7.win 11).cut (grid7.coords t) ((dat7 V c).after 11 t) = _
  rw [after7_11]
  unfold out7_11
  rw [View.canon_unit_zero TreeSpec.hz2]
  simp only [View.ld_unit_zero (S := S4x128) TreeSpec.hz2, View.ld_unit_zero (S := S4x512) TreeSpec.hz2, View.ld_unit_zero (S := S128x384) TreeSpec.hz2, View.ld_unit_zero (S := S1x384) TreeSpec.hz2, View.ld_unit_zero (S := S512x384) TreeSpec.hz2, View.ld_unit_zero (S := S128x128) TreeSpec.hz2, View.ld_unit_zero (S := S1x128) TreeSpec.hz2, View.ld_unit_zero (S := S512x512) TreeSpec.hz2, View.ld_unit_zero (S := S1x512) TreeSpec.hz2]
  rw [iblk7_3_eq V c t, iblk7_4_eq V c t, iblk7_5_eq V c t, iblk7_6_eq V c t, iblk7_7_eq V c t, iblk7_8_eq V c t, iblk7_9_eq V c t, iblk7_10_eq V c t]
  funext j
  obtain ⟨r, q, rfl⟩ : ∃ (r : Fin 4) (q : Fin 128), j = ix2 r q := ⟨j 0, j 1, eq_ix2 j⟩
  have hemb : ((cfg7.win 11).blk t).view.emb (ix2 r q) = (ix2 ⟨t.val * 4 + r.val, by have := tlt7 t; omega⟩ q : S4x128.Idx) := by
    obtain ⟨e0a, e0b, e1a, e1b, e2a, e2b, e3a, e3b, e4a, e4b, e5a, e5b, e6a, e6b, e7a, e7b, e8a, e8b, e9a, e9b, e10a, e10b, e11a, e11b, e12a, e12b⟩ := idx_facts7 t
    funext a; apply Fin.ext
    match a with
    | ⟨0, _⟩ => show win7_11.index t (0 : Fin 2) * 4 + 1 * r.val = t.val * 4 + r.val; omega
    | ⟨1, _⟩ => show win7_11.index t (1 : Fin 2) * 128 + 1 * q.val = q.val; omega
  show bodyH7 (F := Ideal) (iblk7 V c 0 t) (iblk7 V c 1 t) (iblk7 V c 2 t) (V c main_v0) (V c main_v4) (V c main_v1) (V c main_v5) (V c main_v2) (V c main_v6) (V c main_v3) (V c main_v7) (ix2 r q) = (TreeSpec.cellArrH (N := 4) (V c main_v36) (V c main_v34) (V c main_v35) (TreeSpec.winParams (V c main_v0) (V c main_v4) (V c main_v1) (V c main_v5) (V c main_v2) (V c main_v6) (V c main_v3) (V c main_v7))) (((cfg7.win 11).blk t).view.emb (ix2 r q))
  rw [hemb, bodyH7_apply]
  unfold TreeSpec.cellArrH
  simp only [iblk7_0_apply V c t, iblk7_1_apply V c t, iblk7_2_apply V c t] <;> rfl

/-- An index of output 0's array is in point t's block iff each coordinate is in the block's range on its axis. -/
theorem mem_blk7_11 (t : Fin cfg7.N) (i : S4x128.Idx) :
    i ∈ ((cfg7.win 11).blk t).view.set ↔ ∀ a : Fin 2, win7_11.index t a * S4x128.size a ≤ (i a).val ∧ (i a).val < win7_11.index t a * S4x128.size a + S4x128.size a := by
  show i ∈ ((View.whole main_v37_0).slice (win7_11.rect t)).set ↔ _
  rw [View.set_slice_whole, Rect.mem_set_unit]
  exact Iff.rfl

/-- Every index of output 0's array is in the block of the point its row falls in. -/
theorem covered7_11 (i : S4x128.Idx) : ∃ t : Fin cfg7.N, (cfg7.win 11).flush t = true ∧ i ∈ ((cfg7.win 11).blk t).view.set := by
  have hi0 : (i 0).val < 4 := (i 0).isLt
  have hi1 : (i 1).val < 128 := (i 1).isLt
  have ht : (i 0).val / 4 < cfg7.N := by rw [show cfg7.N = 1 from N_7]; omega
  refine ⟨⟨(i 0).val / 4, ht⟩, flush7_11 _, ?_⟩
  rw [mem_blk7_11]
  obtain ⟨e0a, e0b, e1a, e1b, e2a, e2b, e3a, e3b, e4a, e4b, e5a, e5b, e6a, e6b, e7a, e7b, e8a, e8b, e9a, e9b, e10a, e10b, e11a, e11b, e12a, e12b⟩ := idx_facts7 ⟨(i 0).val / 4, ht⟩
  intro a
  match a with
  | ⟨0, _⟩ => show win7_11.index _ (0 : Fin 2) * 4 ≤ (i 0).val ∧ (i 0).val < win7_11.index _ (0 : Fin 2) * 4 + 4; rw [e11a]; show (i 0).val / 4 * 4 ≤ (i 0).val ∧ (i 0).val < (i 0).val / 4 * 4 + 4; omega
  | ⟨1, _⟩ => show win7_11.index _ (1 : Fin 2) * 128 ≤ (i 1).val ∧ (i 1).val < win7_11.index _ (1 : Fin 2) * 128 + 128; rw [e11b]; omega

/-- Output 0's array after the region: the cell's array function of the arrays the region is entered with. -/
theorem final7_H (c : Dev nD) : (dat7 V c).arrAt 11 cfg7.N = (TreeSpec.cellArrH (N := 4) (V c main_v36) (V c main_v34) (V c main_v35) (TreeSpec.winParams (V c main_v0) (V c main_v4) (V c main_v1) (V c main_v5) (V c main_v2) (V c main_v6) (V c main_v3) (V c main_v7))) :=
  (dat7 V c).arrAt_eq_of_cover 11 _ (fun t _ => flushed7_11_eq V c t) (covered7_11)

/-- What point t writes back into output 1 is block t of the cell's array function of the arrays the region is entered with. -/
theorem flushed7_12_eq (c : Dev nD) (t : Fin cfg7.N) :
    (dat7 V c).flushed 12 t = ((cfg7.win 12).blk t).view.read (Elt Ideal) (TreeSpec.cellArrC (N := 4) (V c main_v36) (V c main_v34) (V c main_v35) (TreeSpec.winParams (V c main_v0) (V c main_v4) (V c main_v1) (V c main_v5) (V c main_v2) (V c main_v6) (V c main_v3) (V c main_v7))) := by
  show (cfg7.win 12).cut (grid7.coords t) ((dat7 V c).after 12 t) = _
  rw [after7_12]
  unfold out7_12
  rw [View.canon_unit_zero TreeSpec.hz2]
  simp only [View.ld_unit_zero (S := S4x128) TreeSpec.hz2, View.ld_unit_zero (S := S4x512) TreeSpec.hz2, View.ld_unit_zero (S := S128x384) TreeSpec.hz2, View.ld_unit_zero (S := S1x384) TreeSpec.hz2, View.ld_unit_zero (S := S512x384) TreeSpec.hz2, View.ld_unit_zero (S := S128x128) TreeSpec.hz2, View.ld_unit_zero (S := S1x128) TreeSpec.hz2, View.ld_unit_zero (S := S512x512) TreeSpec.hz2, View.ld_unit_zero (S := S1x512) TreeSpec.hz2]
  rw [iblk7_3_eq V c t, iblk7_4_eq V c t, iblk7_5_eq V c t, iblk7_6_eq V c t, iblk7_7_eq V c t, iblk7_8_eq V c t, iblk7_9_eq V c t, iblk7_10_eq V c t]
  funext j
  obtain ⟨r, q, rfl⟩ : ∃ (r : Fin 4) (q : Fin 128), j = ix2 r q := ⟨j 0, j 1, eq_ix2 j⟩
  have hemb : ((cfg7.win 12).blk t).view.emb (ix2 r q) = (ix2 ⟨t.val * 4 + r.val, by have := tlt7 t; omega⟩ q : S4x128.Idx) := by
    obtain ⟨e0a, e0b, e1a, e1b, e2a, e2b, e3a, e3b, e4a, e4b, e5a, e5b, e6a, e6b, e7a, e7b, e8a, e8b, e9a, e9b, e10a, e10b, e11a, e11b, e12a, e12b⟩ := idx_facts7 t
    funext a; apply Fin.ext
    match a with
    | ⟨0, _⟩ => show win7_12.index t (0 : Fin 2) * 4 + 1 * r.val = t.val * 4 + r.val; omega
    | ⟨1, _⟩ => show win7_12.index t (1 : Fin 2) * 128 + 1 * q.val = q.val; omega
  show bodyC7 (F := Ideal) (iblk7 V c 0 t) (iblk7 V c 1 t) (iblk7 V c 2 t) (V c main_v0) (V c main_v4) (V c main_v1) (V c main_v5) (V c main_v2) (V c main_v6) (V c main_v3) (V c main_v7) (ix2 r q) = (TreeSpec.cellArrC (N := 4) (V c main_v36) (V c main_v34) (V c main_v35) (TreeSpec.winParams (V c main_v0) (V c main_v4) (V c main_v1) (V c main_v5) (V c main_v2) (V c main_v6) (V c main_v3) (V c main_v7))) (((cfg7.win 12).blk t).view.emb (ix2 r q))
  rw [hemb, bodyC7_apply]
  unfold TreeSpec.cellArrC
  simp only [iblk7_0_apply V c t, iblk7_1_apply V c t, iblk7_2_apply V c t] <;> rfl

/-- An index of output 1's array is in point t's block iff each coordinate is in the block's range on its axis. -/
theorem mem_blk7_12 (t : Fin cfg7.N) (i : S4x128.Idx) :
    i ∈ ((cfg7.win 12).blk t).view.set ↔ ∀ a : Fin 2, win7_12.index t a * S4x128.size a ≤ (i a).val ∧ (i a).val < win7_12.index t a * S4x128.size a + S4x128.size a := by
  show i ∈ ((View.whole main_v37_1).slice (win7_12.rect t)).set ↔ _
  rw [View.set_slice_whole, Rect.mem_set_unit]
  exact Iff.rfl

/-- Every index of output 1's array is in the block of the point its row falls in. -/
theorem covered7_12 (i : S4x128.Idx) : ∃ t : Fin cfg7.N, (cfg7.win 12).flush t = true ∧ i ∈ ((cfg7.win 12).blk t).view.set := by
  have hi0 : (i 0).val < 4 := (i 0).isLt
  have hi1 : (i 1).val < 128 := (i 1).isLt
  have ht : (i 0).val / 4 < cfg7.N := by rw [show cfg7.N = 1 from N_7]; omega
  refine ⟨⟨(i 0).val / 4, ht⟩, flush7_12 _, ?_⟩
  rw [mem_blk7_12]
  obtain ⟨e0a, e0b, e1a, e1b, e2a, e2b, e3a, e3b, e4a, e4b, e5a, e5b, e6a, e6b, e7a, e7b, e8a, e8b, e9a, e9b, e10a, e10b, e11a, e11b, e12a, e12b⟩ := idx_facts7 ⟨(i 0).val / 4, ht⟩
  intro a
  match a with
  | ⟨0, _⟩ => show win7_12.index _ (0 : Fin 2) * 4 ≤ (i 0).val ∧ (i 0).val < win7_12.index _ (0 : Fin 2) * 4 + 4; rw [e12a]; show (i 0).val / 4 * 4 ≤ (i 0).val ∧ (i 0).val < (i 0).val / 4 * 4 + 4; omega
  | ⟨1, _⟩ => show win7_12.index _ (1 : Fin 2) * 128 ≤ (i 1).val ∧ (i 1).val < win7_12.index _ (1 : Fin 2) * 128 + 128; rw [e12b]; omega

/-- Output 1's array after the region: the cell's array function of the arrays the region is entered with. -/
theorem final7_C (c : Dev nD) : (dat7 V c).arrAt 12 cfg7.N = (TreeSpec.cellArrC (N := 4) (V c main_v36) (V c main_v34) (V c main_v35) (TreeSpec.winParams (V c main_v0) (V c main_v4) (V c main_v1) (V c main_v5) (V c main_v2) (V c main_v6) (V c main_v3) (V c main_v7))) :=
  (dat7 V c).arrAt_eq_of_cover 12 _ (fun t _ => flushed7_12_eq V c t) (covered7_12)

end Cert.KernelIdeal.Hand

end
-- ==== Proof.KI.Cell8.lean ====
/-
  Region 8 of the kernel (the root: one block of one node) read at an index.  The one row of the two output blocks is the
  cell applied to the root's input row, to its children's packed hidden row and packed cell row, with the eight parameter
  blocks as the region receives them; entry (r, j), r the only row, of the first block is the specification's new hidden
  row at j, of the second its new cell row at j.

  With a single row the biases are added as they are (a bias block is already one row), and the body cuts the gates
  i and o out of the 384 pre-activations before it forms the cell row; otherwise it is the body of every other region:
  x·W_iouᵀ + b_iou + h·U_iouᵀ + b_uiou in this order, h·U_fᵀ + b_uf and x·W_fᵀ + b_wf, and the four forget-gate
  products added to σ(i)·tanh(u) from left to right, as in the specification.
-/
import proofs.«148344_j70635032150607_1_alg».proof.Proof.KI.Bodies
import proofs.«148344_j70635032150607_1_alg».proof.Proof.KI.CellLemmas
import proofs.«148344_j70635032150607_1_alg».proof.Proof.Spec

noncomputable section

namespace Cert.KernelIdeal.Hand

open Idealize.ShloMosaic Idealize.ShloMosaic.ValueIdx Cert.KernelIdeal Cert.KernelIdeal.Gen

/-- x · W_iouᵀ at (r, j): the sum over k of x(r, k) · W_iouᵀ(k, j), 128 terms. -/
theorem mm8_xW (A : FVec Ideal S1x128 .bf16) (B : FVec Ideal S128x384 .bf16) (r : Fin 1) (j : Fin 384) :
    matmul dot_S1x128_S128x384_S1x384_1_0_0_1_n_n none A B (constant (F := Ideal) S1x384 .f32 0x00000000#32) (ix2 r j)
      = ∑ k : Fin 128, A (ix2 r k) * B (ix2 k j) :=
  matmul_plain_apply none A B r j
/-- h · U_iouᵀ at (r, j): 512 terms. -/
theorem mm8_hU (A : FVec Ideal S1x512 .bf16) (B : FVec Ideal S512x384 .bf16) (r : Fin 1) (j : Fin 384) :
    matmul dot_S1x512_S512x384_S1x384_1_0_0_1_n_n none A B (constant (F := Ideal) S1x384 .f32 0x00000000#32) (ix2 r j)
      = ∑ k : Fin 512, A (ix2 r k) * B (ix2 k j) :=
  matmul_plain_apply none A B r j
/-- h · U_fᵀ at (r, q): 512 terms. -/
theorem mm8_hUf (A : FVec Ideal S1x512 .bf16) (B : FVec Ideal S512x512 .bf16) (r : Fin 1) (q : Fin 512) :
    matmul dot_S1x512_S512x512_S1x512_1_0_0_1_n_n none A B (constant (F := Ideal) S1x512 .f32 0x00000000#32) (ix2 r q)
      = ∑ k : Fin 512, A (ix2 r k) * B (ix2 k q) :=
  matmul_plain_apply none A B r q
/-- x · W_fᵀ at (r, j): 128 terms. -/
theorem mm8_xWf (A : FVec Ideal S1x128 .bf16) (B : FVec Ideal S128x128 .bf16) (r : Fin 1) (j : Fin 128) :
    matmul dot_S1x128_S128x128_S1x128_1_0_0_1_n_n none A B (constant (F := Ideal) S1x128 .f32 0x00000000#32) (ix2 r j)
      = ∑ k : Fin 128, A (ix2 r k) * B (ix2 k j) :=
  matmul_plain_apply none A B r j

/-- The gate pre-activations of the root at column j. -/
theorem iou8_apply (x0 : Vec Ideal S1x128 .f32) (x1 x2 : Vec Ideal S1x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 1) (j : Fin 384) :
    k8_pay10 (F := Ideal) x0 x1 x3 x5 x4 x6 (ix2 r j)
      = Cert.TreeSpec.iou (Cert.TreeSpec.winParams x3 x4 x5 x6 x7 x8 x9 x10) (fun k => x0 (ix2 r k)) (fun q => x1 (ix2 r q)) j := by
  obtain rfl : r = 0 := Subsingleton.elim r 0
  unfold k8_pay10 k8_pay3 k8_pay5
  simp only [addf_apply, mm8_xW, mm8_hU, truncf_apply, shapeCast_self]
  rfl

/-- The new cell row of the root at column j, as the body passes it on to the hidden row's formula. -/
theorem cell8_apply (x0 : Vec Ideal S1x128 .f32) (x1 x2 : Vec Ideal S1x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 1) (j : Fin 128) :
    k8_pay1 (F := Ideal) (k8_pay3 x0) (k8_pay4 x2) (k8_pay5 x1) (k8_pay6 x7) (k8_pay7 x9) (k8_pay8 x8) (k8_pay9 x10) (k8_pay10 x0 x1 x3 x5 x4 x6) (k8_pay11 x0 x1 x3 x5 x4 x6) (ix2 r j)
      = Cert.TreeSpec.cNew (Cert.TreeSpec.winParams x3 x4 x5 x6 x7 x8 x9 x10) (fun k => x0 (ix2 r k)) (fun q => x1 (ix2 r q)) (fun q => x2 (ix2 r q)) j := by
  unfold k8_pay1 k8_pay3 k8_pay4 k8_pay5 k8_pay6 k8_pay7 k8_pay8 k8_pay9 k8_pay11
  simp only [addf_apply, mulf_apply, logistic_apply, tanh_apply, slice_cols_apply, mm8_hUf, mm8_xWf,
    truncf_apply, shapeCast_self, iou8_apply x0 x1 x2 x3 x4 x5 x6 x7 x8 x9 x10]
  obtain rfl : r = 0 := Subsingleton.elim r 0
  rfl

/-- The second output block: the new cell row. -/
theorem bodyC8_apply (x0 : Vec Ideal S1x128 .f32) (x1 x2 : Vec Ideal S1x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 1) (j : Fin 128) :
    bodyC8 (F := Ideal) x0 x1 x2 x3 x4 x5 x6 x7 x8 x9 x10 (ix2 r j)
      = Cert.TreeSpec.cNew (Cert.TreeSpec.winParams x3 x4 x5 x6 x7 x8 x9 x10) (fun k => x0 (ix2 r k)) (fun q => x1 (ix2 r q)) (fun q => x2 (ix2 r q)) j :=
  cell8_apply x0 x1 x2 x3 x4 x5 x6 x7 x8 x9 x10 r j

/-- The first output block: the new hidden row, σ(o)·tanh of the new cell row. -/
theorem bodyH8_apply (x0 : Vec Ideal S1x128 .f32) (x1 x2 : Vec Ideal S1x512 .f32) (x3 : Vec Ideal S128x384 .f32) (x4 : Vec Ideal S1x384 .f32) (x5 : Vec Ideal S512x384 .f32) (x6 : Vec Ideal S1x384 .f32) (x7 : Vec Ideal S128x128 .f32) (x8 : Vec Ideal S1x128 .f32) (x9 : Vec Ideal S512x512 .f32) (x10 : Vec Ideal S1x512 .f32) (r : Fin 1) (j : Fin 128) :
    bodyH8 (F := Ideal) x0 x1 x2 x3 x4 x5 x6 x7 x8 x9 x10 (ix2 r j)
      = Cert.TreeSpec.hNew (Cert.TreeSpec.winParams x3 x4 x5 x6 x7 x8 x9 x10) (fun k => x0 (ix2 r k)) (fun q => x1 (ix2 r q)) (fun q => x2 (ix2 r q)) j := by
  unfold bodyH8 k8_pay2 k8_pay12
  simp only [mulf_apply, logistic_apply, tanh_apply, slice_cols_apply, cell8_apply x0 x1 x2 x3 x4 x5 x6 x7 x8 x9 x10, iou8_apply x0 x1 x2 x3 x4 x5 x6 x7 x8 x9 x10]
  rfl

end Cert.KernelIdeal.Hand

end
-- ==== Proof.KI.Val8.lean ====
/-
  What region 8 leaves in its two output arrays, at the ideal instance, as ONE function of the arrays it is entered with: the cell
  (Proof/Spec.lean) at every row.  Grid point t's blocks are rows t·1 … t·1+0 of the row arrays and the whole of each parameter
  array (the index maps, decided over the grid); what point t writes back is block t of that function (the body's arithmetic at an
  index is the cell's: Proof/KI/Cell8.lean); the 1 blocks cover the output arrays.
-/
import proofs.«148344_j70635032150607_1_alg».proof.Proof.KI.Region8
import proofs.«148344_j70635032150607_1_alg».proof.Proof.KI.Cell8
import proofs.«148344_j70635032150607_1_alg».proof.Proof.CellArr
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert

variable (V : (c : Dev nD) → (b : Ref sig .tc) → Buf (Elt Ideal) ((c : Thread nD τ).loc b))

/-- The printed index maps, decided over the grid. -/
theorem idx_facts8 : ∀ t : Fin cfg8.N, win8_0.index t (0 : Fin 2) = t.val
    ∧ win8_0.index t (1 : Fin 2) = 0
    ∧ win8_1.index t (0 : Fin 2) = t.val
    ∧ win8_1.index t (1 : Fin 2) = 0
    ∧ win8_2.index t (0 : Fin 2) = t.val
    ∧ win8_2.index t (1 : Fin 2) = 0
    ∧ win8_3.index t (0 : Fin 2) = 0
    ∧ win8_3.index t (1 : Fin 2) = 0
    ∧ win8_4.index t (0 : Fin 2) = 0
    ∧ win8_4.index t (1 : Fin 2) = 0
    ∧ win8_5.index t (0 : Fin 2) = 0
    ∧ win8_5.index t (1 : Fin 2) = 0
    ∧ win8_6.index t (0 : Fin 2) = 0
    ∧ win8_6.index t (1 : Fin 2) = 0
    ∧ win8_7.index t (0 : Fin 2) = 0
    ∧ win8_7.index t (1 : Fin 2) = 0
    ∧ win8_8.index t (0 : Fin 2) = 0
    ∧ win8_8.index t (1 : Fin 2) = 0
    ∧ win8_9.index t (0 : Fin 2) = 0
    ∧ win8_9.index t (1 : Fin 2) = 0
    ∧ win8_10.index t (0 : Fin 2) = 0
    ∧ win8_10.index t (1 : Fin 2) = 0
    ∧ win8_11.index t (0 : Fin 2) = t.val
    ∧ win8_11.index t (1 : Fin 2) = 0
    ∧ win8_12.index t (0 : Fin 2) = t.val
    ∧ win8_12.index t (1 : Fin 2) = 0 :=
  (by decide +kernel : ∀ t : Fin grid8.N, _)

theorem tlt8 (t : Fin cfg8.N) : t.val < 1 := lt_of_lt_of_eq t.isLt N_8

/-- Window 0's block at point t is rows t·1 … of its array. -/
theorem iblk8_0_apply (c : Dev nD) (t : Fin cfg8.N) (r : Fin 1) (k : Fin 128) :
    iblk8 V c 0 t (ix2 r k) = V c main_v40 (ix2 ⟨t.val * 1 + r.val, by have := tlt8 t; omega⟩ k) := by
  show V c main_v40 (((cfg8.win 0).blk t).view.emb (ix2 r k)) = _
  obtain ⟨e0a, e0b, e1a, e1b, e2a, e2b, e3a, e3b, e4a, e4b, e5a, e5b, e6a, e6b, e7a, e7b, e8a, e8b, e9a, e9b, e10a, e10b, e11a, e11b, e12a, e12b⟩ := idx_facts8 t
  refine congrArg (V c main_v40) ?_
  funext a; apply Fin.ext
  match a with
  | ⟨0, _⟩ => show win8_0.index t (0 : Fin 2) * 1 + 1 * r.val = t.val * 1 + r.val; omega
  | ⟨1, _⟩ => show win8_0.index t (1 : Fin 2) * 128 + 1 * k.val = k.val; omega

/-- Window 1's block at point t is rows t·1 … of its array. -/
theorem iblk8_1_apply (c : Dev nD) (t : Fin cfg8.N) (r : Fin 1) (k : Fin 512) :
    iblk8 V c 1 t (ix2 r k) = V c main_v38 (ix2 ⟨t.val * 1 + r.val, by have := tlt8 t; omega⟩ k) := by
  show V c main_v38 (((cfg8.win 1).blk t).view.emb (ix2 r k)) = _
  obtain ⟨e0a, e0b, e1a, e1b, e2a, e2b, e3a, e3b, e4a, e4b, e5a, e5b, e6a, e6b, e7a, e7b, e8a, e8b, e9a, e9b, e10a, e10b, e11a, e11b, e12a, e12b⟩ := idx_facts8 t
  refine congrArg (V c main_v38) ?_
  funext a; apply Fin.ext
  match a with
  | ⟨0, _⟩ => show win8_1.index t (0 : Fin 2) * 1 + 1 * r.val = t.val * 1 + r.val; omega
  | ⟨1, _⟩ => show win8_1.index t (1 : Fin 2) * 512 + 1 * k.val = k.val; omega

/-- Window 2's block at point t is rows t·1 … of its array. -/
theorem iblk8_2_apply (c : Dev nD) (t : Fin cfg8.N) (r : Fin 1) (k : Fin 512) :
    iblk8 V c 2 t (ix2 r k) = V c main_v39 (ix2 ⟨t.val * 1 + r.val, by have := tlt8 t; omega⟩ k) := by
  show V c main_v39 (((cfg8.win 2).blk t).view.emb (ix2 r k)) = _
  obtain ⟨e0a, e0b, e1a, e1b, e2a, e2b, e3a, e3b, e4a, e4b, e5a, e5b, e6a, e6b, e7a, e7b, e8a, e8b, e9a, e9b, e10a, e10b, e11a, e11b, e12a, e12b⟩ := idx_facts8 t
  refine congrArg (V c main_v39) ?_
  funext a; apply Fin.ext
  match a with
  | ⟨0, _⟩ => show win8_2.index t (0 : Fin 2) * 1 + 1 * r.val = t.val * 1 + r.val; omega
  | ⟨1, _⟩ => show win8_2.index t (1 : Fin 2) * 512 + 1 * k.val = k.val; omega

/-- Window 3's one block is its whole array. -/
theorem iblk8_3_eq (c : Dev nD) (t : Fin cfg8.N) : iblk8 V c 3 t = V c main_v0 := by
  funext y
  show V c main_v0 (((cfg8.win 3).blk t).view.emb y) = V c main_v0 y
  obtain ⟨e0a, e0b, e1a, e1b, e2a, e2b, e3a, e3b, e4a, e4b, e5a, e5b, e6a, e6b, e7a, e7b, e8a, e8b, e9a, e9b, e10a, e10b, e11a, e11b, e12a, e12b⟩ := idx_facts8 t
  refine congrArg (V c main_v0) ?_
  funext a; apply Fin.ext
  match a with
  | ⟨0, _⟩ => show win8_3.index t (0 : Fin 2) * 128 + 1 * (y 0).val = (y 0).val; omega
  | ⟨1, _⟩ => show win8_3.index t (1 : Fin 2) * 384 + 1 * (y 1).val = (y 1).val; omega

/-- Window 4's one block is its whole array. -/
theorem iblk8_4_eq (c : Dev nD) (t : Fin cfg8.N) : iblk8 V c 4 t = V c main_v4 := by
  funext y
  show V c main_v4 (((cfg8.win 4).blk t).view.emb y) = V c main_v4 y
  obtain ⟨e0a, e0b, e1a, e1b, e2a, e2b, e3a, e3b, e4a, e4b, e5a, e5b, e6a, e6b, e7a, e7b, e8a, e8b, e9a, e9b, e10a, e10b, e11a, e11b, e12a, e12b⟩ := idx_facts8 t
  refine congrArg (V c main_v4) ?_
  funext a; apply Fin.ext
  match a with
  | ⟨0, _⟩ => show win8_4.index t (0 : Fin 2) * 1 + 1 * (y 0).val = (y 0).val; omega
  | ⟨1, _⟩ => show win8_4.index t (1 : Fin 2) * 384 + 1 * (y 1).val = (y 1).val; omega

/-- Window 5's one block is its whole array. -/
theorem iblk8_5_eq (c : Dev nD) (t : Fin cfg8.N) : iblk8 V c 5 t = V c main_v1 := by
  funext y
  show V c main_v1 (((cfg8.win 5).blk t).view.emb y) = V c main_v1 y
  obtain ⟨e0a, e0b, e1a, e1b, e2a, e2b, e3a, e3b, e4a, e4b, e5a, e5b, e6a, e6b, e7a, e7b, e8a, e8b, e9a, e9b, e10a, e10b, e11a, e11b, e12a, e12b⟩ := idx_facts8 t
  refine congrArg (V c main_v1) ?_
  funext a; apply Fin.ext
  match a with
  | ⟨0, _⟩ => show win8_5.index t (0 : Fin 2) * 512 + 1 * (y 0).val = (y 0).val; omega
  | ⟨1, _⟩ => show win8_5.index t (1 : Fin 2) * 384 + 1 * (y 1).val = (y 1).val; omega

/-- Window 6's one block is its whole array. -/
theorem iblk8_6_eq (c : Dev nD) (t : Fin cfg8.N) : iblk8 V c 6 t = V c main_v5 := by
  funext y
  show V c main_v5 (((cfg8.win 6).blk t).view.emb y) = V c main_v5 y
  obtain ⟨e0a, e0b, e1a, e1b, e2a, e2b, e3a, e3b, e4a, e4b, e5a, e5b, e6a, e6b, e7a, e7b, e8a, e8b, e9a, e9b, e10a, e10b, e11a, e11b, e12a, e12b⟩ := idx_facts8 t
  refine congrArg (V c main_v5) ?_
  funext a; apply Fin.ext
  match a with
  | ⟨0, _⟩ => show win8_6.index t (0 : Fin 2) * 1 + 1 * (y 0).val = (y 0).val; omega
  | ⟨1, _⟩ => show win8_6.index t (1 : Fin 2) * 384 + 1 * (y 1).val = (y 1).val; omega

/-- Window 7's one block is its whole array. -/
theorem iblk8_7_eq (c : Dev nD) (t : Fin cfg8.N) : iblk8 V c 7 t = V c main_v2 := by
  funext y
  show V c main_v2 (((cfg8.win 7).blk t).view.emb y) = V c main_v2 y
  obtain ⟨e0a, e0b, e1a, e1b, e2a, e2b, e3a, e3b, e4a, e4b, e5a, e5b, e6a, e6b, e7a, e7b, e8a, e8b, e9a, e9b, e10a, e10b, e11a, e11b, e12a, e12b⟩ := idx_facts8 t
  refine congrArg (V c main_v2) ?_
  funext a; apply Fin.ext
  match a with
  | ⟨0, _⟩ => show win8_7.index t (0 : Fin 2) * 128 + 1 * (y 0).val = (y 0).val; omega
  | ⟨1, _⟩ => show win8_7.index t (1 : Fin 2) * 128 + 1 * (y 1).val = (y 1).val; omega

/-- Window 8's one block is its whole array. -/
theorem iblk8_8_eq (c : Dev nD) (t : Fin cfg8.N) : iblk8 V c 8 t = V c main_v6 := by
  funext y
  show V c main_v6 (((cfg8.win 8).blk t).view.emb y) = V c main_v6 y
  obtain ⟨e0a, e0b, e1a, e1b, e2a, e2b, e3a, e3b, e4a, e4b, e5a, e5b, e6a, e6b, e7a, e7b, e8a, e8b, e9a, e9b, e10a, e10b, e11a, e11b, e12a, e12b⟩ := idx_facts8 t
  refine congrArg (V c main_v6) ?_
  funext a; apply Fin.ext
  match a with
  | ⟨0, _⟩ => show win8_8.index t (0 : Fin 2) * 1 + 1 * (y 0).val = (y 0).val; omega
  | ⟨1, _⟩ => show win8_8.index t (1 : Fin 2) * 128 + 1 * (y 1).val = (y 1).val; omega

/-- Window 9's one block is its whole array. -/
theorem iblk8_9_eq (c : Dev nD) (t : Fin cfg8.N) : iblk8 V c 9 t = V c main_v3 := by
  funext y
  show V c main_v3 (((cfg8.win 9).blk t).view.emb y) = V c main_v3 y
  obtain ⟨e0a, e0b, e1a, e1b, e2a, e2b, e3a, e3b, e4a, e4b, e5a, e5b, e6a, e6b, e7a, e7b, e8a, e8b, e9a, e9b, e10a, e10b, e11a, e11b, e12a, e12b⟩ := idx_facts8 t
  refine congrArg (V c main_v3) ?_
  funext a; apply Fin.ext
  match a with
  | ⟨0, _⟩ => show win8_9.index t (0 : Fin 2) * 512 + 1 * (y 0).val = (y 0).val; omega
  | ⟨1, _⟩ => show win8_9.index t (1 : Fin 2) * 512 + 1 * (y 1).val = (y 1).val; omega

/-- Window 10's one block is its whole array. -/
theorem iblk8_10_eq (c : Dev nD) (t : Fin cfg8.N) : iblk8 V c 10 t = V c main_v7 := by
  funext y
  show V c main_v7 (((cfg8.win 10).blk t).view.emb y) = V c main_v7 y
  obtain ⟨e0a, e0b, e1a, e1b, e2a, e2b, e3a, e3b, e4a, e4b, e5a, e5b, e6a, e6b, e7a, e7b, e8a, e8b, e9a, e9b, e10a, e10b, e11a, e11b, e12a, e12b⟩ := idx_facts8 t
  refine congrArg (V c main_v7) ?_
  funext a; apply Fin.ext
  match a with
  | ⟨0, _⟩ => show win8_10.index t (0 : Fin 2) * 1 + 1 * (y 0).val = (y 0).val; omega
  | ⟨1, _⟩ => show win8_10.index t (1 : Fin 2) * 512 + 1 * (y 1).val = (y 1).val; omega

/-- What point t writes back into output 0 is block t of the cell's array function of the arrays the region is entered with. -/
theorem flushed8_11_eq (c : Dev nD) (t : Fin cfg8.N) :
    (dat8 V c).flushed 11 t = ((cfg8.win 11).blk t).view.read (Elt Ideal) (TreeSpec.cellArrH (N := 1) (V c main_v40) (V c main_v38) (V c main_v39) (TreeSpec.winParams (V c main_v0) (V c main_v4) (V c main_v1) (V c main_v5) (V c main_v2) (V c main_v6) (V c main_v3) (V c main_v7))) := by
  show (cfg8.win 11).cut (grid8.coords t) ((dat8 V c).after 11 t) = _
  rw [after8_11]
  unfold out8_11
  rw [View.canon_unit_zero TreeSpec.hz2]
  simp only [View.ld_unit_zero (S := S1x128) TreeSpec.hz2, View.ld_unit_zero (S := S1x512) TreeSpec.hz2, View.ld_unit_zero (S := S128x384) TreeSpec.hz2, View.ld_unit_zero (S := S1x384) TreeSpec.hz2, View.ld_unit_zero (S := S512x384) TreeSpec.hz2, View.ld_unit_zero (S := S128x128) TreeSpec.hz2, View.ld_unit_zero (S := S512x512) TreeSpec.hz2]
  rw [iblk8_3_eq V c t, iblk8_4_eq V c t, iblk8_5_eq V c t, iblk8_6_eq V c t, iblk8_7_eq V c t, iblk8_8_eq V c t, iblk8_9_eq V c t, iblk8_10_eq V c t]
  funext j
  obtain ⟨r, q, rfl⟩ : ∃ (r : Fin 1) (q : Fin 128), j = ix2 r q := ⟨j 0, j 1, eq_ix2 j⟩
  have hemb : ((cfg8.win 11).blk t).view.emb (ix2 r q) = (ix2 ⟨t.val * 1 + r.val, by have := tlt8 t; omega⟩ q : S1x128.Idx) := by
    obtain ⟨e0a, e0b, e1a, e1b, e2a, e2b, e3a, e3b, e4a, e4b, e5a, e5b, e6a, e6b, e7a, e7b, e8a, e8b, e9a, e9b, e10a, e10b, e11a, e11b, e12a, e12b⟩ := idx_facts8 t
    funext a; apply Fin.ext
    match a with
    | ⟨0, _⟩ => show win8_11.index t (0 : Fin 2) * 1 + 1 * r.val = t.val * 1 + r.val; omega
    | ⟨1, _⟩ => show win8_11.index t (1 : Fin 2) * 128 + 1 * q.val = q.val; omega
  show bodyH8 (F := Ideal) (iblk8 V c 0 t) (iblk8 V c 1 t) (iblk8 V c 2 t) (V c main_v0) (V c main_v4) (V c main_v1) (V c main_v5) (V c main_v2) (V c main_v6) (V c main_v3) (V c main_v7) (ix2 r q) = (TreeSpec.cellArrH (N := 1) (V c main_v40) (V c main_v38) (V c main_v39) (TreeSpec.winParams (V c main_v0) (V c main_v4) (V c main_v1) (V c main_v5) (V c main_v2) (V c main_v6) (V c main_v3) (V c main_v7))) (((cfg8.win 11).blk t).view.emb (ix2 r q))
  rw [hemb, bodyH8_apply]
  unfold TreeSpec.cellArrH
  simp only [iblk8_0_apply V c t, iblk8_1_apply V c t, iblk8_2_apply V c t] <;> rfl

/-- An index of output 0's array is in point t's block iff each coordinate is in the block's range on its axis. -/
theorem mem_blk8_11 (t : Fin cfg8.N) (i : S1x128.Idx) :
    i ∈ ((cfg8.win 11).blk t).view.set ↔ ∀ a : Fin 2, win8_11.index t a * S1x128.size a ≤ (i a).val ∧ (i a).val < win8_11.index t a * S1x128.size a + S1x128.size a := by
  show i ∈ ((View.whole main_v41_0).slice (win8_11.rect t)).set ↔ _
  rw [View.set_slice_whole, Rect.mem_set_unit]
  exact Iff.rfl

/-- Every index of output 0's array is in the block of the point its row falls in. -/
theorem covered8_11 (i : S1x128.Idx) : ∃ t : Fin cfg8.N, (cfg8.win 11).flush t = true ∧ i ∈ ((cfg8.win 11).blk t).view.set := by
  have hi0 : (i 0).val < 1 := (i 0).isLt
  have hi1 : (i 1).val < 128 := (i 1).isLt
  have ht : (i 0).val / 1 < cfg8.N := by rw [show cfg8.N = 1 from N_8]; omega
  refine ⟨⟨(i 0).val / 1, ht⟩, flush8_11 _, ?_⟩
  rw [mem_blk8_11]
  obtain ⟨e0a, e0b, e1a, e1b, e2a, e2b, e3a, e3b, e4a, e4b, e5a, e5b, e6a, e6b, e7a, e7b, e8a, e8b, e9a, e9b, e10a, e10b, e11a, e11b, e12a, e12b⟩ := idx_facts8 ⟨(i 0).val / 1, ht⟩
  intro a
  match a with
  | ⟨0, _⟩ => show win8_11.index _ (0 : Fin 2) * 1 ≤ (i 0).val ∧ (i 0).val < win8_11.index _ (0 : Fin 2) * 1 + 1; rw [e11a]; show (i 0).val / 1 * 1 ≤ (i 0).val ∧ (i 0).val < (i 0).val / 1 * 1 + 1; omega
  | ⟨1, _⟩ => show win8_11.index _ (1 : Fin 2) * 128 ≤ (i 1).val ∧ (i 1).val < win8_11.index _ (1 : Fin 2) * 128 + 128; rw [e11b]; omega

/-- Output 0's array after the region: the cell's array function of the arrays the region is entered with. -/
theorem final8_H (c : Dev nD) : (dat8 V c).arrAt 11 cfg8.N = (TreeSpec.cellArrH (N := 1) (V c main_v40) (V c main_v38) (V c main_v39) (TreeSpec.winParams (V c main_v0) (V c main_v4) (V c main_v1) (V c main_v5) (V c main_v2) (V c main_v6) (V c main_v3) (V c main_v7))) :=
  (dat8 V c).arrAt_eq_of_cover 11 _ (fun t _ => flushed8_11_eq V c t) (covered8_11)

/-- What point t writes back into output 1 is block t of the cell's array function of the arrays the region is entered with. -/
theorem flushed8_12_eq (c : Dev nD) (t : Fin cfg8.N) :
    (dat8 V c).flushed 12 t = ((cfg8.win 12).blk t).view.read (Elt Ideal) (TreeSpec.cellArrC (N := 1) (V c main_v40) (V c main_v38) (V c main_v39) (TreeSpec.winParams (V c main_v0) (V c main_v4) (V c main_v1) (V c main_v5) (V c main_v2) (V c main_v6) (V c main_v3) (V c main_v7))) := by
  show (cfg8.win 12).cut (grid8.coords t) ((dat8 V c).after 12 t) = _
  rw [after8_12]
  unfold out8_12
  rw [View.canon_unit_zero TreeSpec.hz2]
  simp only [View.ld_unit_zero (S := S1x128) TreeSpec.hz2, View.ld_unit_zero (S := S1x512) TreeSpec.hz2, View.ld_unit_zero (S := S128x384) TreeSpec.hz2, View.ld_unit_zero (S := S1x384) TreeSpec.hz2, View.ld_unit_zero (S := S512x384) TreeSpec.hz2, View.ld_unit_zero (S := S128x128) TreeSpec.hz2, View.ld_unit_zero (S := S512x512) TreeSpec.hz2]
  rw [iblk8_3_eq V c t, iblk8_4_eq V c t, iblk8_5_eq V c t, iblk8_6_eq V c t, iblk8_7_eq V c t, iblk8_8_eq V c t, iblk8_9_eq V c t, iblk8_10_eq V c t]
  funext j
  obtain ⟨r, q, rfl⟩ : ∃ (r : Fin 1) (q : Fin 128), j = ix2 r q := ⟨j 0, j 1, eq_ix2 j⟩
  have hemb : ((cfg8.win 12).blk t).view.emb (ix2 r q) = (ix2 ⟨t.val * 1 + r.val, by have := tlt8 t; omega⟩ q : S1x128.Idx) := by
    obtain ⟨e0a, e0b, e1a, e1b, e2a, e2b, e3a, e3b, e4a, e4b, e5a, e5b, e6a, e6b, e7a, e7b, e8a, e8b, e9a, e9b, e10a, e10b, e11a, e11b, e12a, e12b⟩ := idx_facts8 t
    funext a; apply Fin.ext
    match a with
    | ⟨0, _⟩ => show win8_12.index t (0 : Fin 2) * 1 + 1 * r.val = t.val * 1 + r.val; omega
    | ⟨1, _⟩ => show win8_12.index t (1 : Fin 2) * 128 + 1 * q.val = q.val; omega
  show bodyC8 (F := Ideal) (iblk8 V c 0 t) (iblk8 V c 1 t) (iblk8 V c 2 t) (V c main_v0) (V c main_v4) (V c main_v1) (V c main_v5) (V c main_v2) (V c main_v6) (V c main_v3) (V c main_v7) (ix2 r q) = (TreeSpec.cellArrC (N := 1) (V c main_v40) (V c main_v38) (V c main_v39) (TreeSpec.winParams (V c main_v0) (V c main_v4) (V c main_v1) (V c main_v5) (V c main_v2) (V c main_v6) (V c main_v3) (V c main_v7))) (((cfg8.win 12).blk t).view.emb (ix2 r q))
  rw [hemb, bodyC8_apply]
  unfold TreeSpec.cellArrC
  simp only [iblk8_0_apply V c t, iblk8_1_apply V c t, iblk8_2_apply V c t] <;> rfl

/-- An index of output 1's array is in point t's block iff each coordinate is in the block's range on its axis. -/
theorem mem_blk8_12 (t : Fin cfg8.N) (i : S1x128.Idx) :
    i ∈ ((cfg8.win 12).blk t).view.set ↔ ∀ a : Fin 2, win8_12.index t a * S1x128.size a ≤ (i a).val ∧ (i a).val < win8_12.index t a * S1x128.size a + S1x128.size a := by
  show i ∈ ((View.whole main_v41_1).slice (win8_12.rect t)).set ↔ _
  rw [View.set_slice_whole, Rect.mem_set_unit]
  exact Iff.rfl

/-- Every index of output 1's array is in the block of the point its row falls in. -/
theorem covered8_12 (i : S1x128.Idx) : ∃ t : Fin cfg8.N, (cfg8.win 12).flush t = true ∧ i ∈ ((cfg8.win 12).blk t).view.set := by
  have hi0 : (i 0).val < 1 := (i 0).isLt
  have hi1 : (i 1).val < 128 := (i 1).isLt
  have ht : (i 0).val / 1 < cfg8.N := by rw [show cfg8.N = 1 from N_8]; omega
  refine ⟨⟨(i 0).val / 1, ht⟩, flush8_12 _, ?_⟩
  rw [mem_blk8_12]
  obtain ⟨e0a, e0b, e1a, e1b, e2a, e2b, e3a, e3b, e4a, e4b, e5a, e5b, e6a, e6b, e7a, e7b, e8a, e8b, e9a, e9b, e10a, e10b, e11a, e11b, e12a, e12b⟩ := idx_facts8 ⟨(i 0).val / 1, ht⟩
  intro a
  match a with
  | ⟨0, _⟩ => show win8_12.index _ (0 : Fin 2) * 1 ≤ (i 0).val ∧ (i 0).val < win8_12.index _ (0 : Fin 2) * 1 + 1; rw [e12a]; show (i 0).val / 1 * 1 ≤ (i 0).val ∧ (i 0).val < (i 0).val / 1 * 1 + 1; omega
  | ⟨1, _⟩ => show win8_12.index _ (1 : Fin 2) * 128 ≤ (i 1).val ∧ (i 1).val < win8_12.index _ (1 : Fin 2) * 128 + 128; rw [e12b]; omega

/-- Output 1's array after the region: the cell's array function of the arrays the region is entered with. -/
theorem final8_C (c : Dev nD) : (dat8 V c).arrAt 12 cfg8.N = (TreeSpec.cellArrC (N := 1) (V c main_v40) (V c main_v38) (V c main_v39) (TreeSpec.winParams (V c main_v0) (V c main_v4) (V c main_v1) (V c main_v5) (V c main_v2) (V c main_v6) (V c main_v3) (V c main_v7))) :=
  (dat8 V c).arrAt_eq_of_cover 12 _ (fun t _ => flushed8_12_eq V c t) (covered8_12)

end Cert.KernelIdeal.Hand

end
-- ==== Proof.LibLayout.lean ====
/-
  Arrays of rows, and the layout operations between the levels of the tree, read at an index.

  An array of n rows of w numbers is indexed by (row, column).  Between two levels both programs re-lay such arrays
  without computing: four consecutive rows of 128 numbers are seen as one row of 512 (entry (p, q) of the result is
  entry (4p + q / 128, q % 128) of the operand: row-major order is kept), a block of consecutive rows is cut out of the
  inputs, a weight matrix is transposed, and a bias vector of d numbers is seen as one row.  Each is stated for every
  number of rows, with the shape fact the operation carries as a hypothesis.
-/
import proofs.«148344_j70635032150607_1_alg».proof.Proof.Spec
import Idealize.ShloMosaic.Lib.ValueLayout

noncomputable section

namespace Cert.Layout

open Idealize.ShloMosaic Idealize.ShloMosaic.ValueIdx Cert.TreeSpec

/-- n rows of w numbers as an array indexed by (row, column); at w = 128 it is the specification's \`asArr\`. -/
def arr {n w : Nat} (A : Fin n → Fin w → EReal) : (Sh2 n w).Idx → EReal := fun i => A (i 0) (i 1)

theorem asArr_eq_arr {n : Nat} (A : Fin n → Fin 128 → EReal) : asArr A = arr A := rfl

/-- The array of rows at (r, k) is entry k of row r. -/
theorem arr_apply {n w : Nat} (A : Fin n → Fin w → EReal) (r : Fin n) (k : Fin w) : arr A (ix2 r k) = A r k := rfl

/-- Four consecutive rows of 128 seen as one row of 512: the specification's packing. -/
theorem pack_apply {m n : Nat} (hm : m = 4 * n) (h : (Sh2 m 128).ShapeCasts (Sh2 n 512)) (A : Fin m → Fin 128 → EReal) :
    shapeCast (Sh2 n 512) (arr A) h = arr (pack hm A) := by
  funext i
  obtain ⟨p, q, rfl⟩ : ∃ (p : Fin n) (q : Fin 512), i = ix2 p q := ⟨i 0, i 1, eq_ix2 i⟩
  exact shapeCast_apply _ h _ (ix2 ⟨4 * p.val + q.val / 128, by omega⟩ ⟨q.val % 128, Nat.mod_lt _ (by omega)⟩) (by
    rw [Shape.rowMajor_val_two, Shape.rowMajor_val_two]
    show (4 * p.val + q.val / 128) * 128 + q.val % 128 = p.val * 512 + q.val
    omega)

/-- The rows off … off+n-1 of the inputs: the specification's \`rows\` of all the input rows. -/
theorem rows_apply {n : Nat} (off : Nat) (hle : off + n ≤ 87381) (hs : (Sh2 87381 128).Slices ![off, 0] (Sh2 n 128))
    (a0 : (Sh2 87381 128).Idx → EReal) :
    extractStridedSlice (Sh2 n 128) ![off, 0] a0 hs = arr (rows (embOf a0) off n hle) := by
  funext i
  obtain ⟨r, k, rfl⟩ : ∃ (r : Fin n) (k : Fin 128), i = ix2 r k := ⟨i 0, i 1, eq_ix2 i⟩
  rw [slice2_axis0_eq]
  rfl

/-- A weight matrix transposed reads, at (k, j), the matrix at (j, k). -/
theorem transposeT_apply {w k : Nat} (t : (Sh2 w k).Transposes [1, 0] (Sh2 k w)) (a : (Sh2 w k).Idx → EReal)
    (c : Fin k) (q : Fin w) : transpose (Sh2 k w) [1, 0] a t (ix2 c q) = a (ix2 q c) :=
  transpose_ix2_apply a t c q

/-- A vector of d numbers seen as one row reads, at (0, j), its entry j. -/
theorem oneRow_apply {d : Nat} (h : (Sh1 d).ShapeCasts (Sh2 1 d)) (a : (Sh1 d).Idx → EReal) (u : Fin 1) (j : Fin d) :
    shapeCast (Sh2 1 d) a h (ix2 u j) = a (ix1 j) :=
  shapeCast_a_1a_apply a h u j

end Cert.Layout

end
-- ==== Proof.LibHostFold.lean ====
/-
  What a line of host operations leaves in a buffer, computed in one pass — through operations with a family of operands.

  The contents of a buffer after a straight line of host operations is computed by rewriting each operation's result at
  its own result buffer to its function's value of its operands' contents, and at any other buffer to what was there.
  For an operation with a FAMILY of operands (a concatenate of n pieces) the result is the function of
  `fun k => (contents of operand k)`, and the function reads that family at the literal positions 0, 1, …; the pass
  below reads those positions off the literal vector of operand buffers, so that each piece is the contents of a
  literal buffer again.  The pieces sit inside the concatenate's list of (shape, array) pairs, where the pass does not
  rewrite further: each is finished on its own, and `concat9` puts nine finished pieces back together.
-/
import Idealize.ShloMosaic.Lib.StableHlo.Run
import Mathlib.Data.Fin.VecNotation

namespace Cert.HostFold

open Idealize.ShloMosaic Idealize.ShloMosaic.StableHlo Idealize.SL.Sem

/-- The one-pass computation of a buffer's contents after a line of host operations, reading a family of operand
    buffers at its literal positions. -/
macro "after_results_vec" : tactic =>
  `(tactic| (simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', Matrix.cons_val]))

/-- Nine pieces that agree one by one concatenate to the same array. -/
theorem concat9 {α : Type} {S' S : Shape} (a : Fin S.rank) (a0 a1 a2 a3 a4 a5 a6 a7 a8 b0 b1 b2 b3 b4 b5 b6 b7 b8 : S'.Idx → α)
    (h : Shape.Concatenates [S', S', S', S', S', S', S', S', S'] S a)
    (e0 : a0 = b0) (e1 : a1 = b1) (e2 : a2 = b2) (e3 : a3 = b3) (e4 : a4 = b4) (e5 : a5 = b5) (e6 : a6 = b6) (e7 : a7 = b7) (e8 : a8 = b8) :
    concatenate S a [⟨S', a0⟩, ⟨S', a1⟩, ⟨S', a2⟩, ⟨S', a3⟩, ⟨S', a4⟩, ⟨S', a5⟩, ⟨S', a6⟩, ⟨S', a7⟩, ⟨S', a8⟩] h
      = concatenate S a [⟨S', b0⟩, ⟨S', b1⟩, ⟨S', b2⟩, ⟨S', b3⟩, ⟨S', b4⟩, ⟨S', b5⟩, ⟨S', b6⟩, ⟨S', b7⟩, ⟨S', b8⟩] h := by
  subst e0 e1 e2 e3 e4 e5 e6 e7 e8; rfl

end Cert.HostFold
-- ==== Proof.KI.Value.lean ====
/-
  The value of the idealized kernel program: what its run leaves in its two results, as the specification's function of
  the eleven arguments.

  The first stretch of host operations transposes the four weight matrices, turns each bias into one row and cuts the
  leaves' input rows out of the inputs; so the parameter blocks every region receives are the specification's parameters
  of the arguments.  Region K then leaves in its two output arrays the cell at every row of the arrays it is entered
  with (Proof/KI/Val<K>.lean); the stretch after it packs four rows of each output into one (the children's rows of the
  next level) and cuts the next level's input rows out of the inputs — the specification's next level.  By induction over
  the nine levels each region's outputs are the specification's level, and the last stretch stacks the nine levels and puts
  a leading axis in front: the specification's results.
-/
import proofs.«148344_j70635032150607_1_alg».proof.Proof.KI.Chain
import proofs.«148344_j70635032150607_1_alg».proof.Proof.KI.Val0
import proofs.«148344_j70635032150607_1_alg».proof.Proof.KI.Val1
import proofs.«148344_j70635032150607_1_alg».proof.Proof.KI.Val2
import proofs.«148344_j70635032150607_1_alg».proof.Proof.KI.Val3
import proofs.«148344_j70635032150607_1_alg».proof.Proof.KI.Val4
import proofs.«148344_j70635032150607_1_alg».proof.Proof.KI.Val5
import proofs.«148344_j70635032150607_1_alg».proof.Proof.KI.Val6
import proofs.«148344_j70635032150607_1_alg».proof.Proof.KI.Val7
import proofs.«148344_j70635032150607_1_alg».proof.Proof.KI.Val8
import proofs.«148344_j70635032150607_1_alg».proof.Proof.LibLayout
import proofs.«148344_j70635032150607_1_alg».proof.Proof.LibHostFold
import Idealize.ShloMosaic.Lib.StableHlo.Run

set_option maxRecDepth 16384

noncomputable section

namespace Cert.KernelIdeal.Hand

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen Cert.TreeSpec Cert.Layout Cert.HostFold

variable (m : (ℓ : Loc nD τ sig) → Buf (Elt Ideal) ℓ) (ρ : Dev nD → PrngReg) (c : Dev nD)

/-- The specification's parameters, input rows and initial rows of this memory's arguments. -/
abbrev PQ : Params := paramsOf (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6))
  (m ((c : Thread nD τ).loc main_arg7)) (m ((c : Thread nD τ).loc main_arg8))
abbrev XE : Fin 87381 → Fin 128 → EReal := embOf (m ((c : Thread nD τ).loc main_arg0))
abbrev hI : Fin 512 → EReal := rowOf (m ((c : Thread nD τ).loc main_arg9))
abbrev cI : Fin 512 → EReal := rowOf (m ((c : Thread nD τ).loc main_arg10))

/-! ## The first stretch -/

theorem W1_v0 : W1 m ρ c (Proc.devRef .tc main_v0) = transpose S128x384 [1, 0] (m ((c : Thread nD τ).loc main_arg1)) transposes_S384x128_S128x384_1_0 := by
  show StableHlo.after hostOps0 (W0 m ρ c) (Proc.devRef .tc main_v0) = _
  after_results <;> rfl
theorem W1_v1 : W1 m ρ c (Proc.devRef .tc main_v1) = transpose S512x384 [1, 0] (m ((c : Thread nD τ).loc main_arg3)) transposes_S384x512_S512x384_1_0 := by
  show StableHlo.after hostOps0 (W0 m ρ c) (Proc.devRef .tc main_v1) = _
  after_results <;> rfl
theorem W1_v2 : W1 m ρ c (Proc.devRef .tc main_v2) = transpose S128x128 [1, 0] (m ((c : Thread nD τ).loc main_arg5)) transposes_S128x128_S128x128_1_0 := by
  show StableHlo.after hostOps0 (W0 m ρ c) (Proc.devRef .tc main_v2) = _
  after_results <;> rfl
theorem W1_v3 : W1 m ρ c (Proc.devRef .tc main_v3) = transpose S512x512 [1, 0] (m ((c : Thread nD τ).loc main_arg7)) transposes_S512x512_S512x512_1_0 := by
  show StableHlo.after hostOps0 (W0 m ρ c) (Proc.devRef .tc main_v3) = _
  after_results <;> rfl
theorem W1_v4 : W1 m ρ c (Proc.devRef .tc main_v4) = shapeCast S1x384 (m ((c : Thread nD τ).loc main_arg2)) shapeCasts_S384_S1x384 := by
  show StableHlo.after hostOps0 (W0 m ρ c) (Proc.devRef .tc main_v4) = _
  after_results <;> rfl
theorem W1_v5 : W1 m ρ c (Proc.devRef .tc main_v5) = shapeCast S1x384 (m ((c : Thread nD τ).loc main_arg4)) shapeCasts_S384_S1x384 := by
  show StableHlo.after hostOps0 (W0 m ρ c) (Proc.devRef .tc main_v5) = _
  after_results <;> rfl
theorem W1_v6 : W1 m ρ c (Proc.devRef .tc main_v6) = shapeCast S1x128 (m ((c : Thread nD τ).loc main_arg6)) shapeCasts_S128_S1x128 := by
  show StableHlo.after hostOps0 (W0 m ρ c) (Proc.devRef .tc main_v6) = _
  after_results <;> rfl
theorem W1_v7 : W1 m ρ c (Proc.devRef .tc main_v7) = shapeCast S1x512 (m ((c : Thread nD τ).loc main_arg8)) shapeCasts_S512_S1x512 := by
  show StableHlo.after hostOps0 (W0 m ρ c) (Proc.devRef .tc main_v7) = _
  after_results <;> rfl
theorem W1_v8 : W1 m ρ c (Proc.devRef .tc main_v8) = extractStridedSlice S65536x128 ![0, 0] (m ((c : Thread nD τ).loc main_arg0)) slices_S87381x128_S65536x128_0_0 := by
  show StableHlo.after hostOps0 (W0 m ρ c) (Proc.devRef .tc main_v8) = _
  after_results <;> rfl

/-- The parameter blocks the first stretch leaves are the specification's parameters of the arguments. -/
theorem params_W1 : winParams (W1 m ρ c (Proc.devRef .tc main_v0)) (W1 m ρ c (Proc.devRef .tc main_v4)) (W1 m ρ c (Proc.devRef .tc main_v1))
    (W1 m ρ c (Proc.devRef .tc main_v5)) (W1 m ρ c (Proc.devRef .tc main_v2)) (W1 m ρ c (Proc.devRef .tc main_v6))
    (W1 m ρ c (Proc.devRef .tc main_v3)) (W1 m ρ c (Proc.devRef .tc main_v7)) = PQ m c := by
  rw [W1_v0, W1_v4, W1_v1, W1_v5, W1_v2, W1_v6, W1_v3, W1_v7]
  simp only [winParams, paramsOf, Params.mk.injEq]
  refine ⟨?_, ?_, ?_, ?_, ?_, ?_, ?_, ?_⟩
  · funext k j; exact transposeT_apply _ _ k j
  · funext j; exact oneRow_apply _ _ 0 j
  · funext k j; exact transposeT_apply _ _ k j
  · funext j; exact oneRow_apply _ _ 0 j
  · funext k j; exact transposeT_apply _ _ k j
  · funext j; exact oneRow_apply _ _ 0 j
  · funext k j; exact transposeT_apply _ _ k j
  · funext j; exact oneRow_apply _ _ 0 j

theorem params_W3 : winParams (W3 m ρ c (Proc.devRef .tc main_v0)) (W3 m ρ c (Proc.devRef .tc main_v4)) (W3 m ρ c (Proc.devRef .tc main_v1))
    (W3 m ρ c (Proc.devRef .tc main_v5)) (W3 m ρ c (Proc.devRef .tc main_v2)) (W3 m ρ c (Proc.devRef .tc main_v6))
    (W3 m ρ c (Proc.devRef .tc main_v3)) (W3 m ρ c (Proc.devRef .tc main_v7)) = PQ m c := by
  rw [W3_main_v0, W3_main_v4, W3_main_v1, W3_main_v5, W3_main_v2, W3_main_v6, W3_main_v3, W3_main_v7]
  exact params_W1 m ρ c
theorem params_W5 : winParams (W5 m ρ c (Proc.devRef .tc main_v0)) (W5 m ρ c (Proc.devRef .tc main_v4)) (W5 m ρ c (Proc.devRef .tc main_v1))
    (W5 m ρ c (Proc.devRef .tc main_v5)) (W5 m ρ c (Proc.devRef .tc main_v2)) (W5 m ρ c (Proc.devRef .tc main_v6))
    (W5 m ρ c (Proc.devRef .tc main_v3)) (W5 m ρ c (Proc.devRef .tc main_v7)) = PQ m c := by
  rw [W5_main_v0, W5_main_v4, W5_main_v1, W5_main_v5, W5_main_v2, W5_main_v6, W5_main_v3, W5_main_v7]
  exact params_W1 m ρ c
theorem params_W7 : winParams (W7 m ρ c (Proc.devRef .tc main_v0)) (W7 m ρ c (Proc.devRef .tc main_v4)) (W7 m ρ c (Proc.devRef .tc main_v1))
    (W7 m ρ c (Proc.devRef .tc main_v5)) (W7 m ρ c (Proc.devRef .tc main_v2)) (W7 m ρ c (Proc.devRef .tc main_v6))
    (W7 m ρ c (Proc.devRef .tc main_v3)) (W7 m ρ c (Proc.devRef .tc main_v7)) = PQ m c := by
  rw [W7_main_v0, W7_main_v4, W7_main_v1, W7_main_v5, W7_main_v2, W7_main_v6, W7_main_v3, W7_main_v7]
  exact params_W1 m ρ c
theorem params_W9 : winParams (W9 m ρ c (Proc.devRef .tc main_v0)) (W9 m ρ c (Proc.devRef .tc main_v4)) (W9 m ρ c (Proc.devRef .tc main_v1))
    (W9 m ρ c (Proc.devRef .tc main_v5)) (W9 m ρ c (Proc.devRef .tc main_v2)) (W9 m ρ c (Proc.devRef .tc main_v6))
    (W9 m ρ c (Proc.devRef .tc main_v3)) (W9 m ρ c (Proc.devRef .tc main_v7)) = PQ m c := by
  rw [W9_main_v0, W9_main_v4, W9_main_v1, W9_main_v5, W9_main_v2, W9_main_v6, W9_main_v3, W9_main_v7]
  exact params_W1 m ρ c
theorem params_W11 : winParams (W11 m ρ c (Proc.devRef .tc main_v0)) (W11 m ρ c (Proc.devRef .tc main_v4)) (W11 m ρ c (Proc.devRef .tc main_v1))
    (W11 m ρ c (Proc.devRef .tc main_v5)) (W11 m ρ c (Proc.devRef .tc main_v2)) (W11 m ρ c (Proc.devRef .tc main_v6))
    (W11 m ρ c (Proc.devRef .tc main_v3)) (W11 m ρ c (Proc.devRef .tc main_v7)) = PQ m c := by
  rw [W11_main_v0, W11_main_v4, W11_main_v1, W11_main_v5, W11_main_v2, W11_main_v6, W11_main_v3, W11_main_v7]
  exact params_W1 m ρ c
theorem params_W13 : winParams (W13 m ρ c (Proc.devRef .tc main_v0)) (W13 m ρ c (Proc.devRef .tc main_v4)) (W13 m ρ c (Proc.devRef .tc main_v1))
    (W13 m ρ c (Proc.devRef .tc main_v5)) (W13 m ρ c (Proc.devRef .tc main_v2)) (W13 m ρ c (Proc.devRef .tc main_v6))
    (W13 m ρ c (Proc.devRef .tc main_v3)) (W13 m ρ c (Proc.devRef .tc main_v7)) = PQ m c := by
  rw [W13_main_v0, W13_main_v4, W13_main_v1, W13_main_v5, W13_main_v2, W13_main_v6, W13_main_v3, W13_main_v7]
  exact params_W1 m ρ c
theorem params_W15 : winParams (W15 m ρ c (Proc.devRef .tc main_v0)) (W15 m ρ c (Proc.devRef .tc main_v4)) (W15 m ρ c (Proc.devRef .tc main_v1))
    (W15 m ρ c (Proc.devRef .tc main_v5)) (W15 m ρ c (Proc.devRef .tc main_v2)) (W15 m ρ c (Proc.devRef .tc main_v6))
    (W15 m ρ c (Proc.devRef .tc main_v3)) (W15 m ρ c (Proc.devRef .tc main_v7)) = PQ m c := by
  rw [W15_main_v0, W15_main_v4, W15_main_v1, W15_main_v5, W15_main_v2, W15_main_v6, W15_main_v3, W15_main_v7]
  exact params_W1 m ρ c
theorem params_W17 : winParams (W17 m ρ c (Proc.devRef .tc main_v0)) (W17 m ρ c (Proc.devRef .tc main_v4)) (W17 m ρ c (Proc.devRef .tc main_v1))
    (W17 m ρ c (Proc.devRef .tc main_v5)) (W17 m ρ c (Proc.devRef .tc main_v2)) (W17 m ρ c (Proc.devRef .tc main_v6))
    (W17 m ρ c (Proc.devRef .tc main_v3)) (W17 m ρ c (Proc.devRef .tc main_v7)) = PQ m c := by
  rw [W17_main_v0, W17_main_v4, W17_main_v1, W17_main_v5, W17_main_v2, W17_main_v6, W17_main_v3, W17_main_v7]
  exact params_W1 m ρ c

/-! ## The levels -/

/-- The leaves: region 0's outputs are the specification's level 0. -/
theorem level0 : W2 m ρ c (Proc.devRef .tc main_v9_0) = asArr (L0 (PQ m c) (XE m c) (hI m c) (cI m c)).h
    ∧ W2 m ρ c (Proc.devRef .tc main_v9_1) = asArr (L0 (PQ m c) (XE m c) (hI m c) (cI m c)).c := by
  have hx : W1 m ρ c (Proc.devRef .tc main_v8) = arr (rows (XE m c) 0 65536 (by omega)) :=
    (W1_v8 m ρ c).trans (rows_apply 0 (by omega) _ _)
  have h9 : W1 m ρ c (Proc.devRef .tc main_arg9) = m ((c : Thread nD τ).loc main_arg9) :=
    (W1_keep m ρ c main_arg9 (by decide)).trans rfl
  have h10 : W1 m ρ c (Proc.devRef .tc main_arg10) = m ((c : Thread nD τ).loc main_arg10) :=
    (W1_keep m ρ c main_arg10 (by decide)).trans rfl
  constructor
  · refine (W2_arr m ρ c 11).trans ((final0_H (E1 m ρ) c).trans ?_)
    show cellArrH0 (N := 65536) (W1 m ρ c (Proc.devRef .tc main_v8)) (W1 m ρ c (Proc.devRef .tc main_arg9)) (W1 m ρ c (Proc.devRef .tc main_arg10))
      (winParams (W1 m ρ c (Proc.devRef .tc main_v0)) (W1 m ρ c (Proc.devRef .tc main_v4)) (W1 m ρ c (Proc.devRef .tc main_v1))
        (W1 m ρ c (Proc.devRef .tc main_v5)) (W1 m ρ c (Proc.devRef .tc main_v2)) (W1 m ρ c (Proc.devRef .tc main_v6))
        (W1 m ρ c (Proc.devRef .tc main_v3)) (W1 m ρ c (Proc.devRef .tc main_v7))) = _
    rw [params_W1, hx, h9, h10]
    rfl
  · refine (W2_arr m ρ c 12).trans ((final0_C (E1 m ρ) c).trans ?_)
    show cellArrC0 (N := 65536) (W1 m ρ c (Proc.devRef .tc main_v8)) (W1 m ρ c (Proc.devRef .tc main_arg9)) (W1 m ρ c (Proc.devRef .tc main_arg10))
      (winParams (W1 m ρ c (Proc.devRef .tc main_v0)) (W1 m ρ c (Proc.devRef .tc main_v4)) (W1 m ρ c (Proc.devRef .tc main_v1))
        (W1 m ρ c (Proc.devRef .tc main_v5)) (W1 m ρ c (Proc.devRef .tc main_v2)) (W1 m ρ c (Proc.devRef .tc main_v6))
        (W1 m ρ c (Proc.devRef .tc main_v3)) (W1 m ρ c (Proc.devRef .tc main_v7))) = _
    rw [params_W1, hx, h9, h10]
    rfl

/-- Level 1: the stretch before region 1 packs level 0's rows four to one and cuts out the level's input rows; region 1's outputs are
    the specification's level 1. -/
theorem level1 : W4 m ρ c (Proc.devRef .tc main_v13_0) = asArr (L1 (PQ m c) (XE m c) (hI m c) (cI m c)).h
    ∧ W4 m ρ c (Proc.devRef .tc main_v13_1) = asArr (L1 (PQ m c) (XE m c) (hI m c) (cI m c)).c := by
  obtain ⟨ph, pc⟩ := level0 m ρ c
  have hh : W3 m ρ c (Proc.devRef .tc main_v10) = arr (pack rfl (L0 (PQ m c) (XE m c) (hI m c) (cI m c)).h) := by
    have e : W3 m ρ c (Proc.devRef .tc main_v10) = shapeCast S16384x512 (W2 m ρ c (Proc.devRef .tc main_v9_0)) shapeCasts_S65536x128_S16384x512 := by
      show StableHlo.after hostOps1 (W2 m ρ c) (Proc.devRef .tc main_v10) = _
      after_results <;> rfl
    rw [e, ph, asArr_eq_arr]
    exact pack_apply rfl _ _
  have hc : W3 m ρ c (Proc.devRef .tc main_v11) = arr (pack rfl (L0 (PQ m c) (XE m c) (hI m c) (cI m c)).c) := by
    have e : W3 m ρ c (Proc.devRef .tc main_v11) = shapeCast S16384x512 (W2 m ρ c (Proc.devRef .tc main_v9_1)) shapeCasts_S65536x128_S16384x512 := by
      show StableHlo.after hostOps1 (W2 m ρ c) (Proc.devRef .tc main_v11) = _
      after_results <;> rfl
    rw [e, pc, asArr_eq_arr]
    exact pack_apply rfl _ _
  have hx : W3 m ρ c (Proc.devRef .tc main_v12) = arr (rows (XE m c) 65536 16384 (by omega)) := by
    have e : W3 m ρ c (Proc.devRef .tc main_v12) = extractStridedSlice S16384x128 ![65536, 0] (W2 m ρ c (Proc.devRef .tc main_arg0)) slices_S87381x128_S16384x128_65536_0 := by
      show StableHlo.after hostOps1 (W2 m ρ c) (Proc.devRef .tc main_v12) = _
      after_results <;> rfl
    rw [e, W2_main_arg0]
    exact rows_apply 65536 (by omega) _ _
  constructor
  · refine (W4_arr m ρ c 11).trans ((final1_H (E3 m ρ) c).trans ?_)
    show cellArrH (N := 16384) (W3 m ρ c (Proc.devRef .tc main_v12)) (W3 m ρ c (Proc.devRef .tc main_v10)) (W3 m ρ c (Proc.devRef .tc main_v11))
      (winParams (W3 m ρ c (Proc.devRef .tc main_v0)) (W3 m ρ c (Proc.devRef .tc main_v4)) (W3 m ρ c (Proc.devRef .tc main_v1))
        (W3 m ρ c (Proc.devRef .tc main_v5)) (W3 m ρ c (Proc.devRef .tc main_v2)) (W3 m ρ c (Proc.devRef .tc main_v6))
        (W3 m ρ c (Proc.devRef .tc main_v3)) (W3 m ρ c (Proc.devRef .tc main_v7))) = _
    rw [params_W3, hx, hh, hc]
    rfl
  · refine (W4_arr m ρ c 12).trans ((final1_C (E3 m ρ) c).trans ?_)
    show cellArrC (N := 16384) (W3 m ρ c (Proc.devRef .tc main_v12)) (W3 m ρ c (Proc.devRef .tc main_v10)) (W3 m ρ c (Proc.devRef .tc main_v11))
      (winParams (W3 m ρ c (Proc.devRef .tc main_v0)) (W3 m ρ c (Proc.devRef .tc main_v4)) (W3 m ρ c (Proc.devRef .tc main_v1))
        (W3 m ρ c (Proc.devRef .tc main_v5)) (W3 m ρ c (Proc.devRef .tc main_v2)) (W3 m ρ c (Proc.devRef .tc main_v6))
        (W3 m ρ c (Proc.devRef .tc main_v3)) (W3 m ρ c (Proc.devRef .tc main_v7))) = _
    rw [params_W3, hx, hh, hc]
    rfl

/-- Level 2: the stretch before region 2 packs level 1's rows four to one and cuts out the level's input rows; region 2's outputs are
    the specification's level 2. -/
theorem level2 : W6 m ρ c (Proc.devRef .tc main_v17_0) = asArr (L2 (PQ m c) (XE m c) (hI m c) (cI m c)).h
    ∧ W6 m ρ c (Proc.devRef .tc main_v17_1) = asArr (L2 (PQ m c) (XE m c) (hI m c) (cI m c)).c := by
  obtain ⟨ph, pc⟩ := level1 m ρ c
  have hh : W5 m ρ c (Proc.devRef .tc main_v14) = arr (pack rfl (L1 (PQ m c) (XE m c) (hI m c) (cI m c)).h) := by
    have e : W5 m ρ c (Proc.devRef .tc main_v14) = shapeCast S4096x512 (W4 m ρ c (Proc.devRef .tc main_v13_0)) shapeCasts_S16384x128_S4096x512 := by
      show StableHlo.after hostOps2 (W4 m ρ c) (Proc.devRef .tc main_v14) = _
      after_results <;> rfl
    rw [e, ph, asArr_eq_arr]
    exact pack_apply rfl _ _
  have hc : W5 m ρ c (Proc.devRef .tc main_v15) = arr (pack rfl (L1 (PQ m c) (XE m c) (hI m c) (cI m c)).c) := by
    have e : W5 m ρ c (Proc.devRef .tc main_v15) = shapeCast S4096x512 (W4 m ρ c (Proc.devRef .tc main_v13_1)) shapeCasts_S16384x128_S4096x512 := by
      show StableHlo.after hostOps2 (W4 m ρ c) (Proc.devRef .tc main_v15) = _
      after_results <;> rfl
    rw [e, pc, asArr_eq_arr]
    exact pack_apply rfl _ _
  have hx : W5 m ρ c (Proc.devRef .tc main_v16) = arr (rows (XE m c) 81920 4096 (by omega)) := by
    have e : W5 m ρ c (Proc.devRef .tc main_v16) = extractStridedSlice S4096x128 ![81920, 0] (W4 m ρ c (Proc.devRef .tc main_arg0)) slices_S87381x128_S4096x128_81920_0 := by
      show StableHlo.after hostOps2 (W4 m ρ c) (Proc.devRef .tc main_v16) = _
      after_results <;> rfl
    rw [e, W4_main_arg0]
    exact rows_apply 81920 (by omega) _ _
  constructor
  · refine (W6_arr m ρ c 11).trans ((final2_H (E5 m ρ) c).trans ?_)
    show cellArrH (N := 4096) (W5 m ρ c (Proc.devRef .tc main_v16)) (W5 m ρ c (Proc.devRef .tc main_v14)) (W5 m ρ c (Proc.devRef .tc main_v15))
      (winParams (W5 m ρ c (Proc.devRef .tc main_v0)) (W5 m ρ c (Proc.devRef .tc main_v4)) (W5 m ρ c (Proc.devRef .tc main_v1))
        (W5 m ρ c (Proc.devRef .tc main_v5)) (W5 m ρ c (Proc.devRef .tc main_v2)) (W5 m ρ c (Proc.devRef .tc main_v6))
        (W5 m ρ c (Proc.devRef .tc main_v3)) (W5 m ρ c (Proc.devRef .tc main_v7))) = _
    rw [params_W5, hx, hh, hc]
    rfl
  · refine (W6_arr m ρ c 12).trans ((final2_C (E5 m ρ) c).trans ?_)
    show cellArrC (N := 4096) (W5 m ρ c (Proc.devRef .tc main_v16)) (W5 m ρ c (Proc.devRef .tc main_v14)) (W5 m ρ c (Proc.devRef .tc main_v15))
      (winParams (W5 m ρ c (Proc.devRef .tc main_v0)) (W5 m ρ c (Proc.devRef .tc main_v4)) (W5 m ρ c (Proc.devRef .tc main_v1))
        (W5 m ρ c (Proc.devRef .tc main_v5)) (W5 m ρ c (Proc.devRef .tc main_v2)) (W5 m ρ c (Proc.devRef .tc main_v6))
        (W5 m ρ c (Proc.devRef .tc main_v3)) (W5 m ρ c (Proc.devRef .tc main_v7))) = _
    rw [params_W5, hx, hh, hc]
    rfl

/-- Level 3: the stretch before region 3 packs level 2's rows four to one and cuts out the level's input rows; region 3's outputs are
    the specification's level 3. -/
theorem level3 : W8 m ρ c (Proc.devRef .tc main_v21_0) = asArr (L3 (PQ m c) (XE m c) (hI m c) (cI m c)).h
    ∧ W8 m ρ c (Proc.devRef .tc main_v21_1) = asArr (L3 (PQ m c) (XE m c) (hI m c) (cI m c)).c := by
  obtain ⟨ph, pc⟩ := level2 m ρ c
  have hh : W7 m ρ c (Proc.devRef .tc main_v18) = arr (pack rfl (L2 (PQ m c) (XE m c) (hI m c) (cI m c)).h) := by
    have e : W7 m ρ c (Proc.devRef .tc main_v18) = shapeCast S1024x512 (W6 m ρ c (Proc.devRef .tc main_v17_0)) shapeCasts_S4096x128_S1024x512 := by
      show StableHlo.after hostOps3 (W6 m ρ c) (Proc.devRef .tc main_v18) = _
      after_results <;> rfl
    rw [e, ph, asArr_eq_arr]
    exact pack_apply rfl _ _
  have hc : W7 m ρ c (Proc.devRef .tc main_v19) = arr (pack rfl (L2 (PQ m c) (XE m c) (hI m c) (cI m c)).c) := by
    have e : W7 m ρ c (Proc.devRef .tc main_v19) = shapeCast S1024x512 (W6 m ρ c (Proc.devRef .tc main_v17_1)) shapeCasts_S4096x128_S1024x512 := by
      show StableHlo.after hostOps3 (W6 m ρ c) (Proc.devRef .tc main_v19) = _
      after_results <;> rfl
    rw [e, pc, asArr_eq_arr]
    exact pack_apply rfl _ _
  have hx : W7 m ρ c (Proc.devRef .tc main_v20) = arr (rows (XE m c) 86016 1024 (by omega)) := by
    have e : W7 m ρ c (Proc.devRef .tc main_v20) = extractStridedSlice S1024x128 ![86016, 0] (W6 m ρ c (Proc.devRef .tc main_arg0)) slices_S87381x128_S1024x128_86016_0 := by
      show StableHlo.after hostOps3 (W6 m ρ c) (Proc.devRef .tc main_v20) = _
      after_results <;> rfl
    rw [e, W6_main_arg0]
    exact rows_apply 86016 (by omega) _ _
  constructor
  · refine (W8_arr m ρ c 11).trans ((final3_H (E7 m ρ) c).trans ?_)
    show cellArrH (N := 1024) (W7 m ρ c (Proc.devRef .tc main_v20)) (W7 m ρ c (Proc.devRef .tc main_v18)) (W7 m ρ c (Proc.devRef .tc main_v19))
      (winParams (W7 m ρ c (Proc.devRef .tc main_v0)) (W7 m ρ c (Proc.devRef .tc main_v4)) (W7 m ρ c (Proc.devRef .tc main_v1))
        (W7 m ρ c (Proc.devRef .tc main_v5)) (W7 m ρ c (Proc.devRef .tc main_v2)) (W7 m ρ c (Proc.devRef .tc main_v6))
        (W7 m ρ c (Proc.devRef .tc main_v3)) (W7 m ρ c (Proc.devRef .tc main_v7))) = _
    rw [params_W7, hx, hh, hc]
    rfl
  · refine (W8_arr m ρ c 12).trans ((final3_C (E7 m ρ) c).trans ?_)
    show cellArrC (N := 1024) (W7 m ρ c (Proc.devRef .tc main_v20)) (W7 m ρ c (Proc.devRef .tc main_v18)) (W7 m ρ c (Proc.devRef .tc main_v19))
      (winParams (W7 m ρ c (Proc.devRef .tc main_v0)) (W7 m ρ c (Proc.devRef .tc main_v4)) (W7 m ρ c (Proc.devRef .tc main_v1))
        (W7 m ρ c (Proc.devRef .tc main_v5)) (W7 m ρ c (Proc.devRef .tc main_v2)) (W7 m ρ c (Proc.devRef .tc main_v6))
        (W7 m ρ c (Proc.devRef .tc main_v3)) (W7 m ρ c (Proc.devRef .tc main_v7))) = _
    rw [params_W7, hx, hh, hc]
    rfl

/-- Level 4: the stretch before region 4 packs level 3's rows four to one and cuts out the level's input rows; region 4's outputs are
    the specification's level 4. -/
theorem level4 : W10 m ρ c (Proc.devRef .tc main_v25_0) = asArr (L4 (PQ m c) (XE m c) (hI m c) (cI m c)).h
    ∧ W10 m ρ c (Proc.devRef .tc main_v25_1) = asArr (L4 (PQ m c) (XE m c) (hI m c) (cI m c)).c := by
  obtain ⟨ph, pc⟩ := level3 m ρ c
  have hh : W9 m ρ c (Proc.devRef .tc main_v22) = arr (pack rfl (L3 (PQ m c) (XE m c) (hI m c) (cI m c)).h) := by
    have e : W9 m ρ c (Proc.devRef .tc main_v22) = shapeCast S256x512 (W8 m ρ c (Proc.devRef .tc main_v21_0)) shapeCasts_S1024x128_S256x512 := by
      show StableHlo.after hostOps4 (W8 m ρ c) (Proc.devRef .tc main_v22) = _
      after_results <;> rfl
    rw [e, ph, asArr_eq_arr]
    exact pack_apply rfl _ _
  have hc : W9 m ρ c (Proc.devRef .tc main_v23) = arr (pack rfl (L3 (PQ m c) (XE m c) (hI m c) (cI m c)).c) := by
    have e : W9 m ρ c (Proc.devRef .tc main_v23) = shapeCast S256x512 (W8 m ρ c (Proc.devRef .tc main_v21_1)) shapeCasts_S1024x128_S256x512 := by
      show StableHlo.after hostOps4 (W8 m ρ c) (Proc.devRef .tc main_v23) = _
      after_results <;> rfl
    rw [e, pc, asArr_eq_arr]
    exact pack_apply rfl _ _
  have hx : W9 m ρ c (Proc.devRef .tc main_v24) = arr (rows (XE m c) 87040 256 (by omega)) := by
    have e : W9 m ρ c (Proc.devRef .tc main_v24) = extractStridedSlice S256x128 ![87040, 0] (W8 m ρ c (Proc.devRef .tc main_arg0)) slices_S87381x128_S256x128_87040_0 := by
      show StableHlo.after hostOps4 (W8 m ρ c) (Proc.devRef .tc main_v24) = _
      after_results <;> rfl
    rw [e, W8_main_arg0]
    exact rows_apply 87040 (by omega) _ _
  constructor
  · refine (W10_arr m ρ c 11).trans ((final4_H (E9 m ρ) c).trans ?_)
    show cellArrH (N := 256) (W9 m ρ c (Proc.devRef .tc main_v24)) (W9 m ρ c (Proc.devRef .tc main_v22)) (W9 m ρ c (Proc.devRef .tc main_v23))
      (winParams (W9 m ρ c (Proc.devRef .tc main_v0)) (W9 m ρ c (Proc.devRef .tc main_v4)) (W9 m ρ c (Proc.devRef .tc main_v1))
        (W9 m ρ c (Proc.devRef .tc main_v5)) (W9 m ρ c (Proc.devRef .tc main_v2)) (W9 m ρ c (Proc.devRef .tc main_v6))
        (W9 m ρ c (Proc.devRef .tc main_v3)) (W9 m ρ c (Proc.devRef .tc main_v7))) = _
    rw [params_W9, hx, hh, hc]
    rfl
  · refine (W10_arr m ρ c 12).trans ((final4_C (E9 m ρ) c).trans ?_)
    show cellArrC (N := 256) (W9 m ρ c (Proc.devRef .tc main_v24)) (W9 m ρ c (Proc.devRef .tc main_v22)) (W9 m ρ c (Proc.devRef .tc main_v23))
      (winParams (W9 m ρ c (Proc.devRef .tc main_v0)) (W9 m ρ c (Proc.devRef .tc main_v4)) (W9 m ρ c (Proc.devRef .tc main_v1))
        (W9 m ρ c (Proc.devRef .tc main_v5)) (W9 m ρ c (Proc.devRef .tc main_v2)) (W9 m ρ c (Proc.devRef .tc main_v6))
        (W9 m ρ c (Proc.devRef .tc main_v3)) (W9 m ρ c (Proc.devRef .tc main_v7))) = _
    rw [params_W9, hx, hh, hc]
    rfl

/-- Level 5: the stretch before region 5 packs level 4's rows four to one and cuts out the level's input rows; region 5's outputs are
    the specification's level 5. -/
theorem level5 : W12 m ρ c (Proc.devRef .tc main_v29_0) = asArr (L5 (PQ m c) (XE m c) (hI m c) (cI m c)).h
    ∧ W12 m ρ c (Proc.devRef .tc main_v29_1) = asArr (L5 (PQ m c) (XE m c) (hI m c) (cI m c)).c := by
  obtain ⟨ph, pc⟩ := level4 m ρ c
  have hh : W11 m ρ c (Proc.devRef .tc main_v26) = arr (pack rfl (L4 (PQ m c) (XE m c) (hI m c) (cI m c)).h) := by
    have e : W11 m ρ c (Proc.devRef .tc main_v26) = shapeCast S64x512 (W10 m ρ c (Proc.devRef .tc main_v25_0)) shapeCasts_S256x128_S64x512 := by
      show StableHlo.after hostOps5 (W10 m ρ c) (Proc.devRef .tc main_v26) = _
      after_results <;> rfl
    rw [e, ph, asArr_eq_arr]
    exact pack_apply rfl _ _
  have hc : W11 m ρ c (Proc.devRef .tc main_v27) = arr (pack rfl (L4 (PQ m c) (XE m c) (hI m c) (cI m c)).c) := by
    have e : W11 m ρ c (Proc.devRef .tc main_v27) = shapeCast S64x512 (W10 m ρ c (Proc.devRef .tc main_v25_1)) shapeCasts_S256x128_S64x512 := by
      show StableHlo.after hostOps5 (W10 m ρ c) (Proc.devRef .tc main_v27) = _
      after_results <;> rfl
    rw [e, pc, asArr_eq_arr]
    exact pack_apply rfl _ _
  have hx : W11 m ρ c (Proc.devRef .tc main_v28) = arr (rows (XE m c) 87296 64 (by omega)) := by
    have e : W11 m ρ c (Proc.devRef .tc main_v28) = extractStridedSlice S64x128 ![87296, 0] (W10 m ρ c (Proc.devRef .tc main_arg0)) slices_S87381x128_S64x128_87296_0 := by
      show StableHlo.after hostOps5 (W10 m ρ c) (Proc.devRef .tc main_v28) = _
      after_results <;> rfl
    rw [e, W10_main_arg0]
    exact rows_apply 87296 (by omega) _ _
  constructor
  · refine (W12_arr m ρ c 11).trans ((final5_H (E11 m ρ) c).trans ?_)
    show cellArrH (N := 64) (W11 m ρ c (Proc.devRef .tc main_v28)) (W11 m ρ c (Proc.devRef .tc main_v26)) (W11 m ρ c (Proc.devRef .tc main_v27))
      (winParams (W11 m ρ c (Proc.devRef .tc main_v0)) (W11 m ρ c (Proc.devRef .tc main_v4)) (W11 m ρ c (Proc.devRef .tc main_v1))
        (W11 m ρ c (Proc.devRef .tc main_v5)) (W11 m ρ c (Proc.devRef .tc main_v2)) (W11 m ρ c (Proc.devRef .tc main_v6))
        (W11 m ρ c (Proc.devRef .tc main_v3)) (W11 m ρ c (Proc.devRef .tc main_v7))) = _
    rw [params_W11, hx, hh, hc]
    rfl
  · refine (W12_arr m ρ c 12).trans ((final5_C (E11 m ρ) c).trans ?_)
    show cellArrC (N := 64) (W11 m ρ c (Proc.devRef .tc main_v28)) (W11 m ρ c (Proc.devRef .tc main_v26)) (W11 m ρ c (Proc.devRef .tc main_v27))
      (winParams (W11 m ρ c (Proc.devRef .tc main_v0)) (W11 m ρ c (Proc.devRef .tc main_v4)) (W11 m ρ c (Proc.devRef .tc main_v1))
        (W11 m ρ c (Proc.devRef .tc main_v5)) (W11 m ρ c (Proc.devRef .tc main_v2)) (W11 m ρ c (Proc.devRef .tc main_v6))
        (W11 m ρ c (Proc.devRef .tc main_v3)) (W11 m ρ c (Proc.devRef .tc main_v7))) = _
    rw [params_W11, hx, hh, hc]
    rfl

/-- Level 6: the stretch before region 6 packs level 5's rows four to one and cuts out the level's input rows; region 6's outputs are
    the specification's level 6. -/
theorem level6 : W14 m ρ c (Proc.devRef .tc main_v33_0) = asArr (L6 (PQ m c) (XE m c) (hI m c) (cI m c)).h
    ∧ W14 m ρ c (Proc.devRef .tc main_v33_1) = asArr (L6 (PQ m c) (XE m c) (hI m c) (cI m c)).c := by
  obtain ⟨ph, pc⟩ := level5 m ρ c
  have hh : W13 m ρ c (Proc.devRef .tc main_v30) = arr (pack rfl (L5 (PQ m c) (XE m c) (hI m c) (cI m c)).h) := by
    have e : W13 m ρ c (Proc.devRef .tc main_v30) = shapeCast S16x512 (W12 m ρ c (Proc.devRef .tc main_v29_0)) shapeCasts_S64x128_S16x512 := by
      show StableHlo.after hostOps6 (W12 m ρ c) (Proc.devRef .tc main_v30) = _
      after_results <;> rfl
    rw [e, ph, asArr_eq_arr]
    exact pack_apply rfl _ _
  have hc : W13 m ρ c (Proc.devRef .tc main_v31) = arr (pack rfl (L5 (PQ m c) (XE m c) (hI m c) (cI m c)).c) := by
    have e : W13 m ρ c (Proc.devRef .tc main_v31) = shapeCast S16x512 (W12 m ρ c (Proc.devRef .tc main_v29_1)) shapeCasts_S64x128_S16x512 := by
      show StableHlo.after hostOps6 (W12 m ρ c) (Proc.devRef .tc main_v31) = _
      after_results <;> rfl
    rw [e, pc, asArr_eq_arr]
    exact pack_apply rfl _ _
  have hx : W13 m ρ c (Proc.devRef .tc main_v32) = arr (rows (XE m c) 87360 16 (by omega)) := by
    have e : W13 m ρ c (Proc.devRef .tc main_v32) = extractStridedSlice S16x128 ![87360, 0] (W12 m ρ c (Proc.devRef .tc main_arg0)) slices_S87381x128_S16x128_87360_0 := by
      show StableHlo.after hostOps6 (W12 m ρ c) (Proc.devRef .tc main_v32) = _
      after_results <;> rfl
    rw [e, W12_main_arg0]
    exact rows_apply 87360 (by omega) _ _
  constructor
  · refine (W14_arr m ρ c 11).trans ((final6_H (E13 m ρ) c).trans ?_)
    show cellArrH (N := 16) (W13 m ρ c (Proc.devRef .tc main_v32)) (W13 m ρ c (Proc.devRef .tc main_v30)) (W13 m ρ c (Proc.devRef .tc main_v31))
      (winParams (W13 m ρ c (Proc.devRef .tc main_v0)) (W13 m ρ c (Proc.devRef .tc main_v4)) (W13 m ρ c (Proc.devRef .tc main_v1))
        (W13 m ρ c (Proc.devRef .tc main_v5)) (W13 m ρ c (Proc.devRef .tc main_v2)) (W13 m ρ c (Proc.devRef .tc main_v6))
        (W13 m ρ c (Proc.devRef .tc main_v3)) (W13 m ρ c (Proc.devRef .tc main_v7))) = _
    rw [params_W13, hx, hh, hc]
    rfl
  · refine (W14_arr m ρ c 12).trans ((final6_C (E13 m ρ) c).trans ?_)
    show cellArrC (N := 16) (W13 m ρ c (Proc.devRef .tc main_v32)) (W13 m ρ c (Proc.devRef .tc main_v30)) (W13 m ρ c (Proc.devRef .tc main_v31))
      (winParams (W13 m ρ c (Proc.devRef .tc main_v0)) (W13 m ρ c (Proc.devRef .tc main_v4)) (W13 m ρ c (Proc.devRef .tc main_v1))
        (W13 m ρ c (Proc.devRef .tc main_v5)) (W13 m ρ c (Proc.devRef .tc main_v2)) (W13 m ρ c (Proc.devRef .tc main_v6))
        (W13 m ρ c (Proc.devRef .tc main_v3)) (W13 m ρ c (Proc.devRef .tc main_v7))) = _
    rw [params_W13, hx, hh, hc]
    rfl

/-- Level 7: the stretch before region 7 packs level 6's rows four to one and cuts out the level's input rows; region 7's outputs are
    the specification's level 7. -/
theorem level7 : W16 m ρ c (Proc.devRef .tc main_v37_0) = asArr (L7 (PQ m c) (XE m c) (hI m c) (cI m c)).h
    ∧ W16 m ρ c (Proc.devRef .tc main_v37_1) = asArr (L7 (PQ m c) (XE m c) (hI m c) (cI m c)).c := by
  obtain ⟨ph, pc⟩ := level6 m ρ c
  have hh : W15 m ρ c (Proc.devRef .tc main_v34) = arr (pack rfl (L6 (PQ m c) (XE m c) (hI m c) (cI m c)).h) := by
    have e : W15 m ρ c (Proc.devRef .tc main_v34) = shapeCast S4x512 (W14 m ρ c (Proc.devRef .tc main_v33_0)) shapeCasts_S16x128_S4x512 := by
      show StableHlo.after hostOps7 (W14 m ρ c) (Proc.devRef .tc main_v34) = _
      after_results <;> rfl
    rw [e, ph, asArr_eq_arr]
    exact pack_apply rfl _ _
  have hc : W15 m ρ c (Proc.devRef .tc main_v35) = arr (pack rfl (L6 (PQ m c) (XE m c) (hI m c) (cI m c)).c) := by
    have e : W15 m ρ c (Proc.devRef .tc main_v35) = shapeCast S4x512 (W14 m ρ c (Proc.devRef .tc main_v33_1)) shapeCasts_S16x128_S4x512 := by
      show StableHlo.after hostOps7 (W14 m ρ c) (Proc.devRef .tc main_v35) = _
      after_results <;> rfl
    rw [e, pc, asArr_eq_arr]
    exact pack_apply rfl _ _
  have hx : W15 m ρ c (Proc.devRef .tc main_v36) = arr (rows (XE m c) 87376 4 (by omega)) := by
    have e : W15 m ρ c (Proc.devRef .tc main_v36) = extractStridedSlice S4x128 ![87376, 0] (W14 m ρ c (Proc.devRef .tc main_arg0)) slices_S87381x128_S4x128_87376_0 := by
      show StableHlo.after hostOps7 (W14 m ρ c) (Proc.devRef .tc main_v36) = _
      after_results <;> rfl
    rw [e, W14_main_arg0]
    exact rows_apply 87376 (by omega) _ _
  constructor
  · refine (W16_arr m ρ c 11).trans ((final7_H (E15 m ρ) c).trans ?_)
    show cellArrH (N := 4) (W15 m ρ c (Proc.devRef .tc main_v36)) (W15 m ρ c (Proc.devRef .tc main_v34)) (W15 m ρ c (Proc.devRef .tc main_v35))
      (winParams (W15 m ρ c (Proc.devRef .tc main_v0)) (W15 m ρ c (Proc.devRef .tc main_v4)) (W15 m ρ c (Proc.devRef .tc main_v1))
        (W15 m ρ c (Proc.devRef .tc main_v5)) (W15 m ρ c (Proc.devRef .tc main_v2)) (W15 m ρ c (Proc.devRef .tc main_v6))
        (W15 m ρ c (Proc.devRef .tc main_v3)) (W15 m ρ c (Proc.devRef .tc main_v7))) = _
    rw [params_W15, hx, hh, hc]
    rfl
  · refine (W16_arr m ρ c 12).trans ((final7_C (E15 m ρ) c).trans ?_)
    show cellArrC (N := 4) (W15 m ρ c (Proc.devRef .tc main_v36)) (W15 m ρ c (Proc.devRef .tc main_v34)) (W15 m ρ c (Proc.devRef .tc main_v35))
      (winParams (W15 m ρ c (Proc.devRef .tc main_v0)) (W15 m ρ c (Proc.devRef .tc main_v4)) (W15 m ρ c (Proc.devRef .tc main_v1))
        (W15 m ρ c (Proc.devRef .tc main_v5)) (W15 m ρ c (Proc.devRef .tc main_v2)) (W15 m ρ c (Proc.devRef .tc main_v6))
        (W15 m ρ c (Proc.devRef .tc main_v3)) (W15 m ρ c (Proc.devRef .tc main_v7))) = _
    rw [params_W15, hx, hh, hc]
    rfl

/-- Level 8: the stretch before region 8 packs level 7's rows four to one and cuts out the level's input rows; region 8's outputs are
    the specification's level 8. -/
theorem level8 : W18 m ρ c (Proc.devRef .tc main_v41_0) = asArr (L8 (PQ m c) (XE m c) (hI m c) (cI m c)).h
    ∧ W18 m ρ c (Proc.devRef .tc main_v41_1) = asArr (L8 (PQ m c) (XE m c) (hI m c) (cI m c)).c := by
  obtain ⟨ph, pc⟩ := level7 m ρ c
  have hh : W17 m ρ c (Proc.devRef .tc main_v38) = arr (pack rfl (L7 (PQ m c) (XE m c) (hI m c) (cI m c)).h) := by
    have e : W17 m ρ c (Proc.devRef .tc main_v38) = shapeCast S1x512 (W16 m ρ c (Proc.devRef .tc main_v37_0)) shapeCasts_S4x128_S1x512 := by
      show StableHlo.after hostOps8 (W16 m ρ c) (Proc.devRef .tc main_v38) = _
      after_results <;> rfl
    rw [e, ph, asArr_eq_arr]
    exact pack_apply rfl _ _
  have hc : W17 m ρ c (Proc.devRef .tc main_v39) = arr (pack rfl (L7 (PQ m c) (XE m c) (hI m c) (cI m c)).c) := by
    have e : W17 m ρ c (Proc.devRef .tc main_v39) = shapeCast S1x512 (W16 m ρ c (Proc.devRef .tc main_v37_1)) shapeCasts_S4x128_S1x512 := by
      show StableHlo.after hostOps8 (W16 m ρ c) (Proc.devRef .tc main_v39) = _
      after_results <;> rfl
    rw [e, pc, asArr_eq_arr]
    exact pack_apply rfl _ _
  have hx : W17 m ρ c (Proc.devRef .tc main_v40) = arr (rows (XE m c) 87380 1 (by omega)) := by
    have e : W17 m ρ c (Proc.devRef .tc main_v40) = extractStridedSlice S1x128 ![87380, 0] (W16 m ρ c (Proc.devRef .tc main_arg0)) slices_S87381x128_S1x128_87380_0 := by
      show StableHlo.after hostOps8 (W16 m ρ c) (Proc.devRef .tc main_v40) = _
      after_results <;> rfl
    rw [e, W16_main_arg0]
    exact rows_apply 87380 (by omega) _ _
  constructor
  · refine (W18_arr m ρ c 11).trans ((final8_H (E17 m ρ) c).trans ?_)
    show cellArrH (N := 1) (W17 m ρ c (Proc.devRef .tc main_v40)) (W17 m ρ c (Proc.devRef .tc main_v38)) (W17 m ρ c (Proc.devRef .tc main_v39))
      (winParams (W17 m ρ c (Proc.devRef .tc main_v0)) (W17 m ρ c (Proc.devRef .tc main_v4)) (W17 m ρ c (Proc.devRef .tc main_v1))
        (W17 m ρ c (Proc.devRef .tc main_v5)) (W17 m ρ c (Proc.devRef .tc main_v2)) (W17 m ρ c (Proc.devRef .tc main_v6))
        (W17 m ρ c (Proc.devRef .tc main_v3)) (W17 m ρ c (Proc.devRef .tc main_v7))) = _
    rw [params_W17, hx, hh, hc]
    rfl
  · refine (W18_arr m ρ c 12).trans ((final8_C (E17 m ρ) c).trans ?_)
    show cellArrC (N := 1) (W17 m ρ c (Proc.devRef .tc main_v40)) (W17 m ρ c (Proc.devRef .tc main_v38)) (W17 m ρ c (Proc.devRef .tc main_v39))
      (winParams (W17 m ρ c (Proc.devRef .tc main_v0)) (W17 m ρ c (Proc.devRef .tc main_v4)) (W17 m ρ c (Proc.devRef .tc main_v1))
        (W17 m ρ c (Proc.devRef .tc main_v5)) (W17 m ρ c (Proc.devRef .tc main_v2)) (W17 m ρ c (Proc.devRef .tc main_v6))
        (W17 m ρ c (Proc.devRef .tc main_v3)) (W17 m ρ c (Proc.devRef .tc main_v7))) = _
    rw [params_W17, hx, hh, hc]
    rfl

/-! ## The results -/

variable (hc : Shape.Concatenates [Sh2 65536 128, Sh2 16384 128, Sh2 4096 128, Sh2 1024 128, Sh2 256 128, Sh2 64 128,
      Sh2 16 128, Sh2 4 128, Sh2 1 128] (Sh2 87381 128) 0)
  (hb : (Sh2 87381 128).BroadcastsInDim (Sh3 1 87381 128) ![1, 2])

/-- The first result: the last stretch stacks the nine levels' hidden rows and puts a leading axis in front. -/
theorem W19_outH : W19 m ρ c (Proc.devRef .tc main_v43)
    = outH hc hb (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  have e : W19 m ρ c (Proc.devRef .tc main_v43) = tail hc hb
      (W18 m ρ c (Proc.devRef .tc main_v9_0)) (W18 m ρ c (Proc.devRef .tc main_v13_0)) (W18 m ρ c (Proc.devRef .tc main_v17_0))
      (W18 m ρ c (Proc.devRef .tc main_v21_0)) (W18 m ρ c (Proc.devRef .tc main_v25_0)) (W18 m ρ c (Proc.devRef .tc main_v29_0))
      (W18 m ρ c (Proc.devRef .tc main_v33_0)) (W18 m ρ c (Proc.devRef .tc main_v37_0)) (W18 m ρ c (Proc.devRef .tc main_v41_0)) := by
    show StableHlo.after hostOps9 (W18 m ρ c) (Proc.devRef .tc main_v43) = _
    after_results_vec <;> rfl
  rw [e, W18_main_v9_0, W18_main_v13_0, W18_main_v17_0, W18_main_v21_0, W18_main_v25_0, W18_main_v29_0, W18_main_v33_0, W18_main_v37_0,
    (level0 m ρ c).1, (level1 m ρ c).1, (level2 m ρ c).1, (level3 m ρ c).1, (level4 m ρ c).1, (level5 m ρ c).1, (level6 m ρ c).1,
    (level7 m ρ c).1, (level8 m ρ c).1]
  rfl

/-- The second result: the same of the cell rows. -/
theorem W19_outC : W19 m ρ c (Proc.devRef .tc main_v45)
    = outC hc hb (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  have e : W19 m ρ c (Proc.devRef .tc main_v45) = tail hc hb
      (W18 m ρ c (Proc.devRef .tc main_v9_1)) (W18 m ρ c (Proc.devRef .tc main_v13_1)) (W18 m ρ c (Proc.devRef .tc main_v17_1))
      (W18 m ρ c (Proc.devRef .tc main_v21_1)) (W18 m ρ c (Proc.devRef .tc main_v25_1)) (W18 m ρ c (Proc.devRef .tc main_v29_1))
      (W18 m ρ c (Proc.devRef .tc main_v33_1)) (W18 m ρ c (Proc.devRef .tc main_v37_1)) (W18 m ρ c (Proc.devRef .tc main_v41_1)) := by
    show StableHlo.after hostOps9 (W18 m ρ c) (Proc.devRef .tc main_v45) = _
    after_results_vec <;> rfl
  rw [e, W18_main_v9_1, W18_main_v13_1, W18_main_v17_1, W18_main_v21_1, W18_main_v25_1, W18_main_v29_1, W18_main_v33_1, W18_main_v37_1,
    (level0 m ρ c).2, (level1 m ρ c).2, (level2 m ρ c).2, (level3 m ρ c).2, (level4 m ρ c).2, (level5 m ρ c).2, (level6 m ρ c).2,
    (level7 m ρ c).2, (level8 m ρ c).2]
  rfl

end Cert.KernelIdeal.Hand

end
-- ==== Proof.Ref.Cell.lean ====
/-
  One level of the reference program, for any number n of nodes, read back as the specification's cell.

  The reference computes a level on whole arrays: the gates' pre-activations as two matrix products (the weights
  transposed first) plus two broadcast bias rows; the forget gates on an array [n, 4, 128] (the children's part
  h·U_fᵀ + b_uf reshaped from [n, 512], the node's own part x·W_fᵀ + b_wf broadcast over the middle axis); the new cell
  rows as σ(i)·tanh(u) plus the sum, over the middle axis and from the initial value 0, of forget gate times child cell
  row; the new hidden rows as σ(o)·tanh(c').  Each operation is read here at an index, for every n at once, and the
  result is the specification's cell at that node and column.  The one regrouping is in the sum of c': the reference
  adds 0 + (t₀ + t₁ + t₂ + t₃) to σ(i)·tanh(u), the specification adds t₀ … t₃ one after the other; addition of extended
  reals is associative, and 0 is its neutral element, so the two agree, at infinite values too.
-/
import proofs.«148344_j70635032150607_1_alg».proof.Proof.Spec
import Idealize.ShloMosaic.Lib.IdealHost
import Idealize.ShloMosaic.Lib.ValueLayout
import Idealize.ShloMosaic.Lib.StackMember
import proofs.«148344_j70635032150607_1_alg».proof.Proof.LibLayout

noncomputable section

namespace Cert.RefSide

open Idealize.ShloMosaic Idealize.ShloMosaic.ValueIdx Cert.TreeSpec Cert.Layout

/-! ## The single operations at an index -/

section Pieces
variable {α : Type}

/-- A vector of w numbers made one row and copied down n rows reads, at (r, q), its entry q. -/
theorem bias_apply {n w : Nat} (bA : (Sh1 w).BroadcastsInDim (Sh2 1 w) ![1])
    (bB : (Sh2 1 w).BroadcastsInDim (Sh2 n w) ![0, 1]) (a : (Sh1 w).Idx → α) (r : Fin n) (q : Fin w) :
    broadcastInDim (Sh2 n w) ![0, 1] bB (broadcastInDim (Sh2 1 w) ![1] bA a) (ix2 r q) = a (ix1 q) := by
  have hq : q.val = if w = 1 then 0 else q.val := by
    split
    · have := q.isLt; omega
    · rfl
  refine (broadcastInDim_apply _ bB _ (ix2 r q) (ix2 (0 : Fin 1) q) fun ax => ?_).trans
    (broadcastInDim_apply _ bA a (ix2 (0 : Fin 1) q) (ix1 q) fun ax => ?_)
  · match ax with
    | ⟨0, _⟩ => rfl
    | ⟨1, _⟩ => exact hq
  · match ax with
    | ⟨0, _⟩ => exact hq

/-- A vector of w numbers made one row reads, at (r, q), its entry q. -/
theorem bias1_apply {w : Nat} (bA : (Sh1 w).BroadcastsInDim (Sh2 1 w) ![1]) (a : (Sh1 w).Idx → α) (r : Fin 1) (q : Fin w) :
    broadcastInDim (Sh2 1 w) ![1] bA a (ix2 r q) = a (ix1 q) := by
  have hq : q.val = if w = 1 then 0 else q.val := by
    split
    · have := q.isLt; omega
    · rfl
  refine broadcastInDim_apply _ bA a (ix2 r q) (ix1 q) fun ax => ?_
  match ax with
  | ⟨0, _⟩ => exact hq

/-- A product with a weight matrix that was transposed first: at (r, q) the sum over c of x(r, c) · a(q, c). -/
theorem dotT_apply {n k w : Nat} (D : DotDims (Sh2 n k) (Sh2 k w) (Sh2 n w)) (hD : D = DotDims.plain n k w)
    (t : (Sh2 w k).Transposes [1, 0] (Sh2 k w)) (x : FVec Ideal (Sh2 n k) .f32) (a : FVec Ideal (Sh2 w k) .f32)
    (r : Fin n) (q : Fin w) :
    Host.dotGeneral D none x (transpose (Sh2 k w) [1, 0] a t) (ix2 r q) = ∑ c : Fin k, x (ix2 r c) * a (ix2 q c) := by
  subst hD
  rw [StackMember.dotGeneral_plain_apply]
  exact Finset.sum_congr rfl fun c _ => by rw [transpose_ix2_apply]

/-- The logistic function written out, 1 / (1 + exp (−v)) with both ones broadcast scalars, is the logistic function
    at each element. -/
theorem sigmoid_apply {s : Shape} (b : (⟨0, ![]⟩ : Shape).BroadcastsInDim s ![]) (v : FVec Ideal s .f32) (i : s.Idx) :
    Host.divf (broadcastInDim s ![] b (constant (F := Ideal) ⟨0, ![]⟩ .f32 0x3F800000#32))
      (addf (broadcastInDim s ![] b (constant (F := Ideal) ⟨0, ![]⟩ .f32 0x3F800000#32)) (Host.exp (Host.negf v))) i
      = Ideal.logistic (v i) := by
  rw [hostDivf_apply, addf_apply, broadcastInDim_scalar_apply, constant_apply, Ideal.ofBits_one_f32]
  rfl

/-- The hyperbolic tangent of an array, at an index. -/
theorem hostTanh_apply {s : Shape} (v : FVec Ideal s .f32) (i : s.Idx) : Host.tanh v i = Ideal.tanh (v i) := rfl

/-- n rows of 512 seen as n × 4 rows of 128: entry (r, a, j) is entry (r, 128a + j). -/
theorem split4_apply {n : Nat} (h : (Sh2 n 512).ShapeCasts (Sh3 n 4 128)) (v : (Sh2 n 512).Idx → α)
    (r : Fin n) (a : Fin 4) (j : Fin 128) :
    shapeCast (Sh3 n 4 128) v h (ix3 r a j) = v (ix2 r ⟨128 * a.val + j.val, by omega⟩) :=
  shapeCast_apply v h _ _ (by
    rw [Shape.rowMajor_val_two, Shape.rowMajor_val_three]
    show r.val * 512 + (128 * a.val + j.val) = (r.val * 4 + a.val) * 128 + j.val
    omega)

/-- n rows of 128 copied to each of the four children's slots: entry (r, a, j) is entry (r, j). -/
theorem overChildren_apply {n : Nat} (bC : (Sh2 n 128).BroadcastsInDim (Sh3 n 1 128) ![0, 2])
    (bD : (Sh3 n 1 128).BroadcastsInDim (Sh3 n 4 128) ![0, 1, 2]) (v : (Sh2 n 128).Idx → α)
    (r : Fin n) (a : Fin 4) (j : Fin 128) :
    broadcastInDim (Sh3 n 4 128) ![0, 1, 2] bD (broadcastInDim (Sh3 n 1 128) ![0, 2] bC v) (ix3 r a j) = v (ix2 r j) := by
  have hr : r.val = if n = 1 then 0 else r.val := by
    split
    · have := r.isLt; omega
    · rfl
  refine (broadcastInDim_apply _ bD _ (ix3 r a j) (ix3 r (0 : Fin 1) j) fun ax => ?_).trans
    (broadcastInDim_apply _ bC v (ix3 r (0 : Fin 1) j) (ix2 r j) fun ax => ?_)
  · match ax with
    | ⟨0, _⟩ => exact hr
    | ⟨1, _⟩ => rfl
    | ⟨2, _⟩ => rfl
  · match ax with
    | ⟨0, _⟩ => exact hr
    | ⟨1, _⟩ => rfl

/-- The sum over the four children's slots, from the initial value 0. -/
theorem sumChildren_apply {n : Nat} (hT : (Sh3 n 4 128).ReducesTo [1] (Sh2 n 128))
    (hR : (Sh3 n 4 128).Reduces [1] (Sh2 n 128)) (hu : 0 < (⟨0, ![]⟩ : Shape).numel)
    (v : FVec Ideal (Sh3 n 4 128) .f32) (r : Fin n) (j : Fin 128) :
    Host.reduceAdd v (constant (F := Ideal) ⟨0, ![]⟩ .f32 0x00000000#32) hT hu (ix2 r j)
      = 0 + (v (ix3 r 0 j) + v (ix3 r 1 j) + v (ix3 r 2 j) + v (ix3 r 3 j)) := by
  rw [hostReduceAdd_apply, Ideal.hostReduceAdd_single hT hR, constant_apply, Ideal.ofBits_zero_f32]
  have hl : ∀ k : Fin 4, hR.lift (ix2 r j) k = ix3 r k j := fun k => by
    funext c; apply Fin.ext
    match c with
    | ⟨0, _⟩ => rfl
    | ⟨1, _⟩ => rfl
    | ⟨2, _⟩ => rfl
  show 0 + ∑ k : Fin 4, v (hR.lift (ix2 r j) k) = _
  rw [Fin.sum_univ_four]; simp only [hl]

/-- One row of 512 given to every leaf. -/
theorem tile_apply {n : Nat} (h1 : (Sh2 1 512).ShapeCasts ⟨4, ![1, 1, 1, 512]⟩)
    (b : (⟨4, ![1, 1, 1, 512]⟩ : Shape).BroadcastsInDim ⟨4, ![n, 1, 1, 512]⟩ ![0, 1, 2, 3])
    (h2 : (⟨4, ![n, 1, 1, 512]⟩ : Shape).ShapeCasts (Sh2 n 512)) (a : (Sh2 1 512).Idx → EReal) :
    shapeCast (Sh2 n 512) (broadcastInDim ⟨4, ![n, 1, 1, 512]⟩ ![0, 1, 2, 3] b (shapeCast ⟨4, ![1, 1, 1, 512]⟩ a h1)) h2
      = arr (fun _ : Fin n => rowOf a) := by
  funext i
  obtain ⟨r, q, rfl⟩ : ∃ (r : Fin n) (q : Fin 512), i = ix2 r q := ⟨i 0, i 1, eq_ix2 i⟩
  refine (shapeCast_apply _ h2 _ (ix4 r (0 : Fin 1) (0 : Fin 1) q) ?_).trans
    ((broadcastInDim_apply _ b _ _ (ix4 (0 : Fin 1) (0 : Fin 1) (0 : Fin 1) q) fun ax => ?_).trans
      (shapeCast_apply a h1 _ (ix2 (0 : Fin 1) q) ?_))
  · rw [Shape.rowMajor_val_four, Shape.rowMajor_val_two]
    show ((r.val * 1 + 0) * 1 + 0) * 512 + q.val = r.val * 512 + q.val
    omega
  · match ax with
    | ⟨0, _⟩ => rfl
    | ⟨1, _⟩ => rfl
    | ⟨2, _⟩ => rfl
    | ⟨3, _⟩ => rfl
  · rw [Shape.rowMajor_val_four, Shape.rowMajor_val_two]
    show 0 * 512 + q.val = ((0 * 1 + 0) * 1 + 0) * 512 + q.val
    omega

end Pieces

/-- Adding the sum 0 + (t₀ + t₁ + t₂ + t₃) is adding t₀ … t₃ one after the other: associativity, and 0 is neutral. -/
theorem regroup (A t0 t1 t2 t3 : EReal) : A + (0 + (t0 + t1 + t2 + t3)) = A + t0 + t1 + t2 + t3 := by
  rw [zero_add, ← add_assoc, ← add_assoc, ← add_assoc]

/-! ## One level of the reference, as the reference writes it, for any n

The bias arrays enter as arrays of the level's shape, whatever broadcasts made them: all that is used of them is
their value at an index. -/

section Level
variable {n : Nat}
  (D1 : DotDims (Sh2 n 128) (Sh2 128 384) (Sh2 n 384)) (D2 : DotDims (Sh2 n 512) (Sh2 512 384) (Sh2 n 384))
  (D3 : DotDims (Sh2 n 512) (Sh2 512 512) (Sh2 n 512)) (D4 : DotDims (Sh2 n 128) (Sh2 128 128) (Sh2 n 128))
  (t1 : (Sh2 384 128).Transposes [1, 0] (Sh2 128 384)) (t3 : (Sh2 384 512).Transposes [1, 0] (Sh2 512 384))
  (t7 : (Sh2 512 512).Transposes [1, 0] (Sh2 512 512)) (t5 : (Sh2 128 128).Transposes [1, 0] (Sh2 128 128))
  (bC : (Sh2 n 128).BroadcastsInDim (Sh3 n 1 128) ![0, 2]) (bD : (Sh3 n 1 128).BroadcastsInDim (Sh3 n 4 128) ![0, 1, 2])
  (s0 : (Sh2 n 384).Slices ![0, 0] (Sh2 n 128)) (s128 : (Sh2 n 384).Slices ![0, 128] (Sh2 n 128))
  (s256 : (Sh2 n 384).Slices ![0, 256] (Sh2 n 128))
  (hsplit : (Sh2 n 512).ShapeCasts (Sh3 n 4 128))
  (b02 : (⟨0, ![]⟩ : Shape).BroadcastsInDim (Sh2 n 128) ![]) (b03 : (⟨0, ![]⟩ : Shape).BroadcastsInDim (Sh3 n 4 128) ![])
  (hT : (Sh3 n 4 128).ReducesTo [1] (Sh2 n 128)) (hu : 0 < (⟨0, ![]⟩ : Shape).numel)
  (a1 : FVec Ideal (Sh2 384 128) .f32) (a2 : FVec Ideal (Sh1 384) .f32) (a3 : FVec Ideal (Sh2 384 512) .f32)
  (a4 : FVec Ideal (Sh1 384) .f32) (a5 : FVec Ideal (Sh2 128 128) .f32) (a6 : FVec Ideal (Sh1 128) .f32)
  (a7 : FVec Ideal (Sh2 512 512) .f32) (a8 : FVec Ideal (Sh1 512) .f32)
  (B1 B2 : FVec Ideal (Sh2 n 384) .f32) (Buf : FVec Ideal (Sh2 n 512) .f32) (Bwf : FVec Ideal (Sh2 n 128) .f32)

/-- The gates' pre-activations of a level: x·Wᵀ + b₁ + h·Uᵀ + b₂ on whole arrays. -/
def rIou (x : FVec Ideal (Sh2 n 128) .f32) (hin : FVec Ideal (Sh2 n 512) .f32) : FVec Ideal (Sh2 n 384) .f32 :=
  addf (addf (addf (Host.dotGeneral D1 none x (transpose (Sh2 128 384) [1, 0] a1 t1)) B1) (Host.dotGeneral D2 none hin (transpose (Sh2 512 384) [1, 0] a3 t3))) B2

/-- The forget gates of a level, one per node, child slot and column. -/
def rF (x : FVec Ideal (Sh2 n 128) .f32) (hin : FVec Ideal (Sh2 n 512) .f32) : FVec Ideal (Sh3 n 4 128) .f32 :=
  Host.divf (broadcastInDim (Sh3 n 4 128) ![] b03 (constant (F := Ideal) ⟨0, ![]⟩ .f32 0x3F800000#32)) (addf (broadcastInDim (Sh3 n 4 128) ![] b03 (constant (F := Ideal) ⟨0, ![]⟩ .f32 0x3F800000#32)) (Host.exp (Host.negf (addf (shapeCast (Sh3 n 4 128) (addf (Host.dotGeneral D3 none hin (transpose (Sh2 512 512) [1, 0] a7 t7)) Buf) hsplit) (broadcastInDim (Sh3 n 4 128) ![0, 1, 2] bD (broadcastInDim (Sh3 n 1 128) ![0, 2] bC (addf (Host.dotGeneral D4 none x (transpose (Sh2 128 128) [1, 0] a5 t5)) Bwf)))))))

/-- The new cell rows of a level, from the pre-activations \`iouA\`, the forget gates \`fA\` and the packed children's
    cell rows \`cin\`. -/
def rC (iouA : FVec Ideal (Sh2 n 384) .f32) (fA : FVec Ideal (Sh3 n 4 128) .f32) (cin : FVec Ideal (Sh2 n 512) .f32) :
    FVec Ideal (Sh2 n 128) .f32 :=
  addf (mulf (Host.divf (broadcastInDim (Sh2 n 128) ![] b02 (constant (F := Ideal) ⟨0, ![]⟩ .f32 0x3F800000#32)) (addf (broadcastInDim (Sh2 n 128) ![] b02 (constant (F := Ideal) ⟨0, ![]⟩ .f32 0x3F800000#32)) (Host.exp (Host.negf (extractStridedSlice (Sh2 n 128) ![0, 0] iouA s0))))) (Host.tanh (extractStridedSlice (Sh2 n 128) ![0, 256] iouA s256))) (Host.reduceAdd (mulf fA (shapeCast (Sh3 n 4 128) cin hsplit)) (constant (F := Ideal) ⟨0, ![]⟩ .f32 0x00000000#32) hT hu)

/-- The new hidden rows of a level, from the pre-activations and the new cell rows. -/
def rH (iouA : FVec Ideal (Sh2 n 384) .f32) (cA : FVec Ideal (Sh2 n 128) .f32) : FVec Ideal (Sh2 n 128) .f32 :=
  mulf (Host.divf (broadcastInDim (Sh2 n 128) ![] b02 (constant (F := Ideal) ⟨0, ![]⟩ .f32 0x3F800000#32)) (addf (broadcastInDim (Sh2 n 128) ![] b02 (constant (F := Ideal) ⟨0, ![]⟩ .f32 0x3F800000#32)) (Host.exp (Host.negf (extractStridedSlice (Sh2 n 128) ![0, 128] iouA s128))))) (Host.tanh cA)

variable (hD1 : D1 = DotDims.plain n 128 384) (hD2 : D2 = DotDims.plain n 512 384)
  (hD3 : D3 = DotDims.plain n 512 512) (hD4 : D4 = DotDims.plain n 128 128)
  (hR : (Sh3 n 4 128).Reduces [1] (Sh2 n 128))
  (hB1 : ∀ (r : Fin n) (q : Fin 384), B1 (ix2 r q) = a2 (ix1 q)) (hB2 : ∀ (r : Fin n) (q : Fin 384), B2 (ix2 r q) = a4 (ix1 q))
  (hBuf : ∀ (r : Fin n) (q : Fin 512), Buf (ix2 r q) = a8 (ix1 q)) (hBwf : ∀ (r : Fin n) (q : Fin 128), Bwf (ix2 r q) = a6 (ix1 q))
  (X : Fin n → Fin 128 → EReal) (H C : Fin n → Fin 512 → EReal)

include hD1 hD2 hB1 hB2 in
/-- The pre-activations at node r and gate column q are the specification's. -/
theorem rIou_apply (r : Fin n) (q : Fin 384) :
    rIou D1 D2 t1 t3 a1 a3 B1 B2 (arr X) (arr H) (ix2 r q)
      = iou (paramsOf a1 a2 a3 a4 a5 a6 a7 a8) (X r) (H r) q := by
  unfold rIou
  rw [addf_apply, addf_apply, addf_apply, dotT_apply D1 hD1, dotT_apply D2 hD2, hB1, hB2]
  rfl

include hD3 hD4 hBuf hBwf in
/-- A forget gate at node r, child slot a and column j. -/
theorem rF_apply (r : Fin n) (a : Fin 4) (j : Fin 128) :
    rF D3 D4 t7 t5 bC bD hsplit b03 a5 a7 Buf Bwf (arr X) (arr H) (ix3 r a j)
      = Ideal.logistic (uf (paramsOf a1 a2 a3 a4 a5 a6 a7 a8) (H r) ⟨128 * a.val + j.val, by omega⟩
          + wf (paramsOf a1 a2 a3 a4 a5 a6 a7 a8) (X r) j) := by
  unfold rF
  rw [sigmoid_apply, addf_apply, split4_apply, overChildren_apply, addf_apply, addf_apply, dotT_apply D3 hD3,
    dotT_apply D4 hD4, hBuf, hBwf]
  rfl

include hR in
/-- The new cell rows at node r and column j are the specification's: the four children's terms, which the reference
    sums from 0 and then adds, are added one after the other there. -/
theorem rC_apply (iouA : FVec Ideal (Sh2 n 384) .f32) (fA : FVec Ideal (Sh3 n 4 128) .f32)
    (hI : ∀ (r : Fin n) (q : Fin 384), iouA (ix2 r q) = iou (paramsOf a1 a2 a3 a4 a5 a6 a7 a8) (X r) (H r) q)
    (hF : ∀ (r : Fin n) (a : Fin 4) (j : Fin 128), fA (ix3 r a j)
      = Ideal.logistic (uf (paramsOf a1 a2 a3 a4 a5 a6 a7 a8) (H r) ⟨128 * a.val + j.val, by omega⟩
          + wf (paramsOf a1 a2 a3 a4 a5 a6 a7 a8) (X r) j))
    (r : Fin n) (j : Fin 128) :
    rC s0 s256 hsplit b02 hT hu iouA fA (arr C) (ix2 r j)
      = cNew (paramsOf a1 a2 a3 a4 a5 a6 a7 a8) (X r) (H r) (C r) j := by
  unfold rC
  rw [addf_apply, mulf_apply, sigmoid_apply, slice2_axis1_eq, hI, hostTanh_apply, slice2_axis1_eq, hI,
    sumChildren_apply hT hR hu, mulf_apply, mulf_apply, mulf_apply, mulf_apply, hF, hF, hF, hF,
    split4_apply, split4_apply, split4_apply, split4_apply, regroup]
  rfl

/-- The new hidden rows at node r and column j are the specification's. -/
theorem rH_apply (iouA : FVec Ideal (Sh2 n 384) .f32) (cA : FVec Ideal (Sh2 n 128) .f32)
    (hI : ∀ (r : Fin n) (q : Fin 384), iouA (ix2 r q) = iou (paramsOf a1 a2 a3 a4 a5 a6 a7 a8) (X r) (H r) q)
    (hC : ∀ (r : Fin n) (j : Fin 128), cA (ix2 r j) = cNew (paramsOf a1 a2 a3 a4 a5 a6 a7 a8) (X r) (H r) (C r) j)
    (r : Fin n) (j : Fin 128) :
    rH s128 b02 iouA cA (ix2 r j) = hNew (paramsOf a1 a2 a3 a4 a5 a6 a7 a8) (X r) (H r) (C r) j := by
  unfold rH
  rw [mulf_apply, sigmoid_apply, slice2_axis1_eq, hI, hostTanh_apply, hC]
  rfl

include hD1 hD2 hD3 hD4 hR hB1 hB2 hBuf hBwf in
/-- A whole level: if the level's inputs are the rows X, the packed hidden rows H and the packed cell rows C, its two
    results are the specification's cell at every node. -/
theorem level_eq (x : FVec Ideal (Sh2 n 128) .f32) (hin cin : FVec Ideal (Sh2 n 512) .f32)
    (iouA : FVec Ideal (Sh2 n 384) .f32) (cA hA : FVec Ideal (Sh2 n 128) .f32)
    (ex : x = arr X) (eh : hin = arr H) (ec : cin = arr C)
    (eI : iouA = rIou D1 D2 t1 t3 a1 a3 B1 B2 x hin)
    (eC : cA = rC s0 s256 hsplit b02 hT hu iouA (rF D3 D4 t7 t5 bC bD hsplit b03 a5 a7 Buf Bwf x hin) cin)
    (eH : hA = rH s128 b02 iouA cA) :
    hA = arr (cell (paramsOf a1 a2 a3 a4 a5 a6 a7 a8) X H C).h
      ∧ cA = arr (cell (paramsOf a1 a2 a3 a4 a5 a6 a7 a8) X H C).c := by
  subst ex eh ec
  have hI : ∀ (r : Fin n) (q : Fin 384), iouA (ix2 r q) = iou (paramsOf a1 a2 a3 a4 a5 a6 a7 a8) (X r) (H r) q :=
    fun r q => by rw [eI]; exact rIou_apply D1 D2 t1 t3 a1 a2 a3 a4 a5 a6 a7 a8 B1 B2 hD1 hD2 hB1 hB2 X H r q
  have hC : ∀ (r : Fin n) (j : Fin 128), cA (ix2 r j) = cNew (paramsOf a1 a2 a3 a4 a5 a6 a7 a8) (X r) (H r) (C r) j :=
    fun r j => by
      rw [eC]
      exact rC_apply s0 s256 hsplit b02 hT hu a1 a2 a3 a4 a5 a6 a7 a8 hR X H C iouA _ hI
        (rF_apply D3 D4 t7 t5 bC bD hsplit b03 a1 a2 a3 a4 a5 a6 a7 a8 Buf Bwf hD3 hD4 hBuf hBwf X H) r j
  constructor
  · funext i
    obtain ⟨r, j, rfl⟩ : ∃ (r : Fin n) (j : Fin 128), i = ix2 r j := ⟨i 0, i 1, eq_ix2 i⟩
    rw [eH]
    exact rH_apply s128 b02 a1 a2 a3 a4 a5 a6 a7 a8 X H C iouA cA hI hC r j
  · funext i
    obtain ⟨r, j, rfl⟩ : ∃ (r : Fin n) (j : Fin 128), i = ix2 r j := ⟨i 0, i 1, eq_ix2 i⟩
    exact hC r j

end Level

end Cert.RefSide

end
-- ==== Proof.Ref.L0.lean ====
/-
  The reference's the leaves (65536 nodes, rows 0 … 65535 of the inputs): every leaf receives the same initial rows.
  Its hidden and cell rows are the specification's cell at every node: the level's operations are the generic level's
  (Ref/Cell.lean) at n = 65536, by unfolding names only.
-/
import proofs.«148344_j70635032150607_1_alg».proof.Proof.Gen.ReferenceIdeal.Run
import proofs.«148344_j70635032150607_1_alg».proof.Proof.Ref.Cell

noncomputable section

namespace Cert.RefSide

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx Cert.TreeSpec Cert.Layout

theorem level0 (V0 : Valuation τ sig (Elt Ideal)) :
    (res_main_v60 V0) = arr (cell (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (rows (embOf (V0 (Proc.devRef .tc main_arg0))) 0 65536 (by omega)) (fun _ : Fin 65536 => rowOf (V0 (Proc.devRef .tc main_arg9))) (fun _ : Fin 65536 => rowOf (V0 (Proc.devRef .tc main_arg10)))).h
    ∧ res_main_v52 V0 = arr (cell (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (rows (embOf (V0 (Proc.devRef .tc main_arg0))) 0 65536 (by omega)) (fun _ : Fin 65536 => rowOf (V0 (Proc.devRef .tc main_arg9))) (fun _ : Fin 65536 => rowOf (V0 (Proc.devRef .tc main_arg10)))).c :=
  level_eq (n := 65536)
    (D1 := dot_S65536x128_S128x384_S65536x384_1_0_0_1_n_n) (D2 := dot_S65536x512_S512x384_S65536x384_1_0_0_1_n_n)
    (D3 := dot_S65536x512_S512x512_S65536x512_1_0_0_1_n_n) (D4 := dot_S65536x128_S128x128_S65536x128_1_0_0_1_n_n)
    (t1 := transposes_S384x128_S128x384_1_0) (t3 := transposes_S384x512_S512x384_1_0)
    (t7 := transposes_S512x512_S512x512_1_0) (t5 := transposes_S128x128_S128x128_1_0)
    (bC := bcast_S65536x128_S65536x1x128_0_2) (bD := bcast_S65536x1x128_S65536x4x128_0_1_2)
    (s0 := slices_S65536x384_S65536x128_0_0) (s128 := slices_S65536x384_S65536x128_0_128) (s256 := slices_S65536x384_S65536x128_0_256)
    (hsplit := shapeCasts_S65536x512_S65536x4x128) (b02 := bcast_S_S65536x128) (b03 := bcast_S_S65536x4x128)
    (hT := reducesTo_S65536x4x128_S65536x128_d1) (hu := h_S_)
    (a1 := (V0 (Proc.devRef .tc main_arg1))) (a2 := (V0 (Proc.devRef .tc main_arg2))) (a3 := (V0 (Proc.devRef .tc main_arg3))) (a4 := (V0 (Proc.devRef .tc main_arg4)))
    (a5 := (V0 (Proc.devRef .tc main_arg5))) (a6 := (V0 (Proc.devRef .tc main_arg6))) (a7 := (V0 (Proc.devRef .tc main_arg7))) (a8 := (V0 (Proc.devRef .tc main_arg8)))
    (B1 := (broadcastInDim S65536x384 ![0, 1] bcast_S1x384_S65536x384_0_1 (broadcastInDim S1x384 ![1] bcast_S384_S1x384_1 (V0 (Proc.devRef .tc main_arg2)))))
    (B2 := (broadcastInDim S65536x384 ![0, 1] bcast_S1x384_S65536x384_0_1 (broadcastInDim S1x384 ![1] bcast_S384_S1x384_1 (V0 (Proc.devRef .tc main_arg4)))))
    (Buf := (broadcastInDim S65536x512 ![0, 1] bcast_S1x512_S65536x512_0_1 (broadcastInDim S1x512 ![1] bcast_S512_S1x512_1 (V0 (Proc.devRef .tc main_arg8)))))
    (Bwf := (broadcastInDim S65536x128 ![0, 1] bcast_S1x128_S65536x128_0_1 (broadcastInDim S1x128 ![1] bcast_S128_S1x128_1 (V0 (Proc.devRef .tc main_arg6)))))
    (hD1 := rfl) (hD2 := rfl) (hD3 := rfl) (hD4 := rfl) (hR := by decide)
    (hB1 := by intro r q; exact bias_apply _ _ _ r q) (hB2 := by intro r q; exact bias_apply _ _ _ r q) (hBuf := by intro r q; exact bias_apply _ _ _ r q) (hBwf := by intro r q; exact bias_apply _ _ _ r q)
    (X := (rows (embOf (V0 (Proc.devRef .tc main_arg0))) 0 65536 (by omega))) (H := (fun _ : Fin 65536 => rowOf (V0 (Proc.devRef .tc main_arg9)))) (C := (fun _ : Fin 65536 => rowOf (V0 (Proc.devRef .tc main_arg10))))
    (x := res_main_v6 V0) (hin := res_main_v2 V0)
    (cin := (shapeCast S65536x512 (broadcastInDim S65536x1x1x512 ![0, 1, 2, 3] bcast_S1x1x1x512_S65536x1x1x512_0_1_2_3 (shapeCast S1x1x1x512 (V0 (Proc.devRef .tc main_arg10)) shapeCasts_S1x512_S1x1x1x512)) shapeCasts_S65536x1x1x512_S65536x512))
    (iouA := res_main_v17 V0) (cA := res_main_v52 V0) (hA := (res_main_v60 V0))
    (ex := by exact rows_apply 0 (by omega) slices_S87381x128_S65536x128_0_0 (V0 (Proc.devRef .tc main_arg0)))
    (eh := by exact tile_apply shapeCasts_S1x512_S1x1x1x512 bcast_S1x1x1x512_S65536x1x1x512_0_1_2_3 shapeCasts_S65536x1x1x512_S65536x512 (V0 (Proc.devRef .tc main_arg9)))
    (ec := by exact tile_apply shapeCasts_S1x512_S1x1x1x512 bcast_S1x1x1x512_S65536x1x1x512_0_1_2_3 shapeCasts_S65536x1x1x512_S65536x512 (V0 (Proc.devRef .tc main_arg10)))
    (eI := by rfl) (eC := by rfl) (eH := by rfl)

end Cert.RefSide

end
-- ==== Proof.Ref.L1.lean ====
/-
  The reference's level 1 (16384 nodes, rows 65536 … 81919 of the inputs): a node receives its four children's rows of level 0, packed side by side.
  Its hidden and cell rows are the specification's cell at every node: the level's operations are the generic level's
  (Ref/Cell.lean) at n = 16384, by unfolding names only.
-/
import proofs.«148344_j70635032150607_1_alg».proof.Proof.Gen.ReferenceIdeal.Run
import proofs.«148344_j70635032150607_1_alg».proof.Proof.Ref.Cell

noncomputable section

namespace Cert.RefSide

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx Cert.TreeSpec Cert.Layout

theorem level1 (V0 : Valuation τ sig (Elt Ideal)) (Hp Cp : Fin 65536 → Fin 128 → EReal)
    (hH : res_main_v60 V0 = arr Hp) (hC : res_main_v52 V0 = arr Cp) :
    (res_main_v117 V0) = arr (cell (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (rows (embOf (V0 (Proc.devRef .tc main_arg0))) 65536 16384 (by omega)) (pack (n := 16384) rfl Hp) (pack (n := 16384) rfl Cp)).h
    ∧ res_main_v109 V0 = arr (cell (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (rows (embOf (V0 (Proc.devRef .tc main_arg0))) 65536 16384 (by omega)) (pack (n := 16384) rfl Hp) (pack (n := 16384) rfl Cp)).c :=
  level_eq (n := 16384)
    (D1 := dot_S16384x128_S128x384_S16384x384_1_0_0_1_n_n) (D2 := dot_S16384x512_S512x384_S16384x384_1_0_0_1_n_n)
    (D3 := dot_S16384x512_S512x512_S16384x512_1_0_0_1_n_n) (D4 := dot_S16384x128_S128x128_S16384x128_1_0_0_1_n_n)
    (t1 := transposes_S384x128_S128x384_1_0) (t3 := transposes_S384x512_S512x384_1_0)
    (t7 := transposes_S512x512_S512x512_1_0) (t5 := transposes_S128x128_S128x128_1_0)
    (bC := bcast_S16384x128_S16384x1x128_0_2) (bD := bcast_S16384x1x128_S16384x4x128_0_1_2)
    (s0 := slices_S16384x384_S16384x128_0_0) (s128 := slices_S16384x384_S16384x128_0_128) (s256 := slices_S16384x384_S16384x128_0_256)
    (hsplit := shapeCasts_S16384x512_S16384x4x128) (b02 := bcast_S_S16384x128) (b03 := bcast_S_S16384x4x128)
    (hT := reducesTo_S16384x4x128_S16384x128_d1) (hu := h_S_)
    (a1 := (V0 (Proc.devRef .tc main_arg1))) (a2 := (V0 (Proc.devRef .tc main_arg2))) (a3 := (V0 (Proc.devRef .tc main_arg3))) (a4 := (V0 (Proc.devRef .tc main_arg4)))
    (a5 := (V0 (Proc.devRef .tc main_arg5))) (a6 := (V0 (Proc.devRef .tc main_arg6))) (a7 := (V0 (Proc.devRef .tc main_arg7))) (a8 := (V0 (Proc.devRef .tc main_arg8)))
    (B1 := (broadcastInDim S16384x384 ![0, 1] bcast_S1x384_S16384x384_0_1 (broadcastInDim S1x384 ![1] bcast_S384_S1x384_1 (V0 (Proc.devRef .tc main_arg2)))))
    (B2 := (broadcastInDim S16384x384 ![0, 1] bcast_S1x384_S16384x384_0_1 (broadcastInDim S1x384 ![1] bcast_S384_S1x384_1 (V0 (Proc.devRef .tc main_arg4)))))
    (Buf := (broadcastInDim S16384x512 ![0, 1] bcast_S1x512_S16384x512_0_1 (broadcastInDim S1x512 ![1] bcast_S512_S1x512_1 (V0 (Proc.devRef .tc main_arg8)))))
    (Bwf := (broadcastInDim S16384x128 ![0, 1] bcast_S1x128_S16384x128_0_1 (broadcastInDim S1x128 ![1] bcast_S128_S1x128_1 (V0 (Proc.devRef .tc main_arg6)))))
    (hD1 := rfl) (hD2 := rfl) (hD3 := rfl) (hD4 := rfl) (hR := by decide)
    (hB1 := by intro r q; exact bias_apply _ _ _ r q) (hB2 := by intro r q; exact bias_apply _ _ _ r q) (hBuf := by intro r q; exact bias_apply _ _ _ r q) (hBwf := by intro r q; exact bias_apply _ _ _ r q)
    (X := (rows (embOf (V0 (Proc.devRef .tc main_arg0))) 65536 16384 (by omega))) (H := (pack (n := 16384) rfl Hp)) (C := (pack (n := 16384) rfl Cp))
    (x := res_main_v63 V0) (hin := res_main_v61 V0)
    (cin := (shapeCast S16384x512 (res_main_v52 V0) shapeCasts_S65536x128_S16384x512))
    (iouA := res_main_v74 V0) (cA := res_main_v109 V0) (hA := (res_main_v117 V0))
    (ex := by exact rows_apply 65536 (by omega) slices_S87381x128_S16384x128_65536_0 (V0 (Proc.devRef .tc main_arg0)))
    (eh := by unfold res_main_v61; rw [hH]; exact pack_apply rfl shapeCasts_S65536x128_S16384x512 Hp)
    (ec := by rw [hC]; exact pack_apply rfl shapeCasts_S65536x128_S16384x512 Cp)
    (eI := by rfl) (eC := by rfl) (eH := by rfl)

end Cert.RefSide

end
-- ==== Proof.Ref.L2.lean ====
/-
  The reference's level 2 (4096 nodes, rows 81920 … 86015 of the inputs): a node receives its four children's rows of level 1, packed side by side.
  Its hidden and cell rows are the specification's cell at every node: the level's operations are the generic level's
  (Ref/Cell.lean) at n = 4096, by unfolding names only.
-/
import proofs.«148344_j70635032150607_1_alg».proof.Proof.Gen.ReferenceIdeal.Run
import proofs.«148344_j70635032150607_1_alg».proof.Proof.Ref.Cell

noncomputable section

namespace Cert.RefSide

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx Cert.TreeSpec Cert.Layout

theorem level2 (V0 : Valuation τ sig (Elt Ideal)) (Hp Cp : Fin 16384 → Fin 128 → EReal)
    (hH : res_main_v117 V0 = arr Hp) (hC : res_main_v109 V0 = arr Cp) :
    (res_main_v174 V0) = arr (cell (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (rows (embOf (V0 (Proc.devRef .tc main_arg0))) 81920 4096 (by omega)) (pack (n := 4096) rfl Hp) (pack (n := 4096) rfl Cp)).h
    ∧ res_main_v166 V0 = arr (cell (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (rows (embOf (V0 (Proc.devRef .tc main_arg0))) 81920 4096 (by omega)) (pack (n := 4096) rfl Hp) (pack (n := 4096) rfl Cp)).c :=
  level_eq (n := 4096)
    (D1 := dot_S4096x128_S128x384_S4096x384_1_0_0_1_n_n) (D2 := dot_S4096x512_S512x384_S4096x384_1_0_0_1_n_n)
    (D3 := dot_S4096x512_S512x512_S4096x512_1_0_0_1_n_n) (D4 := dot_S4096x128_S128x128_S4096x128_1_0_0_1_n_n)
    (t1 := transposes_S384x128_S128x384_1_0) (t3 := transposes_S384x512_S512x384_1_0)
    (t7 := transposes_S512x512_S512x512_1_0) (t5 := transposes_S128x128_S128x128_1_0)
    (bC := bcast_S4096x128_S4096x1x128_0_2) (bD := bcast_S4096x1x128_S4096x4x128_0_1_2)
    (s0 := slices_S4096x384_S4096x128_0_0) (s128 := slices_S4096x384_S4096x128_0_128) (s256 := slices_S4096x384_S4096x128_0_256)
    (hsplit := shapeCasts_S4096x512_S4096x4x128) (b02 := bcast_S_S4096x128) (b03 := bcast_S_S4096x4x128)
    (hT := reducesTo_S4096x4x128_S4096x128_d1) (hu := h_S_)
    (a1 := (V0 (Proc.devRef .tc main_arg1))) (a2 := (V0 (Proc.devRef .tc main_arg2))) (a3 := (V0 (Proc.devRef .tc main_arg3))) (a4 := (V0 (Proc.devRef .tc main_arg4)))
    (a5 := (V0 (Proc.devRef .tc main_arg5))) (a6 := (V0 (Proc.devRef .tc main_arg6))) (a7 := (V0 (Proc.devRef .tc main_arg7))) (a8 := (V0 (Proc.devRef .tc main_arg8)))
    (B1 := (broadcastInDim S4096x384 ![0, 1] bcast_S1x384_S4096x384_0_1 (broadcastInDim S1x384 ![1] bcast_S384_S1x384_1 (V0 (Proc.devRef .tc main_arg2)))))
    (B2 := (broadcastInDim S4096x384 ![0, 1] bcast_S1x384_S4096x384_0_1 (broadcastInDim S1x384 ![1] bcast_S384_S1x384_1 (V0 (Proc.devRef .tc main_arg4)))))
    (Buf := (broadcastInDim S4096x512 ![0, 1] bcast_S1x512_S4096x512_0_1 (broadcastInDim S1x512 ![1] bcast_S512_S1x512_1 (V0 (Proc.devRef .tc main_arg8)))))
    (Bwf := (broadcastInDim S4096x128 ![0, 1] bcast_S1x128_S4096x128_0_1 (broadcastInDim S1x128 ![1] bcast_S128_S1x128_1 (V0 (Proc.devRef .tc main_arg6)))))
    (hD1 := rfl) (hD2 := rfl) (hD3 := rfl) (hD4 := rfl) (hR := by decide)
    (hB1 := by intro r q; exact bias_apply _ _ _ r q) (hB2 := by intro r q; exact bias_apply _ _ _ r q) (hBuf := by intro r q; exact bias_apply _ _ _ r q) (hBwf := by intro r q; exact bias_apply _ _ _ r q)
    (X := (rows (embOf (V0 (Proc.devRef .tc main_arg0))) 81920 4096 (by omega))) (H := (pack (n := 4096) rfl Hp)) (C := (pack (n := 4096) rfl Cp))
    (x := res_main_v120 V0) (hin := res_main_v118 V0)
    (cin := (shapeCast S4096x512 (res_main_v109 V0) shapeCasts_S16384x128_S4096x512))
    (iouA := res_main_v131 V0) (cA := res_main_v166 V0) (hA := (res_main_v174 V0))
    (ex := by exact rows_apply 81920 (by omega) slices_S87381x128_S4096x128_81920_0 (V0 (Proc.devRef .tc main_arg0)))
    (eh := by unfold res_main_v118; rw [hH]; exact pack_apply rfl shapeCasts_S16384x128_S4096x512 Hp)
    (ec := by rw [hC]; exact pack_apply rfl shapeCasts_S16384x128_S4096x512 Cp)
    (eI := by rfl) (eC := by rfl) (eH := by rfl)

end Cert.RefSide

end
-- ==== Proof.Ref.L3.lean ====
/-
  The reference's level 3 (1024 nodes, rows 86016 … 87039 of the inputs): a node receives its four children's rows of level 2, packed side by side.
  Its hidden and cell rows are the specification's cell at every node: the level's operations are the generic level's
  (Ref/Cell.lean) at n = 1024, by unfolding names only.
-/
import proofs.«148344_j70635032150607_1_alg».proof.Proof.Gen.ReferenceIdeal.Run
import proofs.«148344_j70635032150607_1_alg».proof.Proof.Ref.Cell

noncomputable section

namespace Cert.RefSide

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx Cert.TreeSpec Cert.Layout

theorem level3 (V0 : Valuation τ sig (Elt Ideal)) (Hp Cp : Fin 4096 → Fin 128 → EReal)
    (hH : res_main_v174 V0 = arr Hp) (hC : res_main_v166 V0 = arr Cp) :
    (res_main_v231 V0) = arr (cell (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (rows (embOf (V0 (Proc.devRef .tc main_arg0))) 86016 1024 (by omega)) (pack (n := 1024) rfl Hp) (pack (n := 1024) rfl Cp)).h
    ∧ res_main_v223 V0 = arr (cell (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (rows (embOf (V0 (Proc.devRef .tc main_arg0))) 86016 1024 (by omega)) (pack (n := 1024) rfl Hp) (pack (n := 1024) rfl Cp)).c :=
  level_eq (n := 1024)
    (D1 := dot_S1024x128_S128x384_S1024x384_1_0_0_1_n_n) (D2 := dot_S1024x512_S512x384_S1024x384_1_0_0_1_n_n)
    (D3 := dot_S1024x512_S512x512_S1024x512_1_0_0_1_n_n) (D4 := dot_S1024x128_S128x128_S1024x128_1_0_0_1_n_n)
    (t1 := transposes_S384x128_S128x384_1_0) (t3 := transposes_S384x512_S512x384_1_0)
    (t7 := transposes_S512x512_S512x512_1_0) (t5 := transposes_S128x128_S128x128_1_0)
    (bC := bcast_S1024x128_S1024x1x128_0_2) (bD := bcast_S1024x1x128_S1024x4x128_0_1_2)
    (s0 := slices_S1024x384_S1024x128_0_0) (s128 := slices_S1024x384_S1024x128_0_128) (s256 := slices_S1024x384_S1024x128_0_256)
    (hsplit := shapeCasts_S1024x512_S1024x4x128) (b02 := bcast_S_S1024x128) (b03 := bcast_S_S1024x4x128)
    (hT := reducesTo_S1024x4x128_S1024x128_d1) (hu := h_S_)
    (a1 := (V0 (Proc.devRef .tc main_arg1))) (a2 := (V0 (Proc.devRef .tc main_arg2))) (a3 := (V0 (Proc.devRef .tc main_arg3))) (a4 := (V0 (Proc.devRef .tc main_arg4)))
    (a5 := (V0 (Proc.devRef .tc main_arg5))) (a6 := (V0 (Proc.devRef .tc main_arg6))) (a7 := (V0 (Proc.devRef .tc main_arg7))) (a8 := (V0 (Proc.devRef .tc main_arg8)))
    (B1 := (broadcastInDim S1024x384 ![0, 1] bcast_S1x384_S1024x384_0_1 (broadcastInDim S1x384 ![1] bcast_S384_S1x384_1 (V0 (Proc.devRef .tc main_arg2)))))
    (B2 := (broadcastInDim S1024x384 ![0, 1] bcast_S1x384_S1024x384_0_1 (broadcastInDim S1x384 ![1] bcast_S384_S1x384_1 (V0 (Proc.devRef .tc main_arg4)))))
    (Buf := (broadcastInDim S1024x512 ![0, 1] bcast_S1x512_S1024x512_0_1 (broadcastInDim S1x512 ![1] bcast_S512_S1x512_1 (V0 (Proc.devRef .tc main_arg8)))))
    (Bwf := (broadcastInDim S1024x128 ![0, 1] bcast_S1x128_S1024x128_0_1 (broadcastInDim S1x128 ![1] bcast_S128_S1x128_1 (V0 (Proc.devRef .tc main_arg6)))))
    (hD1 := rfl) (hD2 := rfl) (hD3 := rfl) (hD4 := rfl) (hR := by decide)
    (hB1 := by intro r q; exact bias_apply _ _ _ r q) (hB2 := by intro r q; exact bias_apply _ _ _ r q) (hBuf := by intro r q; exact bias_apply _ _ _ r q) (hBwf := by intro r q; exact bias_apply _ _ _ r q)
    (X := (rows (embOf (V0 (Proc.devRef .tc main_arg0))) 86016 1024 (by omega))) (H := (pack (n := 1024) rfl Hp)) (C := (pack (n := 1024) rfl Cp))
    (x := res_main_v177 V0) (hin := res_main_v175 V0)
    (cin := (shapeCast S1024x512 (res_main_v166 V0) shapeCasts_S4096x128_S1024x512))
    (iouA := res_main_v188 V0) (cA := res_main_v223 V0) (hA := (res_main_v231 V0))
    (ex := by exact rows_apply 86016 (by omega) slices_S87381x128_S1024x128_86016_0 (V0 (Proc.devRef .tc main_arg0)))
    (eh := by unfold res_main_v175; rw [hH]; exact pack_apply rfl shapeCasts_S4096x128_S1024x512 Hp)
    (ec := by rw [hC]; exact pack_apply rfl shapeCasts_S4096x128_S1024x512 Cp)
    (eI := by rfl) (eC := by rfl) (eH := by rfl)

end Cert.RefSide

end
-- ==== Proof.Ref.L4.lean ====
/-
  The reference's level 4 (256 nodes, rows 87040 … 87295 of the inputs): a node receives its four children's rows of level 3, packed side by side.
  Its hidden and cell rows are the specification's cell at every node: the level's operations are the generic level's
  (Ref/Cell.lean) at n = 256, by unfolding names only.
-/
import proofs.«148344_j70635032150607_1_alg».proof.Proof.Gen.ReferenceIdeal.Run
import proofs.«148344_j70635032150607_1_alg».proof.Proof.Ref.Cell

noncomputable section

namespace Cert.RefSide

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx Cert.TreeSpec Cert.Layout

theorem level4 (V0 : Valuation τ sig (Elt Ideal)) (Hp Cp : Fin 1024 → Fin 128 → EReal)
    (hH : res_main_v231 V0 = arr Hp) (hC : res_main_v223 V0 = arr Cp) :
    (res_main_v288 V0) = arr (cell (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (rows (embOf (V0 (Proc.devRef .tc main_arg0))) 87040 256 (by omega)) (pack (n := 256) rfl Hp) (pack (n := 256) rfl Cp)).h
    ∧ res_main_v280 V0 = arr (cell (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (rows (embOf (V0 (Proc.devRef .tc main_arg0))) 87040 256 (by omega)) (pack (n := 256) rfl Hp) (pack (n := 256) rfl Cp)).c :=
  level_eq (n := 256)
    (D1 := dot_S256x128_S128x384_S256x384_1_0_0_1_n_n) (D2 := dot_S256x512_S512x384_S256x384_1_0_0_1_n_n)
    (D3 := dot_S256x512_S512x512_S256x512_1_0_0_1_n_n) (D4 := dot_S256x128_S128x128_S256x128_1_0_0_1_n_n)
    (t1 := transposes_S384x128_S128x384_1_0) (t3 := transposes_S384x512_S512x384_1_0)
    (t7 := transposes_S512x512_S512x512_1_0) (t5 := transposes_S128x128_S128x128_1_0)
    (bC := bcast_S256x128_S256x1x128_0_2) (bD := bcast_S256x1x128_S256x4x128_0_1_2)
    (s0 := slices_S256x384_S256x128_0_0) (s128 := slices_S256x384_S256x128_0_128) (s256 := slices_S256x384_S256x128_0_256)
    (hsplit := shapeCasts_S256x512_S256x4x128) (b02 := bcast_S_S256x128) (b03 := bcast_S_S256x4x128)
    (hT := reducesTo_S256x4x128_S256x128_d1) (hu := h_S_)
    (a1 := (V0 (Proc.devRef .tc main_arg1))) (a2 := (V0 (Proc.devRef .tc main_arg2))) (a3 := (V0 (Proc.devRef .tc main_arg3))) (a4 := (V0 (Proc.devRef .tc main_arg4)))
    (a5 := (V0 (Proc.devRef .tc main_arg5))) (a6 := (V0 (Proc.devRef .tc main_arg6))) (a7 := (V0 (Proc.devRef .tc main_arg7))) (a8 := (V0 (Proc.devRef .tc main_arg8)))
    (B1 := (broadcastInDim S256x384 ![0, 1] bcast_S1x384_S256x384_0_1 (broadcastInDim S1x384 ![1] bcast_S384_S1x384_1 (V0 (Proc.devRef .tc main_arg2)))))
    (B2 := (broadcastInDim S256x384 ![0, 1] bcast_S1x384_S256x384_0_1 (broadcastInDim S1x384 ![1] bcast_S384_S1x384_1 (V0 (Proc.devRef .tc main_arg4)))))
    (Buf := (broadcastInDim S256x512 ![0, 1] bcast_S1x512_S256x512_0_1 (broadcastInDim S1x512 ![1] bcast_S512_S1x512_1 (V0 (Proc.devRef .tc main_arg8)))))
    (Bwf := (broadcastInDim S256x128 ![0, 1] bcast_S1x128_S256x128_0_1 (broadcastInDim S1x128 ![1] bcast_S128_S1x128_1 (V0 (Proc.devRef .tc main_arg6)))))
    (hD1 := rfl) (hD2 := rfl) (hD3 := rfl) (hD4 := rfl) (hR := by decide)
    (hB1 := by intro r q; exact bias_apply _ _ _ r q) (hB2 := by intro r q; exact bias_apply _ _ _ r q) (hBuf := by intro r q; exact bias_apply _ _ _ r q) (hBwf := by intro r q; exact bias_apply _ _ _ r q)
    (X := (rows (embOf (V0 (Proc.devRef .tc main_arg0))) 87040 256 (by omega))) (H := (pack (n := 256) rfl Hp)) (C := (pack (n := 256) rfl Cp))
    (x := res_main_v234 V0) (hin := res_main_v232 V0)
    (cin := (shapeCast S256x512 (res_main_v223 V0) shapeCasts_S1024x128_S256x512))
    (iouA := res_main_v245 V0) (cA := res_main_v280 V0) (hA := (res_main_v288 V0))
    (ex := by exact rows_apply 87040 (by omega) slices_S87381x128_S256x128_87040_0 (V0 (Proc.devRef .tc main_arg0)))
    (eh := by unfold res_main_v232; rw [hH]; exact pack_apply rfl shapeCasts_S1024x128_S256x512 Hp)
    (ec := by rw [hC]; exact pack_apply rfl shapeCasts_S1024x128_S256x512 Cp)
    (eI := by rfl) (eC := by rfl) (eH := by rfl)

end Cert.RefSide

end
-- ==== Proof.Ref.L5.lean ====
/-
  The reference's level 5 (64 nodes, rows 87296 … 87359 of the inputs): a node receives its four children's rows of level 4, packed side by side.
  Its hidden and cell rows are the specification's cell at every node: the level's operations are the generic level's
  (Ref/Cell.lean) at n = 64, by unfolding names only.
-/
import proofs.«148344_j70635032150607_1_alg».proof.Proof.Gen.ReferenceIdeal.Run
import proofs.«148344_j70635032150607_1_alg».proof.Proof.Ref.Cell

noncomputable section

namespace Cert.RefSide

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx Cert.TreeSpec Cert.Layout

theorem level5 (V0 : Valuation τ sig (Elt Ideal)) (Hp Cp : Fin 256 → Fin 128 → EReal)
    (hH : res_main_v288 V0 = arr Hp) (hC : res_main_v280 V0 = arr Cp) :
    (res_main_v345 V0) = arr (cell (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (rows (embOf (V0 (Proc.devRef .tc main_arg0))) 87296 64 (by omega)) (pack (n := 64) rfl Hp) (pack (n := 64) rfl Cp)).h
    ∧ res_main_v337 V0 = arr (cell (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (rows (embOf (V0 (Proc.devRef .tc main_arg0))) 87296 64 (by omega)) (pack (n := 64) rfl Hp) (pack (n := 64) rfl Cp)).c :=
  level_eq (n := 64)
    (D1 := dot_S64x128_S128x384_S64x384_1_0_0_1_n_n) (D2 := dot_S64x512_S512x384_S64x384_1_0_0_1_n_n)
    (D3 := dot_S64x512_S512x512_S64x512_1_0_0_1_n_n) (D4 := dot_S64x128_S128x128_S64x128_1_0_0_1_n_n)
    (t1 := transposes_S384x128_S128x384_1_0) (t3 := transposes_S384x512_S512x384_1_0)
    (t7 := transposes_S512x512_S512x512_1_0) (t5 := transposes_S128x128_S128x128_1_0)
    (bC := bcast_S64x128_S64x1x128_0_2) (bD := bcast_S64x1x128_S64x4x128_0_1_2)
    (s0 := slices_S64x384_S64x128_0_0) (s128 := slices_S64x384_S64x128_0_128) (s256 := slices_S64x384_S64x128_0_256)
    (hsplit := shapeCasts_S64x512_S64x4x128) (b02 := bcast_S_S64x128) (b03 := bcast_S_S64x4x128)
    (hT := reducesTo_S64x4x128_S64x128_d1) (hu := h_S_)
    (a1 := (V0 (Proc.devRef .tc main_arg1))) (a2 := (V0 (Proc.devRef .tc main_arg2))) (a3 := (V0 (Proc.devRef .tc main_arg3))) (a4 := (V0 (Proc.devRef .tc main_arg4)))
    (a5 := (V0 (Proc.devRef .tc main_arg5))) (a6 := (V0 (Proc.devRef .tc main_arg6))) (a7 := (V0 (Proc.devRef .tc main_arg7))) (a8 := (V0 (Proc.devRef .tc main_arg8)))
    (B1 := (broadcastInDim S64x384 ![0, 1] bcast_S1x384_S64x384_0_1 (broadcastInDim S1x384 ![1] bcast_S384_S1x384_1 (V0 (Proc.devRef .tc main_arg2)))))
    (B2 := (broadcastInDim S64x384 ![0, 1] bcast_S1x384_S64x384_0_1 (broadcastInDim S1x384 ![1] bcast_S384_S1x384_1 (V0 (Proc.devRef .tc main_arg4)))))
    (Buf := (broadcastInDim S64x512 ![0, 1] bcast_S1x512_S64x512_0_1 (broadcastInDim S1x512 ![1] bcast_S512_S1x512_1 (V0 (Proc.devRef .tc main_arg8)))))
    (Bwf := (broadcastInDim S64x128 ![0, 1] bcast_S1x128_S64x128_0_1 (broadcastInDim S1x128 ![1] bcast_S128_S1x128_1 (V0 (Proc.devRef .tc main_arg6)))))
    (hD1 := rfl) (hD2 := rfl) (hD3 := rfl) (hD4 := rfl) (hR := by decide)
    (hB1 := by intro r q; exact bias_apply _ _ _ r q) (hB2 := by intro r q; exact bias_apply _ _ _ r q) (hBuf := by intro r q; exact bias_apply _ _ _ r q) (hBwf := by intro r q; exact bias_apply _ _ _ r q)
    (X := (rows (embOf (V0 (Proc.devRef .tc main_arg0))) 87296 64 (by omega))) (H := (pack (n := 64) rfl Hp)) (C := (pack (n := 64) rfl Cp))
    (x := res_main_v291 V0) (hin := res_main_v289 V0)
    (cin := (shapeCast S64x512 (res_main_v280 V0) shapeCasts_S256x128_S64x512))
    (iouA := res_main_v302 V0) (cA := res_main_v337 V0) (hA := (res_main_v345 V0))
    (ex := by exact rows_apply 87296 (by omega) slices_S87381x128_S64x128_87296_0 (V0 (Proc.devRef .tc main_arg0)))
    (eh := by unfold res_main_v289; rw [hH]; exact pack_apply rfl shapeCasts_S256x128_S64x512 Hp)
    (ec := by rw [hC]; exact pack_apply rfl shapeCasts_S256x128_S64x512 Cp)
    (eI := by rfl) (eC := by rfl) (eH := by rfl)

end Cert.RefSide

end
-- ==== Proof.Ref.L6.lean ====
/-
  The reference's level 6 (16 nodes, rows 87360 … 87375 of the inputs): a node receives its four children's rows of level 5, packed side by side.
  Its hidden and cell rows are the specification's cell at every node: the level's operations are the generic level's
  (Ref/Cell.lean) at n = 16, by unfolding names only.
-/
import proofs.«148344_j70635032150607_1_alg».proof.Proof.Gen.ReferenceIdeal.Run
import proofs.«148344_j70635032150607_1_alg».proof.Proof.Ref.Cell

noncomputable section

namespace Cert.RefSide

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx Cert.TreeSpec Cert.Layout

theorem level6 (V0 : Valuation τ sig (Elt Ideal)) (Hp Cp : Fin 64 → Fin 128 → EReal)
    (hH : res_main_v345 V0 = arr Hp) (hC : res_main_v337 V0 = arr Cp) :
    (res_main_v402 V0) = arr (cell (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (rows (embOf (V0 (Proc.devRef .tc main_arg0))) 87360 16 (by omega)) (pack (n := 16) rfl Hp) (pack (n := 16) rfl Cp)).h
    ∧ res_main_v394 V0 = arr (cell (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (rows (embOf (V0 (Proc.devRef .tc main_arg0))) 87360 16 (by omega)) (pack (n := 16) rfl Hp) (pack (n := 16) rfl Cp)).c :=
  level_eq (n := 16)
    (D1 := dot_S16x128_S128x384_S16x384_1_0_0_1_n_n) (D2 := dot_S16x512_S512x384_S16x384_1_0_0_1_n_n)
    (D3 := dot_S16x512_S512x512_S16x512_1_0_0_1_n_n) (D4 := dot_S16x128_S128x128_S16x128_1_0_0_1_n_n)
    (t1 := transposes_S384x128_S128x384_1_0) (t3 := transposes_S384x512_S512x384_1_0)
    (t7 := transposes_S512x512_S512x512_1_0) (t5 := transposes_S128x128_S128x128_1_0)
    (bC := bcast_S16x128_S16x1x128_0_2) (bD := bcast_S16x1x128_S16x4x128_0_1_2)
    (s0 := slices_S16x384_S16x128_0_0) (s128 := slices_S16x384_S16x128_0_128) (s256 := slices_S16x384_S16x128_0_256)
    (hsplit := shapeCasts_S16x512_S16x4x128) (b02 := bcast_S_S16x128) (b03 := bcast_S_S16x4x128)
    (hT := reducesTo_S16x4x128_S16x128_d1) (hu := h_S_)
    (a1 := (V0 (Proc.devRef .tc main_arg1))) (a2 := (V0 (Proc.devRef .tc main_arg2))) (a3 := (V0 (Proc.devRef .tc main_arg3))) (a4 := (V0 (Proc.devRef .tc main_arg4)))
    (a5 := (V0 (Proc.devRef .tc main_arg5))) (a6 := (V0 (Proc.devRef .tc main_arg6))) (a7 := (V0 (Proc.devRef .tc main_arg7))) (a8 := (V0 (Proc.devRef .tc main_arg8)))
    (B1 := (broadcastInDim S16x384 ![0, 1] bcast_S1x384_S16x384_0_1 (broadcastInDim S1x384 ![1] bcast_S384_S1x384_1 (V0 (Proc.devRef .tc main_arg2)))))
    (B2 := (broadcastInDim S16x384 ![0, 1] bcast_S1x384_S16x384_0_1 (broadcastInDim S1x384 ![1] bcast_S384_S1x384_1 (V0 (Proc.devRef .tc main_arg4)))))
    (Buf := (broadcastInDim S16x512 ![0, 1] bcast_S1x512_S16x512_0_1 (broadcastInDim S1x512 ![1] bcast_S512_S1x512_1 (V0 (Proc.devRef .tc main_arg8)))))
    (Bwf := (broadcastInDim S16x128 ![0, 1] bcast_S1x128_S16x128_0_1 (broadcastInDim S1x128 ![1] bcast_S128_S1x128_1 (V0 (Proc.devRef .tc main_arg6)))))
    (hD1 := rfl) (hD2 := rfl) (hD3 := rfl) (hD4 := rfl) (hR := by decide)
    (hB1 := by intro r q; exact bias_apply _ _ _ r q) (hB2 := by intro r q; exact bias_apply _ _ _ r q) (hBuf := by intro r q; exact bias_apply _ _ _ r q) (hBwf := by intro r q; exact bias_apply _ _ _ r q)
    (X := (rows (embOf (V0 (Proc.devRef .tc main_arg0))) 87360 16 (by omega))) (H := (pack (n := 16) rfl Hp)) (C := (pack (n := 16) rfl Cp))
    (x := res_main_v348 V0) (hin := res_main_v346 V0)
    (cin := (shapeCast S16x512 (res_main_v337 V0) shapeCasts_S64x128_S16x512))
    (iouA := res_main_v359 V0) (cA := res_main_v394 V0) (hA := (res_main_v402 V0))
    (ex := by exact rows_apply 87360 (by omega) slices_S87381x128_S16x128_87360_0 (V0 (Proc.devRef .tc main_arg0)))
    (eh := by unfold res_main_v346; rw [hH]; exact pack_apply rfl shapeCasts_S64x128_S16x512 Hp)
    (ec := by rw [hC]; exact pack_apply rfl shapeCasts_S64x128_S16x512 Cp)
    (eI := by rfl) (eC := by rfl) (eH := by rfl)

end Cert.RefSide

end
-- ==== Proof.Ref.L7.lean ====
/-
  The reference's level 7 (4 nodes, rows 87376 … 87379 of the inputs): a node receives its four children's rows of level 6, packed side by side.
  Its hidden and cell rows are the specification's cell at every node: the level's operations are the generic level's
  (Ref/Cell.lean) at n = 4, by unfolding names only.
-/
import proofs.«148344_j70635032150607_1_alg».proof.Proof.Gen.ReferenceIdeal.Run
import proofs.«148344_j70635032150607_1_alg».proof.Proof.Ref.Cell

noncomputable section

namespace Cert.RefSide

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx Cert.TreeSpec Cert.Layout

theorem level7 (V0 : Valuation τ sig (Elt Ideal)) (Hp Cp : Fin 16 → Fin 128 → EReal)
    (hH : res_main_v402 V0 = arr Hp) (hC : res_main_v394 V0 = arr Cp) :
    (res_main_v459 V0) = arr (cell (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (rows (embOf (V0 (Proc.devRef .tc main_arg0))) 87376 4 (by omega)) (pack (n := 4) rfl Hp) (pack (n := 4) rfl Cp)).h
    ∧ res_main_v451 V0 = arr (cell (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (rows (embOf (V0 (Proc.devRef .tc main_arg0))) 87376 4 (by omega)) (pack (n := 4) rfl Hp) (pack (n := 4) rfl Cp)).c :=
  level_eq (n := 4)
    (D1 := dot_S4x128_S128x384_S4x384_1_0_0_1_n_n) (D2 := dot_S4x512_S512x384_S4x384_1_0_0_1_n_n)
    (D3 := dot_S4x512_S512x512_S4x512_1_0_0_1_n_n) (D4 := dot_S4x128_S128x128_S4x128_1_0_0_1_n_n)
    (t1 := transposes_S384x128_S128x384_1_0) (t3 := transposes_S384x512_S512x384_1_0)
    (t7 := transposes_S512x512_S512x512_1_0) (t5 := transposes_S128x128_S128x128_1_0)
    (bC := bcast_S4x128_S4x1x128_0_2) (bD := bcast_S4x1x128_S4x4x128_0_1_2)
    (s0 := slices_S4x384_S4x128_0_0) (s128 := slices_S4x384_S4x128_0_128) (s256 := slices_S4x384_S4x128_0_256)
    (hsplit := shapeCasts_S4x512_S4x4x128) (b02 := bcast_S_S4x128) (b03 := bcast_S_S4x4x128)
    (hT := reducesTo_S4x4x128_S4x128_d1) (hu := h_S_)
    (a1 := (V0 (Proc.devRef .tc main_arg1))) (a2 := (V0 (Proc.devRef .tc main_arg2))) (a3 := (V0 (Proc.devRef .tc main_arg3))) (a4 := (V0 (Proc.devRef .tc main_arg4)))
    (a5 := (V0 (Proc.devRef .tc main_arg5))) (a6 := (V0 (Proc.devRef .tc main_arg6))) (a7 := (V0 (Proc.devRef .tc main_arg7))) (a8 := (V0 (Proc.devRef .tc main_arg8)))
    (B1 := (broadcastInDim S4x384 ![0, 1] bcast_S1x384_S4x384_0_1 (broadcastInDim S1x384 ![1] bcast_S384_S1x384_1 (V0 (Proc.devRef .tc main_arg2)))))
    (B2 := (broadcastInDim S4x384 ![0, 1] bcast_S1x384_S4x384_0_1 (broadcastInDim S1x384 ![1] bcast_S384_S1x384_1 (V0 (Proc.devRef .tc main_arg4)))))
    (Buf := (broadcastInDim S4x512 ![0, 1] bcast_S1x512_S4x512_0_1 (broadcastInDim S1x512 ![1] bcast_S512_S1x512_1 (V0 (Proc.devRef .tc main_arg8)))))
    (Bwf := (broadcastInDim S4x128 ![0, 1] bcast_S1x128_S4x128_0_1 (broadcastInDim S1x128 ![1] bcast_S128_S1x128_1 (V0 (Proc.devRef .tc main_arg6)))))
    (hD1 := rfl) (hD2 := rfl) (hD3 := rfl) (hD4 := rfl) (hR := by decide)
    (hB1 := by intro r q; exact bias_apply _ _ _ r q) (hB2 := by intro r q; exact bias_apply _ _ _ r q) (hBuf := by intro r q; exact bias_apply _ _ _ r q) (hBwf := by intro r q; exact bias_apply _ _ _ r q)
    (X := (rows (embOf (V0 (Proc.devRef .tc main_arg0))) 87376 4 (by omega))) (H := (pack (n := 4) rfl Hp)) (C := (pack (n := 4) rfl Cp))
    (x := res_main_v405 V0) (hin := res_main_v403 V0)
    (cin := (shapeCast S4x512 (res_main_v394 V0) shapeCasts_S16x128_S4x512))
    (iouA := res_main_v416 V0) (cA := res_main_v451 V0) (hA := (res_main_v459 V0))
    (ex := by exact rows_apply 87376 (by omega) slices_S87381x128_S4x128_87376_0 (V0 (Proc.devRef .tc main_arg0)))
    (eh := by unfold res_main_v403; rw [hH]; exact pack_apply rfl shapeCasts_S16x128_S4x512 Hp)
    (ec := by rw [hC]; exact pack_apply rfl shapeCasts_S16x128_S4x512 Cp)
    (eI := by rfl) (eC := by rfl) (eH := by rfl)

end Cert.RefSide

end
-- ==== Proof.Ref.L8.lean ====
/-
  The reference's level 8 (1 node, rows 87380 … 87380 of the inputs): a node receives its four children's rows of level 7, packed side by side.
  Its hidden and cell rows are the specification's cell at every node: the level's operations are the generic level's
  (Ref/Cell.lean) at n = 1, by unfolding names only.
-/
import proofs.«148344_j70635032150607_1_alg».proof.Proof.Gen.ReferenceIdeal.Run
import proofs.«148344_j70635032150607_1_alg».proof.Proof.Ref.Cell

noncomputable section

namespace Cert.RefSide

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx Cert.TreeSpec Cert.Layout

theorem level8 (V0 : Valuation τ sig (Elt Ideal)) (Hp Cp : Fin 4 → Fin 128 → EReal)
    (hH : res_main_v459 V0 = arr Hp) (hC : res_main_v451 V0 = arr Cp) :
    (rH slices_S1x384_S1x128_0_128 bcast_S_S1x128 (res_main_v471 V0) (res_main_v504 V0)) = arr (cell (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (rows (embOf (V0 (Proc.devRef .tc main_arg0))) 87380 1 (by omega)) (pack (n := 1) rfl Hp) (pack (n := 1) rfl Cp)).h
    ∧ res_main_v504 V0 = arr (cell (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (rows (embOf (V0 (Proc.devRef .tc main_arg0))) 87380 1 (by omega)) (pack (n := 1) rfl Hp) (pack (n := 1) rfl Cp)).c :=
  level_eq (n := 1)
    (D1 := dot_S1x128_S128x384_S1x384_1_0_0_1_n_n) (D2 := dot_S1x512_S512x384_S1x384_1_0_0_1_n_n)
    (D3 := dot_S1x512_S512x512_S1x512_1_0_0_1_n_n) (D4 := dot_S1x128_S128x128_S1x128_1_0_0_1_n_n)
    (t1 := transposes_S384x128_S128x384_1_0) (t3 := transposes_S384x512_S512x384_1_0)
    (t7 := transposes_S512x512_S512x512_1_0) (t5 := transposes_S128x128_S128x128_1_0)
    (bC := bcast_S1x128_S1x1x128_0_2) (bD := bcast_S1x1x128_S1x4x128_0_1_2)
    (s0 := slices_S1x384_S1x128_0_0) (s128 := slices_S1x384_S1x128_0_128) (s256 := slices_S1x384_S1x128_0_256)
    (hsplit := shapeCasts_S1x512_S1x4x128) (b02 := bcast_S_S1x128) (b03 := bcast_S_S1x4x128)
    (hT := reducesTo_S1x4x128_S1x128_d1) (hu := h_S_)
    (a1 := (V0 (Proc.devRef .tc main_arg1))) (a2 := (V0 (Proc.devRef .tc main_arg2))) (a3 := (V0 (Proc.devRef .tc main_arg3))) (a4 := (V0 (Proc.devRef .tc main_arg4)))
    (a5 := (V0 (Proc.devRef .tc main_arg5))) (a6 := (V0 (Proc.devRef .tc main_arg6))) (a7 := (V0 (Proc.devRef .tc main_arg7))) (a8 := (V0 (Proc.devRef .tc main_arg8)))
    (B1 := (broadcastInDim S1x384 ![1] bcast_S384_S1x384_1 (V0 (Proc.devRef .tc main_arg2))))
    (B2 := (broadcastInDim S1x384 ![1] bcast_S384_S1x384_1 (V0 (Proc.devRef .tc main_arg4))))
    (Buf := (broadcastInDim S1x512 ![1] bcast_S512_S1x512_1 (V0 (Proc.devRef .tc main_arg8))))
    (Bwf := (broadcastInDim S1x128 ![1] bcast_S128_S1x128_1 (V0 (Proc.devRef .tc main_arg6))))
    (hD1 := rfl) (hD2 := rfl) (hD3 := rfl) (hD4 := rfl) (hR := by decide)
    (hB1 := by intro r q; exact bias1_apply _ _ r q) (hB2 := by intro r q; exact bias1_apply _ _ r q) (hBuf := by intro r q; exact bias1_apply _ _ r q) (hBwf := by intro r q; exact bias1_apply _ _ r q)
    (X := (rows (embOf (V0 (Proc.devRef .tc main_arg0))) 87380 1 (by omega))) (H := (pack (n := 1) rfl Hp)) (C := (pack (n := 1) rfl Cp))
    (x := res_main_v462 V0) (hin := res_main_v460 V0)
    (cin := (shapeCast S1x512 (res_main_v451 V0) shapeCasts_S4x128_S1x512))
    (iouA := res_main_v471 V0) (cA := res_main_v504 V0) (hA := (rH slices_S1x384_S1x128_0_128 bcast_S_S1x128 (res_main_v471 V0) (res_main_v504 V0)))
    (ex := by exact rows_apply 87380 (by omega) slices_S87381x128_S1x128_87380_0 (V0 (Proc.devRef .tc main_arg0)))
    (eh := by unfold res_main_v460; rw [hH]; exact pack_apply rfl shapeCasts_S4x128_S1x512 Hp)
    (ec := by rw [hC]; exact pack_apply rfl shapeCasts_S4x128_S1x512 Cp)
    (eI := by rfl) (eC := by rfl) (eH := by rfl)

end Cert.RefSide

end
-- ==== Proof.RefRun.lean ====
/-
  The reference program's run, read back against the specification (Proof/Spec.lean).

  The generated run states the two results as the stack, with a leading axis of extent 1 in front, of the nine levels'
  hidden arrays and of the nine levels' cell arrays.  Level by level (Ref/L0.lean … Ref/L8.lean, each an instance of the
  generic level of Ref/Cell.lean) these arrays are the specification's L0 … L8: the leaves from the tiled initial rows,
  every other level from the level below, packed four rows to one.  The stack is the same function of its nine pieces
  on both sides, so the results are the specification's outH and outC of the eleven argument arrays.
-/
import proofs.«148344_j70635032150607_1_alg».proof.Proof.Gen.ReferenceIdeal.Run
import proofs.«148344_j70635032150607_1_alg».proof.Proof.Spec
import proofs.«148344_j70635032150607_1_alg».proof.Proof.Ref.Cell
import proofs.«148344_j70635032150607_1_alg».proof.Proof.Ref.L0
import proofs.«148344_j70635032150607_1_alg».proof.Proof.Ref.L1
import proofs.«148344_j70635032150607_1_alg».proof.Proof.Ref.L2
import proofs.«148344_j70635032150607_1_alg».proof.Proof.Ref.L3
import proofs.«148344_j70635032150607_1_alg».proof.Proof.Ref.L4
import proofs.«148344_j70635032150607_1_alg».proof.Proof.Ref.L5
import proofs.«148344_j70635032150607_1_alg».proof.Proof.Ref.L6
import proofs.«148344_j70635032150607_1_alg».proof.Proof.Ref.L7
import proofs.«148344_j70635032150607_1_alg».proof.Proof.Ref.L8

noncomputable section

namespace Cert.RefSide

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx Cert.TreeSpec Cert.Layout

section Levels
variable (V0 : Valuation τ sig (Elt Ideal))

/-- The leaves' arrays are the specification's L0. -/
theorem lv0 : res_main_v60 V0 = arr (L0 (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (embOf (V0 (Proc.devRef .tc main_arg0))) (rowOf (V0 (Proc.devRef .tc main_arg9))) (rowOf (V0 (Proc.devRef .tc main_arg10)))).h ∧ res_main_v52 V0 = arr (L0 (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (embOf (V0 (Proc.devRef .tc main_arg0))) (rowOf (V0 (Proc.devRef .tc main_arg9))) (rowOf (V0 (Proc.devRef .tc main_arg10)))).c := level0 V0

/-- Level 1's arrays are the specification's L1. -/
theorem lv1 : res_main_v117 V0 = arr (L1 (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (embOf (V0 (Proc.devRef .tc main_arg0))) (rowOf (V0 (Proc.devRef .tc main_arg9))) (rowOf (V0 (Proc.devRef .tc main_arg10)))).h ∧ res_main_v109 V0 = arr (L1 (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (embOf (V0 (Proc.devRef .tc main_arg0))) (rowOf (V0 (Proc.devRef .tc main_arg9))) (rowOf (V0 (Proc.devRef .tc main_arg10)))).c :=
  level1 V0 _ _ (lv0 V0).1 (lv0 V0).2

/-- Level 2's arrays are the specification's L2. -/
theorem lv2 : res_main_v174 V0 = arr (L2 (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (embOf (V0 (Proc.devRef .tc main_arg0))) (rowOf (V0 (Proc.devRef .tc main_arg9))) (rowOf (V0 (Proc.devRef .tc main_arg10)))).h ∧ res_main_v166 V0 = arr (L2 (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (embOf (V0 (Proc.devRef .tc main_arg0))) (rowOf (V0 (Proc.devRef .tc main_arg9))) (rowOf (V0 (Proc.devRef .tc main_arg10)))).c :=
  level2 V0 _ _ (lv1 V0).1 (lv1 V0).2

/-- Level 3's arrays are the specification's L3. -/
theorem lv3 : res_main_v231 V0 = arr (L3 (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (embOf (V0 (Proc.devRef .tc main_arg0))) (rowOf (V0 (Proc.devRef .tc main_arg9))) (rowOf (V0 (Proc.devRef .tc main_arg10)))).h ∧ res_main_v223 V0 = arr (L3 (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (embOf (V0 (Proc.devRef .tc main_arg0))) (rowOf (V0 (Proc.devRef .tc main_arg9))) (rowOf (V0 (Proc.devRef .tc main_arg10)))).c :=
  level3 V0 _ _ (lv2 V0).1 (lv2 V0).2

/-- Level 4's arrays are the specification's L4. -/
theorem lv4 : res_main_v288 V0 = arr (L4 (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (embOf (V0 (Proc.devRef .tc main_arg0))) (rowOf (V0 (Proc.devRef .tc main_arg9))) (rowOf (V0 (Proc.devRef .tc main_arg10)))).h ∧ res_main_v280 V0 = arr (L4 (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (embOf (V0 (Proc.devRef .tc main_arg0))) (rowOf (V0 (Proc.devRef .tc main_arg9))) (rowOf (V0 (Proc.devRef .tc main_arg10)))).c :=
  level4 V0 _ _ (lv3 V0).1 (lv3 V0).2

/-- Level 5's arrays are the specification's L5. -/
theorem lv5 : res_main_v345 V0 = arr (L5 (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (embOf (V0 (Proc.devRef .tc main_arg0))) (rowOf (V0 (Proc.devRef .tc main_arg9))) (rowOf (V0 (Proc.devRef .tc main_arg10)))).h ∧ res_main_v337 V0 = arr (L5 (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (embOf (V0 (Proc.devRef .tc main_arg0))) (rowOf (V0 (Proc.devRef .tc main_arg9))) (rowOf (V0 (Proc.devRef .tc main_arg10)))).c :=
  level5 V0 _ _ (lv4 V0).1 (lv4 V0).2

/-- Level 6's arrays are the specification's L6. -/
theorem lv6 : res_main_v402 V0 = arr (L6 (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (embOf (V0 (Proc.devRef .tc main_arg0))) (rowOf (V0 (Proc.devRef .tc main_arg9))) (rowOf (V0 (Proc.devRef .tc main_arg10)))).h ∧ res_main_v394 V0 = arr (L6 (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (embOf (V0 (Proc.devRef .tc main_arg0))) (rowOf (V0 (Proc.devRef .tc main_arg9))) (rowOf (V0 (Proc.devRef .tc main_arg10)))).c :=
  level6 V0 _ _ (lv5 V0).1 (lv5 V0).2

/-- Level 7's arrays are the specification's L7. -/
theorem lv7 : res_main_v459 V0 = arr (L7 (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (embOf (V0 (Proc.devRef .tc main_arg0))) (rowOf (V0 (Proc.devRef .tc main_arg9))) (rowOf (V0 (Proc.devRef .tc main_arg10)))).h ∧ res_main_v451 V0 = arr (L7 (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (embOf (V0 (Proc.devRef .tc main_arg0))) (rowOf (V0 (Proc.devRef .tc main_arg9))) (rowOf (V0 (Proc.devRef .tc main_arg10)))).c :=
  level7 V0 _ _ (lv6 V0).1 (lv6 V0).2

/-- Level 8's arrays are the specification's L8. -/
theorem lv8 : rH slices_S1x384_S1x128_0_128 bcast_S_S1x128 (res_main_v471 V0) (res_main_v504 V0) = arr (L8 (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (embOf (V0 (Proc.devRef .tc main_arg0))) (rowOf (V0 (Proc.devRef .tc main_arg9))) (rowOf (V0 (Proc.devRef .tc main_arg10)))).h ∧ res_main_v504 V0 = arr (L8 (paramsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (embOf (V0 (Proc.devRef .tc main_arg0))) (rowOf (V0 (Proc.devRef .tc main_arg9))) (rowOf (V0 (Proc.devRef .tc main_arg10)))).c :=
  level8 V0 _ _ (lv7 V0).1 (lv7 V0).2

variable (hc : Shape.Concatenates [Cert.TreeSpec.Sh2 65536 128, Cert.TreeSpec.Sh2 16384 128, Cert.TreeSpec.Sh2 4096 128, Cert.TreeSpec.Sh2 1024 128, Cert.TreeSpec.Sh2 256 128, Cert.TreeSpec.Sh2 64 128, Cert.TreeSpec.Sh2 16 128, Cert.TreeSpec.Sh2 4 128, Cert.TreeSpec.Sh2 1 128] (Cert.TreeSpec.Sh2 87381 128) 0)
  (hb : (Cert.TreeSpec.Sh2 87381 128).BroadcastsInDim (Cert.TreeSpec.Sh3 1 87381 128) ![1, 2])

/-- The first result: the stack of the nine hidden arrays is the specification's outH. -/
theorem outH_eq :
    broadcastInDim S1x87381x128 ![1, 2] bcast_S87381x128_S1x87381x128_1_2 (concatenate S87381x128 0 [⟨S65536x128, (res_main_v60 V0)⟩, ⟨S16384x128, (res_main_v117 V0)⟩, ⟨S4096x128, (res_main_v174 V0)⟩, ⟨S1024x128, (res_main_v231 V0)⟩, ⟨S256x128, (res_main_v288 V0)⟩, ⟨S64x128, (res_main_v345 V0)⟩, ⟨S16x128, (res_main_v402 V0)⟩, ⟨S4x128, (res_main_v459 V0)⟩, ⟨S1x128, (mulf (Host.divf (broadcastInDim S1x128 ![] bcast_S_S1x128 (constant S_ .f32 0x3F800000#32)) (addf (broadcastInDim S1x128 ![] bcast_S_S1x128 (constant S_ .f32 0x3F800000#32)) (Host.exp (Host.negf (extractStridedSlice S1x128 ![0, 128] (res_main_v471 V0) slices_S1x384_S1x128_0_128))))) (Host.tanh (res_main_v504 V0)))⟩] concatenates_S65536x128_S16384x128_S4096x128_S1024x128_S256x128_S64x128_S16x128_S4x128_S1x128_S87381x128_d0)
      = outH hc hb (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  show tail hc hb (res_main_v60 V0) (res_main_v117 V0) (res_main_v174 V0) (res_main_v231 V0) (res_main_v288 V0)
      (res_main_v345 V0) (res_main_v402 V0) (res_main_v459 V0)
      (rH slices_S1x384_S1x128_0_128 bcast_S_S1x128 (res_main_v471 V0) (res_main_v504 V0)) = _
  rw [(lv0 V0).1, (lv1 V0).1, (lv2 V0).1, (lv3 V0).1, (lv4 V0).1, (lv5 V0).1, (lv6 V0).1, (lv7 V0).1, (lv8 V0).1]
  rfl

/-- The second result: the stack of the nine cell arrays is the specification's outC. -/
theorem outC_eq :
    broadcastInDim S1x87381x128 ![1, 2] bcast_S87381x128_S1x87381x128_1_2 (concatenate S87381x128 0 [⟨S65536x128, (res_main_v52 V0)⟩, ⟨S16384x128, (res_main_v109 V0)⟩, ⟨S4096x128, (res_main_v166 V0)⟩, ⟨S1024x128, (res_main_v223 V0)⟩, ⟨S256x128, (res_main_v280 V0)⟩, ⟨S64x128, (res_main_v337 V0)⟩, ⟨S16x128, (res_main_v394 V0)⟩, ⟨S4x128, (res_main_v451 V0)⟩, ⟨S1x128, (res_main_v504 V0)⟩] concatenates_S65536x128_S16384x128_S4096x128_S1024x128_S256x128_S64x128_S16x128_S4x128_S1x128_S87381x128_d0)
      = outC hc hb (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  show tail hc hb (res_main_v52 V0) (res_main_v109 V0) (res_main_v166 V0) (res_main_v223 V0) (res_main_v280 V0)
      (res_main_v337 V0) (res_main_v394 V0) (res_main_v451 V0) (res_main_v504 V0) = _
  rw [(lv0 V0).2, (lv1 V0).2, (lv2 V0).2, (lv3 V0).2, (lv4 V0).2, (lv5 V0).2, (lv6 V0).2, (lv7 V0).2, (lv8 V0).2]
  rfl

end Levels

/-- Every weakly fair execution of the reference terminates with its two results at the specification's outH and outC of
    the eleven argument arrays, and the arguments unchanged. -/
theorem run
    (hc : Shape.Concatenates [Cert.TreeSpec.Sh2 65536 128, Cert.TreeSpec.Sh2 16384 128, Cert.TreeSpec.Sh2 4096 128, Cert.TreeSpec.Sh2 1024 128, Cert.TreeSpec.Sh2 256 128, Cert.TreeSpec.Sh2 64 128, Cert.TreeSpec.Sh2 16 128, Cert.TreeSpec.Sh2 4 128, Cert.TreeSpec.Sh2 1 128] (Cert.TreeSpec.Sh2 87381 128) 0)
    (hb : (Cert.TreeSpec.Sh2 87381 128).BroadcastsInDim (Cert.TreeSpec.Sh3 1 87381 128) ![1, 2])
    (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
          r.2.mem ((c.tc : Thread Cert.ReferenceIdeal.nD Cert.ReferenceIdeal.τ).loc Cert.ReferenceIdeal.main_v514) = Cert.TreeSpec.outH hc hb (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))
          ∧ r.2.mem ((c.tc : Thread Cert.ReferenceIdeal.nD Cert.ReferenceIdeal.τ).loc Cert.ReferenceIdeal.main_v516) = Cert.TreeSpec.outC hc hb (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)) :=
  (θ_run _ _ _).mono (fun r h c => ⟨(h c).1.trans (outH_eq (launchContents m c) hc hb),
      (h c).2.1.trans (outC_eq (launchContents m c) hc hb), (h c).2.2⟩)
    (Cert.ReferenceIdeal.Value.run (F := Ideal) m ρ)

end Cert.RefSide

end
-- ==== Proof.lean ====
/-
  The certificate: the kernel program, its idealization and the idealized reference each run to the end from any memory
  with finite inputs, faulting nowhere and leaving their arguments as launched, and the two idealized programs, run from
  memories that agree on the arguments, end with the same two results.

  Both programs compute a TreeLSTM over a complete 4-ary tree of nine levels, leaves first (Proof/Spec.lean says what:
  one cell per node, the four children's rows packed side by side).  The kernel program runs one kernel region per level
  between short stretches of host operations; its run is Proof/K/Run.lean and Proof/KI/Run.lean (every buffer's final
  contents as a fold over the stretches and regions), and what the fold leaves in the two results is the specification's
  function of the arguments (Proof/KI/Value.lean).  The reference is host operations only; its run ends at the same
  function (Proof/RefRun.lean).  Nothing about the inputs' finiteness is used: every law that joins the two sides
  (the grouping of sums, the logistic function's two spellings) holds on all the extended reals.  The idealization rewrote
  no operation, so that it preserves the kernel program is the trivial statement.
-/
import proofs.«148344_j70635032150607_1_alg».proof.Defs
import proofs.«148344_j70635032150607_1_alg».proof.Proof.Gen.Kernel
import proofs.«148344_j70635032150607_1_alg».proof.Proof.Gen.KernelIdeal
import proofs.«148344_j70635032150607_1_alg».proof.Proof.Gen.ReferenceIdeal
import proofs.«148344_j70635032150607_1_alg».proof.Proof.Gen.Pre_finite_inputs
import proofs.«148344_j70635032150607_1_alg».proof.Proof.K.Run
import proofs.«148344_j70635032150607_1_alg».proof.Proof.KI.Value
import proofs.«148344_j70635032150607_1_alg».proof.Proof.RefRun
import Idealize.ShloMosaic.Adequacy
import Idealize.ShloMosaic.Init

noncomputable section

namespace Cert.Proof

open Idealize.ShloMosaic Idealize.ShloMosaic.TcCoe Idealize.SL.Sem Cert.TreeSpec

/-- The nine levels' shapes stack to the results' 87381 rows, and a leading axis of extent 1 goes in front: the two shape
    facts the specification's last step carries. -/
theorem nineStack : Shape.Concatenates [Sh2 65536 128, Sh2 16384 128, Sh2 4096 128, Sh2 1024 128, Sh2 256 128, Sh2 64 128,
    Sh2 16 128, Sh2 4 128, Sh2 1 128] (Sh2 87381 128) 0 := by decide
theorem leadAxis : (Sh2 87381 128).BroadcastsInDim (Sh3 1 87381 128) ![1, 2] := by decide

theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W19_main_arg0 m ρ c),
     (h c _ (Cert.Kernel.Hand.mem_uc Cert.Kernel.main_arg1 (by decide))).trans (Cert.Kernel.Hand.W19_main_arg1 m ρ c),
     (h c _ (Cert.Kernel.Hand.mem_uc Cert.Kernel.main_arg2 (by decide))).trans (Cert.Kernel.Hand.W19_main_arg2 m ρ c),
     (h c _ (Cert.Kernel.Hand.mem_uc Cert.Kernel.main_arg3 (by decide))).trans (Cert.Kernel.Hand.W19_main_arg3 m ρ c),
     (h c _ (Cert.Kernel.Hand.mem_uc Cert.Kernel.main_arg4 (by decide))).trans (Cert.Kernel.Hand.W19_main_arg4 m ρ c),
     (h c _ (Cert.Kernel.Hand.mem_uc Cert.Kernel.main_arg5 (by decide))).trans (Cert.Kernel.Hand.W19_main_arg5 m ρ c),
     (h c _ (Cert.Kernel.Hand.mem_uc Cert.Kernel.main_arg6 (by decide))).trans (Cert.Kernel.Hand.W19_main_arg6 m ρ c),
     (h c _ (Cert.Kernel.Hand.mem_uc Cert.Kernel.main_arg7 (by decide))).trans (Cert.Kernel.Hand.W19_main_arg7 m ρ c),
     (h c _ (Cert.Kernel.Hand.mem_uc Cert.Kernel.main_arg8 (by decide))).trans (Cert.Kernel.Hand.W19_main_arg8 m ρ c),
     (h c _ (Cert.Kernel.Hand.mem_uc Cert.Kernel.main_arg9 (by decide))).trans (Cert.Kernel.Hand.W19_main_arg9 m ρ c),
     (h c _ (Cert.Kernel.Hand.mem_uc Cert.Kernel.main_arg10 (by decide))).trans (Cert.Kernel.Hand.W19_main_arg10 m ρ c)⟩)
    (Cert.Kernel.Hand.run_all (F := Bits) m ρ)

theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W19_main_arg0 m ρ c),
     (h c _ (Cert.KernelIdeal.Hand.mem_uc Cert.KernelIdeal.main_arg1 (by decide))).trans (Cert.KernelIdeal.Hand.W19_main_arg1 m ρ c),
     (h c _ (Cert.KernelIdeal.Hand.mem_uc Cert.KernelIdeal.main_arg2 (by decide))).trans (Cert.KernelIdeal.Hand.W19_main_arg2 m ρ c),
     (h c _ (Cert.KernelIdeal.Hand.mem_uc Cert.KernelIdeal.main_arg3 (by decide))).trans (Cert.KernelIdeal.Hand.W19_main_arg3 m ρ c),
     (h c _ (Cert.KernelIdeal.Hand.mem_uc Cert.KernelIdeal.main_arg4 (by decide))).trans (Cert.KernelIdeal.Hand.W19_main_arg4 m ρ c),
     (h c _ (Cert.KernelIdeal.Hand.mem_uc Cert.KernelIdeal.main_arg5 (by decide))).trans (Cert.KernelIdeal.Hand.W19_main_arg5 m ρ c),
     (h c _ (Cert.KernelIdeal.Hand.mem_uc Cert.KernelIdeal.main_arg6 (by decide))).trans (Cert.KernelIdeal.Hand.W19_main_arg6 m ρ c),
     (h c _ (Cert.KernelIdeal.Hand.mem_uc Cert.KernelIdeal.main_arg7 (by decide))).trans (Cert.KernelIdeal.Hand.W19_main_arg7 m ρ c),
     (h c _ (Cert.KernelIdeal.Hand.mem_uc Cert.KernelIdeal.main_arg8 (by decide))).trans (Cert.KernelIdeal.Hand.W19_main_arg8 m ρ c),
     (h c _ (Cert.KernelIdeal.Hand.mem_uc Cert.KernelIdeal.main_arg9 (by decide))).trans (Cert.KernelIdeal.Hand.W19_main_arg9 m ρ c),
     (h c _ (Cert.KernelIdeal.Hand.mem_uc Cert.KernelIdeal.main_arg10 (by decide))).trans (Cert.KernelIdeal.Hand.W19_main_arg10 m ρ c)⟩)
    (Cert.KernelIdeal.Hand.run_all (F := Ideal) m ρ)

theorem frame_ri : Cert.frame_ReferenceIdeal := fun m ρ _ =>
  (θ_run (Cert.ReferenceIdeal.defs (F := Ideal)) _ _).mono (fun _ h c => (h c).2.2) (Cert.RefSide.run nineStack leadAxis m ρ)

theorem preserves : Cert.preserves_Kernel_KernelIdeal := trivial

theorem algebraic : Cert.algebraic_KernelIdeal_ReferenceIdeal := by
  intro m ρ m' ρ' _ hagree
  refine ⟨fun c => outH nineStack leadAxis (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => outC nineStack leadAxis (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run (Cert.KernelIdeal.defs (F := Ideal)) _ _).mono (fun r h c =>
      ⟨(h c _ (Cert.KernelIdeal.Hand.mem_uc Cert.KernelIdeal.main_v43 (by decide))).trans (Cert.KernelIdeal.Hand.W19_outH m ρ c nineStack leadAxis),
       (h c _ (Cert.KernelIdeal.Hand.mem_uc Cert.KernelIdeal.main_v45 (by decide))).trans (Cert.KernelIdeal.Hand.W19_outC m ρ c nineStack leadAxis),
       (h c _ (Cert.KernelIdeal.Hand.mem_uc Cert.KernelIdeal.main_arg0 (by decide))).trans (Cert.KernelIdeal.Hand.W19_main_arg0 m ρ c),
       (h c _ (Cert.KernelIdeal.Hand.mem_uc Cert.KernelIdeal.main_arg1 (by decide))).trans (Cert.KernelIdeal.Hand.W19_main_arg1 m ρ c),
       (h c _ (Cert.KernelIdeal.Hand.mem_uc Cert.KernelIdeal.main_arg2 (by decide))).trans (Cert.KernelIdeal.Hand.W19_main_arg2 m ρ c),
       (h c _ (Cert.KernelIdeal.Hand.mem_uc Cert.KernelIdeal.main_arg3 (by decide))).trans (Cert.KernelIdeal.Hand.W19_main_arg3 m ρ c),
       (h c _ (Cert.KernelIdeal.Hand.mem_uc Cert.KernelIdeal.main_arg4 (by decide))).trans (Cert.KernelIdeal.Hand.W19_main_arg4 m ρ c),
       (h c _ (Cert.KernelIdeal.Hand.mem_uc Cert.KernelIdeal.main_arg5 (by decide))).trans (Cert.KernelIdeal.Hand.W19_main_arg5 m ρ c),
       (h c _ (Cert.KernelIdeal.Hand.mem_uc Cert.KernelIdeal.main_arg6 (by decide))).trans (Cert.KernelIdeal.Hand.W19_main_arg6 m ρ c),
       (h c _ (Cert.KernelIdeal.Hand.mem_uc Cert.KernelIdeal.main_arg7 (by decide))).trans (Cert.KernelIdeal.Hand.W19_main_arg7 m ρ c),
       (h c _ (Cert.KernelIdeal.Hand.mem_uc Cert.KernelIdeal.main_arg8 (by decide))).trans (Cert.KernelIdeal.Hand.W19_main_arg8 m ρ c),
       (h c _ (Cert.KernelIdeal.Hand.mem_uc Cert.KernelIdeal.main_arg9 (by decide))).trans (Cert.KernelIdeal.Hand.W19_main_arg9 m ρ c),
       (h c _ (Cert.KernelIdeal.Hand.mem_uc Cert.KernelIdeal.main_arg10 (by decide))).trans (Cert.KernelIdeal.Hand.W19_main_arg10 m ρ c)⟩)
      (Cert.KernelIdeal.Hand.run_all (F := Ideal) m ρ)
  · refine (θ_run (Cert.ReferenceIdeal.defs (F := Ideal)) _ _).mono (fun r h c => ?_) (Cert.RefSide.run nineStack leadAxis m' ρ')
    obtain ⟨h1, h2, hrest⟩ := h c
    obtain ⟨e0, e1, e2, e3, e4, e5, e6, e7, e8, e9, e10⟩ := hagree c
    refine ⟨?_, ?_, hrest⟩
    · rw [h1, e0, e1, e2, e3, e4, e5, e6, e7, e8, e9, e10]
    · rw [h2, e0, e1, e2, e3, e4, e5, e6, e7, e8, e9, e10]

end Cert.Proof

theorem Cert.Proof.claim : Cert.Claim := ⟨Cert.Kernel.Gen.facts, Cert.KernelIdeal.Gen.facts, Cert.ReferenceIdeal.Gen.facts, Cert.Pre_finite_inputs.Gen.facts,
  Cert.Proof.frame_k, Cert.Proof.frame_ki, Cert.Proof.frame_ri, Cert.Proof.preserves, Cert.Proof.algebraic⟩

end
